-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v214) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x20 : Shape := ⟨2, ![100000, 20]⟩
abbrev S2x640000 : Shape := ⟨2, ![2, 640000]⟩
abbrev S100000 : Shape := ⟨1, ![100000]⟩
abbrev S20x128 : Shape := ⟨2, ![20, 128]⟩
abbrev S128 : Shape := ⟨1, ![128]⟩
abbrev S128x128 : Shape := ⟨2, ![128, 128]⟩
abbrev S256x128 : Shape := ⟨2, ![256, 128]⟩
abbrev S128x64 : Shape := ⟨2, ![128, 64]⟩
abbrev S64 : Shape := ⟨1, ![64]⟩
abbrev S_ : Shape := ⟨0, ![]⟩

class Facts : Prop where
  bcast_S_S100000x20 : S_.BroadcastsInDim S100000x20 (![] : Fin 0 → Fin S100000x20.rank)
  reducesTo_S100000x20_S_d0_1 : S100000x20.ReducesTo [0, 1] S_
  h_S_ : 0 < S_.numel
  bcast_S_S20x128 : S_.BroadcastsInDim S20x128 (![] : Fin 0 → Fin S20x128.rank)
  reducesTo_S20x128_S_d0_1 : S20x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg16 : FVec F S128 .f32) (main_arg17 : FVec F S128x64 .f32) (main_arg18 : FVec F S64 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x64 .f32 := Host.absf main_arg17
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  main_v83

def fn_part3 {F : FTy → Type} [FloatOps F] (main_arg13 : FVec F S128 .f32) (main_arg14 : FVec F S128 .f32) (main_arg15 : FVec F S256x128 .f32) (main_arg16 : FVec F S128 .f32) (main_arg17 : FVec F S128x64 .f32) (main_arg18 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S256x128 .f32 := Host.absf main_arg15
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg16 main_arg17 main_arg18 main_v63 main_v67

def fn_part2 {F : FTy → Type} [FloatOps F] (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S256x128 .f32) (main_arg16 : FVec F S128 .f32) (main_arg17 : FVec F S128x64 .f32) (main_arg18 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S256x128 .f32) (main_arg16 : FVec F S128 .f32) (main_arg17 : FVec F S128x64 .f32) (main_arg18 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S100000x20 .f32) (main_arg1 : IVec S2x640000 32) (main_arg2 : IVec S100000 32) (main_arg3 : FVec F S20x128 .f32) (main_arg4 : FVec F S128 .f32) (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S256x128 .f32) (main_arg16 : FVec F S128 .f32) (main_arg17 : FVec F S128x64 .f32) (main_arg18 : FVec F S64 .f32) : IVec S_ 1 :=
  let main_v0 : FVec F S100000x20 .f32 := Host.absf main_arg0
  let main_cst : FVec F S_ .f32 := constant S_ .f32 0x7F800000#32
  let main_v1 : FVec F S100000x20 .f32 := broadcastInDim S100000x20 ![] bcast_S_S100000x20 main_cst
  let main_v2 : IVec S100000x20 1 := cmpf .olt main_v0 main_v1
  let main_c : IVec S_ 1 := constantI S_ 1 1#1
  let main_v3 : IVec S_ 1 := (fun x v => Host.reduce IntOp.andi x v reducesTo_S100000x20_S_d0_1 h_S_) main_v2 main_c
  let main_v4 : FVec F S20x128 .f32 := Host.absf main_arg3
  let main_cst_0 : FVec F S_ .f32 := constant S_ .f32 0x7F800000#32
  let main_v5 : FVec F S20x128 .f32 := broadcastInDim S20x128 ![] bcast_S_S20x128 main_cst_0
  let main_v6 : IVec S20x128 1 := cmpf .olt main_v4 main_v5
  let main_c_1 : IVec S_ 1 := constantI S_ 1 1#1
  let main_v7 : IVec S_ 1 := (fun x v => Host.reduce IntOp.andi x v reducesTo_S20x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S100000x20 : Shape := ⟨2, ![100000, 20]⟩
abbrev S2x640000 : Shape := ⟨2, ![2, 640000]⟩
abbrev S100000 : Shape := ⟨1, ![100000]⟩
abbrev S20x128 : Shape := ⟨2, ![20, 128]⟩
abbrev S128 : Shape := ⟨1, ![128]⟩
abbrev S128x128 : Shape := ⟨2, ![128, 128]⟩
abbrev S256x128 : Shape := ⟨2, ![256, 128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S100000x1 : Shape := ⟨2, ![100000, 1]⟩
abbrev S100000x128 : Shape := ⟨2, ![100000, 128]⟩
abbrev S5000x20 : Shape := ⟨2, ![5000, 20]⟩
abbrev S5000x1 : Shape := ⟨2, ![5000, 1]⟩
abbrev S5000x128 : Shape := ⟨2, ![5000, 128]⟩
abbrev S640000x128 : Shape := ⟨2, ![640000, 128]⟩
abbrev S1x128 : Shape := ⟨2, ![1, 128]⟩
abbrev S10000x128 : Shape := ⟨2, ![10000, 128]⟩
abbrev S256 : Shape := ⟨1, ![256]⟩
abbrev S256x1 : Shape := ⟨2, ![256, 1]⟩
abbrev S256x256 : Shape := ⟨2, ![256, 256]⟩
abbrev S1x64 : Shape := ⟨2, ![1, 64]⟩
abbrev S256x64 : Shape := ⟨2, ![256, 64]⟩

abbrev nBuf : Space → Nat
  | .hbm => 150
  | .vmem => 90
  | .smem => 0
  | _ => 0

abbrev hbmTy0_0 (i : Nat) : BufTy := match i % 128 with
  | 0 => ⟨S100000x20, .f32⟩
  | 1 => ⟨S2x640000, .i32⟩
  | 2 => ⟨S100000, .i32⟩
  | 3 => ⟨S20x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S256x128, .f32⟩
  | 16 => ⟨S128, .f32⟩
  | 17 => ⟨S128x64, .f32⟩
  | 18 => ⟨S64, .f32⟩
  | 19 => ⟨S1x640000, .i32⟩
  | 20 => ⟨S640000, .i32⟩
  | 21 => ⟨S1x640000, .i32⟩
  | 22 => ⟨S640000, .i32⟩
  | 23 => ⟨S_, .f32⟩
  | 24 => ⟨S640000, .f32⟩
  | 25 => ⟨S_, .f32⟩
  | 26 => ⟨S100000, .f32⟩
  | 27 => ⟨S640000x1, .i32⟩
  | 28 => ⟨S100000, .f32⟩
  | 29 => ⟨S_, .f32⟩
  | 30 => ⟨S100000, .f32⟩
  | 31 => ⟨S100000, .f32⟩
  | 32 => ⟨S100000, .f32⟩
  | 33 => ⟨S100000x1, .f32⟩
  | 34 => ⟨S100000x128, .f32⟩
  | 35 => ⟨S_, .i32⟩
  | 36 => ⟨S640000, .i32⟩
  | 37 => ⟨S640000, .i1⟩
  | 38 => ⟨S_, .i32⟩
  | 39 => ⟨S640000, .i32⟩
  | 40 => ⟨S640000, .i32⟩
  | 41 => ⟨S640000, .i32⟩
  | 42 => ⟨S640000x1, .i32⟩
  | 43 => ⟨S640000x128, .f32⟩
  | 44 => ⟨S_, .f32⟩
  | 45 => ⟨S100000x128, .f32⟩
  | 46 => ⟨S640000x1, .i32⟩
  | 47 => ⟨S100000x128, .f32⟩
  | 48 => ⟨S1x128, .f32⟩
  | 49 => ⟨S100000x128, .f32⟩
  | 50 => ⟨S1x128, .f32⟩
  | 51 => ⟨S1x128, .f32⟩
  | 52 => ⟨S_, .f32⟩
  | 53 => ⟨S1x128, .f32⟩
  | 54 => ⟨S1x128, .f32⟩
  | 55 => ⟨S_, .f32⟩
  | 56 => ⟨S1x128, .f32⟩
  | 57 => ⟨S1x128, .f32⟩
  | 58 => ⟨S1x128, .f32⟩
  | 59 => ⟨S1x128, .f32⟩
  | 60 => ⟨S_, .f32⟩
  | 61 => ⟨S1x128, .f32⟩
  | 62 => ⟨S1x128, .f32⟩
  | 63 => ⟨S1x128, .f32⟩
  | 64 => ⟨S1x128, .f32⟩
  | 65 => ⟨S100000x128, .f32⟩
  | 66 => ⟨S100000x128, .f32⟩
  | 67 => ⟨S_, .i32⟩
  | 68 => ⟨S640000, .i32⟩
  | 69 => ⟨S640000, .i1⟩
  | 70 => ⟨S_, .i32⟩
  | 71 => ⟨S640000, .i32⟩
  | 72 => ⟨S640000, .i32⟩
  | 73 => ⟨S640000, .i32⟩
  | 74 => ⟨S640000x1, .i32⟩
  | 75 => ⟨S640000x128, .f32⟩
  | 76 => ⟨S_, .f32⟩
  | 77 => ⟨S100000x128, .f32⟩
  | 78 => ⟨S640000x1, .i32⟩
  | 79 => ⟨S100000x128, .f32⟩
  | 80 => ⟨S1x128, .f32⟩
  | 81 => ⟨S100000x128, .f32⟩
  | 82 => ⟨S1x128, .f32⟩
  | 83 => ⟨S1x128, .f32⟩
  | 84 => ⟨S_, .f32⟩
  | 85 => ⟨S1x128, .f32⟩
  | 86 => ⟨S1x128, .f32⟩
  | 87 => ⟨S_, .f32⟩
  | 88 => ⟨S1x128, .f32⟩
  | 89 => ⟨S1x128, .f32⟩
  | 90 => ⟨S1x128, .f32⟩
  | 91 => ⟨S1x128, .f32⟩
  | 92 => ⟨S_, .f32⟩
  | 93 => ⟨S1x128, .f32⟩
  | 94 => ⟨S1x128, .f32⟩
  | 95 => ⟨S1x128, .f32⟩
  | 96 => ⟨S1x128, .f32⟩
  | 97 => ⟨S100000x128, .f32⟩
  | 98 => ⟨S100000x128, .f32⟩
  | 99 => ⟨S_, .i32⟩
  | 100 => ⟨S640000, .i32⟩
  | 101 => ⟨S640000, .i1⟩
  | 102 => ⟨S_, .i32⟩
  | 103 => ⟨S640000, .i32⟩
  | 104 => ⟨S640000, .i32⟩
  | 105 => ⟨S640000, .i32⟩
  | 106 => ⟨S640000x1, .i32⟩
  | 107 => ⟨S640000x128, .f32⟩
  | 108 => ⟨S_, .f32⟩
  | 109 => ⟨S100000x128, .f32⟩
  | 110 => ⟨S640000x1, .i32⟩
  | 111 => ⟨S100000x128, .f32⟩
  | 112 => ⟨S1x128, .f32⟩
  | 113 => ⟨S100000x128, .f32⟩
  | 114 => ⟨S1x128, .f32⟩
  | 115 => ⟨S1x128, .f32⟩
  | 116 => ⟨S_, .f32⟩
  | 117 => ⟨S1x128, .f32⟩
  | 118 => ⟨S1x128, .f32⟩
  | 119 => ⟨S_, .f32⟩
  | 120 => ⟨S1x128, .f32⟩
  | 121 => ⟨S1x128, .f32⟩
  | 122 => ⟨S1x128, .f32⟩
  | 123 => ⟨S1x128, .f32⟩
  | 124 => ⟨S_, .f32⟩
  | 125 => ⟨S1x128, .f32⟩
  | 126 => ⟨S1x128, .f32⟩
  | 127 => ⟨S1x128, .f32⟩
  | _ => ⟨S100000x20, .f32⟩

abbrev hbmTy0_1 (i : Nat) : BufTy := match i % 128 with
  | 0 => ⟨S1x128, .f32⟩
  | 1 => ⟨S100000x128, .f32⟩
  | 2 => ⟨S_, .f32⟩
  | 3 => ⟨S100000, .f32⟩
  | 4 => ⟨S_, .f32⟩
  | 5 => ⟨S256, .f32⟩
  | 6 => ⟨S100000x1, .i32⟩
  | 7 => ⟨S256, .f32⟩
  | 8 => ⟨S_, .f32⟩
  | 9 => ⟨S256x128, .f32⟩
  | 10 => ⟨S100000x1, .i32⟩
  | 11 => ⟨S256x128, .f32⟩
  | 12 => ⟨S_, .f32⟩
  | 13 => ⟨S256, .f32⟩
  | 14 => ⟨S256, .f32⟩
  | 15 => ⟨S256x1, .f32⟩
  | 16 => ⟨S256x128, .f32⟩
  | 17 => ⟨S256x128, .f32⟩
  | 18 => ⟨S256x256, .f32⟩
  | 19 => ⟨S1x128, .f32⟩
  | 20 => ⟨S1x64, .f32⟩
  | 21 => ⟨S256x64, .f32⟩
  | _ => ⟨S100000x20, .f32⟩

abbrev hbmTy (i : Nat) : BufTy := match i / 128 with
  | 0 => hbmTy0_0 i
  | 1 => hbmTy0_1 i
  | _ => ⟨S100000x20, .f32⟩

abbrev bufTy : (tb : Table) → Fin (tcTables nBuf tb) → BufTy
  | .hbm, ⟨i, _⟩ => hbmTy i
  | .local _ .vmem, ⟨0, _⟩ => ⟨S5000x20, .f32⟩
  | .local _ .vmem, ⟨1, _⟩ => ⟨S5000x20, .f32⟩
  | .local _ .vmem, ⟨2, _⟩ => ⟨S20x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S10000x128, .f32⟩
  | .local _ .vmem, ⟨21, _⟩ => ⟨S10000x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S10000x128, .f32⟩
  | .local _ .vmem, ⟨27, _⟩ => ⟨S10000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x1, .f32⟩
  | .local _ .vmem, ⟨32, _⟩ => ⟨S5000x1, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x1, .f32⟩
  | .local _ .vmem, ⟨40, _⟩ => ⟨S5000x1, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S10000x128, .f32⟩
  | .local _ .vmem, ⟨49, _⟩ => ⟨S10000x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S10000x128, .f32⟩
  | .local _ .vmem, ⟨55, _⟩ => ⟨S10000x128, .f32⟩
  | .local _ .vmem, ⟨56, _⟩ => ⟨S5000x128, .f32⟩
  | .local _ .vmem, ⟨57, _⟩ => ⟨S5000x128, .f32⟩
  | .local _ .vmem, ⟨58, _⟩ => ⟨S128x128, .f32⟩
  | .local _ .vmem, ⟨59, _⟩ => ⟨S5000x1, .f32⟩
  | .local _ .vmem, ⟨60, _⟩ => ⟨S5000x1, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S5000x1, .f32⟩
  | .local _ .vmem, ⟨68, _⟩ => ⟨S5000x1, .f32⟩
  | .local _ .vmem, ⟨69, _⟩ => ⟨S1x128, .f32⟩
  | .local _ .vmem, ⟨70, _⟩ => ⟨S5000x128, .f32⟩
  | .local _ .vmem, ⟨71, _⟩ => ⟨S5000x128, .f32⟩
  | .local _ .vmem, ⟨72, _⟩ => ⟨S1x128, .f32⟩
  | .local _ .vmem, ⟨73, _⟩ => ⟨S1x128, .f32⟩
  | .local _ .vmem, ⟨74, _⟩ => ⟨S1x128, .f32⟩
  | .local _ .vmem, ⟨75, _⟩ => ⟨S1x128, .f32⟩
  | .local _ .vmem, ⟨76, _⟩ => ⟨S10000x128, .f32⟩
  | .local _ .vmem, ⟨77, _⟩ => ⟨S10000x128, .f32⟩
  | .local _ .vmem, ⟨78, _⟩ => ⟨S1x128, .f32⟩
  | .local _ .vmem, ⟨79, _⟩ => ⟨S1x128, .f32⟩
  | .local _ .vmem, ⟨80, _⟩ => ⟨S1x128, .f32⟩
  | .local _ .vmem, ⟨81, _⟩ => ⟨S1x128, .f32⟩
  | .local _ .vmem, ⟨82, _⟩ => ⟨S10000x128, .f32⟩
  | .local _ .vmem, ⟨83, _⟩ => ⟨S10000x128, .f32⟩
  | .local _ .vmem, ⟨84, _⟩ => ⟨S256x256, .f32⟩
  | .local _ .vmem, ⟨85, _⟩ => ⟨S256x128, .f32⟩
  | .local _ .vmem, ⟨86, _⟩ => ⟨S1x128, .f32⟩
  | .local _ .vmem, ⟨87, _⟩ => ⟨S128x64, .f32⟩
  | .local _ .vmem, ⟨88, _⟩ => ⟨S1x64, .f32⟩
  | .local _ .vmem, ⟨89, _⟩ => ⟨S256x64, .f32⟩
  | _, _ => ⟨S100000x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c : Ref sig .tc := ⟨.hbm, 35, rfl⟩
abbrev main_v13 : Ref sig .tc := ⟨.hbm, 36, rfl⟩
abbrev main_v14 : Ref sig .tc := ⟨.hbm, 37, rfl⟩
abbrev main_c_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_3 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24_0 : Ref sig .tc := ⟨.hbm, 49, rfl⟩
abbrev main_v24_1 : Ref sig .tc := ⟨.hbm, 50, rfl⟩
abbrev main_v24_2 : Ref sig .tc := ⟨.hbm, 51, rfl⟩
abbrev main_cst_4 : Ref sig .tc := ⟨.hbm, 52, rfl⟩
abbrev main_v25 : Ref sig .tc := ⟨.hbm, 53, rfl⟩
abbrev main_v26 : Ref sig .tc := ⟨.hbm, 54, rfl⟩
abbrev main_cst_5 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_6 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_7 : Ref sig .tc := ⟨.hbm, 67, rfl⟩
abbrev main_v37 : Ref sig .tc := ⟨.hbm, 68, rfl⟩
abbrev main_v38 : Ref sig .tc := ⟨.hbm, 69, rfl⟩
abbrev main_c_8 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_9 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48_0 : Ref sig .tc := ⟨.hbm, 81, rfl⟩
abbrev main_v48_1 : Ref sig .tc := ⟨.hbm, 82, rfl⟩
abbrev main_v48_2 : Ref sig .tc := ⟨.hbm, 83, rfl⟩
abbrev main_cst_10 : Ref sig .tc := ⟨.hbm, 84, rfl⟩
abbrev main_v49 : Ref sig .tc := ⟨.hbm, 85, rfl⟩
abbrev main_v50 : Ref sig .tc := ⟨.hbm, 86, rfl⟩
abbrev main_cst_11 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_12 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_c_13 : Ref sig .tc := ⟨.hbm, 99, rfl⟩
abbrev main_v61 : Ref sig .tc := ⟨.hbm, 100, rfl⟩
abbrev main_v62 : Ref sig .tc := ⟨.hbm, 101, rfl⟩
abbrev main_c_14 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_15 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72_0 : Ref sig .tc := ⟨.hbm, 113, rfl⟩
abbrev main_v72_1 : Ref sig .tc := ⟨.hbm, 114, rfl⟩
abbrev main_v72_2 : Ref sig .tc := ⟨.hbm, 115, rfl⟩
abbrev main_cst_16 : Ref sig .tc := ⟨.hbm, 116, rfl⟩
abbrev main_v73 : Ref sig .tc := ⟨.hbm, 117, rfl⟩
abbrev main_v74 : Ref sig .tc := ⟨.hbm, 118, rfl⟩
abbrev main_cst_17 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_cst_18 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_cst_19 : Ref sig .tc := ⟨.hbm, 130, rfl⟩
abbrev main_v84 : Ref sig .tc := ⟨.hbm, 131, rfl⟩
abbrev main_cst_20 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_cst_21 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_cst_22 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_scratch0 : Ref sig .tc := ⟨.vmem, 18, rfl⟩
abbrev cc1_scratch1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg2_1 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg4_1 : Ref sig .tc := ⟨.vmem, 43, rfl⟩
abbrev cc4_stg5_0 : Ref sig .tc := ⟨.vmem, 44, rfl⟩
abbrev cc4_stg6_0 : Ref sig .tc := ⟨.vmem, 45, rfl⟩
abbrev cc4_scratch0 : Ref sig .tc := ⟨.vmem, 46, rfl⟩
abbrev cc4_scratch1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg5_0 : Ref sig .tc := ⟨.vmem, 54, rfl⟩
abbrev cc5_stg5_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg2_0 : Ref sig .tc := ⟨.vmem, 59, rfl⟩
abbrev cc6_stg2_1 : Ref sig .tc := ⟨.vmem, 60, rfl⟩
abbrev cc6_stg3_0 : Ref sig .tc := ⟨.vmem, 61, rfl⟩
abbrev cc6_stg3_1 : Ref sig .tc := ⟨.vmem, 62, rfl⟩
abbrev cc7_stg0_0 : Ref sig .tc := ⟨.vmem, 63, rfl⟩
abbrev cc7_stg0_1 : Ref sig .tc := ⟨.vmem, 64, rfl⟩
abbrev cc7_stg1_0 : Ref sig .tc := ⟨.vmem, 65, rfl⟩
abbrev cc7_stg1_1 : Ref sig .tc := ⟨.vmem, 66, rfl⟩
abbrev cc7_stg2_0 : Ref sig .tc := ⟨.vmem, 67, rfl⟩
abbrev cc7_stg2_1 : Ref sig .tc := ⟨.vmem, 68, rfl⟩
abbrev cc7_stg3_0 : Ref sig .tc := ⟨.vmem, 69, rfl⟩
abbrev cc7_stg4_0 : Ref sig .tc := ⟨.vmem, 70, rfl⟩
abbrev cc7_stg4_1 : Ref sig .tc := ⟨.vmem, 71, rfl⟩
abbrev cc7_stg5_0 : Ref sig .tc := ⟨.vmem, 72, rfl⟩
abbrev cc7_stg6_0 : Ref sig .tc := ⟨.vmem, 73, rfl⟩
abbrev cc7_scratch0 : Ref sig .tc := ⟨.vmem, 74, rfl⟩
abbrev cc7_scratch1 : Ref sig .tc := ⟨.vmem, 75, rfl⟩
abbrev cc8_stg0_0 : Ref sig .tc := ⟨.vmem, 76, rfl⟩
abbrev cc8_stg0_1 : Ref sig .tc := ⟨.vmem, 77, rfl⟩
abbrev cc8_stg1_0 : Ref sig .tc := ⟨.vmem, 78, rfl⟩
abbrev cc8_stg2_0 : Ref sig .tc := ⟨.vmem, 79, rfl⟩
abbrev cc8_stg3_0 : Ref sig .tc := ⟨.vmem, 80, rfl⟩
abbrev cc8_stg4_0 : Ref sig .tc := ⟨.vmem, 81, rfl⟩
abbrev cc8_stg5_0 : Ref sig .tc := ⟨.vmem, 82, rfl⟩
abbrev cc8_stg5_1 : Ref sig .tc := ⟨.vmem, 83, rfl⟩
abbrev cc9_stg0_0 : Ref sig .tc := ⟨.vmem, 84, rfl⟩
abbrev cc9_stg1_0 : Ref sig .tc := ⟨.vmem, 85, rfl⟩
abbrev cc9_stg2_0 : Ref sig .tc := ⟨.vmem, 86, rfl⟩
abbrev cc9_stg3_0 : Ref sig .tc := ⟨.vmem, 87, rfl⟩
abbrev cc9_stg4_0 : Ref sig .tc := ⟨.vmem, 88, rfl⟩
abbrev cc9_stg5_0 : Ref sig .tc := ⟨.vmem, 89, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem6_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem2_1 : DmaSem sig := 30
abbrev cc3_sem3_0 : DmaSem sig := 31
abbrev cc3_sem3_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem2_1 : DmaSem sig := 38
abbrev cc4_sem3_0 : DmaSem sig := 39
abbrev cc4_sem4_0 : DmaSem sig := 40
abbrev cc4_sem4_1 : DmaSem sig := 41
abbrev cc4_sem5_0 : DmaSem sig := 42
abbrev cc4_sem6_0 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem5_1 : DmaSem sig := 51
abbrev cc6_sem0_0 : DmaSem sig := 52
abbrev cc6_sem0_1 : DmaSem sig := 53
abbrev cc6_sem1_0 : DmaSem sig := 54
abbrev cc6_sem2_0 : DmaSem sig := 55
abbrev cc6_sem2_1 : DmaSem sig := 56
abbrev cc6_sem3_0 : DmaSem sig := 57
abbrev cc6_sem3_1 : DmaSem sig := 58
abbrev cc7_sem0_0 : DmaSem sig := 59
abbrev cc7_sem0_1 : DmaSem sig := 60
abbrev cc7_sem1_0 : DmaSem sig := 61
abbrev cc7_sem1_1 : DmaSem sig := 62
abbrev cc7_sem2_0 : DmaSem sig := 63
abbrev cc7_sem2_1 : DmaSem sig := 64
abbrev cc7_sem3_0 : DmaSem sig := 65
abbrev cc7_sem4_0 : DmaSem sig := 66
abbrev cc7_sem4_1 : DmaSem sig := 67
abbrev cc7_sem5_0 : DmaSem sig := 68
abbrev cc7_sem6_0 : DmaSem sig := 69
abbrev cc8_sem0_0 : DmaSem sig := 70
abbrev cc8_sem0_1 : DmaSem sig := 71
abbrev cc8_sem1_0 : DmaSem sig := 72
abbrev cc8_sem2_0 : DmaSem sig := 73
abbrev cc8_sem3_0 : DmaSem sig := 74
abbrev cc8_sem4_0 : DmaSem sig := 75
abbrev cc8_sem5_0 : DmaSem sig := 76
abbrev cc8_sem5_1 : DmaSem sig := 77
abbrev cc9_sem0_0 : DmaSem sig := 78
abbrev cc9_sem1_0 : DmaSem sig := 79
abbrev cc9_sem2_0 : DmaSem sig := 80
abbrev cc9_sem3_0 : DmaSem sig := 81
abbrev cc9_sem4_0 : DmaSem sig := 82
abbrev cc9_sem5_0 : DmaSem sig := 83

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v32 : BitVec 1 := Scalar.cmpi .eq arg0 c19_i32
  let v33 : BitVec 32 := Scalar.extui v32
  let c0_i32_19 : BitVec 32 := 0#32
  let v34 : BitVec 1 := Scalar.cmpi .ne v33 c0_i32_19
  v34

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v32 : BitVec 1 := Scalar.cmpi .eq arg0 c19_i32
  let v33 : BitVec 32 := Scalar.extui v32
  let c0_i32_19 : BitVec 32 := 0#32
  let v34 : BitVec 1 := Scalar.cmpi .ne v33 c0_i32_19
  v34

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def k7_cond2 (i : grid7.Coords) : BitVec 1 :=
  let arg0 : BitVec 32 := BitVec.ofNat 32 (i 0).val
  let c19_i32 : BitVec 32 := 19#32
  let v32 : BitVec 1 := Scalar.cmpi .eq arg0 c19_i32
  let v33 : BitVec 32 := Scalar.extui v32
  let c0_i32_19 : BitVec 32 := 0#32
  let v34 : BitVec 1 := Scalar.cmpi .ne v33 c0_i32_19
  v34

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S10000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S256x256 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S256x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S256x64 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  shapeCasts_S100000_S100000x1 : S100000.ShapeCasts S100000x1
  inb_S5000x20_S5000x20_0_0 : ∀ a, (![0, 0] : Fin 2 → Nat) a + S5000x20.size a ≤ S5000x20.size a
  h_S5000x20 : 0 < S5000x20.numel
  bitsLt_bf16_f32 : FTy.bits .bf16 < FTy.bits .f32
  inb_S20x128_S20x128_0_0 : ∀ a, (![0, 0] : Fin 2 → Nat) a + S20x128.size a ≤ S20x128.size a
  h_S20x128 : 0 < S20x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  broadcasts_S1x128_S5000x128 : S1x128.Broadcasts S5000x128
  reduces_S5000x128_S128 : S5000x128.Reduces [0] S128
  bcast_S_S1x128 : S_.BroadcastsInDim S1x128 (![] : Fin 0 → Fin S1x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  bcast_S_S256 : S_.BroadcastsInDim S256 (![] : Fin 0 → Fin S256.rank)
  bcast_S100000_S100000x1_0 : S100000.BroadcastsInDim S100000x1 (![0] : Fin 1 → Fin S100000x1.rank)
  bcast_S_S256x128 : S_.BroadcastsInDim S256x128 (![] : Fin 0 → Fin S256x128.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  concatenates_S256x128_S256x128_S256x256_d1 : Shape.Concatenates [S256x128, S256x128] S256x256 1
  shapeCasts_S64_S1x64 : S64.ShapeCasts S1x64
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  broadcasts_S1x128_S256x128 : S1x128.Broadcasts S256x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S256x64_S256x64_0_0 : ∀ a, (![0, 0] : Fin 2 → Nat) a + S256x64.size a ≤ S256x64.size a
  h_S256x64 : 0 < S256x64.numel
  scatter_S100000_S640000x1_S640000_n_0_0_1_wf : ScatterDims.WF S100000 S640000x1 S640000 [] [0] [0] 1
  dot_S5000x20_S20x128_S5000x128_1_0_0_1_n_n_wf : DotDims.WF S5000x20 S20x128 S5000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  scatter_S256_S100000x1_S100000_n_0_0_1_wf : ScatterDims.WF S256 S100000x1 S100000 [] [0] [0] 1
  scatter_S256x128_S100000x1_S100000x128_1_0_0_1_wf : ScatterDims.WF S256x128 S100000x1 S100000x128 [1] [0] [0] 1
  dot_S256x256_S256x128_S256x128_1_0_0_1_n_n_wf : DotDims.WF S256x256 S256x128 S256x128 [1] [0] [0] [1] [] []
  dot_S256x128_S128x64_S256x64_1_0_0_1_n_n_wf : DotDims.WF S256x128 S128x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x20.size a ≤ S100000x20.size a
  hwx0_0 : ∀ i : grid0.Coords, EltTy.bits .f32 = 32 ∨ (Rect.block (s := S100000x20) S5000x20.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x128.size a ≤ S20x128.size a
  hwx0_1 : ∀ i : grid0.Coords, EltTy.bits .f32 = 32 ∨ (Rect.block (s := S20x128) S20x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S100000x128.size a
  hwx2_5 : ∀ i : grid2.Coords, EltTy.bits .f32 = 32 ∨ (Rect.block (s := S100000x128) S10000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x128.size a ≤ S100000x128.size a
  hwx5_5 : ∀ i : grid5.Coords, EltTy.bits .f32 = 32 ∨ (Rect.block (s := S100000x128) S10000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S100000x1.size a
  hwx6_2 : ∀ i : grid6.Coords, EltTy.bits .f32 = 32 ∨ (Rect.block (s := S100000x1) S5000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S100000x128.size a
  hwx6_3 : ∀ i : grid6.Coords, EltTy.bits .f32 = 32 ∨ (Rect.block (s := S100000x128) S5000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S100000x1.size a
  hwx7_2 : ∀ i : grid7.Coords, EltTy.bits .f32 = 32 ∨ (Rect.block (s := S100000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S100000x128.size a
  hwx7_4 : ∀ i : grid7.Coords, EltTy.bits .f32 = 32 ∨ (Rect.block (s := S100000x128) S5000x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x128.size a ≤ S100000x128.size a
  hwx8_0 : ∀ i : grid8.Coords, EltTy.bits .f32 = 32 ∨ (Rect.block (s := S100000x128) S10000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x128.size a ≤ S100000x128.size a
  hwx8_5 : ∀ i : grid8.Coords, EltTy.bits .f32 = 32 ∨ (Rect.block (s := S100000x128) S10000x128.size (cc8_transform_5 i) (hinb8_5 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S256x256.size a ≤ S256x256.size a
  hwx9_0 : ∀ i : grid9.Coords, EltTy.bits .f32 = 32 ∨ (Rect.block (s := S256x256) S256x256.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S256x128.size a ≤ S256x128.size a
  hwx9_1 : ∀ i : grid9.Coords, EltTy.bits .f32 = 32 ∨ (Rect.block (s := S256x128) S256x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x64.size a ≤ S128x64.size a
  hwx9_3 : ∀ i : grid9.Coords, EltTy.bits .f32 = 32 ∨ (Rect.block (s := S128x64) S128x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S256x64.size a ≤ S256x64.size a
  hwx9_5 : ∀ i : grid9.Coords, EltTy.bits .f32 = 32 ∨ (Rect.block (s := S256x64) S256x64.size (cc9_transform_5 i) (hinb9_5 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S5000x20_S20x128_S5000x128_1_0_0_1_n_n : DotDims S5000x20 S20x128 S5000x128 where
  lhsContracting := [1]
  rhsContracting := [0]
  lhsNonContracting := [0]
  rhsNonContracting := [1]
  lhsBatch := []
  rhsBatch := []
  wf := dot_S5000x20_S20x128_S5000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf

abbrev win0_0 : Pipeline.Window sig grid0 :=
  Pipeline.Window.ofSpec (Memref.whole main_arg0) S5000x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S20x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v24_1) S1x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24_2) S1x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v24_0) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v35) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v36) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v46) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v36) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v11) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v47) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v48_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v48_1) S1x128.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v48_2) S1x128.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun i => !(k4_cond2 i == 1#1) | 6 => fun i => !(k4_cond2 i == 1#1) | ⟨_ + 7, h⟩ => absurd h (Nat.not_lt.2 (Nat.le_add_left _ _))

abbrev win5_0 : Pipeline.Window sig grid5 :=
  Pipeline.Window.ofSpec (Memref.whole main_v48_0) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v50) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v56) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v57) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v58) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v59) S10000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v59) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v11) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v60) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v70) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v60) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v11) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v71) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v72_0) S5000x128.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v72_1) S1x128.size cc7_transform_5 reads7_5 true true 1 stage7_5 sem7_5
    hrank7 hreads7_5 hinb7_5 nbuf7_5 (Memref.isWhole_whole _) hwx7_5 hstage7_5

abbrev win7_6 : Pipeline.Window sig grid7 :=
  Pipeline.Window.ofSpec (Memref.whole main_v72_2) S1x128.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev idle7 : Fin 7 → grid7.Coords → Bool := fun | 0 => fun _ => false | 1 => fun _ => false | 2 => fun _ => false | 3 => fun _ => false | 4 => fun _ => false | 5 => fun i => !(k7_cond2 i == 1#1) | 6 => fun i => !(k7_cond2 i == 1#1) | ⟨_ + 7, h⟩ => absurd h (Nat.not_lt.2 (Nat.le_add_left _ _))

abbrev win8_0 : Pipeline.Window sig grid8 :=
  Pipeline.Window.ofSpec (Memref.whole main_v72_0) S10000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v74) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v80) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v81) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v82) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v83) S10000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v96) S256x256.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_arg15) S256x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v97) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg17) S128x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v98) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v99) S256x64.size cc9_transform_5 reads9_5 true true 1 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

class Facts : Prop extends Facts₀ where

variable [Facts]
-- ==== ReferenceIdeal.lean ====
abbrev S100000x20 : Shape := ⟨2, ![100000, 20]⟩
abbrev S2x640000 : Shape := ⟨2, ![2, 640000]⟩
abbrev S100000 : Shape := ⟨1, ![100000]⟩
abbrev S20x128 : Shape := ⟨2, ![20, 128]⟩
abbrev S128 : Shape := ⟨1, ![128]⟩
abbrev S128x128 : Shape := ⟨2, ![128, 128]⟩
abbrev S256x128 : Shape := ⟨2, ![256, 128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S100000x128 : Shape := ⟨2, ![100000, 128]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S1x128 : Shape := ⟨2, ![1, 128]⟩
abbrev S256 : Shape := ⟨1, ![256]⟩
abbrev S100000x1 : Shape := ⟨2, ![100000, 1]⟩
abbrev S256x1 : Shape := ⟨2, ![256, 1]⟩
abbrev S256x256 : Shape := ⟨2, ![256, 256]⟩
abbrev S256x64 : Shape := ⟨2, ![256, 64]⟩
abbrev S1x64 : Shape := ⟨2, ![1, 64]⟩

abbrev nBuf : Space → Nat
  | .hbm => 360
  | .vmem => 0
  | .smem => 0
  | _ => 0

abbrev hbmTy0_0 (i : Nat) : BufTy := match i % 128 with
  | 0 => ⟨S100000x20, .f32⟩
  | 1 => ⟨S2x640000, .i32⟩
  | 2 => ⟨S100000, .i32⟩
  | 3 => ⟨S20x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S256x128, .f32⟩
  | 16 => ⟨S128, .f32⟩
  | 17 => ⟨S128x64, .f32⟩
  | 18 => ⟨S64, .f32⟩
  | 19 => ⟨S1x640000, .i32⟩
  | 20 => ⟨S640000, .i32⟩
  | 21 => ⟨S1x640000, .i32⟩
  | 22 => ⟨S640000, .i32⟩
  | 23 => ⟨S100000x128, .f32⟩
  | 24 => ⟨S100000, .i32⟩
  | 25 => ⟨S740000, .i32⟩
  | 26 => ⟨S740000, .i32⟩
  | 27 => ⟨S_, .f32⟩
  | 28 => ⟨S740000, .f32⟩
  | 29 => ⟨S_, .f32⟩
  | 30 => ⟨S100000, .f32⟩
  | 31 => ⟨S740000x1, .i32⟩
  | 32 => ⟨S100000, .f32⟩
  | 33 => ⟨S_, .f32⟩
  | 34 => ⟨S100000, .f32⟩
  | 35 => ⟨S100000, .i1⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S740000, .i32⟩
  | 43 => ⟨S740000, .i1⟩
  | 44 => ⟨S_, .i32⟩
  | 45 => ⟨S740000, .i32⟩
  | 46 => ⟨S740000, .i32⟩
  | 47 => ⟨S740000, .i32⟩
  | 48 => ⟨S740000x1, .i32⟩
  | 49 => ⟨S740000, .f32⟩
  | 50 => ⟨S_, .i32⟩
  | 51 => ⟨S740000, .i32⟩
  | 52 => ⟨S740000, .i1⟩
  | 53 => ⟨S_, .i32⟩
  | 54 => ⟨S740000, .i32⟩
  | 55 => ⟨S740000, .i32⟩
  | 56 => ⟨S740000, .i32⟩
  | 57 => ⟨S740000x1, .i32⟩
  | 58 => ⟨S740000, .f32⟩
  | 59 => ⟨S740000, .f32⟩
  | 60 => ⟨S_, .i32⟩
  | 61 => ⟨S740000, .i32⟩
  | 62 => ⟨S740000, .i1⟩
  | 63 => ⟨S_, .i32⟩
  | 64 => ⟨S740000, .i32⟩
  | 65 => ⟨S740000, .i32⟩
  | 66 => ⟨S740000, .i32⟩
  | 67 => ⟨S740000x1, .i32⟩
  | 68 => ⟨S740000x128, .f32⟩
  | 69 => ⟨S740000x1, .f32⟩
  | 70 => ⟨S740000x128, .f32⟩
  | 71 => ⟨S740000x128, .f32⟩
  | 72 => ⟨S_, .f32⟩
  | 73 => ⟨S100000x128, .f32⟩
  | 74 => ⟨S740000x1, .i32⟩
  | 75 => ⟨S100000x128, .f32⟩
  | 76 => ⟨S1x128, .f32⟩
  | 77 => ⟨S100000x128, .f32⟩
  | 78 => ⟨S100000x128, .f32⟩
  | 79 => ⟨S_, .f32⟩
  | 80 => ⟨S128, .f32⟩
  | 81 => ⟨S_, .f32⟩
  | 82 => ⟨S128, .f32⟩
  | 83 => ⟨S128, .f32⟩
  | 84 => ⟨S_, .i32⟩
  | 85 => ⟨S_, .f32⟩
  | 86 => ⟨S128, .f32⟩
  | 87 => ⟨S1x128, .f32⟩
  | 88 => ⟨S_, .f32⟩
  | 89 => ⟨S1x128, .f32⟩
  | 90 => ⟨S1x128, .f32⟩
  | 91 => ⟨S100000x128, .f32⟩
  | 92 => ⟨S100000x128, .f32⟩
  | 93 => ⟨S100000x128, .f32⟩
  | 94 => ⟨S_, .f32⟩
  | 95 => ⟨S_, .f32⟩
  | 96 => ⟨S_, .f32⟩
  | 97 => ⟨S_, .f32⟩
  | 98 => ⟨S128, .f32⟩
  | 99 => ⟨S128, .f32⟩
  | 100 => ⟨S128, .f32⟩
  | 101 => ⟨S_, .f32⟩
  | 102 => ⟨S_, .i1⟩
  | 103 => ⟨S_, .f32⟩
  | 104 => ⟨S_, .f32⟩
  | 105 => ⟨S128, .f32⟩
  | 106 => ⟨S128, .f32⟩
  | 107 => ⟨S1x128, .f32⟩
  | 108 => ⟨S100000x128, .f32⟩
  | 109 => ⟨S100000x128, .f32⟩
  | 110 => ⟨S_, .f32⟩
  | 111 => ⟨S128, .f32⟩
  | 112 => ⟨S128, .f32⟩
  | 113 => ⟨S128, .f32⟩
  | 114 => ⟨S1x128, .f32⟩
  | 115 => ⟨S100000x128, .f32⟩
  | 116 => ⟨S100000x128, .f32⟩
  | 117 => ⟨S1x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S_, .f32⟩
  | 124 => ⟨S100000x128, .f32⟩
  | 125 => ⟨S100000x128, .f32⟩
  | 126 => ⟨S100000x128, .f32⟩
  | 127 => ⟨S100000, .i32⟩
  | _ => ⟨S100000x20, .f32⟩

abbrev hbmTy0_1 (i : Nat) : BufTy := match i % 128 with
  | 0 => ⟨S740000, .i32⟩
  | 1 => ⟨S740000, .i32⟩
  | 2 => ⟨S_, .f32⟩
  | 3 => ⟨S740000, .f32⟩
  | 4 => ⟨S_, .f32⟩
  | 5 => ⟨S100000, .f32⟩
  | 6 => ⟨S740000x1, .i32⟩
  | 7 => ⟨S100000, .f32⟩
  | 8 => ⟨S_, .f32⟩
  | 9 => ⟨S100000, .f32⟩
  | 10 => ⟨S100000, .i1⟩
  | 11 => ⟨S100000, .f32⟩
  | 12 => ⟨S_, .f32⟩
  | 13 => ⟨S_, .f32⟩
  | 14 => ⟨S100000, .f32⟩
  | 15 => ⟨S100000, .f32⟩
  | 16 => ⟨S_, .i32⟩
  | 17 => ⟨S740000, .i32⟩
  | 18 => ⟨S740000, .i1⟩
  | 19 => ⟨S_, .i32⟩
  | 20 => ⟨S740000, .i32⟩
  | 21 => ⟨S740000, .i32⟩
  | 22 => ⟨S740000, .i32⟩
  | 23 => ⟨S740000x1, .i32⟩
  | 24 => ⟨S740000, .f32⟩
  | 25 => ⟨S_, .i32⟩
  | 26 => ⟨S740000, .i32⟩
  | 27 => ⟨S740000, .i1⟩
  | 28 => ⟨S_, .i32⟩
  | 29 => ⟨S740000, .i32⟩
  | 30 => ⟨S740000, .i32⟩
  | 31 => ⟨S740000, .i32⟩
  | 32 => ⟨S740000x1, .i32⟩
  | 33 => ⟨S740000, .f32⟩
  | 34 => ⟨S740000, .f32⟩
  | 35 => ⟨S_, .i32⟩
  | 36 => ⟨S740000, .i32⟩
  | 37 => ⟨S740000, .i1⟩
  | 38 => ⟨S_, .i32⟩
  | 39 => ⟨S740000, .i32⟩
  | 40 => ⟨S740000, .i32⟩
  | 41 => ⟨S740000, .i32⟩
  | 42 => ⟨S740000x1, .i32⟩
  | 43 => ⟨S740000x128, .f32⟩
  | 44 => ⟨S740000x1, .f32⟩
  | 45 => ⟨S740000x128, .f32⟩
  | 46 => ⟨S740000x128, .f32⟩
  | 47 => ⟨S_, .f32⟩
  | 48 => ⟨S100000x128, .f32⟩
  | 49 => ⟨S740000x1, .i32⟩
  | 50 => ⟨S100000x128, .f32⟩
  | 51 => ⟨S1x128, .f32⟩
  | 52 => ⟨S100000x128, .f32⟩
  | 53 => ⟨S100000x128, .f32⟩
  | 54 => ⟨S_, .f32⟩
  | 55 => ⟨S128, .f32⟩
  | 56 => ⟨S_, .f32⟩
  | 57 => ⟨S128, .f32⟩
  | 58 => ⟨S128, .f32⟩
  | 59 => ⟨S_, .i32⟩
  | 60 => ⟨S_, .f32⟩
  | 61 => ⟨S128, .f32⟩
  | 62 => ⟨S1x128, .f32⟩
  | 63 => ⟨S_, .f32⟩
  | 64 => ⟨S1x128, .f32⟩
  | 65 => ⟨S1x128, .f32⟩
  | 66 => ⟨S100000x128, .f32⟩
  | 67 => ⟨S100000x128, .f32⟩
  | 68 => ⟨S100000x128, .f32⟩
  | 69 => ⟨S_, .f32⟩
  | 70 => ⟨S_, .f32⟩
  | 71 => ⟨S_, .f32⟩
  | 72 => ⟨S_, .f32⟩
  | 73 => ⟨S128, .f32⟩
  | 74 => ⟨S128, .f32⟩
  | 75 => ⟨S128, .f32⟩
  | 76 => ⟨S_, .f32⟩
  | 77 => ⟨S_, .i1⟩
  | 78 => ⟨S_, .f32⟩
  | 79 => ⟨S_, .f32⟩
  | 80 => ⟨S128, .f32⟩
  | 81 => ⟨S128, .f32⟩
  | 82 => ⟨S1x128, .f32⟩
  | 83 => ⟨S100000x128, .f32⟩
  | 84 => ⟨S100000x128, .f32⟩
  | 85 => ⟨S_, .f32⟩
  | 86 => ⟨S128, .f32⟩
  | 87 => ⟨S128, .f32⟩
  | 88 => ⟨S128, .f32⟩
  | 89 => ⟨S1x128, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S100000x128, .f32⟩
  | 102 => ⟨S100000, .i32⟩
  | 103 => ⟨S740000, .i32⟩
  | 104 => ⟨S740000, .i32⟩
  | 105 => ⟨S_, .f32⟩
  | 106 => ⟨S740000, .f32⟩
  | 107 => ⟨S_, .f32⟩
  | 108 => ⟨S100000, .f32⟩
  | 109 => ⟨S740000x1, .i32⟩
  | 110 => ⟨S100000, .f32⟩
  | 111 => ⟨S_, .f32⟩
  | 112 => ⟨S100000, .f32⟩
  | 113 => ⟨S100000, .i1⟩
  | 114 => ⟨S100000, .f32⟩
  | 115 => ⟨S_, .f32⟩
  | 116 => ⟨S_, .f32⟩
  | 117 => ⟨S100000, .f32⟩
  | 118 => ⟨S100000, .f32⟩
  | 119 => ⟨S_, .i32⟩
  | 120 => ⟨S740000, .i32⟩
  | 121 => ⟨S740000, .i1⟩
  | 122 => ⟨S_, .i32⟩
  | 123 => ⟨S740000, .i32⟩
  | 124 => ⟨S740000, .i32⟩
  | 125 => ⟨S740000, .i32⟩
  | 126 => ⟨S740000x1, .i32⟩
  | 127 => ⟨S740000, .f32⟩
  | _ => ⟨S100000x20, .f32⟩

abbrev hbmTy0_2 (i : Nat) : BufTy := match i % 128 with
  | 0 => ⟨S_, .i32⟩
  | 1 => ⟨S740000, .i32⟩
  | 2 => ⟨S740000, .i1⟩
  | 3 => ⟨S_, .i32⟩
  | 4 => ⟨S740000, .i32⟩
  | 5 => ⟨S740000, .i32⟩
  | 6 => ⟨S740000, .i32⟩
  | 7 => ⟨S740000x1, .i32⟩
  | 8 => ⟨S740000, .f32⟩
  | 9 => ⟨S740000, .f32⟩
  | 10 => ⟨S_, .i32⟩
  | 11 => ⟨S740000, .i32⟩
  | 12 => ⟨S740000, .i1⟩
  | 13 => ⟨S_, .i32⟩
  | 14 => ⟨S740000, .i32⟩
  | 15 => ⟨S740000, .i32⟩
  | 16 => ⟨S740000, .i32⟩
  | 17 => ⟨S740000x1, .i32⟩
  | 18 => ⟨S740000x128, .f32⟩
  | 19 => ⟨S740000x1, .f32⟩
  | 20 => ⟨S740000x128, .f32⟩
  | 21 => ⟨S740000x128, .f32⟩
  | 22 => ⟨S_, .f32⟩
  | 23 => ⟨S100000x128, .f32⟩
  | 24 => ⟨S740000x1, .i32⟩
  | 25 => ⟨S100000x128, .f32⟩
  | 26 => ⟨S1x128, .f32⟩
  | 27 => ⟨S100000x128, .f32⟩
  | 28 => ⟨S100000x128, .f32⟩
  | 29 => ⟨S_, .f32⟩
  | 30 => ⟨S128, .f32⟩
  | 31 => ⟨S_, .f32⟩
  | 32 => ⟨S128, .f32⟩
  | 33 => ⟨S128, .f32⟩
  | 34 => ⟨S_, .i32⟩
  | 35 => ⟨S_, .f32⟩
  | 36 => ⟨S128, .f32⟩
  | 37 => ⟨S1x128, .f32⟩
  | 38 => ⟨S_, .f32⟩
  | 39 => ⟨S1x128, .f32⟩
  | 40 => ⟨S1x128, .f32⟩
  | 41 => ⟨S100000x128, .f32⟩
  | 42 => ⟨S100000x128, .f32⟩
  | 43 => ⟨S100000x128, .f32⟩
  | 44 => ⟨S_, .f32⟩
  | 45 => ⟨S_, .f32⟩
  | 46 => ⟨S_, .f32⟩
  | 47 => ⟨S_, .f32⟩
  | 48 => ⟨S128, .f32⟩
  | 49 => ⟨S128, .f32⟩
  | 50 => ⟨S128, .f32⟩
  | 51 => ⟨S_, .f32⟩
  | 52 => ⟨S_, .i1⟩
  | 53 => ⟨S_, .f32⟩
  | 54 => ⟨S_, .f32⟩
  | 55 => ⟨S128, .f32⟩
  | 56 => ⟨S128, .f32⟩
  | 57 => ⟨S1x128, .f32⟩
  | 58 => ⟨S100000x128, .f32⟩
  | 59 => ⟨S100000x128, .f32⟩
  | 60 => ⟨S_, .f32⟩
  | 61 => ⟨S128, .f32⟩
  | 62 => ⟨S128, .f32⟩
  | 63 => ⟨S128, .f32⟩
  | 64 => ⟨S1x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S_, .f32⟩
  | 77 => ⟨S100000, .f32⟩
  | 78 => ⟨S_, .f32⟩
  | 79 => ⟨S256, .f32⟩
  | 80 => ⟨S100000x1, .i32⟩
  | 81 => ⟨S256, .f32⟩
  | 82 => ⟨S_, .f32⟩
  | 83 => ⟨S256x128, .f32⟩
  | 84 => ⟨S100000x1, .i32⟩
  | 85 => ⟨S256x128, .f32⟩
  | 86 => ⟨S_, .f32⟩
  | 87 => ⟨S256, .f32⟩
  | 88 => ⟨S256, .f32⟩
  | 89 => ⟨S256x1, .f32⟩
  | 90 => ⟨S256x128, .f32⟩
  | 91 => ⟨S256x128, .f32⟩
  | 92 => ⟨S256x256, .f32⟩
  | 93 => ⟨S256x128, .f32⟩
  | 94 => ⟨S1x128, .f32⟩
  | 95 => ⟨S256x128, .f32⟩
  | 96 => ⟨S256x128, .f32⟩
  | 97 => ⟨S_, .f32⟩
  | 98 => ⟨S256x128, .f32⟩
  | 99 => ⟨S256x128, .f32⟩
  | 100 => ⟨S256x64, .f32⟩
  | 101 => ⟨S1x64, .f32⟩
  | 102 => ⟨S256x64, .f32⟩
  | 103 => ⟨S256x64, .f32⟩
  | _ => ⟨S100000x20, .f32⟩

abbrev hbmTy (i : Nat) : BufTy := match i / 128 with
  | 0 => hbmTy0_0 i
  | 1 => hbmTy0_1 i
  | 2 => hbmTy0_2 i
  | _ => ⟨S100000x20, .f32⟩

abbrev bufTy : (tb : Table) → Fin (tcTables nBuf tb) → BufTy
  | .hbm, ⟨i, _⟩ => hbmTy i
  | _, _ => ⟨S100000x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_v15 : Ref sig .tc := ⟨.hbm, 40, rfl⟩
abbrev main_c : Ref sig .tc := ⟨.hbm, 41, rfl⟩
abbrev main_v16 : Ref sig .tc := ⟨.hbm, 42, rfl⟩
abbrev main_v17 : Ref sig .tc := ⟨.hbm, 43, rfl⟩
abbrev main_c_3 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c_4 : Ref sig .tc := ⟨.hbm, 50, rfl⟩
abbrev main_v23 : Ref sig .tc := ⟨.hbm, 51, rfl⟩
abbrev main_v24 : Ref sig .tc := ⟨.hbm, 52, rfl⟩
abbrev main_c_5 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_6 : Ref sig .tc := ⟨.hbm, 60, rfl⟩
abbrev main_v31 : Ref sig .tc := ⟨.hbm, 61, rfl⟩
abbrev main_v32 : Ref sig .tc := ⟨.hbm, 62, rfl⟩
abbrev main_c_7 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_8 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_9 : Ref sig .tc := ⟨.hbm, 79, rfl⟩
abbrev main_v47 : Ref sig .tc := ⟨.hbm, 80, rfl⟩
abbrev main_cst_10 : Ref sig .tc := ⟨.hbm, 81, rfl⟩
abbrev main_v48 : Ref sig .tc := ⟨.hbm, 82, rfl⟩
abbrev main_v49 : Ref sig .tc := ⟨.hbm, 83, rfl⟩
abbrev main_c_11 : Ref sig .tc := ⟨.hbm, 84, rfl⟩
abbrev main_call1_cst : Ref sig .tc := ⟨.hbm, 85, rfl⟩
abbrev main_call1_v0 : Ref sig .tc := ⟨.hbm, 86, rfl⟩
abbrev main_call1_v1 : Ref sig .tc := ⟨.hbm, 87, rfl⟩
abbrev main_call1_cst_0 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_cst_1 : Ref sig .tc := ⟨.hbm, 95, rfl⟩
abbrev main_call1_v8 : Ref sig .tc := ⟨.hbm, 96, rfl⟩
abbrev main_call1_cst_2 : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_call1_cst_3 : Ref sig .tc := ⟨.hbm, 101, rfl⟩
abbrev main_call1_v12 : Ref sig .tc := ⟨.hbm, 102, rfl⟩
abbrev main_call1_cst_4 : Ref sig .tc := ⟨.hbm, 103, rfl⟩
abbrev main_call1_call0_v0 : Ref sig .tc := ⟨.hbm, 104, rfl⟩
abbrev main_call1_call0_v1 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_cst_12 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_call2_cst : Ref sig .tc := ⟨.hbm, 123, rfl⟩
abbrev main_call2_v0 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_cst_13 : Ref sig .tc := ⟨.hbm, 130, rfl⟩
abbrev main_v71 : Ref sig .tc := ⟨.hbm, 131, rfl⟩
abbrev main_cst_14 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_cst_15 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_cst_16 : Ref sig .tc := ⟨.hbm, 140, rfl⟩
abbrev main_call3_v0 : Ref sig .tc := ⟨.hbm, 141, rfl⟩
abbrev main_call3_v1 : Ref sig .tc := ⟨.hbm, 142, rfl⟩
abbrev main_v78 : Ref sig .tc := ⟨.hbm, 143, rfl⟩
abbrev main_c_17 : Ref sig .tc := ⟨.hbm, 144, rfl⟩
abbrev main_v79 : Ref sig .tc := ⟨.hbm, 145, rfl⟩
abbrev main_v80 : Ref sig .tc := ⟨.hbm, 146, rfl⟩
abbrev main_c_18 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_c_19 : Ref sig .tc := ⟨.hbm, 153, rfl⟩
abbrev main_v86 : Ref sig .tc := ⟨.hbm, 154, rfl⟩
abbrev main_v87 : Ref sig .tc := ⟨.hbm, 155, rfl⟩
abbrev main_c_20 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_c_21 : Ref sig .tc := ⟨.hbm, 163, rfl⟩
abbrev main_v94 : Ref sig .tc := ⟨.hbm, 164, rfl⟩
abbrev main_v95 : Ref sig .tc := ⟨.hbm, 165, rfl⟩
abbrev main_c_22 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_cst_23 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_cst_24 : Ref sig .tc := ⟨.hbm, 182, rfl⟩
abbrev main_v110 : Ref sig .tc := ⟨.hbm, 183, rfl⟩
abbrev main_cst_25 : Ref sig .tc := ⟨.hbm, 184, rfl⟩
abbrev main_v111 : Ref sig .tc := ⟨.hbm, 185, rfl⟩
abbrev main_v112 : Ref sig .tc := ⟨.hbm, 186, rfl⟩
abbrev main_c_26 : Ref sig .tc := ⟨.hbm, 187, rfl⟩
abbrev main_call4_cst : Ref sig .tc := ⟨.hbm, 188, rfl⟩
abbrev main_call4_v0 : Ref sig .tc := ⟨.hbm, 189, rfl⟩
abbrev main_call4_v1 : Ref sig .tc := ⟨.hbm, 190, rfl⟩
abbrev main_call4_cst_0 : Ref sig .tc := ⟨.hbm, 191, rfl⟩
abbrev main_call4_v2 : Ref sig .tc := ⟨.hbm, 192, rfl⟩
abbrev main_call4_v3 : Ref sig .tc := ⟨.hbm, 193, rfl⟩
abbrev main_call4_v4 : Ref sig .tc := ⟨.hbm, 194, rfl⟩
abbrev main_call4_v5 : Ref sig .tc := ⟨.hbm, 195, rfl⟩
abbrev main_call4_v6 : Ref sig .tc := ⟨.hbm, 196, rfl⟩
abbrev main_call4_v7 : Ref sig .tc := ⟨.hbm, 197, rfl⟩
abbrev main_call4_cst_1 : Ref sig .tc := ⟨.hbm, 198, rfl⟩
abbrev main_call4_v8 : Ref sig .tc := ⟨.hbm, 199, rfl⟩
abbrev main_call4_cst_2 : Ref sig .tc := ⟨.hbm, 200, rfl⟩
abbrev main_call4_v9 : Ref sig .tc := ⟨.hbm, 201, rfl⟩
abbrev main_call4_v10 : Ref sig .tc := ⟨.hbm, 202, rfl⟩
abbrev main_call4_v11 : Ref sig .tc := ⟨.hbm, 203, rfl⟩
abbrev main_call4_cst_3 : Ref sig .tc := ⟨.hbm, 204, rfl⟩
abbrev main_call4_v12 : Ref sig .tc := ⟨.hbm, 205, rfl⟩
abbrev main_call4_cst_4 : Ref sig .tc := ⟨.hbm, 206, rfl⟩
abbrev main_call4_call0_v0 : Ref sig .tc := ⟨.hbm, 207, rfl⟩
abbrev main_call4_call0_v1 : Ref sig .tc := ⟨.hbm, 208, rfl⟩
abbrev main_v113 : Ref sig .tc := ⟨.hbm, 209, rfl⟩
abbrev main_v114 : Ref sig .tc := ⟨.hbm, 210, rfl⟩
abbrev main_v115 : Ref sig .tc := ⟨.hbm, 211, rfl⟩
abbrev main_v116 : Ref sig .tc := ⟨.hbm, 212, rfl⟩
abbrev main_cst_27 : Ref sig .tc := ⟨.hbm, 213, rfl⟩
abbrev main_v117 : Ref sig .tc := ⟨.hbm, 214, rfl⟩
abbrev main_v118 : Ref sig .tc := ⟨.hbm, 215, rfl⟩
abbrev main_v119 : Ref sig .tc := ⟨.hbm, 216, rfl⟩
abbrev main_v120 : Ref sig .tc := ⟨.hbm, 217, rfl⟩
abbrev main_v121 : Ref sig .tc := ⟨.hbm, 218, rfl⟩
abbrev main_v122 : Ref sig .tc := ⟨.hbm, 219, rfl⟩
abbrev main_v123 : Ref sig .tc := ⟨.hbm, 220, rfl⟩
abbrev main_v124 : Ref sig .tc := ⟨.hbm, 221, rfl⟩
abbrev main_v125 : Ref sig .tc := ⟨.hbm, 222, rfl⟩
abbrev main_v126 : Ref sig .tc := ⟨.hbm, 223, rfl⟩
abbrev main_v127 : Ref sig .tc := ⟨.hbm, 224, rfl⟩
abbrev main_v128 : Ref sig .tc := ⟨.hbm, 225, rfl⟩
abbrev main_call5_cst : Ref sig .tc := ⟨.hbm, 226, rfl⟩
abbrev main_call5_v0 : Ref sig .tc := ⟨.hbm, 227, rfl⟩
abbrev main_v129 : Ref sig .tc := ⟨.hbm, 228, rfl⟩
abbrev main_v130 : Ref sig .tc := ⟨.hbm, 229, rfl⟩
abbrev main_v131 : Ref sig .tc := ⟨.hbm, 230, rfl⟩
abbrev main_v132 : Ref sig .tc := ⟨.hbm, 231, rfl⟩
abbrev main_v133 : Ref sig .tc := ⟨.hbm, 232, rfl⟩
abbrev main_cst_28 : Ref sig .tc := ⟨.hbm, 233, rfl⟩
abbrev main_v134 : Ref sig .tc := ⟨.hbm, 234, rfl⟩
abbrev main_cst_29 : Ref sig .tc := ⟨.hbm, 235, rfl⟩
abbrev main_v135 : Ref sig .tc := ⟨.hbm, 236, rfl⟩
abbrev main_v136 : Ref sig .tc := ⟨.hbm, 237, rfl⟩
abbrev main_v137 : Ref sig .tc := ⟨.hbm, 238, rfl⟩
abbrev main_cst_30 : Ref sig .tc := ⟨.hbm, 239, rfl⟩
abbrev main_v138 : Ref sig .tc := ⟨.hbm, 240, rfl⟩
abbrev main_v139 : Ref sig .tc := ⟨.hbm, 241, rfl⟩
abbrev main_v140 : Ref sig .tc := ⟨.hbm, 242, rfl⟩
abbrev main_cst_31 : Ref sig .tc := ⟨.hbm, 243, rfl⟩
abbrev main_call6_v0 : Ref sig .tc := ⟨.hbm, 244, rfl⟩
abbrev main_call6_v1 : Ref sig .tc := ⟨.hbm, 245, rfl⟩
abbrev main_v141 : Ref sig .tc := ⟨.hbm, 246, rfl⟩
abbrev main_c_32 : Ref sig .tc := ⟨.hbm, 247, rfl⟩
abbrev main_v142 : Ref sig .tc := ⟨.hbm, 248, rfl⟩
abbrev main_v143 : Ref sig .tc := ⟨.hbm, 249, rfl⟩
abbrev main_c_33 : Ref sig .tc := ⟨.hbm, 250, rfl⟩
abbrev main_v144 : Ref sig .tc := ⟨.hbm, 251, rfl⟩
abbrev main_v145 : Ref sig .tc := ⟨.hbm, 252, rfl⟩
abbrev main_v146 : Ref sig .tc := ⟨.hbm, 253, rfl⟩
abbrev main_v147 : Ref sig .tc := ⟨.hbm, 254, rfl⟩
abbrev main_v148 : Ref sig .tc := ⟨.hbm, 255, rfl⟩
abbrev main_c_34 : Ref sig .tc := ⟨.hbm, 256, rfl⟩
abbrev main_v149 : Ref sig .tc := ⟨.hbm, 257, rfl⟩
abbrev main_v150 : Ref sig .tc := ⟨.hbm, 258, rfl⟩
abbrev main_c_35 : Ref sig .tc := ⟨.hbm, 259, rfl⟩
abbrev main_v151 : Ref sig .tc := ⟨.hbm, 260, rfl⟩
abbrev main_v152 : Ref sig .tc := ⟨.hbm, 261, rfl⟩
abbrev main_v153 : Ref sig .tc := ⟨.hbm, 262, rfl⟩
abbrev main_v154 : Ref sig .tc := ⟨.hbm, 263, rfl⟩
abbrev main_v155 : Ref sig .tc := ⟨.hbm, 264, rfl⟩
abbrev main_v156 : Ref sig .tc := ⟨.hbm, 265, rfl⟩
abbrev main_c_36 : Ref sig .tc := ⟨.hbm, 266, rfl⟩
abbrev main_v157 : Ref sig .tc := ⟨.hbm, 267, rfl⟩
abbrev main_v158 : Ref sig .tc := ⟨.hbm, 268, rfl⟩
abbrev main_c_37 : Ref sig .tc := ⟨.hbm, 269, rfl⟩
abbrev main_v159 : Ref sig .tc := ⟨.hbm, 270, rfl⟩
abbrev main_v160 : Ref sig .tc := ⟨.hbm, 271, rfl⟩
abbrev main_v161 : Ref sig .tc := ⟨.hbm, 272, rfl⟩
abbrev main_v162 : Ref sig .tc := ⟨.hbm, 273, rfl⟩
abbrev main_v163 : Ref sig .tc := ⟨.hbm, 274, rfl⟩
abbrev main_v164 : Ref sig .tc := ⟨.hbm, 275, rfl⟩
abbrev main_v165 : Ref sig .tc := ⟨.hbm, 276, rfl⟩
abbrev main_v166 : Ref sig .tc := ⟨.hbm, 277, rfl⟩
abbrev main_cst_38 : Ref sig .tc := ⟨.hbm, 278, rfl⟩
abbrev main_v167 : Ref sig .tc := ⟨.hbm, 279, rfl⟩
abbrev main_v168 : Ref sig .tc := ⟨.hbm, 280, rfl⟩
abbrev main_v169 : Ref sig .tc := ⟨.hbm, 281, rfl⟩
abbrev main_v170 : Ref sig .tc := ⟨.hbm, 282, rfl⟩
abbrev main_v171 : Ref sig .tc := ⟨.hbm, 283, rfl⟩
abbrev main_v172 : Ref sig .tc := ⟨.hbm, 284, rfl⟩
abbrev main_cst_39 : Ref sig .tc := ⟨.hbm, 285, rfl⟩
abbrev main_v173 : Ref sig .tc := ⟨.hbm, 286, rfl⟩
abbrev main_cst_40 : Ref sig .tc := ⟨.hbm, 287, rfl⟩
abbrev main_v174 : Ref sig .tc := ⟨.hbm, 288, rfl⟩
abbrev main_v175 : Ref sig .tc := ⟨.hbm, 289, rfl⟩
abbrev main_c_41 : Ref sig .tc := ⟨.hbm, 290, rfl⟩
abbrev main_call7_cst : Ref sig .tc := ⟨.hbm, 291, rfl⟩
abbrev main_call7_v0 : Ref sig .tc := ⟨.hbm, 292, rfl⟩
abbrev main_call7_v1 : Ref sig .tc := ⟨.hbm, 293, rfl⟩
abbrev main_call7_cst_0 : Ref sig .tc := ⟨.hbm, 294, rfl⟩
abbrev main_call7_v2 : Ref sig .tc := ⟨.hbm, 295, rfl⟩
abbrev main_call7_v3 : Ref sig .tc := ⟨.hbm, 296, rfl⟩
abbrev main_call7_v4 : Ref sig .tc := ⟨.hbm, 297, rfl⟩
abbrev main_call7_v5 : Ref sig .tc := ⟨.hbm, 298, rfl⟩
abbrev main_call7_v6 : Ref sig .tc := ⟨.hbm, 299, rfl⟩
abbrev main_call7_v7 : Ref sig .tc := ⟨.hbm, 300, rfl⟩
abbrev main_call7_cst_1 : Ref sig .tc := ⟨.hbm, 301, rfl⟩
abbrev main_call7_v8 : Ref sig .tc := ⟨.hbm, 302, rfl⟩
abbrev main_call7_cst_2 : Ref sig .tc := ⟨.hbm, 303, rfl⟩
abbrev main_call7_v9 : Ref sig .tc := ⟨.hbm, 304, rfl⟩
abbrev main_call7_v10 : Ref sig .tc := ⟨.hbm, 305, rfl⟩
abbrev main_call7_v11 : Ref sig .tc := ⟨.hbm, 306, rfl⟩
abbrev main_call7_cst_3 : Ref sig .tc := ⟨.hbm, 307, rfl⟩
abbrev main_call7_v12 : Ref sig .tc := ⟨.hbm, 308, rfl⟩
abbrev main_call7_cst_4 : Ref sig .tc := ⟨.hbm, 309, rfl⟩
abbrev main_call7_call0_v0 : Ref sig .tc := ⟨.hbm, 310, rfl⟩
abbrev main_call7_call0_v1 : Ref sig .tc := ⟨.hbm, 311, rfl⟩
abbrev main_v176 : Ref sig .tc := ⟨.hbm, 312, rfl⟩
abbrev main_v177 : Ref sig .tc := ⟨.hbm, 313, rfl⟩
abbrev main_v178 : Ref sig .tc := ⟨.hbm, 314, rfl⟩
abbrev main_v179 : Ref sig .tc := ⟨.hbm, 315, rfl⟩
abbrev main_cst_42 : Ref sig .tc := ⟨.hbm, 316, rfl⟩
abbrev main_v180 : Ref sig .tc := ⟨.hbm, 317, rfl⟩
abbrev main_v181 : Ref sig .tc := ⟨.hbm, 318, rfl⟩
abbrev main_v182 : Ref sig .tc := ⟨.hbm, 319, rfl⟩
abbrev main_v183 : Ref sig .tc := ⟨.hbm, 320, rfl⟩
abbrev main_v184 : Ref sig .tc := ⟨.hbm, 321, rfl⟩
abbrev main_v185 : Ref sig .tc := ⟨.hbm, 322, rfl⟩
abbrev main_v186 : Ref sig .tc := ⟨.hbm, 323, rfl⟩
abbrev main_v187 : Ref sig .tc := ⟨.hbm, 324, rfl⟩
abbrev main_v188 : Ref sig .tc := ⟨.hbm, 325, rfl⟩
abbrev main_v189 : Ref sig .tc := ⟨.hbm, 326, rfl⟩
abbrev main_v190 : Ref sig .tc := ⟨.hbm, 327, rfl⟩
abbrev main_v191 : Ref sig .tc := ⟨.hbm, 328, rfl⟩
abbrev main_call8_cst : Ref sig .tc := ⟨.hbm, 329, rfl⟩
abbrev main_call8_v0 : Ref sig .tc := ⟨.hbm, 330, rfl⟩
abbrev main_v192 : Ref sig .tc := ⟨.hbm, 331, rfl⟩
abbrev main_cst_43 : Ref sig .tc := ⟨.hbm, 332, rfl⟩
abbrev main_v193 : Ref sig .tc := ⟨.hbm, 333, rfl⟩
abbrev main_cst_44 : Ref sig .tc := ⟨.hbm, 334, rfl⟩
abbrev main_v194 : Ref sig .tc := ⟨.hbm, 335, rfl⟩
abbrev main_v195 : Ref sig .tc := ⟨.hbm, 336, rfl⟩
abbrev main_v196 : Ref sig .tc := ⟨.hbm, 337, rfl⟩
abbrev main_cst_45 : Ref sig .tc := ⟨.hbm, 338, rfl⟩
abbrev main_v197 : Ref sig .tc := ⟨.hbm, 339, rfl⟩
abbrev main_v198 : Ref sig .tc := ⟨.hbm, 340, rfl⟩
abbrev main_v199 : Ref sig .tc := ⟨.hbm, 341, rfl⟩
abbrev main_cst_46 : Ref sig .tc := ⟨.hbm, 342, rfl⟩
abbrev main_v200 : Ref sig .tc := ⟨.hbm, 343, rfl⟩
abbrev main_v201 : Ref sig .tc := ⟨.hbm, 344, rfl⟩
abbrev main_v202 : Ref sig .tc := ⟨.hbm, 345, rfl⟩
abbrev main_v203 : Ref sig .tc := ⟨.hbm, 346, rfl⟩
abbrev main_v204 : Ref sig .tc := ⟨.hbm, 347, rfl⟩
abbrev main_v205 : Ref sig .tc := ⟨.hbm, 348, rfl⟩
abbrev main_v206 : Ref sig .tc := ⟨.hbm, 349, rfl⟩
abbrev main_v207 : Ref sig .tc := ⟨.hbm, 350, rfl⟩
abbrev main_v208 : Ref sig .tc := ⟨.hbm, 351, rfl⟩
abbrev main_v209 : Ref sig .tc := ⟨.hbm, 352, rfl⟩
abbrev main_call9_cst : Ref sig .tc := ⟨.hbm, 353, rfl⟩
abbrev main_call9_v0 : Ref sig .tc := ⟨.hbm, 354, rfl⟩
abbrev main_v210 : Ref sig .tc := ⟨.hbm, 355, rfl⟩
abbrev main_v211 : Ref sig .tc := ⟨.hbm, 356, rfl⟩
abbrev main_v212 : Ref sig .tc := ⟨.hbm, 357, rfl⟩
abbrev main_v213 : Ref sig .tc := ⟨.hbm, 358, rfl⟩
abbrev main_v214 : Ref sig .tc := ⟨.hbm, 359, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S100000_S740000_d0 : Shape.Concatenates [S640000, S100000] S740000 0
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S256 : S_.BroadcastsInDim S256 (![] : Fin 0 → Fin S256.rank)
  bcast_S100000_S100000x1_0 : S100000.BroadcastsInDim S100000x1 (![0] : Fin 1 → Fin S100000x1.rank)
  bcast_S_S256x128 : S_.BroadcastsInDim S256x128 (![] : Fin 0 → Fin S256x128.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  concatenates_S256x128_S256x128_S256x256_d1 : Shape.Concatenates [S256x128, S256x128] S256x256 1
  bcast_S1x128_S256x128_0_1 : S1x128.BroadcastsInDim S256x128 (![0, 1] : Fin 2 → Fin S256x128.rank)
  bcast_S64_S1x64_1 : S64.BroadcastsInDim S1x64 (![1] : Fin 1 → Fin S1x64.rank)
  bcast_S1x64_S256x64_0_1 : S1x64.BroadcastsInDim S256x64 (![0, 1] : Fin 2 → Fin S256x64.rank)
  dot_S100000x20_S20x128_S100000x128_1_0_0_1_n_n_wf : DotDims.WF S100000x20 S20x128 S100000x128 [1] [0] [0] [1] [] []
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S100000x128_S128x128_S100000x128_1_0_0_1_n_n_wf : DotDims.WF S100000x128 S128x128 S100000x128 [1] [0] [0] [1] [] []
  scatter_S256_S100000x1_S100000_n_0_0_1_wf : ScatterDims.WF S256 S100000x1 S100000 [] [0] [0] 1
  scatter_S256x128_S100000x1_S100000x128_1_0_0_1_wf : ScatterDims.WF S256x128 S100000x1 S100000x128 [1] [0] [0] 1
  dot_S256x256_S256x128_S256x128_1_0_0_1_n_n_wf : DotDims.WF S256x256 S256x128 S256x128 [1] [0] [0] [1] [] []
  dot_S256x128_S128x64_S256x64_1_0_0_1_n_n_wf : DotDims.WF S256x128 S128x64 S256x64 [1] [0] [0] [1] [] []

variable [Facts₀]

def dot_S100000x20_S20x128_S100000x128_1_0_0_1_n_n : DotDims S100000x20 S20x128 S100000x128 where
  lhsContracting := [1]
  rhsContracting := [0]
  lhsNonContracting := [0]
  rhsNonContracting := [1]
  lhsBatch := []
  rhsBatch := []
  wf := dot_S100000x20_S20x128_S100000x128_1_0_0_1_n_n_wf
def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf

class Facts : Prop extends Facts₀ where

variable [Facts]
-- ==== Proof.K.R0.lean ====
/- Region 0 of the kernel program: the proof data of its pipeline and the obligation of its body, stated at a
   parameter `V`, the TensorCore's buffer contents when the region is entered. -/
import proofs.«115763_j74259984548099_2_alg».proof.Proof.Gen.Kernel.Launch
import proofs.«115763_j74259984548099_2_alg».proof.Proof.Gen.Kernel.Skeleton
import proofs.«115763_j74259984548099_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: `_linear_scaled_kernel`, the rows' features times the weights, each row scaled, at the entry contents `V` -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: when the
    pipeline does not fetch, the block index has not moved and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: when the
    pipeline does not fetch, the block index has not moved and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: when the
    pipeline does not fetch, the block index has not moved and the body left the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each memref is read or written whole -/

abbrev r0_0 : Rect S5000x20 := Rect.unit (s := S5000x20) ![0, 0] S5000x20.size inb_S5000x20_S5000x20_0_0
abbrev r0_1 : Rect S20x128 := Rect.unit (s := S20x128) ![0, 0] S20x128.size inb_S20x128_S20x128_0_0
abbrev r0_2 : Rect S5000x1 := Rect.unit (s := S5000x1) ![0, 0] S5000x1.size inb_S5000x1_S5000x1_0_0
abbrev r0_3 : Rect S5000x128 := Rect.unit (s := S5000x128) ![0, 0] S5000x128.size inb_S5000x128_S5000x128_0_0

/-! ## What the body leaves in the output window's buffer -/

/-- Window 3's staging buffer after the body, from the input windows' blocks: its one store, of the payload
    computed from the three whole loads. -/
def out0_3 (x0 : Vec F S5000x20 .f32) (x1 : Vec F S20x128 .f32) (x2 : Vec F S5000x1 .f32) : Vec F S5000x128 .f32 :=
  View.canon [⟨r0_3, k0_pay1 (View.ld x0 r0_0) (View.ld x1 r0_1) (View.ld x2 r0_2)⟩]

/-- The store is of the whole buffer, so it covers it. -/
theorem cover0_3 (p0 : Vec F S5000x128 .f32) (y : S5000x128.Idx) :
    ∃ pc ∈ ([⟨r0_3, p0⟩] : List (View.Piece (Elt F) S5000x128 .f32)), y ∈ pc.1.set :=
  View.cover_of_tiled [⟨r0_3, p0⟩] S5000x128.size (by rfl) y

/-! ## The body's triple -/

set_option maxHeartbeats 1000000 in
/-- The kernel body on whole staging memrefs, the inputs' at read contents `xW` and the output's at anything, runs to
    the continuation holding the inputs' as they were and the output's at `out0_3` of the inputs'. -/
theorem sound_kernel0 (c : Dev nD) (E : Set ℕ) (i : grid0.Coords) (arg0 : Memref sig .tc .vmem S5000x20 .f32) (harg0 : arg0.IsWhole) (arg1 : Memref sig .tc .vmem S20x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x20 .f32) (x1 : Vec F S20x128 .f32) (x2 : Vec F S5000x1 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__linear_scaled_kernel i arg0 harg0 arg1 harg1 arg2 harg2 arg3 harg3) K := by
  simp only [cc0__linear_scaled_kernel_eq_skeleton]; unfold cc0__linear_scaled_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- The invariant at region entry and at region exit is the class's. -/
theorem hin0 (c : Dev nD) : Pipeline.ΦA spec0 c ⊢ (dat0 V c).Φ 0 := by
  dsimp only [dat0]; exact .rfl
theorem hout0 (c : Dev nD) : (dat0 V c).Φ (Fin.last cfg0.N) ⊢ Pipeline.ΦA spec0 c := by
  dsimp only [dat0]; exact .rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Run.lean ====
import proofs.«115763_j74259984548099_2_alg».proof.Proof.Gen.Kernel.Launch
import proofs.«115763_j74259984548099_2_alg».proof.Proof.Gen.Kernel.Skeleton
import proofs.«115763_j74259984548099_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (`cc1__combine_stats_kernel`): the conditions, the memrefs, the three whole-body runs -/

/-- The condition of the first `scf.if` (zero the two accumulators), from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 20 = 0 :=
  (by decide +kernel : ∀ t : Fin grid1.N, cond1_0 (grid1.coords t) ↔ t.val % 20 = 0)

/-- The condition of the last `scf.if` (copy the accumulators to the two statistics outputs). -/
abbrev cond1_1 (i : grid1.Coords) : Prop := k1_cond2 i = 1#1
/-- It holds at the last point only. -/
theorem hcond1_1 : ∀ t : Fin cfg1.N, cond1_1 (grid1.coords t) ↔ t.val % 20 = 19 :=
  (by decide +kernel : ∀ t : Fin grid1.N, cond1_1 (grid1.coords t) ↔ t.val % 20 = 19)

/-- Away from the last point the two statistics windows are idle and not written back; at it they are live. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-- Each window's current staging memref at point `t`, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S5000x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
/-- The two accumulators: whole scoped buffers of the kernel's own. -/
abbrev scM1_0 : Memref sig .tc .vmem S1x128 .f32 := Memref.whole cc1_scratch0
abbrev scM1_1 : Memref sig .tc .vmem S1x128 .f32 := Memref.whole cc1_scratch1
/-- One view per written buffer shape, through which contents are stated (the choice does not matter). -/
abbrev VO1_4 : View sig .tc .vmem S5000x128 .f32 := (Memref.whole cc1_stg4_0 : Memref sig .tc .vmem S5000x128 .f32).view
abbrev VO1_5 : View sig .tc .vmem S1x128 .f32 := (Memref.whole cc1_stg5_0 : Memref sig .tc .vmem S1x128 .f32).view
abbrev VO1_6 : View sig .tc .vmem S1x128 .f32 := (Memref.whole cc1_stg6_0 : Memref sig .tc .vmem S1x128 .f32).view
abbrev VS1_0 : View sig .tc .vmem S1x128 .f32 := scM1_0.view
abbrev VS1_1 : View sig .tc .vmem S1x128 .f32 := scM1_1.view

/-- The scoped rest that is neither accumulator: carried unopened. -/
abbrev restBut1 (c : Dev nD) : sProp 𝕄 :=
  Pipeline.scopedRestBut (Ix := Unit) (Name := ℕ) (U := UR sig nD τ) (Lvl := ℕ) (Val := Elt F) spec1 c [cc1_scratch0, cc1_scratch1]

/-- The class's invariant with the two accumulators as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ restBut1 (F := F) c) ∗ (∃ r, prngReg c r)) := by
  unfold Pipeline.ΦA; rw [scopedRest1_split]; simp only [scM1_0, scM1_1, owns_whole]; try rfl

set_option maxHeartbeats 4000000 in
/-- The first point: both conditionals decided (`scf.if` 0 taken, the last not); the accumulators are handed in at
    anything, the two statistics outputs are idle and handed back untouched; the pieces each written buffer ends with
    are the witness the run finds. -/
noncomputable def kernelRun1_A (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S5000x128 .f32) (x1 : Vec F S5000x128 .f32) (x2 : Vec F S5000x1 .f32) (x3 : Vec F S1x128 .f32) :
    Σ' (L4 : List (View.Piece (Elt F) S5000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__combine_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    haveI : Fact (cond1_0 i) := ⟨hc0⟩
    haveI : Fact (¬cond1_1 i) := ⟨hc1⟩
    simp only [cc1__combine_stats_kernel_eq_skeleton]; unfold cc1__combine_stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 4000000 in
/-- A middle point: neither conditional taken; the accumulators are handed in at what the point before left. -/
noncomputable def kernelRun1_B (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S5000x128 .f32) (x1 : Vec F S5000x128 .f32) (x2 : Vec F S5000x1 .f32) (x3 : Vec F S1x128 .f32) (xs0 xs1 : Vec F S1x128 .f32) :
    Σ' (L4 : List (View.Piece (Elt F) S5000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__combine_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    haveI : Fact (¬cond1_0 i) := ⟨hc0⟩
    haveI : Fact (¬cond1_1 i) := ⟨hc1⟩
    simp only [cc1__combine_stats_kernel_eq_skeleton]; unfold cc1__combine_stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 4000000 in
/-- The last point: the first conditional not taken, the last taken; the two statistics outputs are stored whole. -/
noncomputable def kernelRun1_C (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S5000x128 .f32) (x1 : Vec F S5000x128 .f32) (x2 : Vec F S5000x1 .f32) (x3 : Vec F S1x128 .f32) (xs0 xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__combine_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    haveI : Fact (¬cond1_0 i) := ⟨hc0⟩
    haveI : Fact (cond1_1 i) := ⟨hc1⟩
    simp only [cc1__combine_stats_kernel_eq_skeleton]; unfold cc1__combine_stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Hand

end
-- ==== Proof.K.R1.lean ====
import proofs.«115763_j74259984548099_2_alg».proof.Proof.K.R1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 of @main (`cc1__combine_stats_kernel`), at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The three runs at a point's memrefs and blocks -/

/-- The first point's run on the point's staging memrefs, the two accumulators and the four input blocks. -/
def runA1 (c : Dev nD) (t : Fin cfg1.N) (h0 : t.val % 20 = 0) (h1 : ¬t.val % 20 = 19) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)

/-- A middle point's, over what the point before left in the accumulators. -/
def runB1 (c : Dev nD) (t : Fin cfg1.N) (h0 : ¬t.val % 20 = 0) (h1 : ¬t.val % 20 = 19) (xs0 xs1 : Vec F S1x128 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) xs0 xs1

/-- The last point's. -/
def runC1 (c : Dev nD) (t : Fin cfg1.N) (h0 : ¬t.val % 20 = 0) (h1 : t.val % 20 = 19) (xs0 xs1 : Vec F S1x128 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) xs0 xs1

/-! ## The pieces cover each written buffer -/

theorem coverA1_4 (c : Dev nD) (t : Fin cfg1.N) (h0 : t.val % 20 = 0) (h1 : ¬t.val % 20 = 19) (y : S5000x128.Idx) :
    ∃ pc ∈ (runA1 V c t h0 h1).1, y ∈ pc.1.set :=
  View.cover_of_tiledL (runA1 V c t h0 h1).1 S5000x128.size (by sl_kernel_rfl) y
theorem scoverA1_0 (c : Dev nD) (t : Fin cfg1.N) (h0 : t.val % 20 = 0) (h1 : ¬t.val % 20 = 19) (y : S1x128.Idx) :
    ∃ pc ∈ (runA1 V c t h0 h1).2.1, y ∈ pc.1.set :=
  View.cover_of_tiledL (runA1 V c t h0 h1).2.1 S1x128.size (by sl_kernel_rfl) y
theorem scoverA1_1 (c : Dev nD) (t : Fin cfg1.N) (h0 : t.val % 20 = 0) (h1 : ¬t.val % 20 = 19) (y : S1x128.Idx) :
    ∃ pc ∈ (runA1 V c t h0 h1).2.2.1, y ∈ pc.1.set :=
  View.cover_of_tiledL (runA1 V c t h0 h1).2.2.1 S1x128.size (by sl_kernel_rfl) y

theorem coverB1_4 (c : Dev nD) (t : Fin cfg1.N) (h0 : ¬t.val % 20 = 0) (h1 : ¬t.val % 20 = 19) (xs0 xs1 : Vec F S1x128 .f32) (y : S5000x128.Idx) :
    ∃ pc ∈ (runB1 V c t h0 h1 xs0 xs1).1, y ∈ pc.1.set :=
  View.cover_of_tiledL (runB1 V c t h0 h1 xs0 xs1).1 S5000x128.size (by sl_kernel_rfl) y
theorem scoverB1_0 (c : Dev nD) (t : Fin cfg1.N) (h0 : ¬t.val % 20 = 0) (h1 : ¬t.val % 20 = 19) (xs0 xs1 : Vec F S1x128 .f32) (y : S1x128.Idx) :
    ∃ pc ∈ (runB1 V c t h0 h1 xs0 xs1).2.1, y ∈ pc.1.set :=
  View.cover_of_tiledL (runB1 V c t h0 h1 xs0 xs1).2.1 S1x128.size (by sl_kernel_rfl) y
theorem scoverB1_1 (c : Dev nD) (t : Fin cfg1.N) (h0 : ¬t.val % 20 = 0) (h1 : ¬t.val % 20 = 19) (xs0 xs1 : Vec F S1x128 .f32) (y : S1x128.Idx) :
    ∃ pc ∈ (runB1 V c t h0 h1 xs0 xs1).2.2.1, y ∈ pc.1.set :=
  View.cover_of_tiledL (runB1 V c t h0 h1 xs0 xs1).2.2.1 S1x128.size (by sl_kernel_rfl) y

theorem coverC1_4 (c : Dev nD) (t : Fin cfg1.N) (h0 : ¬t.val % 20 = 0) (h1 : t.val % 20 = 19) (xs0 xs1 : Vec F S1x128 .f32) (y : S5000x128.Idx) :
    ∃ pc ∈ (runC1 V c t h0 h1 xs0 xs1).1, y ∈ pc.1.set :=
  View.cover_of_tiledL (runC1 V c t h0 h1 xs0 xs1).1 S5000x128.size (by sl_kernel_rfl) y
theorem coverC1_5 (c : Dev nD) (t : Fin cfg1.N) (h0 : ¬t.val % 20 = 0) (h1 : t.val % 20 = 19) (xs0 xs1 : Vec F S1x128 .f32) (y : S1x128.Idx) :
    ∃ pc ∈ (runC1 V c t h0 h1 xs0 xs1).2.1, y ∈ pc.1.set :=
  View.cover_of_tiledL (runC1 V c t h0 h1 xs0 xs1).2.1 S1x128.size (by sl_kernel_rfl) y
theorem coverC1_6 (c : Dev nD) (t : Fin cfg1.N) (h0 : ¬t.val % 20 = 0) (h1 : t.val % 20 = 19) (xs0 xs1 : Vec F S1x128 .f32) (y : S1x128.Idx) :
    ∃ pc ∈ (runC1 V c t h0 h1 xs0 xs1).2.2.1, y ∈ pc.1.set :=
  View.cover_of_tiledL (runC1 V c t h0 h1 xs0 xs1).2.2.1 S1x128.size (by sl_kernel_rfl) y
theorem scoverC1_0 (c : Dev nD) (t : Fin cfg1.N) (h0 : ¬t.val % 20 = 0) (h1 : t.val % 20 = 19) (xs0 xs1 : Vec F S1x128 .f32) (y : S1x128.Idx) :
    ∃ pc ∈ (runC1 V c t h0 h1 xs0 xs1).2.2.2.1, y ∈ pc.1.set :=
  View.cover_of_tiledL (runC1 V c t h0 h1 xs0 xs1).2.2.2.1 S1x128.size (by sl_kernel_rfl) y
theorem scoverC1_1 (c : Dev nD) (t : Fin cfg1.N) (h0 : ¬t.val % 20 = 0) (h1 : t.val % 20 = 19) (xs0 xs1 : Vec F S1x128 .f32) (y : S1x128.Idx) :
    ∃ pc ∈ (runC1 V c t h0 h1 xs0 xs1).2.2.2.2.1, y ∈ pc.1.set :=
  View.cover_of_tiledL (runC1 V c t h0 h1 xs0 xs1).2.2.2.2.1 S1x128.size (by sl_kernel_rfl) y

/-! ## What each case leaves: (the aggregate block, the two statistics outputs, the two accumulators) -/

/-- A placeholder for a statistics output at a point where it is idle (nothing consults it there). -/
def idleOut1 : Vec F S1x128 .f32 := View.canon []

/-- What the first point leaves: each written buffer's pieces read as their canon. -/
def outA1 (c : Dev nD) (t : Fin cfg1.N) (h0 : t.val % 20 = 0) (h1 : ¬t.val % 20 = 19) : Vec F S5000x128 .f32 × Vec F S1x128 .f32 × Vec F S1x128 .f32 × Vec F S1x128 .f32 × Vec F S1x128 .f32 :=
  (View.canon (runA1 V c t h0 h1).1, idleOut1, idleOut1, View.canon (runA1 V c t h0 h1).2.1, View.canon (runA1 V c t h0 h1).2.2.1)

/-- What a middle point leaves. -/
def outB1 (c : Dev nD) (t : Fin cfg1.N) (h0 : ¬t.val % 20 = 0) (h1 : ¬t.val % 20 = 19) (xs0 xs1 : Vec F S1x128 .f32) : Vec F S5000x128 .f32 × Vec F S1x128 .f32 × Vec F S1x128 .f32 × Vec F S1x128 .f32 × Vec F S1x128 .f32 :=
  (View.canon (runB1 V c t h0 h1 xs0 xs1).1, idleOut1, idleOut1, View.canon (runB1 V c t h0 h1 xs0 xs1).2.1, View.canon (runB1 V c t h0 h1 xs0 xs1).2.2.1)

/-- What the last point leaves. -/
def outC1 (c : Dev nD) (t : Fin cfg1.N) (h0 : ¬t.val % 20 = 0) (h1 : t.val % 20 = 19) (xs0 xs1 : Vec F S1x128 .f32) : Vec F S5000x128 .f32 × Vec F S1x128 .f32 × Vec F S1x128 .f32 × Vec F S1x128 .f32 × Vec F S1x128 .f32 :=
  (View.canon (runC1 V c t h0 h1 xs0 xs1).1, View.canon (runC1 V c t h0 h1 xs0 xs1).2.1, View.canon (runC1 V c t h0 h1 xs0 xs1).2.2.1,
    View.canon (runC1 V c t h0 h1 xs0 xs1).2.2.2.1, View.canon (runC1 V c t h0 h1 xs0 xs1).2.2.2.2.1)

/-- THE ACCUMULATION: what the three output buffers and the two accumulators hold after the body at position `n`:
    the point's case, over what the point before left in the accumulators. -/
def outsAt1 (c : Dev nD) : (n : ℕ) → n < cfg1.N → Vec F S5000x128 .f32 × Vec F S1x128 .f32 × Vec F S1x128 .f32 × Vec F S1x128 .f32 × Vec F S1x128 .f32
  | 0, hn => outA1 V c ⟨0, hn⟩ (Nat.zero_mod _) (by show ¬(0 % 20 = 19); decide)
  | n + 1, hn =>
    if h1 : (n + 1) % 20 = 19 then
      outC1 V c ⟨n + 1, hn⟩ (by have hN : n + 1 < 20 := lt_of_lt_of_eq hn (show cfg1.N = 20 from N_1); show ¬((n + 1) % 20 = 0); omega) h1
        (outsAt1 c n (Nat.lt_of_succ_lt hn)).2.2.2.1 (outsAt1 c n (Nat.lt_of_succ_lt hn)).2.2.2.2
    else
      outB1 V c ⟨n + 1, hn⟩ (by have hN : n + 1 < 20 := lt_of_lt_of_eq hn (show cfg1.N = 20 from N_1); show ¬((n + 1) % 20 = 0); omega) h1
        (outsAt1 c n (Nat.lt_of_succ_lt hn)).2.2.2.1 (outsAt1 c n (Nat.lt_of_succ_lt hn)).2.2.2.2

theorem outsAt1_A (c : Dev nD) (t : Fin cfg1.N) (h0 : t.val % 20 = 0) (h1 : ¬t.val % 20 = 19) :
    outsAt1 V c t.val t.isLt = outA1 V c t h0 h1 := by
  obtain ⟨n, hn⟩ := t
  cases n with
  | zero => rfl
  | succ n => exfalso; have hN : n + 1 < 20 := lt_of_lt_of_eq hn (show cfg1.N = 20 from N_1); (try dsimp only at h0); omega

theorem outsAt1_B (c : Dev nD) (t : Fin cfg1.N) (h0 : ¬t.val % 20 = 0) (h1 : ¬t.val % 20 = 19) :
    outsAt1 V c t.val t.isLt = outB1 V c t h0 h1 (outsAt1 V c (t.val - 1) (Nat.lt_of_le_of_lt (Nat.sub_le _ _) t.isLt)).2.2.2.1
      (outsAt1 V c (t.val - 1) (Nat.lt_of_le_of_lt (Nat.sub_le _ _) t.isLt)).2.2.2.2 := by
  obtain ⟨n, hn⟩ := t
  cases n with
  | zero => exact absurd (Nat.zero_mod _) h0
  | succ n => exact (dif_neg h1).trans rfl

theorem outsAt1_C (c : Dev nD) (t : Fin cfg1.N) (h0 : ¬t.val % 20 = 0) (h1 : t.val % 20 = 19) :
    outsAt1 V c t.val t.isLt = outC1 V c t h0 h1 (outsAt1 V c (t.val - 1) (Nat.lt_of_le_of_lt (Nat.sub_le _ _) t.isLt)).2.2.2.1
      (outsAt1 V c (t.val - 1) (Nat.lt_of_le_of_lt (Nat.sub_le _ _) t.isLt)).2.2.2.2 := by
  obtain ⟨n, hn⟩ := t
  cases n with
  | zero => exact absurd (Nat.zero_mod _) h0
  | succ n => exact (dif_pos h1).trans rfl

/-! ## The invariant: the two accumulators carried between points -/

/-- Before the first point the class's invariant; afterwards the two accumulators at what the point before left, the
    rest of the scoped buffers unopened, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.2.1) ∗ owns (c : Thread nD τ) scM1_1 fullShare ((outsAt1 V c n hn).2.2.2.2)) ∗ restBut1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.2.1) ∗ owns (c : Thread nD τ) scM1_1 fullShare ((outsAt1 V c n hn).2.2.2.2)) ∗ restBut1 (F := F) c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.2.1) ∗ owns (c : Thread nD τ) scM1_1 fullShare ((outsAt1 V c (n - 1) (by omega)).2.2.2.2)) ∗ restBut1 (F := F) c) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the outputs' at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' memrefs hold their blocks; the closed forms say which case the point is in; the
    invariant hands the body the accumulators at what the point before left (at anything at the first point) and takes
    them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (ms1_0 t) fullShare ((dat1 V c).after 0 t) from rfl, after1_0,
    show (dat1 V c).leavesExact 1 t = owns (c : Thread nD τ) (ms1_1 t) fullShare ((dat1 V c).after 1 t) from rfl, after1_1,
    show (dat1 V c).leavesExact 2 t = owns (c : Thread nD τ) (ms1_2 t) fullShare ((dat1 V c).after 2 t) from rfl, after1_2,
    show (dat1 V c).leavesExact 3 t = owns (c : Thread nD τ) (ms1_3 t) fullShare ((dat1 V c).after 3 t) from rfl, after1_3,
    show (dat1 V c).leavesExact 4 t = owns (c : Thread nD τ) (ms1_4 t) fullShare ((dat1 V c).after 4 t) from rfl, after1_4]
  by_cases h0 : t.val % 20 = 0
  · have h1 : ¬t.val % 20 = 19 := by omega
    rw [Dat.leavesExact_idle (dat1 V c) 5 t (idleAt1_5 t (fun h => h1 ((hcond1_1 t).mp h))) (noFlush1_5 t (fun h => h1 ((hcond1_1 t).mp h)))]
    rw [Dat.leavesExact_idle (dat1 V c) 6 t (idleAt1_6 t (fun h => h1 ((hcond1_1 t).mp h))) (noFlush1_6 t (fun h => h1 ((hcond1_1 t).mp h)))]
    rw [outsAt1_A V c t h0 h1]
    unfold outA1; (try dsimp only)
    rw [PhiS1_castSucc V c t, PhiS1_zero V c _ _ (by omega), PhiA1_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((runA1 V c t h0 h1).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_eq_canon _ _ _ (scoverA1_0 V c t h0 h1)
          · unfold owns; iexists _; isplitr
            swap; · iexact HS1
            ipureintro; exact View.read_writes_eq_canon _ _ _ (scoverA1_1 V c t h0 h1)
        · iexact HR
      · iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_eq_canon _ _ _ (coverA1_4 V c t h0 h1)
    isplitl [H5]; · iexists _; iexact H5
    iexists _; iexact H6
  · by_cases h1 : t.val % 20 = 19
    ·
      rw [show (dat1 V c).leavesExact 5 t = owns (c : Thread nD τ) (ms1_5 t) fullShare ((dat1 V c).after 5 t) from by
            unfold Dat.leavesExact; rw [liveAt1_5 t ((hcond1_1 t).mpr h1)], after1_5]
      rw [show (dat1 V c).leavesExact 6 t = owns (c : Thread nD τ) (ms1_6 t) fullShare ((dat1 V c).after 6 t) from by
            unfold Dat.leavesExact; rw [liveAt1_6 t ((hcond1_1 t).mpr h1)], after1_6]
      rw [outsAt1_C V c t h0 h1]
      unfold outC1; (try dsimp only)
      rw [PhiS1_castSucc V c t, PhiS1_pos V c _ _ (by omega)]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runC1 V c t h0 h1 _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_eq_canon _ _ _ (scoverC1_0 V c t h0 h1 _ _)
            · unfold owns; iexists _; isplitr
              swap; · iexact HS1
              ipureintro; exact View.read_writes_eq_canon _ _ _ (scoverC1_1 V c t h0 h1 _ _)
          · iexact HR
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_eq_canon _ _ _ (coverC1_4 V c t h0 h1 _ _)
      isplitl [H5]
      · unfold owns; iexists _; isplitr
        swap; · iexact H5
        ipureintro; exact View.read_writes_eq_canon _ _ _ (coverC1_5 V c t h0 h1 _ _)
      unfold owns; iexists _; isplitr
      swap; · iexact H6
      ipureintro; exact View.read_writes_eq_canon _ _ _ (coverC1_6 V c t h0 h1 _ _)
    ·
      rw [Dat.leavesExact_idle (dat1 V c) 5 t (idleAt1_5 t (fun h => h1 ((hcond1_1 t).mp h))) (noFlush1_5 t (fun h => h1 ((hcond1_1 t).mp h)))]
      rw [Dat.leavesExact_idle (dat1 V c) 6 t (idleAt1_6 t (fun h => h1 ((hcond1_1 t).mp h))) (noFlush1_6 t (fun h => h1 ((hcond1_1 t).mp h)))]
      rw [outsAt1_B V c t h0 h1]
      unfold outB1; (try dsimp only)
      rw [PhiS1_castSucc V c t, PhiS1_pos V c _ _ (by omega)]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runB1 V c t h0 h1 _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_eq_canon _ _ _ (scoverB1_0 V c t h0 h1 _ _)
            · unfold owns; iexists _; isplitr
              swap; · iexact HS1
              ipureintro; exact View.read_writes_eq_canon _ _ _ (scoverB1_1 V c t h0 h1 _ _)
          · iexact HR
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_eq_canon _ _ _ (coverB1_4 V c t h0 h1 _ _)
      isplitl [H5]; · iexists _; iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end Cert.Kernel.Hand

end
-- ==== Proof.K.R2.lean ====
/- The normalise-scale-shift-rectify region 2 of the kernel program, at the buffer contents `V` found when the region is
   entered: each window's block at a grid point, what the body leaves in the output window's buffer as a function of the
   five input blocks, the body's triple, the pipeline's proof data and the body obligation at every grid point. The
   four statistics/affine rows (windows 1–4) have a constant block index, so their staging buffers hold the same row
   at every point although they are fetched only at the first. -/
import proofs.«115763_j74259984548099_2_alg».proof.Proof.Gen.Kernel.Launch
import proofs.«115763_j74259984548099_2_alg».proof.Proof.Gen.Kernel.Skeleton
import proofs.«115763_j74259984548099_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle whose long axis has 10000 coordinates recurses once per coordinate
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: where it is not fetched its block index has
    not moved, so the block of the previous point is the block of this one. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: where it is not fetched its block index has
    not moved, so the block of the previous point is the block of this one. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: where it is not fetched its block index has
    not moved, so the block of the previous point is the block of this one. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place: where it is not fetched its block index has
    not moved, so the block of the previous point is the block of this one. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place: where it is not fetched its block index has
    not moved, so the block of the previous point is the block of this one. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole [10000,128] block. -/
abbrev r2_0 : Rect S10000x128 := Rect.unit (s := S10000x128) ![0, 0] S10000x128.size inb_S10000x128_S10000x128_0_0
/-- The whole [1,128] row. -/
abbrev r2_1 : Rect S1x128 := Rect.unit (s := S1x128) ![0, 0] S1x128.size inb_S1x128_S1x128_0_0

/-! ## What the body leaves in the output window's buffer -/

/-- Window 5's staging buffer after the body, from the input windows' blocks (`x0` the feature block, `x1` the mean
    row, `x2` the variance row, `x3` the scale row, `x4` the shift row): its one store, of the whole block, of the
    payload `max ((x0 - x1) * rsqrt (x2 + ε) * x3 + x4) 0`. -/
def out2_5 (x0 : Vec F S10000x128 .f32) (x1 : Vec F S1x128 .f32) (x2 : Vec F S1x128 .f32) (x3 : Vec F S1x128 .f32) (x4 : Vec F S1x128 .f32) : Vec F S10000x128 .f32 :=
  View.canon [⟨r2_0, k2_pay1 (View.ld x0 r2_0) (View.ld x2 r2_1) (View.ld x1 r2_1) (View.ld x3 r2_1) (View.ld x4 r2_1)⟩]

/-- Its one store is of the whole buffer, so it covers it. -/
theorem cover2_5 (p0 : Vec F S10000x128 .f32) (y : S10000x128.Idx) :
    ∃ pc ∈ ([⟨r2_0, p0⟩] : List (View.Piece (Elt F) S10000x128 .f32)), y ∈ pc.1.set :=
  View.cover_of_tiled [⟨r2_0, p0⟩] S10000x128.size (by rfl) y

/-! ## The body's triple -/

set_option maxHeartbeats 1000000 in
/-- The kernel body on whole staging memrefs, the inputs' at read contents `xW` and the output's at anything, runs to
    the continuation holding the inputs' as they were and the output's at `out2_5` of the inputs'. -/
theorem sound_kernel2 (c : Dev nD) (E : Set ℕ) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole)
    (x0 : Vec F S10000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them (`V`); after the body at
    point `t` each input's buffer at its block and the output's at `out2_5` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's ends -/

/-- The class invariant is the proof data's at the first point, -/
theorem hin2 (c : Dev nD) : Pipeline.ΦA spec2 c ⊢ (dat2 V c).Φ 0 := .rfl

/-- and at the last. -/
theorem hout2 (c : Dev nD) : (dat2 V c).Φ (Fin.last cfg2.N) ⊢ Pipeline.ΦA spec2 c := .rfl

end Cert.Kernel.Hand
-- ==== Proof.K.R3.lean ====
/- Region 3 of the kernel program: the proof data of its pipeline and the obligation of its body, stated at a
   parameter `V`, the TensorCore's buffer contents when the region is entered. -/
import proofs.«115763_j74259984548099_2_alg».proof.Proof.Gen.Kernel.Launch
import proofs.«115763_j74259984548099_2_alg».proof.Proof.Gen.Kernel.Skeleton
import proofs.«115763_j74259984548099_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 3: `_linear_scaled_kernel`, the rows' features times the weights, each row scaled, at the entry contents `V` -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: when the
    pipeline does not fetch, the block index has not moved and the body left the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not: when the
    pipeline does not fetch, the block index has not moved and the body left the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not: when the
    pipeline does not fetch, the block index has not moved and the body left the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each memref is read or written whole -/

abbrev r3_0 : Rect S5000x128 := Rect.unit (s := S5000x128) ![0, 0] S5000x128.size inb_S5000x128_S5000x128_0_0
abbrev r3_1 : Rect S128x128 := Rect.unit (s := S128x128) ![0, 0] S128x128.size inb_S128x128_S128x128_0_0
abbrev r3_2 : Rect S5000x1 := Rect.unit (s := S5000x1) ![0, 0] S5000x1.size inb_S5000x1_S5000x1_0_0
abbrev r3_3 : Rect S5000x128 := Rect.unit (s := S5000x128) ![0, 0] S5000x128.size inb_S5000x128_S5000x128_0_0

/-! ## What the body leaves in the output window's buffer -/

/-- Window 3's staging buffer after the body, from the input windows' blocks: its one store, of the payload
    computed from the three whole loads. -/
def out3_3 (x0 : Vec F S5000x128 .f32) (x1 : Vec F S128x128 .f32) (x2 : Vec F S5000x1 .f32) : Vec F S5000x128 .f32 :=
  View.canon [⟨r3_3, k3_pay1 (View.ld x0 r3_0) (View.ld x1 r3_1) (View.ld x2 r3_2)⟩]

/-- The store is of the whole buffer, so it covers it. -/
theorem cover3_3 (p0 : Vec F S5000x128 .f32) (y : S5000x128.Idx) :
    ∃ pc ∈ ([⟨r3_3, p0⟩] : List (View.Piece (Elt F) S5000x128 .f32)), y ∈ pc.1.set :=
  View.cover_of_tiled [⟨r3_3, p0⟩] S5000x128.size (by rfl) y

/-! ## The body's triple -/

set_option maxHeartbeats 1000000 in
/-- The kernel body on whole staging memrefs, the inputs' at read contents `xW` and the output's at anything, runs to
    the continuation holding the inputs' as they were and the output's at `out3_3` of the inputs'. -/
theorem sound_kernel3 (c : Dev nD) (E : Set ℕ) (i : grid3.Coords) (arg0 : Memref sig .tc .vmem S5000x128 .f32) (harg0 : arg0.IsWhole) (arg1 : Memref sig .tc .vmem S128x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S128x128 .f32) (x2 : Vec F S5000x1 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out3_3 x0 x1 x2)) -∗ K ⟨⟩))
      ⊢ wp frame (wpE (defs₀ (F := F)) Variants.none c none) E (cc3__linear_scaled_kernel i arg0 harg0 arg1 harg1 arg2 harg2 arg3 harg3) K := by
  simp only [cc3__linear_scaled_kernel_eq_skeleton]; unfold cc3__linear_scaled_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at
    point `t` each input's buffer at its block and the output's at `out3_3` of the input blocks; the invariant is the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- The invariant at region entry and at region exit is the class's. -/
theorem hin3 (c : Dev nD) : Pipeline.ΦA spec3 c ⊢ (dat3 V c).Φ 0 := by
  dsimp only [dat3]; exact .rfl
theorem hout3 (c : Dev nD) : (dat3 V c).Φ (Fin.last cfg3.N) ⊢ Pipeline.ΦA spec3 c := by
  dsimp only [dat3]; exact .rfl

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4Run.lean ====
import proofs.«115763_j74259984548099_2_alg».proof.Proof.Gen.Kernel.Launch
import proofs.«115763_j74259984548099_2_alg».proof.Proof.Gen.Kernel.Skeleton
import proofs.«115763_j74259984548099_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4 (`cc4__combine_stats_kernel`): the conditions, the memrefs, the three whole-body runs -/

/-- The condition of the first `scf.if` (zero the two accumulators), from the grid coordinates. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val % 20 = 0 :=
  (by decide +kernel : ∀ t : Fin grid4.N, cond4_0 (grid4.coords t) ↔ t.val % 20 = 0)

/-- The condition of the last `scf.if` (copy the accumulators to the two statistics outputs). -/
abbrev cond4_1 (i : grid4.Coords) : Prop := k4_cond2 i = 1#1
/-- It holds at the last point only. -/
theorem hcond4_1 : ∀ t : Fin cfg4.N, cond4_1 (grid4.coords t) ↔ t.val % 20 = 19 :=
  (by decide +kernel : ∀ t : Fin grid4.N, cond4_1 (grid4.coords t) ↔ t.val % 20 = 19)

/-- Away from the last point the two statistics windows are idle and not written back; at it they are live. -/
theorem idleAt4_5 : ∀ t : Fin cfg4.N, ¬cond4_1 (grid4.coords t) → cfg4.idle 5 (grid4.coords t) = true := by decide +kernel
theorem noFlush4_5 : ∀ t : Fin cfg4.N, ¬cond4_1 (grid4.coords t) → (cfg4.win 5).flush t = false := by decide +kernel
theorem liveAt4_5 : ∀ t : Fin cfg4.N, cond4_1 (grid4.coords t) → cfg4.idle 5 (grid4.coords t) = false := by decide +kernel
theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
theorem liveAt4_6 : ∀ t : Fin cfg4.N, cond4_1 (grid4.coords t) → cfg4.idle 6 (grid4.coords t) = false := by decide +kernel

/-- Each window's current staging memref at point `t`, and its wholeness. -/
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S5000x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S5000x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x128 .f32 := win4_6.stage (cfg4.slots t 6)
abbrev hs4_6 (t : Fin cfg4.N) : (ms4_6 t).IsWhole := hstage4_6 ((cfg4.slots t 6).cast nbuf4_6)
/-- The two accumulators: whole scoped buffers of the kernel's own. -/
abbrev scM4_0 : Memref sig .tc .vmem S1x128 .f32 := Memref.whole cc4_scratch0
abbrev scM4_1 : Memref sig .tc .vmem S1x128 .f32 := Memref.whole cc4_scratch1
/-- One view per written buffer shape, through which contents are stated (the choice does not matter). -/
abbrev VO4_4 : View sig .tc .vmem S5000x128 .f32 := (Memref.whole cc4_stg4_0 : Memref sig .tc .vmem S5000x128 .f32).view
abbrev VO4_5 : View sig .tc .vmem S1x128 .f32 := (Memref.whole cc4_stg5_0 : Memref sig .tc .vmem S1x128 .f32).view
abbrev VO4_6 : View sig .tc .vmem S1x128 .f32 := (Memref.whole cc4_stg6_0 : Memref sig .tc .vmem S1x128 .f32).view
abbrev VS4_0 : View sig .tc .vmem S1x128 .f32 := scM4_0.view
abbrev VS4_1 : View sig .tc .vmem S1x128 .f32 := scM4_1.view

/-- The scoped rest that is neither accumulator: carried unopened. -/
abbrev restBut4 (c : Dev nD) : sProp 𝕄 :=
  Pipeline.scopedRestBut (Ix := Unit) (Name := ℕ) (U := UR sig nD τ) (Lvl := ℕ) (Val := Elt F) spec4 c [cc4_scratch0, cc4_scratch1]

/-- The class's invariant with the two accumulators as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ restBut4 (F := F) c) ∗ (∃ r, prngReg c r)) := by
  unfold Pipeline.ΦA; rw [scopedRest4_split]; simp only [scM4_0, scM4_1, owns_whole]; try rfl

set_option maxHeartbeats 4000000 in
/-- The first point: both conditionals decided (`scf.if` 0 taken, the last not); the accumulators are handed in at
    anything, the two statistics outputs are idle and handed back untouched; the pieces each written buffer ends with
    are the witness the run finds. -/
noncomputable def kernelRun4_A (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S5000x128 .f32) (x1 : Vec F S5000x128 .f32) (x2 : Vec F S5000x1 .f32) (x3 : Vec F S1x128 .f32) :
    Σ' (L4 : List (View.Piece (Elt F) S5000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__combine_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    haveI : Fact (cond4_0 i) := ⟨hc0⟩
    haveI : Fact (¬cond4_1 i) := ⟨hc1⟩
    simp only [cc4__combine_stats_kernel_eq_skeleton]; unfold cc4__combine_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 4000000 in
/-- A middle point: neither conditional taken; the accumulators are handed in at what the point before left. -/
noncomputable def kernelRun4_B (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S5000x128 .f32) (x1 : Vec F S5000x128 .f32) (x2 : Vec F S5000x1 .f32) (x3 : Vec F S1x128 .f32) (xs0 xs1 : Vec F S1x128 .f32) :
    Σ' (L4 : List (View.Piece (Elt F) S5000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__combine_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    haveI : Fact (¬cond4_0 i) := ⟨hc0⟩
    haveI : Fact (¬cond4_1 i) := ⟨hc1⟩
    simp only [cc4__combine_stats_kernel_eq_skeleton]; unfold cc4__combine_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 4000000 in
/-- The last point: the first conditional not taken, the last taken; the two statistics outputs are stored whole. -/
noncomputable def kernelRun4_C (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S5000x128 .f32) (x1 : Vec F S5000x128 .f32) (x2 : Vec F S5000x1 .f32) (x3 : Vec F S1x128 .f32) (xs0 xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__combine_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    haveI : Fact (¬cond4_0 i) := ⟨hc0⟩
    haveI : Fact (cond4_1 i) := ⟨hc1⟩
    simp only [cc4__combine_stats_kernel_eq_skeleton]; unfold cc4__combine_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Hand

end
-- ==== Proof.K.R4.lean ====
import proofs.«115763_j74259984548099_2_alg».proof.Proof.K.R4Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4 of @main (`cc4__combine_stats_kernel`), at the entry contents `V` -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The three runs at a point's memrefs and blocks -/

/-- The first point's run on the point's staging memrefs, the two accumulators and the four input blocks. -/
def runA4 (c : Dev nD) (t : Fin cfg4.N) (h0 : t.val % 20 = 0) (h1 : ¬t.val % 20 = 19) :=
  kernelRun4_A (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t)

/-- A middle point's, over what the point before left in the accumulators. -/
def runB4 (c : Dev nD) (t : Fin cfg4.N) (h0 : ¬t.val % 20 = 0) (h1 : ¬t.val % 20 = 19) (xs0 xs1 : Vec F S1x128 .f32) :=
  kernelRun4_B (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) xs0 xs1

/-- The last point's. -/
def runC4 (c : Dev nD) (t : Fin cfg4.N) (h0 : ¬t.val % 20 = 0) (h1 : t.val % 20 = 19) (xs0 xs1 : Vec F S1x128 .f32) :=
  kernelRun4_C (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) xs0 xs1

/-! ## The pieces cover each written buffer -/

theorem coverA4_4 (c : Dev nD) (t : Fin cfg4.N) (h0 : t.val % 20 = 0) (h1 : ¬t.val % 20 = 19) (y : S5000x128.Idx) :
    ∃ pc ∈ (runA4 V c t h0 h1).1, y ∈ pc.1.set :=
  View.cover_of_tiledL (runA4 V c t h0 h1).1 S5000x128.size (by sl_kernel_rfl) y
theorem scoverA4_0 (c : Dev nD) (t : Fin cfg4.N) (h0 : t.val % 20 = 0) (h1 : ¬t.val % 20 = 19) (y : S1x128.Idx) :
    ∃ pc ∈ (runA4 V c t h0 h1).2.1, y ∈ pc.1.set :=
  View.cover_of_tiledL (runA4 V c t h0 h1).2.1 S1x128.size (by sl_kernel_rfl) y
theorem scoverA4_1 (c : Dev nD) (t : Fin cfg4.N) (h0 : t.val % 20 = 0) (h1 : ¬t.val % 20 = 19) (y : S1x128.Idx) :
    ∃ pc ∈ (runA4 V c t h0 h1).2.2.1, y ∈ pc.1.set :=
  View.cover_of_tiledL (runA4 V c t h0 h1).2.2.1 S1x128.size (by sl_kernel_rfl) y

theorem coverB4_4 (c : Dev nD) (t : Fin cfg4.N) (h0 : ¬t.val % 20 = 0) (h1 : ¬t.val % 20 = 19) (xs0 xs1 : Vec F S1x128 .f32) (y : S5000x128.Idx) :
    ∃ pc ∈ (runB4 V c t h0 h1 xs0 xs1).1, y ∈ pc.1.set :=
  View.cover_of_tiledL (runB4 V c t h0 h1 xs0 xs1).1 S5000x128.size (by sl_kernel_rfl) y
theorem scoverB4_0 (c : Dev nD) (t : Fin cfg4.N) (h0 : ¬t.val % 20 = 0) (h1 : ¬t.val % 20 = 19) (xs0 xs1 : Vec F S1x128 .f32) (y : S1x128.Idx) :
    ∃ pc ∈ (runB4 V c t h0 h1 xs0 xs1).2.1, y ∈ pc.1.set :=
  View.cover_of_tiledL (runB4 V c t h0 h1 xs0 xs1).2.1 S1x128.size (by sl_kernel_rfl) y
theorem scoverB4_1 (c : Dev nD) (t : Fin cfg4.N) (h0 : ¬t.val % 20 = 0) (h1 : ¬t.val % 20 = 19) (xs0 xs1 : Vec F S1x128 .f32) (y : S1x128.Idx) :
    ∃ pc ∈ (runB4 V c t h0 h1 xs0 xs1).2.2.1, y ∈ pc.1.set :=
  View.cover_of_tiledL (runB4 V c t h0 h1 xs0 xs1).2.2.1 S1x128.size (by sl_kernel_rfl) y

theorem coverC4_4 (c : Dev nD) (t : Fin cfg4.N) (h0 : ¬t.val % 20 = 0) (h1 : t.val % 20 = 19) (xs0 xs1 : Vec F S1x128 .f32) (y : S5000x128.Idx) :
    ∃ pc ∈ (runC4 V c t h0 h1 xs0 xs1).1, y ∈ pc.1.set :=
  View.cover_of_tiledL (runC4 V c t h0 h1 xs0 xs1).1 S5000x128.size (by sl_kernel_rfl) y
theorem coverC4_5 (c : Dev nD) (t : Fin cfg4.N) (h0 : ¬t.val % 20 = 0) (h1 : t.val % 20 = 19) (xs0 xs1 : Vec F S1x128 .f32) (y : S1x128.Idx) :
    ∃ pc ∈ (runC4 V c t h0 h1 xs0 xs1).2.1, y ∈ pc.1.set :=
  View.cover_of_tiledL (runC4 V c t h0 h1 xs0 xs1).2.1 S1x128.size (by sl_kernel_rfl) y
theorem coverC4_6 (c : Dev nD) (t : Fin cfg4.N) (h0 : ¬t.val % 20 = 0) (h1 : t.val % 20 = 19) (xs0 xs1 : Vec F S1x128 .f32) (y : S1x128.Idx) :
    ∃ pc ∈ (runC4 V c t h0 h1 xs0 xs1).2.2.1, y ∈ pc.1.set :=
  View.cover_of_tiledL (runC4 V c t h0 h1 xs0 xs1).2.2.1 S1x128.size (by sl_kernel_rfl) y
theorem scoverC4_0 (c : Dev nD) (t : Fin cfg4.N) (h0 : ¬t.val % 20 = 0) (h1 : t.val % 20 = 19) (xs0 xs1 : Vec F S1x128 .f32) (y : S1x128.Idx) :
    ∃ pc ∈ (runC4 V c t h0 h1 xs0 xs1).2.2.2.1, y ∈ pc.1.set :=
  View.cover_of_tiledL (runC4 V c t h0 h1 xs0 xs1).2.2.2.1 S1x128.size (by sl_kernel_rfl) y
theorem scoverC4_1 (c : Dev nD) (t : Fin cfg4.N) (h0 : ¬t.val % 20 = 0) (h1 : t.val % 20 = 19) (xs0 xs1 : Vec F S1x128 .f32) (y : S1x128.Idx) :
    ∃ pc ∈ (runC4 V c t h0 h1 xs0 xs1).2.2.2.2.1, y ∈ pc.1.set :=
  View.cover_of_tiledL (runC4 V c t h0 h1 xs0 xs1).2.2.2.2.1 S1x128.size (by sl_kernel_rfl) y

/-! ## What each case leaves: (the aggregate block, the two statistics outputs, the two accumulators) -/

/-- A placeholder for a statistics output at a point where it is idle (nothing consults it there). -/
def idleOut4 : Vec F S1x128 .f32 := View.canon []

/-- What the first point leaves: each written buffer's pieces read as their canon. -/
def outA4 (c : Dev nD) (t : Fin cfg4.N) (h0 : t.val % 20 = 0) (h1 : ¬t.val % 20 = 19) : Vec F S5000x128 .f32 × Vec F S1x128 .f32 × Vec F S1x128 .f32 × Vec F S1x128 .f32 × Vec F S1x128 .f32 :=
  (View.canon (runA4 V c t h0 h1).1, idleOut4, idleOut4, View.canon (runA4 V c t h0 h1).2.1, View.canon (runA4 V c t h0 h1).2.2.1)

/-- What a middle point leaves. -/
def outB4 (c : Dev nD) (t : Fin cfg4.N) (h0 : ¬t.val % 20 = 0) (h1 : ¬t.val % 20 = 19) (xs0 xs1 : Vec F S1x128 .f32) : Vec F S5000x128 .f32 × Vec F S1x128 .f32 × Vec F S1x128 .f32 × Vec F S1x128 .f32 × Vec F S1x128 .f32 :=
  (View.canon (runB4 V c t h0 h1 xs0 xs1).1, idleOut4, idleOut4, View.canon (runB4 V c t h0 h1 xs0 xs1).2.1, View.canon (runB4 V c t h0 h1 xs0 xs1).2.2.1)

/-- What the last point leaves. -/
def outC4 (c : Dev nD) (t : Fin cfg4.N) (h0 : ¬t.val % 20 = 0) (h1 : t.val % 20 = 19) (xs0 xs1 : Vec F S1x128 .f32) : Vec F S5000x128 .f32 × Vec F S1x128 .f32 × Vec F S1x128 .f32 × Vec F S1x128 .f32 × Vec F S1x128 .f32 :=
  (View.canon (runC4 V c t h0 h1 xs0 xs1).1, View.canon (runC4 V c t h0 h1 xs0 xs1).2.1, View.canon (runC4 V c t h0 h1 xs0 xs1).2.2.1,
    View.canon (runC4 V c t h0 h1 xs0 xs1).2.2.2.1, View.canon (runC4 V c t h0 h1 xs0 xs1).2.2.2.2.1)

/-- THE ACCUMULATION: what the three output buffers and the two accumulators hold after the body at position `n`:
    the point's case, over what the point before left in the accumulators. -/
def outsAt4 (c : Dev nD) : (n : ℕ) → n < cfg4.N → Vec F S5000x128 .f32 × Vec F S1x128 .f32 × Vec F S1x128 .f32 × Vec F S1x128 .f32 × Vec F S1x128 .f32
  | 0, hn => outA4 V c ⟨0, hn⟩ (Nat.zero_mod _) (by show ¬(0 % 20 = 19); decide)
  | n + 1, hn =>
    if h1 : (n + 1) % 20 = 19 then
      outC4 V c ⟨n + 1, hn⟩ (by have hN : n + 1 < 20 := lt_of_lt_of_eq hn (show cfg4.N = 20 from N_4); show ¬((n + 1) % 20 = 0); omega) h1
        (outsAt4 c n (Nat.lt_of_succ_lt hn)).2.2.2.1 (outsAt4 c n (Nat.lt_of_succ_lt hn)).2.2.2.2
    else
      outB4 V c ⟨n + 1, hn⟩ (by have hN : n + 1 < 20 := lt_of_lt_of_eq hn (show cfg4.N = 20 from N_4); show ¬((n + 1) % 20 = 0); omega) h1
        (outsAt4 c n (Nat.lt_of_succ_lt hn)).2.2.2.1 (outsAt4 c n (Nat.lt_of_succ_lt hn)).2.2.2.2

theorem outsAt4_A (c : Dev nD) (t : Fin cfg4.N) (h0 : t.val % 20 = 0) (h1 : ¬t.val % 20 = 19) :
    outsAt4 V c t.val t.isLt = outA4 V c t h0 h1 := by
  obtain ⟨n, hn⟩ := t
  cases n with
  | zero => rfl
  | succ n => exfalso; have hN : n + 1 < 20 := lt_of_lt_of_eq hn (show cfg4.N = 20 from N_4); (try dsimp only at h0); omega

theorem outsAt4_B (c : Dev nD) (t : Fin cfg4.N) (h0 : ¬t.val % 20 = 0) (h1 : ¬t.val % 20 = 19) :
    outsAt4 V c t.val t.isLt = outB4 V c t h0 h1 (outsAt4 V c (t.val - 1) (Nat.lt_of_le_of_lt (Nat.sub_le _ _) t.isLt)).2.2.2.1
      (outsAt4 V c (t.val - 1) (Nat.lt_of_le_of_lt (Nat.sub_le _ _) t.isLt)).2.2.2.2 := by
  obtain ⟨n, hn⟩ := t
  cases n with
  | zero => exact absurd (Nat.zero_mod _) h0
  | succ n => exact (dif_neg h1).trans rfl

theorem outsAt4_C (c : Dev nD) (t : Fin cfg4.N) (h0 : ¬t.val % 20 = 0) (h1 : t.val % 20 = 19) :
    outsAt4 V c t.val t.isLt = outC4 V c t h0 h1 (outsAt4 V c (t.val - 1) (Nat.lt_of_le_of_lt (Nat.sub_le _ _) t.isLt)).2.2.2.1
      (outsAt4 V c (t.val - 1) (Nat.lt_of_le_of_lt (Nat.sub_le _ _) t.isLt)).2.2.2.2 := by
  obtain ⟨n, hn⟩ := t
  cases n with
  | zero => exact absurd (Nat.zero_mod _) h0
  | succ n => exact (dif_pos h1).trans rfl

/-! ## The invariant: the two accumulators carried between points -/

/-- Before the first point the class's invariant; afterwards the two accumulators at what the point before left, the
    rest of the scoped buffers unopened, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.2.1) ∗ owns (c : Thread nD τ) scM4_1 fullShare ((outsAt4 V c n hn).2.2.2.2)) ∗ restBut4 (F := F) c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare ((outsAt4 V c n hn).2.2.2.1) ∗ owns (c : Thread nD τ) scM4_1 fullShare ((outsAt4 V c n hn).2.2.2.2)) ∗ restBut4 (F := F) c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.2.1) ∗ owns (c : Thread nD τ) scM4_1 fullShare ((outsAt4 V c (n - 1) (by omega)).2.2.2.2)) ∗ restBut4 (F := F) c) ∗ (∃ r, prngReg c r)) := by
  cases n with
  | zero => exact absurd rfl hz
  | succ n => rfl

/-! ## The pipeline's proof data -/

/-- The proof data of pipeline 4 on core `c`: the arrays as the region finds them (`V`); after the body at point `t`
    each input's buffer at its block and the outputs' at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
    | ⟨5, _⟩ => (outsAt4 V c t.val t.isLt).2.1
    | ⟨6, _⟩ => (outsAt4 V c t.val t.isLt).2.2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem after4_5 (c : Dev nD) (t : Fin cfg4.N) : (dat4 V c).after 5 t = (outsAt4 V c t.val t.isLt).2.1 := by dsimp only [dat4]
theorem after4_6 (c : Dev nD) (t : Fin cfg4.N) : (dat4 V c).after 6 t = (outsAt4 V c t.val t.isLt).2.2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4800000 in
/-- The body at any point: the inputs' memrefs hold their blocks; the closed forms say which case the point is in; the
    invariant hands the body the accumulators at what the point before left (at anything at the first point) and takes
    them back at this point's contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  rw [show (dat4 V c).leavesExact 0 t = owns (c : Thread nD τ) (ms4_0 t) fullShare ((dat4 V c).after 0 t) from rfl, after4_0,
    show (dat4 V c).leavesExact 1 t = owns (c : Thread nD τ) (ms4_1 t) fullShare ((dat4 V c).after 1 t) from rfl, after4_1,
    show (dat4 V c).leavesExact 2 t = owns (c : Thread nD τ) (ms4_2 t) fullShare ((dat4 V c).after 2 t) from rfl, after4_2,
    show (dat4 V c).leavesExact 3 t = owns (c : Thread nD τ) (ms4_3 t) fullShare ((dat4 V c).after 3 t) from rfl, after4_3,
    show (dat4 V c).leavesExact 4 t = owns (c : Thread nD τ) (ms4_4 t) fullShare ((dat4 V c).after 4 t) from rfl, after4_4]
  by_cases h0 : t.val % 20 = 0
  · have h1 : ¬t.val % 20 = 19 := by omega
    rw [Dat.leavesExact_idle (dat4 V c) 5 t (idleAt4_5 t (fun h => h1 ((hcond4_1 t).mp h))) (noFlush4_5 t (fun h => h1 ((hcond4_1 t).mp h)))]
    rw [Dat.leavesExact_idle (dat4 V c) 6 t (idleAt4_6 t (fun h => h1 ((hcond4_1 t).mp h))) (noFlush4_6 t (fun h => h1 ((hcond4_1 t).mp h)))]
    rw [outsAt4_A V c t h0 h1]
    unfold outA4; (try dsimp only)
    rw [PhiS4_castSucc V c t, PhiS4_zero V c _ _ (by omega), PhiA4_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((runA4 V c t h0 h1).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_eq_canon _ _ _ (scoverA4_0 V c t h0 h1)
          · unfold owns; iexists _; isplitr
            swap; · iexact HS1
            ipureintro; exact View.read_writes_eq_canon _ _ _ (scoverA4_1 V c t h0 h1)
        · iexact HR
      · iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_eq_canon _ _ _ (coverA4_4 V c t h0 h1)
    isplitl [H5]; · iexists _; iexact H5
    iexists _; iexact H6
  · by_cases h1 : t.val % 20 = 19
    ·
      rw [show (dat4 V c).leavesExact 5 t = owns (c : Thread nD τ) (ms4_5 t) fullShare ((dat4 V c).after 5 t) from by
            unfold Dat.leavesExact; rw [liveAt4_5 t ((hcond4_1 t).mpr h1)], after4_5]
      rw [show (dat4 V c).leavesExact 6 t = owns (c : Thread nD τ) (ms4_6 t) fullShare ((dat4 V c).after 6 t) from by
            unfold Dat.leavesExact; rw [liveAt4_6 t ((hcond4_1 t).mpr h1)], after4_6]
      rw [outsAt4_C V c t h0 h1]
      unfold outC4; (try dsimp only)
      rw [PhiS4_castSucc V c t, PhiS4_pos V c _ _ (by omega)]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runC4 V c t h0 h1 _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_eq_canon _ _ _ (scoverC4_0 V c t h0 h1 _ _)
            · unfold owns; iexists _; isplitr
              swap; · iexact HS1
              ipureintro; exact View.read_writes_eq_canon _ _ _ (scoverC4_1 V c t h0 h1 _ _)
          · iexact HR
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_eq_canon _ _ _ (coverC4_4 V c t h0 h1 _ _)
      isplitl [H5]
      · unfold owns; iexists _; isplitr
        swap; · iexact H5
        ipureintro; exact View.read_writes_eq_canon _ _ _ (coverC4_5 V c t h0 h1 _ _)
      unfold owns; iexists _; isplitr
      swap; · iexact H6
      ipureintro; exact View.read_writes_eq_canon _ _ _ (coverC4_6 V c t h0 h1 _ _)
    ·
      rw [Dat.leavesExact_idle (dat4 V c) 5 t (idleAt4_5 t (fun h => h1 ((hcond4_1 t).mp h))) (noFlush4_5 t (fun h => h1 ((hcond4_1 t).mp h)))]
      rw [Dat.leavesExact_idle (dat4 V c) 6 t (idleAt4_6 t (fun h => h1 ((hcond4_1 t).mp h))) (noFlush4_6 t (fun h => h1 ((hcond4_1 t).mp h)))]
      rw [outsAt4_B V c t h0 h1]
      unfold outB4; (try dsimp only)
      rw [PhiS4_castSucc V c t, PhiS4_pos V c _ _ (by omega)]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runB4 V c t h0 h1 _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_eq_canon _ _ _ (scoverB4_0 V c t h0 h1 _ _)
            · unfold owns; iexists _; isplitr
              swap; · iexact HS1
              ipureintro; exact View.read_writes_eq_canon _ _ _ (scoverB4_1 V c t h0 h1 _ _)
          · iexact HR
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_eq_canon _ _ _ (coverB4_4 V c t h0 h1 _ _)
      isplitl [H5]; · iexists _; iexact H5
      iexists _; iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the accumulators' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 20 := N_4; omega)

end Cert.Kernel.Hand

end
-- ==== Proof.K.R5.lean ====
/- The normalise-scale-shift-rectify region 5 of the kernel program, at the buffer contents `V` found when the region is
   entered: each window's block at a grid point, what the body leaves in the output window's buffer as a function of the
   five input blocks, the body's triple, the pipeline's proof data and the body obligation at every grid point. The
   four statistics/affine rows (windows 1–4) have a constant block index, so their staging buffers hold the same row
   at every point although they are fetched only at the first. -/
import proofs.«115763_j74259984548099_2_alg».proof.Proof.Gen.Kernel.Launch
import proofs.«115763_j74259984548099_2_alg».proof.Proof.Gen.Kernel.Skeleton
import proofs.«115763_j74259984548099_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle whose long axis has 10000 coordinates recurses once per coordinate
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s and whose body leaves the block in place: where it is not fetched its block index has
    not moved, so the block of the previous point is the block of this one. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s and whose body leaves the block in place: where it is not fetched its block index has
    not moved, so the block of the previous point is the block of this one. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s and whose body leaves the block in place: where it is not fetched its block index has
    not moved, so the block of the previous point is the block of this one. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s and whose body leaves the block in place: where it is not fetched its block index has
    not moved, so the block of the previous point is the block of this one. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s and whose body leaves the block in place: where it is not fetched its block index has
    not moved, so the block of the previous point is the block of this one. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole [10000,128] block. -/
abbrev r5_0 : Rect S10000x128 := Rect.unit (s := S10000x128) ![0, 0] S10000x128.size inb_S10000x128_S10000x128_0_0
/-- The whole [1,128] row. -/
abbrev r5_1 : Rect S1x128 := Rect.unit (s := S1x128) ![0, 0] S1x128.size inb_S1x128_S1x128_0_0

/-! ## What the body leaves in the output window's buffer -/

/-- Window 5's staging buffer after the body, from the input windows' blocks (`x0` the feature block, `x1` the mean
    row, `x2` the variance row, `x3` the scale row, `x4` the shift row): its one store, of the whole block, of the
    payload `max ((x0 - x1) * rsqrt (x2 + ε) * x3 + x4) 0`. -/
def out5_5 (x0 : Vec F S10000x128 .f32) (x1 : Vec F S1x128 .f32) (x2 : Vec F S1x128 .f32) (x3 : Vec F S1x128 .f32) (x4 : Vec F S1x128 .f32) : Vec F S10000x128 .f32 :=
  View.canon [⟨r5_0, k5_pay1 (View.ld x0 r5_0) (View.ld x2 r5_1) (View.ld x1 r5_1) (View.ld x3 r5_1) (View.ld x4 r5_1)⟩]

/-- Its one store is of the whole buffer, so it covers it. -/
theorem cover5_5 (p0 : Vec F S10000x128 .f32) (y : S10000x128.Idx) :
    ∃ pc ∈ ([⟨r5_0, p0⟩] : List (View.Piece (Elt F) S10000x128 .f32)), y ∈ pc.1.set :=
  View.cover_of_tiled [⟨r5_0, p0⟩] S10000x128.size (by rfl) y

/-! ## The body's triple -/

set_option maxHeartbeats 1000000 in
/-- The kernel body on whole staging memrefs, the inputs' at read contents `xW` and the output's at anything, runs to
    the continuation holding the inputs' as they were and the output's at `out5_5` of the inputs'. -/
theorem sound_kernel5 (c : Dev nD) (E : Set ℕ) (i : grid5.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole)
    (x0 : Vec F S10000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them (`V`); after the body at
    point `t` each input's buffer at its block and the output's at `out5_5` of the input blocks; the invariant the
    scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The invariant at the region's ends -/

/-- The class invariant is the proof data's at the first point, -/
theorem hin5 (c : Dev nD) : Pipeline.ΦA spec5 c ⊢ (dat5 V c).Φ 0 := .rfl

/-- and at the last. -/
theorem hout5 (c : Dev nD) : (dat5 V c).Φ (Fin.last cfg5.N) ⊢ Pipeline.ΦA spec5 c := .rfl

end Cert.Kernel.Hand
-- ==== Proof.K.R6.lean ====
/- Region 6 of the kernel program: the proof data of its pipeline and the obligation of its body, stated at a
   parameter `V`, the TensorCore's buffer contents when the region is entered. -/
import proofs.«115763_j74259984548099_2_alg».proof.Proof.Gen.Kernel.Launch
import proofs.«115763_j74259984548099_2_alg».proof.Proof.Gen.Kernel.Skeleton
import proofs.«115763_j74259984548099_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 6: `_linear_scaled_kernel`, the rows' features times the weights, each row scaled, at the entry contents `V` -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not: when the
    pipeline does not fetch, the block index has not moved and the body left the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not: when the
    pipeline does not fetch, the block index has not moved and the body left the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not: when the
    pipeline does not fetch, the block index has not moved and the body left the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each memref is read or written whole -/

abbrev r6_0 : Rect S5000x128 := Rect.unit (s := S5000x128) ![0, 0] S5000x128.size inb_S5000x128_S5000x128_0_0
abbrev r6_1 : Rect S128x128 := Rect.unit (s := S128x128) ![0, 0] S128x128.size inb_S128x128_S128x128_0_0
abbrev r6_2 : Rect S5000x1 := Rect.unit (s := S5000x1) ![0, 0] S5000x1.size inb_S5000x1_S5000x1_0_0
abbrev r6_3 : Rect S5000x128 := Rect.unit (s := S5000x128) ![0, 0] S5000x128.size inb_S5000x128_S5000x128_0_0

/-! ## What the body leaves in the output window's buffer -/

/-- Window 3's staging buffer after the body, from the input windows' blocks: its one store, of the payload
    computed from the three whole loads. -/
def out6_3 (x0 : Vec F S5000x128 .f32) (x1 : Vec F S128x128 .f32) (x2 : Vec F S5000x1 .f32) : Vec F S5000x128 .f32 :=
  View.canon [⟨r6_3, k6_pay1 (View.ld x0 r6_0) (View.ld x1 r6_1) (View.ld x2 r6_2)⟩]

/-- The store is of the whole buffer, so it covers it. -/
theorem cover6_3 (p0 : Vec F S5000x128 .f32) (y : S5000x128.Idx) :
    ∃ pc ∈ ([⟨r6_3, p0⟩] : List (View.Piece (Elt F) S5000x128 .f32)), y ∈ pc.1.set :=
  View.cover_of_tiled [⟨r6_3, p0⟩] S5000x128.size (by rfl) y

/-! ## The body's triple -/

set_option maxHeartbeats 1000000 in
/-- The kernel body on whole staging memrefs, the inputs' at read contents `xW` and the output's at anything, runs to
    the continuation holding the inputs' as they were and the output's at `out6_3` of the inputs'. -/
theorem sound_kernel6 (c : Dev nD) (E : Set ℕ) (i : grid6.Coords) (arg0 : Memref sig .tc .vmem S5000x128 .f32) (harg0 : arg0.IsWhole) (arg1 : Memref sig .tc .vmem S128x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S128x128 .f32) (x2 : Vec F S5000x1 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out6_3 x0 x1 x2)) -∗ K ⟨⟩))
      ⊢ wp frame (wpE (defs₀ (F := F)) Variants.none c none) E (cc6__linear_scaled_kernel i arg0 harg0 arg1 harg1 arg2 harg2 arg3 harg3) K := by
  simp only [cc6__linear_scaled_kernel_eq_skeleton]; unfold cc6__linear_scaled_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of pipeline 6 on core `c`: the arrays as the region finds them (`V`); after the body at
    point `t` each input's buffer at its block and the output's at `out6_3` of the input blocks; the invariant is the
    scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- The invariant at region entry and at region exit is the class's. -/
theorem hin6 (c : Dev nD) : Pipeline.ΦA spec6 c ⊢ (dat6 V c).Φ 0 := by
  dsimp only [dat6]; exact .rfl
theorem hout6 (c : Dev nD) : (dat6 V c).Φ (Fin.last cfg6.N) ⊢ Pipeline.ΦA spec6 c := by
  dsimp only [dat6]; exact .rfl

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so `sound_kernel6` applies; the invariant and
    the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.R7Run.lean ====
import proofs.«115763_j74259984548099_2_alg».proof.Proof.Gen.Kernel.Launch
import proofs.«115763_j74259984548099_2_alg».proof.Proof.Gen.Kernel.Skeleton
import proofs.«115763_j74259984548099_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7 (`cc7__combine_stats_kernel`): the conditions, the memrefs, the three whole-body runs -/

/-- The condition of the first `scf.if` (zero the two accumulators), from the grid coordinates. -/
abbrev cond7_0 (i : grid7.Coords) : Prop := (Scalar.cmpi .ne (Scalar.extui (Scalar.cmpi .eq (BitVec.ofNat 32 (i 0).val) 0#32)) 0#32) = 1#1
/-- It holds at the first point only. -/
theorem hcond7_0 : ∀ t : Fin cfg7.N, cond7_0 (grid7.coords t) ↔ t.val % 20 = 0 :=
  (by decide +kernel : ∀ t : Fin grid7.N, cond7_0 (grid7.coords t) ↔ t.val % 20 = 0)

/-- The condition of the last `scf.if` (copy the accumulators to the two statistics outputs). -/
abbrev cond7_1 (i : grid7.Coords) : Prop := k7_cond2 i = 1#1
/-- It holds at the last point only. -/
theorem hcond7_1 : ∀ t : Fin cfg7.N, cond7_1 (grid7.coords t) ↔ t.val % 20 = 19 :=
  (by decide +kernel : ∀ t : Fin grid7.N, cond7_1 (grid7.coords t) ↔ t.val % 20 = 19)

/-- Away from the last point the two statistics windows are idle and not written back; at it they are live. -/
theorem idleAt7_5 : ∀ t : Fin cfg7.N, ¬cond7_1 (grid7.coords t) → cfg7.idle 5 (grid7.coords t) = true := by decide +kernel
theorem noFlush7_5 : ∀ t : Fin cfg7.N, ¬cond7_1 (grid7.coords t) → (cfg7.win 5).flush t = false := by decide +kernel
theorem liveAt7_5 : ∀ t : Fin cfg7.N, cond7_1 (grid7.coords t) → cfg7.idle 5 (grid7.coords t) = false := by decide +kernel
theorem idleAt7_6 : ∀ t : Fin cfg7.N, ¬cond7_1 (grid7.coords t) → cfg7.idle 6 (grid7.coords t) = true := by decide +kernel
theorem noFlush7_6 : ∀ t : Fin cfg7.N, ¬cond7_1 (grid7.coords t) → (cfg7.win 6).flush t = false := by decide +kernel
theorem liveAt7_6 : ∀ t : Fin cfg7.N, cond7_1 (grid7.coords t) → cfg7.idle 6 (grid7.coords t) = false := by decide +kernel

/-- Each window's current staging memref at point `t`, and its wholeness. -/
abbrev ms7_0 (t : Fin cfg7.N) : Memref sig .tc .vmem S5000x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S5000x128 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S5000x1 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x128 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S5000x128 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S1x128 .f32 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S1x128 .f32 := win7_6.stage (cfg7.slots t 6)
abbrev hs7_6 (t : Fin cfg7.N) : (ms7_6 t).IsWhole := hstage7_6 ((cfg7.slots t 6).cast nbuf7_6)
/-- The two accumulators: whole scoped buffers of the kernel's own. -/
abbrev scM7_0 : Memref sig .tc .vmem S1x128 .f32 := Memref.whole cc7_scratch0
abbrev scM7_1 : Memref sig .tc .vmem S1x128 .f32 := Memref.whole cc7_scratch1
/-- One view per written buffer shape, through which contents are stated (the choice does not matter). -/
abbrev VO7_4 : View sig .tc .vmem S5000x128 .f32 := (Memref.whole cc7_stg4_0 : Memref sig .tc .vmem S5000x128 .f32).view
abbrev VO7_5 : View sig .tc .vmem S1x128 .f32 := (Memref.whole cc7_stg5_0 : Memref sig .tc .vmem S1x128 .f32).view
abbrev VO7_6 : View sig .tc .vmem S1x128 .f32 := (Memref.whole cc7_stg6_0 : Memref sig .tc .vmem S1x128 .f32).view
abbrev VS7_0 : View sig .tc .vmem S1x128 .f32 := scM7_0.view
abbrev VS7_1 : View sig .tc .vmem S1x128 .f32 := scM7_1.view

/-- The scoped rest that is neither accumulator: carried unopened. -/
abbrev restBut7 (c : Dev nD) : sProp 𝕄 :=
  Pipeline.scopedRestBut (Ix := Unit) (Name := ℕ) (U := UR sig nD τ) (Lvl := ℕ) (Val := Elt F) spec7 c [cc7_scratch0, cc7_scratch1]

/-- The class's invariant with the two accumulators as memrefs owned at some contents. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d)) ∗ restBut7 (F := F) c) ∗ (∃ r, prngReg c r)) := by
  unfold Pipeline.ΦA; rw [scopedRest7_split]; simp only [scM7_0, scM7_1, owns_whole]; try rfl

set_option maxHeartbeats 4000000 in
/-- The first point: both conditionals decided (`scf.if` 0 taken, the last not); the accumulators are handed in at
    anything, the two statistics outputs are idle and handed back untouched; the pieces each written buffer ends with
    are the witness the run finds. -/
noncomputable def kernelRun7_A (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i) (hc1 : ¬cond7_1 i)
    (x0 : Vec F S5000x128 .f32) (x1 : Vec F S5000x128 .f32) (x2 : Vec F S5000x1 .f32) (x3 : Vec F S1x128 .f32) :
    Σ' (L4 : List (View.Piece (Elt F) S5000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc7__combine_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    haveI : Fact (cond7_0 i) := ⟨hc0⟩
    haveI : Fact (¬cond7_1 i) := ⟨hc1⟩
    simp only [cc7__combine_stats_kernel_eq_skeleton]; unfold cc7__combine_stats_kernel_skel
    simp only [k7_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 4000000 in
/-- A middle point: neither conditional taken; the accumulators are handed in at what the point before left. -/
noncomputable def kernelRun7_B (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : ¬cond7_1 i)
    (x0 : Vec F S5000x128 .f32) (x1 : Vec F S5000x128 .f32) (x2 : Vec F S5000x1 .f32) (x3 : Vec F S1x128 .f32) (xs0 xs1 : Vec F S1x128 .f32) :
    Σ' (L4 : List (View.Piece (Elt F) S5000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc7__combine_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    haveI : Fact (¬cond7_0 i) := ⟨hc0⟩
    haveI : Fact (¬cond7_1 i) := ⟨hc1⟩
    simp only [cc7__combine_stats_kernel_eq_skeleton]; unfold cc7__combine_stats_kernel_skel
    simp only [k7_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 4000000 in
/-- The last point: the first conditional not taken, the last taken; the two statistics outputs are stored whole. -/
noncomputable def kernelRun7_C (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : cond7_1 i)
    (x0 : Vec F S5000x128 .f32) (x1 : Vec F S5000x128 .f32) (x2 : Vec F S5000x1 .f32) (x3 : Vec F S1x128 .f32) (xs0 xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc7__combine_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    haveI : Fact (¬cond7_0 i) := ⟨hc0⟩
    haveI : Fact (cond7_1 i) := ⟨hc1⟩
    simp only [cc7__combine_stats_kernel_eq_skeleton]; unfold cc7__combine_stats_kernel_skel
    simp only [k7_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Hand

end
-- ==== Proof.K.R7.lean ====
import proofs.«115763_j74259984548099_2_alg».proof.Proof.K.R7Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7 of @main (`cc7__combine_stats_kernel`), at the entry contents `V` -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-! ## The three runs at a point's memrefs and blocks -/

/-- The first point's run on the point's staging memrefs, the two accumulators and the four input blocks. -/
def runA7 (c : Dev nD) (t : Fin cfg7.N) (h0 : t.val % 20 = 0) (h1 : ¬t.val % 20 = 19) :=
  kernelRun7_A (F := F) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t)

/-- A middle point's, over what the point before left in the accumulators. -/
def runB7 (c : Dev nD) (t : Fin cfg7.N) (h0 : ¬t.val % 20 = 0) (h1 : ¬t.val % 20 = 19) (xs0 xs1 : Vec F S1x128 .f32) :=
  kernelRun7_B (F := F) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) xs0 xs1

/-- The last point's. -/
def runC7 (c : Dev nD) (t : Fin cfg7.N) (h0 : ¬t.val % 20 = 0) (h1 : t.val % 20 = 19) (xs0 xs1 : Vec F S1x128 .f32) :=
  kernelRun7_C (F := F) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) xs0 xs1

/-! ## The pieces cover each written buffer -/

theorem coverA7_4 (c : Dev nD) (t : Fin cfg7.N) (h0 : t.val % 20 = 0) (h1 : ¬t.val % 20 = 19) (y : S5000x128.Idx) :
    ∃ pc ∈ (runA7 V c t h0 h1).1, y ∈ pc.1.set :=
  View.cover_of_tiledL (runA7 V c t h0 h1).1 S5000x128.size (by sl_kernel_rfl) y
theorem scoverA7_0 (c : Dev nD) (t : Fin cfg7.N) (h0 : t.val % 20 = 0) (h1 : ¬t.val % 20 = 19) (y : S1x128.Idx) :
    ∃ pc ∈ (runA7 V c t h0 h1).2.1, y ∈ pc.1.set :=
  View.cover_of_tiledL (runA7 V c t h0 h1).2.1 S1x128.size (by sl_kernel_rfl) y
theorem scoverA7_1 (c : Dev nD) (t : Fin cfg7.N) (h0 : t.val % 20 = 0) (h1 : ¬t.val % 20 = 19) (y : S1x128.Idx) :
    ∃ pc ∈ (runA7 V c t h0 h1).2.2.1, y ∈ pc.1.set :=
  View.cover_of_tiledL (runA7 V c t h0 h1).2.2.1 S1x128.size (by sl_kernel_rfl) y

theorem coverB7_4 (c : Dev nD) (t : Fin cfg7.N) (h0 : ¬t.val % 20 = 0) (h1 : ¬t.val % 20 = 19) (xs0 xs1 : Vec F S1x128 .f32) (y : S5000x128.Idx) :
    ∃ pc ∈ (runB7 V c t h0 h1 xs0 xs1).1, y ∈ pc.1.set :=
  View.cover_of_tiledL (runB7 V c t h0 h1 xs0 xs1).1 S5000x128.size (by sl_kernel_rfl) y
theorem scoverB7_0 (c : Dev nD) (t : Fin cfg7.N) (h0 : ¬t.val % 20 = 0) (h1 : ¬t.val % 20 = 19) (xs0 xs1 : Vec F S1x128 .f32) (y : S1x128.Idx) :
    ∃ pc ∈ (runB7 V c t h0 h1 xs0 xs1).2.1, y ∈ pc.1.set :=
  View.cover_of_tiledL (runB7 V c t h0 h1 xs0 xs1).2.1 S1x128.size (by sl_kernel_rfl) y
theorem scoverB7_1 (c : Dev nD) (t : Fin cfg7.N) (h0 : ¬t.val % 20 = 0) (h1 : ¬t.val % 20 = 19) (xs0 xs1 : Vec F S1x128 .f32) (y : S1x128.Idx) :
    ∃ pc ∈ (runB7 V c t h0 h1 xs0 xs1).2.2.1, y ∈ pc.1.set :=
  View.cover_of_tiledL (runB7 V c t h0 h1 xs0 xs1).2.2.1 S1x128.size (by sl_kernel_rfl) y

theorem coverC7_4 (c : Dev nD) (t : Fin cfg7.N) (h0 : ¬t.val % 20 = 0) (h1 : t.val % 20 = 19) (xs0 xs1 : Vec F S1x128 .f32) (y : S5000x128.Idx) :
    ∃ pc ∈ (runC7 V c t h0 h1 xs0 xs1).1, y ∈ pc.1.set :=
  View.cover_of_tiledL (runC7 V c t h0 h1 xs0 xs1).1 S5000x128.size (by sl_kernel_rfl) y
theorem coverC7_5 (c : Dev nD) (t : Fin cfg7.N) (h0 : ¬t.val % 20 = 0) (h1 : t.val % 20 = 19) (xs0 xs1 : Vec F S1x128 .f32) (y : S1x128.Idx) :
    ∃ pc ∈ (runC7 V c t h0 h1 xs0 xs1).2.1, y ∈ pc.1.set :=
  View.cover_of_tiledL (runC7 V c t h0 h1 xs0 xs1).2.1 S1x128.size (by sl_kernel_rfl) y
theorem coverC7_6 (c : Dev nD) (t : Fin cfg7.N) (h0 : ¬t.val % 20 = 0) (h1 : t.val % 20 = 19) (xs0 xs1 : Vec F S1x128 .f32) (y : S1x128.Idx) :
    ∃ pc ∈ (runC7 V c t h0 h1 xs0 xs1).2.2.1, y ∈ pc.1.set :=
  View.cover_of_tiledL (runC7 V c t h0 h1 xs0 xs1).2.2.1 S1x128.size (by sl_kernel_rfl) y
theorem scoverC7_0 (c : Dev nD) (t : Fin cfg7.N) (h0 : ¬t.val % 20 = 0) (h1 : t.val % 20 = 19) (xs0 xs1 : Vec F S1x128 .f32) (y : S1x128.Idx) :
    ∃ pc ∈ (runC7 V c t h0 h1 xs0 xs1).2.2.2.1, y ∈ pc.1.set :=
  View.cover_of_tiledL (runC7 V c t h0 h1 xs0 xs1).2.2.2.1 S1x128.size (by sl_kernel_rfl) y
theorem scoverC7_1 (c : Dev nD) (t : Fin cfg7.N) (h0 : ¬t.val % 20 = 0) (h1 : t.val % 20 = 19) (xs0 xs1 : Vec F S1x128 .f32) (y : S1x128.Idx) :
    ∃ pc ∈ (runC7 V c t h0 h1 xs0 xs1).2.2.2.2.1, y ∈ pc.1.set :=
  View.cover_of_tiledL (runC7 V c t h0 h1 xs0 xs1).2.2.2.2.1 S1x128.size (by sl_kernel_rfl) y

/-! ## What each case leaves: (the aggregate block, the two statistics outputs, the two accumulators) -/

/-- A placeholder for a statistics output at a point where it is idle (nothing consults it there). -/
def idleOut7 : Vec F S1x128 .f32 := View.canon []

/-- What the first point leaves: each written buffer's pieces read as their canon. -/
def outA7 (c : Dev nD) (t : Fin cfg7.N) (h0 : t.val % 20 = 0) (h1 : ¬t.val % 20 = 19) : Vec F S5000x128 .f32 × Vec F S1x128 .f32 × Vec F S1x128 .f32 × Vec F S1x128 .f32 × Vec F S1x128 .f32 :=
  (View.canon (runA7 V c t h0 h1).1, idleOut7, idleOut7, View.canon (runA7 V c t h0 h1).2.1, View.canon (runA7 V c t h0 h1).2.2.1)

/-- What a middle point leaves. -/
def outB7 (c : Dev nD) (t : Fin cfg7.N) (h0 : ¬t.val % 20 = 0) (h1 : ¬t.val % 20 = 19) (xs0 xs1 : Vec F S1x128 .f32) : Vec F S5000x128 .f32 × Vec F S1x128 .f32 × Vec F S1x128 .f32 × Vec F S1x128 .f32 × Vec F S1x128 .f32 :=
  (View.canon (runB7 V c t h0 h1 xs0 xs1).1, idleOut7, idleOut7, View.canon (runB7 V c t h0 h1 xs0 xs1).2.1, View.canon (runB7 V c t h0 h1 xs0 xs1).2.2.1)

/-- What the last point leaves. -/
def outC7 (c : Dev nD) (t : Fin cfg7.N) (h0 : ¬t.val % 20 = 0) (h1 : t.val % 20 = 19) (xs0 xs1 : Vec F S1x128 .f32) : Vec F S5000x128 .f32 × Vec F S1x128 .f32 × Vec F S1x128 .f32 × Vec F S1x128 .f32 × Vec F S1x128 .f32 :=
  (View.canon (runC7 V c t h0 h1 xs0 xs1).1, View.canon (runC7 V c t h0 h1 xs0 xs1).2.1, View.canon (runC7 V c t h0 h1 xs0 xs1).2.2.1,
    View.canon (runC7 V c t h0 h1 xs0 xs1).2.2.2.1, View.canon (runC7 V c t h0 h1 xs0 xs1).2.2.2.2.1)

/-- THE ACCUMULATION: what the three output buffers and the two accumulators hold after the body at position `n`:
    the point's case, over what the point before left in the accumulators. -/
def outsAt7 (c : Dev nD) : (n : ℕ) → n < cfg7.N → Vec F S5000x128 .f32 × Vec F S1x128 .f32 × Vec F S1x128 .f32 × Vec F S1x128 .f32 × Vec F S1x128 .f32
  | 0, hn => outA7 V c ⟨0, hn⟩ (Nat.zero_mod _) (by show ¬(0 % 20 = 19); decide)
  | n + 1, hn =>
    if h1 : (n + 1) % 20 = 19 then
      outC7 V c ⟨n + 1, hn⟩ (by have hN : n + 1 < 20 := lt_of_lt_of_eq hn (show cfg7.N = 20 from N_7); show ¬((n + 1) % 20 = 0); omega) h1
        (outsAt7 c n (Nat.lt_of_succ_lt hn)).2.2.2.1 (outsAt7 c n (Nat.lt_of_succ_lt hn)).2.2.2.2
    else
      outB7 V c ⟨n + 1, hn⟩ (by have hN : n + 1 < 20 := lt_of_lt_of_eq hn (show cfg7.N = 20 from N_7); show ¬((n + 1) % 20 = 0); omega) h1
        (outsAt7 c n (Nat.lt_of_succ_lt hn)).2.2.2.1 (outsAt7 c n (Nat.lt_of_succ_lt hn)).2.2.2.2

theorem outsAt7_A (c : Dev nD) (t : Fin cfg7.N) (h0 : t.val % 20 = 0) (h1 : ¬t.val % 20 = 19) :
    outsAt7 V c t.val t.isLt = outA7 V c t h0 h1 := by
  obtain ⟨n, hn⟩ := t
  cases n with
  | zero => rfl
  | succ n => exfalso; have hN : n + 1 < 20 := lt_of_lt_of_eq hn (show cfg7.N = 20 from N_7); (try dsimp only at h0); omega

theorem outsAt7_B (c : Dev nD) (t : Fin cfg7.N) (h0 : ¬t.val % 20 = 0) (h1 : ¬t.val % 20 = 19) :
    outsAt7 V c t.val t.isLt = outB7 V c t h0 h1 (outsAt7 V c (t.val - 1) (Nat.lt_of_le_of_lt (Nat.sub_le _ _) t.isLt)).2.2.2.1
      (outsAt7 V c (t.val - 1) (Nat.lt_of_le_of_lt (Nat.sub_le _ _) t.isLt)).2.2.2.2 := by
  obtain ⟨n, hn⟩ := t
  cases n with
  | zero => exact absurd (Nat.zero_mod _) h0
  | succ n => exact (dif_neg h1).trans rfl

theorem outsAt7_C (c : Dev nD) (t : Fin cfg7.N) (h0 : ¬t.val % 20 = 0) (h1 : t.val % 20 = 19) :
    outsAt7 V c t.val t.isLt = outC7 V c t h0 h1 (outsAt7 V c (t.val - 1) (Nat.lt_of_le_of_lt (Nat.sub_le _ _) t.isLt)).2.2.2.1
      (outsAt7 V c (t.val - 1) (Nat.lt_of_le_of_lt (Nat.sub_le _ _) t.isLt)).2.2.2.2 := by
  obtain ⟨n, hn⟩ := t
  cases n with
  | zero => exact absurd (Nat.zero_mod _) h0
  | succ n => exact (dif_pos h1).trans rfl

/-! ## The invariant: the two accumulators carried between points -/

/-- Before the first point the class's invariant; afterwards the two accumulators at what the point before left, the
    rest of the scoped buffers unopened, the generator register at some state. -/
def PhiS7 (c : Dev nD) : (n : ℕ) → n ≤ cfg7.N → sProp 𝕄
  | 0, _ => Pipeline.ΦA spec7 c
  | n + 1, hn => iprop(iprop(iprop(owns (c : Thread nD τ) scM7_0 fullShare ((outsAt7 V c n hn).2.2.2.1) ∗ owns (c : Thread nD τ) scM7_1 fullShare ((outsAt7 V c n hn).2.2.2.2)) ∗ restBut7 (F := F) c) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(iprop(owns (c : Thread nD τ) scM7_0 fullShare ((outsAt7 V c n hn).2.2.2.1) ∗ owns (c : Thread nD τ) scM7_1 fullShare ((outsAt7 V c n hn).2.2.2.2)) ∗ restBut7 (F := F) c) ∗ (∃ r, prngReg c r)) := rfl

theorem PhiS7_pos (c : Dev nD) (n : ℕ) (h : n ≤ cfg7.N) (hz : n ≠ 0) :
    PhiS7 V c n h = iprop(iprop(iprop(owns (c : Thread nD τ) scM7_0 fullShare ((outsAt7 V c (n - 1) (by omega)).2.2.2.1) ∗ owns (c : Thread nD τ) scM7_1 fullShare ((outsAt7 V c (n - 1) (by omega)).2.2.2.2)) ∗ restBut7 (F := F) c) ∗ (∃ r, prngReg c r)) := by
  cases n with
  | zero => exact absurd rfl hz
  | succ n => rfl

/-! ## The pipeline's proof data -/

/-- The proof data of pipeline 7 on core `c`: the arrays as the region finds them (`V`); after the body at point `t`
    each input's buffer at its block and the outputs' at `outsAt7`; the invariant `PhiS7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => (outsAt7 V c t.val t.isLt).1
    | ⟨5, _⟩ => (outsAt7 V c t.val t.isLt).2.1
    | ⟨6, _⟩ => (outsAt7 V c t.val t.isLt).2.2.1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = (outsAt7 V c t.val t.isLt).1 := by dsimp only [dat7]
theorem after7_5 (c : Dev nD) (t : Fin cfg7.N) : (dat7 V c).after 5 t = (outsAt7 V c t.val t.isLt).2.1 := by dsimp only [dat7]
theorem after7_6 (c : Dev nD) (t : Fin cfg7.N) : (dat7 V c).after 6 t = (outsAt7 V c t.val t.isLt).2.2.1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-! ## The body obligation, at a generic point -/

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t)

set_option maxHeartbeats 4800000 in
/-- The body at any point: the inputs' memrefs hold their blocks; the closed forms say which case the point is in; the
    invariant hands the body the accumulators at what the point before left (at anything at the first point) and takes
    them back at this point's contents; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).owesAt () t.succ = (dat7 V c).owesAt () t.castSucc from rfl]
  rw [show (dat7 V c).Φ t.succ = PhiS7 V c (t.val + 1) t.isLt from rfl, PhiS7_succ]
  have hN : t.val < 20 := lt_of_lt_of_eq t.isLt (show cfg7.N = 20 from N_7)
  rw [show (dat7 V c).leavesExact 0 t = owns (c : Thread nD τ) (ms7_0 t) fullShare ((dat7 V c).after 0 t) from rfl, after7_0,
    show (dat7 V c).leavesExact 1 t = owns (c : Thread nD τ) (ms7_1 t) fullShare ((dat7 V c).after 1 t) from rfl, after7_1,
    show (dat7 V c).leavesExact 2 t = owns (c : Thread nD τ) (ms7_2 t) fullShare ((dat7 V c).after 2 t) from rfl, after7_2,
    show (dat7 V c).leavesExact 3 t = owns (c : Thread nD τ) (ms7_3 t) fullShare ((dat7 V c).after 3 t) from rfl, after7_3,
    show (dat7 V c).leavesExact 4 t = owns (c : Thread nD τ) (ms7_4 t) fullShare ((dat7 V c).after 4 t) from rfl, after7_4]
  by_cases h0 : t.val % 20 = 0
  · have h1 : ¬t.val % 20 = 19 := by omega
    rw [Dat.leavesExact_idle (dat7 V c) 5 t (idleAt7_5 t (fun h => h1 ((hcond7_1 t).mp h))) (noFlush7_5 t (fun h => h1 ((hcond7_1 t).mp h)))]
    rw [Dat.leavesExact_idle (dat7 V c) 6 t (idleAt7_6 t (fun h => h1 ((hcond7_1 t).mp h))) (noFlush7_6 t (fun h => h1 ((hcond7_1 t).mp h)))]
    rw [outsAt7_A V c t h0 h1]
    unfold outA7; (try dsimp only)
    rw [PhiS7_castSucc V c t, PhiS7_zero V c _ _ (by omega), PhiA7_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((runA7 V c t h0 h1).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_eq_canon _ _ _ (scoverA7_0 V c t h0 h1)
          · unfold owns; iexists _; isplitr
            swap; · iexact HS1
            ipureintro; exact View.read_writes_eq_canon _ _ _ (scoverA7_1 V c t h0 h1)
        · iexact HR
      · iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_eq_canon _ _ _ (coverA7_4 V c t h0 h1)
    isplitl [H5]; · iexists _; iexact H5
    iexists _; iexact H6
  · by_cases h1 : t.val % 20 = 19
    ·
      rw [show (dat7 V c).leavesExact 5 t = owns (c : Thread nD τ) (ms7_5 t) fullShare ((dat7 V c).after 5 t) from by
            unfold Dat.leavesExact; rw [liveAt7_5 t ((hcond7_1 t).mpr h1)], after7_5]
      rw [show (dat7 V c).leavesExact 6 t = owns (c : Thread nD τ) (ms7_6 t) fullShare ((dat7 V c).after 6 t) from by
            unfold Dat.leavesExact; rw [liveAt7_6 t ((hcond7_1 t).mpr h1)], after7_6]
      rw [outsAt7_C V c t h0 h1]
      unfold outC7; (try dsimp only)
      rw [PhiS7_castSucc V c t, PhiS7_pos V c _ _ (by omega)]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runC7 V c t h0 h1 _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_eq_canon _ _ _ (scoverC7_0 V c t h0 h1 _ _)
            · unfold owns; iexists _; isplitr
              swap; · iexact HS1
              ipureintro; exact View.read_writes_eq_canon _ _ _ (scoverC7_1 V c t h0 h1 _ _)
          · iexact HR
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_eq_canon _ _ _ (coverC7_4 V c t h0 h1 _ _)
      isplitl [H5]
      · unfold owns; iexists _; isplitr
        swap; · iexact H5
        ipureintro; exact View.read_writes_eq_canon _ _ _ (coverC7_5 V c t h0 h1 _ _)
      unfold owns; iexists _; isplitr
      swap; · iexact H6
      ipureintro; exact View.read_writes_eq_canon _ _ _ (coverC7_6 V c t h0 h1 _ _)
    ·
      rw [Dat.leavesExact_idle (dat7 V c) 5 t (idleAt7_5 t (fun h => h1 ((hcond7_1 t).mp h))) (noFlush7_5 t (fun h => h1 ((hcond7_1 t).mp h)))]
      rw [Dat.leavesExact_idle (dat7 V c) 6 t (idleAt7_6 t (fun h => h1 ((hcond7_1 t).mp h))) (noFlush7_6 t (fun h => h1 ((hcond7_1 t).mp h)))]
      rw [outsAt7_B V c t h0 h1]
      unfold outB7; (try dsimp only)
      rw [PhiS7_castSucc V c t, PhiS7_pos V c _ _ (by omega)]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runB7 V c t h0 h1 _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_eq_canon _ _ _ (scoverB7_0 V c t h0 h1 _ _)
            · unfold owns; iexists _; isplitr
              swap; · iexact HS1
              ipureintro; exact View.read_writes_eq_canon _ _ _ (scoverB7_1 V c t h0 h1 _ _)
          · iexact HR
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_eq_canon _ _ _ (coverB7_4 V c t h0 h1 _ _)
      isplitl [H5]; · iexists _; iexact H5
      iexists _; iexact H6

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives the class's back: the accumulators' named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  iexact Hg

/-- The same after the last point. -/
theorem hout7 (c : Dev nD) : (dat7 V c).Φ (Fin.last cfg7.N) ⊢ Pipeline.ΦA spec7 c :=
  Phi_out7 V c _ (by rw [Fin.val_last]; have : cfg7.N = 20 := N_7; omega)

end Cert.Kernel.Hand

end
-- ==== Proof.K.R8.lean ====
/- The normalise-scale-shift-rectify region 8 of the kernel program, at the buffer contents `V` found when the region is
   entered: each window's block at a grid point, what the body leaves in the output window's buffer as a function of the
   five input blocks, the body's triple, the pipeline's proof data and the body obligation at every grid point. The
   four statistics/affine rows (windows 1–4) have a constant block index, so their staging buffers hold the same row
   at every point although they are fetched only at the first. -/
import proofs.«115763_j74259984548099_2_alg».proof.Proof.Gen.Kernel.Launch
import proofs.«115763_j74259984548099_2_alg».proof.Proof.Gen.Kernel.Skeleton
import proofs.«115763_j74259984548099_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle whose long axis has 10000 coordinates recurses once per coordinate
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s and whose body leaves the block in place: where it is not fetched its block index has
    not moved, so the block of the previous point is the block of this one. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof
    data whose array is `V`'s and whose body leaves the block in place: where it is not fetched its block index has
    not moved, so the block of the previous point is the block of this one. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof
    data whose array is `V`'s and whose body leaves the block in place: where it is not fetched its block index has
    not moved, so the block of the previous point is the block of this one. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not, for any proof
    data whose array is `V`'s and whose body leaves the block in place: where it is not fetched its block index has
    not moved, so the block of the previous point is the block of this one. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not, for any proof
    data whose array is `V`'s and whose body leaves the block in place: where it is not fetched its block index has
    not moved, so the block of the previous point is the block of this one. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- The whole [10000,128] block. -/
abbrev r8_0 : Rect S10000x128 := Rect.unit (s := S10000x128) ![0, 0] S10000x128.size inb_S10000x128_S10000x128_0_0
/-- The whole [1,128] row. -/
abbrev r8_1 : Rect S1x128 := Rect.unit (s := S1x128) ![0, 0] S1x128.size inb_S1x128_S1x128_0_0

/-! ## What the body leaves in the output window's buffer -/

/-- Window 5's staging buffer after the body, from the input windows' blocks (`x0` the feature block, `x1` the mean
    row, `x2` the variance row, `x3` the scale row, `x4` the shift row): its one store, of the whole block, of the
    payload `max ((x0 - x1) * rsqrt (x2 + ε) * x3 + x4) 0`. -/
def out8_5 (x0 : Vec F S10000x128 .f32) (x1 : Vec F S1x128 .f32) (x2 : Vec F S1x128 .f32) (x3 : Vec F S1x128 .f32) (x4 : Vec F S1x128 .f32) : Vec F S10000x128 .f32 :=
  View.canon [⟨r8_0, k8_pay1 (View.ld x0 r8_0) (View.ld x2 r8_1) (View.ld x1 r8_1) (View.ld x3 r8_1) (View.ld x4 r8_1)⟩]

/-- Its one store is of the whole buffer, so it covers it. -/
theorem cover8_5 (p0 : Vec F S10000x128 .f32) (y : S10000x128.Idx) :
    ∃ pc ∈ ([⟨r8_0, p0⟩] : List (View.Piece (Elt F) S10000x128 .f32)), y ∈ pc.1.set :=
  View.cover_of_tiled [⟨r8_0, p0⟩] S10000x128.size (by rfl) y

/-! ## The body's triple -/

set_option maxHeartbeats 1000000 in
/-- The kernel body on whole staging memrefs, the inputs' at read contents `xW` and the output's at anything, runs to
    the continuation holding the inputs' as they were and the output's at `out8_5` of the inputs'. -/
theorem sound_kernel8 (c : Dev nD) (E : Set ℕ) (i : grid8.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole)
    (x0 : Vec F S10000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out8_5 x0 x1 x2 x3 x4)) -∗ K ⟨⟩))
      ⊢ wp frame (wpE (defs₀ (F := F)) Variants.none c none) E (cc8__bn_relu_kernel i arg1 harg1 arg2 harg2 arg3 harg3 arg4 harg4 arg5 harg5 arg6 harg6) K := by
  simp only [cc8__bn_relu_kernel_eq_skeleton]; unfold cc8__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The pipeline's proof data -/

/-- The proof data of pipeline 8 on core `c`: the arrays as the region finds them (`V`); after the body at
    point `t` each input's buffer at its block and the output's at `out8_5` of the input blocks; the invariant the
    scoped rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' memrefs hold their blocks (`before8_W`), so `sound_kernel8` applies; the
    invariant and the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ (grid8.coords t) _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## The invariant at the region's ends -/

/-- The class invariant is the proof data's at the first point, -/
theorem hin8 (c : Dev nD) : Pipeline.ΦA spec8 c ⊢ (dat8 V c).Φ 0 := .rfl

/-- and at the last. -/
theorem hout8 (c : Dev nD) : (dat8 V c).Φ (Fin.last cfg8.N) ⊢ Pipeline.ΦA spec8 c := .rfl

end Cert.Kernel.Hand
-- ==== Proof.K.R9.lean ====
/- Region 9 of the kernel program: the proof data of its pipeline and the obligation of its body, stated at a
   parameter `V`, the TensorCore's buffer contents when the region is entered. -/
import proofs.«115763_j74259984548099_2_alg».proof.Proof.Gen.Kernel.Launch
import proofs.«115763_j74259984548099_2_alg».proof.Proof.Gen.Kernel.Skeleton
import proofs.«115763_j74259984548099_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 9: `_mlp_kernel`, two dense layers with a rectifier between, one grid point, at the entry contents `V` -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not: when the
    pipeline does not fetch, the block index has not moved and the body left the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not: when the
    pipeline does not fetch, the block index has not moved and the body left the block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not: when the
    pipeline does not fetch, the block index has not moved and the body left the block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not: when the
    pipeline does not fetch, the block index has not moved and the body left the block in place. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point, fetched there or not: when the
    pipeline does not fetch, the block index has not moved and the body left the block in place. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each memref is read or written whole -/

abbrev r9_0 : Rect S256x256 := Rect.unit (s := S256x256) ![0, 0] S256x256.size inb_S256x256_S256x256_0_0
abbrev r9_1 : Rect S256x128 := Rect.unit (s := S256x128) ![0, 0] S256x128.size inb_S256x128_S256x128_0_0
abbrev r9_2 : Rect S1x128 := Rect.unit (s := S1x128) ![0, 0] S1x128.size inb_S1x128_S1x128_0_0
abbrev r9_3 : Rect S128x64 := Rect.unit (s := S128x64) ![0, 0] S128x64.size inb_S128x64_S128x64_0_0
abbrev r9_4 : Rect S1x64 := Rect.unit (s := S1x64) ![0, 0] S1x64.size inb_S1x64_S1x64_0_0
abbrev r9_5 : Rect S256x64 := Rect.unit (s := S256x64) ![0, 0] S256x64.size inb_S256x64_S256x64_0_0

/-! ## What the body leaves in the output window's buffer -/

/-- Window 5's staging buffer after the body, from the input windows' blocks: its one store, of the payload
    computed from the five whole loads. -/
def out9_5 (x0 : Vec F S256x256 .f32) (x1 : Vec F S256x128 .f32) (x2 : Vec F S1x128 .f32) (x3 : Vec F S128x64 .f32) (x4 : Vec F S1x64 .f32) : Vec F S256x64 .f32 :=
  View.canon [⟨r9_5, k9_pay1 (View.ld x0 r9_0) (View.ld x1 r9_1) (View.ld x2 r9_2) (View.ld x3 r9_3) (View.ld x4 r9_4)⟩]

/-- The store is of the whole buffer, so it covers it. -/
theorem cover9_5 (p0 : Vec F S256x64 .f32) (y : S256x64.Idx) :
    ∃ pc ∈ ([⟨r9_5, p0⟩] : List (View.Piece (Elt F) S256x64 .f32)), y ∈ pc.1.set :=
  View.cover_of_tiled [⟨r9_5, p0⟩] S256x64.size (by rfl) y

/-! ## The body's triple -/

set_option maxHeartbeats 1000000 in
/-- The kernel body on whole staging memrefs, the inputs' at read contents `xW` and the output's at anything, runs to
    the continuation holding the inputs' as they were and the output's at `out9_5` of the inputs'. -/
theorem sound_kernel9 (c : Dev nD) (E : Set ℕ) (i : grid9.Coords) (arg0 : Memref sig .tc .vmem S256x256 .f32) (harg0 : arg0.IsWhole) (arg1 : Memref sig .tc .vmem S256x128 .f32) (harg1 : arg1.IsWhole) (arg2 : Memref sig .tc .vmem S1x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S256x64 .f32) (harg5 : arg5.IsWhole)
    (x0 : Vec F S256x256 .f32) (x1 : Vec F S256x128 .f32) (x2 : Vec F S1x128 .f32) (x3 : Vec F S128x64 .f32) (x4 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out9_5 x0 x1 x2 x3 x4)) -∗ K ⟨⟩))
      ⊢ wp frame (wpE (defs₀ (F := F)) Variants.none c none) E (cc9__mlp_kernel i arg0 harg0 arg1 harg1 arg2 harg2 arg3 harg3 arg4 harg4 arg5 harg5) K := by
  simp only [cc9__mlp_kernel_eq_skeleton]; unfold cc9__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

/-! ## The pipeline's proof data -/

/-- The proof data of pipeline 9 on core `c`: the arrays as the region finds them (`V`); after the body at
    point `t` each input's buffer at its block and the output's at `out9_5` of the input blocks; the invariant is the
    scoped rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = out9_5 (iblk9 V c 0 t) (iblk9 V c 1 t) (iblk9 V c 2 t) (iblk9 V c 3 t) (iblk9 V c 4 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-- The invariant at region entry and at region exit is the class's. -/
theorem hin9 (c : Dev nD) : Pipeline.ΦA spec9 c ⊢ (dat9 V c).Φ 0 := by
  dsimp only [dat9]; exact .rfl
theorem hout9 (c : Dev nD) : (dat9 V c).Φ (Fin.last cfg9.N) ⊢ Pipeline.ΦA spec9 c := by
  dsimp only [dat9]; exact .rfl

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks, so `sound_kernel9` applies; the invariant and
    the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.Chain.lean ====
import proofs.«115763_j74259984548099_2_alg».proof.Proof.Gen.Kernel.Launch
import proofs.«115763_j74259984548099_2_alg».proof.Proof.Gen.Kernel.Skeleton
import proofs.«115763_j74259984548099_2_alg».proof.Proof.Gen.Kernel.Points
import proofs.«115763_j74259984548099_2_alg».proof.Proof.Gen.Kernel.Regions
import proofs.«115763_j74259984548099_2_alg».proof.Proof.K.R0
import proofs.«115763_j74259984548099_2_alg».proof.Proof.K.R1
import proofs.«115763_j74259984548099_2_alg».proof.Proof.K.R2
import proofs.«115763_j74259984548099_2_alg».proof.Proof.K.R3
import proofs.«115763_j74259984548099_2_alg».proof.Proof.K.R4
import proofs.«115763_j74259984548099_2_alg».proof.Proof.K.R5
import proofs.«115763_j74259984548099_2_alg».proof.Proof.K.R6
import proofs.«115763_j74259984548099_2_alg».proof.Proof.K.R7
import proofs.«115763_j74259984548099_2_alg».proof.Proof.K.R8
import proofs.«115763_j74259984548099_2_alg».proof.Proof.K.R9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers between the items: each region's output arrays at what its write-backs leave -/

/-- A valuation read at the TensorCore's references. -/
abbrev atTc (X : Dev nD → Valuation τ sig (Elt F)) : (c : Dev nD) → (b : Ref sig .tc) → Buf (Elt F) ((c : Thread nD τ).loc b) := fun c b => X c b

abbrev St0 (c : Dev nD) : Valuation τ sig (Elt F) := Gen.V0 m c
abbrev St1 (c : Dev nD) : Valuation τ sig (Elt F) := StableHlo.after hostOps0 (St0 m c)
/-- After region 0: its output arrays at the pipeline's last write-backs, everything else as entered. -/
def St2 (c : Dev nD) : Valuation τ sig (Elt F) :=
  Function.update (St1 m c) main_v12 ((dat0 (atTc (St1 m)) c).arrAt 3 cfg0.N)
abbrev St3 (c : Dev nD) : Valuation τ sig (Elt F) := StableHlo.after hostOps1 (St2 m c)
/-- After region 1: its output arrays at the pipeline's last write-backs, everything else as entered. -/
def St4 (c : Dev nD) : Valuation τ sig (Elt F) :=
  Function.update (Function.update (Function.update (St3 m c) main_v24_0 ((dat1 (atTc (St3 m)) c).arrAt 4 cfg1.N)) main_v24_1 ((dat1 (atTc (St3 m)) c).arrAt 5 cfg1.N)) main_v24_2 ((dat1 (atTc (St3 m)) c).arrAt 6 cfg1.N)
abbrev St5 (c : Dev nD) : Valuation τ sig (Elt F) := StableHlo.after hostOps2 (St4 m c)
/-- After region 2: its output arrays at the pipeline's last write-backs, everything else as entered. -/
def St6 (c : Dev nD) : Valuation τ sig (Elt F) :=
  Function.update (St5 m c) main_v35 ((dat2 (atTc (St5 m)) c).arrAt 5 cfg2.N)
/-- After region 3: its output arrays at the pipeline's last write-backs, everything else as entered. -/
def St7 (c : Dev nD) : Valuation τ sig (Elt F) :=
  Function.update (St6 m c) main_v36 ((dat3 (atTc (St6 m)) c).arrAt 3 cfg3.N)
abbrev St8 (c : Dev nD) : Valuation τ sig (Elt F) := StableHlo.after hostOps4 (St7 m c)
/-- After region 4: its output arrays at the pipeline's last write-backs, everything else as entered. -/
def St9 (c : Dev nD) : Valuation τ sig (Elt F) :=
  Function.update (Function.update (Function.update (St8 m c) main_v48_0 ((dat4 (atTc (St8 m)) c).arrAt 4 cfg4.N)) main_v48_1 ((dat4 (atTc (St8 m)) c).arrAt 5 cfg4.N)) main_v48_2 ((dat4 (atTc (St8 m)) c).arrAt 6 cfg4.N)
abbrev St10 (c : Dev nD) : Valuation τ sig (Elt F) := StableHlo.after hostOps5 (St9 m c)
/-- After region 5: its output arrays at the pipeline's last write-backs, everything else as entered. -/
def St11 (c : Dev nD) : Valuation τ sig (Elt F) :=
  Function.update (St10 m c) main_v59 ((dat5 (atTc (St10 m)) c).arrAt 5 cfg5.N)
/-- After region 6: its output arrays at the pipeline's last write-backs, everything else as entered. -/
def St12 (c : Dev nD) : Valuation τ sig (Elt F) :=
  Function.update (St11 m c) main_v60 ((dat6 (atTc (St11 m)) c).arrAt 3 cfg6.N)
abbrev St13 (c : Dev nD) : Valuation τ sig (Elt F) := StableHlo.after hostOps7 (St12 m c)
/-- After region 7: its output arrays at the pipeline's last write-backs, everything else as entered. -/
def St14 (c : Dev nD) : Valuation τ sig (Elt F) :=
  Function.update (Function.update (Function.update (St13 m c) main_v72_0 ((dat7 (atTc (St13 m)) c).arrAt 4 cfg7.N)) main_v72_1 ((dat7 (atTc (St13 m)) c).arrAt 5 cfg7.N)) main_v72_2 ((dat7 (atTc (St13 m)) c).arrAt 6 cfg7.N)
abbrev St15 (c : Dev nD) : Valuation τ sig (Elt F) := StableHlo.after hostOps8 (St14 m c)
/-- After region 8: its output arrays at the pipeline's last write-backs, everything else as entered. -/
def St16 (c : Dev nD) : Valuation τ sig (Elt F) :=
  Function.update (St15 m c) main_v83 ((dat8 (atTc (St15 m)) c).arrAt 5 cfg8.N)
abbrev St17 (c : Dev nD) : Valuation τ sig (Elt F) := StableHlo.after hostOps9 (St16 m c)
/-- After region 9: its output arrays at the pipeline's last write-backs, everything else as entered. -/
def St18 (c : Dev nD) : Valuation τ sig (Elt F) :=
  Function.update (St17 m c) main_v99 ((dat9 (atTc (St17 m)) c).arrAt 5 cfg9.N)

/-- What each region leaves, as the unknowns of the generated conditional frame: the buffers' contents after the item. -/
def outs : Gen.Outs (F := F) := fun J r c => match J with
  | 2 => St2 m c r
  | 4 => St4 m c r
  | 6 => St6 m c r
  | 7 => St7 m c r
  | 9 => St9 m c r
  | 11 => St11 m c r
  | 12 => St12 m c r
  | 14 => St14 m c r
  | 16 => St16 m c r
  | 18 => St18 m c r
  | _ => St0 m c r

theorem ne_ref {a b : Ref sig .tc} (h : a ≠ b) : (Proc.devRef .tc a : DevRef τ sig) ≠ Proc.devRef .tc b := StableHlo.devRef_ne_of_ne h

/-! ## The generated valuations at these unknowns are the chain above -/

theorem V1_eq (c : Dev nD) : Gen.V1 m c = St1 m c := rfl
theorem V2_eq (c : Dev nD) : Gen.V2 m (outs m) c = St2 m c := by
  show Function.update (Gen.V1 m c) main_v12 (St2 m c main_v12) = _
  rw [V1_eq]; unfold St2; rw [Function.update_self]
theorem V3_eq (c : Dev nD) : Gen.V3 m (outs m) c = St3 m c := by
  show StableHlo.after hostOps1 (Gen.V2 m (outs m) c) = _
  rw [V2_eq]
theorem V4_eq (c : Dev nD) : Gen.V4 m (outs m) c = St4 m c := by
  show Function.update (Function.update (Function.update (Gen.V3 m (outs m) c) main_v24_0 (St4 m c main_v24_0)) main_v24_1 (St4 m c main_v24_1)) main_v24_2 (St4 m c main_v24_2) = _
  rw [V3_eq]; unfold St4
  rw [Function.update_self, Function.update_of_ne (ne_ref (by decide : main_v24_1 ≠ main_v24_2)), Function.update_self,
    Function.update_of_ne (ne_ref (by decide : main_v24_0 ≠ main_v24_2)), Function.update_of_ne (ne_ref (by decide : main_v24_0 ≠ main_v24_1)), Function.update_self]
theorem V5_eq (c : Dev nD) : Gen.V5 m (outs m) c = St5 m c := by
  show StableHlo.after hostOps2 (Gen.V4 m (outs m) c) = _
  rw [V4_eq]
theorem V6_eq (c : Dev nD) : Gen.V6 m (outs m) c = St6 m c := by
  show Function.update (Gen.V5 m (outs m) c) main_v35 (St6 m c main_v35) = _
  rw [V5_eq]; unfold St6; rw [Function.update_self]
theorem V7_eq (c : Dev nD) : Gen.V7 m (outs m) c = St7 m c := by
  show Function.update (Gen.V6 m (outs m) c) main_v36 (St7 m c main_v36) = _
  rw [V6_eq]; unfold St7; rw [Function.update_self]
theorem V8_eq (c : Dev nD) : Gen.V8 m (outs m) c = St8 m c := by
  show StableHlo.after hostOps4 (Gen.V7 m (outs m) c) = _
  rw [V7_eq]
theorem V9_eq (c : Dev nD) : Gen.V9 m (outs m) c = St9 m c := by
  show Function.update (Function.update (Function.update (Gen.V8 m (outs m) c) main_v48_0 (St9 m c main_v48_0)) main_v48_1 (St9 m c main_v48_1)) main_v48_2 (St9 m c main_v48_2) = _
  rw [V8_eq]; unfold St9
  rw [Function.update_self, Function.update_of_ne (ne_ref (by decide : main_v48_1 ≠ main_v48_2)), Function.update_self,
    Function.update_of_ne (ne_ref (by decide : main_v48_0 ≠ main_v48_2)), Function.update_of_ne (ne_ref (by decide : main_v48_0 ≠ main_v48_1)), Function.update_self]
theorem V10_eq (c : Dev nD) : Gen.V10 m (outs m) c = St10 m c := by
  show StableHlo.after hostOps5 (Gen.V9 m (outs m) c) = _
  rw [V9_eq]
theorem V11_eq (c : Dev nD) : Gen.V11 m (outs m) c = St11 m c := by
  show Function.update (Gen.V10 m (outs m) c) main_v59 (St11 m c main_v59) = _
  rw [V10_eq]; unfold St11; rw [Function.update_self]
theorem V12_eq (c : Dev nD) : Gen.V12 m (outs m) c = St12 m c := by
  show Function.update (Gen.V11 m (outs m) c) main_v60 (St12 m c main_v60) = _
  rw [V11_eq]; unfold St12; rw [Function.update_self]
theorem V13_eq (c : Dev nD) : Gen.V13 m (outs m) c = St13 m c := by
  show StableHlo.after hostOps7 (Gen.V12 m (outs m) c) = _
  rw [V12_eq]
theorem V14_eq (c : Dev nD) : Gen.V14 m (outs m) c = St14 m c := by
  show Function.update (Function.update (Function.update (Gen.V13 m (outs m) c) main_v72_0 (St14 m c main_v72_0)) main_v72_1 (St14 m c main_v72_1)) main_v72_2 (St14 m c main_v72_2) = _
  rw [V13_eq]; unfold St14
  rw [Function.update_self, Function.update_of_ne (ne_ref (by decide : main_v72_1 ≠ main_v72_2)), Function.update_self,
    Function.update_of_ne (ne_ref (by decide : main_v72_0 ≠ main_v72_2)), Function.update_of_ne (ne_ref (by decide : main_v72_0 ≠ main_v72_1)), Function.update_self]
theorem V15_eq (c : Dev nD) : Gen.V15 m (outs m) c = St15 m c := by
  show StableHlo.after hostOps8 (Gen.V14 m (outs m) c) = _
  rw [V14_eq]
theorem V16_eq (c : Dev nD) : Gen.V16 m (outs m) c = St16 m c := by
  show Function.update (Gen.V15 m (outs m) c) main_v83 (St16 m c main_v83) = _
  rw [V15_eq]; unfold St16; rw [Function.update_self]
theorem V17_eq (c : Dev nD) : Gen.V17 m (outs m) c = St17 m c := by
  show StableHlo.after hostOps9 (Gen.V16 m (outs m) c) = _
  rw [V16_eq]
theorem V18_eq (c : Dev nD) : Gen.V18 m (outs m) c = St18 m c := by
  show Function.update (Gen.V17 m (outs m) c) main_v99 (St18 m c main_v99) = _
  rw [V17_eq]; unfold St18; rw [Function.update_self]

end Cert.Kernel.Hand

end
-- ==== Proof.K.Regs.lean ====
import proofs.«115763_j74259984548099_2_alg».proof.Proof.Gen.Kernel.Launch
import proofs.«115763_j74259984548099_2_alg».proof.Proof.Gen.Kernel.Skeleton
import proofs.«115763_j74259984548099_2_alg».proof.Proof.Gen.Kernel.Points
import proofs.«115763_j74259984548099_2_alg».proof.Proof.K.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Region 0 -/

theorem hF0_0 (c : Dev nD) : (dat0 (atTc (St1 m)) c).arrAt 0 cfg0.N = atTc (St2 m) c (Pipeline.arrRef spec0 0) :=
  ((dat0 (atTc (St1 m)) c).arrAt_in 0 rfl _).trans ((A_eq0 (atTc (St1 m)) c 0).trans (by
    show St1 m c (Proc.devRef .tc (Pipeline.arrRef spec0 0)) = St2 m c (Proc.devRef .tc (Pipeline.arrRef spec0 0))
    unfold St2; rw [Function.update_of_ne (ne_ref (by decide : Pipeline.arrRef spec0 0 ≠ main_v12))]))
theorem hF0_1 (c : Dev nD) : (dat0 (atTc (St1 m)) c).arrAt 1 cfg0.N = atTc (St2 m) c (Pipeline.arrRef spec0 1) :=
  ((dat0 (atTc (St1 m)) c).arrAt_in 1 rfl _).trans ((A_eq0 (atTc (St1 m)) c 1).trans (by
    show St1 m c (Proc.devRef .tc (Pipeline.arrRef spec0 1)) = St2 m c (Proc.devRef .tc (Pipeline.arrRef spec0 1))
    unfold St2; rw [Function.update_of_ne (ne_ref (by decide : Pipeline.arrRef spec0 1 ≠ main_v12))]))
theorem hF0_2 (c : Dev nD) : (dat0 (atTc (St1 m)) c).arrAt 2 cfg0.N = atTc (St2 m) c (Pipeline.arrRef spec0 2) :=
  ((dat0 (atTc (St1 m)) c).arrAt_in 2 rfl _).trans ((A_eq0 (atTc (St1 m)) c 2).trans (by
    show St1 m c (Proc.devRef .tc (Pipeline.arrRef spec0 2)) = St2 m c (Proc.devRef .tc (Pipeline.arrRef spec0 2))
    unfold St2; rw [Function.update_of_ne (ne_ref (by decide : Pipeline.arrRef spec0 2 ≠ main_v12))]))
theorem hF0_3 (c : Dev nD) : (dat0 (atTc (St1 m)) c).arrAt 3 cfg0.N = atTc (St2 m) c (Pipeline.arrRef spec0 3) := by
  show _ = St2 m c (Proc.devRef .tc main_v12)
  unfold St2; rw [Function.update_self]

theorem hF0 (c : Dev nD) : ∀ w : Fin cfg0.W, (dat0 (atTc (St1 m)) c).arrAt w cfg0.N = atTc (St2 m) c (Pipeline.arrRef spec0 w)
  | ⟨0, _⟩ => hF0_0 m c
  | ⟨1, _⟩ => hF0_1 m c
  | ⟨2, _⟩ => hF0_2 m c
  | ⟨3, _⟩ => hF0_3 m c

theorem hrest0 (c : Dev nD) : ∀ b, b ∉ Finset.univ.image (Pipeline.arrRef spec0) → atTc (St2 m) c b = atTc (St1 m) c b := fun b hb => by
  show St2 m c (Proc.devRef .tc b) = St1 m c (Proc.devRef .tc b)
  unfold St2; rw [Function.update_of_ne (ne_ref (fun e => hb (Finset.mem_image.mpr ⟨(3 : Fin 4), Finset.mem_univ _, (show Pipeline.arrRef spec0 3 = main_v12 from rfl).trans e.symm⟩)))]

/-! ## Region 1 -/

theorem hF1_0 (c : Dev nD) : (dat1 (atTc (St3 m)) c).arrAt 0 cfg1.N = atTc (St4 m) c (Pipeline.arrRef spec1 0) :=
  ((dat1 (atTc (St3 m)) c).arrAt_in 0 rfl _).trans ((A_eq1 (atTc (St3 m)) c 0).trans (by
    show St3 m c (Proc.devRef .tc (Pipeline.arrRef spec1 0)) = St4 m c (Proc.devRef .tc (Pipeline.arrRef spec1 0))
    unfold St4; rw [Function.update_of_ne (ne_ref (by decide : Pipeline.arrRef spec1 0 ≠ main_v24_2)), Function.update_of_ne (ne_ref (by decide : Pipeline.arrRef spec1 0 ≠ main_v24_1)), Function.update_of_ne (ne_ref (by decide : Pipeline.arrRef spec1 0 ≠ main_v24_0))]))
theorem hF1_1 (c : Dev nD) : (dat1 (atTc (St3 m)) c).arrAt 1 cfg1.N = atTc (St4 m) c (Pipeline.arrRef spec1 1) :=
  ((dat1 (atTc (St3 m)) c).arrAt_in 1 rfl _).trans ((A_eq1 (atTc (St3 m)) c 1).trans (by
    show St3 m c (Proc.devRef .tc (Pipeline.arrRef spec1 1)) = St4 m c (Proc.devRef .tc (Pipeline.arrRef spec1 1))
    unfold St4; rw [Function.update_of_ne (ne_ref (by decide : Pipeline.arrRef spec1 1 ≠ main_v24_2)), Function.update_of_ne (ne_ref (by decide : Pipeline.arrRef spec1 1 ≠ main_v24_1)), Function.update_of_ne (ne_ref (by decide : Pipeline.arrRef spec1 1 ≠ main_v24_0))]))
theorem hF1_2 (c : Dev nD) : (dat1 (atTc (St3 m)) c).arrAt 2 cfg1.N = atTc (St4 m) c (Pipeline.arrRef spec1 2) :=
  ((dat1 (atTc (St3 m)) c).arrAt_in 2 rfl _).trans ((A_eq1 (atTc (St3 m)) c 2).trans (by
    show St3 m c (Proc.devRef .tc (Pipeline.arrRef spec1 2)) = St4 m c (Proc.devRef .tc (Pipeline.arrRef spec1 2))
    unfold St4; rw [Function.update_of_ne (ne_ref (by decide : Pipeline.arrRef spec1 2 ≠ main_v24_2)), Function.update_of_ne (ne_ref (by decide : Pipeline.arrRef spec1 2 ≠ main_v24_1)), Function.update_of_ne (ne_ref (by decide : Pipeline.arrRef spec1 2 ≠ main_v24_0))]))
theorem hF1_3 (c : Dev nD) : (dat1 (atTc (St3 m)) c).arrAt 3 cfg1.N = atTc (St4 m) c (Pipeline.arrRef spec1 3) :=
  ((dat1 (atTc (St3 m)) c).arrAt_in 3 rfl _).trans ((A_eq1 (atTc (St3 m)) c 3).trans (by
    show St3 m c (Proc.devRef .tc (Pipeline.arrRef spec1 3)) = St4 m c (Proc.devRef .tc (Pipeline.arrRef spec1 3))
    unfold St4; rw [Function.update_of_ne (ne_ref (by decide : Pipeline.arrRef spec1 3 ≠ main_v24_2)), Function.update_of_ne (ne_ref (by decide : Pipeline.arrRef spec1 3 ≠ main_v24_1)), Function.update_of_ne (ne_ref (by decide : Pipeline.arrRef spec1 3 ≠ main_v24_0))]))
theorem hF1_4 (c : Dev nD) : (dat1 (atTc (St3 m)) c).arrAt 4 cfg1.N = atTc (St4 m) c (Pipeline.arrRef spec1 4) := by
  show _ = St4 m c (Proc.devRef .tc main_v24_0)
  unfold St4; rw [Function.update_of_ne (ne_ref (by decide : main_v24_0 ≠ main_v24_2)), Function.update_of_ne (ne_ref (by decide : main_v24_0 ≠ main_v24_1)), Function.update_self]
theorem hF1_5 (c : Dev nD) : (dat1 (atTc (St3 m)) c).arrAt 5 cfg1.N = atTc (St4 m) c (Pipeline.arrRef spec1 5) := by
  show _ = St4 m c (Proc.devRef .tc main_v24_1)
  unfold St4; rw [Function.update_of_ne (ne_ref (by decide : main_v24_1 ≠ main_v24_2)), Function.update_self]
theorem hF1_6 (c : Dev nD) : (dat1 (atTc (St3 m)) c).arrAt 6 cfg1.N = atTc (St4 m) c (Pipeline.arrRef spec1 6) := by
  show _ = St4 m c (Proc.devRef .tc main_v24_2)
  unfold St4; rw [Function.update_self]

theorem hF1 (c : Dev nD) : ∀ w : Fin cfg1.W, (dat1 (atTc (St3 m)) c).arrAt w cfg1.N = atTc (St4 m) c (Pipeline.arrRef spec1 w)
  | ⟨0, _⟩ => hF1_0 m c
  | ⟨1, _⟩ => hF1_1 m c
  | ⟨2, _⟩ => hF1_2 m c
  | ⟨3, _⟩ => hF1_3 m c
  | ⟨4, _⟩ => hF1_4 m c
  | ⟨5, _⟩ => hF1_5 m c
  | ⟨6, _⟩ => hF1_6 m c

theorem hrest1 (c : Dev nD) : ∀ b, b ∉ Finset.univ.image (Pipeline.arrRef spec1) → atTc (St4 m) c b = atTc (St3 m) c b := fun b hb => by
  show St4 m c (Proc.devRef .tc b) = St3 m c (Proc.devRef .tc b)
  unfold St4; rw [Function.update_of_ne (ne_ref (fun e => hb (Finset.mem_image.mpr ⟨(6 : Fin 7), Finset.mem_univ _, (show Pipeline.arrRef spec1 6 = main_v24_2 from rfl).trans e.symm⟩))), Function.update_of_ne (ne_ref (fun e => hb (Finset.mem_image.mpr ⟨(5 : Fin 7), Finset.mem_univ _, (show Pipeline.arrRef spec1 5 = main_v24_1 from rfl).trans e.symm⟩))), Function.update_of_ne (ne_ref (fun e => hb (Finset.mem_image.mpr ⟨(4 : Fin 7), Finset.mem_univ _, (show Pipeline.arrRef spec1 4 = main_v24_0 from rfl).trans e.symm⟩)))]

/-! ## Region 2 -/

theorem hF2_0 (c : Dev nD) : (dat2 (atTc (St5 m)) c).arrAt 0 cfg2.N = atTc (St6 m) c (Pipeline.arrRef spec2 0) :=
  ((dat2 (atTc (St5 m)) c).arrAt_in 0 rfl _).trans ((A_eq2 (atTc (St5 m)) c 0).trans (by
    show St5 m c (Proc.devRef .tc (Pipeline.arrRef spec2 0)) = St6 m c (Proc.devRef .tc (Pipeline.arrRef spec2 0))
    unfold St6; rw [Function.update_of_ne (ne_ref (by decide : Pipeline.arrRef spec2 0 ≠ main_v35))]))
theorem hF2_1 (c : Dev nD) : (dat2 (atTc (St5 m)) c).arrAt 1 cfg2.N = atTc (St6 m) c (Pipeline.arrRef spec2 1) :=
  ((dat2 (atTc (St5 m)) c).arrAt_in 1 rfl _).trans ((A_eq2 (atTc (St5 m)) c 1).trans (by
    show St5 m c (Proc.devRef .tc (Pipeline.arrRef spec2 1)) = St6 m c (Proc.devRef .tc (Pipeline.arrRef spec2 1))
    unfold St6; rw [Function.update_of_ne (ne_ref (by decide : Pipeline.arrRef spec2 1 ≠ main_v35))]))
theorem hF2_2 (c : Dev nD) : (dat2 (atTc (St5 m)) c).arrAt 2 cfg2.N = atTc (St6 m) c (Pipeline.arrRef spec2 2) :=
  ((dat2 (atTc (St5 m)) c).arrAt_in 2 rfl _).trans ((A_eq2 (atTc (St5 m)) c 2).trans (by
    show St5 m c (Proc.devRef .tc (Pipeline.arrRef spec2 2)) = St6 m c (Proc.devRef .tc (Pipeline.arrRef spec2 2))
    unfold St6; rw [Function.update_of_ne (ne_ref (by decide : Pipeline.arrRef spec2 2 ≠ main_v35))]))
theorem hF2_3 (c : Dev nD) : (dat2 (atTc (St5 m)) c).arrAt 3 cfg2.N = atTc (St6 m) c (Pipeline.arrRef spec2 3) :=
  ((dat2 (atTc (St5 m)) c).arrAt_in 3 rfl _).trans ((A_eq2 (atTc (St5 m)) c 3).trans (by
    show St5 m c (Proc.devRef .tc (Pipeline.arrRef spec2 3)) = St6 m c (Proc.devRef .tc (Pipeline.arrRef spec2 3))
    unfold St6; rw [Function.update_of_ne (ne_ref (by decide : Pipeline.arrRef spec2 3 ≠ main_v35))]))
theorem hF2_4 (c : Dev nD) : (dat2 (atTc (St5 m)) c).arrAt 4 cfg2.N = atTc (St6 m) c (Pipeline.arrRef spec2 4) :=
  ((dat2 (atTc (St5 m)) c).arrAt_in 4 rfl _).trans ((A_eq2 (atTc (St5 m)) c 4).trans (by
    show St5 m c (Proc.devRef .tc (Pipeline.arrRef spec2 4)) = St6 m c (Proc.devRef .tc (Pipeline.arrRef spec2 4))
    unfold St6; rw [Function.update_of_ne (ne_ref (by decide : Pipeline.arrRef spec2 4 ≠ main_v35))]))
theorem hF2_5 (c : Dev nD) : (dat2 (atTc (St5 m)) c).arrAt 5 cfg2.N = atTc (St6 m) c (Pipeline.arrRef spec2 5) := by
  show _ = St6 m c (Proc.devRef .tc main_v35)
  unfold St6; rw [Function.update_self]

theorem hF2 (c : Dev nD) : ∀ w : Fin cfg2.W, (dat2 (atTc (St5 m)) c).arrAt w cfg2.N = atTc (St6 m) c (Pipeline.arrRef spec2 w)
  | ⟨0, _⟩ => hF2_0 m c
  | ⟨1, _⟩ => hF2_1 m c
  | ⟨2, _⟩ => hF2_2 m c
  | ⟨3, _⟩ => hF2_3 m c
  | ⟨4, _⟩ => hF2_4 m c
  | ⟨5, _⟩ => hF2_5 m c

theorem hrest2 (c : Dev nD) : ∀ b, b ∉ Finset.univ.image (Pipeline.arrRef spec2) → atTc (St6 m) c b = atTc (St5 m) c b := fun b hb => by
  show St6 m c (Proc.devRef .tc b) = St5 m c (Proc.devRef .tc b)
  unfold St6; rw [Function.update_of_ne (ne_ref (fun e => hb (Finset.mem_image.mpr ⟨(5 : Fin 6), Finset.mem_univ _, (show Pipeline.arrRef spec2 5 = main_v35 from rfl).trans e.symm⟩)))]

/-! ## Region 3 -/

theorem hF3_0 (c : Dev nD) : (dat3 (atTc (St6 m)) c).arrAt 0 cfg3.N = atTc (St7 m) c (Pipeline.arrRef spec3 0) :=
  ((dat3 (atTc (St6 m)) c).arrAt_in 0 rfl _).trans ((A_eq3 (atTc (St6 m)) c 0).trans (by
    show St6 m c (Proc.devRef .tc (Pipeline.arrRef spec3 0)) = St7 m c (Proc.devRef .tc (Pipeline.arrRef spec3 0))
    unfold St7; rw [Function.update_of_ne (ne_ref (by decide : Pipeline.arrRef spec3 0 ≠ main_v36))]))
theorem hF3_1 (c : Dev nD) : (dat3 (atTc (St6 m)) c).arrAt 1 cfg3.N = atTc (St7 m) c (Pipeline.arrRef spec3 1) :=
  ((dat3 (atTc (St6 m)) c).arrAt_in 1 rfl _).trans ((A_eq3 (atTc (St6 m)) c 1).trans (by
    show St6 m c (Proc.devRef .tc (Pipeline.arrRef spec3 1)) = St7 m c (Proc.devRef .tc (Pipeline.arrRef spec3 1))
    unfold St7; rw [Function.update_of_ne (ne_ref (by decide : Pipeline.arrRef spec3 1 ≠ main_v36))]))
theorem hF3_2 (c : Dev nD) : (dat3 (atTc (St6 m)) c).arrAt 2 cfg3.N = atTc (St7 m) c (Pipeline.arrRef spec3 2) :=
  ((dat3 (atTc (St6 m)) c).arrAt_in 2 rfl _).trans ((A_eq3 (atTc (St6 m)) c 2).trans (by
    show St6 m c (Proc.devRef .tc (Pipeline.arrRef spec3 2)) = St7 m c (Proc.devRef .tc (Pipeline.arrRef spec3 2))
    unfold St7; rw [Function.update_of_ne (ne_ref (by decide : Pipeline.arrRef spec3 2 ≠ main_v36))]))
theorem hF3_3 (c : Dev nD) : (dat3 (atTc (St6 m)) c).arrAt 3 cfg3.N = atTc (St7 m) c (Pipeline.arrRef spec3 3) := by
  show _ = St7 m c (Proc.devRef .tc main_v36)
  unfold St7; rw [Function.update_self]

theorem hF3 (c : Dev nD) : ∀ w : Fin cfg3.W, (dat3 (atTc (St6 m)) c).arrAt w cfg3.N = atTc (St7 m) c (Pipeline.arrRef spec3 w)
  | ⟨0, _⟩ => hF3_0 m c
  | ⟨1, _⟩ => hF3_1 m c
  | ⟨2, _⟩ => hF3_2 m c
  | ⟨3, _⟩ => hF3_3 m c

theorem hrest3 (c : Dev nD) : ∀ b, b ∉ Finset.univ.image (Pipeline.arrRef spec3) → atTc (St7 m) c b = atTc (St6 m) c b := fun b hb => by
  show St7 m c (Proc.devRef .tc b) = St6 m c (Proc.devRef .tc b)
  unfold St7; rw [Function.update_of_ne (ne_ref (fun e => hb (Finset.mem_image.mpr ⟨(3 : Fin 4), Finset.mem_univ _, (show Pipeline.arrRef spec3 3 = main_v36 from rfl).trans e.symm⟩)))]

/-! ## Region 4 -/

theorem hF4_0 (c : Dev nD) : (dat4 (atTc (St8 m)) c).arrAt 0 cfg4.N = atTc (St9 m) c (Pipeline.arrRef spec4 0) :=
  ((dat4 (atTc (St8 m)) c).arrAt_in 0 rfl _).trans ((A_eq4 (atTc (St8 m)) c 0).trans (by
    show St8 m c (Proc.devRef .tc (Pipeline.arrRef spec4 0)) = St9 m c (Proc.devRef .tc (Pipeline.arrRef spec4 0))
    unfold St9; rw [Function.update_of_ne (ne_ref (by decide : Pipeline.arrRef spec4 0 ≠ main_v48_2)), Function.update_of_ne (ne_ref (by decide : Pipeline.arrRef spec4 0 ≠ main_v48_1)), Function.update_of_ne (ne_ref (by decide : Pipeline.arrRef spec4 0 ≠ main_v48_0))]))
theorem hF4_1 (c : Dev nD) : (dat4 (atTc (St8 m)) c).arrAt 1 cfg4.N = atTc (St9 m) c (Pipeline.arrRef spec4 1) :=
  ((dat4 (atTc (St8 m)) c).arrAt_in 1 rfl _).trans ((A_eq4 (atTc (St8 m)) c 1).trans (by
    show St8 m c (Proc.devRef .tc (Pipeline.arrRef spec4 1)) = St9 m c (Proc.devRef .tc (Pipeline.arrRef spec4 1))
    unfold St9; rw [Function.update_of_ne (ne_ref (by decide : Pipeline.arrRef spec4 1 ≠ main_v48_2)), Function.update_of_ne (ne_ref (by decide : Pipeline.arrRef spec4 1 ≠ main_v48_1)), Function.update_of_ne (ne_ref (by decide : Pipeline.arrRef spec4 1 ≠ main_v48_0))]))
theorem hF4_2 (c : Dev nD) : (dat4 (atTc (St8 m)) c).arrAt 2 cfg4.N = atTc (St9 m) c (Pipeline.arrRef spec4 2) :=
  ((dat4 (atTc (St8 m)) c).arrAt_in 2 rfl _).trans ((A_eq4 (atTc (St8 m)) c 2).trans (by
    show St8 m c (Proc.devRef .tc (Pipeline.arrRef spec4 2)) = St9 m c (Proc.devRef .tc (Pipeline.arrRef spec4 2))
    unfold St9; rw [Function.update_of_ne (ne_ref (by decide : Pipeline.arrRef spec4 2 ≠ main_v48_2)), Function.update_of_ne (ne_ref (by decide : Pipeline.arrRef spec4 2 ≠ main_v48_1)), Function.update_of_ne (ne_ref (by decide : Pipeline.arrRef spec4 2 ≠ main_v48_0))]))
theorem hF4_3 (c : Dev nD) : (dat4 (atTc (St8 m)) c).arrAt 3 cfg4.N = atTc (St9 m) c (Pipeline.arrRef spec4 3) :=
  ((dat4 (atTc (St8 m)) c).arrAt_in 3 rfl _).trans ((A_eq4 (atTc (St8 m)) c 3).trans (by
    show St8 m c (Proc.devRef .tc (Pipeline.arrRef spec4 3)) = St9 m c (Proc.devRef .tc (Pipeline.arrRef spec4 3))
    unfold St9; rw [Function.update_of_ne (ne_ref (by decide : Pipeline.arrRef spec4 3 ≠ main_v48_2)), Function.update_of_ne (ne_ref (by decide : Pipeline.arrRef spec4 3 ≠ main_v48_1)), Function.update_of_ne (ne_ref (by decide : Pipeline.arrRef spec4 3 ≠ main_v48_0))]))
theorem hF4_4 (c : Dev nD) : (dat4 (atTc (St8 m)) c).arrAt 4 cfg4.N = atTc (St9 m) c (Pipeline.arrRef spec4 4) := by
  show _ = St9 m c (Proc.devRef .tc main_v48_0)
  unfold St9; rw [Function.update_of_ne (ne_ref (by decide : main_v48_0 ≠ main_v48_2)), Function.update_of_ne (ne_ref (by decide : main_v48_0 ≠ main_v48_1)), Function.update_self]
theorem hF4_5 (c : Dev nD) : (dat4 (atTc (St8 m)) c).arrAt 5 cfg4.N = atTc (St9 m) c (Pipeline.arrRef spec4 5) := by
  show _ = St9 m c (Proc.devRef .tc main_v48_1)
  unfold St9; rw [Function.update_of_ne (ne_ref (by decide : main_v48_1 ≠ main_v48_2)), Function.update_self]
theorem hF4_6 (c : Dev nD) : (dat4 (atTc (St8 m)) c).arrAt 6 cfg4.N = atTc (St9 m) c (Pipeline.arrRef spec4 6) := by
  show _ = St9 m c (Proc.devRef .tc main_v48_2)
  unfold St9; rw [Function.update_self]

theorem hF4 (c : Dev nD) : ∀ w : Fin cfg4.W, (dat4 (atTc (St8 m)) c).arrAt w cfg4.N = atTc (St9 m) c (Pipeline.arrRef spec4 w)
  | ⟨0, _⟩ => hF4_0 m c
  | ⟨1, _⟩ => hF4_1 m c
  | ⟨2, _⟩ => hF4_2 m c
  | ⟨3, _⟩ => hF4_3 m c
  | ⟨4, _⟩ => hF4_4 m c
  | ⟨5, _⟩ => hF4_5 m c
  | ⟨6, _⟩ => hF4_6 m c

theorem hrest4 (c : Dev nD) : ∀ b, b ∉ Finset.univ.image (Pipeline.arrRef spec4) → atTc (St9 m) c b = atTc (St8 m) c b := fun b hb => by
  show St9 m c (Proc.devRef .tc b) = St8 m c (Proc.devRef .tc b)
  unfold St9; rw [Function.update_of_ne (ne_ref (fun e => hb (Finset.mem_image.mpr ⟨(6 : Fin 7), Finset.mem_univ _, (show Pipeline.arrRef spec4 6 = main_v48_2 from rfl).trans e.symm⟩))), Function.update_of_ne (ne_ref (fun e => hb (Finset.mem_image.mpr ⟨(5 : Fin 7), Finset.mem_univ _, (show Pipeline.arrRef spec4 5 = main_v48_1 from rfl).trans e.symm⟩))), Function.update_of_ne (ne_ref (fun e => hb (Finset.mem_image.mpr ⟨(4 : Fin 7), Finset.mem_univ _, (show Pipeline.arrRef spec4 4 = main_v48_0 from rfl).trans e.symm⟩)))]

/-! ## Region 5 -/

theorem hF5_0 (c : Dev nD) : (dat5 (atTc (St10 m)) c).arrAt 0 cfg5.N = atTc (St11 m) c (Pipeline.arrRef spec5 0) :=
  ((dat5 (atTc (St10 m)) c).arrAt_in 0 rfl _).trans ((A_eq5 (atTc (St10 m)) c 0).trans (by
    show St10 m c (Proc.devRef .tc (Pipeline.arrRef spec5 0)) = St11 m c (Proc.devRef .tc (Pipeline.arrRef spec5 0))
    unfold St11; rw [Function.update_of_ne (ne_ref (by decide : Pipeline.arrRef spec5 0 ≠ main_v59))]))
theorem hF5_1 (c : Dev nD) : (dat5 (atTc (St10 m)) c).arrAt 1 cfg5.N = atTc (St11 m) c (Pipeline.arrRef spec5 1) :=
  ((dat5 (atTc (St10 m)) c).arrAt_in 1 rfl _).trans ((A_eq5 (atTc (St10 m)) c 1).trans (by
    show St10 m c (Proc.devRef .tc (Pipeline.arrRef spec5 1)) = St11 m c (Proc.devRef .tc (Pipeline.arrRef spec5 1))
    unfold St11; rw [Function.update_of_ne (ne_ref (by decide : Pipeline.arrRef spec5 1 ≠ main_v59))]))
theorem hF5_2 (c : Dev nD) : (dat5 (atTc (St10 m)) c).arrAt 2 cfg5.N = atTc (St11 m) c (Pipeline.arrRef spec5 2) :=
  ((dat5 (atTc (St10 m)) c).arrAt_in 2 rfl _).trans ((A_eq5 (atTc (St10 m)) c 2).trans (by
    show St10 m c (Proc.devRef .tc (Pipeline.arrRef spec5 2)) = St11 m c (Proc.devRef .tc (Pipeline.arrRef spec5 2))
    unfold St11; rw [Function.update_of_ne (ne_ref (by decide : Pipeline.arrRef spec5 2 ≠ main_v59))]))
theorem hF5_3 (c : Dev nD) : (dat5 (atTc (St10 m)) c).arrAt 3 cfg5.N = atTc (St11 m) c (Pipeline.arrRef spec5 3) :=
  ((dat5 (atTc (St10 m)) c).arrAt_in 3 rfl _).trans ((A_eq5 (atTc (St10 m)) c 3).trans (by
    show St10 m c (Proc.devRef .tc (Pipeline.arrRef spec5 3)) = St11 m c (Proc.devRef .tc (Pipeline.arrRef spec5 3))
    unfold St11; rw [Function.update_of_ne (ne_ref (by decide : Pipeline.arrRef spec5 3 ≠ main_v59))]))
theorem hF5_4 (c : Dev nD) : (dat5 (atTc (St10 m)) c).arrAt 4 cfg5.N = atTc (St11 m) c (Pipeline.arrRef spec5 4) :=
  ((dat5 (atTc (St10 m)) c).arrAt_in 4 rfl _).trans ((A_eq5 (atTc (St10 m)) c 4).trans (by
    show St10 m c (Proc.devRef .tc (Pipeline.arrRef spec5 4)) = St11 m c (Proc.devRef .tc (Pipeline.arrRef spec5 4))
    unfold St11; rw [Function.update_of_ne (ne_ref (by decide : Pipeline.arrRef spec5 4 ≠ main_v59))]))
theorem hF5_5 (c : Dev nD) : (dat5 (atTc (St10 m)) c).arrAt 5 cfg5.N = atTc (St11 m) c (Pipeline.arrRef spec5 5) := by
  show _ = St11 m c (Proc.devRef .tc main_v59)
  unfold St11; rw [Function.update_self]

theorem hF5 (c : Dev nD) : ∀ w : Fin cfg5.W, (dat5 (atTc (St10 m)) c).arrAt w cfg5.N = atTc (St11 m) c (Pipeline.arrRef spec5 w)
  | ⟨0, _⟩ => hF5_0 m c
  | ⟨1, _⟩ => hF5_1 m c
  | ⟨2, _⟩ => hF5_2 m c
  | ⟨3, _⟩ => hF5_3 m c
  | ⟨4, _⟩ => hF5_4 m c
  | ⟨5, _⟩ => hF5_5 m c

theorem hrest5 (c : Dev nD) : ∀ b, b ∉ Finset.univ.image (Pipeline.arrRef spec5) → atTc (St11 m) c b = atTc (St10 m) c b := fun b hb => by
  show St11 m c (Proc.devRef .tc b) = St10 m c (Proc.devRef .tc b)
  unfold St11; rw [Function.update_of_ne (ne_ref (fun e => hb (Finset.mem_image.mpr ⟨(5 : Fin 6), Finset.mem_univ _, (show Pipeline.arrRef spec5 5 = main_v59 from rfl).trans e.symm⟩)))]

/-! ## Region 6 -/

theorem hF6_0 (c : Dev nD) : (dat6 (atTc (St11 m)) c).arrAt 0 cfg6.N = atTc (St12 m) c (Pipeline.arrRef spec6 0) :=
  ((dat6 (atTc (St11 m)) c).arrAt_in 0 rfl _).trans ((A_eq6 (atTc (St11 m)) c 0).trans (by
    show St11 m c (Proc.devRef .tc (Pipeline.arrRef spec6 0)) = St12 m c (Proc.devRef .tc (Pipeline.arrRef spec6 0))
    unfold St12; rw [Function.update_of_ne (ne_ref (by decide : Pipeline.arrRef spec6 0 ≠ main_v60))]))
theorem hF6_1 (c : Dev nD) : (dat6 (atTc (St11 m)) c).arrAt 1 cfg6.N = atTc (St12 m) c (Pipeline.arrRef spec6 1) :=
  ((dat6 (atTc (St11 m)) c).arrAt_in 1 rfl _).trans ((A_eq6 (atTc (St11 m)) c 1).trans (by
    show St11 m c (Proc.devRef .tc (Pipeline.arrRef spec6 1)) = St12 m c (Proc.devRef .tc (Pipeline.arrRef spec6 1))
    unfold St12; rw [Function.update_of_ne (ne_ref (by decide : Pipeline.arrRef spec6 1 ≠ main_v60))]))
theorem hF6_2 (c : Dev nD) : (dat6 (atTc (St11 m)) c).arrAt 2 cfg6.N = atTc (St12 m) c (Pipeline.arrRef spec6 2) :=
  ((dat6 (atTc (St11 m)) c).arrAt_in 2 rfl _).trans ((A_eq6 (atTc (St11 m)) c 2).trans (by
    show St11 m c (Proc.devRef .tc (Pipeline.arrRef spec6 2)) = St12 m c (Proc.devRef .tc (Pipeline.arrRef spec6 2))
    unfold St12; rw [Function.update_of_ne (ne_ref (by decide : Pipeline.arrRef spec6 2 ≠ main_v60))]))
theorem hF6_3 (c : Dev nD) : (dat6 (atTc (St11 m)) c).arrAt 3 cfg6.N = atTc (St12 m) c (Pipeline.arrRef spec6 3) := by
  show _ = St12 m c (Proc.devRef .tc main_v60)
  unfold St12; rw [Function.update_self]

theorem hF6 (c : Dev nD) : ∀ w : Fin cfg6.W, (dat6 (atTc (St11 m)) c).arrAt w cfg6.N = atTc (St12 m) c (Pipeline.arrRef spec6 w)
  | ⟨0, _⟩ => hF6_0 m c
  | ⟨1, _⟩ => hF6_1 m c
  | ⟨2, _⟩ => hF6_2 m c
  | ⟨3, _⟩ => hF6_3 m c

theorem hrest6 (c : Dev nD) : ∀ b, b ∉ Finset.univ.image (Pipeline.arrRef spec6) → atTc (St12 m) c b = atTc (St11 m) c b := fun b hb => by
  show St12 m c (Proc.devRef .tc b) = St11 m c (Proc.devRef .tc b)
  unfold St12; rw [Function.update_of_ne (ne_ref (fun e => hb (Finset.mem_image.mpr ⟨(3 : Fin 4), Finset.mem_univ _, (show Pipeline.arrRef spec6 3 = main_v60 from rfl).trans e.symm⟩)))]

/-! ## Region 7 -/

theorem hF7_0 (c : Dev nD) : (dat7 (atTc (St13 m)) c).arrAt 0 cfg7.N = atTc (St14 m) c (Pipeline.arrRef spec7 0) :=
  ((dat7 (atTc (St13 m)) c).arrAt_in 0 rfl _).trans ((A_eq7 (atTc (St13 m)) c 0).trans (by
    show St13 m c (Proc.devRef .tc (Pipeline.arrRef spec7 0)) = St14 m c (Proc.devRef .tc (Pipeline.arrRef spec7 0))
    unfold St14; rw [Function.update_of_ne (ne_ref (by decide : Pipeline.arrRef spec7 0 ≠ main_v72_2)), Function.update_of_ne (ne_ref (by decide : Pipeline.arrRef spec7 0 ≠ main_v72_1)), Function.update_of_ne (ne_ref (by decide : Pipeline.arrRef spec7 0 ≠ main_v72_0))]))
theorem hF7_1 (c : Dev nD) : (dat7 (atTc (St13 m)) c).arrAt 1 cfg7.N = atTc (St14 m) c (Pipeline.arrRef spec7 1) :=
  ((dat7 (atTc (St13 m)) c).arrAt_in 1 rfl _).trans ((A_eq7 (atTc (St13 m)) c 1).trans (by
    show St13 m c (Proc.devRef .tc (Pipeline.arrRef spec7 1)) = St14 m c (Proc.devRef .tc (Pipeline.arrRef spec7 1))
    unfold St14; rw [Function.update_of_ne (ne_ref (by decide : Pipeline.arrRef spec7 1 ≠ main_v72_2)), Function.update_of_ne (ne_ref (by decide : Pipeline.arrRef spec7 1 ≠ main_v72_1)), Function.update_of_ne (ne_ref (by decide : Pipeline.arrRef spec7 1 ≠ main_v72_0))]))
theorem hF7_2 (c : Dev nD) : (dat7 (atTc (St13 m)) c).arrAt 2 cfg7.N = atTc (St14 m) c (Pipeline.arrRef spec7 2) :=
  ((dat7 (atTc (St13 m)) c).arrAt_in 2 rfl _).trans ((A_eq7 (atTc (St13 m)) c 2).trans (by
    show St13 m c (Proc.devRef .tc (Pipeline.arrRef spec7 2)) = St14 m c (Proc.devRef .tc (Pipeline.arrRef spec7 2))
    unfold St14; rw [Function.update_of_ne (ne_ref (by decide : Pipeline.arrRef spec7 2 ≠ main_v72_2)), Function.update_of_ne (ne_ref (by decide : Pipeline.arrRef spec7 2 ≠ main_v72_1)), Function.update_of_ne (ne_ref (by decide : Pipeline.arrRef spec7 2 ≠ main_v72_0))]))
theorem hF7_3 (c : Dev nD) : (dat7 (atTc (St13 m)) c).arrAt 3 cfg7.N = atTc (St14 m) c (Pipeline.arrRef spec7 3) :=
  ((dat7 (atTc (St13 m)) c).arrAt_in 3 rfl _).trans ((A_eq7 (atTc (St13 m)) c 3).trans (by
    show St13 m c (Proc.devRef .tc (Pipeline.arrRef spec7 3)) = St14 m c (Proc.devRef .tc (Pipeline.arrRef spec7 3))
    unfold St14; rw [Function.update_of_ne (ne_ref (by decide : Pipeline.arrRef spec7 3 ≠ main_v72_2)), Function.update_of_ne (ne_ref (by decide : Pipeline.arrRef spec7 3 ≠ main_v72_1)), Function.update_of_ne (ne_ref (by decide : Pipeline.arrRef spec7 3 ≠ main_v72_0))]))
theorem hF7_4 (c : Dev nD) : (dat7 (atTc (St13 m)) c).arrAt 4 cfg7.N = atTc (St14 m) c (Pipeline.arrRef spec7 4) := by
  show _ = St14 m c (Proc.devRef .tc main_v72_0)
  unfold St14; rw [Function.update_of_ne (ne_ref (by decide : main_v72_0 ≠ main_v72_2)), Function.update_of_ne (ne_ref (by decide : main_v72_0 ≠ main_v72_1)), Function.update_self]
theorem hF7_5 (c : Dev nD) : (dat7 (atTc (St13 m)) c).arrAt 5 cfg7.N = atTc (St14 m) c (Pipeline.arrRef spec7 5) := by
  show _ = St14 m c (Proc.devRef .tc main_v72_1)
  unfold St14; rw [Function.update_of_ne (ne_ref (by decide : main_v72_1 ≠ main_v72_2)), Function.update_self]
theorem hF7_6 (c : Dev nD) : (dat7 (atTc (St13 m)) c).arrAt 6 cfg7.N = atTc (St14 m) c (Pipeline.arrRef spec7 6) := by
  show _ = St14 m c (Proc.devRef .tc main_v72_2)
  unfold St14; rw [Function.update_self]

theorem hF7 (c : Dev nD) : ∀ w : Fin cfg7.W, (dat7 (atTc (St13 m)) c).arrAt w cfg7.N = atTc (St14 m) c (Pipeline.arrRef spec7 w)
  | ⟨0, _⟩ => hF7_0 m c
  | ⟨1, _⟩ => hF7_1 m c
  | ⟨2, _⟩ => hF7_2 m c
  | ⟨3, _⟩ => hF7_3 m c
  | ⟨4, _⟩ => hF7_4 m c
  | ⟨5, _⟩ => hF7_5 m c
  | ⟨6, _⟩ => hF7_6 m c

theorem hrest7 (c : Dev nD) : ∀ b, b ∉ Finset.univ.image (Pipeline.arrRef spec7) → atTc (St14 m) c b = atTc (St13 m) c b := fun b hb => by
  show St14 m c (Proc.devRef .tc b) = St13 m c (Proc.devRef .tc b)
  unfold St14; rw [Function.update_of_ne (ne_ref (fun e => hb (Finset.mem_image.mpr ⟨(6 : Fin 7), Finset.mem_univ _, (show Pipeline.arrRef spec7 6 = main_v72_2 from rfl).trans e.symm⟩))), Function.update_of_ne (ne_ref (fun e => hb (Finset.mem_image.mpr ⟨(5 : Fin 7), Finset.mem_univ _, (show Pipeline.arrRef spec7 5 = main_v72_1 from rfl).trans e.symm⟩))), Function.update_of_ne (ne_ref (fun e => hb (Finset.mem_image.mpr ⟨(4 : Fin 7), Finset.mem_univ _, (show Pipeline.arrRef spec7 4 = main_v72_0 from rfl).trans e.symm⟩)))]

/-! ## Region 8 -/

theorem hF8_0 (c : Dev nD) : (dat8 (atTc (St15 m)) c).arrAt 0 cfg8.N = atTc (St16 m) c (Pipeline.arrRef spec8 0) :=
  ((dat8 (atTc (St15 m)) c).arrAt_in 0 rfl _).trans ((A_eq8 (atTc (St15 m)) c 0).trans (by
    show St15 m c (Proc.devRef .tc (Pipeline.arrRef spec8 0)) = St16 m c (Proc.devRef .tc (Pipeline.arrRef spec8 0))
    unfold St16; rw [Function.update_of_ne (ne_ref (by decide : Pipeline.arrRef spec8 0 ≠ main_v83))]))
theorem hF8_1 (c : Dev nD) : (dat8 (atTc (St15 m)) c).arrAt 1 cfg8.N = atTc (St16 m) c (Pipeline.arrRef spec8 1) :=
  ((dat8 (atTc (St15 m)) c).arrAt_in 1 rfl _).trans ((A_eq8 (atTc (St15 m)) c 1).trans (by
    show St15 m c (Proc.devRef .tc (Pipeline.arrRef spec8 1)) = St16 m c (Proc.devRef .tc (Pipeline.arrRef spec8 1))
    unfold St16; rw [Function.update_of_ne (ne_ref (by decide : Pipeline.arrRef spec8 1 ≠ main_v83))]))
theorem hF8_2 (c : Dev nD) : (dat8 (atTc (St15 m)) c).arrAt 2 cfg8.N = atTc (St16 m) c (Pipeline.arrRef spec8 2) :=
  ((dat8 (atTc (St15 m)) c).arrAt_in 2 rfl _).trans ((A_eq8 (atTc (St15 m)) c 2).trans (by
    show St15 m c (Proc.devRef .tc (Pipeline.arrRef spec8 2)) = St16 m c (Proc.devRef .tc (Pipeline.arrRef spec8 2))
    unfold St16; rw [Function.update_of_ne (ne_ref (by decide : Pipeline.arrRef spec8 2 ≠ main_v83))]))
theorem hF8_3 (c : Dev nD) : (dat8 (atTc (St15 m)) c).arrAt 3 cfg8.N = atTc (St16 m) c (Pipeline.arrRef spec8 3) :=
  ((dat8 (atTc (St15 m)) c).arrAt_in 3 rfl _).trans ((A_eq8 (atTc (St15 m)) c 3).trans (by
    show St15 m c (Proc.devRef .tc (Pipeline.arrRef spec8 3)) = St16 m c (Proc.devRef .tc (Pipeline.arrRef spec8 3))
    unfold St16; rw [Function.update_of_ne (ne_ref (by decide : Pipeline.arrRef spec8 3 ≠ main_v83))]))
theorem hF8_4 (c : Dev nD) : (dat8 (atTc (St15 m)) c).arrAt 4 cfg8.N = atTc (St16 m) c (Pipeline.arrRef spec8 4) :=
  ((dat8 (atTc (St15 m)) c).arrAt_in 4 rfl _).trans ((A_eq8 (atTc (St15 m)) c 4).trans (by
    show St15 m c (Proc.devRef .tc (Pipeline.arrRef spec8 4)) = St16 m c (Proc.devRef .tc (Pipeline.arrRef spec8 4))
    unfold St16; rw [Function.update_of_ne (ne_ref (by decide : Pipeline.arrRef spec8 4 ≠ main_v83))]))
theorem hF8_5 (c : Dev nD) : (dat8 (atTc (St15 m)) c).arrAt 5 cfg8.N = atTc (St16 m) c (Pipeline.arrRef spec8 5) := by
  show _ = St16 m c (Proc.devRef .tc main_v83)
  unfold St16; rw [Function.update_self]

theorem hF8 (c : Dev nD) : ∀ w : Fin cfg8.W, (dat8 (atTc (St15 m)) c).arrAt w cfg8.N = atTc (St16 m) c (Pipeline.arrRef spec8 w)
  | ⟨0, _⟩ => hF8_0 m c
  | ⟨1, _⟩ => hF8_1 m c
  | ⟨2, _⟩ => hF8_2 m c
  | ⟨3, _⟩ => hF8_3 m c
  | ⟨4, _⟩ => hF8_4 m c
  | ⟨5, _⟩ => hF8_5 m c

theorem hrest8 (c : Dev nD) : ∀ b, b ∉ Finset.univ.image (Pipeline.arrRef spec8) → atTc (St16 m) c b = atTc (St15 m) c b := fun b hb => by
  show St16 m c (Proc.devRef .tc b) = St15 m c (Proc.devRef .tc b)
  unfold St16; rw [Function.update_of_ne (ne_ref (fun e => hb (Finset.mem_image.mpr ⟨(5 : Fin 6), Finset.mem_univ _, (show Pipeline.arrRef spec8 5 = main_v83 from rfl).trans e.symm⟩)))]

/-! ## Region 9 -/

theorem hF9_0 (c : Dev nD) : (dat9 (atTc (St17 m)) c).arrAt 0 cfg9.N = atTc (St18 m) c (Pipeline.arrRef spec9 0) :=
  ((dat9 (atTc (St17 m)) c).arrAt_in 0 rfl _).trans ((A_eq9 (atTc (St17 m)) c 0).trans (by
    show St17 m c (Proc.devRef .tc (Pipeline.arrRef spec9 0)) = St18 m c (Proc.devRef .tc (Pipeline.arrRef spec9 0))
    unfold St18; rw [Function.update_of_ne (ne_ref (by decide : Pipeline.arrRef spec9 0 ≠ main_v99))]))
theorem hF9_1 (c : Dev nD) : (dat9 (atTc (St17 m)) c).arrAt 1 cfg9.N = atTc (St18 m) c (Pipeline.arrRef spec9 1) :=
  ((dat9 (atTc (St17 m)) c).arrAt_in 1 rfl _).trans ((A_eq9 (atTc (St17 m)) c 1).trans (by
    show St17 m c (Proc.devRef .tc (Pipeline.arrRef spec9 1)) = St18 m c (Proc.devRef .tc (Pipeline.arrRef spec9 1))
    unfold St18; rw [Function.update_of_ne (ne_ref (by decide : Pipeline.arrRef spec9 1 ≠ main_v99))]))
theorem hF9_2 (c : Dev nD) : (dat9 (atTc (St17 m)) c).arrAt 2 cfg9.N = atTc (St18 m) c (Pipeline.arrRef spec9 2) :=
  ((dat9 (atTc (St17 m)) c).arrAt_in 2 rfl _).trans ((A_eq9 (atTc (St17 m)) c 2).trans (by
    show St17 m c (Proc.devRef .tc (Pipeline.arrRef spec9 2)) = St18 m c (Proc.devRef .tc (Pipeline.arrRef spec9 2))
    unfold St18; rw [Function.update_of_ne (ne_ref (by decide : Pipeline.arrRef spec9 2 ≠ main_v99))]))
theorem hF9_3 (c : Dev nD) : (dat9 (atTc (St17 m)) c).arrAt 3 cfg9.N = atTc (St18 m) c (Pipeline.arrRef spec9 3) :=
  ((dat9 (atTc (St17 m)) c).arrAt_in 3 rfl _).trans ((A_eq9 (atTc (St17 m)) c 3).trans (by
    show St17 m c (Proc.devRef .tc (Pipeline.arrRef spec9 3)) = St18 m c (Proc.devRef .tc (Pipeline.arrRef spec9 3))
    unfold St18; rw [Function.update_of_ne (ne_ref (by decide : Pipeline.arrRef spec9 3 ≠ main_v99))]))
theorem hF9_4 (c : Dev nD) : (dat9 (atTc (St17 m)) c).arrAt 4 cfg9.N = atTc (St18 m) c (Pipeline.arrRef spec9 4) :=
  ((dat9 (atTc (St17 m)) c).arrAt_in 4 rfl _).trans ((A_eq9 (atTc (St17 m)) c 4).trans (by
    show St17 m c (Proc.devRef .tc (Pipeline.arrRef spec9 4)) = St18 m c (Proc.devRef .tc (Pipeline.arrRef spec9 4))
    unfold St18; rw [Function.update_of_ne (ne_ref (by decide : Pipeline.arrRef spec9 4 ≠ main_v99))]))
theorem hF9_5 (c : Dev nD) : (dat9 (atTc (St17 m)) c).arrAt 5 cfg9.N = atTc (St18 m) c (Pipeline.arrRef spec9 5) := by
  show _ = St18 m c (Proc.devRef .tc main_v99)
  unfold St18; rw [Function.update_self]

theorem hF9 (c : Dev nD) : ∀ w : Fin cfg9.W, (dat9 (atTc (St17 m)) c).arrAt w cfg9.N = atTc (St18 m) c (Pipeline.arrRef spec9 w)
  | ⟨0, _⟩ => hF9_0 m c
  | ⟨1, _⟩ => hF9_1 m c
  | ⟨2, _⟩ => hF9_2 m c
  | ⟨3, _⟩ => hF9_3 m c
  | ⟨4, _⟩ => hF9_4 m c
  | ⟨5, _⟩ => hF9_5 m c

theorem hrest9 (c : Dev nD) : ∀ b, b ∉ Finset.univ.image (Pipeline.arrRef spec9) → atTc (St18 m) c b = atTc (St17 m) c b := fun b hb => by
  show St18 m c (Proc.devRef .tc b) = St17 m c (Proc.devRef .tc b)
  unfold St18; rw [Function.update_of_ne (ne_ref (fun e => hb (Finset.mem_image.mpr ⟨(5 : Fin 6), Finset.mem_univ _, (show Pipeline.arrRef spec9 5 = main_v99 from rfl).trans e.symm⟩)))]

/-! ## The proof data family and the thread state -/

/-- Every pipeline's proof data, each at its region's entry contents. -/
def pdats : (p : Fin 10) → (c : Dev nD) → Dat τ (Elt F) Unit ℕ (UR sig nD τ) ℕ (cfgs p) c
  | ⟨0, _⟩ => fun c => dat0 (atTc (St1 m)) c
  | ⟨1, _⟩ => fun c => dat1 (atTc (St3 m)) c
  | ⟨2, _⟩ => fun c => dat2 (atTc (St5 m)) c
  | ⟨3, _⟩ => fun c => dat3 (atTc (St6 m)) c
  | ⟨4, _⟩ => fun c => dat4 (atTc (St8 m)) c
  | ⟨5, _⟩ => fun c => dat5 (atTc (St10 m)) c
  | ⟨6, _⟩ => fun c => dat6 (atTc (St11 m)) c
  | ⟨7, _⟩ => fun c => dat7 (atTc (St13 m)) c
  | ⟨8, _⟩ => fun c => dat8 (atTc (St15 m)) c
  | ⟨9, _⟩ => fun c => dat9 (atTc (St17 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev Rest (c : Dev nD) : sProp 𝕄 := iprop((∃ r, prngReg c r) ∗ ∃ W, owes (c : Thread nD τ) (0 : CellTallies nD τ sig Unit) W)

set_option backward.isDefEq.respectTransparency.types false in
/-- Region 0 over the thread state: entered from every unscoped buffer at the contents before it, left at those contents with
    its output arrays at what the pipeline leaves; the generator register into the region's invariant and out; nothing owed. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (St1 m)) c).loose
  hwaits := Pipeline.hwaits_of_owed_zero _ _ _ _ L lv 0 fun _ _ => rfl
  pre c := iprop(StableHlo.held (c : Thread nD τ) (Pipeline.ucRefs τ sig) (St1 m c) ∗ Rest c)
  post c := iprop(StableHlo.held (c : Thread nD τ) (Pipeline.ucRefs τ sig) (St2 m c) ∗ Rest c)
  X c := iprop(∃ r, prngReg c r)
  Y c := iprop(∃ r, prngReg c r)
  Z c := Pipeline.unscopedRest (Ix := Unit) (Name := ℕ) (U := UR sig nD τ) (Lvl := ℕ) spec0 c (atTc (St1 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (atTc (St1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m 0 c).Φ 0 from hin0 (atTc (St1 m)) c)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ Pipeline.ΦA spec0 c from hout0 (atTc (St1 m)) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (atTc (St1 m) c) (atTc (St2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at those contents with
    its output arrays at what the pipeline leaves; the generator register into the region's invariant and out; nothing owed. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (St3 m)) c).loose
  hwaits := Pipeline.hwaits_of_owed_zero _ _ _ _ L lv 1 fun _ _ => rfl
  pre c := iprop(StableHlo.held (c : Thread nD τ) (Pipeline.ucRefs τ sig) (St3 m c) ∗ Rest c)
  post c := iprop(StableHlo.held (c : Thread nD τ) (Pipeline.ucRefs τ sig) (St4 m c) ∗ Rest c)
  X c := iprop(∃ r, prngReg c r)
  Y c := iprop(∃ r, prngReg c r)
  Z c := Pipeline.unscopedRest (Ix := Unit) (Name := ℕ) (U := UR sig nD τ) (Lvl := ℕ) spec1 c (atTc (St3 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (atTc (St3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (atTc (St3 m)) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (atTc (St3 m)) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (atTc (St3 m) c) (atTc (St4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at those contents with
    its output arrays at what the pipeline leaves; the generator register into the region's invariant and out; nothing owed. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (St5 m)) c).loose
  hwaits := Pipeline.hwaits_of_owed_zero _ _ _ _ L lv 2 fun _ _ => rfl
  pre c := iprop(StableHlo.held (c : Thread nD τ) (Pipeline.ucRefs τ sig) (St5 m c) ∗ Rest c)
  post c := iprop(StableHlo.held (c : Thread nD τ) (Pipeline.ucRefs τ sig) (St6 m c) ∗ Rest c)
  X c := iprop(∃ r, prngReg c r)
  Y c := iprop(∃ r, prngReg c r)
  Z c := Pipeline.unscopedRest (Ix := Unit) (Name := ℕ) (U := UR sig nD τ) (Lvl := ℕ) spec2 c (atTc (St5 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (atTc (St5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec2 c ⊢ (pdats m 2 c).Φ 0 from hin2 (atTc (St5 m)) c)
    unfold Pipeline.ΦA
    iintro ⟨Hp, -, Hr⟩
    isplitl [Hr]; · iexact Hr
    iexact Hp
  hout c := by
    rw [Pipeline.ownSems0_none]
    refine BIBase.Entails.trans (show (pdats m 2 c).Φ (Fin.last _) ⊢ Pipeline.ΦA spec2 c from hout2 (atTc (St5 m)) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (atTc (St5 m) c) (atTc (St6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents before it, left at those contents with
    its output arrays at what the pipeline leaves; the generator register into the region's invariant and out; nothing owed. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (St6 m)) c).loose
  hwaits := Pipeline.hwaits_of_owed_zero _ _ _ _ L lv 3 fun _ _ => rfl
  pre c := iprop(StableHlo.held (c : Thread nD τ) (Pipeline.ucRefs τ sig) (St6 m c) ∗ Rest c)
  post c := iprop(StableHlo.held (c : Thread nD τ) (Pipeline.ucRefs τ sig) (St7 m c) ∗ Rest c)
  X c := iprop(∃ r, prngReg c r)
  Y c := iprop(∃ r, prngReg c r)
  Z c := Pipeline.unscopedRest (Ix := Unit) (Name := ℕ) (U := UR sig nD τ) (Lvl := ℕ) spec3 c (atTc (St6 m) c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (atTc (St6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec3 c ⊢ (pdats m 3 c).Φ 0 from hin3 (atTc (St6 m)) c)
    unfold Pipeline.ΦA
    iintro ⟨Hp, -, Hr⟩
    isplitl [Hr]; · iexact Hr
    iexact Hp
  hout c := by
    rw [Pipeline.ownSems0_none]
    refine BIBase.Entails.trans (show (pdats m 3 c).Φ (Fin.last _) ⊢ Pipeline.ΦA spec3 c from hout3 (atTc (St6 m)) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (atTc (St6 m) c) (atTc (St7 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at the contents before it, left at those contents with
    its output arrays at what the pipeline leaves; the generator register into the region's invariant and out; nothing owed. -/
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atTc (St8 m)) c).loose
  hwaits := Pipeline.hwaits_of_owed_zero _ _ _ _ L lv 4 fun _ _ => rfl
  pre c := iprop(StableHlo.held (c : Thread nD τ) (Pipeline.ucRefs τ sig) (St8 m c) ∗ Rest c)
  post c := iprop(StableHlo.held (c : Thread nD τ) (Pipeline.ucRefs τ sig) (St9 m c) ∗ Rest c)
  X c := iprop(∃ r, prngReg c r)
  Y c := iprop(∃ r, prngReg c r)
  Z c := Pipeline.unscopedRest (Ix := Unit) (Name := ℕ) (U := UR sig nD τ) (Lvl := ℕ) spec4 c (atTc (St8 m) c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (atTc (St8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec4 c ⊢ (pdats m 4 c).Φ 0 from hin4 (atTc (St8 m)) c)
    unfold Pipeline.ΦA
    iintro ⟨Hp, -, Hr⟩
    isplitl [Hr]; · iexact Hr
    iexact Hp
  hout c := by
    rw [Pipeline.ownSems0_none]
    refine BIBase.Entails.trans (show (pdats m 4 c).Φ (Fin.last _) ⊢ Pipeline.ΦA spec4 c from hout4 (atTc (St8 m)) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (atTc (St8 m) c) (atTc (St9 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at the contents before it, left at those contents with
    its output arrays at what the pipeline leaves; the generator register into the region's invariant and out; nothing owed. -/
def reg5 : Pipeline.RegionSeg (pcfgs (F := F)) Gen.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (atTc (St10 m)) c).loose
  hwaits := Pipeline.hwaits_of_owed_zero _ _ _ _ L lv 5 fun _ _ => rfl
  pre c := iprop(StableHlo.held (c : Thread nD τ) (Pipeline.ucRefs τ sig) (St10 m c) ∗ Rest c)
  post c := iprop(StableHlo.held (c : Thread nD τ) (Pipeline.ucRefs τ sig) (St11 m c) ∗ Rest c)
  X c := iprop(∃ r, prngReg c r)
  Y c := iprop(∃ r, prngReg c r)
  Z c := Pipeline.unscopedRest (Ix := Unit) (Name := ℕ) (U := UR sig nD τ) (Lvl := ℕ) spec5 c (atTc (St10 m) c)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (atTc (St10 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec5 c ⊢ (pdats m 5 c).Φ 0 from hin5 (atTc (St10 m)) c)
    unfold Pipeline.ΦA
    iintro ⟨Hp, -, Hr⟩
    isplitl [Hr]; · iexact Hr
    iexact Hp
  hout c := by
    rw [Pipeline.ownSems0_none]
    refine BIBase.Entails.trans (show (pdats m 5 c).Φ (Fin.last _) ⊢ Pipeline.ΦA spec5 c from hout5 (atTc (St10 m)) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (atTc (St10 m) c) (atTc (St11 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at the contents before it, left at those contents with
    its output arrays at what the pipeline leaves; the generator register into the region's invariant and out; nothing owed. -/
def reg6 : Pipeline.RegionSeg (pcfgs (F := F)) Gen.adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (atTc (St11 m)) c).loose
  hwaits := Pipeline.hwaits_of_owed_zero _ _ _ _ L lv 6 fun _ _ => rfl
  pre c := iprop(StableHlo.held (c : Thread nD τ) (Pipeline.ucRefs τ sig) (St11 m c) ∗ Rest c)
  post c := iprop(StableHlo.held (c : Thread nD τ) (Pipeline.ucRefs τ sig) (St12 m c) ∗ Rest c)
  X c := iprop(∃ r, prngReg c r)
  Y c := iprop(∃ r, prngReg c r)
  Z c := Pipeline.unscopedRest (Ix := Unit) (Name := ℕ) (U := UR sig nD τ) (Lvl := ℕ) spec6 c (atTc (St11 m) c)
  hentry c := by
    rw [Pipeline.ownSems0_none]
    have hsplit := Pipeline.arrays_of_unscopedBufs (p := 6) (pcfgs (F := F)) Gen.adm (pdats m) launch6.win launch6.arr_whole c
      ((pdats m 6 c).share_full fun _ => rfl) (atTc (St11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec6 c ⊢ (pdats m 6 c).Φ 0 from hin6 (atTc (St11 m)) c)
    unfold Pipeline.ΦA
    iintro ⟨Hp, -, Hr⟩
    isplitl [Hr]; · iexact Hr
    iexact Hp
  hout c := by
    rw [Pipeline.ownSems0_none]
    refine BIBase.Entails.trans (show (pdats m 6 c).Φ (Fin.last _) ⊢ Pipeline.ΦA spec6 c from hout6 (atTc (St11 m)) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (pdats m) ((pdats m 6 c).share_full fun _ => rfl)
      (atTc (St11 m) c) (atTc (St12 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at the contents before it, left at those contents with
    its output arrays at what the pipeline leaves; the generator register into the region's invariant and out; nothing owed. -/
def reg7 : Pipeline.RegionSeg (pcfgs (F := F)) Gen.adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (atTc (St13 m)) c).loose
  hwaits := Pipeline.hwaits_of_owed_zero _ _ _ _ L lv 7 fun _ _ => rfl
  pre c := iprop(StableHlo.held (c : Thread nD τ) (Pipeline.ucRefs τ sig) (St13 m c) ∗ Rest c)
  post c := iprop(StableHlo.held (c : Thread nD τ) (Pipeline.ucRefs τ sig) (St14 m c) ∗ Rest c)
  X c := iprop(∃ r, prngReg c r)
  Y c := iprop(∃ r, prngReg c r)
  Z c := Pipeline.unscopedRest (Ix := Unit) (Name := ℕ) (U := UR sig nD τ) (Lvl := ℕ) spec7 c (atTc (St13 m) c)
  hentry c := by
    rw [Pipeline.ownSems0_none]
    have hsplit := Pipeline.arrays_of_unscopedBufs (p := 7) (pcfgs (F := F)) Gen.adm (pdats m) launch7.win launch7.arr_whole c
      ((pdats m 7 c).share_full fun _ => rfl) (atTc (St13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec7 c ⊢ (pdats m 7 c).Φ 0 from hin7 (atTc (St13 m)) c)
    unfold Pipeline.ΦA
    iintro ⟨Hp, -, Hr⟩
    isplitl [Hr]; · iexact Hr
    iexact Hp
  hout c := by
    rw [Pipeline.ownSems0_none]
    refine BIBase.Entails.trans (show (pdats m 7 c).Φ (Fin.last _) ⊢ Pipeline.ΦA spec7 c from hout7 (atTc (St13 m)) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) Gen.adm (Ix := Unit) (Name := ℕ) (U := UR sig nD τ) (Lvl := ℕ)
      launch7.win launch7.arr_whole c (pdats m) ((pdats m 7 c).share_full fun _ => rfl)
      (atTc (St13 m) c) (atTc (St14 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at the contents before it, left at those contents with
    its output arrays at what the pipeline leaves; the generator register into the region's invariant and out; nothing owed. -/
def reg8 : Pipeline.RegionSeg (pcfgs (F := F)) Gen.adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (atTc (St15 m)) c).loose
  hwaits := Pipeline.hwaits_of_owed_zero _ _ _ _ L lv 8 fun _ _ => rfl
  pre c := iprop(StableHlo.held (c : Thread nD τ) (Pipeline.ucRefs τ sig) (St15 m c) ∗ Rest c)
  post c := iprop(StableHlo.held (c : Thread nD τ) (Pipeline.ucRefs τ sig) (St16 m c) ∗ Rest c)
  X c := iprop(∃ r, prngReg c r)
  Y c := iprop(∃ r, prngReg c r)
  Z c := Pipeline.unscopedRest (Ix := Unit) (Name := ℕ) (U := UR sig nD τ) (Lvl := ℕ) spec8 c (atTc (St15 m) c)
  hentry c := by
    rw [Pipeline.ownSems0_none]
    have hsplit := Pipeline.arrays_of_unscopedBufs (p := 8) (pcfgs (F := F)) Gen.adm (pdats m) launch8.win launch8.arr_whole c
      ((pdats m 8 c).share_full fun _ => rfl) (atTc (St15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec8 c ⊢ (pdats m 8 c).Φ 0 from hin8 (atTc (St15 m)) c)
    unfold Pipeline.ΦA
    iintro ⟨Hp, -, Hr⟩
    isplitl [Hr]; · iexact Hr
    iexact Hp
  hout c := by
    rw [Pipeline.ownSems0_none]
    refine BIBase.Entails.trans (show (pdats m 8 c).Φ (Fin.last _) ⊢ Pipeline.ΦA spec8 c from hout8 (atTc (St15 m)) c) ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) Gen.adm (Ix := Unit) (Name := ℕ) (U := UR sig nD τ) (Lvl := ℕ)
      launch8.win launch8.arr_whole c (pdats m) ((pdats m 8 c).share_full fun _ => rfl)
      (atTc (St15 m) c) (atTc (St16 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at the contents before it, left at those contents with
    its output arrays at what the pipeline leaves; the generator register into the region's invariant and out; nothing owed. -/
def reg9 : Pipeline.RegionSeg (pcfgs (F := F)) Gen.adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (atTc (St17 m)) c).loose
  hwaits := Pipeline.hwaits_of_owed_zero _ _ _ _ L lv 9 fun _ _ => rfl
  pre c := iprop(StableHlo.held (c : Thread nD τ) (Pipeline.ucRefs τ sig) (St17 m c) ∗ Rest c)
  post c := iprop(StableHlo.held (c : Thread nD τ) (Pipeline.ucRefs τ sig) (St18 m c) ∗ Rest c)
  X c := iprop(∃ r, prngReg c r)
  Y c := iprop(∃ r, prngReg c r)
  Z c := Pipeline.unscopedRest (Ix := Unit) (Name := ℕ) (U := UR sig nD τ) (Lvl := ℕ) spec9 c (atTc (St17 m) c)
  hentry c := by
    rw [Pipeline.ownSems0_none]
    have hsplit := Pipeline.arrays_of_unscopedBufs (p := 9) (pcfgs (F := F)) Gen.adm (pdats m) launch9.win launch9.arr_whole c
      ((pdats m 9 c).share_full fun _ => rfl) (atTc (St17 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec9 c ⊢ (pdats m 9 c).Φ 0 from hin9 (atTc (St17 m)) c)
    unfold Pipeline.ΦA
    iintro ⟨Hp, -, Hr⟩
    isplitl [Hr]; · iexact Hr
    iexact Hp
  hout c := by
    rw [Pipeline.ownSems0_none]
    refine BIBase.Entails.trans (show (pdats m 9 c).Φ (Fin.last _) ⊢ Pipeline.ΦA spec9 c from hout9 (atTc (St17 m)) c) ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) Gen.adm (Ix := Unit) (Name := ℕ) (U := UR sig nD τ) (Lvl := ℕ)
      launch9.win launch9.arr_whole c (pdats m) ((pdats m 9 c).share_full fun _ => rfl)
      (atTc (St17 m) c) (atTc (St18 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Frame.lean ====
import proofs.«115763_j74259984548099_2_alg».proof.Proof.Gen.Kernel.Launch
import proofs.«115763_j74259984548099_2_alg».proof.Proof.Gen.Kernel.Skeleton
import proofs.«115763_j74259984548099_2_alg».proof.Proof.Gen.Kernel.Points
import proofs.«115763_j74259984548099_2_alg».proof.Proof.K.Regs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core makes the rest state: the generator register at its launch state, nothing owed. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (fun c => Rest (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- The frame: every weakly fair execution of @main ends, nothing faulting, every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Gen.frame_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj)) (hu₀ := hu₀)
    (E := fun _ c => Rest c) (hE0 := hE0 ρ) (hE10 := fun c => by iintro ⟨-, HO⟩; iexact HO)
    (reg0 m) (fun c => .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V6_eq]; exact .rfl) (fun c => by rw [V7_eq]; exact .rfl)
    (reg4 m) (fun c => by rw [V8_eq]; exact .rfl) (fun c => by rw [V9_eq]; exact .rfl)
    (reg5 m) (fun c => by rw [V10_eq]; exact .rfl) (fun c => by rw [V11_eq]; exact .rfl)
    (reg6 m) (fun c => by rw [V11_eq]; exact .rfl) (fun c => by rw [V12_eq]; exact .rfl)
    (reg7 m) (fun c => by rw [V13_eq]; exact .rfl) (fun c => by rw [V14_eq]; exact .rfl)
    (reg8 m) (fun c => by rw [V15_eq]; exact .rfl) (fun c => by rw [V16_eq]; exact .rfl)
    (reg9 m) (fun c => by rw [V17_eq]; exact .rfl) (fun c => by rw [V18_eq]; exact .rfl)

end Cert.Kernel.Hand

end
-- ==== Proof.KI.R0.lean ====
/- Region 0 of the kernel program: the proof data of its pipeline and the obligation of its body, stated at a
   parameter `V`, the TensorCore's buffer contents when the region is entered. -/
import proofs.«115763_j74259984548099_2_alg».proof.Proof.Gen.KernelIdeal.Launch
import proofs.«115763_j74259984548099_2_alg».proof.Proof.Gen.KernelIdeal.Skeleton
import proofs.«115763_j74259984548099_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: `_linear_scaled_kernel`, the rows' features times the weights, each row scaled, at the entry contents `V` -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: when the
    pipeline does not fetch, the block index has not moved and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: when the
    pipeline does not fetch, the block index has not moved and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: when the
    pipeline does not fetch, the block index has not moved and the body left the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each memref is read or written whole -/

abbrev r0_0 : Rect S5000x20 := Rect.unit (s := S5000x20) ![0, 0] S5000x20.size inb_S5000x20_S5000x20_0_0
abbrev r0_1 : Rect S20x128 := Rect.unit (s := S20x128) ![0, 0] S20x128.size inb_S20x128_S20x128_0_0
abbrev r0_2 : Rect S5000x1 := Rect.unit (s := S5000x1) ![0, 0] S5000x1.size inb_S5000x1_S5000x1_0_0
abbrev r0_3 : Rect S5000x128 := Rect.unit (s := S5000x128) ![0, 0] S5000x128.size inb_S5000x128_S5000x128_0_0

/-! ## What the body leaves in the output window's buffer -/

/-- Window 3's staging buffer after the body, from the input windows' blocks: its one store, of the payload
    computed from the three whole loads. -/
def out0_3 (x0 : Vec F S5000x20 .f32) (x1 : Vec F S20x128 .f32) (x2 : Vec F S5000x1 .f32) : Vec F S5000x128 .f32 :=
  View.canon [⟨r0_3, k0_pay1 (View.ld x0 r0_0) (View.ld x1 r0_1) (View.ld x2 r0_2)⟩]

/-- The store is of the whole buffer, so it covers it. -/
theorem cover0_3 (p0 : Vec F S5000x128 .f32) (y : S5000x128.Idx) :
    ∃ pc ∈ ([⟨r0_3, p0⟩] : List (View.Piece (Elt F) S5000x128 .f32)), y ∈ pc.1.set :=
  View.cover_of_tiled [⟨r0_3, p0⟩] S5000x128.size (by rfl) y

/-! ## The body's triple -/

set_option maxHeartbeats 1000000 in
/-- The kernel body on whole staging memrefs, the inputs' at read contents `xW` and the output's at anything, runs to
    the continuation holding the inputs' as they were and the output's at `out0_3` of the inputs'. -/
theorem sound_kernel0 (c : Dev nD) (E : Set ℕ) (i : grid0.Coords) (arg0 : Memref sig .tc .vmem S5000x20 .f32) (harg0 : arg0.IsWhole) (arg1 : Memref sig .tc .vmem S20x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x20 .f32) (x1 : Vec F S20x128 .f32) (x2 : Vec F S5000x1 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__linear_scaled_kernel i arg0 harg0 arg1 harg1 arg2 harg2 arg3 harg3) K := by
  simp only [cc0__linear_scaled_kernel_eq_skeleton]; unfold cc0__linear_scaled_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- The invariant at region entry and at region exit is the class's. -/
theorem hin0 (c : Dev nD) : Pipeline.ΦA spec0 c ⊢ (dat0 V c).Φ 0 := by
  dsimp only [dat0]; exact .rfl
theorem hout0 (c : Dev nD) : (dat0 V c).Φ (Fin.last cfg0.N) ⊢ Pipeline.ΦA spec0 c := by
  dsimp only [dat0]; exact .rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Run.lean ====
import proofs.«115763_j74259984548099_2_alg».proof.Proof.Gen.KernelIdeal.Launch
import proofs.«115763_j74259984548099_2_alg».proof.Proof.Gen.KernelIdeal.Skeleton
import proofs.«115763_j74259984548099_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (`cc1__combine_stats_kernel`): the conditions, the memrefs, the three whole-body runs -/

/-- The condition of the first `scf.if` (zero the two accumulators), from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 20 = 0 :=
  (by decide +kernel : ∀ t : Fin grid1.N, cond1_0 (grid1.coords t) ↔ t.val % 20 = 0)

/-- The condition of the last `scf.if` (copy the accumulators to the two statistics outputs). -/
abbrev cond1_1 (i : grid1.Coords) : Prop := k1_cond2 i = 1#1
/-- It holds at the last point only. -/
theorem hcond1_1 : ∀ t : Fin cfg1.N, cond1_1 (grid1.coords t) ↔ t.val % 20 = 19 :=
  (by decide +kernel : ∀ t : Fin grid1.N, cond1_1 (grid1.coords t) ↔ t.val % 20 = 19)

/-- Away from the last point the two statistics windows are idle and not written back; at it they are live. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-- Each window's current staging memref at point `t`, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S5000x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
/-- The two accumulators: whole scoped buffers of the kernel's own. -/
abbrev scM1_0 : Memref sig .tc .vmem S1x128 .f32 := Memref.whole cc1_scratch0
abbrev scM1_1 : Memref sig .tc .vmem S1x128 .f32 := Memref.whole cc1_scratch1
/-- One view per written buffer shape, through which contents are stated (the choice does not matter). -/
abbrev VO1_4 : View sig .tc .vmem S5000x128 .f32 := (Memref.whole cc1_stg4_0 : Memref sig .tc .vmem S5000x128 .f32).view
abbrev VO1_5 : View sig .tc .vmem S1x128 .f32 := (Memref.whole cc1_stg5_0 : Memref sig .tc .vmem S1x128 .f32).view
abbrev VO1_6 : View sig .tc .vmem S1x128 .f32 := (Memref.whole cc1_stg6_0 : Memref sig .tc .vmem S1x128 .f32).view
abbrev VS1_0 : View sig .tc .vmem S1x128 .f32 := scM1_0.view
abbrev VS1_1 : View sig .tc .vmem S1x128 .f32 := scM1_1.view

/-- The scoped rest that is neither accumulator: carried unopened. -/
abbrev restBut1 (c : Dev nD) : sProp 𝕄 :=
  Pipeline.scopedRestBut (Ix := Unit) (Name := ℕ) (U := UR sig nD τ) (Lvl := ℕ) (Val := Elt F) spec1 c [cc1_scratch0, cc1_scratch1]

/-- The class's invariant with the two accumulators as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ restBut1 (F := F) c) ∗ (∃ r, prngReg c r)) := by
  unfold Pipeline.ΦA; rw [scopedRest1_split]; simp only [scM1_0, scM1_1, owns_whole]; try rfl

set_option maxHeartbeats 4000000 in
/-- The first point: both conditionals decided (`scf.if` 0 taken, the last not); the accumulators are handed in at
    anything, the two statistics outputs are idle and handed back untouched; the pieces each written buffer ends with
    are the witness the run finds. -/
noncomputable def kernelRun1_A (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S5000x128 .f32) (x1 : Vec F S5000x128 .f32) (x2 : Vec F S5000x1 .f32) (x3 : Vec F S1x128 .f32) :
    Σ' (L4 : List (View.Piece (Elt F) S5000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__combine_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    haveI : Fact (cond1_0 i) := ⟨hc0⟩
    haveI : Fact (¬cond1_1 i) := ⟨hc1⟩
    simp only [cc1__combine_stats_kernel_eq_skeleton]; unfold cc1__combine_stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 4000000 in
/-- A middle point: neither conditional taken; the accumulators are handed in at what the point before left. -/
noncomputable def kernelRun1_B (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S5000x128 .f32) (x1 : Vec F S5000x128 .f32) (x2 : Vec F S5000x1 .f32) (x3 : Vec F S1x128 .f32) (xs0 xs1 : Vec F S1x128 .f32) :
    Σ' (L4 : List (View.Piece (Elt F) S5000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__combine_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    haveI : Fact (¬cond1_0 i) := ⟨hc0⟩
    haveI : Fact (¬cond1_1 i) := ⟨hc1⟩
    simp only [cc1__combine_stats_kernel_eq_skeleton]; unfold cc1__combine_stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 4000000 in
/-- The last point: the first conditional not taken, the last taken; the two statistics outputs are stored whole. -/
noncomputable def kernelRun1_C (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S5000x128 .f32) (x1 : Vec F S5000x128 .f32) (x2 : Vec F S5000x1 .f32) (x3 : Vec F S1x128 .f32) (xs0 xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__combine_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    haveI : Fact (¬cond1_0 i) := ⟨hc0⟩
    haveI : Fact (cond1_1 i) := ⟨hc1⟩
    simp only [cc1__combine_stats_kernel_eq_skeleton]; unfold cc1__combine_stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Hand

end
-- ==== Proof.KI.R1.lean ====
import proofs.«115763_j74259984548099_2_alg».proof.Proof.KI.R1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 of @main (`cc1__combine_stats_kernel`), at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The three runs at a point's memrefs and blocks -/

/-- The first point's run on the point's staging memrefs, the two accumulators and the four input blocks. -/
def runA1 (c : Dev nD) (t : Fin cfg1.N) (h0 : t.val % 20 = 0) (h1 : ¬t.val % 20 = 19) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)

/-- A middle point's, over what the point before left in the accumulators. -/
def runB1 (c : Dev nD) (t : Fin cfg1.N) (h0 : ¬t.val % 20 = 0) (h1 : ¬t.val % 20 = 19) (xs0 xs1 : Vec F S1x128 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) xs0 xs1

/-- The last point's. -/
def runC1 (c : Dev nD) (t : Fin cfg1.N) (h0 : ¬t.val % 20 = 0) (h1 : t.val % 20 = 19) (xs0 xs1 : Vec F S1x128 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) xs0 xs1

/-! ## The pieces cover each written buffer -/

theorem coverA1_4 (c : Dev nD) (t : Fin cfg1.N) (h0 : t.val % 20 = 0) (h1 : ¬t.val % 20 = 19) (y : S5000x128.Idx) :
    ∃ pc ∈ (runA1 V c t h0 h1).1, y ∈ pc.1.set :=
  View.cover_of_tiledL (runA1 V c t h0 h1).1 S5000x128.size (by sl_kernel_rfl) y
theorem scoverA1_0 (c : Dev nD) (t : Fin cfg1.N) (h0 : t.val % 20 = 0) (h1 : ¬t.val % 20 = 19) (y : S1x128.Idx) :
    ∃ pc ∈ (runA1 V c t h0 h1).2.1, y ∈ pc.1.set :=
  View.cover_of_tiledL (runA1 V c t h0 h1).2.1 S1x128.size (by sl_kernel_rfl) y
theorem scoverA1_1 (c : Dev nD) (t : Fin cfg1.N) (h0 : t.val % 20 = 0) (h1 : ¬t.val % 20 = 19) (y : S1x128.Idx) :
    ∃ pc ∈ (runA1 V c t h0 h1).2.2.1, y ∈ pc.1.set :=
  View.cover_of_tiledL (runA1 V c t h0 h1).2.2.1 S1x128.size (by sl_kernel_rfl) y

theorem coverB1_4 (c : Dev nD) (t : Fin cfg1.N) (h0 : ¬t.val % 20 = 0) (h1 : ¬t.val % 20 = 19) (xs0 xs1 : Vec F S1x128 .f32) (y : S5000x128.Idx) :
    ∃ pc ∈ (runB1 V c t h0 h1 xs0 xs1).1, y ∈ pc.1.set :=
  View.cover_of_tiledL (runB1 V c t h0 h1 xs0 xs1).1 S5000x128.size (by sl_kernel_rfl) y
theorem scoverB1_0 (c : Dev nD) (t : Fin cfg1.N) (h0 : ¬t.val % 20 = 0) (h1 : ¬t.val % 20 = 19) (xs0 xs1 : Vec F S1x128 .f32) (y : S1x128.Idx) :
    ∃ pc ∈ (runB1 V c t h0 h1 xs0 xs1).2.1, y ∈ pc.1.set :=
  View.cover_of_tiledL (runB1 V c t h0 h1 xs0 xs1).2.1 S1x128.size (by sl_kernel_rfl) y
theorem scoverB1_1 (c : Dev nD) (t : Fin cfg1.N) (h0 : ¬t.val % 20 = 0) (h1 : ¬t.val % 20 = 19) (xs0 xs1 : Vec F S1x128 .f32) (y : S1x128.Idx) :
    ∃ pc ∈ (runB1 V c t h0 h1 xs0 xs1).2.2.1, y ∈ pc.1.set :=
  View.cover_of_tiledL (runB1 V c t h0 h1 xs0 xs1).2.2.1 S1x128.size (by sl_kernel_rfl) y

theorem coverC1_4 (c : Dev nD) (t : Fin cfg1.N) (h0 : ¬t.val % 20 = 0) (h1 : t.val % 20 = 19) (xs0 xs1 : Vec F S1x128 .f32) (y : S5000x128.Idx) :
    ∃ pc ∈ (runC1 V c t h0 h1 xs0 xs1).1, y ∈ pc.1.set :=
  View.cover_of_tiledL (runC1 V c t h0 h1 xs0 xs1).1 S5000x128.size (by sl_kernel_rfl) y
theorem coverC1_5 (c : Dev nD) (t : Fin cfg1.N) (h0 : ¬t.val % 20 = 0) (h1 : t.val % 20 = 19) (xs0 xs1 : Vec F S1x128 .f32) (y : S1x128.Idx) :
    ∃ pc ∈ (runC1 V c t h0 h1 xs0 xs1).2.1, y ∈ pc.1.set :=
  View.cover_of_tiledL (runC1 V c t h0 h1 xs0 xs1).2.1 S1x128.size (by sl_kernel_rfl) y
theorem coverC1_6 (c : Dev nD) (t : Fin cfg1.N) (h0 : ¬t.val % 20 = 0) (h1 : t.val % 20 = 19) (xs0 xs1 : Vec F S1x128 .f32) (y : S1x128.Idx) :
    ∃ pc ∈ (runC1 V c t h0 h1 xs0 xs1).2.2.1, y ∈ pc.1.set :=
  View.cover_of_tiledL (runC1 V c t h0 h1 xs0 xs1).2.2.1 S1x128.size (by sl_kernel_rfl) y
theorem scoverC1_0 (c : Dev nD) (t : Fin cfg1.N) (h0 : ¬t.val % 20 = 0) (h1 : t.val % 20 = 19) (xs0 xs1 : Vec F S1x128 .f32) (y : S1x128.Idx) :
    ∃ pc ∈ (runC1 V c t h0 h1 xs0 xs1).2.2.2.1, y ∈ pc.1.set :=
  View.cover_of_tiledL (runC1 V c t h0 h1 xs0 xs1).2.2.2.1 S1x128.size (by sl_kernel_rfl) y
theorem scoverC1_1 (c : Dev nD) (t : Fin cfg1.N) (h0 : ¬t.val % 20 = 0) (h1 : t.val % 20 = 19) (xs0 xs1 : Vec F S1x128 .f32) (y : S1x128.Idx) :
    ∃ pc ∈ (runC1 V c t h0 h1 xs0 xs1).2.2.2.2.1, y ∈ pc.1.set :=
  View.cover_of_tiledL (runC1 V c t h0 h1 xs0 xs1).2.2.2.2.1 S1x128.size (by sl_kernel_rfl) y

/-! ## What each case leaves: (the aggregate block, the two statistics outputs, the two accumulators) -/

/-- A placeholder for a statistics output at a point where it is idle (nothing consults it there). -/
def idleOut1 : Vec F S1x128 .f32 := View.canon []

/-- What the first point leaves: each written buffer's pieces read as their canon. -/
def outA1 (c : Dev nD) (t : Fin cfg1.N) (h0 : t.val % 20 = 0) (h1 : ¬t.val % 20 = 19) : Vec F S5000x128 .f32 × Vec F S1x128 .f32 × Vec F S1x128 .f32 × Vec F S1x128 .f32 × Vec F S1x128 .f32 :=
  (View.canon (runA1 V c t h0 h1).1, idleOut1, idleOut1, View.canon (runA1 V c t h0 h1).2.1, View.canon (runA1 V c t h0 h1).2.2.1)

/-- What a middle point leaves. -/
def outB1 (c : Dev nD) (t : Fin cfg1.N) (h0 : ¬t.val % 20 = 0) (h1 : ¬t.val % 20 = 19) (xs0 xs1 : Vec F S1x128 .f32) : Vec F S5000x128 .f32 × Vec F S1x128 .f32 × Vec F S1x128 .f32 × Vec F S1x128 .f32 × Vec F S1x128 .f32 :=
  (View.canon (runB1 V c t h0 h1 xs0 xs1).1, idleOut1, idleOut1, View.canon (runB1 V c t h0 h1 xs0 xs1).2.1, View.canon (runB1 V c t h0 h1 xs0 xs1).2.2.1)

/-- What the last point leaves. -/
def outC1 (c : Dev nD) (t : Fin cfg1.N) (h0 : ¬t.val % 20 = 0) (h1 : t.val % 20 = 19) (xs0 xs1 : Vec F S1x128 .f32) : Vec F S5000x128 .f32 × Vec F S1x128 .f32 × Vec F S1x128 .f32 × Vec F S1x128 .f32 × Vec F S1x128 .f32 :=
  (View.canon (runC1 V c t h0 h1 xs0 xs1).1, View.canon (runC1 V c t h0 h1 xs0 xs1).2.1, View.canon (runC1 V c t h0 h1 xs0 xs1).2.2.1,
    View.canon (runC1 V c t h0 h1 xs0 xs1).2.2.2.1, View.canon (runC1 V c t h0 h1 xs0 xs1).2.2.2.2.1)

/-- THE ACCUMULATION: what the three output buffers and the two accumulators hold after the body at position `n`:
    the point's case, over what the point before left in the accumulators. -/
def outsAt1 (c : Dev nD) : (n : ℕ) → n < cfg1.N → Vec F S5000x128 .f32 × Vec F S1x128 .f32 × Vec F S1x128 .f32 × Vec F S1x128 .f32 × Vec F S1x128 .f32
  | 0, hn => outA1 V c ⟨0, hn⟩ (Nat.zero_mod _) (by show ¬(0 % 20 = 19); decide)
  | n + 1, hn =>
    if h1 : (n + 1) % 20 = 19 then
      outC1 V c ⟨n + 1, hn⟩ (by have hN : n + 1 < 20 := lt_of_lt_of_eq hn (show cfg1.N = 20 from N_1); show ¬((n + 1) % 20 = 0); omega) h1
        (outsAt1 c n (Nat.lt_of_succ_lt hn)).2.2.2.1 (outsAt1 c n (Nat.lt_of_succ_lt hn)).2.2.2.2
    else
      outB1 V c ⟨n + 1, hn⟩ (by have hN : n + 1 < 20 := lt_of_lt_of_eq hn (show cfg1.N = 20 from N_1); show ¬((n + 1) % 20 = 0); omega) h1
        (outsAt1 c n (Nat.lt_of_succ_lt hn)).2.2.2.1 (outsAt1 c n (Nat.lt_of_succ_lt hn)).2.2.2.2

theorem outsAt1_A (c : Dev nD) (t : Fin cfg1.N) (h0 : t.val % 20 = 0) (h1 : ¬t.val % 20 = 19) :
    outsAt1 V c t.val t.isLt = outA1 V c t h0 h1 := by
  obtain ⟨n, hn⟩ := t
  cases n with
  | zero => rfl
  | succ n => exfalso; have hN : n + 1 < 20 := lt_of_lt_of_eq hn (show cfg1.N = 20 from N_1); (try dsimp only at h0); omega

theorem outsAt1_B (c : Dev nD) (t : Fin cfg1.N) (h0 : ¬t.val % 20 = 0) (h1 : ¬t.val % 20 = 19) :
    outsAt1 V c t.val t.isLt = outB1 V c t h0 h1 (outsAt1 V c (t.val - 1) (Nat.lt_of_le_of_lt (Nat.sub_le _ _) t.isLt)).2.2.2.1
      (outsAt1 V c (t.val - 1) (Nat.lt_of_le_of_lt (Nat.sub_le _ _) t.isLt)).2.2.2.2 := by
  obtain ⟨n, hn⟩ := t
  cases n with
  | zero => exact absurd (Nat.zero_mod _) h0
  | succ n => exact (dif_neg h1).trans rfl

theorem outsAt1_C (c : Dev nD) (t : Fin cfg1.N) (h0 : ¬t.val % 20 = 0) (h1 : t.val % 20 = 19) :
    outsAt1 V c t.val t.isLt = outC1 V c t h0 h1 (outsAt1 V c (t.val - 1) (Nat.lt_of_le_of_lt (Nat.sub_le _ _) t.isLt)).2.2.2.1
      (outsAt1 V c (t.val - 1) (Nat.lt_of_le_of_lt (Nat.sub_le _ _) t.isLt)).2.2.2.2 := by
  obtain ⟨n, hn⟩ := t
  cases n with
  | zero => exact absurd (Nat.zero_mod _) h0
  | succ n => exact (dif_pos h1).trans rfl

/-! ## The invariant: the two accumulators carried between points -/

/-- Before the first point the class's invariant; afterwards the two accumulators at what the point before left, the
    rest of the scoped buffers unopened, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.2.1) ∗ owns (c : Thread nD τ) scM1_1 fullShare ((outsAt1 V c n hn).2.2.2.2)) ∗ restBut1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.2.1) ∗ owns (c : Thread nD τ) scM1_1 fullShare ((outsAt1 V c n hn).2.2.2.2)) ∗ restBut1 (F := F) c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.2.1) ∗ owns (c : Thread nD τ) scM1_1 fullShare ((outsAt1 V c (n - 1) (by omega)).2.2.2.2)) ∗ restBut1 (F := F) c) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the outputs' at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' memrefs hold their blocks; the closed forms say which case the point is in; the
    invariant hands the body the accumulators at what the point before left (at anything at the first point) and takes
    them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (ms1_0 t) fullShare ((dat1 V c).after 0 t) from rfl, after1_0,
    show (dat1 V c).leavesExact 1 t = owns (c : Thread nD τ) (ms1_1 t) fullShare ((dat1 V c).after 1 t) from rfl, after1_1,
    show (dat1 V c).leavesExact 2 t = owns (c : Thread nD τ) (ms1_2 t) fullShare ((dat1 V c).after 2 t) from rfl, after1_2,
    show (dat1 V c).leavesExact 3 t = owns (c : Thread nD τ) (ms1_3 t) fullShare ((dat1 V c).after 3 t) from rfl, after1_3,
    show (dat1 V c).leavesExact 4 t = owns (c : Thread nD τ) (ms1_4 t) fullShare ((dat1 V c).after 4 t) from rfl, after1_4]
  by_cases h0 : t.val % 20 = 0
  · have h1 : ¬t.val % 20 = 19 := by omega
    rw [Dat.leavesExact_idle (dat1 V c) 5 t (idleAt1_5 t (fun h => h1 ((hcond1_1 t).mp h))) (noFlush1_5 t (fun h => h1 ((hcond1_1 t).mp h)))]
    rw [Dat.leavesExact_idle (dat1 V c) 6 t (idleAt1_6 t (fun h => h1 ((hcond1_1 t).mp h))) (noFlush1_6 t (fun h => h1 ((hcond1_1 t).mp h)))]
    rw [outsAt1_A V c t h0 h1]
    unfold outA1; (try dsimp only)
    rw [PhiS1_castSucc V c t, PhiS1_zero V c _ _ (by omega), PhiA1_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((runA1 V c t h0 h1).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_eq_canon _ _ _ (scoverA1_0 V c t h0 h1)
          · unfold owns; iexists _; isplitr
            swap; · iexact HS1
            ipureintro; exact View.read_writes_eq_canon _ _ _ (scoverA1_1 V c t h0 h1)
        · iexact HR
      · iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_eq_canon _ _ _ (coverA1_4 V c t h0 h1)
    isplitl [H5]; · iexists _; iexact H5
    iexists _; iexact H6
  · by_cases h1 : t.val % 20 = 19
    ·
      rw [show (dat1 V c).leavesExact 5 t = owns (c : Thread nD τ) (ms1_5 t) fullShare ((dat1 V c).after 5 t) from by
            unfold Dat.leavesExact; rw [liveAt1_5 t ((hcond1_1 t).mpr h1)], after1_5]
      rw [show (dat1 V c).leavesExact 6 t = owns (c : Thread nD τ) (ms1_6 t) fullShare ((dat1 V c).after 6 t) from by
            unfold Dat.leavesExact; rw [liveAt1_6 t ((hcond1_1 t).mpr h1)], after1_6]
      rw [outsAt1_C V c t h0 h1]
      unfold outC1; (try dsimp only)
      rw [PhiS1_castSucc V c t, PhiS1_pos V c _ _ (by omega)]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runC1 V c t h0 h1 _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_eq_canon _ _ _ (scoverC1_0 V c t h0 h1 _ _)
            · unfold owns; iexists _; isplitr
              swap; · iexact HS1
              ipureintro; exact View.read_writes_eq_canon _ _ _ (scoverC1_1 V c t h0 h1 _ _)
          · iexact HR
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_eq_canon _ _ _ (coverC1_4 V c t h0 h1 _ _)
      isplitl [H5]
      · unfold owns; iexists _; isplitr
        swap; · iexact H5
        ipureintro; exact View.read_writes_eq_canon _ _ _ (coverC1_5 V c t h0 h1 _ _)
      unfold owns; iexists _; isplitr
      swap; · iexact H6
      ipureintro; exact View.read_writes_eq_canon _ _ _ (coverC1_6 V c t h0 h1 _ _)
    ·
      rw [Dat.leavesExact_idle (dat1 V c) 5 t (idleAt1_5 t (fun h => h1 ((hcond1_1 t).mp h))) (noFlush1_5 t (fun h => h1 ((hcond1_1 t).mp h)))]
      rw [Dat.leavesExact_idle (dat1 V c) 6 t (idleAt1_6 t (fun h => h1 ((hcond1_1 t).mp h))) (noFlush1_6 t (fun h => h1 ((hcond1_1 t).mp h)))]
      rw [outsAt1_B V c t h0 h1]
      unfold outB1; (try dsimp only)
      rw [PhiS1_castSucc V c t, PhiS1_pos V c _ _ (by omega)]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runB1 V c t h0 h1 _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_eq_canon _ _ _ (scoverB1_0 V c t h0 h1 _ _)
            · unfold owns; iexists _; isplitr
              swap; · iexact HS1
              ipureintro; exact View.read_writes_eq_canon _ _ _ (scoverB1_1 V c t h0 h1 _ _)
          · iexact HR
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_eq_canon _ _ _ (coverB1_4 V c t h0 h1 _ _)
      isplitl [H5]; · iexists _; iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end Cert.KernelIdeal.Hand

end
-- ==== Proof.KI.R2.lean ====
/- The normalise-scale-shift-rectify region 2 of the kernel program, at the buffer contents `V` found when the region is
   entered: each window's block at a grid point, what the body leaves in the output window's buffer as a function of the
   five input blocks, the body's triple, the pipeline's proof data and the body obligation at every grid point. The
   four statistics/affine rows (windows 1–4) have a constant block index, so their staging buffers hold the same row
   at every point although they are fetched only at the first. -/
import proofs.«115763_j74259984548099_2_alg».proof.Proof.Gen.KernelIdeal.Launch
import proofs.«115763_j74259984548099_2_alg».proof.Proof.Gen.KernelIdeal.Skeleton
import proofs.«115763_j74259984548099_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle whose long axis has 10000 coordinates recurses once per coordinate
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: where it is not fetched its block index has
    not moved, so the block of the previous point is the block of this one. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: where it is not fetched its block index has
    not moved, so the block of the previous point is the block of this one. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: where it is not fetched its block index has
    not moved, so the block of the previous point is the block of this one. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place: where it is not fetched its block index has
    not moved, so the block of the previous point is the block of this one. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place: where it is not fetched its block index has
    not moved, so the block of the previous point is the block of this one. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole [10000,128] block. -/
abbrev r2_0 : Rect S10000x128 := Rect.unit (s := S10000x128) ![0, 0] S10000x128.size inb_S10000x128_S10000x128_0_0
/-- The whole [1,128] row. -/
abbrev r2_1 : Rect S1x128 := Rect.unit (s := S1x128) ![0, 0] S1x128.size inb_S1x128_S1x128_0_0

/-! ## What the body leaves in the output window's buffer -/

/-- Window 5's staging buffer after the body, from the input windows' blocks (`x0` the feature block, `x1` the mean
    row, `x2` the variance row, `x3` the scale row, `x4` the shift row): its one store, of the whole block, of the
    payload `max ((x0 - x1) * rsqrt (x2 + ε) * x3 + x4) 0`. -/
def out2_5 (x0 : Vec F S10000x128 .f32) (x1 : Vec F S1x128 .f32) (x2 : Vec F S1x128 .f32) (x3 : Vec F S1x128 .f32) (x4 : Vec F S1x128 .f32) : Vec F S10000x128 .f32 :=
  View.canon [⟨r2_0, k2_pay1 (View.ld x0 r2_0) (View.ld x2 r2_1) (View.ld x1 r2_1) (View.ld x3 r2_1) (View.ld x4 r2_1)⟩]

/-- Its one store is of the whole buffer, so it covers it. -/
theorem cover2_5 (p0 : Vec F S10000x128 .f32) (y : S10000x128.Idx) :
    ∃ pc ∈ ([⟨r2_0, p0⟩] : List (View.Piece (Elt F) S10000x128 .f32)), y ∈ pc.1.set :=
  View.cover_of_tiled [⟨r2_0, p0⟩] S10000x128.size (by rfl) y

/-! ## The body's triple -/

set_option maxHeartbeats 1000000 in
/-- The kernel body on whole staging memrefs, the inputs' at read contents `xW` and the output's at anything, runs to
    the continuation holding the inputs' as they were and the output's at `out2_5` of the inputs'. -/
theorem sound_kernel2 (c : Dev nD) (E : Set ℕ) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole)
    (x0 : Vec F S10000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them (`V`); after the body at
    point `t` each input's buffer at its block and the output's at `out2_5` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's ends -/

/-- The class invariant is the proof data's at the first point, -/
theorem hin2 (c : Dev nD) : Pipeline.ΦA spec2 c ⊢ (dat2 V c).Φ 0 := .rfl

/-- and at the last. -/
theorem hout2 (c : Dev nD) : (dat2 V c).Φ (Fin.last cfg2.N) ⊢ Pipeline.ΦA spec2 c := .rfl

end Cert.KernelIdeal.Hand
-- ==== Proof.KI.R3.lean ====
/- Region 3 of the kernel program: the proof data of its pipeline and the obligation of its body, stated at a
   parameter `V`, the TensorCore's buffer contents when the region is entered. -/
import proofs.«115763_j74259984548099_2_alg».proof.Proof.Gen.KernelIdeal.Launch
import proofs.«115763_j74259984548099_2_alg».proof.Proof.Gen.KernelIdeal.Skeleton
import proofs.«115763_j74259984548099_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 3: `_linear_scaled_kernel`, the rows' features times the weights, each row scaled, at the entry contents `V` -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: when the
    pipeline does not fetch, the block index has not moved and the body left the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not: when the
    pipeline does not fetch, the block index has not moved and the body left the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not: when the
    pipeline does not fetch, the block index has not moved and the body left the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each memref is read or written whole -/

abbrev r3_0 : Rect S5000x128 := Rect.unit (s := S5000x128) ![0, 0] S5000x128.size inb_S5000x128_S5000x128_0_0
abbrev r3_1 : Rect S128x128 := Rect.unit (s := S128x128) ![0, 0] S128x128.size inb_S128x128_S128x128_0_0
abbrev r3_2 : Rect S5000x1 := Rect.unit (s := S5000x1) ![0, 0] S5000x1.size inb_S5000x1_S5000x1_0_0
abbrev r3_3 : Rect S5000x128 := Rect.unit (s := S5000x128) ![0, 0] S5000x128.size inb_S5000x128_S5000x128_0_0

/-! ## What the body leaves in the output window's buffer -/

/-- Window 3's staging buffer after the body, from the input windows' blocks: its one store, of the payload
    computed from the three whole loads. -/
def out3_3 (x0 : Vec F S5000x128 .f32) (x1 : Vec F S128x128 .f32) (x2 : Vec F S5000x1 .f32) : Vec F S5000x128 .f32 :=
  View.canon [⟨r3_3, k3_pay1 (View.ld x0 r3_0) (View.ld x1 r3_1) (View.ld x2 r3_2)⟩]

/-- The store is of the whole buffer, so it covers it. -/
theorem cover3_3 (p0 : Vec F S5000x128 .f32) (y : S5000x128.Idx) :
    ∃ pc ∈ ([⟨r3_3, p0⟩] : List (View.Piece (Elt F) S5000x128 .f32)), y ∈ pc.1.set :=
  View.cover_of_tiled [⟨r3_3, p0⟩] S5000x128.size (by rfl) y

/-! ## The body's triple -/

set_option maxHeartbeats 1000000 in
/-- The kernel body on whole staging memrefs, the inputs' at read contents `xW` and the output's at anything, runs to
    the continuation holding the inputs' as they were and the output's at `out3_3` of the inputs'. -/
theorem sound_kernel3 (c : Dev nD) (E : Set ℕ) (i : grid3.Coords) (arg0 : Memref sig .tc .vmem S5000x128 .f32) (harg0 : arg0.IsWhole) (arg1 : Memref sig .tc .vmem S128x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S128x128 .f32) (x2 : Vec F S5000x1 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out3_3 x0 x1 x2)) -∗ K ⟨⟩))
      ⊢ wp frame (wpE (defs₀ (F := F)) Variants.none c none) E (cc3__linear_scaled_kernel i arg0 harg0 arg1 harg1 arg2 harg2 arg3 harg3) K := by
  simp only [cc3__linear_scaled_kernel_eq_skeleton]; unfold cc3__linear_scaled_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at
    point `t` each input's buffer at its block and the output's at `out3_3` of the input blocks; the invariant is the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- The invariant at region entry and at region exit is the class's. -/
theorem hin3 (c : Dev nD) : Pipeline.ΦA spec3 c ⊢ (dat3 V c).Φ 0 := by
  dsimp only [dat3]; exact .rfl
theorem hout3 (c : Dev nD) : (dat3 V c).Φ (Fin.last cfg3.N) ⊢ Pipeline.ΦA spec3 c := by
  dsimp only [dat3]; exact .rfl

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4Run.lean ====
import proofs.«115763_j74259984548099_2_alg».proof.Proof.Gen.KernelIdeal.Launch
import proofs.«115763_j74259984548099_2_alg».proof.Proof.Gen.KernelIdeal.Skeleton
import proofs.«115763_j74259984548099_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4 (`cc4__combine_stats_kernel`): the conditions, the memrefs, the three whole-body runs -/

/-- The condition of the first `scf.if` (zero the two accumulators), from the grid coordinates. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val % 20 = 0 :=
  (by decide +kernel : ∀ t : Fin grid4.N, cond4_0 (grid4.coords t) ↔ t.val % 20 = 0)

/-- The condition of the last `scf.if` (copy the accumulators to the two statistics outputs). -/
abbrev cond4_1 (i : grid4.Coords) : Prop := k4_cond2 i = 1#1
/-- It holds at the last point only. -/
theorem hcond4_1 : ∀ t : Fin cfg4.N, cond4_1 (grid4.coords t) ↔ t.val % 20 = 19 :=
  (by decide +kernel : ∀ t : Fin grid4.N, cond4_1 (grid4.coords t) ↔ t.val % 20 = 19)

/-- Away from the last point the two statistics windows are idle and not written back; at it they are live. -/
theorem idleAt4_5 : ∀ t : Fin cfg4.N, ¬cond4_1 (grid4.coords t) → cfg4.idle 5 (grid4.coords t) = true := by decide +kernel
theorem noFlush4_5 : ∀ t : Fin cfg4.N, ¬cond4_1 (grid4.coords t) → (cfg4.win 5).flush t = false := by decide +kernel
theorem liveAt4_5 : ∀ t : Fin cfg4.N, cond4_1 (grid4.coords t) → cfg4.idle 5 (grid4.coords t) = false := by decide +kernel
theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
theorem liveAt4_6 : ∀ t : Fin cfg4.N, cond4_1 (grid4.coords t) → cfg4.idle 6 (grid4.coords t) = false := by decide +kernel

/-- Each window's current staging memref at point `t`, and its wholeness. -/
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S5000x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S5000x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x128 .f32 := win4_6.stage (cfg4.slots t 6)
abbrev hs4_6 (t : Fin cfg4.N) : (ms4_6 t).IsWhole := hstage4_6 ((cfg4.slots t 6).cast nbuf4_6)
/-- The two accumulators: whole scoped buffers of the kernel's own. -/
abbrev scM4_0 : Memref sig .tc .vmem S1x128 .f32 := Memref.whole cc4_scratch0
abbrev scM4_1 : Memref sig .tc .vmem S1x128 .f32 := Memref.whole cc4_scratch1
/-- One view per written buffer shape, through which contents are stated (the choice does not matter). -/
abbrev VO4_4 : View sig .tc .vmem S5000x128 .f32 := (Memref.whole cc4_stg4_0 : Memref sig .tc .vmem S5000x128 .f32).view
abbrev VO4_5 : View sig .tc .vmem S1x128 .f32 := (Memref.whole cc4_stg5_0 : Memref sig .tc .vmem S1x128 .f32).view
abbrev VO4_6 : View sig .tc .vmem S1x128 .f32 := (Memref.whole cc4_stg6_0 : Memref sig .tc .vmem S1x128 .f32).view
abbrev VS4_0 : View sig .tc .vmem S1x128 .f32 := scM4_0.view
abbrev VS4_1 : View sig .tc .vmem S1x128 .f32 := scM4_1.view

/-- The scoped rest that is neither accumulator: carried unopened. -/
abbrev restBut4 (c : Dev nD) : sProp 𝕄 :=
  Pipeline.scopedRestBut (Ix := Unit) (Name := ℕ) (U := UR sig nD τ) (Lvl := ℕ) (Val := Elt F) spec4 c [cc4_scratch0, cc4_scratch1]

/-- The class's invariant with the two accumulators as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ restBut4 (F := F) c) ∗ (∃ r, prngReg c r)) := by
  unfold Pipeline.ΦA; rw [scopedRest4_split]; simp only [scM4_0, scM4_1, owns_whole]; try rfl

set_option maxHeartbeats 4000000 in
/-- The first point: both conditionals decided (`scf.if` 0 taken, the last not); the accumulators are handed in at
    anything, the two statistics outputs are idle and handed back untouched; the pieces each written buffer ends with
    are the witness the run finds. -/
noncomputable def kernelRun4_A (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec F S5000x128 .f32) (x1 : Vec F S5000x128 .f32) (x2 : Vec F S5000x1 .f32) (x3 : Vec F S1x128 .f32) :
    Σ' (L4 : List (View.Piece (Elt F) S5000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__combine_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    haveI : Fact (cond4_0 i) := ⟨hc0⟩
    haveI : Fact (¬cond4_1 i) := ⟨hc1⟩
    simp only [cc4__combine_stats_kernel_eq_skeleton]; unfold cc4__combine_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 4000000 in
/-- A middle point: neither conditional taken; the accumulators are handed in at what the point before left. -/
noncomputable def kernelRun4_B (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec F S5000x128 .f32) (x1 : Vec F S5000x128 .f32) (x2 : Vec F S5000x1 .f32) (x3 : Vec F S1x128 .f32) (xs0 xs1 : Vec F S1x128 .f32) :
    Σ' (L4 : List (View.Piece (Elt F) S5000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__combine_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    haveI : Fact (¬cond4_0 i) := ⟨hc0⟩
    haveI : Fact (¬cond4_1 i) := ⟨hc1⟩
    simp only [cc4__combine_stats_kernel_eq_skeleton]; unfold cc4__combine_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 4000000 in
/-- The last point: the first conditional not taken, the last taken; the two statistics outputs are stored whole. -/
noncomputable def kernelRun4_C (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec F S5000x128 .f32) (x1 : Vec F S5000x128 .f32) (x2 : Vec F S5000x1 .f32) (x3 : Vec F S1x128 .f32) (xs0 xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__combine_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    haveI : Fact (¬cond4_0 i) := ⟨hc0⟩
    haveI : Fact (cond4_1 i) := ⟨hc1⟩
    simp only [cc4__combine_stats_kernel_eq_skeleton]; unfold cc4__combine_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Hand

end
-- ==== Proof.KI.R4.lean ====
import proofs.«115763_j74259984548099_2_alg».proof.Proof.KI.R4Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4 of @main (`cc4__combine_stats_kernel`), at the entry contents `V` -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The three runs at a point's memrefs and blocks -/

/-- The first point's run on the point's staging memrefs, the two accumulators and the four input blocks. -/
def runA4 (c : Dev nD) (t : Fin cfg4.N) (h0 : t.val % 20 = 0) (h1 : ¬t.val % 20 = 19) :=
  kernelRun4_A (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t)

/-- A middle point's, over what the point before left in the accumulators. -/
def runB4 (c : Dev nD) (t : Fin cfg4.N) (h0 : ¬t.val % 20 = 0) (h1 : ¬t.val % 20 = 19) (xs0 xs1 : Vec F S1x128 .f32) :=
  kernelRun4_B (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) xs0 xs1

/-- The last point's. -/
def runC4 (c : Dev nD) (t : Fin cfg4.N) (h0 : ¬t.val % 20 = 0) (h1 : t.val % 20 = 19) (xs0 xs1 : Vec F S1x128 .f32) :=
  kernelRun4_C (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) xs0 xs1

/-! ## The pieces cover each written buffer -/

theorem coverA4_4 (c : Dev nD) (t : Fin cfg4.N) (h0 : t.val % 20 = 0) (h1 : ¬t.val % 20 = 19) (y : S5000x128.Idx) :
    ∃ pc ∈ (runA4 V c t h0 h1).1, y ∈ pc.1.set :=
  View.cover_of_tiledL (runA4 V c t h0 h1).1 S5000x128.size (by sl_kernel_rfl) y
theorem scoverA4_0 (c : Dev nD) (t : Fin cfg4.N) (h0 : t.val % 20 = 0) (h1 : ¬t.val % 20 = 19) (y : S1x128.Idx) :
    ∃ pc ∈ (runA4 V c t h0 h1).2.1, y ∈ pc.1.set :=
  View.cover_of_tiledL (runA4 V c t h0 h1).2.1 S1x128.size (by sl_kernel_rfl) y
theorem scoverA4_1 (c : Dev nD) (t : Fin cfg4.N) (h0 : t.val % 20 = 0) (h1 : ¬t.val % 20 = 19) (y : S1x128.Idx) :
    ∃ pc ∈ (runA4 V c t h0 h1).2.2.1, y ∈ pc.1.set :=
  View.cover_of_tiledL (runA4 V c t h0 h1).2.2.1 S1x128.size (by sl_kernel_rfl) y

theorem coverB4_4 (c : Dev nD) (t : Fin cfg4.N) (h0 : ¬t.val % 20 = 0) (h1 : ¬t.val % 20 = 19) (xs0 xs1 : Vec F S1x128 .f32) (y : S5000x128.Idx) :
    ∃ pc ∈ (runB4 V c t h0 h1 xs0 xs1).1, y ∈ pc.1.set :=
  View.cover_of_tiledL (runB4 V c t h0 h1 xs0 xs1).1 S5000x128.size (by sl_kernel_rfl) y
theorem scoverB4_0 (c : Dev nD) (t : Fin cfg4.N) (h0 : ¬t.val % 20 = 0) (h1 : ¬t.val % 20 = 19) (xs0 xs1 : Vec F S1x128 .f32) (y : S1x128.Idx) :
    ∃ pc ∈ (runB4 V c t h0 h1 xs0 xs1).2.1, y ∈ pc.1.set :=
  View.cover_of_tiledL (runB4 V c t h0 h1 xs0 xs1).2.1 S1x128.size (by sl_kernel_rfl) y
theorem scoverB4_1 (c : Dev nD) (t : Fin cfg4.N) (h0 : ¬t.val % 20 = 0) (h1 : ¬t.val % 20 = 19) (xs0 xs1 : Vec F S1x128 .f32) (y : S1x128.Idx) :
    ∃ pc ∈ (runB4 V c t h0 h1 xs0 xs1).2.2.1, y ∈ pc.1.set :=
  View.cover_of_tiledL (runB4 V c t h0 h1 xs0 xs1).2.2.1 S1x128.size (by sl_kernel_rfl) y

theorem coverC4_4 (c : Dev nD) (t : Fin cfg4.N) (h0 : ¬t.val % 20 = 0) (h1 : t.val % 20 = 19) (xs0 xs1 : Vec F S1x128 .f32) (y : S5000x128.Idx) :
    ∃ pc ∈ (runC4 V c t h0 h1 xs0 xs1).1, y ∈ pc.1.set :=
  View.cover_of_tiledL (runC4 V c t h0 h1 xs0 xs1).1 S5000x128.size (by sl_kernel_rfl) y
theorem coverC4_5 (c : Dev nD) (t : Fin cfg4.N) (h0 : ¬t.val % 20 = 0) (h1 : t.val % 20 = 19) (xs0 xs1 : Vec F S1x128 .f32) (y : S1x128.Idx) :
    ∃ pc ∈ (runC4 V c t h0 h1 xs0 xs1).2.1, y ∈ pc.1.set :=
  View.cover_of_tiledL (runC4 V c t h0 h1 xs0 xs1).2.1 S1x128.size (by sl_kernel_rfl) y
theorem coverC4_6 (c : Dev nD) (t : Fin cfg4.N) (h0 : ¬t.val % 20 = 0) (h1 : t.val % 20 = 19) (xs0 xs1 : Vec F S1x128 .f32) (y : S1x128.Idx) :
    ∃ pc ∈ (runC4 V c t h0 h1 xs0 xs1).2.2.1, y ∈ pc.1.set :=
  View.cover_of_tiledL (runC4 V c t h0 h1 xs0 xs1).2.2.1 S1x128.size (by sl_kernel_rfl) y
theorem scoverC4_0 (c : Dev nD) (t : Fin cfg4.N) (h0 : ¬t.val % 20 = 0) (h1 : t.val % 20 = 19) (xs0 xs1 : Vec F S1x128 .f32) (y : S1x128.Idx) :
    ∃ pc ∈ (runC4 V c t h0 h1 xs0 xs1).2.2.2.1, y ∈ pc.1.set :=
  View.cover_of_tiledL (runC4 V c t h0 h1 xs0 xs1).2.2.2.1 S1x128.size (by sl_kernel_rfl) y
theorem scoverC4_1 (c : Dev nD) (t : Fin cfg4.N) (h0 : ¬t.val % 20 = 0) (h1 : t.val % 20 = 19) (xs0 xs1 : Vec F S1x128 .f32) (y : S1x128.Idx) :
    ∃ pc ∈ (runC4 V c t h0 h1 xs0 xs1).2.2.2.2.1, y ∈ pc.1.set :=
  View.cover_of_tiledL (runC4 V c t h0 h1 xs0 xs1).2.2.2.2.1 S1x128.size (by sl_kernel_rfl) y

/-! ## What each case leaves: (the aggregate block, the two statistics outputs, the two accumulators) -/

/-- A placeholder for a statistics output at a point where it is idle (nothing consults it there). -/
def idleOut4 : Vec F S1x128 .f32 := View.canon []

/-- What the first point leaves: each written buffer's pieces read as their canon. -/
def outA4 (c : Dev nD) (t : Fin cfg4.N) (h0 : t.val % 20 = 0) (h1 : ¬t.val % 20 = 19) : Vec F S5000x128 .f32 × Vec F S1x128 .f32 × Vec F S1x128 .f32 × Vec F S1x128 .f32 × Vec F S1x128 .f32 :=
  (View.canon (runA4 V c t h0 h1).1, idleOut4, idleOut4, View.canon (runA4 V c t h0 h1).2.1, View.canon (runA4 V c t h0 h1).2.2.1)

/-- What a middle point leaves. -/
def outB4 (c : Dev nD) (t : Fin cfg4.N) (h0 : ¬t.val % 20 = 0) (h1 : ¬t.val % 20 = 19) (xs0 xs1 : Vec F S1x128 .f32) : Vec F S5000x128 .f32 × Vec F S1x128 .f32 × Vec F S1x128 .f32 × Vec F S1x128 .f32 × Vec F S1x128 .f32 :=
  (View.canon (runB4 V c t h0 h1 xs0 xs1).1, idleOut4, idleOut4, View.canon (runB4 V c t h0 h1 xs0 xs1).2.1, View.canon (runB4 V c t h0 h1 xs0 xs1).2.2.1)

/-- What the last point leaves. -/
def outC4 (c : Dev nD) (t : Fin cfg4.N) (h0 : ¬t.val % 20 = 0) (h1 : t.val % 20 = 19) (xs0 xs1 : Vec F S1x128 .f32) : Vec F S5000x128 .f32 × Vec F S1x128 .f32 × Vec F S1x128 .f32 × Vec F S1x128 .f32 × Vec F S1x128 .f32 :=
  (View.canon (runC4 V c t h0 h1 xs0 xs1).1, View.canon (runC4 V c t h0 h1 xs0 xs1).2.1, View.canon (runC4 V c t h0 h1 xs0 xs1).2.2.1,
    View.canon (runC4 V c t h0 h1 xs0 xs1).2.2.2.1, View.canon (runC4 V c t h0 h1 xs0 xs1).2.2.2.2.1)

/-- THE ACCUMULATION: what the three output buffers and the two accumulators hold after the body at position `n`:
    the point's case, over what the point before left in the accumulators. -/
def outsAt4 (c : Dev nD) : (n : ℕ) → n < cfg4.N → Vec F S5000x128 .f32 × Vec F S1x128 .f32 × Vec F S1x128 .f32 × Vec F S1x128 .f32 × Vec F S1x128 .f32
  | 0, hn => outA4 V c ⟨0, hn⟩ (Nat.zero_mod _) (by show ¬(0 % 20 = 19); decide)
  | n + 1, hn =>
    if h1 : (n + 1) % 20 = 19 then
      outC4 V c ⟨n + 1, hn⟩ (by have hN : n + 1 < 20 := lt_of_lt_of_eq hn (show cfg4.N = 20 from N_4); show ¬((n + 1) % 20 = 0); omega) h1
        (outsAt4 c n (Nat.lt_of_succ_lt hn)).2.2.2.1 (outsAt4 c n (Nat.lt_of_succ_lt hn)).2.2.2.2
    else
      outB4 V c ⟨n + 1, hn⟩ (by have hN : n + 1 < 20 := lt_of_lt_of_eq hn (show cfg4.N = 20 from N_4); show ¬((n + 1) % 20 = 0); omega) h1
        (outsAt4 c n (Nat.lt_of_succ_lt hn)).2.2.2.1 (outsAt4 c n (Nat.lt_of_succ_lt hn)).2.2.2.2

theorem outsAt4_A (c : Dev nD) (t : Fin cfg4.N) (h0 : t.val % 20 = 0) (h1 : ¬t.val % 20 = 19) :
    outsAt4 V c t.val t.isLt = outA4 V c t h0 h1 := by
  obtain ⟨n, hn⟩ := t
  cases n with
  | zero => rfl
  | succ n => exfalso; have hN : n + 1 < 20 := lt_of_lt_of_eq hn (show cfg4.N = 20 from N_4); (try dsimp only at h0); omega

theorem outsAt4_B (c : Dev nD) (t : Fin cfg4.N) (h0 : ¬t.val % 20 = 0) (h1 : ¬t.val % 20 = 19) :
    outsAt4 V c t.val t.isLt = outB4 V c t h0 h1 (outsAt4 V c (t.val - 1) (Nat.lt_of_le_of_lt (Nat.sub_le _ _) t.isLt)).2.2.2.1
      (outsAt4 V c (t.val - 1) (Nat.lt_of_le_of_lt (Nat.sub_le _ _) t.isLt)).2.2.2.2 := by
  obtain ⟨n, hn⟩ := t
  cases n with
  | zero => exact absurd (Nat.zero_mod _) h0
  | succ n => exact (dif_neg h1).trans rfl

theorem outsAt4_C (c : Dev nD) (t : Fin cfg4.N) (h0 : ¬t.val % 20 = 0) (h1 : t.val % 20 = 19) :
    outsAt4 V c t.val t.isLt = outC4 V c t h0 h1 (outsAt4 V c (t.val - 1) (Nat.lt_of_le_of_lt (Nat.sub_le _ _) t.isLt)).2.2.2.1
      (outsAt4 V c (t.val - 1) (Nat.lt_of_le_of_lt (Nat.sub_le _ _) t.isLt)).2.2.2.2 := by
  obtain ⟨n, hn⟩ := t
  cases n with
  | zero => exact absurd (Nat.zero_mod _) h0
  | succ n => exact (dif_pos h1).trans rfl

/-! ## The invariant: the two accumulators carried between points -/

/-- Before the first point the class's invariant; afterwards the two accumulators at what the point before left, the
    rest of the scoped buffers unopened, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.2.1) ∗ owns (c : Thread nD τ) scM4_1 fullShare ((outsAt4 V c n hn).2.2.2.2)) ∗ restBut4 (F := F) c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare ((outsAt4 V c n hn).2.2.2.1) ∗ owns (c : Thread nD τ) scM4_1 fullShare ((outsAt4 V c n hn).2.2.2.2)) ∗ restBut4 (F := F) c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.2.1) ∗ owns (c : Thread nD τ) scM4_1 fullShare ((outsAt4 V c (n - 1) (by omega)).2.2.2.2)) ∗ restBut4 (F := F) c) ∗ (∃ r, prngReg c r)) := by
  cases n with
  | zero => exact absurd rfl hz
  | succ n => rfl

/-! ## The pipeline's proof data -/

/-- The proof data of pipeline 4 on core `c`: the arrays as the region finds them (`V`); after the body at point `t`
    each input's buffer at its block and the outputs' at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
    | ⟨5, _⟩ => (outsAt4 V c t.val t.isLt).2.1
    | ⟨6, _⟩ => (outsAt4 V c t.val t.isLt).2.2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem after4_5 (c : Dev nD) (t : Fin cfg4.N) : (dat4 V c).after 5 t = (outsAt4 V c t.val t.isLt).2.1 := by dsimp only [dat4]
theorem after4_6 (c : Dev nD) (t : Fin cfg4.N) : (dat4 V c).after 6 t = (outsAt4 V c t.val t.isLt).2.2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4800000 in
/-- The body at any point: the inputs' memrefs hold their blocks; the closed forms say which case the point is in; the
    invariant hands the body the accumulators at what the point before left (at anything at the first point) and takes
    them back at this point's contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  rw [show (dat4 V c).leavesExact 0 t = owns (c : Thread nD τ) (ms4_0 t) fullShare ((dat4 V c).after 0 t) from rfl, after4_0,
    show (dat4 V c).leavesExact 1 t = owns (c : Thread nD τ) (ms4_1 t) fullShare ((dat4 V c).after 1 t) from rfl, after4_1,
    show (dat4 V c).leavesExact 2 t = owns (c : Thread nD τ) (ms4_2 t) fullShare ((dat4 V c).after 2 t) from rfl, after4_2,
    show (dat4 V c).leavesExact 3 t = owns (c : Thread nD τ) (ms4_3 t) fullShare ((dat4 V c).after 3 t) from rfl, after4_3,
    show (dat4 V c).leavesExact 4 t = owns (c : Thread nD τ) (ms4_4 t) fullShare ((dat4 V c).after 4 t) from rfl, after4_4]
  by_cases h0 : t.val % 20 = 0
  · have h1 : ¬t.val % 20 = 19 := by omega
    rw [Dat.leavesExact_idle (dat4 V c) 5 t (idleAt4_5 t (fun h => h1 ((hcond4_1 t).mp h))) (noFlush4_5 t (fun h => h1 ((hcond4_1 t).mp h)))]
    rw [Dat.leavesExact_idle (dat4 V c) 6 t (idleAt4_6 t (fun h => h1 ((hcond4_1 t).mp h))) (noFlush4_6 t (fun h => h1 ((hcond4_1 t).mp h)))]
    rw [outsAt4_A V c t h0 h1]
    unfold outA4; (try dsimp only)
    rw [PhiS4_castSucc V c t, PhiS4_zero V c _ _ (by omega), PhiA4_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((runA4 V c t h0 h1).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_eq_canon _ _ _ (scoverA4_0 V c t h0 h1)
          · unfold owns; iexists _; isplitr
            swap; · iexact HS1
            ipureintro; exact View.read_writes_eq_canon _ _ _ (scoverA4_1 V c t h0 h1)
        · iexact HR
      · iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_eq_canon _ _ _ (coverA4_4 V c t h0 h1)
    isplitl [H5]; · iexists _; iexact H5
    iexists _; iexact H6
  · by_cases h1 : t.val % 20 = 19
    ·
      rw [show (dat4 V c).leavesExact 5 t = owns (c : Thread nD τ) (ms4_5 t) fullShare ((dat4 V c).after 5 t) from by
            unfold Dat.leavesExact; rw [liveAt4_5 t ((hcond4_1 t).mpr h1)], after4_5]
      rw [show (dat4 V c).leavesExact 6 t = owns (c : Thread nD τ) (ms4_6 t) fullShare ((dat4 V c).after 6 t) from by
            unfold Dat.leavesExact; rw [liveAt4_6 t ((hcond4_1 t).mpr h1)], after4_6]
      rw [outsAt4_C V c t h0 h1]
      unfold outC4; (try dsimp only)
      rw [PhiS4_castSucc V c t, PhiS4_pos V c _ _ (by omega)]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runC4 V c t h0 h1 _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_eq_canon _ _ _ (scoverC4_0 V c t h0 h1 _ _)
            · unfold owns; iexists _; isplitr
              swap; · iexact HS1
              ipureintro; exact View.read_writes_eq_canon _ _ _ (scoverC4_1 V c t h0 h1 _ _)
          · iexact HR
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_eq_canon _ _ _ (coverC4_4 V c t h0 h1 _ _)
      isplitl [H5]
      · unfold owns; iexists _; isplitr
        swap; · iexact H5
        ipureintro; exact View.read_writes_eq_canon _ _ _ (coverC4_5 V c t h0 h1 _ _)
      unfold owns; iexists _; isplitr
      swap; · iexact H6
      ipureintro; exact View.read_writes_eq_canon _ _ _ (coverC4_6 V c t h0 h1 _ _)
    ·
      rw [Dat.leavesExact_idle (dat4 V c) 5 t (idleAt4_5 t (fun h => h1 ((hcond4_1 t).mp h))) (noFlush4_5 t (fun h => h1 ((hcond4_1 t).mp h)))]
      rw [Dat.leavesExact_idle (dat4 V c) 6 t (idleAt4_6 t (fun h => h1 ((hcond4_1 t).mp h))) (noFlush4_6 t (fun h => h1 ((hcond4_1 t).mp h)))]
      rw [outsAt4_B V c t h0 h1]
      unfold outB4; (try dsimp only)
      rw [PhiS4_castSucc V c t, PhiS4_pos V c _ _ (by omega)]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runB4 V c t h0 h1 _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_eq_canon _ _ _ (scoverB4_0 V c t h0 h1 _ _)
            · unfold owns; iexists _; isplitr
              swap; · iexact HS1
              ipureintro; exact View.read_writes_eq_canon _ _ _ (scoverB4_1 V c t h0 h1 _ _)
          · iexact HR
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_eq_canon _ _ _ (coverB4_4 V c t h0 h1 _ _)
      isplitl [H5]; · iexists _; iexact H5
      iexists _; iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the accumulators' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 20 := N_4; omega)

end Cert.KernelIdeal.Hand

end
-- ==== Proof.KI.R5.lean ====
/- The normalise-scale-shift-rectify region 5 of the kernel program, at the buffer contents `V` found when the region is
   entered: each window's block at a grid point, what the body leaves in the output window's buffer as a function of the
   five input blocks, the body's triple, the pipeline's proof data and the body obligation at every grid point. The
   four statistics/affine rows (windows 1–4) have a constant block index, so their staging buffers hold the same row
   at every point although they are fetched only at the first. -/
import proofs.«115763_j74259984548099_2_alg».proof.Proof.Gen.KernelIdeal.Launch
import proofs.«115763_j74259984548099_2_alg».proof.Proof.Gen.KernelIdeal.Skeleton
import proofs.«115763_j74259984548099_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle whose long axis has 10000 coordinates recurses once per coordinate
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s and whose body leaves the block in place: where it is not fetched its block index has
    not moved, so the block of the previous point is the block of this one. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s and whose body leaves the block in place: where it is not fetched its block index has
    not moved, so the block of the previous point is the block of this one. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s and whose body leaves the block in place: where it is not fetched its block index has
    not moved, so the block of the previous point is the block of this one. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s and whose body leaves the block in place: where it is not fetched its block index has
    not moved, so the block of the previous point is the block of this one. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s and whose body leaves the block in place: where it is not fetched its block index has
    not moved, so the block of the previous point is the block of this one. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole [10000,128] block. -/
abbrev r5_0 : Rect S10000x128 := Rect.unit (s := S10000x128) ![0, 0] S10000x128.size inb_S10000x128_S10000x128_0_0
/-- The whole [1,128] row. -/
abbrev r5_1 : Rect S1x128 := Rect.unit (s := S1x128) ![0, 0] S1x128.size inb_S1x128_S1x128_0_0

/-! ## What the body leaves in the output window's buffer -/

/-- Window 5's staging buffer after the body, from the input windows' blocks (`x0` the feature block, `x1` the mean
    row, `x2` the variance row, `x3` the scale row, `x4` the shift row): its one store, of the whole block, of the
    payload `max ((x0 - x1) * rsqrt (x2 + ε) * x3 + x4) 0`. -/
def out5_5 (x0 : Vec F S10000x128 .f32) (x1 : Vec F S1x128 .f32) (x2 : Vec F S1x128 .f32) (x3 : Vec F S1x128 .f32) (x4 : Vec F S1x128 .f32) : Vec F S10000x128 .f32 :=
  View.canon [⟨r5_0, k5_pay1 (View.ld x0 r5_0) (View.ld x2 r5_1) (View.ld x1 r5_1) (View.ld x3 r5_1) (View.ld x4 r5_1)⟩]

/-- Its one store is of the whole buffer, so it covers it. -/
theorem cover5_5 (p0 : Vec F S10000x128 .f32) (y : S10000x128.Idx) :
    ∃ pc ∈ ([⟨r5_0, p0⟩] : List (View.Piece (Elt F) S10000x128 .f32)), y ∈ pc.1.set :=
  View.cover_of_tiled [⟨r5_0, p0⟩] S10000x128.size (by rfl) y

/-! ## The body's triple -/

set_option maxHeartbeats 1000000 in
/-- The kernel body on whole staging memrefs, the inputs' at read contents `xW` and the output's at anything, runs to
    the continuation holding the inputs' as they were and the output's at `out5_5` of the inputs'. -/
theorem sound_kernel5 (c : Dev nD) (E : Set ℕ) (i : grid5.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole)
    (x0 : Vec F S10000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them (`V`); after the body at
    point `t` each input's buffer at its block and the output's at `out5_5` of the input blocks; the invariant the
    scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The invariant at the region's ends -/

/-- The class invariant is the proof data's at the first point, -/
theorem hin5 (c : Dev nD) : Pipeline.ΦA spec5 c ⊢ (dat5 V c).Φ 0 := .rfl

/-- and at the last. -/
theorem hout5 (c : Dev nD) : (dat5 V c).Φ (Fin.last cfg5.N) ⊢ Pipeline.ΦA spec5 c := .rfl

end Cert.KernelIdeal.Hand
-- ==== Proof.KI.R6.lean ====
/- Region 6 of the kernel program: the proof data of its pipeline and the obligation of its body, stated at a
   parameter `V`, the TensorCore's buffer contents when the region is entered. -/
import proofs.«115763_j74259984548099_2_alg».proof.Proof.Gen.KernelIdeal.Launch
import proofs.«115763_j74259984548099_2_alg».proof.Proof.Gen.KernelIdeal.Skeleton
import proofs.«115763_j74259984548099_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 6: `_linear_scaled_kernel`, the rows' features times the weights, each row scaled, at the entry contents `V` -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not: when the
    pipeline does not fetch, the block index has not moved and the body left the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not: when the
    pipeline does not fetch, the block index has not moved and the body left the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not: when the
    pipeline does not fetch, the block index has not moved and the body left the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each memref is read or written whole -/

abbrev r6_0 : Rect S5000x128 := Rect.unit (s := S5000x128) ![0, 0] S5000x128.size inb_S5000x128_S5000x128_0_0
abbrev r6_1 : Rect S128x128 := Rect.unit (s := S128x128) ![0, 0] S128x128.size inb_S128x128_S128x128_0_0
abbrev r6_2 : Rect S5000x1 := Rect.unit (s := S5000x1) ![0, 0] S5000x1.size inb_S5000x1_S5000x1_0_0
abbrev r6_3 : Rect S5000x128 := Rect.unit (s := S5000x128) ![0, 0] S5000x128.size inb_S5000x128_S5000x128_0_0

/-! ## What the body leaves in the output window's buffer -/

/-- Window 3's staging buffer after the body, from the input windows' blocks: its one store, of the payload
    computed from the three whole loads. -/
def out6_3 (x0 : Vec F S5000x128 .f32) (x1 : Vec F S128x128 .f32) (x2 : Vec F S5000x1 .f32) : Vec F S5000x128 .f32 :=
  View.canon [⟨r6_3, k6_pay1 (View.ld x0 r6_0) (View.ld x1 r6_1) (View.ld x2 r6_2)⟩]

/-- The store is of the whole buffer, so it covers it. -/
theorem cover6_3 (p0 : Vec F S5000x128 .f32) (y : S5000x128.Idx) :
    ∃ pc ∈ ([⟨r6_3, p0⟩] : List (View.Piece (Elt F) S5000x128 .f32)), y ∈ pc.1.set :=
  View.cover_of_tiled [⟨r6_3, p0⟩] S5000x128.size (by rfl) y

/-! ## The body's triple -/

set_option maxHeartbeats 1000000 in
/-- The kernel body on whole staging memrefs, the inputs' at read contents `xW` and the output's at anything, runs to
    the continuation holding the inputs' as they were and the output's at `out6_3` of the inputs'. -/
theorem sound_kernel6 (c : Dev nD) (E : Set ℕ) (i : grid6.Coords) (arg0 : Memref sig .tc .vmem S5000x128 .f32) (harg0 : arg0.IsWhole) (arg1 : Memref sig .tc .vmem S128x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S128x128 .f32) (x2 : Vec F S5000x1 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out6_3 x0 x1 x2)) -∗ K ⟨⟩))
      ⊢ wp frame (wpE (defs₀ (F := F)) Variants.none c none) E (cc6__linear_scaled_kernel i arg0 harg0 arg1 harg1 arg2 harg2 arg3 harg3) K := by
  simp only [cc6__linear_scaled_kernel_eq_skeleton]; unfold cc6__linear_scaled_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of pipeline 6 on core `c`: the arrays as the region finds them (`V`); after the body at
    point `t` each input's buffer at its block and the output's at `out6_3` of the input blocks; the invariant is the
    scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- The invariant at region entry and at region exit is the class's. -/
theorem hin6 (c : Dev nD) : Pipeline.ΦA spec6 c ⊢ (dat6 V c).Φ 0 := by
  dsimp only [dat6]; exact .rfl
theorem hout6 (c : Dev nD) : (dat6 V c).Φ (Fin.last cfg6.N) ⊢ Pipeline.ΦA spec6 c := by
  dsimp only [dat6]; exact .rfl

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so `sound_kernel6` applies; the invariant and
    the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.R7Run.lean ====
import proofs.«115763_j74259984548099_2_alg».proof.Proof.Gen.KernelIdeal.Launch
import proofs.«115763_j74259984548099_2_alg».proof.Proof.Gen.KernelIdeal.Skeleton
import proofs.«115763_j74259984548099_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7 (`cc7__combine_stats_kernel`): the conditions, the memrefs, the three whole-body runs -/

/-- The condition of the first `scf.if` (zero the two accumulators), from the grid coordinates. -/
abbrev cond7_0 (i : grid7.Coords) : Prop := (Scalar.cmpi .ne (Scalar.extui (Scalar.cmpi .eq (BitVec.ofNat 32 (i 0).val) 0#32)) 0#32) = 1#1
/-- It holds at the first point only. -/
theorem hcond7_0 : ∀ t : Fin cfg7.N, cond7_0 (grid7.coords t) ↔ t.val % 20 = 0 :=
  (by decide +kernel : ∀ t : Fin grid7.N, cond7_0 (grid7.coords t) ↔ t.val % 20 = 0)

/-- The condition of the last `scf.if` (copy the accumulators to the two statistics outputs). -/
abbrev cond7_1 (i : grid7.Coords) : Prop := k7_cond2 i = 1#1
/-- It holds at the last point only. -/
theorem hcond7_1 : ∀ t : Fin cfg7.N, cond7_1 (grid7.coords t) ↔ t.val % 20 = 19 :=
  (by decide +kernel : ∀ t : Fin grid7.N, cond7_1 (grid7.coords t) ↔ t.val % 20 = 19)

/-- Away from the last point the two statistics windows are idle and not written back; at it they are live. -/
theorem idleAt7_5 : ∀ t : Fin cfg7.N, ¬cond7_1 (grid7.coords t) → cfg7.idle 5 (grid7.coords t) = true := by decide +kernel
theorem noFlush7_5 : ∀ t : Fin cfg7.N, ¬cond7_1 (grid7.coords t) → (cfg7.win 5).flush t = false := by decide +kernel
theorem liveAt7_5 : ∀ t : Fin cfg7.N, cond7_1 (grid7.coords t) → cfg7.idle 5 (grid7.coords t) = false := by decide +kernel
theorem idleAt7_6 : ∀ t : Fin cfg7.N, ¬cond7_1 (grid7.coords t) → cfg7.idle 6 (grid7.coords t) = true := by decide +kernel
theorem noFlush7_6 : ∀ t : Fin cfg7.N, ¬cond7_1 (grid7.coords t) → (cfg7.win 6).flush t = false := by decide +kernel
theorem liveAt7_6 : ∀ t : Fin cfg7.N, cond7_1 (grid7.coords t) → cfg7.idle 6 (grid7.coords t) = false := by decide +kernel

/-- Each window's current staging memref at point `t`, and its wholeness. -/
abbrev ms7_0 (t : Fin cfg7.N) : Memref sig .tc .vmem S5000x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S5000x128 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S5000x1 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x128 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S5000x128 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S1x128 .f32 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S1x128 .f32 := win7_6.stage (cfg7.slots t 6)
abbrev hs7_6 (t : Fin cfg7.N) : (ms7_6 t).IsWhole := hstage7_6 ((cfg7.slots t 6).cast nbuf7_6)
/-- The two accumulators: whole scoped buffers of the kernel's own. -/
abbrev scM7_0 : Memref sig .tc .vmem S1x128 .f32 := Memref.whole cc7_scratch0
abbrev scM7_1 : Memref sig .tc .vmem S1x128 .f32 := Memref.whole cc7_scratch1
/-- One view per written buffer shape, through which contents are stated (the choice does not matter). -/
abbrev VO7_4 : View sig .tc .vmem S5000x128 .f32 := (Memref.whole cc7_stg4_0 : Memref sig .tc .vmem S5000x128 .f32).view
abbrev VO7_5 : View sig .tc .vmem S1x128 .f32 := (Memref.whole cc7_stg5_0 : Memref sig .tc .vmem S1x128 .f32).view
abbrev VO7_6 : View sig .tc .vmem S1x128 .f32 := (Memref.whole cc7_stg6_0 : Memref sig .tc .vmem S1x128 .f32).view
abbrev VS7_0 : View sig .tc .vmem S1x128 .f32 := scM7_0.view
abbrev VS7_1 : View sig .tc .vmem S1x128 .f32 := scM7_1.view

/-- The scoped rest that is neither accumulator: carried unopened. -/
abbrev restBut7 (c : Dev nD) : sProp 𝕄 :=
  Pipeline.scopedRestBut (Ix := Unit) (Name := ℕ) (U := UR sig nD τ) (Lvl := ℕ) (Val := Elt F) spec7 c [cc7_scratch0, cc7_scratch1]

/-- The class's invariant with the two accumulators as memrefs owned at some contents. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d)) ∗ restBut7 (F := F) c) ∗ (∃ r, prngReg c r)) := by
  unfold Pipeline.ΦA; rw [scopedRest7_split]; simp only [scM7_0, scM7_1, owns_whole]; try rfl

set_option maxHeartbeats 4000000 in
/-- The first point: both conditionals decided (`scf.if` 0 taken, the last not); the accumulators are handed in at
    anything, the two statistics outputs are idle and handed back untouched; the pieces each written buffer ends with
    are the witness the run finds. -/
noncomputable def kernelRun7_A (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i) (hc1 : ¬cond7_1 i)
    (x0 : Vec F S5000x128 .f32) (x1 : Vec F S5000x128 .f32) (x2 : Vec F S5000x1 .f32) (x3 : Vec F S1x128 .f32) :
    Σ' (L4 : List (View.Piece (Elt F) S5000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc7__combine_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    haveI : Fact (cond7_0 i) := ⟨hc0⟩
    haveI : Fact (¬cond7_1 i) := ⟨hc1⟩
    simp only [cc7__combine_stats_kernel_eq_skeleton]; unfold cc7__combine_stats_kernel_skel
    simp only [k7_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 4000000 in
/-- A middle point: neither conditional taken; the accumulators are handed in at what the point before left. -/
noncomputable def kernelRun7_B (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : ¬cond7_1 i)
    (x0 : Vec F S5000x128 .f32) (x1 : Vec F S5000x128 .f32) (x2 : Vec F S5000x1 .f32) (x3 : Vec F S1x128 .f32) (xs0 xs1 : Vec F S1x128 .f32) :
    Σ' (L4 : List (View.Piece (Elt F) S5000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc7__combine_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    haveI : Fact (¬cond7_0 i) := ⟨hc0⟩
    haveI : Fact (¬cond7_1 i) := ⟨hc1⟩
    simp only [cc7__combine_stats_kernel_eq_skeleton]; unfold cc7__combine_stats_kernel_skel
    simp only [k7_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 4000000 in
/-- The last point: the first conditional not taken, the last taken; the two statistics outputs are stored whole. -/
noncomputable def kernelRun7_C (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : cond7_1 i)
    (x0 : Vec F S5000x128 .f32) (x1 : Vec F S5000x128 .f32) (x2 : Vec F S5000x1 .f32) (x3 : Vec F S1x128 .f32) (xs0 xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc7__combine_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    haveI : Fact (¬cond7_0 i) := ⟨hc0⟩
    haveI : Fact (cond7_1 i) := ⟨hc1⟩
    simp only [cc7__combine_stats_kernel_eq_skeleton]; unfold cc7__combine_stats_kernel_skel
    simp only [k7_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Hand

end
-- ==== Proof.KI.R7.lean ====
import proofs.«115763_j74259984548099_2_alg».proof.Proof.KI.R7Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7 of @main (`cc7__combine_stats_kernel`), at the entry contents `V` -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-! ## The three runs at a point's memrefs and blocks -/

/-- The first point's run on the point's staging memrefs, the two accumulators and the four input blocks. -/
def runA7 (c : Dev nD) (t : Fin cfg7.N) (h0 : t.val % 20 = 0) (h1 : ¬t.val % 20 = 19) :=
  kernelRun7_A (F := F) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t)

/-- A middle point's, over what the point before left in the accumulators. -/
def runB7 (c : Dev nD) (t : Fin cfg7.N) (h0 : ¬t.val % 20 = 0) (h1 : ¬t.val % 20 = 19) (xs0 xs1 : Vec F S1x128 .f32) :=
  kernelRun7_B (F := F) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) xs0 xs1

/-- The last point's. -/
def runC7 (c : Dev nD) (t : Fin cfg7.N) (h0 : ¬t.val % 20 = 0) (h1 : t.val % 20 = 19) (xs0 xs1 : Vec F S1x128 .f32) :=
  kernelRun7_C (F := F) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) xs0 xs1

/-! ## The pieces cover each written buffer -/

theorem coverA7_4 (c : Dev nD) (t : Fin cfg7.N) (h0 : t.val % 20 = 0) (h1 : ¬t.val % 20 = 19) (y : S5000x128.Idx) :
    ∃ pc ∈ (runA7 V c t h0 h1).1, y ∈ pc.1.set :=
  View.cover_of_tiledL (runA7 V c t h0 h1).1 S5000x128.size (by sl_kernel_rfl) y
theorem scoverA7_0 (c : Dev nD) (t : Fin cfg7.N) (h0 : t.val % 20 = 0) (h1 : ¬t.val % 20 = 19) (y : S1x128.Idx) :
    ∃ pc ∈ (runA7 V c t h0 h1).2.1, y ∈ pc.1.set :=
  View.cover_of_tiledL (runA7 V c t h0 h1).2.1 S1x128.size (by sl_kernel_rfl) y
theorem scoverA7_1 (c : Dev nD) (t : Fin cfg7.N) (h0 : t.val % 20 = 0) (h1 : ¬t.val % 20 = 19) (y : S1x128.Idx) :
    ∃ pc ∈ (runA7 V c t h0 h1).2.2.1, y ∈ pc.1.set :=
  View.cover_of_tiledL (runA7 V c t h0 h1).2.2.1 S1x128.size (by sl_kernel_rfl) y

theorem coverB7_4 (c : Dev nD) (t : Fin cfg7.N) (h0 : ¬t.val % 20 = 0) (h1 : ¬t.val % 20 = 19) (xs0 xs1 : Vec F S1x128 .f32) (y : S5000x128.Idx) :
    ∃ pc ∈ (runB7 V c t h0 h1 xs0 xs1).1, y ∈ pc.1.set :=
  View.cover_of_tiledL (runB7 V c t h0 h1 xs0 xs1).1 S5000x128.size (by sl_kernel_rfl) y
theorem scoverB7_0 (c : Dev nD) (t : Fin cfg7.N) (h0 : ¬t.val % 20 = 0) (h1 : ¬t.val % 20 = 19) (xs0 xs1 : Vec F S1x128 .f32) (y : S1x128.Idx) :
    ∃ pc ∈ (runB7 V c t h0 h1 xs0 xs1).2.1, y ∈ pc.1.set :=
  View.cover_of_tiledL (runB7 V c t h0 h1 xs0 xs1).2.1 S1x128.size (by sl_kernel_rfl) y
theorem scoverB7_1 (c : Dev nD) (t : Fin cfg7.N) (h0 : ¬t.val % 20 = 0) (h1 : ¬t.val % 20 = 19) (xs0 xs1 : Vec F S1x128 .f32) (y : S1x128.Idx) :
    ∃ pc ∈ (runB7 V c t h0 h1 xs0 xs1).2.2.1, y ∈ pc.1.set :=
  View.cover_of_tiledL (runB7 V c t h0 h1 xs0 xs1).2.2.1 S1x128.size (by sl_kernel_rfl) y

theorem coverC7_4 (c : Dev nD) (t : Fin cfg7.N) (h0 : ¬t.val % 20 = 0) (h1 : t.val % 20 = 19) (xs0 xs1 : Vec F S1x128 .f32) (y : S5000x128.Idx) :
    ∃ pc ∈ (runC7 V c t h0 h1 xs0 xs1).1, y ∈ pc.1.set :=
  View.cover_of_tiledL (runC7 V c t h0 h1 xs0 xs1).1 S5000x128.size (by sl_kernel_rfl) y
theorem coverC7_5 (c : Dev nD) (t : Fin cfg7.N) (h0 : ¬t.val % 20 = 0) (h1 : t.val % 20 = 19) (xs0 xs1 : Vec F S1x128 .f32) (y : S1x128.Idx) :
    ∃ pc ∈ (runC7 V c t h0 h1 xs0 xs1).2.1, y ∈ pc.1.set :=
  View.cover_of_tiledL (runC7 V c t h0 h1 xs0 xs1).2.1 S1x128.size (by sl_kernel_rfl) y
theorem coverC7_6 (c : Dev nD) (t : Fin cfg7.N) (h0 : ¬t.val % 20 = 0) (h1 : t.val % 20 = 19) (xs0 xs1 : Vec F S1x128 .f32) (y : S1x128.Idx) :
    ∃ pc ∈ (runC7 V c t h0 h1 xs0 xs1).2.2.1, y ∈ pc.1.set :=
  View.cover_of_tiledL (runC7 V c t h0 h1 xs0 xs1).2.2.1 S1x128.size (by sl_kernel_rfl) y
theorem scoverC7_0 (c : Dev nD) (t : Fin cfg7.N) (h0 : ¬t.val % 20 = 0) (h1 : t.val % 20 = 19) (xs0 xs1 : Vec F S1x128 .f32) (y : S1x128.Idx) :
    ∃ pc ∈ (runC7 V c t h0 h1 xs0 xs1).2.2.2.1, y ∈ pc.1.set :=
  View.cover_of_tiledL (runC7 V c t h0 h1 xs0 xs1).2.2.2.1 S1x128.size (by sl_kernel_rfl) y
theorem scoverC7_1 (c : Dev nD) (t : Fin cfg7.N) (h0 : ¬t.val % 20 = 0) (h1 : t.val % 20 = 19) (xs0 xs1 : Vec F S1x128 .f32) (y : S1x128.Idx) :
    ∃ pc ∈ (runC7 V c t h0 h1 xs0 xs1).2.2.2.2.1, y ∈ pc.1.set :=
  View.cover_of_tiledL (runC7 V c t h0 h1 xs0 xs1).2.2.2.2.1 S1x128.size (by sl_kernel_rfl) y

/-! ## What each case leaves: (the aggregate block, the two statistics outputs, the two accumulators) -/

/-- A placeholder for a statistics output at a point where it is idle (nothing consults it there). -/
def idleOut7 : Vec F S1x128 .f32 := View.canon []

/-- What the first point leaves: each written buffer's pieces read as their canon. -/
def outA7 (c : Dev nD) (t : Fin cfg7.N) (h0 : t.val % 20 = 0) (h1 : ¬t.val % 20 = 19) : Vec F S5000x128 .f32 × Vec F S1x128 .f32 × Vec F S1x128 .f32 × Vec F S1x128 .f32 × Vec F S1x128 .f32 :=
  (View.canon (runA7 V c t h0 h1).1, idleOut7, idleOut7, View.canon (runA7 V c t h0 h1).2.1, View.canon (runA7 V c t h0 h1).2.2.1)

/-- What a middle point leaves. -/
def outB7 (c : Dev nD) (t : Fin cfg7.N) (h0 : ¬t.val % 20 = 0) (h1 : ¬t.val % 20 = 19) (xs0 xs1 : Vec F S1x128 .f32) : Vec F S5000x128 .f32 × Vec F S1x128 .f32 × Vec F S1x128 .f32 × Vec F S1x128 .f32 × Vec F S1x128 .f32 :=
  (View.canon (runB7 V c t h0 h1 xs0 xs1).1, idleOut7, idleOut7, View.canon (runB7 V c t h0 h1 xs0 xs1).2.1, View.canon (runB7 V c t h0 h1 xs0 xs1).2.2.1)

/-- What the last point leaves. -/
def outC7 (c : Dev nD) (t : Fin cfg7.N) (h0 : ¬t.val % 20 = 0) (h1 : t.val % 20 = 19) (xs0 xs1 : Vec F S1x128 .f32) : Vec F S5000x128 .f32 × Vec F S1x128 .f32 × Vec F S1x128 .f32 × Vec F S1x128 .f32 × Vec F S1x128 .f32 :=
  (View.canon (runC7 V c t h0 h1 xs0 xs1).1, View.canon (runC7 V c t h0 h1 xs0 xs1).2.1, View.canon (runC7 V c t h0 h1 xs0 xs1).2.2.1,
    View.canon (runC7 V c t h0 h1 xs0 xs1).2.2.2.1, View.canon (runC7 V c t h0 h1 xs0 xs1).2.2.2.2.1)

/-- THE ACCUMULATION: what the three output buffers and the two accumulators hold after the body at position `n`:
    the point's case, over what the point before left in the accumulators. -/
def outsAt7 (c : Dev nD) : (n : ℕ) → n < cfg7.N → Vec F S5000x128 .f32 × Vec F S1x128 .f32 × Vec F S1x128 .f32 × Vec F S1x128 .f32 × Vec F S1x128 .f32
  | 0, hn => outA7 V c ⟨0, hn⟩ (Nat.zero_mod _) (by show ¬(0 % 20 = 19); decide)
  | n + 1, hn =>
    if h1 : (n + 1) % 20 = 19 then
      outC7 V c ⟨n + 1, hn⟩ (by have hN : n + 1 < 20 := lt_of_lt_of_eq hn (show cfg7.N = 20 from N_7); show ¬((n + 1) % 20 = 0); omega) h1
        (outsAt7 c n (Nat.lt_of_succ_lt hn)).2.2.2.1 (outsAt7 c n (Nat.lt_of_succ_lt hn)).2.2.2.2
    else
      outB7 V c ⟨n + 1, hn⟩ (by have hN : n + 1 < 20 := lt_of_lt_of_eq hn (show cfg7.N = 20 from N_7); show ¬((n + 1) % 20 = 0); omega) h1
        (outsAt7 c n (Nat.lt_of_succ_lt hn)).2.2.2.1 (outsAt7 c n (Nat.lt_of_succ_lt hn)).2.2.2.2

theorem outsAt7_A (c : Dev nD) (t : Fin cfg7.N) (h0 : t.val % 20 = 0) (h1 : ¬t.val % 20 = 19) :
    outsAt7 V c t.val t.isLt = outA7 V c t h0 h1 := by
  obtain ⟨n, hn⟩ := t
  cases n with
  | zero => rfl
  | succ n => exfalso; have hN : n + 1 < 20 := lt_of_lt_of_eq hn (show cfg7.N = 20 from N_7); (try dsimp only at h0); omega

theorem outsAt7_B (c : Dev nD) (t : Fin cfg7.N) (h0 : ¬t.val % 20 = 0) (h1 : ¬t.val % 20 = 19) :
    outsAt7 V c t.val t.isLt = outB7 V c t h0 h1 (outsAt7 V c (t.val - 1) (Nat.lt_of_le_of_lt (Nat.sub_le _ _) t.isLt)).2.2.2.1
      (outsAt7 V c (t.val - 1) (Nat.lt_of_le_of_lt (Nat.sub_le _ _) t.isLt)).2.2.2.2 := by
  obtain ⟨n, hn⟩ := t
  cases n with
  | zero => exact absurd (Nat.zero_mod _) h0
  | succ n => exact (dif_neg h1).trans rfl

theorem outsAt7_C (c : Dev nD) (t : Fin cfg7.N) (h0 : ¬t.val % 20 = 0) (h1 : t.val % 20 = 19) :
    outsAt7 V c t.val t.isLt = outC7 V c t h0 h1 (outsAt7 V c (t.val - 1) (Nat.lt_of_le_of_lt (Nat.sub_le _ _) t.isLt)).2.2.2.1
      (outsAt7 V c (t.val - 1) (Nat.lt_of_le_of_lt (Nat.sub_le _ _) t.isLt)).2.2.2.2 := by
  obtain ⟨n, hn⟩ := t
  cases n with
  | zero => exact absurd (Nat.zero_mod _) h0
  | succ n => exact (dif_pos h1).trans rfl

/-! ## The invariant: the two accumulators carried between points -/

/-- Before the first point the class's invariant; afterwards the two accumulators at what the point before left, the
    rest of the scoped buffers unopened, the generator register at some state. -/
def PhiS7 (c : Dev nD) : (n : ℕ) → n ≤ cfg7.N → sProp 𝕄
  | 0, _ => Pipeline.ΦA spec7 c
  | n + 1, hn => iprop(iprop(iprop(owns (c : Thread nD τ) scM7_0 fullShare ((outsAt7 V c n hn).2.2.2.1) ∗ owns (c : Thread nD τ) scM7_1 fullShare ((outsAt7 V c n hn).2.2.2.2)) ∗ restBut7 (F := F) c) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(iprop(owns (c : Thread nD τ) scM7_0 fullShare ((outsAt7 V c n hn).2.2.2.1) ∗ owns (c : Thread nD τ) scM7_1 fullShare ((outsAt7 V c n hn).2.2.2.2)) ∗ restBut7 (F := F) c) ∗ (∃ r, prngReg c r)) := rfl

theorem PhiS7_pos (c : Dev nD) (n : ℕ) (h : n ≤ cfg7.N) (hz : n ≠ 0) :
    PhiS7 V c n h = iprop(iprop(iprop(owns (c : Thread nD τ) scM7_0 fullShare ((outsAt7 V c (n - 1) (by omega)).2.2.2.1) ∗ owns (c : Thread nD τ) scM7_1 fullShare ((outsAt7 V c (n - 1) (by omega)).2.2.2.2)) ∗ restBut7 (F := F) c) ∗ (∃ r, prngReg c r)) := by
  cases n with
  | zero => exact absurd rfl hz
  | succ n => rfl

/-! ## The pipeline's proof data -/

/-- The proof data of pipeline 7 on core `c`: the arrays as the region finds them (`V`); after the body at point `t`
    each input's buffer at its block and the outputs' at `outsAt7`; the invariant `PhiS7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => (outsAt7 V c t.val t.isLt).1
    | ⟨5, _⟩ => (outsAt7 V c t.val t.isLt).2.1
    | ⟨6, _⟩ => (outsAt7 V c t.val t.isLt).2.2.1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = (outsAt7 V c t.val t.isLt).1 := by dsimp only [dat7]
theorem after7_5 (c : Dev nD) (t : Fin cfg7.N) : (dat7 V c).after 5 t = (outsAt7 V c t.val t.isLt).2.1 := by dsimp only [dat7]
theorem after7_6 (c : Dev nD) (t : Fin cfg7.N) : (dat7 V c).after 6 t = (outsAt7 V c t.val t.isLt).2.2.1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-! ## The body obligation, at a generic point -/

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t)

set_option maxHeartbeats 4800000 in
/-- The body at any point: the inputs' memrefs hold their blocks; the closed forms say which case the point is in; the
    invariant hands the body the accumulators at what the point before left (at anything at the first point) and takes
    them back at this point's contents; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).owesAt () t.succ = (dat7 V c).owesAt () t.castSucc from rfl]
  rw [show (dat7 V c).Φ t.succ = PhiS7 V c (t.val + 1) t.isLt from rfl, PhiS7_succ]
  have hN : t.val < 20 := lt_of_lt_of_eq t.isLt (show cfg7.N = 20 from N_7)
  rw [show (dat7 V c).leavesExact 0 t = owns (c : Thread nD τ) (ms7_0 t) fullShare ((dat7 V c).after 0 t) from rfl, after7_0,
    show (dat7 V c).leavesExact 1 t = owns (c : Thread nD τ) (ms7_1 t) fullShare ((dat7 V c).after 1 t) from rfl, after7_1,
    show (dat7 V c).leavesExact 2 t = owns (c : Thread nD τ) (ms7_2 t) fullShare ((dat7 V c).after 2 t) from rfl, after7_2,
    show (dat7 V c).leavesExact 3 t = owns (c : Thread nD τ) (ms7_3 t) fullShare ((dat7 V c).after 3 t) from rfl, after7_3,
    show (dat7 V c).leavesExact 4 t = owns (c : Thread nD τ) (ms7_4 t) fullShare ((dat7 V c).after 4 t) from rfl, after7_4]
  by_cases h0 : t.val % 20 = 0
  · have h1 : ¬t.val % 20 = 19 := by omega
    rw [Dat.leavesExact_idle (dat7 V c) 5 t (idleAt7_5 t (fun h => h1 ((hcond7_1 t).mp h))) (noFlush7_5 t (fun h => h1 ((hcond7_1 t).mp h)))]
    rw [Dat.leavesExact_idle (dat7 V c) 6 t (idleAt7_6 t (fun h => h1 ((hcond7_1 t).mp h))) (noFlush7_6 t (fun h => h1 ((hcond7_1 t).mp h)))]
    rw [outsAt7_A V c t h0 h1]
    unfold outA7; (try dsimp only)
    rw [PhiS7_castSucc V c t, PhiS7_zero V c _ _ (by omega), PhiA7_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((runA7 V c t h0 h1).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_eq_canon _ _ _ (scoverA7_0 V c t h0 h1)
          · unfold owns; iexists _; isplitr
            swap; · iexact HS1
            ipureintro; exact View.read_writes_eq_canon _ _ _ (scoverA7_1 V c t h0 h1)
        · iexact HR
      · iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_eq_canon _ _ _ (coverA7_4 V c t h0 h1)
    isplitl [H5]; · iexists _; iexact H5
    iexists _; iexact H6
  · by_cases h1 : t.val % 20 = 19
    ·
      rw [show (dat7 V c).leavesExact 5 t = owns (c : Thread nD τ) (ms7_5 t) fullShare ((dat7 V c).after 5 t) from by
            unfold Dat.leavesExact; rw [liveAt7_5 t ((hcond7_1 t).mpr h1)], after7_5]
      rw [show (dat7 V c).leavesExact 6 t = owns (c : Thread nD τ) (ms7_6 t) fullShare ((dat7 V c).after 6 t) from by
            unfold Dat.leavesExact; rw [liveAt7_6 t ((hcond7_1 t).mpr h1)], after7_6]
      rw [outsAt7_C V c t h0 h1]
      unfold outC7; (try dsimp only)
      rw [PhiS7_castSucc V c t, PhiS7_pos V c _ _ (by omega)]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runC7 V c t h0 h1 _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_eq_canon _ _ _ (scoverC7_0 V c t h0 h1 _ _)
            · unfold owns; iexists _; isplitr
              swap; · iexact HS1
              ipureintro; exact View.read_writes_eq_canon _ _ _ (scoverC7_1 V c t h0 h1 _ _)
          · iexact HR
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_eq_canon _ _ _ (coverC7_4 V c t h0 h1 _ _)
      isplitl [H5]
      · unfold owns; iexists _; isplitr
        swap; · iexact H5
        ipureintro; exact View.read_writes_eq_canon _ _ _ (coverC7_5 V c t h0 h1 _ _)
      unfold owns; iexists _; isplitr
      swap; · iexact H6
      ipureintro; exact View.read_writes_eq_canon _ _ _ (coverC7_6 V c t h0 h1 _ _)
    ·
      rw [Dat.leavesExact_idle (dat7 V c) 5 t (idleAt7_5 t (fun h => h1 ((hcond7_1 t).mp h))) (noFlush7_5 t (fun h => h1 ((hcond7_1 t).mp h)))]
      rw [Dat.leavesExact_idle (dat7 V c) 6 t (idleAt7_6 t (fun h => h1 ((hcond7_1 t).mp h))) (noFlush7_6 t (fun h => h1 ((hcond7_1 t).mp h)))]
      rw [outsAt7_B V c t h0 h1]
      unfold outB7; (try dsimp only)
      rw [PhiS7_castSucc V c t, PhiS7_pos V c _ _ (by omega)]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runB7 V c t h0 h1 _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_eq_canon _ _ _ (scoverB7_0 V c t h0 h1 _ _)
            · unfold owns; iexists _; isplitr
              swap; · iexact HS1
              ipureintro; exact View.read_writes_eq_canon _ _ _ (scoverB7_1 V c t h0 h1 _ _)
          · iexact HR
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_eq_canon _ _ _ (coverB7_4 V c t h0 h1 _ _)
      isplitl [H5]; · iexists _; iexact H5
      iexists _; iexact H6

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives the class's back: the accumulators' named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  iexact Hg

/-- The same after the last point. -/
theorem hout7 (c : Dev nD) : (dat7 V c).Φ (Fin.last cfg7.N) ⊢ Pipeline.ΦA spec7 c :=
  Phi_out7 V c _ (by rw [Fin.val_last]; have : cfg7.N = 20 := N_7; omega)

end Cert.KernelIdeal.Hand

end
-- ==== Proof.KI.R8.lean ====
/- The normalise-scale-shift-rectify region 8 of the kernel program, at the buffer contents `V` found when the region is
   entered: each window's block at a grid point, what the body leaves in the output window's buffer as a function of the
   five input blocks, the body's triple, the pipeline's proof data and the body obligation at every grid point. The
   four statistics/affine rows (windows 1–4) have a constant block index, so their staging buffers hold the same row
   at every point although they are fetched only at the first. -/
import proofs.«115763_j74259984548099_2_alg».proof.Proof.Gen.KernelIdeal.Launch
import proofs.«115763_j74259984548099_2_alg».proof.Proof.Gen.KernelIdeal.Skeleton
import proofs.«115763_j74259984548099_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle whose long axis has 10000 coordinates recurses once per coordinate
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s and whose body leaves the block in place: where it is not fetched its block index has
    not moved, so the block of the previous point is the block of this one. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof
    data whose array is `V`'s and whose body leaves the block in place: where it is not fetched its block index has
    not moved, so the block of the previous point is the block of this one. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof
    data whose array is `V`'s and whose body leaves the block in place: where it is not fetched its block index has
    not moved, so the block of the previous point is the block of this one. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not, for any proof
    data whose array is `V`'s and whose body leaves the block in place: where it is not fetched its block index has
    not moved, so the block of the previous point is the block of this one. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not, for any proof
    data whose array is `V`'s and whose body leaves the block in place: where it is not fetched its block index has
    not moved, so the block of the previous point is the block of this one. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- The whole [10000,128] block. -/
abbrev r8_0 : Rect S10000x128 := Rect.unit (s := S10000x128) ![0, 0] S10000x128.size inb_S10000x128_S10000x128_0_0
/-- The whole [1,128] row. -/
abbrev r8_1 : Rect S1x128 := Rect.unit (s := S1x128) ![0, 0] S1x128.size inb_S1x128_S1x128_0_0

/-! ## What the body leaves in the output window's buffer -/

/-- Window 5's staging buffer after the body, from the input windows' blocks (`x0` the feature block, `x1` the mean
    row, `x2` the variance row, `x3` the scale row, `x4` the shift row): its one store, of the whole block, of the
    payload `max ((x0 - x1) * rsqrt (x2 + ε) * x3 + x4) 0`. -/
def out8_5 (x0 : Vec F S10000x128 .f32) (x1 : Vec F S1x128 .f32) (x2 : Vec F S1x128 .f32) (x3 : Vec F S1x128 .f32) (x4 : Vec F S1x128 .f32) : Vec F S10000x128 .f32 :=
  View.canon [⟨r8_0, k8_pay1 (View.ld x0 r8_0) (View.ld x2 r8_1) (View.ld x1 r8_1) (View.ld x3 r8_1) (View.ld x4 r8_1)⟩]

/-- Its one store is of the whole buffer, so it covers it. -/
theorem cover8_5 (p0 : Vec F S10000x128 .f32) (y : S10000x128.Idx) :
    ∃ pc ∈ ([⟨r8_0, p0⟩] : List (View.Piece (Elt F) S10000x128 .f32)), y ∈ pc.1.set :=
  View.cover_of_tiled [⟨r8_0, p0⟩] S10000x128.size (by rfl) y

/-! ## The body's triple -/

set_option maxHeartbeats 1000000 in
/-- The kernel body on whole staging memrefs, the inputs' at read contents `xW` and the output's at anything, runs to
    the continuation holding the inputs' as they were and the output's at `out8_5` of the inputs'. -/
theorem sound_kernel8 (c : Dev nD) (E : Set ℕ) (i : grid8.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole)
    (x0 : Vec F S10000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out8_5 x0 x1 x2 x3 x4)) -∗ K ⟨⟩))
      ⊢ wp frame (wpE (defs₀ (F := F)) Variants.none c none) E (cc8__bn_relu_kernel i arg1 harg1 arg2 harg2 arg3 harg3 arg4 harg4 arg5 harg5 arg6 harg6) K := by
  simp only [cc8__bn_relu_kernel_eq_skeleton]; unfold cc8__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The pipeline's proof data -/

/-- The proof data of pipeline 8 on core `c`: the arrays as the region finds them (`V`); after the body at
    point `t` each input's buffer at its block and the output's at `out8_5` of the input blocks; the invariant the
    scoped rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' memrefs hold their blocks (`before8_W`), so `sound_kernel8` applies; the
    invariant and the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ (grid8.coords t) _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## The invariant at the region's ends -/

/-- The class invariant is the proof data's at the first point, -/
theorem hin8 (c : Dev nD) : Pipeline.ΦA spec8 c ⊢ (dat8 V c).Φ 0 := .rfl

/-- and at the last. -/
theorem hout8 (c : Dev nD) : (dat8 V c).Φ (Fin.last cfg8.N) ⊢ Pipeline.ΦA spec8 c := .rfl

end Cert.KernelIdeal.Hand
-- ==== Proof.KI.R9.lean ====
/- Region 9 of the kernel program: the proof data of its pipeline and the obligation of its body, stated at a
   parameter `V`, the TensorCore's buffer contents when the region is entered. -/
import proofs.«115763_j74259984548099_2_alg».proof.Proof.Gen.KernelIdeal.Launch
import proofs.«115763_j74259984548099_2_alg».proof.Proof.Gen.KernelIdeal.Skeleton
import proofs.«115763_j74259984548099_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 9: `_mlp_kernel`, two dense layers with a rectifier between, one grid point, at the entry contents `V` -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not: when the
    pipeline does not fetch, the block index has not moved and the body left the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not: when the
    pipeline does not fetch, the block index has not moved and the body left the block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not: when the
    pipeline does not fetch, the block index has not moved and the body left the block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not: when the
    pipeline does not fetch, the block index has not moved and the body left the block in place. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point, fetched there or not: when the
    pipeline does not fetch, the block index has not moved and the body left the block in place. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each memref is read or written whole -/

abbrev r9_0 : Rect S256x256 := Rect.unit (s := S256x256) ![0, 0] S256x256.size inb_S256x256_S256x256_0_0
abbrev r9_1 : Rect S256x128 := Rect.unit (s := S256x128) ![0, 0] S256x128.size inb_S256x128_S256x128_0_0
abbrev r9_2 : Rect S1x128 := Rect.unit (s := S1x128) ![0, 0] S1x128.size inb_S1x128_S1x128_0_0
abbrev r9_3 : Rect S128x64 := Rect.unit (s := S128x64) ![0, 0] S128x64.size inb_S128x64_S128x64_0_0
abbrev r9_4 : Rect S1x64 := Rect.unit (s := S1x64) ![0, 0] S1x64.size inb_S1x64_S1x64_0_0
abbrev r9_5 : Rect S256x64 := Rect.unit (s := S256x64) ![0, 0] S256x64.size inb_S256x64_S256x64_0_0

/-! ## What the body leaves in the output window's buffer -/

/-- Window 5's staging buffer after the body, from the input windows' blocks: its one store, of the payload
    computed from the five whole loads. -/
def out9_5 (x0 : Vec F S256x256 .f32) (x1 : Vec F S256x128 .f32) (x2 : Vec F S1x128 .f32) (x3 : Vec F S128x64 .f32) (x4 : Vec F S1x64 .f32) : Vec F S256x64 .f32 :=
  View.canon [⟨r9_5, k9_pay1 (View.ld x0 r9_0) (View.ld x1 r9_1) (View.ld x2 r9_2) (View.ld x3 r9_3) (View.ld x4 r9_4)⟩]

/-- The store is of the whole buffer, so it covers it. -/
theorem cover9_5 (p0 : Vec F S256x64 .f32) (y : S256x64.Idx) :
    ∃ pc ∈ ([⟨r9_5, p0⟩] : List (View.Piece (Elt F) S256x64 .f32)), y ∈ pc.1.set :=
  View.cover_of_tiled [⟨r9_5, p0⟩] S256x64.size (by rfl) y

/-! ## The body's triple -/

set_option maxHeartbeats 1000000 in
/-- The kernel body on whole staging memrefs, the inputs' at read contents `xW` and the output's at anything, runs to
    the continuation holding the inputs' as they were and the output's at `out9_5` of the inputs'. -/
theorem sound_kernel9 (c : Dev nD) (E : Set ℕ) (i : grid9.Coords) (arg0 : Memref sig .tc .vmem S256x256 .f32) (harg0 : arg0.IsWhole) (arg1 : Memref sig .tc .vmem S256x128 .f32) (harg1 : arg1.IsWhole) (arg2 : Memref sig .tc .vmem S1x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S256x64 .f32) (harg5 : arg5.IsWhole)
    (x0 : Vec F S256x256 .f32) (x1 : Vec F S256x128 .f32) (x2 : Vec F S1x128 .f32) (x3 : Vec F S128x64 .f32) (x4 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out9_5 x0 x1 x2 x3 x4)) -∗ K ⟨⟩))
      ⊢ wp frame (wpE (defs₀ (F := F)) Variants.none c none) E (cc9__mlp_kernel i arg0 harg0 arg1 harg1 arg2 harg2 arg3 harg3 arg4 harg4 arg5 harg5) K := by
  simp only [cc9__mlp_kernel_eq_skeleton]; unfold cc9__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

/-! ## The pipeline's proof data -/

/-- The proof data of pipeline 9 on core `c`: the arrays as the region finds them (`V`); after the body at
    point `t` each input's buffer at its block and the output's at `out9_5` of the input blocks; the invariant is the
    scoped rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = out9_5 (iblk9 V c 0 t) (iblk9 V c 1 t) (iblk9 V c 2 t) (iblk9 V c 3 t) (iblk9 V c 4 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-- The invariant at region entry and at region exit is the class's. -/
theorem hin9 (c : Dev nD) : Pipeline.ΦA spec9 c ⊢ (dat9 V c).Φ 0 := by
  dsimp only [dat9]; exact .rfl
theorem hout9 (c : Dev nD) : (dat9 V c).Φ (Fin.last cfg9.N) ⊢ Pipeline.ΦA spec9 c := by
  dsimp only [dat9]; exact .rfl

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks, so `sound_kernel9` applies; the invariant and
    the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.Chain.lean ====
import proofs.«115763_j74259984548099_2_alg».proof.Proof.Gen.KernelIdeal.Launch
import proofs.«115763_j74259984548099_2_alg».proof.Proof.Gen.KernelIdeal.Skeleton
import proofs.«115763_j74259984548099_2_alg».proof.Proof.Gen.KernelIdeal.Points
import proofs.«115763_j74259984548099_2_alg».proof.Proof.Gen.KernelIdeal.Regions
import proofs.«115763_j74259984548099_2_alg».proof.Proof.KI.R0
import proofs.«115763_j74259984548099_2_alg».proof.Proof.KI.R1
import proofs.«115763_j74259984548099_2_alg».proof.Proof.KI.R2
import proofs.«115763_j74259984548099_2_alg».proof.Proof.KI.R3
import proofs.«115763_j74259984548099_2_alg».proof.Proof.KI.R4
import proofs.«115763_j74259984548099_2_alg».proof.Proof.KI.R5
import proofs.«115763_j74259984548099_2_alg».proof.Proof.KI.R6
import proofs.«115763_j74259984548099_2_alg».proof.Proof.KI.R7
import proofs.«115763_j74259984548099_2_alg».proof.Proof.KI.R8
import proofs.«115763_j74259984548099_2_alg».proof.Proof.KI.R9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers between the items: each region's output arrays at what its write-backs leave -/

/-- A valuation read at the TensorCore's references. -/
abbrev atTc (X : Dev nD → Valuation τ sig (Elt F)) : (c : Dev nD) → (b : Ref sig .tc) → Buf (Elt F) ((c : Thread nD τ).loc b) := fun c b => X c b

abbrev St0 (c : Dev nD) : Valuation τ sig (Elt F) := Gen.V0 m c
abbrev St1 (c : Dev nD) : Valuation τ sig (Elt F) := StableHlo.after hostOps0 (St0 m c)
/-- After region 0: its output arrays at the pipeline's last write-backs, everything else as entered. -/
def St2 (c : Dev nD) : Valuation τ sig (Elt F) :=
  Function.update (St1 m c) main_v12 ((dat0 (atTc (St1 m)) c).arrAt 3 cfg0.N)
abbrev St3 (c : Dev nD) : Valuation τ sig (Elt F) := StableHlo.after hostOps1 (St2 m c)
/-- After region 1: its output arrays at the pipeline's last write-backs, everything else as entered. -/
def St4 (c : Dev nD) : Valuation τ sig (Elt F) :=
  Function.update (Function.update (Function.update (St3 m c) main_v24_0 ((dat1 (atTc (St3 m)) c).arrAt 4 cfg1.N)) main_v24_1 ((dat1 (atTc (St3 m)) c).arrAt 5 cfg1.N)) main_v24_2 ((dat1 (atTc (St3 m)) c).arrAt 6 cfg1.N)
abbrev St5 (c : Dev nD) : Valuation τ sig (Elt F) := StableHlo.after hostOps2 (St4 m c)
/-- After region 2: its output arrays at the pipeline's last write-backs, everything else as entered. -/
def St6 (c : Dev nD) : Valuation τ sig (Elt F) :=
  Function.update (St5 m c) main_v35 ((dat2 (atTc (St5 m)) c).arrAt 5 cfg2.N)
/-- After region 3: its output arrays at the pipeline's last write-backs, everything else as entered. -/
def St7 (c : Dev nD) : Valuation τ sig (Elt F) :=
  Function.update (St6 m c) main_v36 ((dat3 (atTc (St6 m)) c).arrAt 3 cfg3.N)
abbrev St8 (c : Dev nD) : Valuation τ sig (Elt F) := StableHlo.after hostOps4 (St7 m c)
/-- After region 4: its output arrays at the pipeline's last write-backs, everything else as entered. -/
def St9 (c : Dev nD) : Valuation τ sig (Elt F) :=
  Function.update (Function.update (Function.update (St8 m c) main_v48_0 ((dat4 (atTc (St8 m)) c).arrAt 4 cfg4.N)) main_v48_1 ((dat4 (atTc (St8 m)) c).arrAt 5 cfg4.N)) main_v48_2 ((dat4 (atTc (St8 m)) c).arrAt 6 cfg4.N)
abbrev St10 (c : Dev nD) : Valuation τ sig (Elt F) := StableHlo.after hostOps5 (St9 m c)
/-- After region 5: its output arrays at the pipeline's last write-backs, everything else as entered. -/
def St11 (c : Dev nD) : Valuation τ sig (Elt F) :=
  Function.update (St10 m c) main_v59 ((dat5 (atTc (St10 m)) c).arrAt 5 cfg5.N)
/-- After region 6: its output arrays at the pipeline's last write-backs, everything else as entered. -/
def St12 (c : Dev nD) : Valuation τ sig (Elt F) :=
  Function.update (St11 m c) main_v60 ((dat6 (atTc (St11 m)) c).arrAt 3 cfg6.N)
abbrev St13 (c : Dev nD) : Valuation τ sig (Elt F) := StableHlo.after hostOps7 (St12 m c)
/-- After region 7: its output arrays at the pipeline's last write-backs, everything else as entered. -/
def St14 (c : Dev nD) : Valuation τ sig (Elt F) :=
  Function.update (Function.update (Function.update (St13 m c) main_v72_0 ((dat7 (atTc (St13 m)) c).arrAt 4 cfg7.N)) main_v72_1 ((dat7 (atTc (St13 m)) c).arrAt 5 cfg7.N)) main_v72_2 ((dat7 (atTc (St13 m)) c).arrAt 6 cfg7.N)
abbrev St15 (c : Dev nD) : Valuation τ sig (Elt F) := StableHlo.after hostOps8 (St14 m c)
/-- After region 8: its output arrays at the pipeline's last write-backs, everything else as entered. -/
def St16 (c : Dev nD) : Valuation τ sig (Elt F) :=
  Function.update (St15 m c) main_v83 ((dat8 (atTc (St15 m)) c).arrAt 5 cfg8.N)
abbrev St17 (c : Dev nD) : Valuation τ sig (Elt F) := StableHlo.after hostOps9 (St16 m c)
/-- After region 9: its output arrays at the pipeline's last write-backs, everything else as entered. -/
def St18 (c : Dev nD) : Valuation τ sig (Elt F) :=
  Function.update (St17 m c) main_v99 ((dat9 (atTc (St17 m)) c).arrAt 5 cfg9.N)

/-- What each region leaves, as the unknowns of the generated conditional frame: the buffers' contents after the item. -/
def outs : Gen.Outs (F := F) := fun J r c => match J with
  | 2 => St2 m c r
  | 4 => St4 m c r
  | 6 => St6 m c r
  | 7 => St7 m c r
  | 9 => St9 m c r
  | 11 => St11 m c r
  | 12 => St12 m c r
  | 14 => St14 m c r
  | 16 => St16 m c r
  | 18 => St18 m c r
  | _ => St0 m c r

theorem ne_ref {a b : Ref sig .tc} (h : a ≠ b) : (Proc.devRef .tc a : DevRef τ sig) ≠ Proc.devRef .tc b := StableHlo.devRef_ne_of_ne h

/-! ## The generated valuations at these unknowns are the chain above -/

theorem V1_eq (c : Dev nD) : Gen.V1 m c = St1 m c := rfl
theorem V2_eq (c : Dev nD) : Gen.V2 m (outs m) c = St2 m c := by
  show Function.update (Gen.V1 m c) main_v12 (St2 m c main_v12) = _
  rw [V1_eq]; unfold St2; rw [Function.update_self]
theorem V3_eq (c : Dev nD) : Gen.V3 m (outs m) c = St3 m c := by
  show StableHlo.after hostOps1 (Gen.V2 m (outs m) c) = _
  rw [V2_eq]
theorem V4_eq (c : Dev nD) : Gen.V4 m (outs m) c = St4 m c := by
  show Function.update (Function.update (Function.update (Gen.V3 m (outs m) c) main_v24_0 (St4 m c main_v24_0)) main_v24_1 (St4 m c main_v24_1)) main_v24_2 (St4 m c main_v24_2) = _
  rw [V3_eq]; unfold St4
  rw [Function.update_self, Function.update_of_ne (ne_ref (by decide : main_v24_1 ≠ main_v24_2)), Function.update_self,
    Function.update_of_ne (ne_ref (by decide : main_v24_0 ≠ main_v24_2)), Function.update_of_ne (ne_ref (by decide : main_v24_0 ≠ main_v24_1)), Function.update_self]
theorem V5_eq (c : Dev nD) : Gen.V5 m (outs m) c = St5 m c := by
  show StableHlo.after hostOps2 (Gen.V4 m (outs m) c) = _
  rw [V4_eq]
theorem V6_eq (c : Dev nD) : Gen.V6 m (outs m) c = St6 m c := by
  show Function.update (Gen.V5 m (outs m) c) main_v35 (St6 m c main_v35) = _
  rw [V5_eq]; unfold St6; rw [Function.update_self]
theorem V7_eq (c : Dev nD) : Gen.V7 m (outs m) c = St7 m c := by
  show Function.update (Gen.V6 m (outs m) c) main_v36 (St7 m c main_v36) = _
  rw [V6_eq]; unfold St7; rw [Function.update_self]
theorem V8_eq (c : Dev nD) : Gen.V8 m (outs m) c = St8 m c := by
  show StableHlo.after hostOps4 (Gen.V7 m (outs m) c) = _
  rw [V7_eq]
theorem V9_eq (c : Dev nD) : Gen.V9 m (outs m) c = St9 m c := by
  show Function.update (Function.update (Function.update (Gen.V8 m (outs m) c) main_v48_0 (St9 m c main_v48_0)) main_v48_1 (St9 m c main_v48_1)) main_v48_2 (St9 m c main_v48_2) = _
  rw [V8_eq]; unfold St9
  rw [Function.update_self, Function.update_of_ne (ne_ref (by decide : main_v48_1 ≠ main_v48_2)), Function.update_self,
    Function.update_of_ne (ne_ref (by decide : main_v48_0 ≠ main_v48_2)), Function.update_of_ne (ne_ref (by decide : main_v48_0 ≠ main_v48_1)), Function.update_self]
theorem V10_eq (c : Dev nD) : Gen.V10 m (outs m) c = St10 m c := by
  show StableHlo.after hostOps5 (Gen.V9 m (outs m) c) = _
  rw [V9_eq]
theorem V11_eq (c : Dev nD) : Gen.V11 m (outs m) c = St11 m c := by
  show Function.update (Gen.V10 m (outs m) c) main_v59 (St11 m c main_v59) = _
  rw [V10_eq]; unfold St11; rw [Function.update_self]
theorem V12_eq (c : Dev nD) : Gen.V12 m (outs m) c = St12 m c := by
  show Function.update (Gen.V11 m (outs m) c) main_v60 (St12 m c main_v60) = _
  rw [V11_eq]; unfold St12; rw [Function.update_self]
theorem V13_eq (c : Dev nD) : Gen.V13 m (outs m) c = St13 m c := by
  show StableHlo.after hostOps7 (Gen.V12 m (outs m) c) = _
  rw [V12_eq]
theorem V14_eq (c : Dev nD) : Gen.V14 m (outs m) c = St14 m c := by
  show Function.update (Function.update (Function.update (Gen.V13 m (outs m) c) main_v72_0 (St14 m c main_v72_0)) main_v72_1 (St14 m c main_v72_1)) main_v72_2 (St14 m c main_v72_2) = _
  rw [V13_eq]; unfold St14
  rw [Function.update_self, Function.update_of_ne (ne_ref (by decide : main_v72_1 ≠ main_v72_2)), Function.update_self,
    Function.update_of_ne (ne_ref (by decide : main_v72_0 ≠ main_v72_2)), Function.update_of_ne (ne_ref (by decide : main_v72_0 ≠ main_v72_1)), Function.update_self]
theorem V15_eq (c : Dev nD) : Gen.V15 m (outs m) c = St15 m c := by
  show StableHlo.after hostOps8 (Gen.V14 m (outs m) c) = _
  rw [V14_eq]
theorem V16_eq (c : Dev nD) : Gen.V16 m (outs m) c = St16 m c := by
  show Function.update (Gen.V15 m (outs m) c) main_v83 (St16 m c main_v83) = _
  rw [V15_eq]; unfold St16; rw [Function.update_self]
theorem V17_eq (c : Dev nD) : Gen.V17 m (outs m) c = St17 m c := by
  show StableHlo.after hostOps9 (Gen.V16 m (outs m) c) = _
  rw [V16_eq]
theorem V18_eq (c : Dev nD) : Gen.V18 m (outs m) c = St18 m c := by
  show Function.update (Gen.V17 m (outs m) c) main_v99 (St18 m c main_v99) = _
  rw [V17_eq]; unfold St18; rw [Function.update_self]

end Cert.KernelIdeal.Hand

end
-- ==== Proof.KI.Regs.lean ====
import proofs.«115763_j74259984548099_2_alg».proof.Proof.Gen.KernelIdeal.Launch
import proofs.«115763_j74259984548099_2_alg».proof.Proof.Gen.KernelIdeal.Skeleton
import proofs.«115763_j74259984548099_2_alg».proof.Proof.Gen.KernelIdeal.Points
import proofs.«115763_j74259984548099_2_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Region 0 -/

theorem hF0_0 (c : Dev nD) : (dat0 (atTc (St1 m)) c).arrAt 0 cfg0.N = atTc (St2 m) c (Pipeline.arrRef spec0 0) :=
  ((dat0 (atTc (St1 m)) c).arrAt_in 0 rfl _).trans ((A_eq0 (atTc (St1 m)) c 0).trans (by
    show St1 m c (Proc.devRef .tc (Pipeline.arrRef spec0 0)) = St2 m c (Proc.devRef .tc (Pipeline.arrRef spec0 0))
    unfold St2; rw [Function.update_of_ne (ne_ref (by decide : Pipeline.arrRef spec0 0 ≠ main_v12))]))
theorem hF0_1 (c : Dev nD) : (dat0 (atTc (St1 m)) c).arrAt 1 cfg0.N = atTc (St2 m) c (Pipeline.arrRef spec0 1) :=
  ((dat0 (atTc (St1 m)) c).arrAt_in 1 rfl _).trans ((A_eq0 (atTc (St1 m)) c 1).trans (by
    show St1 m c (Proc.devRef .tc (Pipeline.arrRef spec0 1)) = St2 m c (Proc.devRef .tc (Pipeline.arrRef spec0 1))
    unfold St2; rw [Function.update_of_ne (ne_ref (by decide : Pipeline.arrRef spec0 1 ≠ main_v12))]))
theorem hF0_2 (c : Dev nD) : (dat0 (atTc (St1 m)) c).arrAt 2 cfg0.N = atTc (St2 m) c (Pipeline.arrRef spec0 2) :=
  ((dat0 (atTc (St1 m)) c).arrAt_in 2 rfl _).trans ((A_eq0 (atTc (St1 m)) c 2).trans (by
    show St1 m c (Proc.devRef .tc (Pipeline.arrRef spec0 2)) = St2 m c (Proc.devRef .tc (Pipeline.arrRef spec0 2))
    unfold St2; rw [Function.update_of_ne (ne_ref (by decide : Pipeline.arrRef spec0 2 ≠ main_v12))]))
theorem hF0_3 (c : Dev nD) : (dat0 (atTc (St1 m)) c).arrAt 3 cfg0.N = atTc (St2 m) c (Pipeline.arrRef spec0 3) := by
  show _ = St2 m c (Proc.devRef .tc main_v12)
  unfold St2; rw [Function.update_self]

theorem hF0 (c : Dev nD) : ∀ w : Fin cfg0.W, (dat0 (atTc (St1 m)) c).arrAt w cfg0.N = atTc (St2 m) c (Pipeline.arrRef spec0 w)
  | ⟨0, _⟩ => hF0_0 m c
  | ⟨1, _⟩ => hF0_1 m c
  | ⟨2, _⟩ => hF0_2 m c
  | ⟨3, _⟩ => hF0_3 m c

theorem hrest0 (c : Dev nD) : ∀ b, b ∉ Finset.univ.image (Pipeline.arrRef spec0) → atTc (St2 m) c b = atTc (St1 m) c b := fun b hb => by
  show St2 m c (Proc.devRef .tc b) = St1 m c (Proc.devRef .tc b)
  unfold St2; rw [Function.update_of_ne (ne_ref (fun e => hb (Finset.mem_image.mpr ⟨(3 : Fin 4), Finset.mem_univ _, (show Pipeline.arrRef spec0 3 = main_v12 from rfl).trans e.symm⟩)))]

/-! ## Region 1 -/

theorem hF1_0 (c : Dev nD) : (dat1 (atTc (St3 m)) c).arrAt 0 cfg1.N = atTc (St4 m) c (Pipeline.arrRef spec1 0) :=
  ((dat1 (atTc (St3 m)) c).arrAt_in 0 rfl _).trans ((A_eq1 (atTc (St3 m)) c 0).trans (by
    show St3 m c (Proc.devRef .tc (Pipeline.arrRef spec1 0)) = St4 m c (Proc.devRef .tc (Pipeline.arrRef spec1 0))
    unfold St4; rw [Function.update_of_ne (ne_ref (by decide : Pipeline.arrRef spec1 0 ≠ main_v24_2)), Function.update_of_ne (ne_ref (by decide : Pipeline.arrRef spec1 0 ≠ main_v24_1)), Function.update_of_ne (ne_ref (by decide : Pipeline.arrRef spec1 0 ≠ main_v24_0))]))
theorem hF1_1 (c : Dev nD) : (dat1 (atTc (St3 m)) c).arrAt 1 cfg1.N = atTc (St4 m) c (Pipeline.arrRef spec1 1) :=
  ((dat1 (atTc (St3 m)) c).arrAt_in 1 rfl _).trans ((A_eq1 (atTc (St3 m)) c 1).trans (by
    show St3 m c (Proc.devRef .tc (Pipeline.arrRef spec1 1)) = St4 m c (Proc.devRef .tc (Pipeline.arrRef spec1 1))
    unfold St4; rw [Function.update_of_ne (ne_ref (by decide : Pipeline.arrRef spec1 1 ≠ main_v24_2)), Function.update_of_ne (ne_ref (by decide : Pipeline.arrRef spec1 1 ≠ main_v24_1)), Function.update_of_ne (ne_ref (by decide : Pipeline.arrRef spec1 1 ≠ main_v24_0))]))
theorem hF1_2 (c : Dev nD) : (dat1 (atTc (St3 m)) c).arrAt 2 cfg1.N = atTc (St4 m) c (Pipeline.arrRef spec1 2) :=
  ((dat1 (atTc (St3 m)) c).arrAt_in 2 rfl _).trans ((A_eq1 (atTc (St3 m)) c 2).trans (by
    show St3 m c (Proc.devRef .tc (Pipeline.arrRef spec1 2)) = St4 m c (Proc.devRef .tc (Pipeline.arrRef spec1 2))
    unfold St4; rw [Function.update_of_ne (ne_ref (by decide : Pipeline.arrRef spec1 2 ≠ main_v24_2)), Function.update_of_ne (ne_ref (by decide : Pipeline.arrRef spec1 2 ≠ main_v24_1)), Function.update_of_ne (ne_ref (by decide : Pipeline.arrRef spec1 2 ≠ main_v24_0))]))
theorem hF1_3 (c : Dev nD) : (dat1 (atTc (St3 m)) c).arrAt 3 cfg1.N = atTc (St4 m) c (Pipeline.arrRef spec1 3) :=
  ((dat1 (atTc (St3 m)) c).arrAt_in 3 rfl _).trans ((A_eq1 (atTc (St3 m)) c 3).trans (by
    show St3 m c (Proc.devRef .tc (Pipeline.arrRef spec1 3)) = St4 m c (Proc.devRef .tc (Pipeline.arrRef spec1 3))
    unfold St4; rw [Function.update_of_ne (ne_ref (by decide : Pipeline.arrRef spec1 3 ≠ main_v24_2)), Function.update_of_ne (ne_ref (by decide : Pipeline.arrRef spec1 3 ≠ main_v24_1)), Function.update_of_ne (ne_ref (by decide : Pipeline.arrRef spec1 3 ≠ main_v24_0))]))
theorem hF1_4 (c : Dev nD) : (dat1 (atTc (St3 m)) c).arrAt 4 cfg1.N = atTc (St4 m) c (Pipeline.arrRef spec1 4) := by
  show _ = St4 m c (Proc.devRef .tc main_v24_0)
  unfold St4; rw [Function.update_of_ne (ne_ref (by decide : main_v24_0 ≠ main_v24_2)), Function.update_of_ne (ne_ref (by decide : main_v24_0 ≠ main_v24_1)), Function.update_self]
theorem hF1_5 (c : Dev nD) : (dat1 (atTc (St3 m)) c).arrAt 5 cfg1.N = atTc (St4 m) c (Pipeline.arrRef spec1 5) := by
  show _ = St4 m c (Proc.devRef .tc main_v24_1)
  unfold St4; rw [Function.update_of_ne (ne_ref (by decide : main_v24_1 ≠ main_v24_2)), Function.update_self]
theorem hF1_6 (c : Dev nD) : (dat1 (atTc (St3 m)) c).arrAt 6 cfg1.N = atTc (St4 m) c (Pipeline.arrRef spec1 6) := by
  show _ = St4 m c (Proc.devRef .tc main_v24_2)
  unfold St4; rw [Function.update_self]

theorem hF1 (c : Dev nD) : ∀ w : Fin cfg1.W, (dat1 (atTc (St3 m)) c).arrAt w cfg1.N = atTc (St4 m) c (Pipeline.arrRef spec1 w)
  | ⟨0, _⟩ => hF1_0 m c
  | ⟨1, _⟩ => hF1_1 m c
  | ⟨2, _⟩ => hF1_2 m c
  | ⟨3, _⟩ => hF1_3 m c
  | ⟨4, _⟩ => hF1_4 m c
  | ⟨5, _⟩ => hF1_5 m c
  | ⟨6, _⟩ => hF1_6 m c

theorem hrest1 (c : Dev nD) : ∀ b, b ∉ Finset.univ.image (Pipeline.arrRef spec1) → atTc (St4 m) c b = atTc (St3 m) c b := fun b hb => by
  show St4 m c (Proc.devRef .tc b) = St3 m c (Proc.devRef .tc b)
  unfold St4; rw [Function.update_of_ne (ne_ref (fun e => hb (Finset.mem_image.mpr ⟨(6 : Fin 7), Finset.mem_univ _, (show Pipeline.arrRef spec1 6 = main_v24_2 from rfl).trans e.symm⟩))), Function.update_of_ne (ne_ref (fun e => hb (Finset.mem_image.mpr ⟨(5 : Fin 7), Finset.mem_univ _, (show Pipeline.arrRef spec1 5 = main_v24_1 from rfl).trans e.symm⟩))), Function.update_of_ne (ne_ref (fun e => hb (Finset.mem_image.mpr ⟨(4 : Fin 7), Finset.mem_univ _, (show Pipeline.arrRef spec1 4 = main_v24_0 from rfl).trans e.symm⟩)))]

/-! ## Region 2 -/

theorem hF2_0 (c : Dev nD) : (dat2 (atTc (St5 m)) c).arrAt 0 cfg2.N = atTc (St6 m) c (Pipeline.arrRef spec2 0) :=
  ((dat2 (atTc (St5 m)) c).arrAt_in 0 rfl _).trans ((A_eq2 (atTc (St5 m)) c 0).trans (by
    show St5 m c (Proc.devRef .tc (Pipeline.arrRef spec2 0)) = St6 m c (Proc.devRef .tc (Pipeline.arrRef spec2 0))
    unfold St6; rw [Function.update_of_ne (ne_ref (by decide : Pipeline.arrRef spec2 0 ≠ main_v35))]))
theorem hF2_1 (c : Dev nD) : (dat2 (atTc (St5 m)) c).arrAt 1 cfg2.N = atTc (St6 m) c (Pipeline.arrRef spec2 1) :=
  ((dat2 (atTc (St5 m)) c).arrAt_in 1 rfl _).trans ((A_eq2 (atTc (St5 m)) c 1).trans (by
    show St5 m c (Proc.devRef .tc (Pipeline.arrRef spec2 1)) = St6 m c (Proc.devRef .tc (Pipeline.arrRef spec2 1))
    unfold St6; rw [Function.update_of_ne (ne_ref (by decide : Pipeline.arrRef spec2 1 ≠ main_v35))]))
theorem hF2_2 (c : Dev nD) : (dat2 (atTc (St5 m)) c).arrAt 2 cfg2.N = atTc (St6 m) c (Pipeline.arrRef spec2 2) :=
  ((dat2 (atTc (St5 m)) c).arrAt_in 2 rfl _).trans ((A_eq2 (atTc (St5 m)) c 2).trans (by
    show St5 m c (Proc.devRef .tc (Pipeline.arrRef spec2 2)) = St6 m c (Proc.devRef .tc (Pipeline.arrRef spec2 2))
    unfold St6; rw [Function.update_of_ne (ne_ref (by decide : Pipeline.arrRef spec2 2 ≠ main_v35))]))
theorem hF2_3 (c : Dev nD) : (dat2 (atTc (St5 m)) c).arrAt 3 cfg2.N = atTc (St6 m) c (Pipeline.arrRef spec2 3) :=
  ((dat2 (atTc (St5 m)) c).arrAt_in 3 rfl _).trans ((A_eq2 (atTc (St5 m)) c 3).trans (by
    show St5 m c (Proc.devRef .tc (Pipeline.arrRef spec2 3)) = St6 m c (Proc.devRef .tc (Pipeline.arrRef spec2 3))
    unfold St6; rw [Function.update_of_ne (ne_ref (by decide : Pipeline.arrRef spec2 3 ≠ main_v35))]))
theorem hF2_4 (c : Dev nD) : (dat2 (atTc (St5 m)) c).arrAt 4 cfg2.N = atTc (St6 m) c (Pipeline.arrRef spec2 4) :=
  ((dat2 (atTc (St5 m)) c).arrAt_in 4 rfl _).trans ((A_eq2 (atTc (St5 m)) c 4).trans (by
    show St5 m c (Proc.devRef .tc (Pipeline.arrRef spec2 4)) = St6 m c (Proc.devRef .tc (Pipeline.arrRef spec2 4))
    unfold St6; rw [Function.update_of_ne (ne_ref (by decide : Pipeline.arrRef spec2 4 ≠ main_v35))]))
theorem hF2_5 (c : Dev nD) : (dat2 (atTc (St5 m)) c).arrAt 5 cfg2.N = atTc (St6 m) c (Pipeline.arrRef spec2 5) := by
  show _ = St6 m c (Proc.devRef .tc main_v35)
  unfold St6; rw [Function.update_self]

theorem hF2 (c : Dev nD) : ∀ w : Fin cfg2.W, (dat2 (atTc (St5 m)) c).arrAt w cfg2.N = atTc (St6 m) c (Pipeline.arrRef spec2 w)
  | ⟨0, _⟩ => hF2_0 m c
  | ⟨1, _⟩ => hF2_1 m c
  | ⟨2, _⟩ => hF2_2 m c
  | ⟨3, _⟩ => hF2_3 m c
  | ⟨4, _⟩ => hF2_4 m c
  | ⟨5, _⟩ => hF2_5 m c

theorem hrest2 (c : Dev nD) : ∀ b, b ∉ Finset.univ.image (Pipeline.arrRef spec2) → atTc (St6 m) c b = atTc (St5 m) c b := fun b hb => by
  show St6 m c (Proc.devRef .tc b) = St5 m c (Proc.devRef .tc b)
  unfold St6; rw [Function.update_of_ne (ne_ref (fun e => hb (Finset.mem_image.mpr ⟨(5 : Fin 6), Finset.mem_univ _, (show Pipeline.arrRef spec2 5 = main_v35 from rfl).trans e.symm⟩)))]

/-! ## Region 3 -/

theorem hF3_0 (c : Dev nD) : (dat3 (atTc (St6 m)) c).arrAt 0 cfg3.N = atTc (St7 m) c (Pipeline.arrRef spec3 0) :=
  ((dat3 (atTc (St6 m)) c).arrAt_in 0 rfl _).trans ((A_eq3 (atTc (St6 m)) c 0).trans (by
    show St6 m c (Proc.devRef .tc (Pipeline.arrRef spec3 0)) = St7 m c (Proc.devRef .tc (Pipeline.arrRef spec3 0))
    unfold St7; rw [Function.update_of_ne (ne_ref (by decide : Pipeline.arrRef spec3 0 ≠ main_v36))]))
theorem hF3_1 (c : Dev nD) : (dat3 (atTc (St6 m)) c).arrAt 1 cfg3.N = atTc (St7 m) c (Pipeline.arrRef spec3 1) :=
  ((dat3 (atTc (St6 m)) c).arrAt_in 1 rfl _).trans ((A_eq3 (atTc (St6 m)) c 1).trans (by
    show St6 m c (Proc.devRef .tc (Pipeline.arrRef spec3 1)) = St7 m c (Proc.devRef .tc (Pipeline.arrRef spec3 1))
    unfold St7; rw [Function.update_of_ne (ne_ref (by decide : Pipeline.arrRef spec3 1 ≠ main_v36))]))
theorem hF3_2 (c : Dev nD) : (dat3 (atTc (St6 m)) c).arrAt 2 cfg3.N = atTc (St7 m) c (Pipeline.arrRef spec3 2) :=
  ((dat3 (atTc (St6 m)) c).arrAt_in 2 rfl _).trans ((A_eq3 (atTc (St6 m)) c 2).trans (by
    show St6 m c (Proc.devRef .tc (Pipeline.arrRef spec3 2)) = St7 m c (Proc.devRef .tc (Pipeline.arrRef spec3 2))
    unfold St7; rw [Function.update_of_ne (ne_ref (by decide : Pipeline.arrRef spec3 2 ≠ main_v36))]))
theorem hF3_3 (c : Dev nD) : (dat3 (atTc (St6 m)) c).arrAt 3 cfg3.N = atTc (St7 m) c (Pipeline.arrRef spec3 3) := by
  show _ = St7 m c (Proc.devRef .tc main_v36)
  unfold St7; rw [Function.update_self]

theorem hF3 (c : Dev nD) : ∀ w : Fin cfg3.W, (dat3 (atTc (St6 m)) c).arrAt w cfg3.N = atTc (St7 m) c (Pipeline.arrRef spec3 w)
  | ⟨0, _⟩ => hF3_0 m c
  | ⟨1, _⟩ => hF3_1 m c
  | ⟨2, _⟩ => hF3_2 m c
  | ⟨3, _⟩ => hF3_3 m c

theorem hrest3 (c : Dev nD) : ∀ b, b ∉ Finset.univ.image (Pipeline.arrRef spec3) → atTc (St7 m) c b = atTc (St6 m) c b := fun b hb => by
  show St7 m c (Proc.devRef .tc b) = St6 m c (Proc.devRef .tc b)
  unfold St7; rw [Function.update_of_ne (ne_ref (fun e => hb (Finset.mem_image.mpr ⟨(3 : Fin 4), Finset.mem_univ _, (show Pipeline.arrRef spec3 3 = main_v36 from rfl).trans e.symm⟩)))]

/-! ## Region 4 -/

theorem hF4_0 (c : Dev nD) : (dat4 (atTc (St8 m)) c).arrAt 0 cfg4.N = atTc (St9 m) c (Pipeline.arrRef spec4 0) :=
  ((dat4 (atTc (St8 m)) c).arrAt_in 0 rfl _).trans ((A_eq4 (atTc (St8 m)) c 0).trans (by
    show St8 m c (Proc.devRef .tc (Pipeline.arrRef spec4 0)) = St9 m c (Proc.devRef .tc (Pipeline.arrRef spec4 0))
    unfold St9; rw [Function.update_of_ne (ne_ref (by decide : Pipeline.arrRef spec4 0 ≠ main_v48_2)), Function.update_of_ne (ne_ref (by decide : Pipeline.arrRef spec4 0 ≠ main_v48_1)), Function.update_of_ne (ne_ref (by decide : Pipeline.arrRef spec4 0 ≠ main_v48_0))]))
theorem hF4_1 (c : Dev nD) : (dat4 (atTc (St8 m)) c).arrAt 1 cfg4.N = atTc (St9 m) c (Pipeline.arrRef spec4 1) :=
  ((dat4 (atTc (St8 m)) c).arrAt_in 1 rfl _).trans ((A_eq4 (atTc (St8 m)) c 1).trans (by
    show St8 m c (Proc.devRef .tc (Pipeline.arrRef spec4 1)) = St9 m c (Proc.devRef .tc (Pipeline.arrRef spec4 1))
    unfold St9; rw [Function.update_of_ne (ne_ref (by decide : Pipeline.arrRef spec4 1 ≠ main_v48_2)), Function.update_of_ne (ne_ref (by decide : Pipeline.arrRef spec4 1 ≠ main_v48_1)), Function.update_of_ne (ne_ref (by decide : Pipeline.arrRef spec4 1 ≠ main_v48_0))]))
theorem hF4_2 (c : Dev nD) : (dat4 (atTc (St8 m)) c).arrAt 2 cfg4.N = atTc (St9 m) c (Pipeline.arrRef spec4 2) :=
  ((dat4 (atTc (St8 m)) c).arrAt_in 2 rfl _).trans ((A_eq4 (atTc (St8 m)) c 2).trans (by
    show St8 m c (Proc.devRef .tc (Pipeline.arrRef spec4 2)) = St9 m c (Proc.devRef .tc (Pipeline.arrRef spec4 2))
    unfold St9; rw [Function.update_of_ne (ne_ref (by decide : Pipeline.arrRef spec4 2 ≠ main_v48_2)), Function.update_of_ne (ne_ref (by decide : Pipeline.arrRef spec4 2 ≠ main_v48_1)), Function.update_of_ne (ne_ref (by decide : Pipeline.arrRef spec4 2 ≠ main_v48_0))]))
theorem hF4_3 (c : Dev nD) : (dat4 (atTc (St8 m)) c).arrAt 3 cfg4.N = atTc (St9 m) c (Pipeline.arrRef spec4 3) :=
  ((dat4 (atTc (St8 m)) c).arrAt_in 3 rfl _).trans ((A_eq4 (atTc (St8 m)) c 3).trans (by
    show St8 m c (Proc.devRef .tc (Pipeline.arrRef spec4 3)) = St9 m c (Proc.devRef .tc (Pipeline.arrRef spec4 3))
    unfold St9; rw [Function.update_of_ne (ne_ref (by decide : Pipeline.arrRef spec4 3 ≠ main_v48_2)), Function.update_of_ne (ne_ref (by decide : Pipeline.arrRef spec4 3 ≠ main_v48_1)), Function.update_of_ne (ne_ref (by decide : Pipeline.arrRef spec4 3 ≠ main_v48_0))]))
theorem hF4_4 (c : Dev nD) : (dat4 (atTc (St8 m)) c).arrAt 4 cfg4.N = atTc (St9 m) c (Pipeline.arrRef spec4 4) := by
  show _ = St9 m c (Proc.devRef .tc main_v48_0)
  unfold St9; rw [Function.update_of_ne (ne_ref (by decide : main_v48_0 ≠ main_v48_2)), Function.update_of_ne (ne_ref (by decide : main_v48_0 ≠ main_v48_1)), Function.update_self]
theorem hF4_5 (c : Dev nD) : (dat4 (atTc (St8 m)) c).arrAt 5 cfg4.N = atTc (St9 m) c (Pipeline.arrRef spec4 5) := by
  show _ = St9 m c (Proc.devRef .tc main_v48_1)
  unfold St9; rw [Function.update_of_ne (ne_ref (by decide : main_v48_1 ≠ main_v48_2)), Function.update_self]
theorem hF4_6 (c : Dev nD) : (dat4 (atTc (St8 m)) c).arrAt 6 cfg4.N = atTc (St9 m) c (Pipeline.arrRef spec4 6) := by
  show _ = St9 m c (Proc.devRef .tc main_v48_2)
  unfold St9; rw [Function.update_self]

theorem hF4 (c : Dev nD) : ∀ w : Fin cfg4.W, (dat4 (atTc (St8 m)) c).arrAt w cfg4.N = atTc (St9 m) c (Pipeline.arrRef spec4 w)
  | ⟨0, _⟩ => hF4_0 m c
  | ⟨1, _⟩ => hF4_1 m c
  | ⟨2, _⟩ => hF4_2 m c
  | ⟨3, _⟩ => hF4_3 m c
  | ⟨4, _⟩ => hF4_4 m c
  | ⟨5, _⟩ => hF4_5 m c
  | ⟨6, _⟩ => hF4_6 m c

theorem hrest4 (c : Dev nD) : ∀ b, b ∉ Finset.univ.image (Pipeline.arrRef spec4) → atTc (St9 m) c b = atTc (St8 m) c b := fun b hb => by
  show St9 m c (Proc.devRef .tc b) = St8 m c (Proc.devRef .tc b)
  unfold St9; rw [Function.update_of_ne (ne_ref (fun e => hb (Finset.mem_image.mpr ⟨(6 : Fin 7), Finset.mem_univ _, (show Pipeline.arrRef spec4 6 = main_v48_2 from rfl).trans e.symm⟩))), Function.update_of_ne (ne_ref (fun e => hb (Finset.mem_image.mpr ⟨(5 : Fin 7), Finset.mem_univ _, (show Pipeline.arrRef spec4 5 = main_v48_1 from rfl).trans e.symm⟩))), Function.update_of_ne (ne_ref (fun e => hb (Finset.mem_image.mpr ⟨(4 : Fin 7), Finset.mem_univ _, (show Pipeline.arrRef spec4 4 = main_v48_0 from rfl).trans e.symm⟩)))]

/-! ## Region 5 -/

theorem hF5_0 (c : Dev nD) : (dat5 (atTc (St10 m)) c).arrAt 0 cfg5.N = atTc (St11 m) c (Pipeline.arrRef spec5 0) :=
  ((dat5 (atTc (St10 m)) c).arrAt_in 0 rfl _).trans ((A_eq5 (atTc (St10 m)) c 0).trans (by
    show St10 m c (Proc.devRef .tc (Pipeline.arrRef spec5 0)) = St11 m c (Proc.devRef .tc (Pipeline.arrRef spec5 0))
    unfold St11; rw [Function.update_of_ne (ne_ref (by decide : Pipeline.arrRef spec5 0 ≠ main_v59))]))
theorem hF5_1 (c : Dev nD) : (dat5 (atTc (St10 m)) c).arrAt 1 cfg5.N = atTc (St11 m) c (Pipeline.arrRef spec5 1) :=
  ((dat5 (atTc (St10 m)) c).arrAt_in 1 rfl _).trans ((A_eq5 (atTc (St10 m)) c 1).trans (by
    show St10 m c (Proc.devRef .tc (Pipeline.arrRef spec5 1)) = St11 m c (Proc.devRef .tc (Pipeline.arrRef spec5 1))
    unfold St11; rw [Function.update_of_ne (ne_ref (by decide : Pipeline.arrRef spec5 1 ≠ main_v59))]))
theorem hF5_2 (c : Dev nD) : (dat5 (atTc (St10 m)) c).arrAt 2 cfg5.N = atTc (St11 m) c (Pipeline.arrRef spec5 2) :=
  ((dat5 (atTc (St10 m)) c).arrAt_in 2 rfl _).trans ((A_eq5 (atTc (St10 m)) c 2).trans (by
    show St10 m c (Proc.devRef .tc (Pipeline.arrRef spec5 2)) = St11 m c (Proc.devRef .tc (Pipeline.arrRef spec5 2))
    unfold St11; rw [Function.update_of_ne (ne_ref (by decide : Pipeline.arrRef spec5 2 ≠ main_v59))]))
theorem hF5_3 (c : Dev nD) : (dat5 (atTc (St10 m)) c).arrAt 3 cfg5.N = atTc (St11 m) c (Pipeline.arrRef spec5 3) :=
  ((dat5 (atTc (St10 m)) c).arrAt_in 3 rfl _).trans ((A_eq5 (atTc (St10 m)) c 3).trans (by
    show St10 m c (Proc.devRef .tc (Pipeline.arrRef spec5 3)) = St11 m c (Proc.devRef .tc (Pipeline.arrRef spec5 3))
    unfold St11; rw [Function.update_of_ne (ne_ref (by decide : Pipeline.arrRef spec5 3 ≠ main_v59))]))
theorem hF5_4 (c : Dev nD) : (dat5 (atTc (St10 m)) c).arrAt 4 cfg5.N = atTc (St11 m) c (Pipeline.arrRef spec5 4) :=
  ((dat5 (atTc (St10 m)) c).arrAt_in 4 rfl _).trans ((A_eq5 (atTc (St10 m)) c 4).trans (by
    show St10 m c (Proc.devRef .tc (Pipeline.arrRef spec5 4)) = St11 m c (Proc.devRef .tc (Pipeline.arrRef spec5 4))
    unfold St11; rw [Function.update_of_ne (ne_ref (by decide : Pipeline.arrRef spec5 4 ≠ main_v59))]))
theorem hF5_5 (c : Dev nD) : (dat5 (atTc (St10 m)) c).arrAt 5 cfg5.N = atTc (St11 m) c (Pipeline.arrRef spec5 5) := by
  show _ = St11 m c (Proc.devRef .tc main_v59)
  unfold St11; rw [Function.update_self]

theorem hF5 (c : Dev nD) : ∀ w : Fin cfg5.W, (dat5 (atTc (St10 m)) c).arrAt w cfg5.N = atTc (St11 m) c (Pipeline.arrRef spec5 w)
  | ⟨0, _⟩ => hF5_0 m c
  | ⟨1, _⟩ => hF5_1 m c
  | ⟨2, _⟩ => hF5_2 m c
  | ⟨3, _⟩ => hF5_3 m c
  | ⟨4, _⟩ => hF5_4 m c
  | ⟨5, _⟩ => hF5_5 m c

theorem hrest5 (c : Dev nD) : ∀ b, b ∉ Finset.univ.image (Pipeline.arrRef spec5) → atTc (St11 m) c b = atTc (St10 m) c b := fun b hb => by
  show St11 m c (Proc.devRef .tc b) = St10 m c (Proc.devRef .tc b)
  unfold St11; rw [Function.update_of_ne (ne_ref (fun e => hb (Finset.mem_image.mpr ⟨(5 : Fin 6), Finset.mem_univ _, (show Pipeline.arrRef spec5 5 = main_v59 from rfl).trans e.symm⟩)))]

/-! ## Region 6 -/

theorem hF6_0 (c : Dev nD) : (dat6 (atTc (St11 m)) c).arrAt 0 cfg6.N = atTc (St12 m) c (Pipeline.arrRef spec6 0) :=
  ((dat6 (atTc (St11 m)) c).arrAt_in 0 rfl _).trans ((A_eq6 (atTc (St11 m)) c 0).trans (by
    show St11 m c (Proc.devRef .tc (Pipeline.arrRef spec6 0)) = St12 m c (Proc.devRef .tc (Pipeline.arrRef spec6 0))
    unfold St12; rw [Function.update_of_ne (ne_ref (by decide : Pipeline.arrRef spec6 0 ≠ main_v60))]))
theorem hF6_1 (c : Dev nD) : (dat6 (atTc (St11 m)) c).arrAt 1 cfg6.N = atTc (St12 m) c (Pipeline.arrRef spec6 1) :=
  ((dat6 (atTc (St11 m)) c).arrAt_in 1 rfl _).trans ((A_eq6 (atTc (St11 m)) c 1).trans (by
    show St11 m c (Proc.devRef .tc (Pipeline.arrRef spec6 1)) = St12 m c (Proc.devRef .tc (Pipeline.arrRef spec6 1))
    unfold St12; rw [Function.update_of_ne (ne_ref (by decide : Pipeline.arrRef spec6 1 ≠ main_v60))]))
theorem hF6_2 (c : Dev nD) : (dat6 (atTc (St11 m)) c).arrAt 2 cfg6.N = atTc (St12 m) c (Pipeline.arrRef spec6 2) :=
  ((dat6 (atTc (St11 m)) c).arrAt_in 2 rfl _).trans ((A_eq6 (atTc (St11 m)) c 2).trans (by
    show St11 m c (Proc.devRef .tc (Pipeline.arrRef spec6 2)) = St12 m c (Proc.devRef .tc (Pipeline.arrRef spec6 2))
    unfold St12; rw [Function.update_of_ne (ne_ref (by decide : Pipeline.arrRef spec6 2 ≠ main_v60))]))
theorem hF6_3 (c : Dev nD) : (dat6 (atTc (St11 m)) c).arrAt 3 cfg6.N = atTc (St12 m) c (Pipeline.arrRef spec6 3) := by
  show _ = St12 m c (Proc.devRef .tc main_v60)
  unfold St12; rw [Function.update_self]

theorem hF6 (c : Dev nD) : ∀ w : Fin cfg6.W, (dat6 (atTc (St11 m)) c).arrAt w cfg6.N = atTc (St12 m) c (Pipeline.arrRef spec6 w)
  | ⟨0, _⟩ => hF6_0 m c
  | ⟨1, _⟩ => hF6_1 m c
  | ⟨2, _⟩ => hF6_2 m c
  | ⟨3, _⟩ => hF6_3 m c

theorem hrest6 (c : Dev nD) : ∀ b, b ∉ Finset.univ.image (Pipeline.arrRef spec6) → atTc (St12 m) c b = atTc (St11 m) c b := fun b hb => by
  show St12 m c (Proc.devRef .tc b) = St11 m c (Proc.devRef .tc b)
  unfold St12; rw [Function.update_of_ne (ne_ref (fun e => hb (Finset.mem_image.mpr ⟨(3 : Fin 4), Finset.mem_univ _, (show Pipeline.arrRef spec6 3 = main_v60 from rfl).trans e.symm⟩)))]

/-! ## Region 7 -/

theorem hF7_0 (c : Dev nD) : (dat7 (atTc (St13 m)) c).arrAt 0 cfg7.N = atTc (St14 m) c (Pipeline.arrRef spec7 0) :=
  ((dat7 (atTc (St13 m)) c).arrAt_in 0 rfl _).trans ((A_eq7 (atTc (St13 m)) c 0).trans (by
    show St13 m c (Proc.devRef .tc (Pipeline.arrRef spec7 0)) = St14 m c (Proc.devRef .tc (Pipeline.arrRef spec7 0))
    unfold St14; rw [Function.update_of_ne (ne_ref (by decide : Pipeline.arrRef spec7 0 ≠ main_v72_2)), Function.update_of_ne (ne_ref (by decide : Pipeline.arrRef spec7 0 ≠ main_v72_1)), Function.update_of_ne (ne_ref (by decide : Pipeline.arrRef spec7 0 ≠ main_v72_0))]))
theorem hF7_1 (c : Dev nD) : (dat7 (atTc (St13 m)) c).arrAt 1 cfg7.N = atTc (St14 m) c (Pipeline.arrRef spec7 1) :=
  ((dat7 (atTc (St13 m)) c).arrAt_in 1 rfl _).trans ((A_eq7 (atTc (St13 m)) c 1).trans (by
    show St13 m c (Proc.devRef .tc (Pipeline.arrRef spec7 1)) = St14 m c (Proc.devRef .tc (Pipeline.arrRef spec7 1))
    unfold St14; rw [Function.update_of_ne (ne_ref (by decide : Pipeline.arrRef spec7 1 ≠ main_v72_2)), Function.update_of_ne (ne_ref (by decide : Pipeline.arrRef spec7 1 ≠ main_v72_1)), Function.update_of_ne (ne_ref (by decide : Pipeline.arrRef spec7 1 ≠ main_v72_0))]))
theorem hF7_2 (c : Dev nD) : (dat7 (atTc (St13 m)) c).arrAt 2 cfg7.N = atTc (St14 m) c (Pipeline.arrRef spec7 2) :=
  ((dat7 (atTc (St13 m)) c).arrAt_in 2 rfl _).trans ((A_eq7 (atTc (St13 m)) c 2).trans (by
    show St13 m c (Proc.devRef .tc (Pipeline.arrRef spec7 2)) = St14 m c (Proc.devRef .tc (Pipeline.arrRef spec7 2))
    unfold St14; rw [Function.update_of_ne (ne_ref (by decide : Pipeline.arrRef spec7 2 ≠ main_v72_2)), Function.update_of_ne (ne_ref (by decide : Pipeline.arrRef spec7 2 ≠ main_v72_1)), Function.update_of_ne (ne_ref (by decide : Pipeline.arrRef spec7 2 ≠ main_v72_0))]))
theorem hF7_3 (c : Dev nD) : (dat7 (atTc (St13 m)) c).arrAt 3 cfg7.N = atTc (St14 m) c (Pipeline.arrRef spec7 3) :=
  ((dat7 (atTc (St13 m)) c).arrAt_in 3 rfl _).trans ((A_eq7 (atTc (St13 m)) c 3).trans (by
    show St13 m c (Proc.devRef .tc (Pipeline.arrRef spec7 3)) = St14 m c (Proc.devRef .tc (Pipeline.arrRef spec7 3))
    unfold St14; rw [Function.update_of_ne (ne_ref (by decide : Pipeline.arrRef spec7 3 ≠ main_v72_2)), Function.update_of_ne (ne_ref (by decide : Pipeline.arrRef spec7 3 ≠ main_v72_1)), Function.update_of_ne (ne_ref (by decide : Pipeline.arrRef spec7 3 ≠ main_v72_0))]))
theorem hF7_4 (c : Dev nD) : (dat7 (atTc (St13 m)) c).arrAt 4 cfg7.N = atTc (St14 m) c (Pipeline.arrRef spec7 4) := by
  show _ = St14 m c (Proc.devRef .tc main_v72_0)
  unfold St14; rw [Function.update_of_ne (ne_ref (by decide : main_v72_0 ≠ main_v72_2)), Function.update_of_ne (ne_ref (by decide : main_v72_0 ≠ main_v72_1)), Function.update_self]
theorem hF7_5 (c : Dev nD) : (dat7 (atTc (St13 m)) c).arrAt 5 cfg7.N = atTc (St14 m) c (Pipeline.arrRef spec7 5) := by
  show _ = St14 m c (Proc.devRef .tc main_v72_1)
  unfold St14; rw [Function.update_of_ne (ne_ref (by decide : main_v72_1 ≠ main_v72_2)), Function.update_self]
theorem hF7_6 (c : Dev nD) : (dat7 (atTc (St13 m)) c).arrAt 6 cfg7.N = atTc (St14 m) c (Pipeline.arrRef spec7 6) := by
  show _ = St14 m c (Proc.devRef .tc main_v72_2)
  unfold St14; rw [Function.update_self]

theorem hF7 (c : Dev nD) : ∀ w : Fin cfg7.W, (dat7 (atTc (St13 m)) c).arrAt w cfg7.N = atTc (St14 m) c (Pipeline.arrRef spec7 w)
  | ⟨0, _⟩ => hF7_0 m c
  | ⟨1, _⟩ => hF7_1 m c
  | ⟨2, _⟩ => hF7_2 m c
  | ⟨3, _⟩ => hF7_3 m c
  | ⟨4, _⟩ => hF7_4 m c
  | ⟨5, _⟩ => hF7_5 m c
  | ⟨6, _⟩ => hF7_6 m c

theorem hrest7 (c : Dev nD) : ∀ b, b ∉ Finset.univ.image (Pipeline.arrRef spec7) → atTc (St14 m) c b = atTc (St13 m) c b := fun b hb => by
  show St14 m c (Proc.devRef .tc b) = St13 m c (Proc.devRef .tc b)
  unfold St14; rw [Function.update_of_ne (ne_ref (fun e => hb (Finset.mem_image.mpr ⟨(6 : Fin 7), Finset.mem_univ _, (show Pipeline.arrRef spec7 6 = main_v72_2 from rfl).trans e.symm⟩))), Function.update_of_ne (ne_ref (fun e => hb (Finset.mem_image.mpr ⟨(5 : Fin 7), Finset.mem_univ _, (show Pipeline.arrRef spec7 5 = main_v72_1 from rfl).trans e.symm⟩))), Function.update_of_ne (ne_ref (fun e => hb (Finset.mem_image.mpr ⟨(4 : Fin 7), Finset.mem_univ _, (show Pipeline.arrRef spec7 4 = main_v72_0 from rfl).trans e.symm⟩)))]

/-! ## Region 8 -/

theorem hF8_0 (c : Dev nD) : (dat8 (atTc (St15 m)) c).arrAt 0 cfg8.N = atTc (St16 m) c (Pipeline.arrRef spec8 0) :=
  ((dat8 (atTc (St15 m)) c).arrAt_in 0 rfl _).trans ((A_eq8 (atTc (St15 m)) c 0).trans (by
    show St15 m c (Proc.devRef .tc (Pipeline.arrRef spec8 0)) = St16 m c (Proc.devRef .tc (Pipeline.arrRef spec8 0))
    unfold St16; rw [Function.update_of_ne (ne_ref (by decide : Pipeline.arrRef spec8 0 ≠ main_v83))]))
theorem hF8_1 (c : Dev nD) : (dat8 (atTc (St15 m)) c).arrAt 1 cfg8.N = atTc (St16 m) c (Pipeline.arrRef spec8 1) :=
  ((dat8 (atTc (St15 m)) c).arrAt_in 1 rfl _).trans ((A_eq8 (atTc (St15 m)) c 1).trans (by
    show St15 m c (Proc.devRef .tc (Pipeline.arrRef spec8 1)) = St16 m c (Proc.devRef .tc (Pipeline.arrRef spec8 1))
    unfold St16; rw [Function.update_of_ne (ne_ref (by decide : Pipeline.arrRef spec8 1 ≠ main_v83))]))
theorem hF8_2 (c : Dev nD) : (dat8 (atTc (St15 m)) c).arrAt 2 cfg8.N = atTc (St16 m) c (Pipeline.arrRef spec8 2) :=
  ((dat8 (atTc (St15 m)) c).arrAt_in 2 rfl _).trans ((A_eq8 (atTc (St15 m)) c 2).trans (by
    show St15 m c (Proc.devRef .tc (Pipeline.arrRef spec8 2)) = St16 m c (Proc.devRef .tc (Pipeline.arrRef spec8 2))
    unfold St16; rw [Function.update_of_ne (ne_ref (by decide : Pipeline.arrRef spec8 2 ≠ main_v83))]))
theorem hF8_3 (c : Dev nD) : (dat8 (atTc (St15 m)) c).arrAt 3 cfg8.N = atTc (St16 m) c (Pipeline.arrRef spec8 3) :=
  ((dat8 (atTc (St15 m)) c).arrAt_in 3 rfl _).trans ((A_eq8 (atTc (St15 m)) c 3).trans (by
    show St15 m c (Proc.devRef .tc (Pipeline.arrRef spec8 3)) = St16 m c (Proc.devRef .tc (Pipeline.arrRef spec8 3))
    unfold St16; rw [Function.update_of_ne (ne_ref (by decide : Pipeline.arrRef spec8 3 ≠ main_v83))]))
theorem hF8_4 (c : Dev nD) : (dat8 (atTc (St15 m)) c).arrAt 4 cfg8.N = atTc (St16 m) c (Pipeline.arrRef spec8 4) :=
  ((dat8 (atTc (St15 m)) c).arrAt_in 4 rfl _).trans ((A_eq8 (atTc (St15 m)) c 4).trans (by
    show St15 m c (Proc.devRef .tc (Pipeline.arrRef spec8 4)) = St16 m c (Proc.devRef .tc (Pipeline.arrRef spec8 4))
    unfold St16; rw [Function.update_of_ne (ne_ref (by decide : Pipeline.arrRef spec8 4 ≠ main_v83))]))
theorem hF8_5 (c : Dev nD) : (dat8 (atTc (St15 m)) c).arrAt 5 cfg8.N = atTc (St16 m) c (Pipeline.arrRef spec8 5) := by
  show _ = St16 m c (Proc.devRef .tc main_v83)
  unfold St16; rw [Function.update_self]

theorem hF8 (c : Dev nD) : ∀ w : Fin cfg8.W, (dat8 (atTc (St15 m)) c).arrAt w cfg8.N = atTc (St16 m) c (Pipeline.arrRef spec8 w)
  | ⟨0, _⟩ => hF8_0 m c
  | ⟨1, _⟩ => hF8_1 m c
  | ⟨2, _⟩ => hF8_2 m c
  | ⟨3, _⟩ => hF8_3 m c
  | ⟨4, _⟩ => hF8_4 m c
  | ⟨5, _⟩ => hF8_5 m c

theorem hrest8 (c : Dev nD) : ∀ b, b ∉ Finset.univ.image (Pipeline.arrRef spec8) → atTc (St16 m) c b = atTc (St15 m) c b := fun b hb => by
  show St16 m c (Proc.devRef .tc b) = St15 m c (Proc.devRef .tc b)
  unfold St16; rw [Function.update_of_ne (ne_ref (fun e => hb (Finset.mem_image.mpr ⟨(5 : Fin 6), Finset.mem_univ _, (show Pipeline.arrRef spec8 5 = main_v83 from rfl).trans e.symm⟩)))]

/-! ## Region 9 -/

theorem hF9_0 (c : Dev nD) : (dat9 (atTc (St17 m)) c).arrAt 0 cfg9.N = atTc (St18 m) c (Pipeline.arrRef spec9 0) :=
  ((dat9 (atTc (St17 m)) c).arrAt_in 0 rfl _).trans ((A_eq9 (atTc (St17 m)) c 0).trans (by
    show St17 m c (Proc.devRef .tc (Pipeline.arrRef spec9 0)) = St18 m c (Proc.devRef .tc (Pipeline.arrRef spec9 0))
    unfold St18; rw [Function.update_of_ne (ne_ref (by decide : Pipeline.arrRef spec9 0 ≠ main_v99))]))
theorem hF9_1 (c : Dev nD) : (dat9 (atTc (St17 m)) c).arrAt 1 cfg9.N = atTc (St18 m) c (Pipeline.arrRef spec9 1) :=
  ((dat9 (atTc (St17 m)) c).arrAt_in 1 rfl _).trans ((A_eq9 (atTc (St17 m)) c 1).trans (by
    show St17 m c (Proc.devRef .tc (Pipeline.arrRef spec9 1)) = St18 m c (Proc.devRef .tc (Pipeline.arrRef spec9 1))
    unfold St18; rw [Function.update_of_ne (ne_ref (by decide : Pipeline.arrRef spec9 1 ≠ main_v99))]))
theorem hF9_2 (c : Dev nD) : (dat9 (atTc (St17 m)) c).arrAt 2 cfg9.N = atTc (St18 m) c (Pipeline.arrRef spec9 2) :=
  ((dat9 (atTc (St17 m)) c).arrAt_in 2 rfl _).trans ((A_eq9 (atTc (St17 m)) c 2).trans (by
    show St17 m c (Proc.devRef .tc (Pipeline.arrRef spec9 2)) = St18 m c (Proc.devRef .tc (Pipeline.arrRef spec9 2))
    unfold St18; rw [Function.update_of_ne (ne_ref (by decide : Pipeline.arrRef spec9 2 ≠ main_v99))]))
theorem hF9_3 (c : Dev nD) : (dat9 (atTc (St17 m)) c).arrAt 3 cfg9.N = atTc (St18 m) c (Pipeline.arrRef spec9 3) :=
  ((dat9 (atTc (St17 m)) c).arrAt_in 3 rfl _).trans ((A_eq9 (atTc (St17 m)) c 3).trans (by
    show St17 m c (Proc.devRef .tc (Pipeline.arrRef spec9 3)) = St18 m c (Proc.devRef .tc (Pipeline.arrRef spec9 3))
    unfold St18; rw [Function.update_of_ne (ne_ref (by decide : Pipeline.arrRef spec9 3 ≠ main_v99))]))
theorem hF9_4 (c : Dev nD) : (dat9 (atTc (St17 m)) c).arrAt 4 cfg9.N = atTc (St18 m) c (Pipeline.arrRef spec9 4) :=
  ((dat9 (atTc (St17 m)) c).arrAt_in 4 rfl _).trans ((A_eq9 (atTc (St17 m)) c 4).trans (by
    show St17 m c (Proc.devRef .tc (Pipeline.arrRef spec9 4)) = St18 m c (Proc.devRef .tc (Pipeline.arrRef spec9 4))
    unfold St18; rw [Function.update_of_ne (ne_ref (by decide : Pipeline.arrRef spec9 4 ≠ main_v99))]))
theorem hF9_5 (c : Dev nD) : (dat9 (atTc (St17 m)) c).arrAt 5 cfg9.N = atTc (St18 m) c (Pipeline.arrRef spec9 5) := by
  show _ = St18 m c (Proc.devRef .tc main_v99)
  unfold St18; rw [Function.update_self]

theorem hF9 (c : Dev nD) : ∀ w : Fin cfg9.W, (dat9 (atTc (St17 m)) c).arrAt w cfg9.N = atTc (St18 m) c (Pipeline.arrRef spec9 w)
  | ⟨0, _⟩ => hF9_0 m c
  | ⟨1, _⟩ => hF9_1 m c
  | ⟨2, _⟩ => hF9_2 m c
  | ⟨3, _⟩ => hF9_3 m c
  | ⟨4, _⟩ => hF9_4 m c
  | ⟨5, _⟩ => hF9_5 m c

theorem hrest9 (c : Dev nD) : ∀ b, b ∉ Finset.univ.image (Pipeline.arrRef spec9) → atTc (St18 m) c b = atTc (St17 m) c b := fun b hb => by
  show St18 m c (Proc.devRef .tc b) = St17 m c (Proc.devRef .tc b)
  unfold St18; rw [Function.update_of_ne (ne_ref (fun e => hb (Finset.mem_image.mpr ⟨(5 : Fin 6), Finset.mem_univ _, (show Pipeline.arrRef spec9 5 = main_v99 from rfl).trans e.symm⟩)))]

/-! ## The proof data family and the thread state -/

/-- Every pipeline's proof data, each at its region's entry contents. -/
def pdats : (p : Fin 10) → (c : Dev nD) → Dat τ (Elt F) Unit ℕ (UR sig nD τ) ℕ (cfgs p) c
  | ⟨0, _⟩ => fun c => dat0 (atTc (St1 m)) c
  | ⟨1, _⟩ => fun c => dat1 (atTc (St3 m)) c
  | ⟨2, _⟩ => fun c => dat2 (atTc (St5 m)) c
  | ⟨3, _⟩ => fun c => dat3 (atTc (St6 m)) c
  | ⟨4, _⟩ => fun c => dat4 (atTc (St8 m)) c
  | ⟨5, _⟩ => fun c => dat5 (atTc (St10 m)) c
  | ⟨6, _⟩ => fun c => dat6 (atTc (St11 m)) c
  | ⟨7, _⟩ => fun c => dat7 (atTc (St13 m)) c
  | ⟨8, _⟩ => fun c => dat8 (atTc (St15 m)) c
  | ⟨9, _⟩ => fun c => dat9 (atTc (St17 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev Rest (c : Dev nD) : sProp 𝕄 := iprop((∃ r, prngReg c r) ∗ ∃ W, owes (c : Thread nD τ) (0 : CellTallies nD τ sig Unit) W)

set_option backward.isDefEq.respectTransparency.types false in
/-- Region 0 over the thread state: entered from every unscoped buffer at the contents before it, left at those contents with
    its output arrays at what the pipeline leaves; the generator register into the region's invariant and out; nothing owed. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (St1 m)) c).loose
  hwaits := Pipeline.hwaits_of_owed_zero _ _ _ _ L lv 0 fun _ _ => rfl
  pre c := iprop(StableHlo.held (c : Thread nD τ) (Pipeline.ucRefs τ sig) (St1 m c) ∗ Rest c)
  post c := iprop(StableHlo.held (c : Thread nD τ) (Pipeline.ucRefs τ sig) (St2 m c) ∗ Rest c)
  X c := iprop(∃ r, prngReg c r)
  Y c := iprop(∃ r, prngReg c r)
  Z c := Pipeline.unscopedRest (Ix := Unit) (Name := ℕ) (U := UR sig nD τ) (Lvl := ℕ) spec0 c (atTc (St1 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (atTc (St1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m 0 c).Φ 0 from hin0 (atTc (St1 m)) c)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ Pipeline.ΦA spec0 c from hout0 (atTc (St1 m)) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (atTc (St1 m) c) (atTc (St2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at those contents with
    its output arrays at what the pipeline leaves; the generator register into the region's invariant and out; nothing owed. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (St3 m)) c).loose
  hwaits := Pipeline.hwaits_of_owed_zero _ _ _ _ L lv 1 fun _ _ => rfl
  pre c := iprop(StableHlo.held (c : Thread nD τ) (Pipeline.ucRefs τ sig) (St3 m c) ∗ Rest c)
  post c := iprop(StableHlo.held (c : Thread nD τ) (Pipeline.ucRefs τ sig) (St4 m c) ∗ Rest c)
  X c := iprop(∃ r, prngReg c r)
  Y c := iprop(∃ r, prngReg c r)
  Z c := Pipeline.unscopedRest (Ix := Unit) (Name := ℕ) (U := UR sig nD τ) (Lvl := ℕ) spec1 c (atTc (St3 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (atTc (St3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (atTc (St3 m)) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (atTc (St3 m)) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (atTc (St3 m) c) (atTc (St4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at those contents with
    its output arrays at what the pipeline leaves; the generator register into the region's invariant and out; nothing owed. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (St5 m)) c).loose
  hwaits := Pipeline.hwaits_of_owed_zero _ _ _ _ L lv 2 fun _ _ => rfl
  pre c := iprop(StableHlo.held (c : Thread nD τ) (Pipeline.ucRefs τ sig) (St5 m c) ∗ Rest c)
  post c := iprop(StableHlo.held (c : Thread nD τ) (Pipeline.ucRefs τ sig) (St6 m c) ∗ Rest c)
  X c := iprop(∃ r, prngReg c r)
  Y c := iprop(∃ r, prngReg c r)
  Z c := Pipeline.unscopedRest (Ix := Unit) (Name := ℕ) (U := UR sig nD τ) (Lvl := ℕ) spec2 c (atTc (St5 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (atTc (St5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec2 c ⊢ (pdats m 2 c).Φ 0 from hin2 (atTc (St5 m)) c)
    unfold Pipeline.ΦA
    iintro ⟨Hp, -, Hr⟩
    isplitl [Hr]; · iexact Hr
    iexact Hp
  hout c := by
    rw [Pipeline.ownSems0_none]
    refine BIBase.Entails.trans (show (pdats m 2 c).Φ (Fin.last _) ⊢ Pipeline.ΦA spec2 c from hout2 (atTc (St5 m)) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (atTc (St5 m) c) (atTc (St6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents before it, left at those contents with
    its output arrays at what the pipeline leaves; the generator register into the region's invariant and out; nothing owed. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (St6 m)) c).loose
  hwaits := Pipeline.hwaits_of_owed_zero _ _ _ _ L lv 3 fun _ _ => rfl
  pre c := iprop(StableHlo.held (c : Thread nD τ) (Pipeline.ucRefs τ sig) (St6 m c) ∗ Rest c)
  post c := iprop(StableHlo.held (c : Thread nD τ) (Pipeline.ucRefs τ sig) (St7 m c) ∗ Rest c)
  X c := iprop(∃ r, prngReg c r)
  Y c := iprop(∃ r, prngReg c r)
  Z c := Pipeline.unscopedRest (Ix := Unit) (Name := ℕ) (U := UR sig nD τ) (Lvl := ℕ) spec3 c (atTc (St6 m) c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (atTc (St6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec3 c ⊢ (pdats m 3 c).Φ 0 from hin3 (atTc (St6 m)) c)
    unfold Pipeline.ΦA
    iintro ⟨Hp, -, Hr⟩
    isplitl [Hr]; · iexact Hr
    iexact Hp
  hout c := by
    rw [Pipeline.ownSems0_none]
    refine BIBase.Entails.trans (show (pdats m 3 c).Φ (Fin.last _) ⊢ Pipeline.ΦA spec3 c from hout3 (atTc (St6 m)) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (atTc (St6 m) c) (atTc (St7 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at the contents before it, left at those contents with
    its output arrays at what the pipeline leaves; the generator register into the region's invariant and out; nothing owed. -/
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atTc (St8 m)) c).loose
  hwaits := Pipeline.hwaits_of_owed_zero _ _ _ _ L lv 4 fun _ _ => rfl
  pre c := iprop(StableHlo.held (c : Thread nD τ) (Pipeline.ucRefs τ sig) (St8 m c) ∗ Rest c)
  post c := iprop(StableHlo.held (c : Thread nD τ) (Pipeline.ucRefs τ sig) (St9 m c) ∗ Rest c)
  X c := iprop(∃ r, prngReg c r)
  Y c := iprop(∃ r, prngReg c r)
  Z c := Pipeline.unscopedRest (Ix := Unit) (Name := ℕ) (U := UR sig nD τ) (Lvl := ℕ) spec4 c (atTc (St8 m) c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (atTc (St8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec4 c ⊢ (pdats m 4 c).Φ 0 from hin4 (atTc (St8 m)) c)
    unfold Pipeline.ΦA
    iintro ⟨Hp, -, Hr⟩
    isplitl [Hr]; · iexact Hr
    iexact Hp
  hout c := by
    rw [Pipeline.ownSems0_none]
    refine BIBase.Entails.trans (show (pdats m 4 c).Φ (Fin.last _) ⊢ Pipeline.ΦA spec4 c from hout4 (atTc (St8 m)) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (atTc (St8 m) c) (atTc (St9 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at the contents before it, left at those contents with
    its output arrays at what the pipeline leaves; the generator register into the region's invariant and out; nothing owed. -/
def reg5 : Pipeline.RegionSeg (pcfgs (F := F)) Gen.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (atTc (St10 m)) c).loose
  hwaits := Pipeline.hwaits_of_owed_zero _ _ _ _ L lv 5 fun _ _ => rfl
  pre c := iprop(StableHlo.held (c : Thread nD τ) (Pipeline.ucRefs τ sig) (St10 m c) ∗ Rest c)
  post c := iprop(StableHlo.held (c : Thread nD τ) (Pipeline.ucRefs τ sig) (St11 m c) ∗ Rest c)
  X c := iprop(∃ r, prngReg c r)
  Y c := iprop(∃ r, prngReg c r)
  Z c := Pipeline.unscopedRest (Ix := Unit) (Name := ℕ) (U := UR sig nD τ) (Lvl := ℕ) spec5 c (atTc (St10 m) c)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (atTc (St10 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec5 c ⊢ (pdats m 5 c).Φ 0 from hin5 (atTc (St10 m)) c)
    unfold Pipeline.ΦA
    iintro ⟨Hp, -, Hr⟩
    isplitl [Hr]; · iexact Hr
    iexact Hp
  hout c := by
    rw [Pipeline.ownSems0_none]
    refine BIBase.Entails.trans (show (pdats m 5 c).Φ (Fin.last _) ⊢ Pipeline.ΦA spec5 c from hout5 (atTc (St10 m)) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (atTc (St10 m) c) (atTc (St11 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at the contents before it, left at those contents with
    its output arrays at what the pipeline leaves; the generator register into the region's invariant and out; nothing owed. -/
def reg6 : Pipeline.RegionSeg (pcfgs (F := F)) Gen.adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (atTc (St11 m)) c).loose
  hwaits := Pipeline.hwaits_of_owed_zero _ _ _ _ L lv 6 fun _ _ => rfl
  pre c := iprop(StableHlo.held (c : Thread nD τ) (Pipeline.ucRefs τ sig) (St11 m c) ∗ Rest c)
  post c := iprop(StableHlo.held (c : Thread nD τ) (Pipeline.ucRefs τ sig) (St12 m c) ∗ Rest c)
  X c := iprop(∃ r, prngReg c r)
  Y c := iprop(∃ r, prngReg c r)
  Z c := Pipeline.unscopedRest (Ix := Unit) (Name := ℕ) (U := UR sig nD τ) (Lvl := ℕ) spec6 c (atTc (St11 m) c)
  hentry c := by
    rw [Pipeline.ownSems0_none]
    have hsplit := Pipeline.arrays_of_unscopedBufs (p := 6) (pcfgs (F := F)) Gen.adm (pdats m) launch6.win launch6.arr_whole c
      ((pdats m 6 c).share_full fun _ => rfl) (atTc (St11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec6 c ⊢ (pdats m 6 c).Φ 0 from hin6 (atTc (St11 m)) c)
    unfold Pipeline.ΦA
    iintro ⟨Hp, -, Hr⟩
    isplitl [Hr]; · iexact Hr
    iexact Hp
  hout c := by
    rw [Pipeline.ownSems0_none]
    refine BIBase.Entails.trans (show (pdats m 6 c).Φ (Fin.last _) ⊢ Pipeline.ΦA spec6 c from hout6 (atTc (St11 m)) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (pdats m) ((pdats m 6 c).share_full fun _ => rfl)
      (atTc (St11 m) c) (atTc (St12 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at the contents before it, left at those contents with
    its output arrays at what the pipeline leaves; the generator register into the region's invariant and out; nothing owed. -/
def reg7 : Pipeline.RegionSeg (pcfgs (F := F)) Gen.adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (atTc (St13 m)) c).loose
  hwaits := Pipeline.hwaits_of_owed_zero _ _ _ _ L lv 7 fun _ _ => rfl
  pre c := iprop(StableHlo.held (c : Thread nD τ) (Pipeline.ucRefs τ sig) (St13 m c) ∗ Rest c)
  post c := iprop(StableHlo.held (c : Thread nD τ) (Pipeline.ucRefs τ sig) (St14 m c) ∗ Rest c)
  X c := iprop(∃ r, prngReg c r)
  Y c := iprop(∃ r, prngReg c r)
  Z c := Pipeline.unscopedRest (Ix := Unit) (Name := ℕ) (U := UR sig nD τ) (Lvl := ℕ) spec7 c (atTc (St13 m) c)
  hentry c := by
    rw [Pipeline.ownSems0_none]
    have hsplit := Pipeline.arrays_of_unscopedBufs (p := 7) (pcfgs (F := F)) Gen.adm (pdats m) launch7.win launch7.arr_whole c
      ((pdats m 7 c).share_full fun _ => rfl) (atTc (St13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec7 c ⊢ (pdats m 7 c).Φ 0 from hin7 (atTc (St13 m)) c)
    unfold Pipeline.ΦA
    iintro ⟨Hp, -, Hr⟩
    isplitl [Hr]; · iexact Hr
    iexact Hp
  hout c := by
    rw [Pipeline.ownSems0_none]
    refine BIBase.Entails.trans (show (pdats m 7 c).Φ (Fin.last _) ⊢ Pipeline.ΦA spec7 c from hout7 (atTc (St13 m)) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) Gen.adm (Ix := Unit) (Name := ℕ) (U := UR sig nD τ) (Lvl := ℕ)
      launch7.win launch7.arr_whole c (pdats m) ((pdats m 7 c).share_full fun _ => rfl)
      (atTc (St13 m) c) (atTc (St14 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at the contents before it, left at those contents with
    its output arrays at what the pipeline leaves; the generator register into the region's invariant and out; nothing owed. -/
def reg8 : Pipeline.RegionSeg (pcfgs (F := F)) Gen.adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (atTc (St15 m)) c).loose
  hwaits := Pipeline.hwaits_of_owed_zero _ _ _ _ L lv 8 fun _ _ => rfl
  pre c := iprop(StableHlo.held (c : Thread nD τ) (Pipeline.ucRefs τ sig) (St15 m c) ∗ Rest c)
  post c := iprop(StableHlo.held (c : Thread nD τ) (Pipeline.ucRefs τ sig) (St16 m c) ∗ Rest c)
  X c := iprop(∃ r, prngReg c r)
  Y c := iprop(∃ r, prngReg c r)
  Z c := Pipeline.unscopedRest (Ix := Unit) (Name := ℕ) (U := UR sig nD τ) (Lvl := ℕ) spec8 c (atTc (St15 m) c)
  hentry c := by
    rw [Pipeline.ownSems0_none]
    have hsplit := Pipeline.arrays_of_unscopedBufs (p := 8) (pcfgs (F := F)) Gen.adm (pdats m) launch8.win launch8.arr_whole c
      ((pdats m 8 c).share_full fun _ => rfl) (atTc (St15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec8 c ⊢ (pdats m 8 c).Φ 0 from hin8 (atTc (St15 m)) c)
    unfold Pipeline.ΦA
    iintro ⟨Hp, -, Hr⟩
    isplitl [Hr]; · iexact Hr
    iexact Hp
  hout c := by
    rw [Pipeline.ownSems0_none]
    refine BIBase.Entails.trans (show (pdats m 8 c).Φ (Fin.last _) ⊢ Pipeline.ΦA spec8 c from hout8 (atTc (St15 m)) c) ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) Gen.adm (Ix := Unit) (Name := ℕ) (U := UR sig nD τ) (Lvl := ℕ)
      launch8.win launch8.arr_whole c (pdats m) ((pdats m 8 c).share_full fun _ => rfl)
      (atTc (St15 m) c) (atTc (St16 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at the contents before it, left at those contents with
    its output arrays at what the pipeline leaves; the generator register into the region's invariant and out; nothing owed. -/
def reg9 : Pipeline.RegionSeg (pcfgs (F := F)) Gen.adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (atTc (St17 m)) c).loose
  hwaits := Pipeline.hwaits_of_owed_zero _ _ _ _ L lv 9 fun _ _ => rfl
  pre c := iprop(StableHlo.held (c : Thread nD τ) (Pipeline.ucRefs τ sig) (St17 m c) ∗ Rest c)
  post c := iprop(StableHlo.held (c : Thread nD τ) (Pipeline.ucRefs τ sig) (St18 m c) ∗ Rest c)
  X c := iprop(∃ r, prngReg c r)
  Y c := iprop(∃ r, prngReg c r)
  Z c := Pipeline.unscopedRest (Ix := Unit) (Name := ℕ) (U := UR sig nD τ) (Lvl := ℕ) spec9 c (atTc (St17 m) c)
  hentry c := by
    rw [Pipeline.ownSems0_none]
    have hsplit := Pipeline.arrays_of_unscopedBufs (p := 9) (pcfgs (F := F)) Gen.adm (pdats m) launch9.win launch9.arr_whole c
      ((pdats m 9 c).share_full fun _ => rfl) (atTc (St17 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec9 c ⊢ (pdats m 9 c).Φ 0 from hin9 (atTc (St17 m)) c)
    unfold Pipeline.ΦA
    iintro ⟨Hp, -, Hr⟩
    isplitl [Hr]; · iexact Hr
    iexact Hp
  hout c := by
    rw [Pipeline.ownSems0_none]
    refine BIBase.Entails.trans (show (pdats m 9 c).Φ (Fin.last _) ⊢ Pipeline.ΦA spec9 c from hout9 (atTc (St17 m)) c) ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) Gen.adm (Ix := Unit) (Name := ℕ) (U := UR sig nD τ) (Lvl := ℕ)
      launch9.win launch9.arr_whole c (pdats m) ((pdats m 9 c).share_full fun _ => rfl)
      (atTc (St17 m) c) (atTc (St18 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Frame.lean ====
import proofs.«115763_j74259984548099_2_alg».proof.Proof.Gen.KernelIdeal.Launch
import proofs.«115763_j74259984548099_2_alg».proof.Proof.Gen.KernelIdeal.Skeleton
import proofs.«115763_j74259984548099_2_alg».proof.Proof.Gen.KernelIdeal.Points
import proofs.«115763_j74259984548099_2_alg».proof.Proof.KI.Regs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core makes the rest state: the generator register at its launch state, nothing owed. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (fun c => Rest (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- The frame: every weakly fair execution of @main ends, nothing faulting, every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Gen.frame_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj)) (hu₀ := hu₀)
    (E := fun _ c => Rest c) (hE0 := hE0 ρ) (hE10 := fun c => by iintro ⟨-, HO⟩; iexact HO)
    (reg0 m) (fun c => .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V6_eq]; exact .rfl) (fun c => by rw [V7_eq]; exact .rfl)
    (reg4 m) (fun c => by rw [V8_eq]; exact .rfl) (fun c => by rw [V9_eq]; exact .rfl)
    (reg5 m) (fun c => by rw [V10_eq]; exact .rfl) (fun c => by rw [V11_eq]; exact .rfl)
    (reg6 m) (fun c => by rw [V11_eq]; exact .rfl) (fun c => by rw [V12_eq]; exact .rfl)
    (reg7 m) (fun c => by rw [V13_eq]; exact .rfl) (fun c => by rw [V14_eq]; exact .rfl)
    (reg8 m) (fun c => by rw [V15_eq]; exact .rfl) (fun c => by rw [V16_eq]; exact .rfl)
    (reg9 m) (fun c => by rw [V17_eq]; exact .rfl) (fun c => by rw [V18_eq]; exact .rfl)

end Cert.KernelIdeal.Hand

end
-- ==== Proof.KI.Run.lean ====
import proofs.«115763_j74259984548099_2_alg».proof.Proof.Gen.KernelIdeal.Launch
import proofs.«115763_j74259984548099_2_alg».proof.Proof.Gen.KernelIdeal.Skeleton
import proofs.«115763_j74259984548099_2_alg».proof.Proof.Gen.KernelIdeal.Points
import proofs.«115763_j74259984548099_2_alg».proof.Proof.KI.Frame
import proofs.«115763_j74259984548099_2_alg».proof.Proof.KI.RunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with its result: the result buffer ends at what the last region's write-backs leave in it, the arguments as launched. -/
theorem run : θ_run defs (onTc (τ := τ) (main (F := F))) ⟨m, fun _ => 0, ρ⟩ (fun r => ∀ c : Dev nD,
      r.2.mem ((c.tc : Thread nD τ).loc main_v99) = St18 m c main_v99
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c).1.trans (congrFun (V18_eq m c) _), (h c).2⟩)
  (Cert.KernelIdeal.GenP.run_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj)) (hu₀ := hu₀)
    (E := fun _ c => Rest c) (hE0 := hE0 ρ) (hE10 := fun c => by iintro ⟨-, HO⟩; iexact HO)
    (reg0 m) (fun c => .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V6_eq]; exact .rfl) (fun c => by rw [V7_eq]; exact .rfl)
    (reg4 m) (fun c => by rw [V8_eq]; exact .rfl) (fun c => by rw [V9_eq]; exact .rfl)
    (reg5 m) (fun c => by rw [V10_eq]; exact .rfl) (fun c => by rw [V11_eq]; exact .rfl)
    (reg6 m) (fun c => by rw [V11_eq]; exact .rfl) (fun c => by rw [V12_eq]; exact .rfl)
    (reg7 m) (fun c => by rw [V13_eq]; exact .rfl) (fun c => by rw [V14_eq]; exact .rfl)
    (reg8 m) (fun c => by rw [V15_eq]; exact .rfl) (fun c => by rw [V16_eq]; exact .rfl)
    (reg9 m) (fun c => by rw [V17_eq]; exact .rfl) (fun c => by rw [V18_eq]; exact .rfl))

end Cert.KernelIdeal.Hand

end
-- ==== Proof.LibRows.lean ====
/-
  Rows of a table gathered at, and accumulated into, integer row numbers.

  `x[idx]` of a table `x : [N, C]` (or `[N]`) at row numbers `idx : [E, 1]` reads, for edge `e`, the row whose number is
  `idx[e, 0]` read as a signed integer and clamped into `[0, N − 1]` (`rowOf`). A `segment_sum` of messages `upd : [E, C]`
  (or `[E]`) at row numbers `idx` adds, into row `d`, the messages of exactly those edges `e` whose number `idx[e, 0]`, read
  signed and NOT clamped, is `d` (`edgesInto`): an edge whose number is outside `[0, N)` is dropped. The three sums of
  one program — onto `[N]`, onto `[N, C]` for each width — run over the SAME set of edges, and for an edge of that set the
  clamped row is `d` itself.
-/
import Idealize.ShloMosaic.PureOps.Ideal
import Idealize.ShloMosaic.Lib.ValueIdx

noncomputable section

namespace Cert.Lib.Rows

open Idealize.ShloMosaic Idealize.ShloMosaic.ValueIdx

/-- The row a gather's start index selects: the word read signed, clamped into `[0, N − 1]`. -/
def rowOf (N : Nat) (hN : 0 < N) {w : Nat} (v : BitVec w) : Fin N := ⟨min v.toInt.toNat (N - 1), by omega⟩

/-- The edges a scatter sends to row `d`: those whose row number, read signed, is `d`. -/
def edgesInto {N E w : Nat} (idx : IVec ⟨2, ![E, 1]⟩ w) (d : Fin N) : Finset (Fin E) :=
  Finset.univ.filter fun e => (idx (ix2 e (0 : Fin 1))).toInt = (d.val : Int)

theorem mem_edgesInto {N E w : Nat} (idx : IVec ⟨2, ![E, 1]⟩ w) (d : Fin N) (e : Fin E) :
    e ∈ edgesInto idx d ↔ (idx (ix2 e (0 : Fin 1))).toInt = (d.val : Int) := by
  simp [edgesInto]

/-- For an edge sent to row `d`, the clamped row of the same number is `d`. -/
theorem rowOf_of_toInt {N : Nat} (hN : 0 < N) {w : Nat} (v : BitVec w) (d : Fin N) (h : v.toInt = (d.val : Int)) :
    rowOf N hN v = d := by
  apply Fin.ext
  show min v.toInt.toNat (N - 1) = d.val
  rw [h, Int.toNat_natCast]
  have := d.isLt
  omega

/-! ## Gathers -/

/-- The dimension numbers of `x[idx]` for a table `[N, C]` at row numbers `[E, 1]`. -/
abbrev gatherRowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A gathered row, read at edge `e` and column `k`: the table at the clamped row of `idx[e, 0]`, column `k`. -/
theorem gatherRows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (gatherRowsDims N E C wf) x idx (ix2 e k) = x (ix2 (rowOf N hN (idx (ix2 e (0 : Fin 1)))) k) := by
  unfold Host.gather
  congr 1
  funext a
  refine Fin.ext ?_
  match a with
  | ⟨0, _⟩ =>
    show (gatherRowsDims N E C wf).start (ix2 e k) idx 0 + (gatherRowsDims N E C wf).batchCoord (ix2 e k) 0
      + (gatherRowsDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E C wf).startIndexMap from List.mem_singleton.mpr rfl)]
    have hsi : (gatherRowsDims N E C wf).siIdx (ix2 e k) ⟨List.idxOf (0 : Fin 2) (gatherRowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRowsDims N E C wf).start (ix2 e k) idx 1 + (gatherRowsDims N E C wf).batchCoord (ix2 e k) 1
      + (gatherRowsDims N E C wf).offCoord (ix2 e k) 1 = k.val
    rw [GatherDims.batchCoord_eq_zero _ _ _ List.not_mem_nil]
    have hs : (gatherRowsDims N E C wf).start (ix2 e k) idx 1 = 0 := by
      unfold GatherDims.start
      rw [dif_neg (show (1 : Fin 2) ∉ ([0] : List (Fin 2)) by decide)]
    rw [hs]
    have ho : (gatherRowsDims N E C wf).offCoord (ix2 e k) 1 = k.val := by
      unfold GatherDims.offCoord
      rw [dif_pos ((GatherDims.mem_sKept _ _).mpr ⟨(show (1 : Fin 2) ∉ ([0] : List (Fin 2)) by decide), List.not_mem_nil⟩)]
      rfl
    rw [ho]
    omega

/-- The dimension numbers of `x[idx]` for a flat table `[N]` at row numbers `[E, 1]`. -/
abbrev gatherEltsDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A gathered element, read at edge `e`: the table at the clamped row of `idx[e, 0]`. -/
theorem gatherElts_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherEltsDims N E wf) x idx (ix1 e) = x (ix1 (rowOf N hN (idx (ix2 e (0 : Fin 1))))) := by
  unfold Host.gather
  congr 1
  funext a
  obtain rfl : a = 0 := Subsingleton.elim _ _
  refine Fin.ext ?_
  show (gatherEltsDims N E wf).start (ix1 e) idx 0 + (gatherEltsDims N E wf).batchCoord (ix1 e) 0
    + (gatherEltsDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherEltsDims N E wf).startIndexMap from List.mem_singleton.mpr rfl)]
  have hsi : (gatherEltsDims N E wf).siIdx (ix1 e) ⟨List.idxOf (0 : Fin 1) (gatherEltsDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Accumulating scatters -/

/-- An axis is kept exactly when it is not listed. -/
theorem mem_kept {s : Shape} (axes : List (Fin s.rank)) (a : Fin s.rank) : a ∈ s.kept axes ↔ a ∉ axes := by
  simp [Shape.kept, List.mem_filter, List.mem_finRange]

/-- The dimension numbers of a `segment_sum` of rows `[E, C]` into `[N, C]` at row numbers `[E, 1]`. -/
abbrev scatterRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section ScatterRows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis an update starts at its edge's row number, read signed. -/
theorem scatterRows_start0 : (scatterRowsDims N E C wf).start (ix2 e k) idx 0 = (idx (ix2 e (0 : Fin 1))).toInt := by
  unfold ScatterDims.start
  rw [dif_pos (show (0 : Fin 2) ∈ (scatterRowsDims N E C wf).scatterDimsToOperandDims from List.mem_singleton.mpr rfl)]
  have hsi : (scatterRowsDims N E C wf).siIdx (ix2 e k) ⟨List.idxOf (0 : Fin 2) (scatterRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at zero … -/
theorem scatterRows_start1 : (scatterRowsDims N E C wf).start (ix2 e k) idx 1 = 0 := by
  unfold ScatterDims.start
  rw [dif_neg (show (1 : Fin 2) ∉ ([0] : List (Fin 2)) by decide)]

/-- … the row axis has no window coordinate … -/
theorem scatterRows_window0 : (scatterRowsDims N E C wf).window (ix2 e k) 0 = 0 := by
  unfold ScatterDims.window
  rw [dif_neg (fun h => ((mem_kept _ _).mp h) (List.mem_singleton.mpr rfl))]

/-- … and the column axis has the update's column. -/
theorem scatterRows_window1 : (scatterRowsDims N E C wf).window (ix2 e k) 1 = k.val := by
  unfold ScatterDims.window
  rw [dif_pos ((mem_kept _ _).mpr (show (1 : Fin 2) ∉ ([0] : List (Fin 2)) by decide))]
  rfl

/-- WHERE AN UPDATE LANDS: update `(e, k)` lands on element `(d, k')` exactly when edge `e`'s row number, read signed,
    is `d` and the columns agree. -/
theorem scatterRows_resultIdx_iff (d : Fin N) (k' : Fin C) :
    (scatterRowsDims N E C wf).resultIdx? (ix2 e k) idx = some (ix2 d k')
      ↔ (idx (ix2 e (0 : Fin 1))).toInt = (d.val : Int) ∧ k = k' := by
  unfold ScatterDims.resultIdx?
  constructor
  · intro h
    by_cases hb : ∀ a, 0 ≤ (scatterRowsDims N E C wf).start (ix2 e k) idx a + (scatterRowsDims N E C wf).window (ix2 e k) a
        ∧ (scatterRowsDims N E C wf).start (ix2 e k) idx a + (scatterRowsDims N E C wf).window (ix2 e k) a < (⟨2, ![N, C]⟩ : Shape).size a
    · rw [dif_pos hb] at h
      have hf := Option.some.inj h
      have h0 : ((scatterRowsDims N E C wf).start (ix2 e k) idx 0 + ((scatterRowsDims N E C wf).window (ix2 e k) 0 : Nat)).toNat = d.val :=
        congrArg Fin.val (congrFun hf 0)
      have h1 : ((scatterRowsDims N E C wf).start (ix2 e k) idx 1 + ((scatterRowsDims N E C wf).window (ix2 e k) 1 : Nat)).toNat = k'.val :=
        congrArg Fin.val (congrFun hf 1)
      have hb0 := (hb 0).1
      rw [scatterRows_start0, scatterRows_window0] at h0 hb0
      rw [scatterRows_start1, scatterRows_window1] at h1
      exact ⟨by omega, Fin.ext (by omega)⟩
    · rw [dif_neg hb] at h
      exact absurd h (by simp)
  · rintro ⟨hv, rfl⟩
    have hb : ∀ a, 0 ≤ (scatterRowsDims N E C wf).start (ix2 e k) idx a + (scatterRowsDims N E C wf).window (ix2 e k) a
        ∧ (scatterRowsDims N E C wf).start (ix2 e k) idx a + (scatterRowsDims N E C wf).window (ix2 e k) a < (⟨2, ![N, C]⟩ : Shape).size a := by
      intro a
      match a with
      | ⟨0, _⟩ =>
        show 0 ≤ (scatterRowsDims N E C wf).start (ix2 e k) idx 0 + ((scatterRowsDims N E C wf).window (ix2 e k) 0 : Nat)
          ∧ (scatterRowsDims N E C wf).start (ix2 e k) idx 0 + ((scatterRowsDims N E C wf).window (ix2 e k) 0 : Nat) < (N : Int)
        rw [scatterRows_start0, scatterRows_window0, hv]
        have := d.isLt
        omega
      | ⟨1, _⟩ =>
        show 0 ≤ (scatterRowsDims N E C wf).start (ix2 e k) idx 1 + ((scatterRowsDims N E C wf).window (ix2 e k) 1 : Nat)
          ∧ (scatterRowsDims N E C wf).start (ix2 e k) idx 1 + ((scatterRowsDims N E C wf).window (ix2 e k) 1 : Nat) < (C : Int)
        rw [scatterRows_start1, scatterRows_window1]
        have := k.isLt
        omega
    rw [dif_pos hb]
    refine congrArg some (funext fun a => Fin.ext ?_)
    match a with
    | ⟨0, _⟩ =>
      show ((scatterRowsDims N E C wf).start (ix2 e k) idx 0 + ((scatterRowsDims N E C wf).window (ix2 e k) 0 : Nat)).toNat = d.val
      rw [scatterRows_start0, scatterRows_window0, hv]
      omega
    | ⟨1, _⟩ =>
      show ((scatterRowsDims N E C wf).start (ix2 e k) idx 1 + ((scatterRowsDims N E C wf).window (ix2 e k) 1 : Nat)).toNat = k.val
      rw [scatterRows_start1, scatterRows_window1]
      omega

/-- A `segment_sum` into `[N, C]`, read at `(d, k)`: what was there plus the messages, at column `k`, of the edges sent to
    row `d`. -/
theorem scatterAddRows_apply (x : (⟨2, ![N, C]⟩ : Shape).Idx → EReal) (upd : (⟨2, ![E, C]⟩ : Shape).Idx → EReal) (d : Fin N) :
    Ideal.hostScatterAdd (scatterRowsDims N E C wf) x idx upd (ix2 d k) = x (ix2 d k) + ∑ e ∈ edgesInto idx d, upd (ix2 e k) := by
  unfold Ideal.hostScatterAdd
  congr 1
  have key : ∀ j : (⟨2, ![E, C]⟩ : Shape).Idx, (scatterRowsDims N E C wf).resultIdx? j idx = some (ix2 d k) →
      (idx (ix2 (j 0) (0 : Fin 1))).toInt = (d.val : Int) ∧ j = ix2 (j 0) k := by
    intro j hj
    have h := (scatterRows_resultIdx_iff wf idx (j 0) (j 1) d k).mp
      ((congrArg (fun q => (scatterRowsDims N E C wf).resultIdx? q idx) (eq_ix2 j)).symm.trans hj)
    exact ⟨h.1, (eq_ix2 j).trans (congrArg (fun q : Fin C => (ix2 (j 0) q : (⟨2, ![E, C]⟩ : Shape).Idx)) h.2)⟩
  refine Finset.sum_bij' (fun j _ => j 0) (fun e _ => ix2 e k) ?_ ?_ ?_ ?_ ?_
  · intro j hj
    exact (mem_edgesInto idx d (j 0)).mpr (key j (Finset.mem_filter.mp hj).2).1
  · intro e he
    exact Finset.mem_filter.mpr ⟨Finset.mem_univ _,
      (scatterRows_resultIdx_iff wf idx e k d k).mpr ⟨(mem_edgesInto idx d e).mp he, rfl⟩⟩
  · intro j hj
    exact (key j (Finset.mem_filter.mp hj).2).2.symm
  · intro e _
    rfl
  · intro j hj
    exact congrArg upd (key j (Finset.mem_filter.mp hj).2).2

end ScatterRows

/-- The dimension numbers of a `segment_sum` of elements `[E]` into `[N]` at row numbers `[E, 1]`. -/
abbrev scatterEltsDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section ScatterElts
variable {N E w : Nat} (wf : ScatterDims.WF ⟨1, ![N]⟩ ⟨2, ![E, 1]⟩ ⟨1, ![E]⟩ [] [0] [0] 1)
  (idx : IVec ⟨2, ![E, 1]⟩ w) (e : Fin E)

theorem scatterElts_start0 : (scatterEltsDims N E wf).start (ix1 e) idx 0 = (idx (ix2 e (0 : Fin 1))).toInt := by
  unfold ScatterDims.start
  rw [dif_pos (show (0 : Fin 1) ∈ (scatterEltsDims N E wf).scatterDimsToOperandDims from List.mem_singleton.mpr rfl)]
  have hsi : (scatterEltsDims N E wf).siIdx (ix1 e) ⟨List.idxOf (0 : Fin 1) (scatterEltsDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatterElts_window0 : (scatterEltsDims N E wf).window (ix1 e) 0 = 0 := by
  unfold ScatterDims.window
  rw [dif_neg (fun h => ((mem_kept _ _).mp h) (List.mem_singleton.mpr rfl))]

/-- Update `e` lands on element `d` exactly when edge `e`'s row number, read signed, is `d`. -/
theorem scatterElts_resultIdx_iff (d : Fin N) :
    (scatterEltsDims N E wf).resultIdx? (ix1 e) idx = some (ix1 d) ↔ (idx (ix2 e (0 : Fin 1))).toInt = (d.val : Int) := by
  unfold ScatterDims.resultIdx?
  constructor
  · intro h
    by_cases hb : ∀ a, 0 ≤ (scatterEltsDims N E wf).start (ix1 e) idx a + (scatterEltsDims N E wf).window (ix1 e) a
        ∧ (scatterEltsDims N E wf).start (ix1 e) idx a + (scatterEltsDims N E wf).window (ix1 e) a < (⟨1, ![N]⟩ : Shape).size a
    · rw [dif_pos hb] at h
      have hf := Option.some.inj h
      have h0 : ((scatterEltsDims N E wf).start (ix1 e) idx 0 + ((scatterEltsDims N E wf).window (ix1 e) 0 : Nat)).toNat = d.val :=
        congrArg Fin.val (congrFun hf 0)
      have hb0 := (hb 0).1
      rw [scatterElts_start0, scatterElts_window0] at h0 hb0
      omega
    · rw [dif_neg hb] at h
      exact absurd h (by simp)
  · intro hv
    have hb : ∀ a, 0 ≤ (scatterEltsDims N E wf).start (ix1 e) idx a + (scatterEltsDims N E wf).window (ix1 e) a
        ∧ (scatterEltsDims N E wf).start (ix1 e) idx a + (scatterEltsDims N E wf).window (ix1 e) a < (⟨1, ![N]⟩ : Shape).size a := by
      intro a
      match a with
      | ⟨0, _⟩ =>
        show 0 ≤ (scatterEltsDims N E wf).start (ix1 e) idx 0 + ((scatterEltsDims N E wf).window (ix1 e) 0 : Nat)
          ∧ (scatterEltsDims N E wf).start (ix1 e) idx 0 + ((scatterEltsDims N E wf).window (ix1 e) 0 : Nat) < (N : Int)
        rw [scatterElts_start0, scatterElts_window0, hv]
        have := d.isLt
        omega
    rw [dif_pos hb]
    refine congrArg some (funext fun a => Fin.ext ?_)
    match a with
    | ⟨0, _⟩ =>
      show ((scatterEltsDims N E wf).start (ix1 e) idx 0 + ((scatterEltsDims N E wf).window (ix1 e) 0 : Nat)).toNat = d.val
      rw [scatterElts_start0, scatterElts_window0, hv]
      omega

/-- A `segment_sum` into `[N]`, read at `d`: what was there plus the messages of the edges sent to row `d`. -/
theorem scatterAddElts_apply (x : (⟨1, ![N]⟩ : Shape).Idx → EReal) (upd : (⟨1, ![E]⟩ : Shape).Idx → EReal) (d : Fin N) :
    Ideal.hostScatterAdd (scatterEltsDims N E wf) x idx upd (ix1 d) = x (ix1 d) + ∑ e ∈ edgesInto idx d, upd (ix1 e) := by
  unfold Ideal.hostScatterAdd
  congr 1
  refine Finset.sum_bij' (fun j _ => j 0) (fun e _ => ix1 e) ?_ ?_ ?_ ?_ ?_
  · intro j hj
    exact (mem_edgesInto idx d (j 0)).mpr ((scatterElts_resultIdx_iff wf idx (j 0) d).mp
      ((congrArg (fun q => (scatterEltsDims N E wf).resultIdx? q idx) (eq_ix1 j)).symm.trans (Finset.mem_filter.mp hj).2))
  · intro e he
    exact Finset.mem_filter.mpr ⟨Finset.mem_univ _, (scatterElts_resultIdx_iff wf idx e d).mpr ((mem_edgesInto idx d e).mp he)⟩
  · intro j _
    exact (eq_ix1 j).symm
  · intro e _
    rfl
  · intro j _
    exact congrArg upd (eq_ix1 j)

end ScatterElts

/-! ## Row numbers made nonnegative

`x[idx]` first turns a negative row number `v` into `v + N` (python's indexing from the end) and then gathers. For an edge
whose number, read signed, is a row `d` of the table, nothing changes. -/

/-- A row number that is a row of the table is not negative, so the python-style wrap leaves it alone. -/
theorem wrap_of_toInt (v c : BitVec 32) (d : Nat) (h : v.toInt = (d : Int)) :
    Scalar.select (IntOp.cmpi .slt v 0#32) (IntOp.addi v c) v = v := by
  have h0 : IntOp.cmpi .slt v 0#32 = 0#1 := by
    have hlt : ¬ v.toInt < 0 := by rw [h]; omega
    simp [IntOp.cmpi, BitVec.slt, hlt]
  rw [h0]
  exact if_neg (by decide)

end Cert.Lib.Rows

end
-- ==== Proof.Spec.lean ====
/-
  The mathematics of the two programs, index by index, on the extended reals.

  A graph-convolution layer on `N` nodes: a dense map, a symmetric degree normalisation, a sum over the
  edges into a node, a bias row, then a batch normalisation over the node axis and a rectifier.  One side
  scales every row by `deg^(-1/2)` BEFORE the edge sum and once more AFTER it and adds the node's own row by hand,
  and takes the variance in one pass (`E[x²] - E[x]²`, clamped at 0); the other side carries a self-loop edge per node,
  multiplies each edge's row by `deg(src)^(-1/2) · deg(dst)^(-1/2)`, and takes the variance in two passes.
  Matrices are curried functions `Fin n → Fin d → EReal`; edge endpoints are 32-bit words read as rows.
-/
import Mathlib
import Idealize.ShloMosaic.PureOps.Ideal
import proofs.«115763_j74259984548099_2_alg».proof.Proof.LibRows

noncomputable section

namespace Cert.Spec

open Idealize.ShloMosaic

abbrev Mat (n d : ℕ) := Fin n → Fin d → EReal

/-- The f32 words both programs share. -/
abbrev zero : EReal := Ideal.ofBits .f32 0x00000000#32
abbrev one : EReal := Ideal.ofBits .f32 0x3F800000#32
abbrev nf : EReal := Ideal.ofBits .f32 0x47C35000#32
abbrev eps : EReal := Ideal.ofBits .f32 0x3727C5AC#32

/-- A negative row number wraps around once (`v < 0 ↦ v + c`), as jnp indexing does before it gathers. -/
def wrapI (c v : BitVec 32) : BitVec 32 := Scalar.select (IntOp.cmpi .slt v 0#32) (IntOp.addi v c) v

/-- The edges whose endpoint word is exactly the row `d` (an out-of-range word names no row: its update is dropped). -/
def into {N E : ℕ} (idx : Fin E → BitVec 32) (d : Fin N) : Finset (Fin E) :=
  Finset.univ.filter fun e => (idx e).toInt = (d.val : Int)

/-- The row a gather reads for the word `v`: wrapped, then clamped into range. -/
def rowG (N : ℕ) (hN : 0 < N) (c v : BitVec 32) : Fin N := Cert.Lib.Rows.rowOf N hN (wrapI c v)

/-- A dense map: row by column sums. -/
def dense {n d h : ℕ} (x : Mat n d) (w : Mat d h) : Mat n h := fun r j => ∑ k : Fin d, x r k * w k j

/-! ## The side that scales before and after the edge sum -/

/-- In-degree over the given edges, plus one for the node itself. -/
def degK {N E : ℕ} (dst : Fin E → BitVec 32) : Fin N → EReal := fun r => (zero + ∑ _e ∈ into dst r, one) + one
def disK {N E : ℕ} (dst : Fin E → BitVec 32) : Fin N → EReal := fun r => Ideal.rsqrt (degK dst r)

/-- The dense map with every row scaled. -/
def hsK {n d h : ℕ} (x : Mat n d) (w : Mat d h) (dis : Fin n → EReal) : Mat n h := fun r j => dense x w r j * dis r

/-- Rows gathered at the edges' sources and summed into the edges' targets, from zero. -/
def edgeSum {N E h : ℕ} (hN : 0 < N) (c : BitVec 32) (src dst : Fin E → BitVec 32) (hs : Mat N h) : Mat N h :=
  fun r j => zero + ∑ e ∈ into dst r, hs (rowG N hN c (src e)) j

/-- The edge sum and the node's own scaled row, scaled again, plus the bias. -/
def combine {n h : ℕ} (msg hs : Mat n h) (dis : Fin n → EReal) (b : Fin h → EReal) : Mat n h :=
  fun r j => dis r * (msg r j + hs r j) + b j

def aggK {N E h : ℕ} (hN : 0 < N) (c : BitVec 32) (src dst : Fin E → BitVec 32) (dis : Fin N → EReal) (hs : Mat N h)
    (b : Fin h → EReal) : Mat N h :=
  combine (edgeSum hN c src dst hs) hs dis b

def meanK {n h : ℕ} (a : Mat n h) : Fin h → EReal := fun j => Ideal.div (∑ r : Fin n, a r j) nf
def varK {n h : ℕ} (a : Mat n h) : Fin h → EReal :=
  fun j => max (Ideal.div (∑ r : Fin n, a r j * a r j) nf - meanK a j * meanK a j) zero

/-- Normalise, scale, shift, rectify. -/
def bnRelu {n h : ℕ} (a : Mat n h) (mean var g beta : Fin h → EReal) : Mat n h :=
  fun r j => max ((a r j - mean j) * Ideal.rsqrt (var j + eps) * g j + beta j) zero

def layerK {N E d h : ℕ} (hN : 0 < N) (c : BitVec 32) (src dst : Fin E → BitVec 32) (x : Mat N d) (w : Mat d h)
    (b g beta : Fin h → EReal) : Mat N h :=
  let agg := aggK hN c src dst (disK dst) (hsK x w (disK dst)) b
  bnRelu agg (meanK agg) (varK agg) g beta

/-! ## The side with self-loop edges and a two-pass variance -/

def degR {N E : ℕ} (d : Fin E → BitVec 32) : Fin N → EReal := fun r => zero + ∑ _e ∈ into d r, one
def disR {N E : ℕ} (d : Fin E → BitVec 32) : Fin N → EReal :=
  fun r => if degR d r > zero then Ideal.rsqrt (degR d r) else zero

def aggR {N E h : ℕ} (hN : 0 < N) (c : BitVec 32) (s d : Fin E → BitVec 32) (dis : Fin N → EReal) (hl : Mat N h)
    (b : Fin h → EReal) : Mat N h :=
  fun r j => (zero + ∑ e ∈ into d r,
      hl (rowG N hN c (s e)) j * (dis (rowG N hN c (s e)) * dis (rowG N hN c (d e)))) + b j

def meanR {n h : ℕ} (a : Mat n h) : Fin h → EReal := fun j => Ideal.div (zero + ∑ r : Fin n, a r j) nf
def varR {n h : ℕ} (a : Mat n h) : Fin h → EReal :=
  fun j => Ideal.div (zero + ∑ r : Fin n, (a r j - meanR a j) * (a r j - meanR a j)) (nf - (((0 : ℤ) : ℝ) : EReal))

def layerR {N E d h : ℕ} (hN : 0 < N) (c : BitVec 32) (s t : Fin E → BitVec 32) (x : Mat N d) (w : Mat d h)
    (b g beta : Fin h → EReal) : Mat N h :=
  let agg := aggR hN c s t (disR t) (dense x w) b
  bnRelu agg (meanR agg) (varR agg) g beta

/-! ## The shared tail: mean pooling by graph number, the pooled row doubled, two dense layers -/

def pooled {N G h : ℕ} (batch : Fin N → BitVec 32) (x : Mat N h) : Mat G h :=
  fun q j => Ideal.div (zero + ∑ r ∈ into batch q, x r j) (max (zero + ∑ _r ∈ into batch q, one) one)

def doubled {G h : ℕ} (x : Mat G h) : Mat G (h + h) := fun q l => Fin.addCases (fun a => x q a) (fun a => x q a) l

def mlp {G a h o : ℕ} (xp : Mat G a) (w1 : Mat a h) (b1 : Fin h → EReal) (w2 : Mat h o) (b2 : Fin o → EReal) : Mat G o :=
  fun q j => (∑ k : Fin h, max ((∑ l : Fin a, xp q l * w1 l k) + b1 k) zero * w2 k j) + b2 j

/-! ## The two whole networks -/

def netK {N E G d h a o : ℕ} (hN : 0 < N) (c : BitVec 32) (src dst : Fin E → BitVec 32) (batch : Fin N → BitVec 32)
    (x : Mat N d) (w0 : Mat d h) (b0 g0 be0 : Fin h → EReal) (w1 : Mat h h) (b1 g1 be1 : Fin h → EReal)
    (w2 : Mat h h) (b2 g2 be2 : Fin h → EReal) (cast : Mat G (h + h) → Mat G a)
    (ew1 : Mat a h) (eb1 : Fin h → EReal) (ew2 : Mat h o) (eb2 : Fin o → EReal) : Mat G o :=
  mlp (cast (doubled (pooled batch
    (layerK hN c src dst (layerK hN c src dst (layerK hN c src dst x w0 b0 g0 be0) w1 b1 g1 be1) w2 b2 g2 be2))))
    ew1 eb1 ew2 eb2

def netR {N E' G d h a o : ℕ} (hN : 0 < N) (c : BitVec 32) (s t : Fin E' → BitVec 32) (batch : Fin N → BitVec 32)
    (x : Mat N d) (w0 : Mat d h) (b0 g0 be0 : Fin h → EReal) (w1 : Mat h h) (b1 g1 be1 : Fin h → EReal)
    (w2 : Mat h h) (b2 g2 be2 : Fin h → EReal) (cast : Mat G (h + h) → Mat G a)
    (ew1 : Mat a h) (eb1 : Fin h → EReal) (ew2 : Mat h o) (eb2 : Fin o → EReal) : Mat G o :=
  mlp (cast (doubled (pooled batch
    (layerR hN c s t (layerR hN c s t (layerR hN c s t x w0 b0 g0 be0) w1 b1 g1 be1) w2 b2 g2 be2))))
    ew1 eb1 ew2 eb2

end Cert.Spec

end
-- ==== Proof.LibMatmulPlain.lean ====
/-
  A rows-by-columns matrix product into a zero accumulator, read at an index on the extended reals.

  For `A : [M, K]` and `B : [K, N]` contracted on `A`'s last and `B`'s first axis, the product accumulated into the
  zero splat is, at `(i, j)`, the finite sum `∑ k, A (i, k) * B (k, j)`: no rounding and no chunk order is left at the
  exact values, and the contraction index with its one axis is the coordinate `k`.
-/
import Idealize.ShloMosaic.PureOps.Ideal
import Idealize.ShloMosaic.PureOps.Ideal.Laws
import Idealize.ShloMosaic.Lib.ValueIdx

noncomputable section

namespace Cert.LibMatmulPlain

open Idealize.ShloMosaic Idealize.ShloMosaic.ValueIdx

/-- The plain product `[M, K] × [K, N]` into the zero accumulator at `(i, j)` is `∑ k, A (i, k) * B (k, j)`. -/
theorem matmul_zero_apply {M K N : ℕ} {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ k : Fin K, A (ix2 i k) * B (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.LibMatmulPlain

end
-- ==== Proof.LibKeepdims.lean ====
/-
  A column kept as a unit axis, read at an index.

  A reduction that keeps its axis leaves a column `[a, 1]`: the vector `[a]` re-laid with a trailing unit axis, which
  reads at `(i, u)` the vector at `i`; and that column spread over `b` lanes reads at `(i, j)` the column at
  `(i, 0)`. Both hold for any element type.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.KI.V0.lean ====
/- Region 0 of the kernel program read at the exact values: what its pipeline leaves in the output array, entry by
   entry, as a function of the arrays the region finds. -/
import proofs.«115763_j74259984548099_2_alg».proof.Proof.KI.R0
import proofs.«115763_j74259984548099_2_alg».proof.Proof.Spec
import Idealize.ShloMosaic.Lib.ValueIdx
import Idealize.ShloMosaic.Lib.Pipeline.Value
import Idealize.ShloMosaic.PureOps.Ideal.Laws
import proofs.«115763_j74259984548099_2_alg».proof.Proof.LibMatmulPlain
import proofs.«115763_j74259984548099_2_alg».proof.Proof.LibKeepdims

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The payload at an entry: the row of features against the column of weights, times the row's scale
    (rounding the operands to a narrower format changes nothing at the exact values; the product into the zero
    accumulator is the plain finite sum). -/
theorem pay0_apply (x0 : Vec Ideal S5000x20 .f32) (x1 : Vec Ideal S20x128 .f32) (x2 : Vec Ideal S5000x1 .f32) (i : Fin 5000) (j : Fin 128) :
    k0_pay1 x0 x1 x2 (ix2 i j) = (∑ k : Fin 20, x0 (ix2 i k) * x1 (ix2 k j)) * x2 (ix2 i (0 : Fin 1)) := by
  show (FloatOps.matmul (F := Ideal) (φ₁ := .bf16) (φ₂ := .bf16) (DotDims.plain 5000 20 128) none x0 x1 (constant (F := Ideal) ⟨2, ![5000, 128]⟩ .f32 0x00000000#32) (ix2 i j) : EReal)
      * broadcastTo ⟨2, ![5000, 128]⟩ (shapeCast ⟨2, ![5000, 1]⟩ x2 shapeCasts_S5000x1_S5000x1) broadcasts_S5000x1_S5000x128 (ix2 i j) = _
  rw [Cert.LibMatmulPlain.matmul_zero_apply, shapeCast_self, Cert.LibKeepdims.broadcastTo_a1_ab_apply]

variable (V : (c : Dev nD) → (b : Ref sig .tc) → Buf (Elt Ideal) ((c : Thread nD τ).loc b))

/-- The printed index maps over the grid: the row windows move one block of 5000 rows per point, the weights stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature window's block at point `t` holds rows `5000 t …` of its array. -/
theorem iblk0_0_apply (c : Dev nD) (t : Fin cfg0.N) (a : Fin 5000) (k : Fin 20) (h : t.val * 5000 + a.val < 100000) :
    iblk0 V c 0 t (ix2 a k) = V c (Pipeline.arrRef spec0 0) (ix2 ⟨t.val * 5000 + a.val, h⟩ k) := by
  obtain ⟨e0, e1, -⟩ := idx0 t
  unfold iblk0
  rw [View.read_apply]
  show V c (Pipeline.arrRef spec0 0) _ = V c (Pipeline.arrRef spec0 0) _
  refine congrArg _ (funext fun ax => Fin.ext ?_)
  match ax with
  | ⟨0, _⟩ => show win0_0.index t (0 : Fin 2) * 5000 + 1 * a.val = t.val * 5000 + a.val; rw [e0]; omega
  | ⟨1, _⟩ => show win0_0.index t (1 : Fin 2) * 20 + 1 * k.val = k.val; rw [e1]; omega

/-- The weights' window holds the whole array at every point. -/
theorem iblk0_1_apply (c : Dev nD) (t : Fin cfg0.N) (k : Fin 20) (j : Fin 128) :
    iblk0 V c 1 t (ix2 k j) = V c (Pipeline.arrRef spec0 1) (ix2 k j) := by
  obtain ⟨-, -, e0, e1, -⟩ := idx0 t
  unfold iblk0
  rw [View.read_apply]
  show V c (Pipeline.arrRef spec0 1) _ = V c (Pipeline.arrRef spec0 1) _
  refine congrArg _ (funext fun ax => Fin.ext ?_)
  match ax with
  | ⟨0, _⟩ => show win0_1.index t (0 : Fin 2) * 20 + 1 * k.val = k.val; rw [e0]; omega
  | ⟨1, _⟩ => show win0_1.index t (1 : Fin 2) * 128 + 1 * j.val = j.val; rw [e1]; omega

/-- The scale column's block at point `t` holds rows `5000 t …` of its array. -/
theorem iblk0_2_apply (c : Dev nD) (t : Fin cfg0.N) (a : Fin 5000) (u : Fin 1) (h : t.val * 5000 + a.val < 100000) :
    iblk0 V c 2 t (ix2 a u) = V c (Pipeline.arrRef spec0 2) (ix2 ⟨t.val * 5000 + a.val, h⟩ u) := by
  obtain ⟨-, -, -, -, e0, e1, -⟩ := idx0 t
  unfold iblk0
  rw [View.read_apply]
  show V c (Pipeline.arrRef spec0 2) _ = V c (Pipeline.arrRef spec0 2) _
  refine congrArg _ (funext fun ax => Fin.ext ?_)
  match ax with
  | ⟨0, _⟩ => show win0_2.index t (0 : Fin 2) * 5000 + 1 * a.val = t.val * 5000 + a.val; rw [e0]; omega
  | ⟨1, _⟩ => show win0_2.index t (1 : Fin 2) * 1 + 1 * u.val = u.val; rw [e1]; omega

/-- Where an entry of the output's block at point `t` sits in the array. -/
theorem emb0_3 (t : Fin cfg0.N) (a : Fin 5000) (b : Fin 128) (h : t.val * 5000 + a.val < 100000) :
    ((cfg0.win 3).blk t).view.emb (ix2 a b) = ix2 ⟨t.val * 5000 + a.val, h⟩ b := by
  obtain ⟨-, -, -, -, -, -, e0, e1⟩ := idx0 t
  refine funext fun ax => Fin.ext ?_
  match ax with
  | ⟨0, _⟩ => show win0_3.index t (0 : Fin 2) * 5000 + 1 * a.val = t.val * 5000 + a.val; rw [e0]; omega
  | ⟨1, _⟩ => show win0_3.index t (1 : Fin 2) * 128 + 1 * b.val = b.val; rw [e1]; omega

theorem N0_20 : cfg0.N = 20 := N_0

/-- The arrays the region finds, as matrices: the features, the weights, the scale column. -/
abbrev X0 (c : Dev nD) : Cert.Spec.Mat 100000 20 := fun r k => V c (Pipeline.arrRef spec0 0) (ix2 r k)
abbrev W0 (c : Dev nD) : Cert.Spec.Mat 20 128 := fun k j => V c (Pipeline.arrRef spec0 1) (ix2 k j)
abbrev D0 (c : Dev nD) : Fin 100000 → EReal := fun r => V c (Pipeline.arrRef spec0 2) (ix2 r (0 : Fin 1))

/-- What the region leaves in its output array, entry by entry, from the arrays it finds. -/
def G0 (c : Dev nD) : S100000x128.Idx → EReal := fun i =>
  Cert.Spec.hsK (X0 V c) (W0 V c) (D0 V c) ⟨(i 0).val, idx2_lt0 i⟩ ⟨(i 1).val, idx2_lt1 i⟩

theorem hz2_0 : (![0, 0] : Fin 2 → Nat) = fun _ => 0 := funext fun a => by fin_cases a <;> rfl

/-- What point `t` writes back is block `t` of `G0`. -/
theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 V c).after 3 t) = _
  rw [after0_3]
  unfold out0_3
  rw [View.canon_unit_zero hz2_0]
  simp only [View.ld_unit_zero (S := S5000x20) hz2_0, View.ld_unit_zero (S := S20x128) hz2_0, View.ld_unit_zero (S := S5000x1) hz2_0]
  funext y
  obtain ⟨a, b, rfl⟩ : ∃ (a : Fin 5000) (b : Fin 128), y = ix2 a b := ⟨y 0, y 1, eq_ix2 y⟩
  have ht : t.val < 20 := N0_20 ▸ t.isLt
  have h : t.val * 5000 + a.val < 100000 := by have := a.isLt; omega
  refine (pay0_apply _ _ _ a b).trans ?_
  rw [View.read_apply, emb0_3 t a b h, iblk0_2_apply V c t a 0 h]
  show _ = Cert.Spec.hsK (X0 V c) (W0 V c) (D0 V c) ⟨t.val * 5000 + a.val, h⟩ b
  unfold Cert.Spec.hsK Cert.Spec.dense
  refine congrArg (· * _) (Finset.sum_congr rfl fun k _ => ?_)
  rw [iblk0_0_apply V c t a k h, iblk0_1_apply V c t k b]

/-- THE ARRAY after the region: every entry is the dense map's entry times its row's scale. Row `r` lies in the block
    of point `r / 5000`, which wrote it back. -/
theorem final0 (c : Dev nD) (r : Fin 100000) (j : Fin 128) :
    (dat0 (F := Ideal) V c).arrAt 3 cfg0.N (ix2 r j) = Cert.Spec.hsK (X0 V c) (W0 V c) (D0 V c) r j := by
  have hr := r.isLt
  have hq : r.val / 5000 < cfg0.N := by rw [N0_20]; omega
  have h : (⟨r.val / 5000, hq⟩ : Fin cfg0.N).val * 5000 + (⟨r.val % 5000, Nat.mod_lt _ (by decide)⟩ : Fin 5000).val < 100000 := by
    show r.val / 5000 * 5000 + r.val % 5000 < 100000; omega
  have hmem : ix2 r j ∈ ((cfg0.win 3).blk ⟨r.val / 5000, hq⟩).view.set := by
    have e : ix2 r j = ((cfg0.win 3).blk ⟨r.val / 5000, hq⟩).view.emb (ix2 ⟨r.val % 5000, Nat.mod_lt _ (by decide)⟩ j) := by
      rw [emb0_3 ⟨r.val / 5000, hq⟩ ⟨r.val % 5000, Nat.mod_lt _ (by decide)⟩ j h]
      refine congrArg (fun x => ix2 x j) (Fin.ext ?_)
      show r.val = r.val / 5000 * 5000 + r.val % 5000; omega
    rw [e]; exact View.emb_mem_set _ _
  exact (dat0 V c).arrAt_apply_of_mem 3 (G0 V c) (fun t _ => flushed0_eq V c t) cfg0.N ⟨r.val / 5000, hq⟩ (ix2 r j) hq (flush0_3 _) hmem

end Cert.KernelIdeal.Hand

end
-- ==== Proof.LibAxisSum.lean ====
/-
  A sum along one axis of a rank-2 array, read at an index on the extended reals.

  A vector unit's additive reduction of `src : [n, d]` along its last axis is, at row `r`, the finite sum
  `∑ k, src (r, k)`; along its first axis it is, at column `j`, `∑ r, src (r, j)`. The accumulator word is the
  neutral element of addition, so no initial value appears, and a finite sum on the extended reals is a sum in a
  commutative monoid: no order or finiteness matters.
-/
import Idealize.ShloMosaic.PureOps.Ideal
import Idealize.ShloMosaic.PureOps.Ideal.Laws
import Idealize.ShloMosaic.Lib.ValueIdx

noncomputable section

namespace Cert.LibAxisSum

open Idealize.ShloMosaic Idealize.ShloMosaic.ValueIdx

/-- The reduction of `[n, d]` along its last axis, at row `r`, is the sum of that row. -/
theorem sum_last {n d : ℕ} {φ : FTy} (src : FVec Ideal ⟨2, ![n, d]⟩ φ) (acc : BitVec φ.bits)
    (h : Shape.Reduces ⟨2, ![n, d]⟩ [1] ⟨1, ![n]⟩) (hφ : FKind.Formats φ) (hacc : acc = FKind.add.neutral φ hφ) (r : Fin n) :
    multiReduction .add [1] ⟨1, ![n]⟩ src acc h hφ hacc (ix1 r) = ∑ k : Fin d, src (ix2 r k) := by
  refine (Ideal.multiReduction_add_single src acc h hφ hacc (ix1 r)).trans ?_
  refine Finset.sum_congr rfl fun k _ => congrArg src (funext fun a => Fin.ext ?_)
  match a with
  | ⟨0, _⟩ => rfl
  | ⟨1, _⟩ => rfl

/-- The reduction of `[n, d]` along its first axis, at column `j`, is the sum of that column. -/
theorem sum_first {n d : ℕ} {φ : FTy} (src : FVec Ideal ⟨2, ![n, d]⟩ φ) (acc : BitVec φ.bits)
    (h : Shape.Reduces ⟨2, ![n, d]⟩ [0] ⟨1, ![d]⟩) (hφ : FKind.Formats φ) (hacc : acc = FKind.add.neutral φ hφ) (j : Fin d) :
    multiReduction .add [0] ⟨1, ![d]⟩ src acc h hφ hacc (ix1 j) = ∑ r : Fin n, src (ix2 r j) := by
  refine (Ideal.multiReduction_add_single src acc h hφ hacc (ix1 j)).trans ?_
  refine Finset.sum_congr rfl fun r _ => congrArg src (funext fun a => Fin.ext ?_)
  match a with
  | ⟨0, _⟩ => rfl
  | ⟨1, _⟩ => rfl

end Cert.LibAxisSum

end
-- ==== Proof.LibVariance.lean ====
/-
  The two-pass and the one-pass sample variance agree on the extended reals.

  For a finite family of REAL numbers r i (read as extended reals), with S = ∑ r i, Q = ∑ r i · r i,
  N the number of terms (N > 1) and mu = S / N, the one-pass form  (Q − N · (mu · mu)) / (N − 1)  and the
  two-pass form  (∑ (r i − mu) · (r i − mu)) / (N − 1)  are the same nonnegative real, so clamping the first
  at zero changes nothing and their square roots agree. All of it is real algebra: every operand is the
  coercion of a real, every divisor is a nonzero real, so each extended-real operation is the coercion
  of the real one, and the identity  ∑ (r i − mu)² = Q − N · mu²  (which holds because S = N · mu) finishes.

  Also here: the coercion of a finite real sum is the sum of the coercions, and the real values of the
  four binary32 words 200000, 199999, 0 and 1.
-/
import Mathlib.Data.EReal.Inv
import Mathlib.Algebra.BigOperators.Field
import Mathlib.Algebra.Order.BigOperators.Ring.Finset
import Mathlib.Analysis.SpecialFunctions.Pow.Real
import Idealize.ShloMosaic.PureOps.Ideal
import Idealize.ShloMosaic.PureOps.Ideal.Laws

noncomputable section

namespace Cert.Lib.Variance

open Idealize.ShloMosaic
open scoped BigOperators

variable {ι : Type*}

/-! ### (a) Coercion commutes with finite sums -/

/-- The coercion of a finite sum of reals is the sum of the coercions (over any finite set). -/
theorem coe_finset_sum (s : Finset ι) (r : ι → ℝ) :
    ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-- The coercion of a sum of reals over a finite type is the sum of the coercions. -/
theorem coe_sum [Fintype ι] (r : ι → ℝ) : ((∑ i, r i : ℝ) : EReal) = ∑ i, (r i : EReal) :=
  coe_finset_sum Finset.univ r

/-- The same from a zero start: 0 + ∑ of the coercions is the coercion of the real sum. -/
theorem zero_add_coe_sum [Fintype ι] (r : ι → ℝ) :
    (0 : EReal) + ∑ i, (r i : EReal) = ((∑ i, r i : ℝ) : EReal) := by
  rw [zero_add, coe_sum]

/-- A zero start and a sum of products of coercions. -/
theorem zero_add_coe_sum_mul [Fintype ι] (a b : ι → ℝ) :
    (0 : EReal) + ∑ i, (a i : EReal) * (b i : EReal) = ((∑ i, a i * b i : ℝ) : EReal) := by
  rw [zero_add, coe_sum]; simp only [EReal.coe_mul]

/-! ### The quotient of two reals -/

/-- The quotient of two coerced reals by a nonzero divisor is the coerced real quotient. -/
theorem div_coe_coe (a b : ℝ) (hb : b ≠ 0) : Ideal.div (a : EReal) (b : EReal) = ((a / b : ℝ) : EReal) := by
  rw [Ideal.div_coe hb, ← EReal.coe_mul, mul_one_div]

/-! ### (b) The real identity -/

/-- If S = N · m (m the mean), the sum of squared deviations from m is Q − N · m². -/
theorem sum_sq_dev_of_mean [Fintype ι] (r : ι → ℝ) (N m : ℝ) (hN : N = (Fintype.card ι : ℝ))
    (hm : ∑ j, r j = N * m) :
    ∑ i, (r i - m) * (r i - m) = (∑ i, r i * r i) - N * (m * m) := by
  have h1 : ∀ i, (r i - m) * (r i - m) = r i * r i - 2 * m * r i + m * m := fun i => by ring
  rw [Finset.sum_congr rfl (fun i _ => h1 i), Finset.sum_add_distrib, Finset.sum_sub_distrib,
    ← Finset.mul_sum, hm, Finset.sum_const, Finset.card_univ, nsmul_eq_mul, ← hN]
  ring

/-- The sum of squared deviations from the mean S / N is Q − N · (S/N)². -/
theorem sum_sq_dev [Fintype ι] (r : ι → ℝ) (N : ℝ) (hN : N = (Fintype.card ι : ℝ)) (hN0 : N ≠ 0) :
    ∑ i, (r i - (∑ j, r j) / N) * (r i - (∑ j, r j) / N)
      = (∑ i, r i * r i) - N * (((∑ j, r j) / N) * ((∑ j, r j) / N)) :=
  sum_sq_dev_of_mean r N _ hN (by field_simp)

/-- A sum of squares is nonnegative. -/
theorem sum_sq_dev_nonneg [Fintype ι] (r : ι → ℝ) (m : ℝ) : 0 ≤ ∑ i, (r i - m) * (r i - m) :=
  Finset.sum_nonneg fun i _ => mul_self_nonneg _

/-- Hence the one-pass numerator is nonnegative. -/
theorem one_pass_nonneg [Fintype ι] (r : ι → ℝ) (N : ℝ) (hN : N = (Fintype.card ι : ℝ)) (hN0 : N ≠ 0) :
    0 ≤ (∑ i, r i * r i) - N * (((∑ j, r j) / N) * ((∑ j, r j) / N)) := by
  rw [← sum_sq_dev r N hN hN0]; exact sum_sq_dev_nonneg r _

/-! ### (c) The law on the extended reals -/

section Law
variable [Fintype ι] (r : ι → ℝ) (N : ℝ)

/-- The mean, as an extended real, is the coerced real mean. -/
theorem mean_eq (hN0 : N ≠ 0) :
    Ideal.div ((0 : EReal) + ∑ i, (r i : EReal)) ((N : ℝ) : EReal) = (((∑ i, r i) / N : ℝ) : EReal) := by
  rw [zero_add_coe_sum, div_coe_coe _ _ hN0]

/-- The two-pass variance is the coercion of a real: (∑ (r i − m)²) / (N − 1) with m = S / N. -/
theorem two_pass_eq (hN0 : N ≠ 0) (hN1 : N - 1 ≠ 0) :
    Ideal.div ((0 : EReal) + ∑ i, ((r i : EReal) - Ideal.div ((0 : EReal) + ∑ i, (r i : EReal)) ((N : ℝ) : EReal))
        * ((r i : EReal) - Ideal.div ((0 : EReal) + ∑ i, (r i : EReal)) ((N : ℝ) : EReal))) (((N - 1 : ℝ)) : EReal)
      = (((∑ i, (r i - (∑ j, r j) / N) * (r i - (∑ j, r j) / N)) / (N - 1) : ℝ) : EReal) := by
  rw [mean_eq r N hN0]
  simp only [← EReal.coe_sub]
  rw [zero_add_coe_sum_mul, div_coe_coe _ _ hN1]

/-- The one-pass variance is the coercion of a real: (Q − N · (m · m)) / (N − 1) with m = S / N. -/
theorem one_pass_eq (hN0 : N ≠ 0) (hN1 : N - 1 ≠ 0) :
    Ideal.div (((0 : EReal) + ∑ i, (r i : EReal) * (r i : EReal))
        - ((N : ℝ) : EReal) * (Ideal.div ((0 : EReal) + ∑ i, (r i : EReal)) ((N : ℝ) : EReal)
            * Ideal.div ((0 : EReal) + ∑ i, (r i : EReal)) ((N : ℝ) : EReal))) (((N - 1 : ℝ)) : EReal)
      = ((((∑ i, r i * r i) - N * (((∑ j, r j) / N) * ((∑ j, r j) / N))) / (N - 1) : ℝ) : EReal) := by
  rw [mean_eq r N hN0, zero_add_coe_sum_mul, ← EReal.coe_mul, ← EReal.coe_mul, ← EReal.coe_sub,
    div_coe_coe _ _ hN1]

/-- THE LAW, before the square root: the one-pass variance clamped at zero is the two-pass variance. -/
theorem var_eq (hN : N = (Fintype.card ι : ℝ)) (h1 : 1 < N) :
    max (Ideal.div (((0 : EReal) + ∑ i, (r i : EReal) * (r i : EReal))
        - ((N : ℝ) : EReal) * (Ideal.div ((0 : EReal) + ∑ i, (r i : EReal)) ((N : ℝ) : EReal)
            * Ideal.div ((0 : EReal) + ∑ i, (r i : EReal)) ((N : ℝ) : EReal))) (((N - 1 : ℝ)) : EReal)) 0
      = Ideal.div ((0 : EReal) + ∑ i, ((r i : EReal) - Ideal.div ((0 : EReal) + ∑ i, (r i : EReal)) ((N : ℝ) : EReal))
        * ((r i : EReal) - Ideal.div ((0 : EReal) + ∑ i, (r i : EReal)) ((N : ℝ) : EReal))) (((N - 1 : ℝ)) : EReal) := by
  have hN0 : N ≠ 0 := by linarith
  have hN1 : N - 1 ≠ 0 := by linarith
  have hpos : (0 : ℝ) < N - 1 := by linarith
  rw [one_pass_eq r N hN0 hN1, two_pass_eq r N hN0 hN1, sum_sq_dev r N hN hN0]
  refine max_eq_left ?_
  have : (0 : ℝ) ≤ ((∑ i, r i * r i) - N * (((∑ j, r j) / N) * ((∑ j, r j) / N))) / (N - 1) :=
    div_nonneg (one_pass_nonneg r N hN hN0) hpos.le
  exact_mod_cast this

/-- THE LAW: the square roots of the clamped one-pass variance and of the two-pass variance agree. -/
theorem sqrt_var_eq (hN : N = (Fintype.card ι : ℝ)) (h1 : 1 < N) :
    Ideal.sqrt (max (Ideal.div (((0 : EReal) + ∑ i, (r i : EReal) * (r i : EReal))
        - ((N : ℝ) : EReal) * (Ideal.div ((0 : EReal) + ∑ i, (r i : EReal)) ((N : ℝ) : EReal)
            * Ideal.div ((0 : EReal) + ∑ i, (r i : EReal)) ((N : ℝ) : EReal))) (((N - 1 : ℝ)) : EReal)) 0)
      = Ideal.sqrt (Ideal.div ((0 : EReal) + ∑ i, ((r i : EReal) - Ideal.div ((0 : EReal) + ∑ i, (r i : EReal)) ((N : ℝ) : EReal))
        * ((r i : EReal) - Ideal.div ((0 : EReal) + ∑ i, (r i : EReal)) ((N : ℝ) : EReal))) (((N - 1 : ℝ)) : EReal)) :=
  congrArg Ideal.sqrt (var_eq r N hN h1)

/-- The common value is a finite nonnegative real: the two-pass standard deviation is the coercion of a real ≥ 0. -/
theorem sqrt_two_pass_eq (h1 : 1 < N) :
    ∃ v : ℝ, 0 ≤ v ∧
      Ideal.sqrt (Ideal.div ((0 : EReal) + ∑ i, ((r i : EReal) - Ideal.div ((0 : EReal) + ∑ i, (r i : EReal)) ((N : ℝ) : EReal))
        * ((r i : EReal) - Ideal.div ((0 : EReal) + ∑ i, (r i : EReal)) ((N : ℝ) : EReal))) (((N - 1 : ℝ)) : EReal))
        = ((Real.sqrt v : ℝ) : EReal) := by
  have hN0 : N ≠ 0 := by linarith
  have hN1 : N - 1 ≠ 0 := by linarith
  have hpos : (0 : ℝ) < N - 1 := by linarith
  refine ⟨(∑ i, (r i - (∑ j, r j) / N) * (r i - (∑ j, r j) / N)) / (N - 1),
    div_nonneg (sum_sq_dev_nonneg r _) hpos.le, ?_⟩
  rw [two_pass_eq r N hN0 hN1, Ideal.sqrt_coe, if_neg (not_lt.mpr (div_nonneg (sum_sq_dev_nonneg r _) hpos.le))]

end Law

/-! ### (d) Four binary32 words as reals

  0x48435000: exponent field 144, fraction 4411392, so (2^23 + 4411392) · 2^(144 − 127 − 23) = 12800000 / 64 = 200000.
  0x48434FC0: exponent field 144, fraction 4411328, so 12799936 / 64 = 199999. -/

/-- The word 0x48435000 denotes the real 200000. -/
theorem ofBits_200000 : Ideal.ofBits .f32 0x48435000#32 = ((200000 : ℝ) : EReal) := by
  simp [Ideal.ofBits, Ideal.ieee, -EReal.coe_mul]; norm_num

/-- The word 0x48434FC0 denotes the real 199999. -/
theorem ofBits_199999 : Ideal.ofBits .f32 0x48434FC0#32 = ((199999 : ℝ) : EReal) := by
  simp [Ideal.ofBits, Ideal.ieee, -EReal.coe_mul]; norm_num

/-- The zero word denotes 0. -/
theorem ofBits_zero : Ideal.ofBits .f32 0x00000000#32 = 0 := Ideal.ofBits_zero_f32

/-- The word 0x3F800000 denotes 1. -/
theorem ofBits_one : Ideal.ofBits .f32 0x3F800000#32 = 1 := by
  simp [Ideal.ofBits, Ideal.ieee, -EReal.coe_mul]; norm_num

/-- 199999 is 200000 − 1, as coerced reals (the divisor of the variance against the count). -/
theorem coe_199999 : ((199999 : ℝ) : EReal) = ((200000 - 1 : ℝ) : EReal) := by norm_num

end Cert.Lib.Variance

end
-- ==== Proof.LibSumBlocks.lean ====
/-
  Finite sums in a commutative additive monoid, regrouped.

  * A sum over `Fin N` with `N = a * b` is the double sum over a block number `x < a` and a position
    `y < b` inside the block, the index being `x * b + y`.
  * A sum of a function that vanishes off the range of an embedding is the sum over the embedding's domain.
  * A sum over `Finset.range n` of a function of naturals that is given by a `Fin n`-indexed family below `n`.

  Nothing here mentions floats or shapes; the monoid is arbitrary (the extended reals are one: their addition is
  commutative and associative, infinities included).
-/
import Mathlib.Algebra.BigOperators.Fin
import Mathlib.Logic.Equiv.Fin.Basic

namespace Cert.SumBlocks

open Finset

/-- Position `y` of block `x` is below `a * b`. -/
theorem block_lt {a b : ℕ} (x : Fin a) (y : Fin b) : x.val * b + y.val < a * b := by
  have hx : x.val + 1 ≤ a := x.isLt
  calc x.val * b + y.val < x.val * b + b := Nat.add_lt_add_left y.isLt _
    _ = (x.val + 1) * b := (Nat.succ_mul _ _).symm
    _ ≤ a * b := Nat.mul_le_mul_right _ hx

/-- A sum over `Fin N`, `N = a * b`, block by block. -/
theorem sum_fin_blocks {M : Type*} [AddCommMonoid M] {N : ℕ} (a b : ℕ) (h : N = a * b) (f : Fin N → M) :
    ∑ i : Fin N, f i = ∑ x : Fin a, ∑ y : Fin b, f ⟨x.val * b + y.val, h ▸ block_lt x y⟩ := by
  subst h
  rw [← finProdFinEquiv.sum_comp, Fintype.sum_prod_type]
  refine Finset.sum_congr rfl fun x _ => Finset.sum_congr rfl fun y _ => congrArg f (Fin.ext ?_)
  show y.val + b * x.val = x.val * b + y.val
  rw [Nat.mul_comm, Nat.add_comm]

/-- A function that vanishes off the range of an embedding sums to its sum along the embedding. -/
theorem sum_eq_sum_embedding {ι κ M : Type*} [Fintype ι] [Fintype κ] [AddCommMonoid M] (e : κ ↪ ι) (G : ι → M)
    (h : ∀ i, (∀ k, e k ≠ i) → G i = 0) : ∑ i, G i = ∑ k, G (e k) := by
  rw [← Finset.sum_map Finset.univ e G]
  symm
  refine Finset.sum_subset (Finset.subset_univ _) fun i _ hi => h i fun k hk => hi ?_
  exact Finset.mem_map.mpr ⟨k, Finset.mem_univ k, hk⟩

/-- A sum over `range n` of a function of naturals that agrees below `n` with a `Fin n`-indexed family. -/
theorem sum_range_eq_sum_fin {M : Type*} [AddCommMonoid M] (n : ℕ) (g : ℕ → M) (f : Fin n → M)
    (h : ∀ k : Fin n, g k.val = f k) : ∑ k ∈ Finset.range n, g k = ∑ k : Fin n, f k := by
  rw [Finset.sum_range]
  exact Finset.sum_congr rfl fun k _ => h k

end Cert.SumBlocks
-- ==== Proof.LibBatchNorm.lean ====
/-
  Batch-norm column statistics on the extended reals: the one-pass and the two-pass forms agree.

  For a finite family of entries x i that are all (coercions of) real numbers, with N > 0 the number of
  entries, S = ∑ x i and Q = ∑ x i · x i (grouped in any way: addition on the extended reals is commutative
  and associative, infinities included), the one-pass statistics
      mean = S / N,    variance = max (Q / N − mean · mean) 0
  are the two-pass textbook statistics
      mean = S / N,    variance = (∑ (x i − mean) · (x i − mean)) / N.
  Every operand is the coercion of a real and the divisor is a nonzero real, so each extended-real operation
  is the coercion of the real one; the real identity  ∑ (r i − m)² = Q − N · m²  (m = S / N) then gives
  (∑ (r i − m)²) / N = Q / N − m², a nonnegative real, so the clamp at zero changes nothing.

  Also here: "is a real" is closed under the arithmetic used (sum, difference, product, maximum, finite sums,
  division by a nonzero real, reciprocal square root of a positive real); a sum over n = T · B rows is the
  sum over T tiles of the sums over the B rows of each tile; and the real values of four binary32 words.
-/
import Mathlib.Data.EReal.Inv
import Mathlib.Algebra.BigOperators.Field
import Mathlib.Algebra.Order.BigOperators.Ring.Finset
import Mathlib.Analysis.SpecialFunctions.Pow.Real
import Idealize.ShloMosaic.PureOps.Ideal
import Idealize.ShloMosaic.PureOps.Ideal.Laws
import proofs.«115763_j74259984548099_2_alg».proof.Proof.LibVariance
import proofs.«115763_j74259984548099_2_alg».proof.Proof.LibSumBlocks

noncomputable section

namespace Cert.LibBatchNorm

open Idealize.ShloMosaic
open scoped BigOperators

/-! ### Extended reals that are real numbers -/

/-- an extended real that is a real number -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩; exact ⟨a + b, (EReal.coe_add a b).symm⟩

theorem IsReal.sub {x y : EReal} : IsReal x → IsReal y → IsReal (x - y) := by
  rintro ⟨a, rfl⟩ ⟨b, rfl⟩; exact ⟨a - b, (EReal.coe_sub a b).symm⟩

theorem IsReal.mul {x y : EReal} : IsReal x → IsReal y → IsReal (x * y) := by
  rintro ⟨a, rfl⟩ ⟨b, rfl⟩; exact ⟨a * b, (EReal.coe_mul a b).symm⟩

theorem IsReal.max {x y : EReal} : IsReal x → IsReal y → IsReal (max x y) := by
  rintro ⟨a, rfl⟩ ⟨b, rfl⟩; exact ⟨Max.max a b, (EReal.coe_strictMono.monotone.map_max).symm⟩

theorem IsReal.sum {ι : Type*} (s : Finset ι) (f : ι → EReal) :
    (∀ i ∈ s, IsReal (f i)) → IsReal (∑ i ∈ s, f i) :=
  Finset.sum_induction f IsReal (fun _ _ => IsReal.add) IsReal.zero

theorem IsReal.div_coe {x : EReal} (hx : IsReal x) {y : ℝ} (hy : y ≠ 0) :
    IsReal (Ideal.div x (y : EReal)) := by
  obtain ⟨a, rfl⟩ := hx
  exact ⟨a / y, Cert.Lib.Variance.div_coe_coe a y hy⟩

/-- rsqrt of a positive real is a positive real -/
theorem IsReal.rsqrt_of_pos {x : EReal} (hx : IsReal x) (hpos : 0 < x) :
    IsReal (Ideal.rsqrt x) ∧ 0 < Ideal.rsqrt x := by
  obtain ⟨a, rfl⟩ := hx
  have ha : 0 < a := by exact_mod_cast hpos
  have hs : 0 < (Real.sqrt a)⁻¹ := inv_pos.mpr (Real.sqrt_pos.mpr ha)
  rw [Ideal.rsqrt_coe, if_neg (not_lt.mpr ha.le), if_neg ha.ne']
  exact ⟨⟨_, rfl⟩, by exact_mod_cast hs⟩

/-- a maximum with one is positive -/
theorem one_le_max_one (x : EReal) : (0 : EReal) < max x 1 :=
  lt_max_of_lt_right zero_lt_one

/-! ### The statistics -/

section Stats
variable {ι : Type*} [Fintype ι] (x : ι → EReal) (cN cEps : EReal)

/-- two-pass column mean -/
def meanR : EReal := Ideal.div (0 + ∑ i, x i) cN

/-- two-pass column variance -/
def varR : EReal := Ideal.div (0 + ∑ i, (x i - meanR x cN) * (x i - meanR x cN)) cN

/-- one-pass mean from the total S -/
def meanK (S : EReal) : EReal := Ideal.div S cN

/-- one-pass variance from the total S and the total of squares Q -/
def varK (S Q : EReal) : EReal := max (Ideal.div Q cN - meanK cN S * meanK cN S) 0

end Stats

/-- THE LAW. N is the number of rows as a real; every entry real; S and Q are the totals (however they were grouped). -/
theorem stats_eq {ι : Type*} [Fintype ι] (x : ι → EReal) (hx : ∀ i, IsReal (x i)) (N : ℝ)
    (hN : N = (Fintype.card ι : ℝ)) (hpos : 0 < N)
    (S Q : EReal) (hS : S = 0 + ∑ i, x i) (hQ : Q = 0 + ∑ i, x i * x i) :
    meanK (N : EReal) S = meanR x (N : EReal) ∧ varK (N : EReal) S Q = varR x (N : EReal)
      ∧ IsReal (meanR x (N : EReal)) ∧ IsReal (varR x (N : EReal)) ∧ 0 ≤ varR x (N : EReal) := by
  choose r hr using hx
  obtain rfl : x = fun i => (r i : EReal) := funext hr
  subst hS hQ
  have hN0 : N ≠ 0 := hpos.ne'
  have hmean : meanR (fun i => (r i : EReal)) (N : EReal) = (((∑ i, r i) / N : ℝ) : EReal) :=
    Cert.Lib.Variance.mean_eq r N hN0
  have hvarR : varR (fun i => (r i : EReal)) (N : EReal)
      = (((∑ i, (r i - (∑ j, r j) / N) * (r i - (∑ j, r j) / N)) / N : ℝ) : EReal) := by
    unfold varR
    rw [hmean]
    simp only [← EReal.coe_sub]
    rw [Cert.Lib.Variance.zero_add_coe_sum_mul, Cert.Lib.Variance.div_coe_coe _ _ hN0]
  have hnn : (0 : ℝ) ≤ (∑ i, (r i - (∑ j, r j) / N) * (r i - (∑ j, r j) / N)) / N :=
    div_nonneg (Cert.Lib.Variance.sum_sq_dev_nonneg r _) hpos.le
  have hreal : (∑ i, r i * r i) / N - (∑ i, r i) / N * ((∑ i, r i) / N)
      = (∑ i, (r i - (∑ j, r j) / N) * (r i - (∑ j, r j) / N)) / N := by
    rw [Cert.Lib.Variance.sum_sq_dev r N hN hN0]; field_simp
  have hvarK : varK (N : EReal) (0 + ∑ i, (r i : EReal)) (0 + ∑ i, (r i : EReal) * (r i : EReal))
      = (((∑ i, (r i - (∑ j, r j) / N) * (r i - (∑ j, r j) / N)) / N : ℝ) : EReal) := by
    unfold varK meanK
    rw [Cert.Lib.Variance.mean_eq r N hN0, Cert.Lib.Variance.zero_add_coe_sum_mul,
      Cert.Lib.Variance.div_coe_coe _ _ hN0, ← EReal.coe_mul, ← EReal.coe_sub, hreal]
    exact max_eq_left (by exact_mod_cast hnn)
  refine ⟨rfl, hvarK.trans hvarR.symm, ⟨_, hmean⟩, ⟨_, hvarR⟩, ?_⟩
  rw [hvarR]; exact_mod_cast hnn

/-! ### Regrouping rows into tiles -/

/-- row y of tile t, tiles of B rows: t * B + y -/
def rowOf {T B n : ℕ} (h : n = T * B) (t : Fin T) (y : Fin B) : Fin n :=
  ⟨t.val * B + y.val, by subst h; exact Cert.SumBlocks.block_lt t y⟩

/-- regrouping rows into T tiles of B rows (plain inner sums). No finiteness. -/
theorem sum_tiles' {T B n : ℕ} (h : n = T * B) (f : Fin n → EReal) :
    (0 : EReal) + ∑ t : Fin T, (∑ y : Fin B, f (rowOf h t y)) = 0 + ∑ r : Fin n, f r := by
  rw [Cert.SumBlocks.sum_fin_blocks T B h f]; rfl

/-- regrouping rows into T tiles of B rows, each tile summed from a zero start. No finiteness. -/
theorem sum_tiles {T B n : ℕ} (h : n = T * B) (f : Fin n → EReal) :
    (0 : EReal) + ∑ t : Fin T, ((0 : EReal) + ∑ y : Fin B, f (rowOf h t y)) = 0 + ∑ r : Fin n, f r := by
  simp only [zero_add]
  exact (zero_add _).symm.trans ((sum_tiles' h f).trans (zero_add _))

/-! ### The inverse standard deviation -/

/-- the inverse standard deviation is a (positive) real when the variance is a nonnegative real and eps a positive real -/
theorem invstd_real {v : EReal} (hv : IsReal v) (h0 : 0 ≤ v) {e : ℝ} (he : 0 < e) :
    IsReal (Ideal.rsqrt (v + (e : EReal))) := by
  obtain ⟨a, rfl⟩ := hv
  have ha : 0 ≤ a := by exact_mod_cast h0
  have hpos : (0 : EReal) < (a : EReal) + (e : EReal) := by
    rw [← EReal.coe_add]; exact_mod_cast add_pos_of_nonneg_of_pos ha he
  exact ((IsReal.coe a).add (IsReal.coe e)).rsqrt_of_pos hpos |>.1

/-! ### Four binary32 words as reals

  0x47C35000: exponent field 143, fraction 4411392, so (2^23 + 4411392) · 2^(143 − 127 − 23) = 12800000 / 128 = 100000.
  0x3727C5AC: exponent field 110, fraction 2606508, so (2^23 + 2606508) · 2^(110 − 127 − 23) = 10995116 · 2^(−40),
  a positive real (about 1.0e-5). -/

/-- The word 0x47C35000 denotes the real 100000. -/
theorem ofBits_100000 : Ideal.ofBits .f32 0x47C35000#32 = ((100000 : ℝ) : EReal) := by
  simp [Ideal.ofBits, Ideal.ieee, -EReal.coe_mul]; norm_num

/-- The word 0x3727C5AC denotes a positive real. -/
theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- The zero word denotes 0. -/
theorem ofBits_zero : Ideal.ofBits .f32 0x00000000#32 = 0 := Ideal.ofBits_zero_f32

/-- The word 0x3F800000 denotes 1. -/
theorem ofBits_one : Ideal.ofBits .f32 0x3F800000#32 = 1 := Cert.Lib.Variance.ofBits_one

end Cert.LibBatchNorm

end
-- ==== Proof.LibScaleShift.lean ====
/-
  Batch norm applied as a scale and a shift, with the statistics taken in one pass by multiplying column
  totals with the reciprocal of the row count.

  For a finite family of entries x i that are all real numbers, N > 0 their number, S = ∑ x i and
  Q = ∑ x i · x i (grouped in any way), and c the real 1 / N:
      mean = S · c,     var = Q · c − mean · mean
  are the two-pass textbook statistics  S / N  and  (∑ (x i − mean)²) / N  — a product with the real 1/N is
  the quotient by N, and the real identity ∑ (r i − m)² = Q − N · m² does the rest; no clamp at zero is
  needed because the two-pass form is visibly nonnegative.

  With s = g · rsqrt (var + eps) and t = b − mean · s, the affine form  v · s + t  is the centred form
  (v − mean) · rsqrt (var + eps) · g + b  whenever v, mean, g, b and the inverse deviation are real: the
  difference is the distributive law and a cancellation, both valid on reals (and both false at infinities).

  Last, a running total kept across the tiles of a grid — reset to zero at the first tile and increased by
  each tile's partial total — ends at the total over all tiles, in any commutative additive monoid.
-/
import Mathlib.Data.EReal.Inv
import Mathlib.Algebra.BigOperators.Field
import Mathlib.Algebra.BigOperators.Fin
import Idealize.ShloMosaic.PureOps.Ideal
import Idealize.ShloMosaic.PureOps.Ideal.Laws
import proofs.«115763_j74259984548099_2_alg».proof.Proof.LibVariance
import proofs.«115763_j74259984548099_2_alg».proof.Proof.LibBatchNorm

noncomputable section

namespace Cert.LibScaleShift

open Idealize.ShloMosaic Cert.LibBatchNorm
open scoped BigOperators

/-! ### One-pass statistics by the reciprocal of the count -/

/-- THE STATISTICS. Every entry real, N the number of rows as a positive real, S and Q the totals from a zero
    start: the product of S with the real 1/N is the two-pass mean, and Q/N less the square of that mean is the
    two-pass variance, a nonnegative real. -/
theorem stats_mul_eq {ι : Type*} [Fintype ι] (x : ι → EReal) (hx : ∀ i, IsReal (x i)) (N : ℝ)
    (hN : N = (Fintype.card ι : ℝ)) (hpos : 0 < N)
    (S Q : EReal) (hS : S = 0 + ∑ i, x i) (hQ : Q = 0 + ∑ i, x i * x i) :
    S * ((1 / N : ℝ) : EReal) = meanR x (N : EReal)
      ∧ Q * ((1 / N : ℝ) : EReal) - S * ((1 / N : ℝ) : EReal) * (S * ((1 / N : ℝ) : EReal)) = varR x (N : EReal)
      ∧ IsReal (meanR x (N : EReal)) ∧ IsReal (varR x (N : EReal)) ∧ 0 ≤ varR x (N : EReal) := by
  obtain ⟨hm, hv, hmr, hvr, hv0⟩ := stats_eq x hx N hN hpos S Q hS hQ
  have hN0 : N ≠ 0 := hpos.ne'
  -- a product with the real 1/N is the quotient by N
  have hdiv : ∀ y : EReal, y * ((1 / N : ℝ) : EReal) = Ideal.div y (N : EReal) := fun y => (Ideal.div_coe hN0 y).symm
  have hmean : S * ((1 / N : ℝ) : EReal) = meanR x (N : EReal) := by rw [hdiv]; exact hm
  refine ⟨hmean, ?_, hmr, hvr, hv0⟩
  -- the unclamped one-pass variance is the clamped one, which is the two-pass one
  have hclamp : varK (N : EReal) S Q = Ideal.div Q (N : EReal) - meanK (N : EReal) S * meanK (N : EReal) S := by
    have h := hv
    unfold varK at h ⊢
    refine max_eq_left ?_
    -- the unclamped value is a real r with max r 0 = the nonnegative two-pass variance
    choose r hr using hx
    obtain rfl : x = fun i => (r i : EReal) := funext hr
    subst hS hQ
    have hreal : Ideal.div ((0 : EReal) + ∑ i, (r i : EReal) * (r i : EReal)) (N : EReal)
        - meanK (N : EReal) (0 + ∑ i, (r i : EReal)) * meanK (N : EReal) (0 + ∑ i, (r i : EReal))
        = ((((∑ i, r i * r i) / N - (∑ i, r i) / N * ((∑ i, r i) / N) : ℝ)) : EReal) := by
      unfold meanK
      rw [Cert.Lib.Variance.mean_eq r N hN0, Cert.Lib.Variance.zero_add_coe_sum_mul,
        Cert.Lib.Variance.div_coe_coe _ _ hN0, ← EReal.coe_mul, ← EReal.coe_sub]
    rw [hreal]
    have h2 : (∑ i, r i * r i) / N - (∑ i, r i) / N * ((∑ i, r i) / N)
        = (∑ i, (r i - (∑ j, r j) / N) * (r i - (∑ j, r j) / N)) / N := by
      rw [Cert.Lib.Variance.sum_sq_dev r N hN hN0]; field_simp
    rw [h2]
    exact_mod_cast div_nonneg (Cert.Lib.Variance.sum_sq_dev_nonneg r _) hpos.le
  rw [hdiv Q, hdiv S]
  exact hclamp.symm.trans hv

/-! ### The affine form is the centred form -/

/-- THE AFFINE FORM. For reals v, m, g, b and a real inverse deviation r:
    v · (g · r) + (b − m · (g · r)) = (v − m) · r · g + b. -/
theorem affine_eq {v m g b r : EReal} (hv : IsReal v) (hm : IsReal m) (hg : IsReal g) (hb : IsReal b)
    (hr : IsReal r) :
    v * (g * r) + (b - m * (g * r)) = (v - m) * r * g + b := by
  obtain ⟨v, rfl⟩ := hv; obtain ⟨m, rfl⟩ := hm; obtain ⟨g, rfl⟩ := hg
  obtain ⟨b, rfl⟩ := hb; obtain ⟨r, rfl⟩ := hr
  simp only [← EReal.coe_mul, ← EReal.coe_sub, ← EReal.coe_add]
  exact congrArg _ (by ring)

/-- The affine form stays real. -/
theorem affine_real {v g b m r : EReal} (hv : IsReal v) (hm : IsReal m) (hg : IsReal g) (hb : IsReal b)
    (hr : IsReal r) : IsReal (v * (g * r) + (b - m * (g * r))) :=
  (hv.mul (hg.mul hr)).add (hb.sub (hm.mul (hg.mul hr)))

/-! ### A running total across the tiles of a grid -/

/-- A running total that is reset at the first tile and increased by each tile's part ends, after the last
    tile, at the total of the parts. The total after tile t is `acc t`; `part` is each tile's contribution. -/
theorem running_total {M : Type*} [AddCommMonoid M] (T : ℕ) (part : Fin (T + 1) → M) (acc : Fin (T + 1) → M)
    (h0 : acc 0 = 0 + part 0)
    (hs : ∀ t : Fin T, acc t.succ = acc t.castSucc + part t.succ) :
    acc (Fin.last T) = ∑ t, part t := by
  suffices h : ∀ k : ℕ, ∀ hk : k < T + 1, acc ⟨k, hk⟩ = ∑ t : Fin (T + 1) with t.val ≤ k, part t by
    rw [show Fin.last T = ⟨T, Nat.lt_succ_self T⟩ from rfl, h T (Nat.lt_succ_self T),
      Finset.filter_true_of_mem (fun t _ => Nat.lt_succ_iff.mp t.isLt)]
  intro k
  induction k with
  | zero =>
    intro hk
    have : (Finset.univ.filter fun t : Fin (T + 1) => t.val ≤ 0) = {0} := by
      ext t
      simp only [Finset.mem_filter, Finset.mem_univ, true_and, Finset.mem_singleton, Fin.ext_iff, Fin.val_zero]
      omega
    rw [this, Finset.sum_singleton, show (⟨0, hk⟩ : Fin (T + 1)) = 0 from rfl, h0, zero_add]
  | succ k ih =>
    intro hk
    have hkT : k < T := Nat.lt_of_succ_lt_succ hk
    have e1 : (⟨k + 1, hk⟩ : Fin (T + 1)) = (⟨k, hkT⟩ : Fin T).succ := rfl
    have e2 : (⟨k, Nat.lt_of_succ_lt hk⟩ : Fin (T + 1)) = (⟨k, hkT⟩ : Fin T).castSucc := rfl
    rw [e1, hs, ← e2, ih (Nat.lt_of_succ_lt hk), ← e1]
    have : (Finset.univ.filter fun t : Fin (T + 1) => t.val ≤ k + 1)
        = insert (⟨k + 1, hk⟩ : Fin (T + 1)) (Finset.univ.filter fun t : Fin (T + 1) => t.val ≤ k) := by
      ext t; simp only [Finset.mem_filter, Finset.mem_univ, true_and, Finset.mem_insert, Fin.ext_iff]; omega
    rw [this, Finset.sum_insert (by simp), add_comm]

/-! ### The whole batch norm, column by column -/

section Bridge
variable {ι κ : Type*} [Fintype ι]

/-- Batch norm as the statistics kernels apply it: column j is scaled by g j · rsqrt (var + eps) and shifted by
    b j − mean · scale, the mean and the variance taken in one pass from the column's total S j and total of
    squares Q j by products with the reciprocal count c. -/
def bnAffine (x : ι → κ → EReal) (g b S Q : κ → EReal) (c eps : EReal) (i : ι) (j : κ) : EReal :=
  x i j * (g j * Ideal.rsqrt (Q j * c - S j * c * (S j * c) + eps))
    + (b j - S j * c * (g j * Ideal.rsqrt (Q j * c - S j * c * (S j * c) + eps)))

/-- Batch norm as the textbook states it: centre by the column mean, scale by the inverse deviation from the
    two-pass variance, then the learnt gain and bias. -/
def bnCentred (x : ι → κ → EReal) (g b : κ → EReal) (cN eps : EReal) (i : ι) (j : κ) : EReal :=
  (x i j - meanR (fun r => x r j) cN) * Ideal.rsqrt (varR (fun r => x r j) cN + eps) * g j + b j

/-- THE BRIDGE. On real entries, real gain and bias, N > 0 rows and a positive real eps, the affine form over
    one-pass statistics is the centred form over two-pass statistics, and the result is real. The totals may
    have been accumulated in any grouping: only their values enter. -/
theorem bn_affine_eq_centred (x : ι → κ → EReal) (g b S Q : κ → EReal)
    (hx : ∀ i j, IsReal (x i j)) (hg : ∀ j, IsReal (g j)) (hb : ∀ j, IsReal (b j))
    (N : ℝ) (hN : N = (Fintype.card ι : ℝ)) (hpos : 0 < N) (e : ℝ) (he : 0 < e)
    (hS : ∀ j, S j = 0 + ∑ i, x i j) (hQ : ∀ j, Q j = 0 + ∑ i, x i j * x i j) (i : ι) (j : κ) :
    bnAffine x g b S Q ((1 / N : ℝ) : EReal) (e : EReal) i j = bnCentred x g b (N : EReal) (e : EReal) i j
      ∧ IsReal (bnCentred x g b (N : EReal) (e : EReal) i j) := by
  obtain ⟨hm, hv, hmr, hvr, hv0⟩ :=
    stats_mul_eq (fun r => x r j) (fun r => hx r j) N hN hpos (S j) (Q j) (hS j) (hQ j)
  have hr : IsReal (Ideal.rsqrt (varR (fun r => x r j) (N : EReal) + (e : EReal))) := invstd_real hvr hv0 he
  have heq : bnAffine x g b S Q ((1 / N : ℝ) : EReal) (e : EReal) i j
      = bnCentred x g b (N : EReal) (e : EReal) i j := by
    unfold bnAffine bnCentred
    rw [hv, hm]
    exact affine_eq (hx i j) hmr (hg j) (hb j) hr
  refine ⟨heq, ?_⟩
  unfold bnCentred
  exact ((((hx i j).sub hmr).mul hr).mul (hg j)).add (hb j)

end Bridge

/-! ### Two binary32 words as reals

  0x47435000: exponent field 142, fraction 4411392, so (2^23 + 4411392) · 2^(142 − 127 − 23) = 12800000 / 256 = 50000. -/

/-- The word 0x47435000 denotes the real 50000. -/
theorem ofBits_50000 : Ideal.ofBits .f32 0x47435000#32 = ((50000 : ℝ) : EReal) := by
  simp [Ideal.ofBits, Ideal.ieee, -EReal.coe_mul]; norm_num

/-- The rectifier keeps reals real. -/
theorem relu_real {v : EReal} (hv : IsReal v) : IsReal (max v 0) := hv.max IsReal.zero

end Cert.LibScaleShift

end
-- ==== Proof.LibTiledTotals.lean ====
/-
  Column totals of an [n, d] array accumulated tile by tile.

  The n = (T + 1) · B rows are visited in T + 1 tiles of B rows. At each tile the vector unit sums the tile's
  [B, d] block along its first axis, and a [d]-wide running total — reset to zero at the first tile — is
  increased by that partial total. After the last tile the running total is, column by column, the total over
  all n rows from a zero start, which is how a whole-array sum along the first axis reads. Addition on the
  extended reals is commutative and associative, infinities included, so the regrouping needs no finiteness.
-/
import Idealize.ShloMosaic.PureOps.Ideal
import Idealize.ShloMosaic.PureOps.Ideal.Laws
import Idealize.ShloMosaic.Lib.ValueIdx
import proofs.«115763_j74259984548099_2_alg».proof.Proof.LibAxisSum
import proofs.«115763_j74259984548099_2_alg».proof.Proof.LibBatchNorm
import proofs.«115763_j74259984548099_2_alg».proof.Proof.LibScaleShift

noncomputable section

namespace Cert.LibTiledTotals

open Idealize.ShloMosaic Idealize.ShloMosaic.ValueIdx Cert.LibBatchNorm
open scoped BigOperators

/-- The partial total of one tile: the vector unit's sum of the tile's block along its first axis is, at
    column j, the sum over the tile's rows of the array's entries, when the block holds those rows. -/
theorem part_of_block {T B n d : ℕ} {φ : FTy} (h : n = (T + 1) * B) (X : Fin n → Fin d → EReal)
    (t : Fin (T + 1)) (blk : FVec Ideal ⟨2, ![B, d]⟩ φ) (hblk : ∀ y j, blk (ix2 y j) = X (rowOf h t y) j)
    (acc : BitVec φ.bits) (hr : Shape.Reduces ⟨2, ![B, d]⟩ [0] ⟨1, ![d]⟩) (hφ : FKind.Formats φ)
    (hacc : acc = FKind.add.neutral φ hφ) (j : Fin d) :
    multiReduction .add [0] ⟨1, ![d]⟩ blk acc hr hφ hacc (ix1 j) = ∑ y : Fin B, X (rowOf h t y) j :=
  (Cert.LibAxisSum.sum_first blk acc hr hφ hacc j).trans (Finset.sum_congr rfl fun y _ => hblk y j)

/-- THE TOTAL. A running total per column, reset at the first tile and increased by each tile's partial total,
    ends at the total over all rows from a zero start. -/
theorem tiled_total {T B n d : ℕ} (h : n = (T + 1) * B) (X : Fin n → Fin d → EReal)
    (part : Fin (T + 1) → Fin d → EReal) (hpart : ∀ t j, part t j = ∑ y : Fin B, X (rowOf h t y) j)
    (acc : Fin (T + 1) → Fin d → EReal) (h0 : ∀ j, acc 0 j = 0 + part 0 j)
    (hs : ∀ (t : Fin T) j, acc t.succ j = acc t.castSucc j + part t.succ j) (j : Fin d) :
    acc (Fin.last T) j = 0 + ∑ r : Fin n, X r j := by
  have hrun : acc (Fin.last T) j = ∑ t, part t j :=
    Cert.LibScaleShift.running_total T (fun t => part t j) (fun t => acc t j) (h0 j) (fun t => hs t j)
  rw [hrun, ← sum_tiles' h (fun r => X r j), zero_add]
  exact Finset.sum_congr rfl fun t _ => hpart t j

/-- The same for the totals of squares (or of any function of the entries): apply `tiled_total` to the array of
    squares. Stated for convenience with the squares spelt out. -/
theorem tiled_total_sq {T B n d : ℕ} (h : n = (T + 1) * B) (X : Fin n → Fin d → EReal)
    (part : Fin (T + 1) → Fin d → EReal)
    (hpart : ∀ t j, part t j = ∑ y : Fin B, X (rowOf h t y) j * X (rowOf h t y) j)
    (acc : Fin (T + 1) → Fin d → EReal) (h0 : ∀ j, acc 0 j = 0 + part 0 j)
    (hs : ∀ (t : Fin T) j, acc t.succ j = acc t.castSucc j + part t.succ j) (j : Fin d) :
    acc (Fin.last T) j = 0 + ∑ r : Fin n, X r j * X r j :=
  tiled_total h (fun r j => X r j * X r j) part hpart acc h0 hs j

end Cert.LibTiledTotals

end
-- ==== Proof.LibBiasRows.lean ====
/-
  A bias row added to every row of a matrix, with or without a rectifier, on the extended reals.

  For `a : [n, d]` and a row `b : [1, d]` the sum's entry (r, j) is `a (r, j) + b (0, j)`; the rectified layer takes the
  larger of that and the zero word's value.  The vector unit spells the sum as a cast of each operand to its own shape,
  a broadcast of the row down the n rows and an elementwise addition, and the rectifier as an elementwise maximum
  against a broadcast scalar.  An entry reads one entry of the matrix and one of the row, which the congruence lemmas
  record.  Nothing here needs finiteness.
-/
import Idealize.ShloMosaic.PureOps.Ideal
import Idealize.ShloMosaic.Lib.ValueIdx
import Idealize.ShloMosaic.Lib.Pipeline.Value

noncomputable section

namespace Cert.LibBiasRows

open Idealize.ShloMosaic Idealize.ShloMosaic.ValueIdx

/-- Entry (r, j) of the matrix with the row added to each of its rows. -/
def addRow {n d : ℕ} (a : (⟨2, ![n, d]⟩ : Shape).Idx → EReal) (b : (⟨2, ![1, d]⟩ : Shape).Idx → EReal) :
    (⟨2, ![n, d]⟩ : Shape).Idx → EReal :=
  fun i => a i + b (ix2 ⟨0, Nat.one_pos⟩ (i 1))

/-- The same followed by the rectifier: the larger of the sum and the zero word's value. -/
def reluRow {n d : ℕ} (a : (⟨2, ![n, d]⟩ : Shape).Idx → EReal) (b : (⟨2, ![1, d]⟩ : Shape).Idx → EReal) :
    (⟨2, ![n, d]⟩ : Shape).Idx → EReal :=
  fun i => max (addRow a b i) (Ideal.ofBits .f32 0x00000000#32)

/-- An entry of the sum reads the matrix at that entry and the row at its column. -/
theorem addRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    addRow a b i = addRow a' b' i' := by
  unfold addRow
  rw [ha, hb]

/-- The same for the rectified layer. -/
theorem reluRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    reluRow a b i = reluRow a' b' i' := by
  unfold reluRow
  rw [addRow_congr a a' b b' i i' ha hb]

/-- A row `[1, d]` broadcast down n rows, at entry (r, j), is the row at (0, j). -/
theorem row_broadcast {n d : ℕ} (b : (⟨2, ![1, d]⟩ : Shape).Idx → EReal)
    (h : (⟨2, ![1, d]⟩ : Shape).Broadcasts ⟨2, ![n, d]⟩) (i : (⟨2, ![n, d]⟩ : Shape).Idx) :
    broadcastTo ⟨2, ![n, d]⟩ b h i = b (ix2 ⟨0, Nat.one_pos⟩ (i 1)) := by
  refine broadcastTo_apply b h i (ix2 ⟨0, Nat.one_pos⟩ (i 1)) (fun a => ?_)
  match a with
  | ⟨0, _⟩ => exact (if_pos rfl).symm
  | ⟨1, _⟩ =>
    show (i 1).val = if d = 1 then 0 else (i 1).val
    have hlt : (i 1).val < d := idx2_lt1 i
    split
    · omega
    · rfl

/-- A vector `[d]` laid out as a row `[1, d]`, at (0, j), is the vector at j. -/
theorem row_of_vector {d : ℕ} (b : (⟨1, ![d]⟩ : Shape).Idx → EReal) (h : (⟨1, ![d]⟩ : Shape).ShapeCasts ⟨2, ![1, d]⟩)
    (j : Fin d) : shapeCast ⟨2, ![1, d]⟩ b h (ix2 ⟨0, Nat.one_pos⟩ j) = b (ix1 j) := by
  refine (shapeCast_addUnit_apply ![d] b h _).trans (congrArg b (funext fun a => ?_))
  match a with
  | ⟨0, _⟩ => rfl

/-- The vector unit's spelling of the sum, at an entry. -/
theorem vec_addRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    addf (shapeCast ⟨2, ![n, d]⟩ x h0) (broadcastTo ⟨2, ![n, d]⟩ (shapeCast ⟨2, ![1, d]⟩ b h1) h2) i = addRow x b i := by
  rw [shapeCast_self, shapeCast_self]
  show x i + broadcastTo ⟨2, ![n, d]⟩ b h2 i = x i + b (ix2 ⟨0, Nat.one_pos⟩ (i 1))
  rw [row_broadcast]

/-- The vector unit's spelling of the rectified layer, at an entry. -/
theorem vec_reluRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    maximumf (addf (shapeCast ⟨2, ![n, d]⟩ x h0) (broadcastTo ⟨2, ![n, d]⟩ (shapeCast ⟨2, ![1, d]⟩ b h1) h2))
        (broadcast ⟨2, ![n, d]⟩ (FloatOps.ofBits (F := Ideal) .f32 0x00000000#32)) i = reluRow x b i := by
  show max (addf (shapeCast ⟨2, ![n, d]⟩ x h0) (broadcastTo ⟨2, ![n, d]⟩ (shapeCast ⟨2, ![1, d]⟩ b h1) h2) i) _ = max (addRow x b i) _
  rw [vec_addRow]
  rfl

end Cert.LibBiasRows

end
-- ==== Proof.KI.V1.lean ====
import proofs.«115763_j74259984548099_2_alg».proof.Proof.KI.R1
import proofs.«115763_j74259984548099_2_alg».proof.Proof.Spec
import Idealize.ShloMosaic.Lib.ValueIdx
import Idealize.ShloMosaic.Lib.Pipeline.Value
import Idealize.ShloMosaic.PureOps.Ideal.Laws
import proofs.«115763_j74259984548099_2_alg».proof.Proof.LibAxisSum
import proofs.«115763_j74259984548099_2_alg».proof.Proof.LibTiledTotals
import proofs.«115763_j74259984548099_2_alg».proof.Proof.LibKeepdims
import proofs.«115763_j74259984548099_2_alg».proof.Proof.LibBiasRows

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! # Region 1: what the three outputs hold after the run, on the extended reals -/

theorem hz_v1 : (![0, 0] : Fin 2 → Nat) = fun _ => 0 := funext fun a => by fin_cases a <;> rfl

/-! ## Each case's pieces read as payloads of the contents handed in -/

theorem runB_canon1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec Ideal S5000x128 .f32) (x1 : Vec Ideal S5000x128 .f32) (x2 : Vec Ideal S5000x1 .f32) (x3 : Vec Ideal S1x128 .f32) (xs0 xs1 : Vec Ideal S1x128 .f32) :
    View.canon (kernelRun1_B (F := Ideal) c i arg1 harg1 arg2 harg2 arg3 harg3 arg4 harg4 arg5 harg5 arg6 harg6 arg7 harg7 arg8 harg8 arg9 harg9 hc0 hc1 x0 x1 x2 x3 xs0 xs1).1 = k1_pay3 x2 x0 x1 x3
    ∧ View.canon (kernelRun1_B (F := Ideal) c i arg1 harg1 arg2 harg2 arg3 harg3 arg4 harg4 arg5 harg5 arg6 harg6 arg7 harg7 arg8 harg8 arg9 harg9 hc0 hc1 x0 x1 x2 x3 xs0 xs1).2.1 = k1_pay4 x2 x0 x1 x3 xs0
    ∧ View.canon (kernelRun1_B (F := Ideal) c i arg1 harg1 arg2 harg2 arg3 harg3 arg4 harg4 arg5 harg5 arg6 harg6 arg7 harg7 arg8 harg8 arg9 harg9 hc0 hc1 x0 x1 x2 x3 xs0 xs1).2.2.1 = k1_pay5 x2 x0 x1 x3 xs1 := by
  unfold kernelRun1_B
  dsimp only
  simp only [View.canon_unit_zero (S := S5000x128) hz_v1, View.canon_unit_zero (S := S1x128) hz_v1, View.canon_cons_unit_zero (S := S1x128) hz_v1,
    View.readCov_unit_zero (S := S1x128) _ hz_v1, View.readAt_eq_ld, Memref.IsWhole.read_unread,
    View.ld_unit_zero (S := S5000x128) hz_v1, View.ld_unit_zero (S := S5000x1) hz_v1, View.ld_unit_zero (S := S1x128) hz_v1]
  exact ⟨trivial, trivial, trivial⟩

theorem runA_canon1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec Ideal S5000x128 .f32) (x1 : Vec Ideal S5000x128 .f32) (x2 : Vec Ideal S5000x1 .f32) (x3 : Vec Ideal S1x128 .f32) :
    View.canon (kernelRun1_A (F := Ideal) c i arg1 harg1 arg2 harg2 arg3 harg3 arg4 harg4 arg5 harg5 arg6 harg6 arg7 harg7 arg8 harg8 arg9 harg9 hc0 hc1 x0 x1 x2 x3).1 = k1_pay3 x2 x0 x1 x3
    ∧ View.canon (kernelRun1_A (F := Ideal) c i arg1 harg1 arg2 harg2 arg3 harg3 arg4 harg4 arg5 harg5 arg6 harg6 arg7 harg7 arg8 harg8 arg9 harg9 hc0 hc1 x0 x1 x2 x3).2.1 = k1_pay4 x2 x0 x1 x3 (k1_pay1 (F := Ideal))
    ∧ View.canon (kernelRun1_A (F := Ideal) c i arg1 harg1 arg2 harg2 arg3 harg3 arg4 harg4 arg5 harg5 arg6 harg6 arg7 harg7 arg8 harg8 arg9 harg9 hc0 hc1 x0 x1 x2 x3).2.2.1 = k1_pay5 x2 x0 x1 x3 (k1_pay2 (F := Ideal)) := by
  unfold kernelRun1_A
  dsimp only
  sl_unfold_words
  simp only [View.canon_unit_zero (S := S5000x128) hz_v1, View.canon_unit_zero (S := S1x128) hz_v1, View.canon_cons_unit_zero (S := S1x128) hz_v1,
    View.readCov_unit_zero (S := S1x128) _ hz_v1, View.readAt_eq_ld, Memref.IsWhole.read_unread,
    View.ld_unit_zero (S := S5000x128) hz_v1, View.ld_unit_zero (S := S5000x1) hz_v1, View.ld_unit_zero (S := S1x128) hz_v1]
  exact ⟨trivial, trivial, trivial⟩

theorem runC_canon1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec Ideal S5000x128 .f32) (x1 : Vec Ideal S5000x128 .f32) (x2 : Vec Ideal S5000x1 .f32) (x3 : Vec Ideal S1x128 .f32) (xs0 xs1 : Vec Ideal S1x128 .f32) :
    View.canon (kernelRun1_C (F := Ideal) c i arg1 harg1 arg2 harg2 arg3 harg3 arg4 harg4 arg5 harg5 arg6 harg6 arg7 harg7 arg8 harg8 arg9 harg9 hc0 hc1 x0 x1 x2 x3 xs0 xs1).1 = k1_pay3 x2 x0 x1 x3
    ∧ View.canon (kernelRun1_C (F := Ideal) c i arg1 harg1 arg2 harg2 arg3 harg3 arg4 harg4 arg5 harg5 arg6 harg6 arg7 harg7 arg8 harg8 arg9 harg9 hc0 hc1 x0 x1 x2 x3 xs0 xs1).2.1 = k1_pay4 x2 x0 x1 x3 xs0
    ∧ View.canon (kernelRun1_C (F := Ideal) c i arg1 harg1 arg2 harg2 arg3 harg3 arg4 harg4 arg5 harg5 arg6 harg6 arg7 harg7 arg8 harg8 arg9 harg9 hc0 hc1 x0 x1 x2 x3 xs0 xs1).2.2.1 = k1_pay5 x2 x0 x1 x3 xs1
    ∧ View.canon (kernelRun1_C (F := Ideal) c i arg1 harg1 arg2 harg2 arg3 harg3 arg4 harg4 arg5 harg5 arg6 harg6 arg7 harg7 arg8 harg8 arg9 harg9 hc0 hc1 x0 x1 x2 x3 xs0 xs1).2.2.2.1 = k1_pay4 x2 x0 x1 x3 xs0
    ∧ View.canon (kernelRun1_C (F := Ideal) c i arg1 harg1 arg2 harg2 arg3 harg3 arg4 harg4 arg5 harg5 arg6 harg6 arg7 harg7 arg8 harg8 arg9 harg9 hc0 hc1 x0 x1 x2 x3 xs0 xs1).2.2.2.2.1 = k1_pay5 x2 x0 x1 x3 xs1 := by
  unfold kernelRun1_C
  dsimp only
  sl_unfold_words
  simp only [View.canon_unit_zero (S := S5000x128) hz_v1, View.canon_unit_zero (S := S1x128) hz_v1, View.canon_cons_unit_zero (S := S1x128) hz_v1,
    View.readCov_unit_zero (S := S1x128) _ hz_v1, View.readAt_eq_ld, Memref.IsWhole.read_unread,
    View.ld_unit_zero (S := S5000x128) hz_v1, View.ld_unit_zero (S := S5000x1) hz_v1, View.ld_unit_zero (S := S1x128) hz_v1]
  exact ⟨trivial, trivial, trivial, trivial, trivial⟩

/-! ## Each case's contents in closed form: the payloads over the point's blocks -/

/-- The combined block of point `t`: the scaled sum of the two row blocks plus the bias row. -/
def aggBlk1 (c : Dev nD) (t : Fin cfg1.N) : Vec Ideal S5000x128 .f32 :=
  k1_pay3 (iblk1 V c 2 t) (iblk1 V c 0 t) (iblk1 V c 1 t) (iblk1 V c 3 t)

theorem outB1_eq (c : Dev nD) (t : Fin cfg1.N) (h0 : ¬t.val % 20 = 0) (h1 : ¬t.val % 20 = 19) (xs0 xs1 : Vec Ideal S1x128 .f32) :
    outB1 V c t h0 h1 xs0 xs1 = (aggBlk1 V c t, idleOut1, idleOut1, k1_pay4 (iblk1 V c 2 t) (iblk1 V c 0 t) (iblk1 V c 1 t) (iblk1 V c 3 t) xs0, k1_pay5 (iblk1 V c 2 t) (iblk1 V c 0 t) (iblk1 V c 1 t) (iblk1 V c 3 t) xs1) := by
  have e := runB_canon1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) xs0 xs1
  unfold outB1 runB1 aggBlk1
  rw [e.1, e.2.1, e.2.2]

theorem outA1_eq (c : Dev nD) (t : Fin cfg1.N) (h0 : t.val % 20 = 0) (h1 : ¬t.val % 20 = 19) :
    outA1 V c t h0 h1 = (aggBlk1 V c t, idleOut1, idleOut1, k1_pay4 (iblk1 V c 2 t) (iblk1 V c 0 t) (iblk1 V c 1 t) (iblk1 V c 3 t) (k1_pay1 (F := Ideal)), k1_pay5 (iblk1 V c 2 t) (iblk1 V c 0 t) (iblk1 V c 1 t) (iblk1 V c 3 t) (k1_pay2 (F := Ideal))) := by
  have e := runA_canon1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)
  unfold outA1 runA1 aggBlk1
  rw [e.1, e.2.1, e.2.2]

theorem outC1_eq (c : Dev nD) (t : Fin cfg1.N) (h0 : ¬t.val % 20 = 0) (h1 : t.val % 20 = 19) (xs0 xs1 : Vec Ideal S1x128 .f32) :
    outC1 V c t h0 h1 xs0 xs1 = (aggBlk1 V c t, k1_pay4 (iblk1 V c 2 t) (iblk1 V c 0 t) (iblk1 V c 1 t) (iblk1 V c 3 t) xs0, k1_pay5 (iblk1 V c 2 t) (iblk1 V c 0 t) (iblk1 V c 1 t) (iblk1 V c 3 t) xs1,
      k1_pay4 (iblk1 V c 2 t) (iblk1 V c 0 t) (iblk1 V c 1 t) (iblk1 V c 3 t) xs0, k1_pay5 (iblk1 V c 2 t) (iblk1 V c 0 t) (iblk1 V c 1 t) (iblk1 V c 3 t) xs1) := by
  have e := runC_canon1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) xs0 xs1
  unfold outC1 runC1 aggBlk1
  exact congr (congrArg Prod.mk e.1) (congr (congrArg Prod.mk e.2.1) (congr (congrArg Prod.mk e.2.2.1) (congr (congrArg Prod.mk e.2.2.2.1) e.2.2.2.2)))

/-! ## The region-entry arrays, and each block as rows of its array -/

/-- The four input arrays as the region finds them. -/
def arrM1 (c : Dev nD) : S100000x128.Idx → EReal := V c (Pipeline.arrRef spec1 0)
def arrH1 (c : Dev nD) : S100000x128.Idx → EReal := V c (Pipeline.arrRef spec1 1)
def arrD1 (c : Dev nD) : S100000x1.Idx → EReal := V c (Pipeline.arrRef spec1 2)
def arrB1 (c : Dev nD) : S1x128.Idx → EReal := V c (Pipeline.arrRef spec1 3)

/-- The block indices of the windows, in closed form over the grid. -/
theorem idx1_0 : ∀ t : Fin cfg1.N, win1_0.index t 0 = t.val ∧ win1_0.index t 1 = 0 :=
  (by decide +kernel : ∀ t : Fin grid1.N, win1_0.index t 0 = t.val ∧ win1_0.index t 1 = 0)
theorem idx1_1 : ∀ t : Fin cfg1.N, win1_1.index t 0 = t.val ∧ win1_1.index t 1 = 0 :=
  (by decide +kernel : ∀ t : Fin grid1.N, win1_1.index t 0 = t.val ∧ win1_1.index t 1 = 0)
theorem idx1_2 : ∀ t : Fin cfg1.N, win1_2.index t 0 = t.val ∧ win1_2.index t 1 = 0 :=
  (by decide +kernel : ∀ t : Fin grid1.N, win1_2.index t 0 = t.val ∧ win1_2.index t 1 = 0)
theorem idx1_3 : ∀ t : Fin cfg1.N, win1_3.index t 0 = 0 ∧ win1_3.index t 1 = 0 :=
  (by decide +kernel : ∀ t : Fin grid1.N, win1_3.index t 0 = 0 ∧ win1_3.index t 1 = 0)
theorem idx1_4 : ∀ t : Fin cfg1.N, win1_4.index t 0 = t.val ∧ win1_4.index t 1 = 0 :=
  (by decide +kernel : ∀ t : Fin grid1.N, win1_4.index t 0 = t.val ∧ win1_4.index t 1 = 0)
theorem idx1_5 : ∀ t : Fin cfg1.N, win1_5.index t 0 = 0 ∧ win1_5.index t 1 = 0 :=
  (by decide +kernel : ∀ t : Fin grid1.N, win1_5.index t 0 = 0 ∧ win1_5.index t 1 = 0)
theorem idx1_6 : ∀ t : Fin cfg1.N, win1_6.index t 0 = 0 ∧ win1_6.index t 1 = 0 :=
  (by decide +kernel : ∀ t : Fin grid1.N, win1_6.index t 0 = 0 ∧ win1_6.index t 1 = 0)

/-- Window 0's block at point `t` is rows `5000 t … 5000 t + 4999` of its array. -/
theorem iblk1_0_apply (c : Dev nD) (t : Fin cfg1.N) (x : S5000x128.Idx) (k : S100000x128.Idx)
    (hk0 : (k 0).val = t.val * 5000 + (x 0).val) (hk1 : (k 1).val = (x 1).val) :
    (iblk1 V c 0 t : Vec Ideal S5000x128 .f32) x = arrM1 V c k := by
  have hi := idx1_0 t
  unfold iblk1 arrM1
  rw [View.read_apply]
  show (V c (Pipeline.arrRef spec1 0) : S100000x128.Idx → EReal) _ = (V c (Pipeline.arrRef spec1 0) : S100000x128.Idx → EReal) k
  congr 1
  funext a
  apply Fin.ext
  match a with
  | ⟨0, _⟩ => show win1_0.index t 0 * 5000 + 1 * (x 0).val = (k 0).val; rw [hi.1, hk0]; omega
  | ⟨1, _⟩ => show win1_0.index t 1 * 128 + 1 * (x 1).val = (k 1).val; rw [hi.2, hk1]; omega

theorem iblk1_1_apply (c : Dev nD) (t : Fin cfg1.N) (x : S5000x128.Idx) (k : S100000x128.Idx)
    (hk0 : (k 0).val = t.val * 5000 + (x 0).val) (hk1 : (k 1).val = (x 1).val) :
    (iblk1 V c 1 t : Vec Ideal S5000x128 .f32) x = arrH1 V c k := by
  have hi := idx1_1 t
  unfold iblk1 arrH1
  rw [View.read_apply]
  show (V c (Pipeline.arrRef spec1 1) : S100000x128.Idx → EReal) _ = (V c (Pipeline.arrRef spec1 1) : S100000x128.Idx → EReal) k
  congr 1
  funext a
  apply Fin.ext
  match a with
  | ⟨0, _⟩ => show win1_1.index t 0 * 5000 + 1 * (x 0).val = (k 0).val; rw [hi.1, hk0]; omega
  | ⟨1, _⟩ => show win1_1.index t 1 * 128 + 1 * (x 1).val = (k 1).val; rw [hi.2, hk1]; omega

theorem iblk1_2_apply (c : Dev nD) (t : Fin cfg1.N) (x : S5000x1.Idx) (k : S100000x1.Idx)
    (hk0 : (k 0).val = t.val * 5000 + (x 0).val) (hk1 : (k 1).val = (x 1).val) :
    (iblk1 V c 2 t : Vec Ideal S5000x1 .f32) x = arrD1 V c k := by
  have hi := idx1_2 t
  unfold iblk1 arrD1
  rw [View.read_apply]
  show (V c (Pipeline.arrRef spec1 2) : S100000x1.Idx → EReal) _ = (V c (Pipeline.arrRef spec1 2) : S100000x1.Idx → EReal) k
  congr 1
  funext a
  apply Fin.ext
  match a with
  | ⟨0, _⟩ => show win1_2.index t 0 * 5000 + 1 * (x 0).val = (k 0).val; rw [hi.1, hk0]; omega
  | ⟨1, _⟩ => show win1_2.index t 1 * 1 + 1 * (x 1).val = (k 1).val; rw [hi.2, hk1]; omega

theorem iblk1_3_apply (c : Dev nD) (t : Fin cfg1.N) (x : S1x128.Idx) :
    (iblk1 V c 3 t : Vec Ideal S1x128 .f32) x = arrB1 V c x := by
  have hi := idx1_3 t
  unfold iblk1 arrB1
  rw [View.read_apply]
  show (V c (Pipeline.arrRef spec1 3) : S1x128.Idx → EReal) _ = (V c (Pipeline.arrRef spec1 3) : S1x128.Idx → EReal) x
  congr 1
  funext a
  apply Fin.ext
  match a with
  | ⟨0, _⟩ => show win1_3.index t 0 * 1 + 1 * (x 0).val = (x 0).val; rw [hi.1]; omega
  | ⟨1, _⟩ => show win1_3.index t 1 * 128 + 1 * (x 1).val = (x 1).val; rw [hi.2]; omega

/-! ## The payloads at an index -/

/-- The combined block at `(y, j)`: the row's scale times the sum of the two entries, plus the bias entry. -/
theorem pay3_apply1 (v3 : Vec Ideal S5000x1 .f32) (v5 v7 : Vec Ideal S5000x128 .f32) (v12 : Vec Ideal S1x128 .f32) (y : Fin 5000) (j : Fin 128) :
    k1_pay3 v3 v5 v7 v12 (ix2 y j) = v3 (ix2 y 0) * (v5 (ix2 y j) + v7 (ix2 y j)) + v12 (ix2 0 j) := by
  unfold k1_pay3
  simp only [shapeCast_self]
  show broadcastTo S5000x128 v3 _ (ix2 y j) * (v5 (ix2 y j) + v7 (ix2 y j)) + broadcastTo S5000x128 v12 _ (ix2 y j) = _
  rw [Cert.LibKeepdims.broadcastTo_a1_ab_apply, Cert.LibBiasRows.row_broadcast]
  rfl

/-- The sum accumulator after a point, at column `j`: what it held plus the block's column total. -/
theorem pay4_apply1 (v3 : Vec Ideal S5000x1 .f32) (v5 v7 : Vec Ideal S5000x128 .f32) (v12 v17 : Vec Ideal S1x128 .f32) (j : Fin 128) :
    k1_pay4 v3 v5 v7 v12 v17 (ix2 0 j) = v17 (ix2 0 j) + ∑ y : Fin 5000, k1_pay3 v3 v5 v7 v12 (ix2 y j) := by
  unfold k1_pay4
  simp only [shapeCast_self]
  show v17 (ix2 0 j) + shapeCast S1x128 _ _ (ix2 ⟨0, Nat.one_pos⟩ j) = _
  rw [Cert.LibBiasRows.row_of_vector]
  exact congrArg (fun z => v17 (ix2 0 j) + z) (Cert.LibAxisSum.sum_first (n := 5000) (d := 128) _ _ _ _ _ j)

/-- The sum-of-squares accumulator likewise. -/
theorem pay5_apply1 (v3 : Vec Ideal S5000x1 .f32) (v5 v7 : Vec Ideal S5000x128 .f32) (v12 v24 : Vec Ideal S1x128 .f32) (j : Fin 128) :
    k1_pay5 v3 v5 v7 v12 v24 (ix2 0 j) = v24 (ix2 0 j) + ∑ y : Fin 5000, k1_pay3 v3 v5 v7 v12 (ix2 y j) * k1_pay3 v3 v5 v7 v12 (ix2 y j) := by
  unfold k1_pay5
  simp only [shapeCast_self]
  show v24 (ix2 0 j) + shapeCast S1x128 _ _ (ix2 ⟨0, Nat.one_pos⟩ j) = _
  rw [Cert.LibBiasRows.row_of_vector]
  exact congrArg (fun z => v24 (ix2 0 j) + z) (Cert.LibAxisSum.sum_first (n := 5000) (d := 128) _ _ _ _ _ j)

/-- The zero fill of either accumulator. -/
theorem pay1_apply1 (i : S1x128.Idx) : (k1_pay1 (F := Ideal) : Vec Ideal S1x128 .f32) i = 0 := by
  unfold k1_pay1
  simp only [shapeCast_self]
  show Ideal.ofBits .f32 0x00000000#32 = 0
  exact Ideal.ofBits_zero_f32
theorem pay2_apply1 (i : S1x128.Idx) : (k1_pay2 (F := Ideal) : Vec Ideal S1x128 .f32) i = 0 := by
  unfold k1_pay2
  simp only [shapeCast_self]
  show Ideal.ofBits .f32 0x00000000#32 = 0
  exact Ideal.ofBits_zero_f32

/-! ## The combined matrix, and each point's block as its rows -/

theorem h20_1 : 100000 = (19 + 1) * 5000 := by norm_num

/-- The combined matrix over the region-entry arrays. -/
def agg1 (c : Dev nD) : Cert.Spec.Mat 100000 128 :=
  Cert.Spec.combine (fun r j => arrM1 V c (ix2 r j)) (fun r j => arrH1 V c (ix2 r j)) (fun r => arrD1 V c (ix2 r 0)) (fun j => arrB1 V c (ix2 0 j))

/-- Point `t`'s combined block is rows `5000 t …` of the combined matrix. -/
theorem aggBlk1_apply (c : Dev nD) (t : Fin cfg1.N) (y : Fin 5000) (j : Fin 128) (r : Fin 100000) (hr : r.val = t.val * 5000 + y.val) :
    aggBlk1 V c t (ix2 y j) = agg1 V c r j := by
  unfold aggBlk1 agg1 Cert.Spec.combine
  rw [pay3_apply1, iblk1_2_apply V c t (ix2 y 0) (ix2 r 0) hr rfl, iblk1_0_apply V c t (ix2 y j) (ix2 r j) hr rfl,
    iblk1_1_apply V c t (ix2 y j) (ix2 r j) hr rfl, iblk1_3_apply]

/-- Whatever the case, the aggregate output's buffer after point `t` is the point's combined block. -/
theorem outs1_4 (c : Dev nD) (t : Fin cfg1.N) : (outsAt1 V c t.val t.isLt).1 = aggBlk1 V c t := by
  have hN : t.val < 20 := lt_of_lt_of_eq t.isLt (show cfg1.N = 20 from N_1)
  by_cases h0 : t.val % 20 = 0
  · have h1 : ¬t.val % 20 = 19 := by omega
    rw [outsAt1_A V c t h0 h1, outA1_eq]
  · by_cases h1 : t.val % 20 = 19
    · rw [outsAt1_C V c t h0 h1, outC1_eq]
    · rw [outsAt1_B V c t h0 h1, outB1_eq]

/-! ## The two accumulators, point by point -/

/-- Tile `t` as a grid point. -/
def pt1 (t : Fin 20) : Fin cfg1.N := ⟨t.val, lt_of_lt_of_eq t.isLt (show cfg1.N = 20 from N_1).symm⟩

theorem pt1_val (t : Fin 20) : (pt1 t).val = t.val := rfl
theorem pt1_zero_mod : (pt1 0).val % 20 = 0 := by rw [pt1_val]; rfl
theorem pt1_zero_ne : ¬(pt1 0).val % 20 = 19 := by rw [pt1_val]; decide

/-- The sum accumulator after tile `t`, by column. -/
def acc0_1 (c : Dev nD) (t : Fin 20) : Fin 128 → EReal := fun j => (outsAt1 V c (pt1 t).val (pt1 t).isLt).2.2.2.1 (ix2 0 j)
/-- The sum-of-squares accumulator after tile `t`, by column. -/
def acc1_1 (c : Dev nD) (t : Fin 20) : Fin 128 → EReal := fun j => (outsAt1 V c (pt1 t).val (pt1 t).isLt).2.2.2.2 (ix2 0 j)

theorem acc0_1_zero (c : Dev nD) (j : Fin 128) :
    acc0_1 V c 0 j = 0 + ∑ y : Fin 5000, agg1 V c (Cert.LibBatchNorm.rowOf h20_1 0 y) j := by
  unfold acc0_1
  rw [outsAt1_A V c (pt1 0) (pt1_zero_mod) (pt1_zero_ne), outA1_eq]
  dsimp only
  rw [pay4_apply1, pay1_apply1]
  exact congrArg (fun z => (0 : EReal) + z) (Finset.sum_congr rfl fun y _ => aggBlk1_apply V c (pt1 0) y j _ rfl)

theorem acc1_1_zero (c : Dev nD) (j : Fin 128) :
    acc1_1 V c 0 j = 0 + ∑ y : Fin 5000, agg1 V c (Cert.LibBatchNorm.rowOf h20_1 0 y) j * agg1 V c (Cert.LibBatchNorm.rowOf h20_1 0 y) j := by
  unfold acc1_1
  rw [outsAt1_A V c (pt1 0) (pt1_zero_mod) (pt1_zero_ne), outA1_eq]
  dsimp only
  rw [pay5_apply1, pay2_apply1]
  exact congrArg (fun z => (0 : EReal) + z) (Finset.sum_congr rfl fun y _ => congrArg₂ (· * ·) (aggBlk1_apply V c (pt1 0) y j _ rfl) (aggBlk1_apply V c (pt1 0) y j _ rfl))

theorem acc0_1_succ (c : Dev nD) (t : Fin 19) (j : Fin 128) :
    acc0_1 V c t.succ j = acc0_1 V c t.castSucc j + ∑ y : Fin 5000, agg1 V c (Cert.LibBatchNorm.rowOf h20_1 t.succ y) j := by
  unfold acc0_1
  have hv : (pt1 t.succ).val = t.val + 1 := rfl
  have hlt : t.val < 19 := t.isLt
  by_cases h1 : (pt1 t.succ).val % 20 = 19
  · rw [outsAt1_C V c (pt1 t.succ) (by rw [hv]; omega) h1, outC1_eq]
    dsimp only
    rw [pay4_apply1]
    exact congrArg (fun z => (outsAt1 V c t.val (pt1 t.castSucc).isLt).2.2.2.1 (ix2 0 j) + z)
      (Finset.sum_congr rfl fun y _ => aggBlk1_apply V c (pt1 t.succ) y j _ rfl)
  · rw [outsAt1_B V c (pt1 t.succ) (by rw [hv]; omega) h1, outB1_eq]
    dsimp only
    rw [pay4_apply1]
    exact congrArg (fun z => (outsAt1 V c t.val (pt1 t.castSucc).isLt).2.2.2.1 (ix2 0 j) + z)
      (Finset.sum_congr rfl fun y _ => aggBlk1_apply V c (pt1 t.succ) y j _ rfl)

theorem acc1_1_succ (c : Dev nD) (t : Fin 19) (j : Fin 128) :
    acc1_1 V c t.succ j = acc1_1 V c t.castSucc j
      + ∑ y : Fin 5000, agg1 V c (Cert.LibBatchNorm.rowOf h20_1 t.succ y) j * agg1 V c (Cert.LibBatchNorm.rowOf h20_1 t.succ y) j := by
  unfold acc1_1
  have hv : (pt1 t.succ).val = t.val + 1 := rfl
  have hlt : t.val < 19 := t.isLt
  by_cases h1 : (pt1 t.succ).val % 20 = 19
  · rw [outsAt1_C V c (pt1 t.succ) (by rw [hv]; omega) h1, outC1_eq]
    dsimp only
    rw [pay5_apply1]
    exact congrArg (fun z => (outsAt1 V c t.val (pt1 t.castSucc).isLt).2.2.2.2 (ix2 0 j) + z)
      (Finset.sum_congr rfl fun y _ => congrArg₂ (· * ·) (aggBlk1_apply V c (pt1 t.succ) y j _ rfl) (aggBlk1_apply V c (pt1 t.succ) y j _ rfl))
  · rw [outsAt1_B V c (pt1 t.succ) (by rw [hv]; omega) h1, outB1_eq]
    dsimp only
    rw [pay5_apply1]
    exact congrArg (fun z => (outsAt1 V c t.val (pt1 t.castSucc).isLt).2.2.2.2 (ix2 0 j) + z)
      (Finset.sum_congr rfl fun y _ => congrArg₂ (· * ·) (aggBlk1_apply V c (pt1 t.succ) y j _ rfl) (aggBlk1_apply V c (pt1 t.succ) y j _ rfl))

/-- After the last tile the sum accumulator holds each column's total over all the rows. -/
theorem acc0_1_last (c : Dev nD) (j : Fin 128) : acc0_1 V c (Fin.last 19) j = ∑ r : Fin 100000, agg1 V c r j :=
  (Cert.LibTiledTotals.tiled_total (T := 19) (B := 5000) h20_1 (agg1 V c)
    (fun t j => ∑ y : Fin 5000, agg1 V c (Cert.LibBatchNorm.rowOf h20_1 t y) j) (fun _ _ => rfl)
    (acc0_1 V c) (acc0_1_zero V c) (acc0_1_succ V c) j).trans (zero_add _)

/-- And the other accumulator each column's total of squares. -/
theorem acc1_1_last (c : Dev nD) (j : Fin 128) : acc1_1 V c (Fin.last 19) j = ∑ r : Fin 100000, agg1 V c r j * agg1 V c r j :=
  (Cert.LibTiledTotals.tiled_total_sq (T := 19) (B := 5000) h20_1 (agg1 V c)
    (fun t j => ∑ y : Fin 5000, agg1 V c (Cert.LibBatchNorm.rowOf h20_1 t y) j * agg1 V c (Cert.LibBatchNorm.rowOf h20_1 t y) j) (fun _ _ => rfl)
    (acc1_1 V c) (acc1_1_zero V c) (acc1_1_succ V c) j).trans (zero_add _)

/-! ## The three output arrays after the run -/

/-- The aggregate array as one function of the entry arrays. -/
def G4_1 (c : Dev nD) : S100000x128.Idx → EReal := fun i => agg1 V c (i 0) (i 1)
/-- The column totals, and the column totals of squares. -/
def G5_1 (c : Dev nD) : S1x128.Idx → EReal := fun i => ∑ r : Fin 100000, agg1 V c r (i 1)
def G6_1 (c : Dev nD) : S1x128.Idx → EReal := fun i => ∑ r : Fin 100000, agg1 V c r (i 1) * agg1 V c r (i 1)

/-- What point `t` writes back to the aggregate array is its block of `G4_1`. -/
theorem flushed1_4 (c : Dev nD) (t : Fin cfg1.N) :
    (dat1 (F := Ideal) V c).flushed 4 t = ((cfg1.win 4).blk t).view.read (Elt Ideal) (G4_1 V c) := by
  show (cfg1.win 4).cut (grid1.coords t) ((dat1 (F := Ideal) V c).after 4 t) = _
  rw [after1_4, outs1_4]
  funext x
  rw [View.read_apply]
  have hi := idx1_4 t
  obtain ⟨y, j, rfl⟩ : ∃ (y : Fin 5000) (j : Fin 128), x = ix2 y j := ⟨x 0, x 1, funext fun a => by fin_cases a <;> rfl⟩
  show aggBlk1 V c t (ix2 y j) = agg1 V c ((((cfg1.win 4).blk t).view.emb (ix2 y j)) 0) ((((cfg1.win 4).blk t).view.emb (ix2 y j)) 1)
  have hj : (((cfg1.win 4).blk t).view.emb (ix2 y j)) 1 = j := Fin.ext (by
    show win1_4.index t 1 * 128 + 1 * j.val = j.val; rw [hi.2]; omega)
  rw [hj]
  exact aggBlk1_apply V c t y j _ (by show win1_4.index t 0 * 5000 + 1 * y.val = t.val * 5000 + y.val; rw [hi.1]; omega)

/-- At the last point the two statistics outputs hold the accumulators. -/
theorem outs1_5 (c : Dev nD) (t : Fin cfg1.N) (h0 : ¬t.val % 20 = 0) (h1 : t.val % 20 = 19) :
    (outsAt1 V c t.val t.isLt).2.1 = (outsAt1 V c t.val t.isLt).2.2.2.1 := by
  rw [outsAt1_C V c t h0 h1, outC1_eq]
theorem outs1_6 (c : Dev nD) (t : Fin cfg1.N) (h0 : ¬t.val % 20 = 0) (h1 : t.val % 20 = 19) :
    (outsAt1 V c t.val t.isLt).2.2.1 = (outsAt1 V c t.val t.isLt).2.2.2.2 := by
  rw [outsAt1_C V c t h0 h1, outC1_eq]

theorem cut1_5 (t : Fin cfg1.N) (X : Vec Ideal S1x128 .f32) : (cfg1.win 5).cut (grid1.coords t) X = X := rfl
theorem cut1_6 (t : Fin cfg1.N) (X : Vec Ideal S1x128 .f32) : (cfg1.win 6).cut (grid1.coords t) X = X := rfl

theorem flushed1_5 (c : Dev nD) (t : Fin cfg1.N) (hf : (cfg1.win 5).flush t = true) :
    (dat1 (F := Ideal) V c).flushed 5 t = ((cfg1.win 5).blk t).view.read (Elt Ideal) (G5_1 V c) := by
  have h1 : t.val % 20 = 19 := (flush1_5 t).mp hf
  have hN : t.val < 20 := lt_of_lt_of_eq t.isLt (show cfg1.N = 20 from N_1)
  have h0 : ¬t.val % 20 = 0 := by omega
  show (cfg1.win 5).cut (grid1.coords t) ((dat1 (F := Ideal) V c).after 5 t) = _
  rw [after1_5, outs1_5 V c t h0 h1, cut1_5]
  obtain rfl : t = pt1 (Fin.last 19) := Fin.ext (by show t.val = 19; omega)
  funext x
  rw [View.read_apply]
  have hi := idx1_5 (pt1 (Fin.last 19))
  obtain ⟨u, j, rfl⟩ : ∃ (u : Fin 1) (j : Fin 128), x = ix2 u j := ⟨x 0, x 1, funext fun a => by fin_cases a <;> rfl⟩
  obtain rfl : u = 0 := Subsingleton.elim _ _
  have e := acc0_1_last V c j
  unfold acc0_1 at e
  rw [cast_eq]
  unfold G5_1
  have hj : (((cfg1.win 5).blk (pt1 (Fin.last 19))).view.emb (ix2 (0 : Fin 1) j)) 1 = j := Fin.ext (by
    show win1_5.index (pt1 (Fin.last 19)) 1 * 128 + 1 * j.val = j.val; rw [hi.2]; omega)
  rw [hj]
  exact e

theorem flushed1_6 (c : Dev nD) (t : Fin cfg1.N) (hf : (cfg1.win 6).flush t = true) :
    (dat1 (F := Ideal) V c).flushed 6 t = ((cfg1.win 6).blk t).view.read (Elt Ideal) (G6_1 V c) := by
  have h1 : t.val % 20 = 19 := (flush1_6 t).mp hf
  have hN : t.val < 20 := lt_of_lt_of_eq t.isLt (show cfg1.N = 20 from N_1)
  have h0 : ¬t.val % 20 = 0 := by omega
  show (cfg1.win 6).cut (grid1.coords t) ((dat1 (F := Ideal) V c).after 6 t) = _
  rw [after1_6, outs1_6 V c t h0 h1, cut1_6]
  obtain rfl : t = pt1 (Fin.last 19) := Fin.ext (by show t.val = 19; omega)
  funext x
  rw [View.read_apply]
  have hi := idx1_6 (pt1 (Fin.last 19))
  obtain ⟨u, j, rfl⟩ : ∃ (u : Fin 1) (j : Fin 128), x = ix2 u j := ⟨x 0, x 1, funext fun a => by fin_cases a <;> rfl⟩
  obtain rfl : u = 0 := Subsingleton.elim _ _
  have e := acc1_1_last V c j
  unfold acc1_1 at e
  rw [cast_eq]
  unfold G6_1
  have hj : (((cfg1.win 6).blk (pt1 (Fin.last 19))).view.emb (ix2 (0 : Fin 1) j)) 1 = j := Fin.ext (by
    show win1_6.index (pt1 (Fin.last 19)) 1 * 128 + 1 * j.val = j.val; rw [hi.2]; omega)
  rw [hj]
  exact e

/-- THE AGGREGATE ARRAY after the run, entry by entry. -/
theorem final1_agg_at (c : Dev nD) (r : Fin 100000) (j : Fin 128) :
    (dat1 (F := Ideal) V c).arrAt 4 cfg1.N (ix2 r j) = agg1 V c r j := by
  have hN : cfg1.N = 20 := N_1
  let t : Fin cfg1.N := ⟨r.val / 5000, by rw [hN]; have := r.isLt; omega⟩
  let y : Fin 5000 := ⟨r.val % 5000, Nat.mod_lt _ (by norm_num)⟩
  have hi := idx1_4 t
  have he : (ix2 r j : S100000x128.Idx) = ((cfg1.win 4).blk t).view.emb (ix2 y j) := by
    funext a; apply Fin.ext
    match a with
    | ⟨0, _⟩ => show r.val = win1_4.index t 0 * 5000 + 1 * (r.val % 5000); rw [hi.1]; show r.val = r.val / 5000 * 5000 + 1 * (r.val % 5000); omega
    | ⟨1, _⟩ => show j.val = win1_4.index t 1 * 128 + 1 * j.val; rw [hi.2]; omega
  have h := (dat1 (F := Ideal) V c).arrAt_apply_of_mem 4 (G4_1 V c) (fun t _ => flushed1_4 V c t) cfg1.N t (ix2 r j) t.isLt (flush1_4 t)
    (by rw [he]; exact View.emb_mem_set _ _)
  rw [h]; rfl

/-- THE COLUMN TOTALS after the run. -/
theorem final1_sum_at (c : Dev nD) (j : Fin 128) :
    (dat1 (F := Ideal) V c).arrAt 5 cfg1.N (ix2 0 j) = ∑ r : Fin 100000, agg1 V c r j := by
  have hf : (cfg1.win 5).flush (pt1 (Fin.last 19)) = true := (flush1_5 _).mpr (by rw [pt1_val]; rfl)
  have hi := idx1_5 (pt1 (Fin.last 19))
  have he : (ix2 (0 : Fin 1) j : S1x128.Idx) = ((cfg1.win 5).blk (pt1 (Fin.last 19))).view.emb (ix2 (0 : Fin 1) j) := by
    funext a; apply Fin.ext
    match a with
    | ⟨0, _⟩ => show 0 = win1_5.index (pt1 (Fin.last 19)) 0 * 1 + 1 * 0; rw [hi.1]
    | ⟨1, _⟩ => show j.val = win1_5.index (pt1 (Fin.last 19)) 1 * 128 + 1 * j.val; rw [hi.2]; omega
  have h := (dat1 (F := Ideal) V c).arrAt_apply_of_mem 5 (G5_1 V c) (fun t hf => flushed1_5 V c t hf) cfg1.N (pt1 (Fin.last 19)) (ix2 0 j)
    (pt1 (Fin.last 19)).isLt hf (by rw [he]; exact View.emb_mem_set _ _)
  rw [h]; rfl

/-- THE COLUMN TOTALS OF SQUARES after the run. -/
theorem final1_sumsq_at (c : Dev nD) (j : Fin 128) :
    (dat1 (F := Ideal) V c).arrAt 6 cfg1.N (ix2 0 j) = ∑ r : Fin 100000, agg1 V c r j * agg1 V c r j := by
  have hf : (cfg1.win 6).flush (pt1 (Fin.last 19)) = true := (flush1_6 _).mpr (by rw [pt1_val]; rfl)
  have hi := idx1_6 (pt1 (Fin.last 19))
  have he : (ix2 (0 : Fin 1) j : S1x128.Idx) = ((cfg1.win 6).blk (pt1 (Fin.last 19))).view.emb (ix2 (0 : Fin 1) j) := by
    funext a; apply Fin.ext
    match a with
    | ⟨0, _⟩ => show 0 = win1_6.index (pt1 (Fin.last 19)) 0 * 1 + 1 * 0; rw [hi.1]
    | ⟨1, _⟩ => show j.val = win1_6.index (pt1 (Fin.last 19)) 1 * 128 + 1 * j.val; rw [hi.2]; omega
  have h := (dat1 (F := Ideal) V c).arrAt_apply_of_mem 6 (G6_1 V c) (fun t hf => flushed1_6 V c t hf) cfg1.N (pt1 (Fin.last 19)) (ix2 0 j)
    (pt1 (Fin.last 19)).isLt hf (by rw [he]; exact View.emb_mem_set _ _)
  rw [h]; rfl

/-! ## The same, over named entry arrays -/

theorem final1_agg (c : Dev nD) (MSG HS : S100000x128.Idx → EReal) (DIS : S100000x1.Idx → EReal) (B : S1x128.Idx → EReal)
    (hM : (dat1 (F := Ideal) V c).A 0 = MSG) (hH : (dat1 (F := Ideal) V c).A 1 = HS) (hD : (dat1 (F := Ideal) V c).A 2 = DIS)
    (hB : (dat1 (F := Ideal) V c).A 3 = B) (r : Fin 100000) (j : Fin 128) :
    (dat1 (F := Ideal) V c).arrAt 4 cfg1.N (ix2 r j)
      = Cert.Spec.combine (fun r j => MSG (ix2 r j)) (fun r j => HS (ix2 r j)) (fun r => DIS (ix2 r 0)) (fun j => B (ix2 0 j)) r j := by
  subst hM hH hD hB
  exact final1_agg_at V c r j

theorem final1_sum (c : Dev nD) (MSG HS : S100000x128.Idx → EReal) (DIS : S100000x1.Idx → EReal) (B : S1x128.Idx → EReal)
    (hM : (dat1 (F := Ideal) V c).A 0 = MSG) (hH : (dat1 (F := Ideal) V c).A 1 = HS) (hD : (dat1 (F := Ideal) V c).A 2 = DIS)
    (hB : (dat1 (F := Ideal) V c).A 3 = B) (j : Fin 128) :
    (dat1 (F := Ideal) V c).arrAt 5 cfg1.N (ix2 0 j)
      = ∑ r : Fin 100000, Cert.Spec.combine (fun r j => MSG (ix2 r j)) (fun r j => HS (ix2 r j)) (fun r => DIS (ix2 r 0)) (fun j => B (ix2 0 j)) r j := by
  subst hM hH hD hB
  exact final1_sum_at V c j

theorem final1_sumsq (c : Dev nD) (MSG HS : S100000x128.Idx → EReal) (DIS : S100000x1.Idx → EReal) (B : S1x128.Idx → EReal)
    (hM : (dat1 (F := Ideal) V c).A 0 = MSG) (hH : (dat1 (F := Ideal) V c).A 1 = HS) (hD : (dat1 (F := Ideal) V c).A 2 = DIS)
    (hB : (dat1 (F := Ideal) V c).A 3 = B) (j : Fin 128) :
    (dat1 (F := Ideal) V c).arrAt 6 cfg1.N (ix2 0 j)
      = ∑ r : Fin 100000, Cert.Spec.combine (fun r j => MSG (ix2 r j)) (fun r j => HS (ix2 r j)) (fun r => DIS (ix2 r 0)) (fun j => B (ix2 0 j)) r j
          * Cert.Spec.combine (fun r j => MSG (ix2 r j)) (fun r j => HS (ix2 r j)) (fun r => DIS (ix2 r 0)) (fun j => B (ix2 0 j)) r j := by
  subst hM hH hD hB
  exact final1_sumsq_at V c j

end Cert.KernelIdeal.Hand

end
-- ==== Proof.KI.V2.lean ====
/- The value the normalise-scale-shift-rectify region 2 leaves in its output array, on the extended reals: every
   entry (r, j) is `max ((a r j - mean j) * rsqrt (var j + ε) * g j + beta j) 0` of the five arrays the region finds
   when it is entered. The payload is read at an index (each [1,128] row broadcast down the rows reads the row at the
   entry's column); grid point `t` writes back block `t` of that one whole-array function, because the feature
   window moves with the output window and the four row windows stay at block 0; the ten blocks cover the array. -/
import proofs.«115763_j74259984548099_2_alg».proof.Proof.KI.R2
import proofs.«115763_j74259984548099_2_alg».proof.Proof.Spec
import proofs.«115763_j74259984548099_2_alg».proof.Proof.LibBiasRows
import Idealize.ShloMosaic.Lib.ValueIdx
import Idealize.ShloMosaic.Lib.Pipeline.Value
import Idealize.ShloMosaic.Lib.ValueLayout

set_option maxRecDepth 65536

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets, as the rectangles spell them. -/
theorem hz2 : (![0, 0] : Fin 2 → Nat) = fun _ => 0 := funext fun a => by fin_cases a <;> rfl

/-! ## The payload at an index -/

/-- The stored value at entry `i` of the block: the feature entry less the mean at its column, times the reciprocal
    square root of the variance at its column plus ε, times the scale at its column, plus the shift at its column,
    rectified. (`x1` the mean row, `x2` the variance row, `x3` the scale row, `x4` the shift row.) -/
theorem pay2_apply (x0 : Vec Ideal S10000x128 .f32) (x1 x2 x3 x4 : Vec Ideal S1x128 .f32) (i : S10000x128.Idx) :
    k2_pay1 x0 x2 x1 x3 x4 i
      = max ((x0 i - x1 (ix2 ⟨0, Nat.one_pos⟩ (i 1))) * Ideal.rsqrt (x2 (ix2 ⟨0, Nat.one_pos⟩ (i 1)) + Cert.Spec.eps)
          * x3 (ix2 ⟨0, Nat.one_pos⟩ (i 1)) + x4 (ix2 ⟨0, Nat.one_pos⟩ (i 1))) Cert.Spec.zero := by
  unfold k2_pay1
  simp only [shapeCast_self]
  show max ((x0 i - broadcastTo S10000x128 x1 broadcasts_S1x128_S10000x128 i)
      * broadcastTo S10000x128 (rsqrt (addf x2 (broadcast S1x128 (Scalar.ofBits (F := Ideal) .f32 0x3727C5AC#32)))) broadcasts_S1x128_S10000x128 i
      * broadcastTo S10000x128 x3 broadcasts_S1x128_S10000x128 i + broadcastTo S10000x128 x4 broadcasts_S1x128_S10000x128 i) _ = _
  rw [Cert.LibBiasRows.row_broadcast x1, Cert.LibBiasRows.row_broadcast x3, Cert.LibBiasRows.row_broadcast x4,
    Cert.LibBiasRows.row_broadcast (rsqrt (addf x2 (broadcast S1x128 (Scalar.ofBits (F := Ideal) .f32 0x3727C5AC#32))))]
  rfl

/-! ## The array the region leaves -/

/-- The five arrays as the region finds them: the features, and the mean, variance, scale and shift rows. -/
abbrev in2_0 (c : Dev nD) : S100000x128.Idx → EReal := V c (Pipeline.arrRef spec2 0)
abbrev in2_1 (c : Dev nD) : S1x128.Idx → EReal := V c (Pipeline.arrRef spec2 1)
abbrev in2_2 (c : Dev nD) : S1x128.Idx → EReal := V c (Pipeline.arrRef spec2 2)
abbrev in2_3 (c : Dev nD) : S1x128.Idx → EReal := V c (Pipeline.arrRef spec2 3)
abbrev in2_4 (c : Dev nD) : S1x128.Idx → EReal := V c (Pipeline.arrRef spec2 4)

/-- The output array, entry by entry, of those five. -/
def G2 (c : Dev nD) : S100000x128.Idx → EReal := fun i =>
  max ((in2_0 V c i - in2_1 V c (ix2 ⟨0, Nat.one_pos⟩ (i 1)))
      * Ideal.rsqrt (in2_2 V c (ix2 ⟨0, Nat.one_pos⟩ (i 1)) + Cert.Spec.eps)
      * in2_3 V c (ix2 ⟨0, Nat.one_pos⟩ (i 1)) + in2_4 V c (ix2 ⟨0, Nat.one_pos⟩ (i 1))) Cert.Spec.zero

/-- The index maps over the ten points: the feature window's block is the output's, the row windows stay at block 0,
    the output's block is row block `t` of column block 0. -/
theorem idx_facts2 : ∀ t : Fin cfg2.N, win2_0.index t (0 : Fin 2) = win2_5.index t (0 : Fin 2)
    ∧ win2_0.index t (1 : Fin 2) = win2_5.index t (1 : Fin 2)
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 9 ∧ win2_5.index t (1 : Fin 2) = 0 :=
  (by decide +kernel : ∀ t : Fin grid2.N, _)

/-- Every row block is some point's. -/
theorem idx_onto2 : ∀ q0 : Fin 10, ∃ t : Fin cfg2.N, win2_5.index t = ![q0.val, 0] :=
  (by decide +kernel : ∀ q0 : Fin 10, ∃ t : Fin grid2.N, win2_5.index t = ![q0.val, 0])

/-! ## Blocks read at an index -/

/-- A window's block at point `t`, at an index of the block, is its array at the index the block's rectangle sends it
    to (a block read is a precomposition). -/
theorem read2_0 (c : Dev nD) (t : Fin cfg2.N) (y : S10000x128.Idx) : iblk2 V c 0 t y = in2_0 V c (((cfg2.win 0).blk t).view.emb y) := rfl
theorem read2_1 (c : Dev nD) (t : Fin cfg2.N) (y : S1x128.Idx) : iblk2 V c 1 t y = in2_1 V c (((cfg2.win 1).blk t).view.emb y) := rfl
theorem read2_2 (c : Dev nD) (t : Fin cfg2.N) (y : S1x128.Idx) : iblk2 V c 2 t y = in2_2 V c (((cfg2.win 2).blk t).view.emb y) := rfl
theorem read2_3 (c : Dev nD) (t : Fin cfg2.N) (y : S1x128.Idx) : iblk2 V c 3 t y = in2_3 V c (((cfg2.win 3).blk t).view.emb y) := rfl
theorem read2_4 (c : Dev nD) (t : Fin cfg2.N) (y : S1x128.Idx) : iblk2 V c 4 t y = in2_4 V c (((cfg2.win 4).blk t).view.emb y) := rfl
/-- The same for a whole-array function read through the output window's block. -/
theorem read2_5 (G : S100000x128.Idx → EReal) (t : Fin cfg2.N) (y : S10000x128.Idx) :
    ((cfg2.win 5).blk t).view.read (Elt Ideal) G y = G (((cfg2.win 5).blk t).view.emb y) := rfl

/-- What point `t` writes back is what the body leaves in the output window's buffer, uncut. -/
theorem flushed2_5_out (c : Dev nD) (t : Fin cfg2.N) :
    (dat2 V c).flushed 5 t = (cfg2.win 5).cut (grid2.coords t) (out2_5 (iblk2 V c 0 t) (iblk2 V c 1 t) (iblk2 V c 2 t) (iblk2 V c 3 t) (iblk2 V c 4 t)) := by
  show (cfg2.win 5).cut (grid2.coords t) ((dat2 V c).after 5 t) = _
  rw [after2_5]

/-- One store of the whole buffer, of loads of whole buffers: the buffer is left at the payload of the buffers. -/
theorem out2_5_eq (x0 : Vec Ideal S10000x128 .f32) (x1 x2 x3 x4 : Vec Ideal S1x128 .f32) :
    out2_5 x0 x1 x2 x3 x4 = k2_pay1 x0 x2 x1 x3 x4 := by
  unfold out2_5
  rw [View.canon_unit_zero hz2]
  simp only [View.ld_unit_zero (S := S10000x128) hz2, View.ld_unit_zero (S := S1x128) hz2]

/-- The output window is not cut. -/
theorem cut2_5_apply (t : Fin cfg2.N) (f : Vec Ideal S10000x128 .f32) (y : S10000x128.Idx) :
    (cfg2.win 5).cut (grid2.coords t) f y = f y := rfl

/-! ## Where the blocks sit in their arrays -/

/-- The feature block at point `t` sits where the output block does. -/
theorem emb2_0 (t : Fin cfg2.N) (y : S10000x128.Idx) :
    ((cfg2.win 0).blk t).view.emb y = ((cfg2.win 5).blk t).view.emb y := by
  obtain ⟨e0, e1, -⟩ := idx_facts2 t
  funext a; apply Fin.ext
  match a with
  | ⟨0, _⟩ => show win2_0.index t (0 : Fin 2) * 10000 + 1 * (y 0).val = win2_5.index t (0 : Fin 2) * 10000 + 1 * (y 0).val; omega
  | ⟨1, _⟩ => show win2_0.index t (1 : Fin 2) * 128 + 1 * (y 1).val = win2_5.index t (1 : Fin 2) * 128 + 1 * (y 1).val; omega

/-- An entry of the output block keeps its column in the array. -/
theorem col2 (t : Fin cfg2.N) (y : S10000x128.Idx) : (((cfg2.win 5).blk t).view.emb y) 1 = y 1 := by
  obtain ⟨e0, e1, e2, e3, e4, e5, e6, e7, e8, e9, e10, e11⟩ := idx_facts2 t
  apply Fin.ext
  show win2_5.index t (1 : Fin 2) * 128 + 1 * (y 1).val = (y 1).val; omega

/-- Each row window's one block is its whole array. -/
theorem emb2_1 (t : Fin cfg2.N) (j : Fin 128) : ((cfg2.win 1).blk t).view.emb (ix2 ⟨0, Nat.one_pos⟩ j) = ix2 ⟨0, Nat.one_pos⟩ j := by
  obtain ⟨e0, e1, e2, e3, e4, e5, e6, e7, e8, e9, e10, e11⟩ := idx_facts2 t
  funext a; apply Fin.ext
  match a with
  | ⟨0, _⟩ => show win2_1.index t (0 : Fin 2) * 1 + 1 * 0 = 0; omega
  | ⟨1, _⟩ => show win2_1.index t (1 : Fin 2) * 128 + 1 * j.val = j.val; omega
theorem emb2_2 (t : Fin cfg2.N) (j : Fin 128) : ((cfg2.win 2).blk t).view.emb (ix2 ⟨0, Nat.one_pos⟩ j) = ix2 ⟨0, Nat.one_pos⟩ j := by
  obtain ⟨e0, e1, e2, e3, e4, e5, e6, e7, e8, e9, e10, e11⟩ := idx_facts2 t
  funext a; apply Fin.ext
  match a with
  | ⟨0, _⟩ => show win2_2.index t (0 : Fin 2) * 1 + 1 * 0 = 0; omega
  | ⟨1, _⟩ => show win2_2.index t (1 : Fin 2) * 128 + 1 * j.val = j.val; omega
theorem emb2_3 (t : Fin cfg2.N) (j : Fin 128) : ((cfg2.win 3).blk t).view.emb (ix2 ⟨0, Nat.one_pos⟩ j) = ix2 ⟨0, Nat.one_pos⟩ j := by
  obtain ⟨e0, e1, e2, e3, e4, e5, e6, e7, e8, e9, e10, e11⟩ := idx_facts2 t
  funext a; apply Fin.ext
  match a with
  | ⟨0, _⟩ => show win2_3.index t (0 : Fin 2) * 1 + 1 * 0 = 0; omega
  | ⟨1, _⟩ => show win2_3.index t (1 : Fin 2) * 128 + 1 * j.val = j.val; omega
theorem emb2_4 (t : Fin cfg2.N) (j : Fin 128) : ((cfg2.win 4).blk t).view.emb (ix2 ⟨0, Nat.one_pos⟩ j) = ix2 ⟨0, Nat.one_pos⟩ j := by
  obtain ⟨e0, e1, e2, e3, e4, e5, e6, e7, e8, e9, e10, e11⟩ := idx_facts2 t
  funext a; apply Fin.ext
  match a with
  | ⟨0, _⟩ => show win2_4.index t (0 : Fin 2) * 1 + 1 * 0 = 0; omega
  | ⟨1, _⟩ => show win2_4.index t (1 : Fin 2) * 128 + 1 * j.val = j.val; omega

/-! ## What a point writes back -/

/-- What point `t` writes back is block `t` of `G2`. -/
theorem flushed2_5_eq (c : Dev nD) (t : Fin cfg2.N) :
    (dat2 V c).flushed 5 t = ((cfg2.win 5).blk t).view.read (Elt Ideal) (G2 V c) := by
  rw [flushed2_5_out, out2_5_eq]
  funext y
  rw [cut2_5_apply, read2_5, pay2_apply]
  have h0 : iblk2 V c 0 t y = in2_0 V c (((cfg2.win 5).blk t).view.emb y) :=
    (read2_0 V c t y).trans (congrArg (in2_0 V c) (emb2_0 t y))
  have h1 : iblk2 V c 1 t (ix2 ⟨0, Nat.one_pos⟩ (y 1)) = in2_1 V c (ix2 ⟨0, Nat.one_pos⟩ ((((cfg2.win 5).blk t).view.emb y) 1)) :=
    (read2_1 V c t _).trans (congrArg (in2_1 V c) ((emb2_1 t (y 1)).trans (congrArg (ix2 ⟨0, Nat.one_pos⟩) (col2 t y).symm)))
  have h2 : iblk2 V c 2 t (ix2 ⟨0, Nat.one_pos⟩ (y 1)) = in2_2 V c (ix2 ⟨0, Nat.one_pos⟩ ((((cfg2.win 5).blk t).view.emb y) 1)) :=
    (read2_2 V c t _).trans (congrArg (in2_2 V c) ((emb2_2 t (y 1)).trans (congrArg (ix2 ⟨0, Nat.one_pos⟩) (col2 t y).symm)))
  have h3 : iblk2 V c 3 t (ix2 ⟨0, Nat.one_pos⟩ (y 1)) = in2_3 V c (ix2 ⟨0, Nat.one_pos⟩ ((((cfg2.win 5).blk t).view.emb y) 1)) :=
    (read2_3 V c t _).trans (congrArg (in2_3 V c) ((emb2_3 t (y 1)).trans (congrArg (ix2 ⟨0, Nat.one_pos⟩) (col2 t y).symm)))
  have h4 : iblk2 V c 4 t (ix2 ⟨0, Nat.one_pos⟩ (y 1)) = in2_4 V c (ix2 ⟨0, Nat.one_pos⟩ ((((cfg2.win 5).blk t).view.emb y) 1)) :=
    (read2_4 V c t _).trans (congrArg (in2_4 V c) ((emb2_4 t (y 1)).trans (congrArg (ix2 ⟨0, Nat.one_pos⟩) (col2 t y).symm)))
  rw [h0, h1, h2, h3, h4]
  rfl

/-- An index of the array is in point `t`'s block iff each coordinate is in the block's range on its axis. -/
theorem mem_blk2 (t : Fin cfg2.N) (i : S100000x128.Idx) :
    i ∈ ((cfg2.win 5).blk t).view.set ↔ ∀ a : Fin 2, win2_5.index t a * S10000x128.size a ≤ (i a).val ∧ (i a).val < win2_5.index t a * S10000x128.size a + S10000x128.size a := by
  show i ∈ ((View.whole main_v35).slice (win2_5.rect t)).set ↔ _
  rw [View.set_slice_whole, Rect.mem_set_unit]
  exact Iff.rfl

/-- The ten row blocks cover the array: row `r` is in the block of point `r / 10000`. -/
theorem cover2_arr (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ := idx_onto2 ⟨(i 0).val / 10000, by omega⟩
  have q0 : win2_5.index t (0 : Fin 2) = (i 0).val / 10000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 128 ≤ (i 1).val ∧ (i 1).val < win2_5.index t (1 : Fin 2) * 128 + 128; omega

/-- The output array after the region is `G2` of the arrays at its entry. -/
theorem arr2_5 (c : Dev nD) : (dat2 V c).arrAt 5 cfg2.N = G2 V c :=
  (dat2 V c).arrAt_eq_of_cover 5 (G2 V c) (fun t _ => flushed2_5_eq V c t) cover2_arr

/-- Entry (r, j) of the output array after the region: the batch normalisation and rectifier of the specification, of
    the feature array, the mean row, the variance row, the scale row and the shift row as the region finds them. -/
theorem final2 (c : Dev nD) (r : Fin 100000) (j : Fin 128) :
    (dat2 V c).arrAt 5 cfg2.N (ix2 r j)
      = Cert.Spec.bnRelu (fun r j => in2_0 V c (ix2 r j)) (fun j => in2_1 V c (ix2 0 j))
          (fun j => in2_2 V c (ix2 0 j)) (fun j => in2_3 V c (ix2 0 j))
          (fun j => in2_4 V c (ix2 0 j)) r j := by
  rw [arr2_5]
  rfl

end Cert.KernelIdeal.Hand
-- ==== Proof.KI.V3.lean ====
/- Region 3 of the kernel program read at the exact values: what its pipeline leaves in the output array, entry by
   entry, as a function of the arrays the region finds. -/
import proofs.«115763_j74259984548099_2_alg».proof.Proof.KI.R3
import proofs.«115763_j74259984548099_2_alg».proof.Proof.Spec
import Idealize.ShloMosaic.Lib.ValueIdx
import Idealize.ShloMosaic.Lib.Pipeline.Value
import Idealize.ShloMosaic.PureOps.Ideal.Laws
import proofs.«115763_j74259984548099_2_alg».proof.Proof.LibMatmulPlain
import proofs.«115763_j74259984548099_2_alg».proof.Proof.LibKeepdims

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The payload at an entry: the row of features against the column of weights, times the row's scale
    (rounding the operands to a narrower format changes nothing at the exact values; the product into the zero
    accumulator is the plain finite sum). -/
theorem pay3_apply (x0 : Vec Ideal S5000x128 .f32) (x1 : Vec Ideal S128x128 .f32) (x2 : Vec Ideal S5000x1 .f32) (i : Fin 5000) (j : Fin 128) :
    k3_pay1 x0 x1 x2 (ix2 i j) = (∑ k : Fin 128, x0 (ix2 i k) * x1 (ix2 k j)) * x2 (ix2 i (0 : Fin 1)) := by
  show (FloatOps.matmul (F := Ideal) (φ₁ := .bf16) (φ₂ := .bf16) (DotDims.plain 5000 128 128) none (shapeCast ⟨2, ![5000, 128]⟩ x0 shapeCasts_S5000x128_S5000x128) x1 (constant (F := Ideal) ⟨2, ![5000, 128]⟩ .f32 0x00000000#32) (ix2 i j) : EReal)
      * broadcastTo ⟨2, ![5000, 128]⟩ (shapeCast ⟨2, ![5000, 1]⟩ x2 shapeCasts_S5000x1_S5000x1) broadcasts_S5000x1_S5000x128 (ix2 i j) = _
  rw [Cert.LibMatmulPlain.matmul_zero_apply]
  simp only [shapeCast_self]
  rw [Cert.LibKeepdims.broadcastTo_a1_ab_apply]

variable (V : (c : Dev nD) → (b : Ref sig .tc) → Buf (Elt Ideal) ((c : Thread nD τ).loc b))

/-- The printed index maps over the grid: the row windows move one block of 5000 rows per point, the weights stay. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- The feature window's block at point `t` holds rows `5000 t …` of its array. -/
theorem iblk3_0_apply (c : Dev nD) (t : Fin cfg3.N) (a : Fin 5000) (k : Fin 128) (h : t.val * 5000 + a.val < 100000) :
    iblk3 V c 0 t (ix2 a k) = V c (Pipeline.arrRef spec3 0) (ix2 ⟨t.val * 5000 + a.val, h⟩ k) := by
  obtain ⟨e0, e1, -⟩ := idx3 t
  unfold iblk3
  rw [View.read_apply]
  show V c (Pipeline.arrRef spec3 0) _ = V c (Pipeline.arrRef spec3 0) _
  refine congrArg _ (funext fun ax => Fin.ext ?_)
  match ax with
  | ⟨0, _⟩ => show win3_0.index t (0 : Fin 2) * 5000 + 1 * a.val = t.val * 5000 + a.val; rw [e0]; omega
  | ⟨1, _⟩ => show win3_0.index t (1 : Fin 2) * 128 + 1 * k.val = k.val; rw [e1]; omega

/-- The weights' window holds the whole array at every point. -/
theorem iblk3_1_apply (c : Dev nD) (t : Fin cfg3.N) (k : Fin 128) (j : Fin 128) :
    iblk3 V c 1 t (ix2 k j) = V c (Pipeline.arrRef spec3 1) (ix2 k j) := by
  obtain ⟨-, -, e0, e1, -⟩ := idx3 t
  unfold iblk3
  rw [View.read_apply]
  show V c (Pipeline.arrRef spec3 1) _ = V c (Pipeline.arrRef spec3 1) _
  refine congrArg _ (funext fun ax => Fin.ext ?_)
  match ax with
  | ⟨0, _⟩ => show win3_1.index t (0 : Fin 2) * 128 + 1 * k.val = k.val; rw [e0]; omega
  | ⟨1, _⟩ => show win3_1.index t (1 : Fin 2) * 128 + 1 * j.val = j.val; rw [e1]; omega

/-- The scale column's block at point `t` holds rows `5000 t …` of its array. -/
theorem iblk3_2_apply (c : Dev nD) (t : Fin cfg3.N) (a : Fin 5000) (u : Fin 1) (h : t.val * 5000 + a.val < 100000) :
    iblk3 V c 2 t (ix2 a u) = V c (Pipeline.arrRef spec3 2) (ix2 ⟨t.val * 5000 + a.val, h⟩ u) := by
  obtain ⟨-, -, -, -, e0, e1, -⟩ := idx3 t
  unfold iblk3
  rw [View.read_apply]
  show V c (Pipeline.arrRef spec3 2) _ = V c (Pipeline.arrRef spec3 2) _
  refine congrArg _ (funext fun ax => Fin.ext ?_)
  match ax with
  | ⟨0, _⟩ => show win3_2.index t (0 : Fin 2) * 5000 + 1 * a.val = t.val * 5000 + a.val; rw [e0]; omega
  | ⟨1, _⟩ => show win3_2.index t (1 : Fin 2) * 1 + 1 * u.val = u.val; rw [e1]; omega

/-- Where an entry of the output's block at point `t` sits in the array. -/
theorem emb3_3 (t : Fin cfg3.N) (a : Fin 5000) (b : Fin 128) (h : t.val * 5000 + a.val < 100000) :
    ((cfg3.win 3).blk t).view.emb (ix2 a b) = ix2 ⟨t.val * 5000 + a.val, h⟩ b := by
  obtain ⟨-, -, -, -, -, -, e0, e1⟩ := idx3 t
  refine funext fun ax => Fin.ext ?_
  match ax with
  | ⟨0, _⟩ => show win3_3.index t (0 : Fin 2) * 5000 + 1 * a.val = t.val * 5000 + a.val; rw [e0]; omega
  | ⟨1, _⟩ => show win3_3.index t (1 : Fin 2) * 128 + 1 * b.val = b.val; rw [e1]; omega

theorem N3_20 : cfg3.N = 20 := N_3

/-- The arrays the region finds, as matrices: the features, the weights, the scale column. -/
abbrev X3 (c : Dev nD) : Cert.Spec.Mat 100000 128 := fun r k => V c (Pipeline.arrRef spec3 0) (ix2 r k)
abbrev W3 (c : Dev nD) : Cert.Spec.Mat 128 128 := fun k j => V c (Pipeline.arrRef spec3 1) (ix2 k j)
abbrev D3 (c : Dev nD) : Fin 100000 → EReal := fun r => V c (Pipeline.arrRef spec3 2) (ix2 r (0 : Fin 1))

/-- What the region leaves in its output array, entry by entry, from the arrays it finds. -/
def G3 (c : Dev nD) : S100000x128.Idx → EReal := fun i =>
  Cert.Spec.hsK (X3 V c) (W3 V c) (D3 V c) ⟨(i 0).val, idx2_lt0 i⟩ ⟨(i 1).val, idx2_lt1 i⟩

theorem hz2_3 : (![0, 0] : Fin 2 → Nat) = fun _ => 0 := funext fun a => by fin_cases a <;> rfl

/-- What point `t` writes back is block `t` of `G3`. -/
theorem flushed3_eq (c : Dev nD) (t : Fin cfg3.N) :
    (dat3 (F := Ideal) V c).flushed 3 t = ((cfg3.win 3).blk t).view.read (Elt Ideal) (G3 V c) := by
  show (cfg3.win 3).cut (grid3.coords t) ((dat3 V c).after 3 t) = _
  rw [after3_3]
  unfold out3_3
  rw [View.canon_unit_zero hz2_3]
  simp only [View.ld_unit_zero (S := S5000x128) hz2_3, View.ld_unit_zero (S := S128x128) hz2_3, View.ld_unit_zero (S := S5000x1) hz2_3]
  funext y
  obtain ⟨a, b, rfl⟩ : ∃ (a : Fin 5000) (b : Fin 128), y = ix2 a b := ⟨y 0, y 1, eq_ix2 y⟩
  have ht : t.val < 20 := N3_20 ▸ t.isLt
  have h : t.val * 5000 + a.val < 100000 := by have := a.isLt; omega
  refine (pay3_apply _ _ _ a b).trans ?_
  rw [View.read_apply, emb3_3 t a b h, iblk3_2_apply V c t a 0 h]
  show _ = Cert.Spec.hsK (X3 V c) (W3 V c) (D3 V c) ⟨t.val * 5000 + a.val, h⟩ b
  unfold Cert.Spec.hsK Cert.Spec.dense
  refine congrArg (· * _) (Finset.sum_congr rfl fun k _ => ?_)
  rw [iblk3_0_apply V c t a k h, iblk3_1_apply V c t k b]

/-- THE ARRAY after the region: every entry is the dense map's entry times its row's scale. Row `r` lies in the block
    of point `r / 5000`, which wrote it back. -/
theorem final3 (c : Dev nD) (r : Fin 100000) (j : Fin 128) :
    (dat3 (F := Ideal) V c).arrAt 3 cfg3.N (ix2 r j) = Cert.Spec.hsK (X3 V c) (W3 V c) (D3 V c) r j := by
  have hr := r.isLt
  have hq : r.val / 5000 < cfg3.N := by rw [N3_20]; omega
  have h : (⟨r.val / 5000, hq⟩ : Fin cfg3.N).val * 5000 + (⟨r.val % 5000, Nat.mod_lt _ (by decide)⟩ : Fin 5000).val < 100000 := by
    show r.val / 5000 * 5000 + r.val % 5000 < 100000; omega
  have hmem : ix2 r j ∈ ((cfg3.win 3).blk ⟨r.val / 5000, hq⟩).view.set := by
    have e : ix2 r j = ((cfg3.win 3).blk ⟨r.val / 5000, hq⟩).view.emb (ix2 ⟨r.val % 5000, Nat.mod_lt _ (by decide)⟩ j) := by
      rw [emb3_3 ⟨r.val / 5000, hq⟩ ⟨r.val % 5000, Nat.mod_lt _ (by decide)⟩ j h]
      refine congrArg (fun x => ix2 x j) (Fin.ext ?_)
      show r.val = r.val / 5000 * 5000 + r.val % 5000; omega
    rw [e]; exact View.emb_mem_set _ _
  exact (dat3 V c).arrAt_apply_of_mem 3 (G3 V c) (fun t _ => flushed3_eq V c t) cfg3.N ⟨r.val / 5000, hq⟩ (ix2 r j) hq (flush3_3 _) hmem

end Cert.KernelIdeal.Hand

end
-- ==== Proof.KI.V4.lean ====
import proofs.«115763_j74259984548099_2_alg».proof.Proof.KI.R4
import proofs.«115763_j74259984548099_2_alg».proof.Proof.Spec
import Idealize.ShloMosaic.Lib.ValueIdx
import Idealize.ShloMosaic.Lib.Pipeline.Value
import Idealize.ShloMosaic.PureOps.Ideal.Laws
import proofs.«115763_j74259984548099_2_alg».proof.Proof.LibAxisSum
import proofs.«115763_j74259984548099_2_alg».proof.Proof.LibTiledTotals
import proofs.«115763_j74259984548099_2_alg».proof.Proof.LibKeepdims
import proofs.«115763_j74259984548099_2_alg».proof.Proof.LibBiasRows

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! # Region 4: what the three outputs hold after the run, on the extended reals -/

theorem hz_v4 : (![0, 0] : Fin 2 → Nat) = fun _ => 0 := funext fun a => by fin_cases a <;> rfl

/-! ## Each case's pieces read as payloads of the contents handed in -/

theorem runB_canon4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x0 : Vec Ideal S5000x128 .f32) (x1 : Vec Ideal S5000x128 .f32) (x2 : Vec Ideal S5000x1 .f32) (x3 : Vec Ideal S1x128 .f32) (xs0 xs1 : Vec Ideal S1x128 .f32) :
    View.canon (kernelRun4_B (F := Ideal) c i arg1 harg1 arg2 harg2 arg3 harg3 arg4 harg4 arg5 harg5 arg6 harg6 arg7 harg7 arg8 harg8 arg9 harg9 hc0 hc1 x0 x1 x2 x3 xs0 xs1).1 = k4_pay3 x2 x0 x1 x3
    ∧ View.canon (kernelRun4_B (F := Ideal) c i arg1 harg1 arg2 harg2 arg3 harg3 arg4 harg4 arg5 harg5 arg6 harg6 arg7 harg7 arg8 harg8 arg9 harg9 hc0 hc1 x0 x1 x2 x3 xs0 xs1).2.1 = k4_pay4 x2 x0 x1 x3 xs0
    ∧ View.canon (kernelRun4_B (F := Ideal) c i arg1 harg1 arg2 harg2 arg3 harg3 arg4 harg4 arg5 harg5 arg6 harg6 arg7 harg7 arg8 harg8 arg9 harg9 hc0 hc1 x0 x1 x2 x3 xs0 xs1).2.2.1 = k4_pay5 x2 x0 x1 x3 xs1 := by
  unfold kernelRun4_B
  dsimp only
  simp only [View.canon_unit_zero (S := S5000x128) hz_v4, View.canon_unit_zero (S := S1x128) hz_v4, View.canon_cons_unit_zero (S := S1x128) hz_v4,
    View.readCov_unit_zero (S := S1x128) _ hz_v4, View.readAt_eq_ld, Memref.IsWhole.read_unread,
    View.ld_unit_zero (S := S5000x128) hz_v4, View.ld_unit_zero (S := S5000x1) hz_v4, View.ld_unit_zero (S := S1x128) hz_v4]
  exact ⟨trivial, trivial, trivial⟩

theorem runA_canon4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x0 : Vec Ideal S5000x128 .f32) (x1 : Vec Ideal S5000x128 .f32) (x2 : Vec Ideal S5000x1 .f32) (x3 : Vec Ideal S1x128 .f32) :
    View.canon (kernelRun4_A (F := Ideal) c i arg1 harg1 arg2 harg2 arg3 harg3 arg4 harg4 arg5 harg5 arg6 harg6 arg7 harg7 arg8 harg8 arg9 harg9 hc0 hc1 x0 x1 x2 x3).1 = k4_pay3 x2 x0 x1 x3
    ∧ View.canon (kernelRun4_A (F := Ideal) c i arg1 harg1 arg2 harg2 arg3 harg3 arg4 harg4 arg5 harg5 arg6 harg6 arg7 harg7 arg8 harg8 arg9 harg9 hc0 hc1 x0 x1 x2 x3).2.1 = k4_pay4 x2 x0 x1 x3 (k4_pay1 (F := Ideal))
    ∧ View.canon (kernelRun4_A (F := Ideal) c i arg1 harg1 arg2 harg2 arg3 harg3 arg4 harg4 arg5 harg5 arg6 harg6 arg7 harg7 arg8 harg8 arg9 harg9 hc0 hc1 x0 x1 x2 x3).2.2.1 = k4_pay5 x2 x0 x1 x3 (k4_pay2 (F := Ideal)) := by
  unfold kernelRun4_A
  dsimp only
  sl_unfold_words
  simp only [View.canon_unit_zero (S := S5000x128) hz_v4, View.canon_unit_zero (S := S1x128) hz_v4, View.canon_cons_unit_zero (S := S1x128) hz_v4,
    View.readCov_unit_zero (S := S1x128) _ hz_v4, View.readAt_eq_ld, Memref.IsWhole.read_unread,
    View.ld_unit_zero (S := S5000x128) hz_v4, View.ld_unit_zero (S := S5000x1) hz_v4, View.ld_unit_zero (S := S1x128) hz_v4]
  exact ⟨trivial, trivial, trivial⟩

theorem runC_canon4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x0 : Vec Ideal S5000x128 .f32) (x1 : Vec Ideal S5000x128 .f32) (x2 : Vec Ideal S5000x1 .f32) (x3 : Vec Ideal S1x128 .f32) (xs0 xs1 : Vec Ideal S1x128 .f32) :
    View.canon (kernelRun4_C (F := Ideal) c i arg1 harg1 arg2 harg2 arg3 harg3 arg4 harg4 arg5 harg5 arg6 harg6 arg7 harg7 arg8 harg8 arg9 harg9 hc0 hc1 x0 x1 x2 x3 xs0 xs1).1 = k4_pay3 x2 x0 x1 x3
    ∧ View.canon (kernelRun4_C (F := Ideal) c i arg1 harg1 arg2 harg2 arg3 harg3 arg4 harg4 arg5 harg5 arg6 harg6 arg7 harg7 arg8 harg8 arg9 harg9 hc0 hc1 x0 x1 x2 x3 xs0 xs1).2.1 = k4_pay4 x2 x0 x1 x3 xs0
    ∧ View.canon (kernelRun4_C (F := Ideal) c i arg1 harg1 arg2 harg2 arg3 harg3 arg4 harg4 arg5 harg5 arg6 harg6 arg7 harg7 arg8 harg8 arg9 harg9 hc0 hc1 x0 x1 x2 x3 xs0 xs1).2.2.1 = k4_pay5 x2 x0 x1 x3 xs1
    ∧ View.canon (kernelRun4_C (F := Ideal) c i arg1 harg1 arg2 harg2 arg3 harg3 arg4 harg4 arg5 harg5 arg6 harg6 arg7 harg7 arg8 harg8 arg9 harg9 hc0 hc1 x0 x1 x2 x3 xs0 xs1).2.2.2.1 = k4_pay4 x2 x0 x1 x3 xs0
    ∧ View.canon (kernelRun4_C (F := Ideal) c i arg1 harg1 arg2 harg2 arg3 harg3 arg4 harg4 arg5 harg5 arg6 harg6 arg7 harg7 arg8 harg8 arg9 harg9 hc0 hc1 x0 x1 x2 x3 xs0 xs1).2.2.2.2.1 = k4_pay5 x2 x0 x1 x3 xs1 := by
  unfold kernelRun4_C
  dsimp only
  sl_unfold_words
  simp only [View.canon_unit_zero (S := S5000x128) hz_v4, View.canon_unit_zero (S := S1x128) hz_v4, View.canon_cons_unit_zero (S := S1x128) hz_v4,
    View.readCov_unit_zero (S := S1x128) _ hz_v4, View.readAt_eq_ld, Memref.IsWhole.read_unread,
    View.ld_unit_zero (S := S5000x128) hz_v4, View.ld_unit_zero (S := S5000x1) hz_v4, View.ld_unit_zero (S := S1x128) hz_v4]
  exact ⟨trivial, trivial, trivial, trivial, trivial⟩

/-! ## Each case's contents in closed form: the payloads over the point's blocks -/

/-- The combined block of point `t`: the scaled sum of the two row blocks plus the bias row. -/
def aggBlk4 (c : Dev nD) (t : Fin cfg4.N) : Vec Ideal S5000x128 .f32 :=
  k4_pay3 (iblk4 V c 2 t) (iblk4 V c 0 t) (iblk4 V c 1 t) (iblk4 V c 3 t)

theorem outB4_eq (c : Dev nD) (t : Fin cfg4.N) (h0 : ¬t.val % 20 = 0) (h1 : ¬t.val % 20 = 19) (xs0 xs1 : Vec Ideal S1x128 .f32) :
    outB4 V c t h0 h1 xs0 xs1 = (aggBlk4 V c t, idleOut4, idleOut4, k4_pay4 (iblk4 V c 2 t) (iblk4 V c 0 t) (iblk4 V c 1 t) (iblk4 V c 3 t) xs0, k4_pay5 (iblk4 V c 2 t) (iblk4 V c 0 t) (iblk4 V c 1 t) (iblk4 V c 3 t) xs1) := by
  have e := runB_canon4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) xs0 xs1
  unfold outB4 runB4 aggBlk4
  rw [e.1, e.2.1, e.2.2]

theorem outA4_eq (c : Dev nD) (t : Fin cfg4.N) (h0 : t.val % 20 = 0) (h1 : ¬t.val % 20 = 19) :
    outA4 V c t h0 h1 = (aggBlk4 V c t, idleOut4, idleOut4, k4_pay4 (iblk4 V c 2 t) (iblk4 V c 0 t) (iblk4 V c 1 t) (iblk4 V c 3 t) (k4_pay1 (F := Ideal)), k4_pay5 (iblk4 V c 2 t) (iblk4 V c 0 t) (iblk4 V c 1 t) (iblk4 V c 3 t) (k4_pay2 (F := Ideal))) := by
  have e := runA_canon4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t)
  unfold outA4 runA4 aggBlk4
  rw [e.1, e.2.1, e.2.2]

theorem outC4_eq (c : Dev nD) (t : Fin cfg4.N) (h0 : ¬t.val % 20 = 0) (h1 : t.val % 20 = 19) (xs0 xs1 : Vec Ideal S1x128 .f32) :
    outC4 V c t h0 h1 xs0 xs1 = (aggBlk4 V c t, k4_pay4 (iblk4 V c 2 t) (iblk4 V c 0 t) (iblk4 V c 1 t) (iblk4 V c 3 t) xs0, k4_pay5 (iblk4 V c 2 t) (iblk4 V c 0 t) (iblk4 V c 1 t) (iblk4 V c 3 t) xs1,
      k4_pay4 (iblk4 V c 2 t) (iblk4 V c 0 t) (iblk4 V c 1 t) (iblk4 V c 3 t) xs0, k4_pay5 (iblk4 V c 2 t) (iblk4 V c 0 t) (iblk4 V c 1 t) (iblk4 V c 3 t) xs1) := by
  have e := runC_canon4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) xs0 xs1
  unfold outC4 runC4 aggBlk4
  exact congr (congrArg Prod.mk e.1) (congr (congrArg Prod.mk e.2.1) (congr (congrArg Prod.mk e.2.2.1) (congr (congrArg Prod.mk e.2.2.2.1) e.2.2.2.2)))

/-! ## The region-entry arrays, and each block as rows of its array -/

/-- The four input arrays as the region finds them. -/
def arrM4 (c : Dev nD) : S100000x128.Idx → EReal := V c (Pipeline.arrRef spec4 0)
def arrH4 (c : Dev nD) : S100000x128.Idx → EReal := V c (Pipeline.arrRef spec4 1)
def arrD4 (c : Dev nD) : S100000x1.Idx → EReal := V c (Pipeline.arrRef spec4 2)
def arrB4 (c : Dev nD) : S1x128.Idx → EReal := V c (Pipeline.arrRef spec4 3)

/-- The block indices of the windows, in closed form over the grid. -/
theorem idx4_0 : ∀ t : Fin cfg4.N, win4_0.index t 0 = t.val ∧ win4_0.index t 1 = 0 :=
  (by decide +kernel : ∀ t : Fin grid4.N, win4_0.index t 0 = t.val ∧ win4_0.index t 1 = 0)
theorem idx4_1 : ∀ t : Fin cfg4.N, win4_1.index t 0 = t.val ∧ win4_1.index t 1 = 0 :=
  (by decide +kernel : ∀ t : Fin grid4.N, win4_1.index t 0 = t.val ∧ win4_1.index t 1 = 0)
theorem idx4_2 : ∀ t : Fin cfg4.N, win4_2.index t 0 = t.val ∧ win4_2.index t 1 = 0 :=
  (by decide +kernel : ∀ t : Fin grid4.N, win4_2.index t 0 = t.val ∧ win4_2.index t 1 = 0)
theorem idx4_3 : ∀ t : Fin cfg4.N, win4_3.index t 0 = 0 ∧ win4_3.index t 1 = 0 :=
  (by decide +kernel : ∀ t : Fin grid4.N, win4_3.index t 0 = 0 ∧ win4_3.index t 1 = 0)
theorem idx4_4 : ∀ t : Fin cfg4.N, win4_4.index t 0 = t.val ∧ win4_4.index t 1 = 0 :=
  (by decide +kernel : ∀ t : Fin grid4.N, win4_4.index t 0 = t.val ∧ win4_4.index t 1 = 0)
theorem idx4_5 : ∀ t : Fin cfg4.N, win4_5.index t 0 = 0 ∧ win4_5.index t 1 = 0 :=
  (by decide +kernel : ∀ t : Fin grid4.N, win4_5.index t 0 = 0 ∧ win4_5.index t 1 = 0)
theorem idx4_6 : ∀ t : Fin cfg4.N, win4_6.index t 0 = 0 ∧ win4_6.index t 1 = 0 :=
  (by decide +kernel : ∀ t : Fin grid4.N, win4_6.index t 0 = 0 ∧ win4_6.index t 1 = 0)

/-- Window 0's block at point `t` is rows `5000 t … 5000 t + 4999` of its array. -/
theorem iblk4_0_apply (c : Dev nD) (t : Fin cfg4.N) (x : S5000x128.Idx) (k : S100000x128.Idx)
    (hk0 : (k 0).val = t.val * 5000 + (x 0).val) (hk1 : (k 1).val = (x 1).val) :
    (iblk4 V c 0 t : Vec Ideal S5000x128 .f32) x = arrM4 V c k := by
  have hi := idx4_0 t
  unfold iblk4 arrM4
  rw [View.read_apply]
  show (V c (Pipeline.arrRef spec4 0) : S100000x128.Idx → EReal) _ = (V c (Pipeline.arrRef spec4 0) : S100000x128.Idx → EReal) k
  congr 1
  funext a
  apply Fin.ext
  match a with
  | ⟨0, _⟩ => show win4_0.index t 0 * 5000 + 1 * (x 0).val = (k 0).val; rw [hi.1, hk0]; omega
  | ⟨1, _⟩ => show win4_0.index t 1 * 128 + 1 * (x 1).val = (k 1).val; rw [hi.2, hk1]; omega

theorem iblk4_1_apply (c : Dev nD) (t : Fin cfg4.N) (x : S5000x128.Idx) (k : S100000x128.Idx)
    (hk0 : (k 0).val = t.val * 5000 + (x 0).val) (hk1 : (k 1).val = (x 1).val) :
    (iblk4 V c 1 t : Vec Ideal S5000x128 .f32) x = arrH4 V c k := by
  have hi := idx4_1 t
  unfold iblk4 arrH4
  rw [View.read_apply]
  show (V c (Pipeline.arrRef spec4 1) : S100000x128.Idx → EReal) _ = (V c (Pipeline.arrRef spec4 1) : S100000x128.Idx → EReal) k
  congr 1
  funext a
  apply Fin.ext
  match a with
  | ⟨0, _⟩ => show win4_1.index t 0 * 5000 + 1 * (x 0).val = (k 0).val; rw [hi.1, hk0]; omega
  | ⟨1, _⟩ => show win4_1.index t 1 * 128 + 1 * (x 1).val = (k 1).val; rw [hi.2, hk1]; omega

theorem iblk4_2_apply (c : Dev nD) (t : Fin cfg4.N) (x : S5000x1.Idx) (k : S100000x1.Idx)
    (hk0 : (k 0).val = t.val * 5000 + (x 0).val) (hk1 : (k 1).val = (x 1).val) :
    (iblk4 V c 2 t : Vec Ideal S5000x1 .f32) x = arrD4 V c k := by
  have hi := idx4_2 t
  unfold iblk4 arrD4
  rw [View.read_apply]
  show (V c (Pipeline.arrRef spec4 2) : S100000x1.Idx → EReal) _ = (V c (Pipeline.arrRef spec4 2) : S100000x1.Idx → EReal) k
  congr 1
  funext a
  apply Fin.ext
  match a with
  | ⟨0, _⟩ => show win4_2.index t 0 * 5000 + 1 * (x 0).val = (k 0).val; rw [hi.1, hk0]; omega
  | ⟨1, _⟩ => show win4_2.index t 1 * 1 + 1 * (x 1).val = (k 1).val; rw [hi.2, hk1]; omega

theorem iblk4_3_apply (c : Dev nD) (t : Fin cfg4.N) (x : S1x128.Idx) :
    (iblk4 V c 3 t : Vec Ideal S1x128 .f32) x = arrB4 V c x := by
  have hi := idx4_3 t
  unfold iblk4 arrB4
  rw [View.read_apply]
  show (V c (Pipeline.arrRef spec4 3) : S1x128.Idx → EReal) _ = (V c (Pipeline.arrRef spec4 3) : S1x128.Idx → EReal) x
  congr 1
  funext a
  apply Fin.ext
  match a with
  | ⟨0, _⟩ => show win4_3.index t 0 * 1 + 1 * (x 0).val = (x 0).val; rw [hi.1]; omega
  | ⟨1, _⟩ => show win4_3.index t 1 * 128 + 1 * (x 1).val = (x 1).val; rw [hi.2]; omega

/-! ## The payloads at an index -/

/-- The combined block at `(y, j)`: the row's scale times the sum of the two entries, plus the bias entry. -/
theorem pay3_apply4 (v3 : Vec Ideal S5000x1 .f32) (v5 v7 : Vec Ideal S5000x128 .f32) (v12 : Vec Ideal S1x128 .f32) (y : Fin 5000) (j : Fin 128) :
    k4_pay3 v3 v5 v7 v12 (ix2 y j) = v3 (ix2 y 0) * (v5 (ix2 y j) + v7 (ix2 y j)) + v12 (ix2 0 j) := by
  unfold k4_pay3
  simp only [shapeCast_self]
  show broadcastTo S5000x128 v3 _ (ix2 y j) * (v5 (ix2 y j) + v7 (ix2 y j)) + broadcastTo S5000x128 v12 _ (ix2 y j) = _
  rw [Cert.LibKeepdims.broadcastTo_a1_ab_apply, Cert.LibBiasRows.row_broadcast]
  rfl

/-- The sum accumulator after a point, at column `j`: what it held plus the block's column total. -/
theorem pay4_apply4 (v3 : Vec Ideal S5000x1 .f32) (v5 v7 : Vec Ideal S5000x128 .f32) (v12 v17 : Vec Ideal S1x128 .f32) (j : Fin 128) :
    k4_pay4 v3 v5 v7 v12 v17 (ix2 0 j) = v17 (ix2 0 j) + ∑ y : Fin 5000, k4_pay3 v3 v5 v7 v12 (ix2 y j) := by
  unfold k4_pay4
  simp only [shapeCast_self]
  show v17 (ix2 0 j) + shapeCast S1x128 _ _ (ix2 ⟨0, Nat.one_pos⟩ j) = _
  rw [Cert.LibBiasRows.row_of_vector]
  exact congrArg (fun z => v17 (ix2 0 j) + z) (Cert.LibAxisSum.sum_first (n := 5000) (d := 128) _ _ _ _ _ j)

/-- The sum-of-squares accumulator likewise. -/
theorem pay5_apply4 (v3 : Vec Ideal S5000x1 .f32) (v5 v7 : Vec Ideal S5000x128 .f32) (v12 v24 : Vec Ideal S1x128 .f32) (j : Fin 128) :
    k4_pay5 v3 v5 v7 v12 v24 (ix2 0 j) = v24 (ix2 0 j) + ∑ y : Fin 5000, k4_pay3 v3 v5 v7 v12 (ix2 y j) * k4_pay3 v3 v5 v7 v12 (ix2 y j) := by
  unfold k4_pay5
  simp only [shapeCast_self]
  show v24 (ix2 0 j) + shapeCast S1x128 _ _ (ix2 ⟨0, Nat.one_pos⟩ j) = _
  rw [Cert.LibBiasRows.row_of_vector]
  exact congrArg (fun z => v24 (ix2 0 j) + z) (Cert.LibAxisSum.sum_first (n := 5000) (d := 128) _ _ _ _ _ j)

/-- The zero fill of either accumulator. -/
theorem pay1_apply4 (i : S1x128.Idx) : (k4_pay1 (F := Ideal) : Vec Ideal S1x128 .f32) i = 0 := by
  unfold k4_pay1
  simp only [shapeCast_self]
  show Ideal.ofBits .f32 0x00000000#32 = 0
  exact Ideal.ofBits_zero_f32
theorem pay2_apply4 (i : S1x128.Idx) : (k4_pay2 (F := Ideal) : Vec Ideal S1x128 .f32) i = 0 := by
  unfold k4_pay2
  simp only [shapeCast_self]
  show Ideal.ofBits .f32 0x00000000#32 = 0
  exact Ideal.ofBits_zero_f32

/-! ## The combined matrix, and each point's block as its rows -/

theorem h20_4 : 100000 = (19 + 1) * 5000 := by norm_num

/-- The combined matrix over the region-entry arrays. -/
def agg4 (c : Dev nD) : Cert.Spec.Mat 100000 128 :=
  Cert.Spec.combine (fun r j => arrM4 V c (ix2 r j)) (fun r j => arrH4 V c (ix2 r j)) (fun r => arrD4 V c (ix2 r 0)) (fun j => arrB4 V c (ix2 0 j))

/-- Point `t`'s combined block is rows `5000 t …` of the combined matrix. -/
theorem aggBlk4_apply (c : Dev nD) (t : Fin cfg4.N) (y : Fin 5000) (j : Fin 128) (r : Fin 100000) (hr : r.val = t.val * 5000 + y.val) :
    aggBlk4 V c t (ix2 y j) = agg4 V c r j := by
  unfold aggBlk4 agg4 Cert.Spec.combine
  rw [pay3_apply4, iblk4_2_apply V c t (ix2 y 0) (ix2 r 0) hr rfl, iblk4_0_apply V c t (ix2 y j) (ix2 r j) hr rfl,
    iblk4_1_apply V c t (ix2 y j) (ix2 r j) hr rfl, iblk4_3_apply]

/-- Whatever the case, the aggregate output's buffer after point `t` is the point's combined block. -/
theorem outs4_4 (c : Dev nD) (t : Fin cfg4.N) : (outsAt4 V c t.val t.isLt).1 = aggBlk4 V c t := by
  have hN : t.val < 20 := lt_of_lt_of_eq t.isLt (show cfg4.N = 20 from N_4)
  by_cases h0 : t.val % 20 = 0
  · have h1 : ¬t.val % 20 = 19 := by omega
    rw [outsAt4_A V c t h0 h1, outA4_eq]
  · by_cases h1 : t.val % 20 = 19
    · rw [outsAt4_C V c t h0 h1, outC4_eq]
    · rw [outsAt4_B V c t h0 h1, outB4_eq]

/-! ## The two accumulators, point by point -/

/-- Tile `t` as a grid point. -/
def pt4 (t : Fin 20) : Fin cfg4.N := ⟨t.val, lt_of_lt_of_eq t.isLt (show cfg4.N = 20 from N_4).symm⟩

theorem pt4_val (t : Fin 20) : (pt4 t).val = t.val := rfl
theorem pt4_zero_mod : (pt4 0).val % 20 = 0 := by rw [pt4_val]; rfl
theorem pt4_zero_ne : ¬(pt4 0).val % 20 = 19 := by rw [pt4_val]; decide

/-- The sum accumulator after tile `t`, by column. -/
def acc0_4 (c : Dev nD) (t : Fin 20) : Fin 128 → EReal := fun j => (outsAt4 V c (pt4 t).val (pt4 t).isLt).2.2.2.1 (ix2 0 j)
/-- The sum-of-squares accumulator after tile `t`, by column. -/
def acc1_4 (c : Dev nD) (t : Fin 20) : Fin 128 → EReal := fun j => (outsAt4 V c (pt4 t).val (pt4 t).isLt).2.2.2.2 (ix2 0 j)

theorem acc0_4_zero (c : Dev nD) (j : Fin 128) :
    acc0_4 V c 0 j = 0 + ∑ y : Fin 5000, agg4 V c (Cert.LibBatchNorm.rowOf h20_4 0 y) j := by
  unfold acc0_4
  rw [outsAt4_A V c (pt4 0) (pt4_zero_mod) (pt4_zero_ne), outA4_eq]
  dsimp only
  rw [pay4_apply4, pay1_apply4]
  exact congrArg (fun z => (0 : EReal) + z) (Finset.sum_congr rfl fun y _ => aggBlk4_apply V c (pt4 0) y j _ rfl)

theorem acc1_4_zero (c : Dev nD) (j : Fin 128) :
    acc1_4 V c 0 j = 0 + ∑ y : Fin 5000, agg4 V c (Cert.LibBatchNorm.rowOf h20_4 0 y) j * agg4 V c (Cert.LibBatchNorm.rowOf h20_4 0 y) j := by
  unfold acc1_4
  rw [outsAt4_A V c (pt4 0) (pt4_zero_mod) (pt4_zero_ne), outA4_eq]
  dsimp only
  rw [pay5_apply4, pay2_apply4]
  exact congrArg (fun z => (0 : EReal) + z) (Finset.sum_congr rfl fun y _ => congrArg₂ (· * ·) (aggBlk4_apply V c (pt4 0) y j _ rfl) (aggBlk4_apply V c (pt4 0) y j _ rfl))

theorem acc0_4_succ (c : Dev nD) (t : Fin 19) (j : Fin 128) :
    acc0_4 V c t.succ j = acc0_4 V c t.castSucc j + ∑ y : Fin 5000, agg4 V c (Cert.LibBatchNorm.rowOf h20_4 t.succ y) j := by
  unfold acc0_4
  have hv : (pt4 t.succ).val = t.val + 1 := rfl
  have hlt : t.val < 19 := t.isLt
  by_cases h1 : (pt4 t.succ).val % 20 = 19
  · rw [outsAt4_C V c (pt4 t.succ) (by rw [hv]; omega) h1, outC4_eq]
    dsimp only
    rw [pay4_apply4]
    exact congrArg (fun z => (outsAt4 V c t.val (pt4 t.castSucc).isLt).2.2.2.1 (ix2 0 j) + z)
      (Finset.sum_congr rfl fun y _ => aggBlk4_apply V c (pt4 t.succ) y j _ rfl)
  · rw [outsAt4_B V c (pt4 t.succ) (by rw [hv]; omega) h1, outB4_eq]
    dsimp only
    rw [pay4_apply4]
    exact congrArg (fun z => (outsAt4 V c t.val (pt4 t.castSucc).isLt).2.2.2.1 (ix2 0 j) + z)
      (Finset.sum_congr rfl fun y _ => aggBlk4_apply V c (pt4 t.succ) y j _ rfl)

theorem acc1_4_succ (c : Dev nD) (t : Fin 19) (j : Fin 128) :
    acc1_4 V c t.succ j = acc1_4 V c t.castSucc j
      + ∑ y : Fin 5000, agg4 V c (Cert.LibBatchNorm.rowOf h20_4 t.succ y) j * agg4 V c (Cert.LibBatchNorm.rowOf h20_4 t.succ y) j := by
  unfold acc1_4
  have hv : (pt4 t.succ).val = t.val + 1 := rfl
  have hlt : t.val < 19 := t.isLt
  by_cases h1 : (pt4 t.succ).val % 20 = 19
  · rw [outsAt4_C V c (pt4 t.succ) (by rw [hv]; omega) h1, outC4_eq]
    dsimp only
    rw [pay5_apply4]
    exact congrArg (fun z => (outsAt4 V c t.val (pt4 t.castSucc).isLt).2.2.2.2 (ix2 0 j) + z)
      (Finset.sum_congr rfl fun y _ => congrArg₂ (· * ·) (aggBlk4_apply V c (pt4 t.succ) y j _ rfl) (aggBlk4_apply V c (pt4 t.succ) y j _ rfl))
  · rw [outsAt4_B V c (pt4 t.succ) (by rw [hv]; omega) h1, outB4_eq]
    dsimp only
    rw [pay5_apply4]
    exact congrArg (fun z => (outsAt4 V c t.val (pt4 t.castSucc).isLt).2.2.2.2 (ix2 0 j) + z)
      (Finset.sum_congr rfl fun y _ => congrArg₂ (· * ·) (aggBlk4_apply V c (pt4 t.succ) y j _ rfl) (aggBlk4_apply V c (pt4 t.succ) y j _ rfl))

/-- After the last tile the sum accumulator holds each column's total over all the rows. -/
theorem acc0_4_last (c : Dev nD) (j : Fin 128) : acc0_4 V c (Fin.last 19) j = ∑ r : Fin 100000, agg4 V c r j :=
  (Cert.LibTiledTotals.tiled_total (T := 19) (B := 5000) h20_4 (agg4 V c)
    (fun t j => ∑ y : Fin 5000, agg4 V c (Cert.LibBatchNorm.rowOf h20_4 t y) j) (fun _ _ => rfl)
    (acc0_4 V c) (acc0_4_zero V c) (acc0_4_succ V c) j).trans (zero_add _)

/-- And the other accumulator each column's total of squares. -/
theorem acc1_4_last (c : Dev nD) (j : Fin 128) : acc1_4 V c (Fin.last 19) j = ∑ r : Fin 100000, agg4 V c r j * agg4 V c r j :=
  (Cert.LibTiledTotals.tiled_total_sq (T := 19) (B := 5000) h20_4 (agg4 V c)
    (fun t j => ∑ y : Fin 5000, agg4 V c (Cert.LibBatchNorm.rowOf h20_4 t y) j * agg4 V c (Cert.LibBatchNorm.rowOf h20_4 t y) j) (fun _ _ => rfl)
    (acc1_4 V c) (acc1_4_zero V c) (acc1_4_succ V c) j).trans (zero_add _)

/-! ## The three output arrays after the run -/

/-- The aggregate array as one function of the entry arrays. -/
def G4_4 (c : Dev nD) : S100000x128.Idx → EReal := fun i => agg4 V c (i 0) (i 1)
/-- The column totals, and the column totals of squares. -/
def G5_4 (c : Dev nD) : S1x128.Idx → EReal := fun i => ∑ r : Fin 100000, agg4 V c r (i 1)
def G6_4 (c : Dev nD) : S1x128.Idx → EReal := fun i => ∑ r : Fin 100000, agg4 V c r (i 1) * agg4 V c r (i 1)

/-- What point `t` writes back to the aggregate array is its block of `G4_4`. -/
theorem flushed4_4 (c : Dev nD) (t : Fin cfg4.N) :
    (dat4 (F := Ideal) V c).flushed 4 t = ((cfg4.win 4).blk t).view.read (Elt Ideal) (G4_4 V c) := by
  show (cfg4.win 4).cut (grid4.coords t) ((dat4 (F := Ideal) V c).after 4 t) = _
  rw [after4_4, outs4_4]
  funext x
  rw [View.read_apply]
  have hi := idx4_4 t
  obtain ⟨y, j, rfl⟩ : ∃ (y : Fin 5000) (j : Fin 128), x = ix2 y j := ⟨x 0, x 1, funext fun a => by fin_cases a <;> rfl⟩
  show aggBlk4 V c t (ix2 y j) = agg4 V c ((((cfg4.win 4).blk t).view.emb (ix2 y j)) 0) ((((cfg4.win 4).blk t).view.emb (ix2 y j)) 1)
  have hj : (((cfg4.win 4).blk t).view.emb (ix2 y j)) 1 = j := Fin.ext (by
    show win4_4.index t 1 * 128 + 1 * j.val = j.val; rw [hi.2]; omega)
  rw [hj]
  exact aggBlk4_apply V c t y j _ (by show win4_4.index t 0 * 5000 + 1 * y.val = t.val * 5000 + y.val; rw [hi.1]; omega)

/-- At the last point the two statistics outputs hold the accumulators. -/
theorem outs4_5 (c : Dev nD) (t : Fin cfg4.N) (h0 : ¬t.val % 20 = 0) (h1 : t.val % 20 = 19) :
    (outsAt4 V c t.val t.isLt).2.1 = (outsAt4 V c t.val t.isLt).2.2.2.1 := by
  rw [outsAt4_C V c t h0 h1, outC4_eq]
theorem outs4_6 (c : Dev nD) (t : Fin cfg4.N) (h0 : ¬t.val % 20 = 0) (h1 : t.val % 20 = 19) :
    (outsAt4 V c t.val t.isLt).2.2.1 = (outsAt4 V c t.val t.isLt).2.2.2.2 := by
  rw [outsAt4_C V c t h0 h1, outC4_eq]

theorem cut4_5 (t : Fin cfg4.N) (X : Vec Ideal S1x128 .f32) : (cfg4.win 5).cut (grid4.coords t) X = X := rfl
theorem cut4_6 (t : Fin cfg4.N) (X : Vec Ideal S1x128 .f32) : (cfg4.win 6).cut (grid4.coords t) X = X := rfl

theorem flushed4_5 (c : Dev nD) (t : Fin cfg4.N) (hf : (cfg4.win 5).flush t = true) :
    (dat4 (F := Ideal) V c).flushed 5 t = ((cfg4.win 5).blk t).view.read (Elt Ideal) (G5_4 V c) := by
  have h1 : t.val % 20 = 19 := (flush4_5 t).mp hf
  have hN : t.val < 20 := lt_of_lt_of_eq t.isLt (show cfg4.N = 20 from N_4)
  have h0 : ¬t.val % 20 = 0 := by omega
  show (cfg4.win 5).cut (grid4.coords t) ((dat4 (F := Ideal) V c).after 5 t) = _
  rw [after4_5, outs4_5 V c t h0 h1, cut4_5]
  obtain rfl : t = pt4 (Fin.last 19) := Fin.ext (by show t.val = 19; omega)
  funext x
  rw [View.read_apply]
  have hi := idx4_5 (pt4 (Fin.last 19))
  obtain ⟨u, j, rfl⟩ : ∃ (u : Fin 1) (j : Fin 128), x = ix2 u j := ⟨x 0, x 1, funext fun a => by fin_cases a <;> rfl⟩
  obtain rfl : u = 0 := Subsingleton.elim _ _
  have e := acc0_4_last V c j
  unfold acc0_4 at e
  rw [cast_eq]
  unfold G5_4
  have hj : (((cfg4.win 5).blk (pt4 (Fin.last 19))).view.emb (ix2 (0 : Fin 1) j)) 1 = j := Fin.ext (by
    show win4_5.index (pt4 (Fin.last 19)) 1 * 128 + 1 * j.val = j.val; rw [hi.2]; omega)
  rw [hj]
  exact e

theorem flushed4_6 (c : Dev nD) (t : Fin cfg4.N) (hf : (cfg4.win 6).flush t = true) :
    (dat4 (F := Ideal) V c).flushed 6 t = ((cfg4.win 6).blk t).view.read (Elt Ideal) (G6_4 V c) := by
  have h1 : t.val % 20 = 19 := (flush4_6 t).mp hf
  have hN : t.val < 20 := lt_of_lt_of_eq t.isLt (show cfg4.N = 20 from N_4)
  have h0 : ¬t.val % 20 = 0 := by omega
  show (cfg4.win 6).cut (grid4.coords t) ((dat4 (F := Ideal) V c).after 6 t) = _
  rw [after4_6, outs4_6 V c t h0 h1, cut4_6]
  obtain rfl : t = pt4 (Fin.last 19) := Fin.ext (by show t.val = 19; omega)
  funext x
  rw [View.read_apply]
  have hi := idx4_6 (pt4 (Fin.last 19))
  obtain ⟨u, j, rfl⟩ : ∃ (u : Fin 1) (j : Fin 128), x = ix2 u j := ⟨x 0, x 1, funext fun a => by fin_cases a <;> rfl⟩
  obtain rfl : u = 0 := Subsingleton.elim _ _
  have e := acc1_4_last V c j
  unfold acc1_4 at e
  rw [cast_eq]
  unfold G6_4
  have hj : (((cfg4.win 6).blk (pt4 (Fin.last 19))).view.emb (ix2 (0 : Fin 1) j)) 1 = j := Fin.ext (by
    show win4_6.index (pt4 (Fin.last 19)) 1 * 128 + 1 * j.val = j.val; rw [hi.2]; omega)
  rw [hj]
  exact e

/-- THE AGGREGATE ARRAY after the run, entry by entry. -/
theorem final4_agg_at (c : Dev nD) (r : Fin 100000) (j : Fin 128) :
    (dat4 (F := Ideal) V c).arrAt 4 cfg4.N (ix2 r j) = agg4 V c r j := by
  have hN : cfg4.N = 20 := N_4
  let t : Fin cfg4.N := ⟨r.val / 5000, by rw [hN]; have := r.isLt; omega⟩
  let y : Fin 5000 := ⟨r.val % 5000, Nat.mod_lt _ (by norm_num)⟩
  have hi := idx4_4 t
  have he : (ix2 r j : S100000x128.Idx) = ((cfg4.win 4).blk t).view.emb (ix2 y j) := by
    funext a; apply Fin.ext
    match a with
    | ⟨0, _⟩ => show r.val = win4_4.index t 0 * 5000 + 1 * (r.val % 5000); rw [hi.1]; show r.val = r.val / 5000 * 5000 + 1 * (r.val % 5000); omega
    | ⟨1, _⟩ => show j.val = win4_4.index t 1 * 128 + 1 * j.val; rw [hi.2]; omega
  have h := (dat4 (F := Ideal) V c).arrAt_apply_of_mem 4 (G4_4 V c) (fun t _ => flushed4_4 V c t) cfg4.N t (ix2 r j) t.isLt (flush4_4 t)
    (by rw [he]; exact View.emb_mem_set _ _)
  rw [h]; rfl

/-- THE COLUMN TOTALS after the run. -/
theorem final4_sum_at (c : Dev nD) (j : Fin 128) :
    (dat4 (F := Ideal) V c).arrAt 5 cfg4.N (ix2 0 j) = ∑ r : Fin 100000, agg4 V c r j := by
  have hf : (cfg4.win 5).flush (pt4 (Fin.last 19)) = true := (flush4_5 _).mpr (by rw [pt4_val]; rfl)
  have hi := idx4_5 (pt4 (Fin.last 19))
  have he : (ix2 (0 : Fin 1) j : S1x128.Idx) = ((cfg4.win 5).blk (pt4 (Fin.last 19))).view.emb (ix2 (0 : Fin 1) j) := by
    funext a; apply Fin.ext
    match a with
    | ⟨0, _⟩ => show 0 = win4_5.index (pt4 (Fin.last 19)) 0 * 1 + 1 * 0; rw [hi.1]
    | ⟨1, _⟩ => show j.val = win4_5.index (pt4 (Fin.last 19)) 1 * 128 + 1 * j.val; rw [hi.2]; omega
  have h := (dat4 (F := Ideal) V c).arrAt_apply_of_mem 5 (G5_4 V c) (fun t hf => flushed4_5 V c t hf) cfg4.N (pt4 (Fin.last 19)) (ix2 0 j)
    (pt4 (Fin.last 19)).isLt hf (by rw [he]; exact View.emb_mem_set _ _)
  rw [h]; rfl

/-- THE COLUMN TOTALS OF SQUARES after the run. -/
theorem final4_sumsq_at (c : Dev nD) (j : Fin 128) :
    (dat4 (F := Ideal) V c).arrAt 6 cfg4.N (ix2 0 j) = ∑ r : Fin 100000, agg4 V c r j * agg4 V c r j := by
  have hf : (cfg4.win 6).flush (pt4 (Fin.last 19)) = true := (flush4_6 _).mpr (by rw [pt4_val]; rfl)
  have hi := idx4_6 (pt4 (Fin.last 19))
  have he : (ix2 (0 : Fin 1) j : S1x128.Idx) = ((cfg4.win 6).blk (pt4 (Fin.last 19))).view.emb (ix2 (0 : Fin 1) j) := by
    funext a; apply Fin.ext
    match a with
    | ⟨0, _⟩ => show 0 = win4_6.index (pt4 (Fin.last 19)) 0 * 1 + 1 * 0; rw [hi.1]
    | ⟨1, _⟩ => show j.val = win4_6.index (pt4 (Fin.last 19)) 1 * 128 + 1 * j.val; rw [hi.2]; omega
  have h := (dat4 (F := Ideal) V c).arrAt_apply_of_mem 6 (G6_4 V c) (fun t hf => flushed4_6 V c t hf) cfg4.N (pt4 (Fin.last 19)) (ix2 0 j)
    (pt4 (Fin.last 19)).isLt hf (by rw [he]; exact View.emb_mem_set _ _)
  rw [h]; rfl

/-! ## The same, over named entry arrays -/

theorem final4_agg (c : Dev nD) (MSG HS : S100000x128.Idx → EReal) (DIS : S100000x1.Idx → EReal) (B : S1x128.Idx → EReal)
    (hM : (dat4 (F := Ideal) V c).A 0 = MSG) (hH : (dat4 (F := Ideal) V c).A 1 = HS) (hD : (dat4 (F := Ideal) V c).A 2 = DIS)
    (hB : (dat4 (F := Ideal) V c).A 3 = B) (r : Fin 100000) (j : Fin 128) :
    (dat4 (F := Ideal) V c).arrAt 4 cfg4.N (ix2 r j)
      = Cert.Spec.combine (fun r j => MSG (ix2 r j)) (fun r j => HS (ix2 r j)) (fun r => DIS (ix2 r 0)) (fun j => B (ix2 0 j)) r j := by
  subst hM hH hD hB
  exact final4_agg_at V c r j

theorem final4_sum (c : Dev nD) (MSG HS : S100000x128.Idx → EReal) (DIS : S100000x1.Idx → EReal) (B : S1x128.Idx → EReal)
    (hM : (dat4 (F := Ideal) V c).A 0 = MSG) (hH : (dat4 (F := Ideal) V c).A 1 = HS) (hD : (dat4 (F := Ideal) V c).A 2 = DIS)
    (hB : (dat4 (F := Ideal) V c).A 3 = B) (j : Fin 128) :
    (dat4 (F := Ideal) V c).arrAt 5 cfg4.N (ix2 0 j)
      = ∑ r : Fin 100000, Cert.Spec.combine (fun r j => MSG (ix2 r j)) (fun r j => HS (ix2 r j)) (fun r => DIS (ix2 r 0)) (fun j => B (ix2 0 j)) r j := by
  subst hM hH hD hB
  exact final4_sum_at V c j

theorem final4_sumsq (c : Dev nD) (MSG HS : S100000x128.Idx → EReal) (DIS : S100000x1.Idx → EReal) (B : S1x128.Idx → EReal)
    (hM : (dat4 (F := Ideal) V c).A 0 = MSG) (hH : (dat4 (F := Ideal) V c).A 1 = HS) (hD : (dat4 (F := Ideal) V c).A 2 = DIS)
    (hB : (dat4 (F := Ideal) V c).A 3 = B) (j : Fin 128) :
    (dat4 (F := Ideal) V c).arrAt 6 cfg4.N (ix2 0 j)
      = ∑ r : Fin 100000, Cert.Spec.combine (fun r j => MSG (ix2 r j)) (fun r j => HS (ix2 r j)) (fun r => DIS (ix2 r 0)) (fun j => B (ix2 0 j)) r j
          * Cert.Spec.combine (fun r j => MSG (ix2 r j)) (fun r j => HS (ix2 r j)) (fun r => DIS (ix2 r 0)) (fun j => B (ix2 0 j)) r j := by
  subst hM hH hD hB
  exact final4_sumsq_at V c j

end Cert.KernelIdeal.Hand

end
-- ==== Proof.KI.V5.lean ====
/- The value the normalise-scale-shift-rectify region 5 leaves in its output array, on the extended reals: every
   entry (r, j) is `max ((a r j - mean j) * rsqrt (var j + ε) * g j + beta j) 0` of the five arrays the region finds
   when it is entered. The payload is read at an index (each [1,128] row broadcast down the rows reads the row at the
   entry's column); grid point `t` writes back block `t` of that one whole-array function, because the feature
   window moves with the output window and the four row windows stay at block 0; the ten blocks cover the array. -/
import proofs.«115763_j74259984548099_2_alg».proof.Proof.KI.R5
import proofs.«115763_j74259984548099_2_alg».proof.Proof.Spec
import proofs.«115763_j74259984548099_2_alg».proof.Proof.LibBiasRows
import Idealize.ShloMosaic.Lib.ValueIdx
import Idealize.ShloMosaic.Lib.Pipeline.Value
import Idealize.ShloMosaic.Lib.ValueLayout

set_option maxRecDepth 65536

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets, as the rectangles spell them. -/
theorem hz5 : (![0, 0] : Fin 2 → Nat) = fun _ => 0 := funext fun a => by fin_cases a <;> rfl

/-! ## The payload at an index -/

/-- The stored value at entry `i` of the block: the feature entry less the mean at its column, times the reciprocal
    square root of the variance at its column plus ε, times the scale at its column, plus the shift at its column,
    rectified. (`x1` the mean row, `x2` the variance row, `x3` the scale row, `x4` the shift row.) -/
theorem pay5_apply (x0 : Vec Ideal S10000x128 .f32) (x1 x2 x3 x4 : Vec Ideal S1x128 .f32) (i : S10000x128.Idx) :
    k5_pay1 x0 x2 x1 x3 x4 i
      = max ((x0 i - x1 (ix2 ⟨0, Nat.one_pos⟩ (i 1))) * Ideal.rsqrt (x2 (ix2 ⟨0, Nat.one_pos⟩ (i 1)) + Cert.Spec.eps)
          * x3 (ix2 ⟨0, Nat.one_pos⟩ (i 1)) + x4 (ix2 ⟨0, Nat.one_pos⟩ (i 1))) Cert.Spec.zero := by
  unfold k5_pay1
  simp only [shapeCast_self]
  show max ((x0 i - broadcastTo S10000x128 x1 broadcasts_S1x128_S10000x128 i)
      * broadcastTo S10000x128 (rsqrt (addf x2 (broadcast S1x128 (Scalar.ofBits (F := Ideal) .f32 0x3727C5AC#32)))) broadcasts_S1x128_S10000x128 i
      * broadcastTo S10000x128 x3 broadcasts_S1x128_S10000x128 i + broadcastTo S10000x128 x4 broadcasts_S1x128_S10000x128 i) _ = _
  rw [Cert.LibBiasRows.row_broadcast x1, Cert.LibBiasRows.row_broadcast x3, Cert.LibBiasRows.row_broadcast x4,
    Cert.LibBiasRows.row_broadcast (rsqrt (addf x2 (broadcast S1x128 (Scalar.ofBits (F := Ideal) .f32 0x3727C5AC#32))))]
  rfl

/-! ## The array the region leaves -/

/-- The five arrays as the region finds them: the features, and the mean, variance, scale and shift rows. -/
abbrev in5_0 (c : Dev nD) : S100000x128.Idx → EReal := V c (Pipeline.arrRef spec5 0)
abbrev in5_1 (c : Dev nD) : S1x128.Idx → EReal := V c (Pipeline.arrRef spec5 1)
abbrev in5_2 (c : Dev nD) : S1x128.Idx → EReal := V c (Pipeline.arrRef spec5 2)
abbrev in5_3 (c : Dev nD) : S1x128.Idx → EReal := V c (Pipeline.arrRef spec5 3)
abbrev in5_4 (c : Dev nD) : S1x128.Idx → EReal := V c (Pipeline.arrRef spec5 4)

/-- The output array, entry by entry, of those five. -/
def G5 (c : Dev nD) : S100000x128.Idx → EReal := fun i =>
  max ((in5_0 V c i - in5_1 V c (ix2 ⟨0, Nat.one_pos⟩ (i 1)))
      * Ideal.rsqrt (in5_2 V c (ix2 ⟨0, Nat.one_pos⟩ (i 1)) + Cert.Spec.eps)
      * in5_3 V c (ix2 ⟨0, Nat.one_pos⟩ (i 1)) + in5_4 V c (ix2 ⟨0, Nat.one_pos⟩ (i 1))) Cert.Spec.zero

/-- The index maps over the ten points: the feature window's block is the output's, the row windows stay at block 0,
    the output's block is row block `t` of column block 0. -/
theorem idx_facts5 : ∀ t : Fin cfg5.N, win5_0.index t (0 : Fin 2) = win5_5.index t (0 : Fin 2)
    ∧ win5_0.index t (1 : Fin 2) = win5_5.index t (1 : Fin 2)
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) ≤ 9 ∧ win5_5.index t (1 : Fin 2) = 0 :=
  (by decide +kernel : ∀ t : Fin grid5.N, _)

/-- Every row block is some point's. -/
theorem idx_onto5 : ∀ q0 : Fin 10, ∃ t : Fin cfg5.N, win5_5.index t = ![q0.val, 0] :=
  (by decide +kernel : ∀ q0 : Fin 10, ∃ t : Fin grid5.N, win5_5.index t = ![q0.val, 0])

/-! ## Blocks read at an index -/

/-- A window's block at point `t`, at an index of the block, is its array at the index the block's rectangle sends it
    to (a block read is a precomposition). -/
theorem read5_0 (c : Dev nD) (t : Fin cfg5.N) (y : S10000x128.Idx) : iblk5 V c 0 t y = in5_0 V c (((cfg5.win 0).blk t).view.emb y) := rfl
theorem read5_1 (c : Dev nD) (t : Fin cfg5.N) (y : S1x128.Idx) : iblk5 V c 1 t y = in5_1 V c (((cfg5.win 1).blk t).view.emb y) := rfl
theorem read5_2 (c : Dev nD) (t : Fin cfg5.N) (y : S1x128.Idx) : iblk5 V c 2 t y = in5_2 V c (((cfg5.win 2).blk t).view.emb y) := rfl
theorem read5_3 (c : Dev nD) (t : Fin cfg5.N) (y : S1x128.Idx) : iblk5 V c 3 t y = in5_3 V c (((cfg5.win 3).blk t).view.emb y) := rfl
theorem read5_4 (c : Dev nD) (t : Fin cfg5.N) (y : S1x128.Idx) : iblk5 V c 4 t y = in5_4 V c (((cfg5.win 4).blk t).view.emb y) := rfl
/-- The same for a whole-array function read through the output window's block. -/
theorem read5_5 (G : S100000x128.Idx → EReal) (t : Fin cfg5.N) (y : S10000x128.Idx) :
    ((cfg5.win 5).blk t).view.read (Elt Ideal) G y = G (((cfg5.win 5).blk t).view.emb y) := rfl

/-- What point `t` writes back is what the body leaves in the output window's buffer, uncut. -/
theorem flushed5_5_out (c : Dev nD) (t : Fin cfg5.N) :
    (dat5 V c).flushed 5 t = (cfg5.win 5).cut (grid5.coords t) (out5_5 (iblk5 V c 0 t) (iblk5 V c 1 t) (iblk5 V c 2 t) (iblk5 V c 3 t) (iblk5 V c 4 t)) := by
  show (cfg5.win 5).cut (grid5.coords t) ((dat5 V c).after 5 t) = _
  rw [after5_5]

/-- One store of the whole buffer, of loads of whole buffers: the buffer is left at the payload of the buffers. -/
theorem out5_5_eq (x0 : Vec Ideal S10000x128 .f32) (x1 x2 x3 x4 : Vec Ideal S1x128 .f32) :
    out5_5 x0 x1 x2 x3 x4 = k5_pay1 x0 x2 x1 x3 x4 := by
  unfold out5_5
  rw [View.canon_unit_zero hz5]
  simp only [View.ld_unit_zero (S := S10000x128) hz5, View.ld_unit_zero (S := S1x128) hz5]

/-- The output window is not cut. -/
theorem cut5_5_apply (t : Fin cfg5.N) (f : Vec Ideal S10000x128 .f32) (y : S10000x128.Idx) :
    (cfg5.win 5).cut (grid5.coords t) f y = f y := rfl

/-! ## Where the blocks sit in their arrays -/

/-- The feature block at point `t` sits where the output block does. -/
theorem emb5_0 (t : Fin cfg5.N) (y : S10000x128.Idx) :
    ((cfg5.win 0).blk t).view.emb y = ((cfg5.win 5).blk t).view.emb y := by
  obtain ⟨e0, e1, -⟩ := idx_facts5 t
  funext a; apply Fin.ext
  match a with
  | ⟨0, _⟩ => show win5_0.index t (0 : Fin 2) * 10000 + 1 * (y 0).val = win5_5.index t (0 : Fin 2) * 10000 + 1 * (y 0).val; omega
  | ⟨1, _⟩ => show win5_0.index t (1 : Fin 2) * 128 + 1 * (y 1).val = win5_5.index t (1 : Fin 2) * 128 + 1 * (y 1).val; omega

/-- An entry of the output block keeps its column in the array. -/
theorem col5 (t : Fin cfg5.N) (y : S10000x128.Idx) : (((cfg5.win 5).blk t).view.emb y) 1 = y 1 := by
  obtain ⟨e0, e1, e2, e3, e4, e5, e6, e7, e8, e9, e10, e11⟩ := idx_facts5 t
  apply Fin.ext
  show win5_5.index t (1 : Fin 2) * 128 + 1 * (y 1).val = (y 1).val; omega

/-- Each row window's one block is its whole array. -/
theorem emb5_1 (t : Fin cfg5.N) (j : Fin 128) : ((cfg5.win 1).blk t).view.emb (ix2 ⟨0, Nat.one_pos⟩ j) = ix2 ⟨0, Nat.one_pos⟩ j := by
  obtain ⟨e0, e1, e2, e3, e4, e5, e6, e7, e8, e9, e10, e11⟩ := idx_facts5 t
  funext a; apply Fin.ext
  match a with
  | ⟨0, _⟩ => show win5_1.index t (0 : Fin 2) * 1 + 1 * 0 = 0; omega
  | ⟨1, _⟩ => show win5_1.index t (1 : Fin 2) * 128 + 1 * j.val = j.val; omega
theorem emb5_2 (t : Fin cfg5.N) (j : Fin 128) : ((cfg5.win 2).blk t).view.emb (ix2 ⟨0, Nat.one_pos⟩ j) = ix2 ⟨0, Nat.one_pos⟩ j := by
  obtain ⟨e0, e1, e2, e3, e4, e5, e6, e7, e8, e9, e10, e11⟩ := idx_facts5 t
  funext a; apply Fin.ext
  match a with
  | ⟨0, _⟩ => show win5_2.index t (0 : Fin 2) * 1 + 1 * 0 = 0; omega
  | ⟨1, _⟩ => show win5_2.index t (1 : Fin 2) * 128 + 1 * j.val = j.val; omega
theorem emb5_3 (t : Fin cfg5.N) (j : Fin 128) : ((cfg5.win 3).blk t).view.emb (ix2 ⟨0, Nat.one_pos⟩ j) = ix2 ⟨0, Nat.one_pos⟩ j := by
  obtain ⟨e0, e1, e2, e3, e4, e5, e6, e7, e8, e9, e10, e11⟩ := idx_facts5 t
  funext a; apply Fin.ext
  match a with
  | ⟨0, _⟩ => show win5_3.index t (0 : Fin 2) * 1 + 1 * 0 = 0; omega
  | ⟨1, _⟩ => show win5_3.index t (1 : Fin 2) * 128 + 1 * j.val = j.val; omega
theorem emb5_4 (t : Fin cfg5.N) (j : Fin 128) : ((cfg5.win 4).blk t).view.emb (ix2 ⟨0, Nat.one_pos⟩ j) = ix2 ⟨0, Nat.one_pos⟩ j := by
  obtain ⟨e0, e1, e2, e3, e4, e5, e6, e7, e8, e9, e10, e11⟩ := idx_facts5 t
  funext a; apply Fin.ext
  match a with
  | ⟨0, _⟩ => show win5_4.index t (0 : Fin 2) * 1 + 1 * 0 = 0; omega
  | ⟨1, _⟩ => show win5_4.index t (1 : Fin 2) * 128 + 1 * j.val = j.val; omega

/-! ## What a point writes back -/

/-- What point `t` writes back is block `t` of `G5`. -/
theorem flushed5_5_eq (c : Dev nD) (t : Fin cfg5.N) :
    (dat5 V c).flushed 5 t = ((cfg5.win 5).blk t).view.read (Elt Ideal) (G5 V c) := by
  rw [flushed5_5_out, out5_5_eq]
  funext y
  rw [cut5_5_apply, read5_5, pay5_apply]
  have h0 : iblk5 V c 0 t y = in5_0 V c (((cfg5.win 5).blk t).view.emb y) :=
    (read5_0 V c t y).trans (congrArg (in5_0 V c) (emb5_0 t y))
  have h1 : iblk5 V c 1 t (ix2 ⟨0, Nat.one_pos⟩ (y 1)) = in5_1 V c (ix2 ⟨0, Nat.one_pos⟩ ((((cfg5.win 5).blk t).view.emb y) 1)) :=
    (read5_1 V c t _).trans (congrArg (in5_1 V c) ((emb5_1 t (y 1)).trans (congrArg (ix2 ⟨0, Nat.one_pos⟩) (col5 t y).symm)))
  have h2 : iblk5 V c 2 t (ix2 ⟨0, Nat.one_pos⟩ (y 1)) = in5_2 V c (ix2 ⟨0, Nat.one_pos⟩ ((((cfg5.win 5).blk t).view.emb y) 1)) :=
    (read5_2 V c t _).trans (congrArg (in5_2 V c) ((emb5_2 t (y 1)).trans (congrArg (ix2 ⟨0, Nat.one_pos⟩) (col5 t y).symm)))
  have h3 : iblk5 V c 3 t (ix2 ⟨0, Nat.one_pos⟩ (y 1)) = in5_3 V c (ix2 ⟨0, Nat.one_pos⟩ ((((cfg5.win 5).blk t).view.emb y) 1)) :=
    (read5_3 V c t _).trans (congrArg (in5_3 V c) ((emb5_3 t (y 1)).trans (congrArg (ix2 ⟨0, Nat.one_pos⟩) (col5 t y).symm)))
  have h4 : iblk5 V c 4 t (ix2 ⟨0, Nat.one_pos⟩ (y 1)) = in5_4 V c (ix2 ⟨0, Nat.one_pos⟩ ((((cfg5.win 5).blk t).view.emb y) 1)) :=
    (read5_4 V c t _).trans (congrArg (in5_4 V c) ((emb5_4 t (y 1)).trans (congrArg (ix2 ⟨0, Nat.one_pos⟩) (col5 t y).symm)))
  rw [h0, h1, h2, h3, h4]
  rfl

/-- An index of the array is in point `t`'s block iff each coordinate is in the block's range on its axis. -/
theorem mem_blk5 (t : Fin cfg5.N) (i : S100000x128.Idx) :
    i ∈ ((cfg5.win 5).blk t).view.set ↔ ∀ a : Fin 2, win5_5.index t a * S10000x128.size a ≤ (i a).val ∧ (i a).val < win5_5.index t a * S10000x128.size a + S10000x128.size a := by
  show i ∈ ((View.whole main_v59).slice (win5_5.rect t)).set ↔ _
  rw [View.set_slice_whole, Rect.mem_set_unit]
  exact Iff.rfl

/-- The ten row blocks cover the array: row `r` is in the block of point `r / 10000`. -/
theorem cover5_arr (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  obtain ⟨t, ht⟩ := idx_onto5 ⟨(i 0).val / 10000, by omega⟩
  have q0 : win5_5.index t (0 : Fin 2) = (i 0).val / 10000 := congrFun ht 0
  have q1 : win5_5.index t (1 : Fin 2) = 0 := congrFun ht 1
  refine ⟨t, flush5_5 t, ?_⟩
  rw [mem_blk5]
  intro a
  match a with
  | ⟨0, _⟩ => show win5_5.index t (0 : Fin 2) * 10000 ≤ (i 0).val ∧ (i 0).val < win5_5.index t (0 : Fin 2) * 10000 + 10000; omega
  | ⟨1, _⟩ => show win5_5.index t (1 : Fin 2) * 128 ≤ (i 1).val ∧ (i 1).val < win5_5.index t (1 : Fin 2) * 128 + 128; omega

/-- The output array after the region is `G5` of the arrays at its entry. -/
theorem arr5_5 (c : Dev nD) : (dat5 V c).arrAt 5 cfg5.N = G5 V c :=
  (dat5 V c).arrAt_eq_of_cover 5 (G5 V c) (fun t _ => flushed5_5_eq V c t) cover5_arr

/-- Entry (r, j) of the output array after the region: the batch normalisation and rectifier of the specification, of
    the feature array, the mean row, the variance row, the scale row and the shift row as the region finds them. -/
theorem final5 (c : Dev nD) (r : Fin 100000) (j : Fin 128) :
    (dat5 V c).arrAt 5 cfg5.N (ix2 r j)
      = Cert.Spec.bnRelu (fun r j => in5_0 V c (ix2 r j)) (fun j => in5_1 V c (ix2 0 j))
          (fun j => in5_2 V c (ix2 0 j)) (fun j => in5_3 V c (ix2 0 j))
          (fun j => in5_4 V c (ix2 0 j)) r j := by
  rw [arr5_5]
  rfl

end Cert.KernelIdeal.Hand
-- ==== Proof.KI.V6.lean ====
/- Region 6 of the kernel program read at the exact values: what its pipeline leaves in the output array, entry by
   entry, as a function of the arrays the region finds. -/
import proofs.«115763_j74259984548099_2_alg».proof.Proof.KI.R6
import proofs.«115763_j74259984548099_2_alg».proof.Proof.Spec
import Idealize.ShloMosaic.Lib.ValueIdx
import Idealize.ShloMosaic.Lib.Pipeline.Value
import Idealize.ShloMosaic.PureOps.Ideal.Laws
import proofs.«115763_j74259984548099_2_alg».proof.Proof.LibMatmulPlain
import proofs.«115763_j74259984548099_2_alg».proof.Proof.LibKeepdims

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The payload at an entry: the row of features against the column of weights, times the row's scale
    (rounding the operands to a narrower format changes nothing at the exact values; the product into the zero
    accumulator is the plain finite sum). -/
theorem pay6_apply (x0 : Vec Ideal S5000x128 .f32) (x1 : Vec Ideal S128x128 .f32) (x2 : Vec Ideal S5000x1 .f32) (i : Fin 5000) (j : Fin 128) :
    k6_pay1 x0 x1 x2 (ix2 i j) = (∑ k : Fin 128, x0 (ix2 i k) * x1 (ix2 k j)) * x2 (ix2 i (0 : Fin 1)) := by
  show (FloatOps.matmul (F := Ideal) (φ₁ := .bf16) (φ₂ := .bf16) (DotDims.plain 5000 128 128) none (shapeCast ⟨2, ![5000, 128]⟩ x0 shapeCasts_S5000x128_S5000x128) x1 (constant (F := Ideal) ⟨2, ![5000, 128]⟩ .f32 0x00000000#32) (ix2 i j) : EReal)
      * broadcastTo ⟨2, ![5000, 128]⟩ (shapeCast ⟨2, ![5000, 1]⟩ x2 shapeCasts_S5000x1_S5000x1) broadcasts_S5000x1_S5000x128 (ix2 i j) = _
  rw [Cert.LibMatmulPlain.matmul_zero_apply]
  simp only [shapeCast_self]
  rw [Cert.LibKeepdims.broadcastTo_a1_ab_apply]

variable (V : (c : Dev nD) → (b : Ref sig .tc) → Buf (Elt Ideal) ((c : Thread nD τ).loc b))

/-- The printed index maps over the grid: the row windows move one block of 5000 rows per point, the weights stay. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

/-- The feature window's block at point `t` holds rows `5000 t …` of its array. -/
theorem iblk6_0_apply (c : Dev nD) (t : Fin cfg6.N) (a : Fin 5000) (k : Fin 128) (h : t.val * 5000 + a.val < 100000) :
    iblk6 V c 0 t (ix2 a k) = V c (Pipeline.arrRef spec6 0) (ix2 ⟨t.val * 5000 + a.val, h⟩ k) := by
  obtain ⟨e0, e1, -⟩ := idx6 t
  unfold iblk6
  rw [View.read_apply]
  show V c (Pipeline.arrRef spec6 0) _ = V c (Pipeline.arrRef spec6 0) _
  refine congrArg _ (funext fun ax => Fin.ext ?_)
  match ax with
  | ⟨0, _⟩ => show win6_0.index t (0 : Fin 2) * 5000 + 1 * a.val = t.val * 5000 + a.val; rw [e0]; omega
  | ⟨1, _⟩ => show win6_0.index t (1 : Fin 2) * 128 + 1 * k.val = k.val; rw [e1]; omega

/-- The weights' window holds the whole array at every point. -/
theorem iblk6_1_apply (c : Dev nD) (t : Fin cfg6.N) (k : Fin 128) (j : Fin 128) :
    iblk6 V c 1 t (ix2 k j) = V c (Pipeline.arrRef spec6 1) (ix2 k j) := by
  obtain ⟨-, -, e0, e1, -⟩ := idx6 t
  unfold iblk6
  rw [View.read_apply]
  show V c (Pipeline.arrRef spec6 1) _ = V c (Pipeline.arrRef spec6 1) _
  refine congrArg _ (funext fun ax => Fin.ext ?_)
  match ax with
  | ⟨0, _⟩ => show win6_1.index t (0 : Fin 2) * 128 + 1 * k.val = k.val; rw [e0]; omega
  | ⟨1, _⟩ => show win6_1.index t (1 : Fin 2) * 128 + 1 * j.val = j.val; rw [e1]; omega

/-- The scale column's block at point `t` holds rows `5000 t …` of its array. -/
theorem iblk6_2_apply (c : Dev nD) (t : Fin cfg6.N) (a : Fin 5000) (u : Fin 1) (h : t.val * 5000 + a.val < 100000) :
    iblk6 V c 2 t (ix2 a u) = V c (Pipeline.arrRef spec6 2) (ix2 ⟨t.val * 5000 + a.val, h⟩ u) := by
  obtain ⟨-, -, -, -, e0, e1, -⟩ := idx6 t
  unfold iblk6
  rw [View.read_apply]
  show V c (Pipeline.arrRef spec6 2) _ = V c (Pipeline.arrRef spec6 2) _
  refine congrArg _ (funext fun ax => Fin.ext ?_)
  match ax with
  | ⟨0, _⟩ => show win6_2.index t (0 : Fin 2) * 5000 + 1 * a.val = t.val * 5000 + a.val; rw [e0]; omega
  | ⟨1, _⟩ => show win6_2.index t (1 : Fin 2) * 1 + 1 * u.val = u.val; rw [e1]; omega

/-- Where an entry of the output's block at point `t` sits in the array. -/
theorem emb6_3 (t : Fin cfg6.N) (a : Fin 5000) (b : Fin 128) (h : t.val * 5000 + a.val < 100000) :
    ((cfg6.win 3).blk t).view.emb (ix2 a b) = ix2 ⟨t.val * 5000 + a.val, h⟩ b := by
  obtain ⟨-, -, -, -, -, -, e0, e1⟩ := idx6 t
  refine funext fun ax => Fin.ext ?_
  match ax with
  | ⟨0, _⟩ => show win6_3.index t (0 : Fin 2) * 5000 + 1 * a.val = t.val * 5000 + a.val; rw [e0]; omega
  | ⟨1, _⟩ => show win6_3.index t (1 : Fin 2) * 128 + 1 * b.val = b.val; rw [e1]; omega

theorem N6_20 : cfg6.N = 20 := N_6

/-- The arrays the region finds, as matrices: the features, the weights, the scale column. -/
abbrev X6 (c : Dev nD) : Cert.Spec.Mat 100000 128 := fun r k => V c (Pipeline.arrRef spec6 0) (ix2 r k)
abbrev W6 (c : Dev nD) : Cert.Spec.Mat 128 128 := fun k j => V c (Pipeline.arrRef spec6 1) (ix2 k j)
abbrev D6 (c : Dev nD) : Fin 100000 → EReal := fun r => V c (Pipeline.arrRef spec6 2) (ix2 r (0 : Fin 1))

/-- What the region leaves in its output array, entry by entry, from the arrays it finds. -/
def G6 (c : Dev nD) : S100000x128.Idx → EReal := fun i =>
  Cert.Spec.hsK (X6 V c) (W6 V c) (D6 V c) ⟨(i 0).val, idx2_lt0 i⟩ ⟨(i 1).val, idx2_lt1 i⟩

theorem hz2_6 : (![0, 0] : Fin 2 → Nat) = fun _ => 0 := funext fun a => by fin_cases a <;> rfl

/-- What point `t` writes back is block `t` of `G6`. -/
theorem flushed6_eq (c : Dev nD) (t : Fin cfg6.N) :
    (dat6 (F := Ideal) V c).flushed 3 t = ((cfg6.win 3).blk t).view.read (Elt Ideal) (G6 V c) := by
  show (cfg6.win 3).cut (grid6.coords t) ((dat6 V c).after 3 t) = _
  rw [after6_3]
  unfold out6_3
  rw [View.canon_unit_zero hz2_6]
  simp only [View.ld_unit_zero (S := S5000x128) hz2_6, View.ld_unit_zero (S := S128x128) hz2_6, View.ld_unit_zero (S := S5000x1) hz2_6]
  funext y
  obtain ⟨a, b, rfl⟩ : ∃ (a : Fin 5000) (b : Fin 128), y = ix2 a b := ⟨y 0, y 1, eq_ix2 y⟩
  have ht : t.val < 20 := N6_20 ▸ t.isLt
  have h : t.val * 5000 + a.val < 100000 := by have := a.isLt; omega
  refine (pay6_apply _ _ _ a b).trans ?_
  rw [View.read_apply, emb6_3 t a b h, iblk6_2_apply V c t a 0 h]
  show _ = Cert.Spec.hsK (X6 V c) (W6 V c) (D6 V c) ⟨t.val * 5000 + a.val, h⟩ b
  unfold Cert.Spec.hsK Cert.Spec.dense
  refine congrArg (· * _) (Finset.sum_congr rfl fun k _ => ?_)
  rw [iblk6_0_apply V c t a k h, iblk6_1_apply V c t k b]

/-- THE ARRAY after the region: every entry is the dense map's entry times its row's scale. Row `r` lies in the block
    of point `r / 5000`, which wrote it back. -/
theorem final6 (c : Dev nD) (r : Fin 100000) (j : Fin 128) :
    (dat6 (F := Ideal) V c).arrAt 3 cfg6.N (ix2 r j) = Cert.Spec.hsK (X6 V c) (W6 V c) (D6 V c) r j := by
  have hr := r.isLt
  have hq : r.val / 5000 < cfg6.N := by rw [N6_20]; omega
  have h : (⟨r.val / 5000, hq⟩ : Fin cfg6.N).val * 5000 + (⟨r.val % 5000, Nat.mod_lt _ (by decide)⟩ : Fin 5000).val < 100000 := by
    show r.val / 5000 * 5000 + r.val % 5000 < 100000; omega
  have hmem : ix2 r j ∈ ((cfg6.win 3).blk ⟨r.val / 5000, hq⟩).view.set := by
    have e : ix2 r j = ((cfg6.win 3).blk ⟨r.val / 5000, hq⟩).view.emb (ix2 ⟨r.val % 5000, Nat.mod_lt _ (by decide)⟩ j) := by
      rw [emb6_3 ⟨r.val / 5000, hq⟩ ⟨r.val % 5000, Nat.mod_lt _ (by decide)⟩ j h]
      refine congrArg (fun x => ix2 x j) (Fin.ext ?_)
      show r.val = r.val / 5000 * 5000 + r.val % 5000; omega
    rw [e]; exact View.emb_mem_set _ _
  exact (dat6 V c).arrAt_apply_of_mem 3 (G6 V c) (fun t _ => flushed6_eq V c t) cfg6.N ⟨r.val / 5000, hq⟩ (ix2 r j) hq (flush6_3 _) hmem

end Cert.KernelIdeal.Hand

end
-- ==== Proof.KI.V7.lean ====
import proofs.«115763_j74259984548099_2_alg».proof.Proof.KI.R7
import proofs.«115763_j74259984548099_2_alg».proof.Proof.Spec
import Idealize.ShloMosaic.Lib.ValueIdx
import Idealize.ShloMosaic.Lib.Pipeline.Value
import Idealize.ShloMosaic.PureOps.Ideal.Laws
import proofs.«115763_j74259984548099_2_alg».proof.Proof.LibAxisSum
import proofs.«115763_j74259984548099_2_alg».proof.Proof.LibTiledTotals
import proofs.«115763_j74259984548099_2_alg».proof.Proof.LibKeepdims
import proofs.«115763_j74259984548099_2_alg».proof.Proof.LibBiasRows

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! # Region 7: what the three outputs hold after the run, on the extended reals -/

theorem hz_v7 : (![0, 0] : Fin 2 → Nat) = fun _ => 0 := funext fun a => by fin_cases a <;> rfl

/-! ## Each case's pieces read as payloads of the contents handed in -/

theorem runB_canon7 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : ¬cond7_1 i)
    (x0 : Vec Ideal S5000x128 .f32) (x1 : Vec Ideal S5000x128 .f32) (x2 : Vec Ideal S5000x1 .f32) (x3 : Vec Ideal S1x128 .f32) (xs0 xs1 : Vec Ideal S1x128 .f32) :
    View.canon (kernelRun7_B (F := Ideal) c i arg1 harg1 arg2 harg2 arg3 harg3 arg4 harg4 arg5 harg5 arg6 harg6 arg7 harg7 arg8 harg8 arg9 harg9 hc0 hc1 x0 x1 x2 x3 xs0 xs1).1 = k7_pay3 x2 x0 x1 x3
    ∧ View.canon (kernelRun7_B (F := Ideal) c i arg1 harg1 arg2 harg2 arg3 harg3 arg4 harg4 arg5 harg5 arg6 harg6 arg7 harg7 arg8 harg8 arg9 harg9 hc0 hc1 x0 x1 x2 x3 xs0 xs1).2.1 = k7_pay4 x2 x0 x1 x3 xs0
    ∧ View.canon (kernelRun7_B (F := Ideal) c i arg1 harg1 arg2 harg2 arg3 harg3 arg4 harg4 arg5 harg5 arg6 harg6 arg7 harg7 arg8 harg8 arg9 harg9 hc0 hc1 x0 x1 x2 x3 xs0 xs1).2.2.1 = k7_pay5 x2 x0 x1 x3 xs1 := by
  unfold kernelRun7_B
  dsimp only
  simp only [View.canon_unit_zero (S := S5000x128) hz_v7, View.canon_unit_zero (S := S1x128) hz_v7, View.canon_cons_unit_zero (S := S1x128) hz_v7,
    View.readCov_unit_zero (S := S1x128) _ hz_v7, View.readAt_eq_ld, Memref.IsWhole.read_unread,
    View.ld_unit_zero (S := S5000x128) hz_v7, View.ld_unit_zero (S := S5000x1) hz_v7, View.ld_unit_zero (S := S1x128) hz_v7]
  exact ⟨trivial, trivial, trivial⟩

theorem runA_canon7 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond7_0 i) (hc1 : ¬cond7_1 i)
    (x0 : Vec Ideal S5000x128 .f32) (x1 : Vec Ideal S5000x128 .f32) (x2 : Vec Ideal S5000x1 .f32) (x3 : Vec Ideal S1x128 .f32) :
    View.canon (kernelRun7_A (F := Ideal) c i arg1 harg1 arg2 harg2 arg3 harg3 arg4 harg4 arg5 harg5 arg6 harg6 arg7 harg7 arg8 harg8 arg9 harg9 hc0 hc1 x0 x1 x2 x3).1 = k7_pay3 x2 x0 x1 x3
    ∧ View.canon (kernelRun7_A (F := Ideal) c i arg1 harg1 arg2 harg2 arg3 harg3 arg4 harg4 arg5 harg5 arg6 harg6 arg7 harg7 arg8 harg8 arg9 harg9 hc0 hc1 x0 x1 x2 x3).2.1 = k7_pay4 x2 x0 x1 x3 (k7_pay1 (F := Ideal))
    ∧ View.canon (kernelRun7_A (F := Ideal) c i arg1 harg1 arg2 harg2 arg3 harg3 arg4 harg4 arg5 harg5 arg6 harg6 arg7 harg7 arg8 harg8 arg9 harg9 hc0 hc1 x0 x1 x2 x3).2.2.1 = k7_pay5 x2 x0 x1 x3 (k7_pay2 (F := Ideal)) := by
  unfold kernelRun7_A
  dsimp only
  sl_unfold_words
  simp only [View.canon_unit_zero (S := S5000x128) hz_v7, View.canon_unit_zero (S := S1x128) hz_v7, View.canon_cons_unit_zero (S := S1x128) hz_v7,
    View.readCov_unit_zero (S := S1x128) _ hz_v7, View.readAt_eq_ld, Memref.IsWhole.read_unread,
    View.ld_unit_zero (S := S5000x128) hz_v7, View.ld_unit_zero (S := S5000x1) hz_v7, View.ld_unit_zero (S := S1x128) hz_v7]
  exact ⟨trivial, trivial, trivial⟩

theorem runC_canon7 (c : Dev nD) (i : grid7.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond7_0 i) (hc1 : cond7_1 i)
    (x0 : Vec Ideal S5000x128 .f32) (x1 : Vec Ideal S5000x128 .f32) (x2 : Vec Ideal S5000x1 .f32) (x3 : Vec Ideal S1x128 .f32) (xs0 xs1 : Vec Ideal S1x128 .f32) :
    View.canon (kernelRun7_C (F := Ideal) c i arg1 harg1 arg2 harg2 arg3 harg3 arg4 harg4 arg5 harg5 arg6 harg6 arg7 harg7 arg8 harg8 arg9 harg9 hc0 hc1 x0 x1 x2 x3 xs0 xs1).1 = k7_pay3 x2 x0 x1 x3
    ∧ View.canon (kernelRun7_C (F := Ideal) c i arg1 harg1 arg2 harg2 arg3 harg3 arg4 harg4 arg5 harg5 arg6 harg6 arg7 harg7 arg8 harg8 arg9 harg9 hc0 hc1 x0 x1 x2 x3 xs0 xs1).2.1 = k7_pay4 x2 x0 x1 x3 xs0
    ∧ View.canon (kernelRun7_C (F := Ideal) c i arg1 harg1 arg2 harg2 arg3 harg3 arg4 harg4 arg5 harg5 arg6 harg6 arg7 harg7 arg8 harg8 arg9 harg9 hc0 hc1 x0 x1 x2 x3 xs0 xs1).2.2.1 = k7_pay5 x2 x0 x1 x3 xs1
    ∧ View.canon (kernelRun7_C (F := Ideal) c i arg1 harg1 arg2 harg2 arg3 harg3 arg4 harg4 arg5 harg5 arg6 harg6 arg7 harg7 arg8 harg8 arg9 harg9 hc0 hc1 x0 x1 x2 x3 xs0 xs1).2.2.2.1 = k7_pay4 x2 x0 x1 x3 xs0
    ∧ View.canon (kernelRun7_C (F := Ideal) c i arg1 harg1 arg2 harg2 arg3 harg3 arg4 harg4 arg5 harg5 arg6 harg6 arg7 harg7 arg8 harg8 arg9 harg9 hc0 hc1 x0 x1 x2 x3 xs0 xs1).2.2.2.2.1 = k7_pay5 x2 x0 x1 x3 xs1 := by
  unfold kernelRun7_C
  dsimp only
  sl_unfold_words
  simp only [View.canon_unit_zero (S := S5000x128) hz_v7, View.canon_unit_zero (S := S1x128) hz_v7, View.canon_cons_unit_zero (S := S1x128) hz_v7,
    View.readCov_unit_zero (S := S1x128) _ hz_v7, View.readAt_eq_ld, Memref.IsWhole.read_unread,
    View.ld_unit_zero (S := S5000x128) hz_v7, View.ld_unit_zero (S := S5000x1) hz_v7, View.ld_unit_zero (S := S1x128) hz_v7]
  exact ⟨trivial, trivial, trivial, trivial, trivial⟩

/-! ## Each case's contents in closed form: the payloads over the point's blocks -/

/-- The combined block of point `t`: the scaled sum of the two row blocks plus the bias row. -/
def aggBlk7 (c : Dev nD) (t : Fin cfg7.N) : Vec Ideal S5000x128 .f32 :=
  k7_pay3 (iblk7 V c 2 t) (iblk7 V c 0 t) (iblk7 V c 1 t) (iblk7 V c 3 t)

theorem outB7_eq (c : Dev nD) (t : Fin cfg7.N) (h0 : ¬t.val % 20 = 0) (h1 : ¬t.val % 20 = 19) (xs0 xs1 : Vec Ideal S1x128 .f32) :
    outB7 V c t h0 h1 xs0 xs1 = (aggBlk7 V c t, idleOut7, idleOut7, k7_pay4 (iblk7 V c 2 t) (iblk7 V c 0 t) (iblk7 V c 1 t) (iblk7 V c 3 t) xs0, k7_pay5 (iblk7 V c 2 t) (iblk7 V c 0 t) (iblk7 V c 1 t) (iblk7 V c 3 t) xs1) := by
  have e := runB_canon7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) xs0 xs1
  unfold outB7 runB7 aggBlk7
  rw [e.1, e.2.1, e.2.2]

theorem outA7_eq (c : Dev nD) (t : Fin cfg7.N) (h0 : t.val % 20 = 0) (h1 : ¬t.val % 20 = 19) :
    outA7 V c t h0 h1 = (aggBlk7 V c t, idleOut7, idleOut7, k7_pay4 (iblk7 V c 2 t) (iblk7 V c 0 t) (iblk7 V c 1 t) (iblk7 V c 3 t) (k7_pay1 (F := Ideal)), k7_pay5 (iblk7 V c 2 t) (iblk7 V c 0 t) (iblk7 V c 1 t) (iblk7 V c 3 t) (k7_pay2 (F := Ideal))) := by
  have e := runA_canon7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t)
  unfold outA7 runA7 aggBlk7
  rw [e.1, e.2.1, e.2.2]

theorem outC7_eq (c : Dev nD) (t : Fin cfg7.N) (h0 : ¬t.val % 20 = 0) (h1 : t.val % 20 = 19) (xs0 xs1 : Vec Ideal S1x128 .f32) :
    outC7 V c t h0 h1 xs0 xs1 = (aggBlk7 V c t, k7_pay4 (iblk7 V c 2 t) (iblk7 V c 0 t) (iblk7 V c 1 t) (iblk7 V c 3 t) xs0, k7_pay5 (iblk7 V c 2 t) (iblk7 V c 0 t) (iblk7 V c 1 t) (iblk7 V c 3 t) xs1,
      k7_pay4 (iblk7 V c 2 t) (iblk7 V c 0 t) (iblk7 V c 1 t) (iblk7 V c 3 t) xs0, k7_pay5 (iblk7 V c 2 t) (iblk7 V c 0 t) (iblk7 V c 1 t) (iblk7 V c 3 t) xs1) := by
  have e := runC_canon7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) xs0 xs1
  unfold outC7 runC7 aggBlk7
  exact congr (congrArg Prod.mk e.1) (congr (congrArg Prod.mk e.2.1) (congr (congrArg Prod.mk e.2.2.1) (congr (congrArg Prod.mk e.2.2.2.1) e.2.2.2.2)))

/-! ## The region-entry arrays, and each block as rows of its array -/

/-- The four input arrays as the region finds them. -/
def arrM7 (c : Dev nD) : S100000x128.Idx → EReal := V c (Pipeline.arrRef spec7 0)
def arrH7 (c : Dev nD) : S100000x128.Idx → EReal := V c (Pipeline.arrRef spec7 1)
def arrD7 (c : Dev nD) : S100000x1.Idx → EReal := V c (Pipeline.arrRef spec7 2)
def arrB7 (c : Dev nD) : S1x128.Idx → EReal := V c (Pipeline.arrRef spec7 3)

/-- The block indices of the windows, in closed form over the grid. -/
theorem idx7_0 : ∀ t : Fin cfg7.N, win7_0.index t 0 = t.val ∧ win7_0.index t 1 = 0 :=
  (by decide +kernel : ∀ t : Fin grid7.N, win7_0.index t 0 = t.val ∧ win7_0.index t 1 = 0)
theorem idx7_1 : ∀ t : Fin cfg7.N, win7_1.index t 0 = t.val ∧ win7_1.index t 1 = 0 :=
  (by decide +kernel : ∀ t : Fin grid7.N, win7_1.index t 0 = t.val ∧ win7_1.index t 1 = 0)
theorem idx7_2 : ∀ t : Fin cfg7.N, win7_2.index t 0 = t.val ∧ win7_2.index t 1 = 0 :=
  (by decide +kernel : ∀ t : Fin grid7.N, win7_2.index t 0 = t.val ∧ win7_2.index t 1 = 0)
theorem idx7_3 : ∀ t : Fin cfg7.N, win7_3.index t 0 = 0 ∧ win7_3.index t 1 = 0 :=
  (by decide +kernel : ∀ t : Fin grid7.N, win7_3.index t 0 = 0 ∧ win7_3.index t 1 = 0)
theorem idx7_4 : ∀ t : Fin cfg7.N, win7_4.index t 0 = t.val ∧ win7_4.index t 1 = 0 :=
  (by decide +kernel : ∀ t : Fin grid7.N, win7_4.index t 0 = t.val ∧ win7_4.index t 1 = 0)
theorem idx7_5 : ∀ t : Fin cfg7.N, win7_5.index t 0 = 0 ∧ win7_5.index t 1 = 0 :=
  (by decide +kernel : ∀ t : Fin grid7.N, win7_5.index t 0 = 0 ∧ win7_5.index t 1 = 0)
theorem idx7_6 : ∀ t : Fin cfg7.N, win7_6.index t 0 = 0 ∧ win7_6.index t 1 = 0 :=
  (by decide +kernel : ∀ t : Fin grid7.N, win7_6.index t 0 = 0 ∧ win7_6.index t 1 = 0)

/-- Window 0's block at point `t` is rows `5000 t … 5000 t + 4999` of its array. -/
theorem iblk7_0_apply (c : Dev nD) (t : Fin cfg7.N) (x : S5000x128.Idx) (k : S100000x128.Idx)
    (hk0 : (k 0).val = t.val * 5000 + (x 0).val) (hk1 : (k 1).val = (x 1).val) :
    (iblk7 V c 0 t : Vec Ideal S5000x128 .f32) x = arrM7 V c k := by
  have hi := idx7_0 t
  unfold iblk7 arrM7
  rw [View.read_apply]
  show (V c (Pipeline.arrRef spec7 0) : S100000x128.Idx → EReal) _ = (V c (Pipeline.arrRef spec7 0) : S100000x128.Idx → EReal) k
  congr 1
  funext a
  apply Fin.ext
  match a with
  | ⟨0, _⟩ => show win7_0.index t 0 * 5000 + 1 * (x 0).val = (k 0).val; rw [hi.1, hk0]; omega
  | ⟨1, _⟩ => show win7_0.index t 1 * 128 + 1 * (x 1).val = (k 1).val; rw [hi.2, hk1]; omega

theorem iblk7_1_apply (c : Dev nD) (t : Fin cfg7.N) (x : S5000x128.Idx) (k : S100000x128.Idx)
    (hk0 : (k 0).val = t.val * 5000 + (x 0).val) (hk1 : (k 1).val = (x 1).val) :
    (iblk7 V c 1 t : Vec Ideal S5000x128 .f32) x = arrH7 V c k := by
  have hi := idx7_1 t
  unfold iblk7 arrH7
  rw [View.read_apply]
  show (V c (Pipeline.arrRef spec7 1) : S100000x128.Idx → EReal) _ = (V c (Pipeline.arrRef spec7 1) : S100000x128.Idx → EReal) k
  congr 1
  funext a
  apply Fin.ext
  match a with
  | ⟨0, _⟩ => show win7_1.index t 0 * 5000 + 1 * (x 0).val = (k 0).val; rw [hi.1, hk0]; omega
  | ⟨1, _⟩ => show win7_1.index t 1 * 128 + 1 * (x 1).val = (k 1).val; rw [hi.2, hk1]; omega

theorem iblk7_2_apply (c : Dev nD) (t : Fin cfg7.N) (x : S5000x1.Idx) (k : S100000x1.Idx)
    (hk0 : (k 0).val = t.val * 5000 + (x 0).val) (hk1 : (k 1).val = (x 1).val) :
    (iblk7 V c 2 t : Vec Ideal S5000x1 .f32) x = arrD7 V c k := by
  have hi := idx7_2 t
  unfold iblk7 arrD7
  rw [View.read_apply]
  show (V c (Pipeline.arrRef spec7 2) : S100000x1.Idx → EReal) _ = (V c (Pipeline.arrRef spec7 2) : S100000x1.Idx → EReal) k
  congr 1
  funext a
  apply Fin.ext
  match a with
  | ⟨0, _⟩ => show win7_2.index t 0 * 5000 + 1 * (x 0).val = (k 0).val; rw [hi.1, hk0]; omega
  | ⟨1, _⟩ => show win7_2.index t 1 * 1 + 1 * (x 1).val = (k 1).val; rw [hi.2, hk1]; omega

theorem iblk7_3_apply (c : Dev nD) (t : Fin cfg7.N) (x : S1x128.Idx) :
    (iblk7 V c 3 t : Vec Ideal S1x128 .f32) x = arrB7 V c x := by
  have hi := idx7_3 t
  unfold iblk7 arrB7
  rw [View.read_apply]
  show (V c (Pipeline.arrRef spec7 3) : S1x128.Idx → EReal) _ = (V c (Pipeline.arrRef spec7 3) : S1x128.Idx → EReal) x
  congr 1
  funext a
  apply Fin.ext
  match a with
  | ⟨0, _⟩ => show win7_3.index t 0 * 1 + 1 * (x 0).val = (x 0).val; rw [hi.1]; omega
  | ⟨1, _⟩ => show win7_3.index t 1 * 128 + 1 * (x 1).val = (x 1).val; rw [hi.2]; omega

/-! ## The payloads at an index -/

/-- The combined block at `(y, j)`: the row's scale times the sum of the two entries, plus the bias entry. -/
theorem pay3_apply7 (v3 : Vec Ideal S5000x1 .f32) (v5 v7 : Vec Ideal S5000x128 .f32) (v12 : Vec Ideal S1x128 .f32) (y : Fin 5000) (j : Fin 128) :
    k7_pay3 v3 v5 v7 v12 (ix2 y j) = v3 (ix2 y 0) * (v5 (ix2 y j) + v7 (ix2 y j)) + v12 (ix2 0 j) := by
  unfold k7_pay3
  simp only [shapeCast_self]
  show broadcastTo S5000x128 v3 _ (ix2 y j) * (v5 (ix2 y j) + v7 (ix2 y j)) + broadcastTo S5000x128 v12 _ (ix2 y j) = _
  rw [Cert.LibKeepdims.broadcastTo_a1_ab_apply, Cert.LibBiasRows.row_broadcast]
  rfl

/-- The sum accumulator after a point, at column `j`: what it held plus the block's column total. -/
theorem pay4_apply7 (v3 : Vec Ideal S5000x1 .f32) (v5 v7 : Vec Ideal S5000x128 .f32) (v12 v17 : Vec Ideal S1x128 .f32) (j : Fin 128) :
    k7_pay4 v3 v5 v7 v12 v17 (ix2 0 j) = v17 (ix2 0 j) + ∑ y : Fin 5000, k7_pay3 v3 v5 v7 v12 (ix2 y j) := by
  unfold k7_pay4
  simp only [shapeCast_self]
  show v17 (ix2 0 j) + shapeCast S1x128 _ _ (ix2 ⟨0, Nat.one_pos⟩ j) = _
  rw [Cert.LibBiasRows.row_of_vector]
  exact congrArg (fun z => v17 (ix2 0 j) + z) (Cert.LibAxisSum.sum_first (n := 5000) (d := 128) _ _ _ _ _ j)

/-- The sum-of-squares accumulator likewise. -/
theorem pay5_apply7 (v3 : Vec Ideal S5000x1 .f32) (v5 v7 : Vec Ideal S5000x128 .f32) (v12 v24 : Vec Ideal S1x128 .f32) (j : Fin 128) :
    k7_pay5 v3 v5 v7 v12 v24 (ix2 0 j) = v24 (ix2 0 j) + ∑ y : Fin 5000, k7_pay3 v3 v5 v7 v12 (ix2 y j) * k7_pay3 v3 v5 v7 v12 (ix2 y j) := by
  unfold k7_pay5
  simp only [shapeCast_self]
  show v24 (ix2 0 j) + shapeCast S1x128 _ _ (ix2 ⟨0, Nat.one_pos⟩ j) = _
  rw [Cert.LibBiasRows.row_of_vector]
  exact congrArg (fun z => v24 (ix2 0 j) + z) (Cert.LibAxisSum.sum_first (n := 5000) (d := 128) _ _ _ _ _ j)

/-- The zero fill of either accumulator. -/
theorem pay1_apply7 (i : S1x128.Idx) : (k7_pay1 (F := Ideal) : Vec Ideal S1x128 .f32) i = 0 := by
  unfold k7_pay1
  simp only [shapeCast_self]
  show Ideal.ofBits .f32 0x00000000#32 = 0
  exact Ideal.ofBits_zero_f32
theorem pay2_apply7 (i : S1x128.Idx) : (k7_pay2 (F := Ideal) : Vec Ideal S1x128 .f32) i = 0 := by
  unfold k7_pay2
  simp only [shapeCast_self]
  show Ideal.ofBits .f32 0x00000000#32 = 0
  exact Ideal.ofBits_zero_f32

/-! ## The combined matrix, and each point's block as its rows -/

theorem h20_7 : 100000 = (19 + 1) * 5000 := by norm_num

/-- The combined matrix over the region-entry arrays. -/
def agg7 (c : Dev nD) : Cert.Spec.Mat 100000 128 :=
  Cert.Spec.combine (fun r j => arrM7 V c (ix2 r j)) (fun r j => arrH7 V c (ix2 r j)) (fun r => arrD7 V c (ix2 r 0)) (fun j => arrB7 V c (ix2 0 j))

/-- Point `t`'s combined block is rows `5000 t …` of the combined matrix. -/
theorem aggBlk7_apply (c : Dev nD) (t : Fin cfg7.N) (y : Fin 5000) (j : Fin 128) (r : Fin 100000) (hr : r.val = t.val * 5000 + y.val) :
    aggBlk7 V c t (ix2 y j) = agg7 V c r j := by
  unfold aggBlk7 agg7 Cert.Spec.combine
  rw [pay3_apply7, iblk7_2_apply V c t (ix2 y 0) (ix2 r 0) hr rfl, iblk7_0_apply V c t (ix2 y j) (ix2 r j) hr rfl,
    iblk7_1_apply V c t (ix2 y j) (ix2 r j) hr rfl, iblk7_3_apply]

/-- Whatever the case, the aggregate output's buffer after point `t` is the point's combined block. -/
theorem outs7_4 (c : Dev nD) (t : Fin cfg7.N) : (outsAt7 V c t.val t.isLt).1 = aggBlk7 V c t := by
  have hN : t.val < 20 := lt_of_lt_of_eq t.isLt (show cfg7.N = 20 from N_7)
  by_cases h0 : t.val % 20 = 0
  · have h1 : ¬t.val % 20 = 19 := by omega
    rw [outsAt7_A V c t h0 h1, outA7_eq]
  · by_cases h1 : t.val % 20 = 19
    · rw [outsAt7_C V c t h0 h1, outC7_eq]
    · rw [outsAt7_B V c t h0 h1, outB7_eq]

/-! ## The two accumulators, point by point -/

/-- Tile `t` as a grid point. -/
def pt7 (t : Fin 20) : Fin cfg7.N := ⟨t.val, lt_of_lt_of_eq t.isLt (show cfg7.N = 20 from N_7).symm⟩

theorem pt7_val (t : Fin 20) : (pt7 t).val = t.val := rfl
theorem pt7_zero_mod : (pt7 0).val % 20 = 0 := by rw [pt7_val]; rfl
theorem pt7_zero_ne : ¬(pt7 0).val % 20 = 19 := by rw [pt7_val]; decide

/-- The sum accumulator after tile `t`, by column. -/
def acc0_7 (c : Dev nD) (t : Fin 20) : Fin 128 → EReal := fun j => (outsAt7 V c (pt7 t).val (pt7 t).isLt).2.2.2.1 (ix2 0 j)
/-- The sum-of-squares accumulator after tile `t`, by column. -/
def acc1_7 (c : Dev nD) (t : Fin 20) : Fin 128 → EReal := fun j => (outsAt7 V c (pt7 t).val (pt7 t).isLt).2.2.2.2 (ix2 0 j)

theorem acc0_7_zero (c : Dev nD) (j : Fin 128) :
    acc0_7 V c 0 j = 0 + ∑ y : Fin 5000, agg7 V c (Cert.LibBatchNorm.rowOf h20_7 0 y) j := by
  unfold acc0_7
  rw [outsAt7_A V c (pt7 0) (pt7_zero_mod) (pt7_zero_ne), outA7_eq]
  dsimp only
  rw [pay4_apply7, pay1_apply7]
  exact congrArg (fun z => (0 : EReal) + z) (Finset.sum_congr rfl fun y _ => aggBlk7_apply V c (pt7 0) y j _ rfl)

theorem acc1_7_zero (c : Dev nD) (j : Fin 128) :
    acc1_7 V c 0 j = 0 + ∑ y : Fin 5000, agg7 V c (Cert.LibBatchNorm.rowOf h20_7 0 y) j * agg7 V c (Cert.LibBatchNorm.rowOf h20_7 0 y) j := by
  unfold acc1_7
  rw [outsAt7_A V c (pt7 0) (pt7_zero_mod) (pt7_zero_ne), outA7_eq]
  dsimp only
  rw [pay5_apply7, pay2_apply7]
  exact congrArg (fun z => (0 : EReal) + z) (Finset.sum_congr rfl fun y _ => congrArg₂ (· * ·) (aggBlk7_apply V c (pt7 0) y j _ rfl) (aggBlk7_apply V c (pt7 0) y j _ rfl))

theorem acc0_7_succ (c : Dev nD) (t : Fin 19) (j : Fin 128) :
    acc0_7 V c t.succ j = acc0_7 V c t.castSucc j + ∑ y : Fin 5000, agg7 V c (Cert.LibBatchNorm.rowOf h20_7 t.succ y) j := by
  unfold acc0_7
  have hv : (pt7 t.succ).val = t.val + 1 := rfl
  have hlt : t.val < 19 := t.isLt
  by_cases h1 : (pt7 t.succ).val % 20 = 19
  · rw [outsAt7_C V c (pt7 t.succ) (by rw [hv]; omega) h1, outC7_eq]
    dsimp only
    rw [pay4_apply7]
    exact congrArg (fun z => (outsAt7 V c t.val (pt7 t.castSucc).isLt).2.2.2.1 (ix2 0 j) + z)
      (Finset.sum_congr rfl fun y _ => aggBlk7_apply V c (pt7 t.succ) y j _ rfl)
  · rw [outsAt7_B V c (pt7 t.succ) (by rw [hv]; omega) h1, outB7_eq]
    dsimp only
    rw [pay4_apply7]
    exact congrArg (fun z => (outsAt7 V c t.val (pt7 t.castSucc).isLt).2.2.2.1 (ix2 0 j) + z)
      (Finset.sum_congr rfl fun y _ => aggBlk7_apply V c (pt7 t.succ) y j _ rfl)

theorem acc1_7_succ (c : Dev nD) (t : Fin 19) (j : Fin 128) :
    acc1_7 V c t.succ j = acc1_7 V c t.castSucc j
      + ∑ y : Fin 5000, agg7 V c (Cert.LibBatchNorm.rowOf h20_7 t.succ y) j * agg7 V c (Cert.LibBatchNorm.rowOf h20_7 t.succ y) j := by
  unfold acc1_7
  have hv : (pt7 t.succ).val = t.val + 1 := rfl
  have hlt : t.val < 19 := t.isLt
  by_cases h1 : (pt7 t.succ).val % 20 = 19
  · rw [outsAt7_C V c (pt7 t.succ) (by rw [hv]; omega) h1, outC7_eq]
    dsimp only
    rw [pay5_apply7]
    exact congrArg (fun z => (outsAt7 V c t.val (pt7 t.castSucc).isLt).2.2.2.2 (ix2 0 j) + z)
      (Finset.sum_congr rfl fun y _ => congrArg₂ (· * ·) (aggBlk7_apply V c (pt7 t.succ) y j _ rfl) (aggBlk7_apply V c (pt7 t.succ) y j _ rfl))
  · rw [outsAt7_B V c (pt7 t.succ) (by rw [hv]; omega) h1, outB7_eq]
    dsimp only
    rw [pay5_apply7]
    exact congrArg (fun z => (outsAt7 V c t.val (pt7 t.castSucc).isLt).2.2.2.2 (ix2 0 j) + z)
      (Finset.sum_congr rfl fun y _ => congrArg₂ (· * ·) (aggBlk7_apply V c (pt7 t.succ) y j _ rfl) (aggBlk7_apply V c (pt7 t.succ) y j _ rfl))

/-- After the last tile the sum accumulator holds each column's total over all the rows. -/
theorem acc0_7_last (c : Dev nD) (j : Fin 128) : acc0_7 V c (Fin.last 19) j = ∑ r : Fin 100000, agg7 V c r j :=
  (Cert.LibTiledTotals.tiled_total (T := 19) (B := 5000) h20_7 (agg7 V c)
    (fun t j => ∑ y : Fin 5000, agg7 V c (Cert.LibBatchNorm.rowOf h20_7 t y) j) (fun _ _ => rfl)
    (acc0_7 V c) (acc0_7_zero V c) (acc0_7_succ V c) j).trans (zero_add _)

/-- And the other accumulator each column's total of squares. -/
theorem acc1_7_last (c : Dev nD) (j : Fin 128) : acc1_7 V c (Fin.last 19) j = ∑ r : Fin 100000, agg7 V c r j * agg7 V c r j :=
  (Cert.LibTiledTotals.tiled_total_sq (T := 19) (B := 5000) h20_7 (agg7 V c)
    (fun t j => ∑ y : Fin 5000, agg7 V c (Cert.LibBatchNorm.rowOf h20_7 t y) j * agg7 V c (Cert.LibBatchNorm.rowOf h20_7 t y) j) (fun _ _ => rfl)
    (acc1_7 V c) (acc1_7_zero V c) (acc1_7_succ V c) j).trans (zero_add _)

/-! ## The three output arrays after the run -/

/-- The aggregate array as one function of the entry arrays. -/
def G4_7 (c : Dev nD) : S100000x128.Idx → EReal := fun i => agg7 V c (i 0) (i 1)
/-- The column totals, and the column totals of squares. -/
def G5_7 (c : Dev nD) : S1x128.Idx → EReal := fun i => ∑ r : Fin 100000, agg7 V c r (i 1)
def G6_7 (c : Dev nD) : S1x128.Idx → EReal := fun i => ∑ r : Fin 100000, agg7 V c r (i 1) * agg7 V c r (i 1)

/-- What point `t` writes back to the aggregate array is its block of `G4_7`. -/
theorem flushed7_4 (c : Dev nD) (t : Fin cfg7.N) :
    (dat7 (F := Ideal) V c).flushed 4 t = ((cfg7.win 4).blk t).view.read (Elt Ideal) (G4_7 V c) := by
  show (cfg7.win 4).cut (grid7.coords t) ((dat7 (F := Ideal) V c).after 4 t) = _
  rw [after7_4, outs7_4]
  funext x
  rw [View.read_apply]
  have hi := idx7_4 t
  obtain ⟨y, j, rfl⟩ : ∃ (y : Fin 5000) (j : Fin 128), x = ix2 y j := ⟨x 0, x 1, funext fun a => by fin_cases a <;> rfl⟩
  show aggBlk7 V c t (ix2 y j) = agg7 V c ((((cfg7.win 4).blk t).view.emb (ix2 y j)) 0) ((((cfg7.win 4).blk t).view.emb (ix2 y j)) 1)
  have hj : (((cfg7.win 4).blk t).view.emb (ix2 y j)) 1 = j := Fin.ext (by
    show win7_4.index t 1 * 128 + 1 * j.val = j.val; rw [hi.2]; omega)
  rw [hj]
  exact aggBlk7_apply V c t y j _ (by show win7_4.index t 0 * 5000 + 1 * y.val = t.val * 5000 + y.val; rw [hi.1]; omega)

/-- At the last point the two statistics outputs hold the accumulators. -/
theorem outs7_5 (c : Dev nD) (t : Fin cfg7.N) (h0 : ¬t.val % 20 = 0) (h1 : t.val % 20 = 19) :
    (outsAt7 V c t.val t.isLt).2.1 = (outsAt7 V c t.val t.isLt).2.2.2.1 := by
  rw [outsAt7_C V c t h0 h1, outC7_eq]
theorem outs7_6 (c : Dev nD) (t : Fin cfg7.N) (h0 : ¬t.val % 20 = 0) (h1 : t.val % 20 = 19) :
    (outsAt7 V c t.val t.isLt).2.2.1 = (outsAt7 V c t.val t.isLt).2.2.2.2 := by
  rw [outsAt7_C V c t h0 h1, outC7_eq]

theorem cut7_5 (t : Fin cfg7.N) (X : Vec Ideal S1x128 .f32) : (cfg7.win 5).cut (grid7.coords t) X = X := rfl
theorem cut7_6 (t : Fin cfg7.N) (X : Vec Ideal S1x128 .f32) : (cfg7.win 6).cut (grid7.coords t) X = X := rfl

theorem flushed7_5 (c : Dev nD) (t : Fin cfg7.N) (hf : (cfg7.win 5).flush t = true) :
    (dat7 (F := Ideal) V c).flushed 5 t = ((cfg7.win 5).blk t).view.read (Elt Ideal) (G5_7 V c) := by
  have h1 : t.val % 20 = 19 := (flush7_5 t).mp hf
  have hN : t.val < 20 := lt_of_lt_of_eq t.isLt (show cfg7.N = 20 from N_7)
  have h0 : ¬t.val % 20 = 0 := by omega
  show (cfg7.win 5).cut (grid7.coords t) ((dat7 (F := Ideal) V c).after 5 t) = _
  rw [after7_5, outs7_5 V c t h0 h1, cut7_5]
  obtain rfl : t = pt7 (Fin.last 19) := Fin.ext (by show t.val = 19; omega)
  funext x
  rw [View.read_apply]
  have hi := idx7_5 (pt7 (Fin.last 19))
  obtain ⟨u, j, rfl⟩ : ∃ (u : Fin 1) (j : Fin 128), x = ix2 u j := ⟨x 0, x 1, funext fun a => by fin_cases a <;> rfl⟩
  obtain rfl : u = 0 := Subsingleton.elim _ _
  have e := acc0_7_last V c j
  unfold acc0_7 at e
  rw [cast_eq]
  unfold G5_7
  have hj : (((cfg7.win 5).blk (pt7 (Fin.last 19))).view.emb (ix2 (0 : Fin 1) j)) 1 = j := Fin.ext (by
    show win7_5.index (pt7 (Fin.last 19)) 1 * 128 + 1 * j.val = j.val; rw [hi.2]; omega)
  rw [hj]
  exact e

theorem flushed7_6 (c : Dev nD) (t : Fin cfg7.N) (hf : (cfg7.win 6).flush t = true) :
    (dat7 (F := Ideal) V c).flushed 6 t = ((cfg7.win 6).blk t).view.read (Elt Ideal) (G6_7 V c) := by
  have h1 : t.val % 20 = 19 := (flush7_6 t).mp hf
  have hN : t.val < 20 := lt_of_lt_of_eq t.isLt (show cfg7.N = 20 from N_7)
  have h0 : ¬t.val % 20 = 0 := by omega
  show (cfg7.win 6).cut (grid7.coords t) ((dat7 (F := Ideal) V c).after 6 t) = _
  rw [after7_6, outs7_6 V c t h0 h1, cut7_6]
  obtain rfl : t = pt7 (Fin.last 19) := Fin.ext (by show t.val = 19; omega)
  funext x
  rw [View.read_apply]
  have hi := idx7_6 (pt7 (Fin.last 19))
  obtain ⟨u, j, rfl⟩ : ∃ (u : Fin 1) (j : Fin 128), x = ix2 u j := ⟨x 0, x 1, funext fun a => by fin_cases a <;> rfl⟩
  obtain rfl : u = 0 := Subsingleton.elim _ _
  have e := acc1_7_last V c j
  unfold acc1_7 at e
  rw [cast_eq]
  unfold G6_7
  have hj : (((cfg7.win 6).blk (pt7 (Fin.last 19))).view.emb (ix2 (0 : Fin 1) j)) 1 = j := Fin.ext (by
    show win7_6.index (pt7 (Fin.last 19)) 1 * 128 + 1 * j.val = j.val; rw [hi.2]; omega)
  rw [hj]
  exact e

/-- THE AGGREGATE ARRAY after the run, entry by entry. -/
theorem final7_agg_at (c : Dev nD) (r : Fin 100000) (j : Fin 128) :
    (dat7 (F := Ideal) V c).arrAt 4 cfg7.N (ix2 r j) = agg7 V c r j := by
  have hN : cfg7.N = 20 := N_7
  let t : Fin cfg7.N := ⟨r.val / 5000, by rw [hN]; have := r.isLt; omega⟩
  let y : Fin 5000 := ⟨r.val % 5000, Nat.mod_lt _ (by norm_num)⟩
  have hi := idx7_4 t
  have he : (ix2 r j : S100000x128.Idx) = ((cfg7.win 4).blk t).view.emb (ix2 y j) := by
    funext a; apply Fin.ext
    match a with
    | ⟨0, _⟩ => show r.val = win7_4.index t 0 * 5000 + 1 * (r.val % 5000); rw [hi.1]; show r.val = r.val / 5000 * 5000 + 1 * (r.val % 5000); omega
    | ⟨1, _⟩ => show j.val = win7_4.index t 1 * 128 + 1 * j.val; rw [hi.2]; omega
  have h := (dat7 (F := Ideal) V c).arrAt_apply_of_mem 4 (G4_7 V c) (fun t _ => flushed7_4 V c t) cfg7.N t (ix2 r j) t.isLt (flush7_4 t)
    (by rw [he]; exact View.emb_mem_set _ _)
  rw [h]; rfl

/-- THE COLUMN TOTALS after the run. -/
theorem final7_sum_at (c : Dev nD) (j : Fin 128) :
    (dat7 (F := Ideal) V c).arrAt 5 cfg7.N (ix2 0 j) = ∑ r : Fin 100000, agg7 V c r j := by
  have hf : (cfg7.win 5).flush (pt7 (Fin.last 19)) = true := (flush7_5 _).mpr (by rw [pt7_val]; rfl)
  have hi := idx7_5 (pt7 (Fin.last 19))
  have he : (ix2 (0 : Fin 1) j : S1x128.Idx) = ((cfg7.win 5).blk (pt7 (Fin.last 19))).view.emb (ix2 (0 : Fin 1) j) := by
    funext a; apply Fin.ext
    match a with
    | ⟨0, _⟩ => show 0 = win7_5.index (pt7 (Fin.last 19)) 0 * 1 + 1 * 0; rw [hi.1]
    | ⟨1, _⟩ => show j.val = win7_5.index (pt7 (Fin.last 19)) 1 * 128 + 1 * j.val; rw [hi.2]; omega
  have h := (dat7 (F := Ideal) V c).arrAt_apply_of_mem 5 (G5_7 V c) (fun t hf => flushed7_5 V c t hf) cfg7.N (pt7 (Fin.last 19)) (ix2 0 j)
    (pt7 (Fin.last 19)).isLt hf (by rw [he]; exact View.emb_mem_set _ _)
  rw [h]; rfl

/-- THE COLUMN TOTALS OF SQUARES after the run. -/
theorem final7_sumsq_at (c : Dev nD) (j : Fin 128) :
    (dat7 (F := Ideal) V c).arrAt 6 cfg7.N (ix2 0 j) = ∑ r : Fin 100000, agg7 V c r j * agg7 V c r j := by
  have hf : (cfg7.win 6).flush (pt7 (Fin.last 19)) = true := (flush7_6 _).mpr (by rw [pt7_val]; rfl)
  have hi := idx7_6 (pt7 (Fin.last 19))
  have he : (ix2 (0 : Fin 1) j : S1x128.Idx) = ((cfg7.win 6).blk (pt7 (Fin.last 19))).view.emb (ix2 (0 : Fin 1) j) := by
    funext a; apply Fin.ext
    match a with
    | ⟨0, _⟩ => show 0 = win7_6.index (pt7 (Fin.last 19)) 0 * 1 + 1 * 0; rw [hi.1]
    | ⟨1, _⟩ => show j.val = win7_6.index (pt7 (Fin.last 19)) 1 * 128 + 1 * j.val; rw [hi.2]; omega
  have h := (dat7 (F := Ideal) V c).arrAt_apply_of_mem 6 (G6_7 V c) (fun t hf => flushed7_6 V c t hf) cfg7.N (pt7 (Fin.last 19)) (ix2 0 j)
    (pt7 (Fin.last 19)).isLt hf (by rw [he]; exact View.emb_mem_set _ _)
  rw [h]; rfl

/-! ## The same, over named entry arrays -/

theorem final7_agg (c : Dev nD) (MSG HS : S100000x128.Idx → EReal) (DIS : S100000x1.Idx → EReal) (B : S1x128.Idx → EReal)
    (hM : (dat7 (F := Ideal) V c).A 0 = MSG) (hH : (dat7 (F := Ideal) V c).A 1 = HS) (hD : (dat7 (F := Ideal) V c).A 2 = DIS)
    (hB : (dat7 (F := Ideal) V c).A 3 = B) (r : Fin 100000) (j : Fin 128) :
    (dat7 (F := Ideal) V c).arrAt 4 cfg7.N (ix2 r j)
      = Cert.Spec.combine (fun r j => MSG (ix2 r j)) (fun r j => HS (ix2 r j)) (fun r => DIS (ix2 r 0)) (fun j => B (ix2 0 j)) r j := by
  subst hM hH hD hB
  exact final7_agg_at V c r j

theorem final7_sum (c : Dev nD) (MSG HS : S100000x128.Idx → EReal) (DIS : S100000x1.Idx → EReal) (B : S1x128.Idx → EReal)
    (hM : (dat7 (F := Ideal) V c).A 0 = MSG) (hH : (dat7 (F := Ideal) V c).A 1 = HS) (hD : (dat7 (F := Ideal) V c).A 2 = DIS)
    (hB : (dat7 (F := Ideal) V c).A 3 = B) (j : Fin 128) :
    (dat7 (F := Ideal) V c).arrAt 5 cfg7.N (ix2 0 j)
      = ∑ r : Fin 100000, Cert.Spec.combine (fun r j => MSG (ix2 r j)) (fun r j => HS (ix2 r j)) (fun r => DIS (ix2 r 0)) (fun j => B (ix2 0 j)) r j := by
  subst hM hH hD hB
  exact final7_sum_at V c j

theorem final7_sumsq (c : Dev nD) (MSG HS : S100000x128.Idx → EReal) (DIS : S100000x1.Idx → EReal) (B : S1x128.Idx → EReal)
    (hM : (dat7 (F := Ideal) V c).A 0 = MSG) (hH : (dat7 (F := Ideal) V c).A 1 = HS) (hD : (dat7 (F := Ideal) V c).A 2 = DIS)
    (hB : (dat7 (F := Ideal) V c).A 3 = B) (j : Fin 128) :
    (dat7 (F := Ideal) V c).arrAt 6 cfg7.N (ix2 0 j)
      = ∑ r : Fin 100000, Cert.Spec.combine (fun r j => MSG (ix2 r j)) (fun r j => HS (ix2 r j)) (fun r => DIS (ix2 r 0)) (fun j => B (ix2 0 j)) r j
          * Cert.Spec.combine (fun r j => MSG (ix2 r j)) (fun r j => HS (ix2 r j)) (fun r => DIS (ix2 r 0)) (fun j => B (ix2 0 j)) r j := by
  subst hM hH hD hB
  exact final7_sumsq_at V c j

end Cert.KernelIdeal.Hand

end
-- ==== Proof.KI.V8.lean ====
/- The value the normalise-scale-shift-rectify region 8 leaves in its output array, on the extended reals: every
   entry (r, j) is `max ((a r j - mean j) * rsqrt (var j + ε) * g j + beta j) 0` of the five arrays the region finds
   when it is entered. The payload is read at an index (each [1,128] row broadcast down the rows reads the row at the
   entry's column); grid point `t` writes back block `t` of that one whole-array function, because the feature
   window moves with the output window and the four row windows stay at block 0; the ten blocks cover the array. -/
import proofs.«115763_j74259984548099_2_alg».proof.Proof.KI.R8
import proofs.«115763_j74259984548099_2_alg».proof.Proof.Spec
import proofs.«115763_j74259984548099_2_alg».proof.Proof.LibBiasRows
import Idealize.ShloMosaic.Lib.ValueIdx
import Idealize.ShloMosaic.Lib.Pipeline.Value
import Idealize.ShloMosaic.Lib.ValueLayout

set_option maxRecDepth 65536

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets, as the rectangles spell them. -/
theorem hz8 : (![0, 0] : Fin 2 → Nat) = fun _ => 0 := funext fun a => by fin_cases a <;> rfl

/-! ## The payload at an index -/

/-- The stored value at entry `i` of the block: the feature entry less the mean at its column, times the reciprocal
    square root of the variance at its column plus ε, times the scale at its column, plus the shift at its column,
    rectified. (`x1` the mean row, `x2` the variance row, `x3` the scale row, `x4` the shift row.) -/
theorem pay8_apply (x0 : Vec Ideal S10000x128 .f32) (x1 x2 x3 x4 : Vec Ideal S1x128 .f32) (i : S10000x128.Idx) :
    k8_pay1 x0 x2 x1 x3 x4 i
      = max ((x0 i - x1 (ix2 ⟨0, Nat.one_pos⟩ (i 1))) * Ideal.rsqrt (x2 (ix2 ⟨0, Nat.one_pos⟩ (i 1)) + Cert.Spec.eps)
          * x3 (ix2 ⟨0, Nat.one_pos⟩ (i 1)) + x4 (ix2 ⟨0, Nat.one_pos⟩ (i 1))) Cert.Spec.zero := by
  unfold k8_pay1
  simp only [shapeCast_self]
  show max ((x0 i - broadcastTo S10000x128 x1 broadcasts_S1x128_S10000x128 i)
      * broadcastTo S10000x128 (rsqrt (addf x2 (broadcast S1x128 (Scalar.ofBits (F := Ideal) .f32 0x3727C5AC#32)))) broadcasts_S1x128_S10000x128 i
      * broadcastTo S10000x128 x3 broadcasts_S1x128_S10000x128 i + broadcastTo S10000x128 x4 broadcasts_S1x128_S10000x128 i) _ = _
  rw [Cert.LibBiasRows.row_broadcast x1, Cert.LibBiasRows.row_broadcast x3, Cert.LibBiasRows.row_broadcast x4,
    Cert.LibBiasRows.row_broadcast (rsqrt (addf x2 (broadcast S1x128 (Scalar.ofBits (F := Ideal) .f32 0x3727C5AC#32))))]
  rfl

/-! ## The array the region leaves -/

/-- The five arrays as the region finds them: the features, and the mean, variance, scale and shift rows. -/
abbrev in8_0 (c : Dev nD) : S100000x128.Idx → EReal := V c (Pipeline.arrRef spec8 0)
abbrev in8_1 (c : Dev nD) : S1x128.Idx → EReal := V c (Pipeline.arrRef spec8 1)
abbrev in8_2 (c : Dev nD) : S1x128.Idx → EReal := V c (Pipeline.arrRef spec8 2)
abbrev in8_3 (c : Dev nD) : S1x128.Idx → EReal := V c (Pipeline.arrRef spec8 3)
abbrev in8_4 (c : Dev nD) : S1x128.Idx → EReal := V c (Pipeline.arrRef spec8 4)

/-- The output array, entry by entry, of those five. -/
def G8 (c : Dev nD) : S100000x128.Idx → EReal := fun i =>
  max ((in8_0 V c i - in8_1 V c (ix2 ⟨0, Nat.one_pos⟩ (i 1)))
      * Ideal.rsqrt (in8_2 V c (ix2 ⟨0, Nat.one_pos⟩ (i 1)) + Cert.Spec.eps)
      * in8_3 V c (ix2 ⟨0, Nat.one_pos⟩ (i 1)) + in8_4 V c (ix2 ⟨0, Nat.one_pos⟩ (i 1))) Cert.Spec.zero

/-- The index maps over the ten points: the feature window's block is the output's, the row windows stay at block 0,
    the output's block is row block `t` of column block 0. -/
theorem idx_facts8 : ∀ t : Fin cfg8.N, win8_0.index t (0 : Fin 2) = win8_5.index t (0 : Fin 2)
    ∧ win8_0.index t (1 : Fin 2) = win8_5.index t (1 : Fin 2)
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) ≤ 9 ∧ win8_5.index t (1 : Fin 2) = 0 :=
  (by decide +kernel : ∀ t : Fin grid8.N, _)

/-- Every row block is some point's. -/
theorem idx_onto8 : ∀ q0 : Fin 10, ∃ t : Fin cfg8.N, win8_5.index t = ![q0.val, 0] :=
  (by decide +kernel : ∀ q0 : Fin 10, ∃ t : Fin grid8.N, win8_5.index t = ![q0.val, 0])

/-! ## Blocks read at an index -/

/-- A window's block at point `t`, at an index of the block, is its array at the index the block's rectangle sends it
    to (a block read is a precomposition). -/
theorem read8_0 (c : Dev nD) (t : Fin cfg8.N) (y : S10000x128.Idx) : iblk8 V c 0 t y = in8_0 V c (((cfg8.win 0).blk t).view.emb y) := rfl
theorem read8_1 (c : Dev nD) (t : Fin cfg8.N) (y : S1x128.Idx) : iblk8 V c 1 t y = in8_1 V c (((cfg8.win 1).blk t).view.emb y) := rfl
theorem read8_2 (c : Dev nD) (t : Fin cfg8.N) (y : S1x128.Idx) : iblk8 V c 2 t y = in8_2 V c (((cfg8.win 2).blk t).view.emb y) := rfl
theorem read8_3 (c : Dev nD) (t : Fin cfg8.N) (y : S1x128.Idx) : iblk8 V c 3 t y = in8_3 V c (((cfg8.win 3).blk t).view.emb y) := rfl
theorem read8_4 (c : Dev nD) (t : Fin cfg8.N) (y : S1x128.Idx) : iblk8 V c 4 t y = in8_4 V c (((cfg8.win 4).blk t).view.emb y) := rfl
/-- The same for a whole-array function read through the output window's block. -/
theorem read8_5 (G : S100000x128.Idx → EReal) (t : Fin cfg8.N) (y : S10000x128.Idx) :
    ((cfg8.win 5).blk t).view.read (Elt Ideal) G y = G (((cfg8.win 5).blk t).view.emb y) := rfl

/-- What point `t` writes back is what the body leaves in the output window's buffer, uncut. -/
theorem flushed8_5_out (c : Dev nD) (t : Fin cfg8.N) :
    (dat8 V c).flushed 5 t = (cfg8.win 5).cut (grid8.coords t) (out8_5 (iblk8 V c 0 t) (iblk8 V c 1 t) (iblk8 V c 2 t) (iblk8 V c 3 t) (iblk8 V c 4 t)) := by
  show (cfg8.win 5).cut (grid8.coords t) ((dat8 V c).after 5 t) = _
  rw [after8_5]

/-- One store of the whole buffer, of loads of whole buffers: the buffer is left at the payload of the buffers. -/
theorem out8_5_eq (x0 : Vec Ideal S10000x128 .f32) (x1 x2 x3 x4 : Vec Ideal S1x128 .f32) :
    out8_5 x0 x1 x2 x3 x4 = k8_pay1 x0 x2 x1 x3 x4 := by
  unfold out8_5
  rw [View.canon_unit_zero hz8]
  simp only [View.ld_unit_zero (S := S10000x128) hz8, View.ld_unit_zero (S := S1x128) hz8]

/-- The output window is not cut. -/
theorem cut8_5_apply (t : Fin cfg8.N) (f : Vec Ideal S10000x128 .f32) (y : S10000x128.Idx) :
    (cfg8.win 5).cut (grid8.coords t) f y = f y := rfl

/-! ## Where the blocks sit in their arrays -/

/-- The feature block at point `t` sits where the output block does. -/
theorem emb8_0 (t : Fin cfg8.N) (y : S10000x128.Idx) :
    ((cfg8.win 0).blk t).view.emb y = ((cfg8.win 5).blk t).view.emb y := by
  obtain ⟨e0, e1, -⟩ := idx_facts8 t
  funext a; apply Fin.ext
  match a with
  | ⟨0, _⟩ => show win8_0.index t (0 : Fin 2) * 10000 + 1 * (y 0).val = win8_5.index t (0 : Fin 2) * 10000 + 1 * (y 0).val; omega
  | ⟨1, _⟩ => show win8_0.index t (1 : Fin 2) * 128 + 1 * (y 1).val = win8_5.index t (1 : Fin 2) * 128 + 1 * (y 1).val; omega

/-- An entry of the output block keeps its column in the array. -/
theorem col8 (t : Fin cfg8.N) (y : S10000x128.Idx) : (((cfg8.win 5).blk t).view.emb y) 1 = y 1 := by
  obtain ⟨e0, e1, e2, e3, e4, e5, e6, e7, e8, e9, e10, e11⟩ := idx_facts8 t
  apply Fin.ext
  show win8_5.index t (1 : Fin 2) * 128 + 1 * (y 1).val = (y 1).val; omega

/-- Each row window's one block is its whole array. -/
theorem emb8_1 (t : Fin cfg8.N) (j : Fin 128) : ((cfg8.win 1).blk t).view.emb (ix2 ⟨0, Nat.one_pos⟩ j) = ix2 ⟨0, Nat.one_pos⟩ j := by
  obtain ⟨e0, e1, e2, e3, e4, e5, e6, e7, e8, e9, e10, e11⟩ := idx_facts8 t
  funext a; apply Fin.ext
  match a with
  | ⟨0, _⟩ => show win8_1.index t (0 : Fin 2) * 1 + 1 * 0 = 0; omega
  | ⟨1, _⟩ => show win8_1.index t (1 : Fin 2) * 128 + 1 * j.val = j.val; omega
theorem emb8_2 (t : Fin cfg8.N) (j : Fin 128) : ((cfg8.win 2).blk t).view.emb (ix2 ⟨0, Nat.one_pos⟩ j) = ix2 ⟨0, Nat.one_pos⟩ j := by
  obtain ⟨e0, e1, e2, e3, e4, e5, e6, e7, e8, e9, e10, e11⟩ := idx_facts8 t
  funext a; apply Fin.ext
  match a with
  | ⟨0, _⟩ => show win8_2.index t (0 : Fin 2) * 1 + 1 * 0 = 0; omega
  | ⟨1, _⟩ => show win8_2.index t (1 : Fin 2) * 128 + 1 * j.val = j.val; omega
theorem emb8_3 (t : Fin cfg8.N) (j : Fin 128) : ((cfg8.win 3).blk t).view.emb (ix2 ⟨0, Nat.one_pos⟩ j) = ix2 ⟨0, Nat.one_pos⟩ j := by
  obtain ⟨e0, e1, e2, e3, e4, e5, e6, e7, e8, e9, e10, e11⟩ := idx_facts8 t
  funext a; apply Fin.ext
  match a with
  | ⟨0, _⟩ => show win8_3.index t (0 : Fin 2) * 1 + 1 * 0 = 0; omega
  | ⟨1, _⟩ => show win8_3.index t (1 : Fin 2) * 128 + 1 * j.val = j.val; omega
theorem emb8_4 (t : Fin cfg8.N) (j : Fin 128) : ((cfg8.win 4).blk t).view.emb (ix2 ⟨0, Nat.one_pos⟩ j) = ix2 ⟨0, Nat.one_pos⟩ j := by
  obtain ⟨e0, e1, e2, e3, e4, e5, e6, e7, e8, e9, e10, e11⟩ := idx_facts8 t
  funext a; apply Fin.ext
  match a with
  | ⟨0, _⟩ => show win8_4.index t (0 : Fin 2) * 1 + 1 * 0 = 0; omega
  | ⟨1, _⟩ => show win8_4.index t (1 : Fin 2) * 128 + 1 * j.val = j.val; omega

/-! ## What a point writes back -/

/-- What point `t` writes back is block `t` of `G8`. -/
theorem flushed8_5_eq (c : Dev nD) (t : Fin cfg8.N) :
    (dat8 V c).flushed 5 t = ((cfg8.win 5).blk t).view.read (Elt Ideal) (G8 V c) := by
  rw [flushed8_5_out, out8_5_eq]
  funext y
  rw [cut8_5_apply, read8_5, pay8_apply]
  have h0 : iblk8 V c 0 t y = in8_0 V c (((cfg8.win 5).blk t).view.emb y) :=
    (read8_0 V c t y).trans (congrArg (in8_0 V c) (emb8_0 t y))
  have h1 : iblk8 V c 1 t (ix2 ⟨0, Nat.one_pos⟩ (y 1)) = in8_1 V c (ix2 ⟨0, Nat.one_pos⟩ ((((cfg8.win 5).blk t).view.emb y) 1)) :=
    (read8_1 V c t _).trans (congrArg (in8_1 V c) ((emb8_1 t (y 1)).trans (congrArg (ix2 ⟨0, Nat.one_pos⟩) (col8 t y).symm)))
  have h2 : iblk8 V c 2 t (ix2 ⟨0, Nat.one_pos⟩ (y 1)) = in8_2 V c (ix2 ⟨0, Nat.one_pos⟩ ((((cfg8.win 5).blk t).view.emb y) 1)) :=
    (read8_2 V c t _).trans (congrArg (in8_2 V c) ((emb8_2 t (y 1)).trans (congrArg (ix2 ⟨0, Nat.one_pos⟩) (col8 t y).symm)))
  have h3 : iblk8 V c 3 t (ix2 ⟨0, Nat.one_pos⟩ (y 1)) = in8_3 V c (ix2 ⟨0, Nat.one_pos⟩ ((((cfg8.win 5).blk t).view.emb y) 1)) :=
    (read8_3 V c t _).trans (congrArg (in8_3 V c) ((emb8_3 t (y 1)).trans (congrArg (ix2 ⟨0, Nat.one_pos⟩) (col8 t y).symm)))
  have h4 : iblk8 V c 4 t (ix2 ⟨0, Nat.one_pos⟩ (y 1)) = in8_4 V c (ix2 ⟨0, Nat.one_pos⟩ ((((cfg8.win 5).blk t).view.emb y) 1)) :=
    (read8_4 V c t _).trans (congrArg (in8_4 V c) ((emb8_4 t (y 1)).trans (congrArg (ix2 ⟨0, Nat.one_pos⟩) (col8 t y).symm)))
  rw [h0, h1, h2, h3, h4]
  rfl

/-- An index of the array is in point `t`'s block iff each coordinate is in the block's range on its axis. -/
theorem mem_blk8 (t : Fin cfg8.N) (i : S100000x128.Idx) :
    i ∈ ((cfg8.win 5).blk t).view.set ↔ ∀ a : Fin 2, win8_5.index t a * S10000x128.size a ≤ (i a).val ∧ (i a).val < win8_5.index t a * S10000x128.size a + S10000x128.size a := by
  show i ∈ ((View.whole main_v83).slice (win8_5.rect t)).set ↔ _
  rw [View.set_slice_whole, Rect.mem_set_unit]
  exact Iff.rfl

/-- The ten row blocks cover the array: row `r` is in the block of point `r / 10000`. -/
theorem cover8_arr (i : S100000x128.Idx) :
    ∃ t : Fin cfg8.N, (cfg8.win 5).flush t = true ∧ i ∈ ((cfg8.win 5).blk t).view.set := by
  have hi0 : (i 0).val < 100000 := (i 0).isLt
  have hi1 : (i 1).val < 128 := (i 1).isLt
  obtain ⟨t, ht⟩ := idx_onto8 ⟨(i 0).val / 10000, by omega⟩
  have q0 : win8_5.index t (0 : Fin 2) = (i 0).val / 10000 := congrFun ht 0
  have q1 : win8_5.index t (1 : Fin 2) = 0 := congrFun ht 1
  refine ⟨t, flush8_5 t, ?_⟩
  rw [mem_blk8]
  intro a
  match a with
  | ⟨0, _⟩ => show win8_5.index t (0 : Fin 2) * 10000 ≤ (i 0).val ∧ (i 0).val < win8_5.index t (0 : Fin 2) * 10000 + 10000; omega
  | ⟨1, _⟩ => show win8_5.index t (1 : Fin 2) * 128 ≤ (i 1).val ∧ (i 1).val < win8_5.index t (1 : Fin 2) * 128 + 128; omega

/-- The output array after the region is `G8` of the arrays at its entry. -/
theorem arr8_5 (c : Dev nD) : (dat8 V c).arrAt 5 cfg8.N = G8 V c :=
  (dat8 V c).arrAt_eq_of_cover 5 (G8 V c) (fun t _ => flushed8_5_eq V c t) cover8_arr

/-- Entry (r, j) of the output array after the region: the batch normalisation and rectifier of the specification, of
    the feature array, the mean row, the variance row, the scale row and the shift row as the region finds them. -/
theorem final8 (c : Dev nD) (r : Fin 100000) (j : Fin 128) :
    (dat8 V c).arrAt 5 cfg8.N (ix2 r j)
      = Cert.Spec.bnRelu (fun r j => in8_0 V c (ix2 r j)) (fun j => in8_1 V c (ix2 0 j))
          (fun j => in8_2 V c (ix2 0 j)) (fun j => in8_3 V c (ix2 0 j))
          (fun j => in8_4 V c (ix2 0 j)) r j := by
  rw [arr8_5]
  rfl

end Cert.KernelIdeal.Hand
-- ==== Proof.LibDenseRelu.lean ====
/-
  A dense map with a bias row and a rectifier, as a vector unit spells it, read at an entry on the extended reals.

  For `a : [n, K]`, `w : [K, d]` and a bias row `b : [1, d]`, the product accumulated into the zero splat, plus the row
  broadcast down the n rows, rectified against the splat of the zero word, is at (r, j)
      max( ∑ k, a (r, k) · w (k, j) + b (0, j), 0 ).
  The operands may be in any float format (a change of format is the identity at the exact values); nothing here
  needs finiteness, and the extents are arbitrary.
-/
import Idealize.ShloMosaic.PureOps.Ideal
import Idealize.ShloMosaic.PureOps.Ideal.Laws
import Idealize.ShloMosaic.Lib.ValueIdx
import Idealize.ShloMosaic.Lib.Pipeline.Value
import proofs.«115763_j74259984548099_2_alg».proof.Proof.LibMatmulPlain
import proofs.«115763_j74259984548099_2_alg».proof.Proof.LibBiasRows

noncomputable section

namespace Cert.LibDenseRelu

open Idealize.ShloMosaic Idealize.ShloMosaic.ValueIdx

/-- The affine part: product into the zero accumulator plus the broadcast bias row (the row cast to its own shape
    first, as the vector unit prints it), at (r, j). -/
theorem vec_dense {n K d : ℕ} {φ₁ φ₂ : FTy} (prec : Option ContractPrecision)
    (a : FVec Ideal ⟨2, ![n, K]⟩ φ₁) (w : FVec Ideal ⟨2, ![K, d]⟩ φ₂) (b : FVec Ideal ⟨2, ![1, d]⟩ .f32)
    (h1 : (⟨2, ![1, d]⟩ : Shape).ShapeCasts ⟨2, ![1, d]⟩) (h2 : (⟨2, ![1, d]⟩ : Shape).Broadcasts ⟨2, ![n, d]⟩)
    (r : Fin n) (j : Fin d) :
    addf (FloatOps.matmul (DotDims.plain n K d) prec a w (constant ⟨2, ![n, d]⟩ .f32 0x00000000#32))
        (broadcastTo ⟨2, ![n, d]⟩ (shapeCast ⟨2, ![1, d]⟩ b h1) h2) (ix2 r j)
      = (∑ k : Fin K, a (ix2 r k) * w (ix2 k j)) + b (ix2 ⟨0, Nat.one_pos⟩ j) := by
  show FloatOps.matmul (DotDims.plain n K d) prec a w (constant ⟨2, ![n, d]⟩ .f32 0x00000000#32) (ix2 r j)
      + broadcastTo ⟨2, ![n, d]⟩ (shapeCast ⟨2, ![1, d]⟩ b h1) h2 (ix2 r j) = _
  rw [Cert.LibMatmulPlain.matmul_zero_apply, shapeCast_self, Cert.LibBiasRows.row_broadcast]
  rfl

/-- The rectified layer at (r, j). -/
theorem vec_dense_relu {n K d : ℕ} {φ₁ φ₂ : FTy} (prec : Option ContractPrecision)
    (a : FVec Ideal ⟨2, ![n, K]⟩ φ₁) (w : FVec Ideal ⟨2, ![K, d]⟩ φ₂) (b : FVec Ideal ⟨2, ![1, d]⟩ .f32)
    (h1 : (⟨2, ![1, d]⟩ : Shape).ShapeCasts ⟨2, ![1, d]⟩) (h2 : (⟨2, ![1, d]⟩ : Shape).Broadcasts ⟨2, ![n, d]⟩)
    (r : Fin n) (j : Fin d) :
    maximumf (addf (FloatOps.matmul (DotDims.plain n K d) prec a w (constant ⟨2, ![n, d]⟩ .f32 0x00000000#32))
        (broadcastTo ⟨2, ![n, d]⟩ (shapeCast ⟨2, ![1, d]⟩ b h1) h2))
        (broadcast ⟨2, ![n, d]⟩ (FloatOps.ofBits (F := Ideal) .f32 0x00000000#32)) (ix2 r j)
      = max ((∑ k : Fin K, a (ix2 r k) * w (ix2 k j)) + b (ix2 ⟨0, Nat.one_pos⟩ j)) (Ideal.ofBits .f32 0x00000000#32) := by
  show max (addf (FloatOps.matmul (DotDims.plain n K d) prec a w (constant ⟨2, ![n, d]⟩ .f32 0x00000000#32))
        (broadcastTo ⟨2, ![n, d]⟩ (shapeCast ⟨2, ![1, d]⟩ b h1) h2) (ix2 r j)) _ = _
  rw [vec_dense]
  rfl

end Cert.LibDenseRelu

end
-- ==== Proof.KI.V9.lean ====
/- Region 9 of the kernel program read at the exact values: what its pipeline leaves in the output array, entry by
   entry, as a function of the arrays the region finds. -/
import proofs.«115763_j74259984548099_2_alg».proof.Proof.KI.R9
import proofs.«115763_j74259984548099_2_alg».proof.Proof.Spec
import Idealize.ShloMosaic.Lib.ValueIdx
import Idealize.ShloMosaic.Lib.Pipeline.Value
import Idealize.ShloMosaic.PureOps.Ideal.Laws
import proofs.«115763_j74259984548099_2_alg».proof.Proof.LibMatmulPlain
import proofs.«115763_j74259984548099_2_alg».proof.Proof.LibBiasRows
import proofs.«115763_j74259984548099_2_alg».proof.Proof.LibDenseRelu

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The payload at an entry: two dense layers, the first with its bias row and the rectifier, the second with its bias
    row (rounding operands to a narrower format changes nothing at the exact values). -/
theorem pay9_apply (v0 : Vec Ideal S256x256 .f32) (v3 : Vec Ideal S256x128 .f32) (v6 : Vec Ideal S1x128 .f32)
    (v12 : Vec Ideal S128x64 .f32) (v16 : Vec Ideal S1x64 .f32) (q : Fin 256) (j : Fin 64) :
    k9_pay1 v0 v3 v6 v12 v16 (ix2 q j)
      = (∑ k : Fin 128, max ((∑ l : Fin 256, v0 (ix2 q l) * v3 (ix2 l k)) + v6 (ix2 ⟨0, Nat.one_pos⟩ k)) (Ideal.ofBits .f32 0x00000000#32) * v12 (ix2 k j))
        + v16 (ix2 ⟨0, Nat.one_pos⟩ j) := by
  refine (Cert.LibDenseRelu.vec_dense (φ₁ := .bf16) (φ₂ := .bf16) none _ _ v16 shapeCasts_S1x64_S1x64 broadcasts_S1x64_S256x64 q j).trans ?_
  refine congrArg (· + _) (Finset.sum_congr rfl fun k _ => congrArg (· * _) ?_)
  refine (Cert.LibDenseRelu.vec_dense_relu (φ₁ := .bf16) (φ₂ := .bf16) none _ _ v6 shapeCasts_S1x128_S1x128 broadcasts_S1x128_S256x128 q k).trans ?_
  simp only [shapeCast_self]
  rfl

variable (V : (c : Dev nD) → (b : Ref sig .tc) → Buf (Elt Ideal) ((c : Thread nD τ).loc b))

/-- The printed index maps at the one grid point: every window is its whole array. -/
theorem idx9 : ∀ t : Fin cfg9.N, win9_0.index t (0 : Fin 2) = 0 ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0 :=
  (by decide +kernel : ∀ t : Fin grid9.N, _)

/-- Window 0's block is its whole array. -/
theorem iblk9_0_apply (c : Dev nD) (t : Fin cfg9.N) (a : Fin 256) (b : Fin 256) :
    iblk9 V c 0 t (ix2 a b) = V c (Pipeline.arrRef spec9 0) (ix2 a b) := by
  obtain ⟨e0, e1, -⟩ := idx9 t
  unfold iblk9
  rw [View.read_apply]
  show V c (Pipeline.arrRef spec9 0) _ = V c (Pipeline.arrRef spec9 0) _
  refine congrArg _ (funext fun ax => Fin.ext ?_)
  match ax with
  | ⟨0, _⟩ => show win9_0.index t (0 : Fin 2) * 256 + 1 * a.val = a.val; rw [e0]; omega
  | ⟨1, _⟩ => show win9_0.index t (1 : Fin 2) * 256 + 1 * b.val = b.val; rw [e1]; omega

/-- Window 1's block is its whole array. -/
theorem iblk9_1_apply (c : Dev nD) (t : Fin cfg9.N) (a : Fin 256) (b : Fin 128) :
    iblk9 V c 1 t (ix2 a b) = V c (Pipeline.arrRef spec9 1) (ix2 a b) := by
  obtain ⟨-, -, e0, e1, -⟩ := idx9 t
  unfold iblk9
  rw [View.read_apply]
  show V c (Pipeline.arrRef spec9 1) _ = V c (Pipeline.arrRef spec9 1) _
  refine congrArg _ (funext fun ax => Fin.ext ?_)
  match ax with
  | ⟨0, _⟩ => show win9_1.index t (0 : Fin 2) * 256 + 1 * a.val = a.val; rw [e0]; omega
  | ⟨1, _⟩ => show win9_1.index t (1 : Fin 2) * 128 + 1 * b.val = b.val; rw [e1]; omega

/-- Window 2's block is its whole array. -/
theorem iblk9_2_apply (c : Dev nD) (t : Fin cfg9.N) (a : Fin 1) (b : Fin 128) :
    iblk9 V c 2 t (ix2 a b) = V c (Pipeline.arrRef spec9 2) (ix2 a b) := by
  obtain ⟨-, -, -, -, e0, e1, -⟩ := idx9 t
  unfold iblk9
  rw [View.read_apply]
  show V c (Pipeline.arrRef spec9 2) _ = V c (Pipeline.arrRef spec9 2) _
  refine congrArg _ (funext fun ax => Fin.ext ?_)
  match ax with
  | ⟨0, _⟩ => show win9_2.index t (0 : Fin 2) * 1 + 1 * a.val = a.val; rw [e0]; omega
  | ⟨1, _⟩ => show win9_2.index t (1 : Fin 2) * 128 + 1 * b.val = b.val; rw [e1]; omega

/-- Window 3's block is its whole array. -/
theorem iblk9_3_apply (c : Dev nD) (t : Fin cfg9.N) (a : Fin 128) (b : Fin 64) :
    iblk9 V c 3 t (ix2 a b) = V c (Pipeline.arrRef spec9 3) (ix2 a b) := by
  obtain ⟨-, -, -, -, -, -, e0, e1, -⟩ := idx9 t
  unfold iblk9
  rw [View.read_apply]
  show V c (Pipeline.arrRef spec9 3) _ = V c (Pipeline.arrRef spec9 3) _
  refine congrArg _ (funext fun ax => Fin.ext ?_)
  match ax with
  | ⟨0, _⟩ => show win9_3.index t (0 : Fin 2) * 128 + 1 * a.val = a.val; rw [e0]; omega
  | ⟨1, _⟩ => show win9_3.index t (1 : Fin 2) * 64 + 1 * b.val = b.val; rw [e1]; omega

/-- Window 4's block is its whole array. -/
theorem iblk9_4_apply (c : Dev nD) (t : Fin cfg9.N) (a : Fin 1) (b : Fin 64) :
    iblk9 V c 4 t (ix2 a b) = V c (Pipeline.arrRef spec9 4) (ix2 a b) := by
  obtain ⟨-, -, -, -, -, -, -, -, e0, e1, -⟩ := idx9 t
  unfold iblk9
  rw [View.read_apply]
  show V c (Pipeline.arrRef spec9 4) _ = V c (Pipeline.arrRef spec9 4) _
  refine congrArg _ (funext fun ax => Fin.ext ?_)
  match ax with
  | ⟨0, _⟩ => show win9_4.index t (0 : Fin 2) * 1 + 1 * a.val = a.val; rw [e0]; omega
  | ⟨1, _⟩ => show win9_4.index t (1 : Fin 2) * 64 + 1 * b.val = b.val; rw [e1]; omega

/-- Where an entry of the output's block sits in the array: in place. -/
theorem emb9_5 (t : Fin cfg9.N) (a : Fin 256) (b : Fin 64) :
    ((cfg9.win 5).blk t).view.emb (ix2 a b) = ix2 a b := by
  obtain ⟨-, -, -, -, -, -, -, -, -, -, e0, e1⟩ := idx9 t
  refine funext fun ax => Fin.ext ?_
  match ax with
  | ⟨0, _⟩ => show win9_5.index t (0 : Fin 2) * 256 + 1 * a.val = a.val; rw [e0]; omega
  | ⟨1, _⟩ => show win9_5.index t (1 : Fin 2) * 64 + 1 * b.val = b.val; rw [e1]; omega

/-- The arrays the region finds, as matrices and rows: the pooled features, the two layers' weights and bias rows. -/
abbrev XP9 (c : Dev nD) : Cert.Spec.Mat 256 256 := fun q l => V c (Pipeline.arrRef spec9 0) (ix2 q l)
abbrev W19 (c : Dev nD) : Cert.Spec.Mat 256 128 := fun l k => V c (Pipeline.arrRef spec9 1) (ix2 l k)
abbrev B19 (c : Dev nD) : Fin 128 → EReal := fun k => V c (Pipeline.arrRef spec9 2) (ix2 (0 : Fin 1) k)
abbrev W29 (c : Dev nD) : Cert.Spec.Mat 128 64 := fun k j => V c (Pipeline.arrRef spec9 3) (ix2 k j)
abbrev B29 (c : Dev nD) : Fin 64 → EReal := fun j => V c (Pipeline.arrRef spec9 4) (ix2 (0 : Fin 1) j)

/-- What the region leaves in its output array, entry by entry, from the arrays it finds. -/
def G9 (c : Dev nD) : S256x64.Idx → EReal := fun i =>
  Cert.Spec.mlp (XP9 V c) (W19 V c) (B19 V c) (W29 V c) (B29 V c) ⟨(i 0).val, idx2_lt0 i⟩ ⟨(i 1).val, idx2_lt1 i⟩

theorem hz2_9 : (![0, 0] : Fin 2 → Nat) = fun _ => 0 := funext fun a => by fin_cases a <;> rfl

/-- What the one point writes back is `G9`. -/
theorem flushed9_eq (c : Dev nD) (t : Fin cfg9.N) :
    (dat9 (F := Ideal) V c).flushed 5 t = ((cfg9.win 5).blk t).view.read (Elt Ideal) (G9 V c) := by
  show (cfg9.win 5).cut (grid9.coords t) ((dat9 V c).after 5 t) = _
  rw [after9_5]
  unfold out9_5
  rw [View.canon_unit_zero hz2_9]
  simp only [View.ld_unit_zero (S := S256x256) hz2_9, View.ld_unit_zero (S := S256x128) hz2_9, View.ld_unit_zero (S := S1x128) hz2_9, View.ld_unit_zero (S := S128x64) hz2_9, View.ld_unit_zero (S := S1x64) hz2_9]
  funext y
  obtain ⟨a, b, rfl⟩ : ∃ (a : Fin 256) (b : Fin 64), y = ix2 a b := ⟨y 0, y 1, eq_ix2 y⟩
  refine (pay9_apply _ _ _ _ _ a b).trans ?_
  rw [View.read_apply, emb9_5 t a b, iblk9_4_apply V c t ⟨0, Nat.one_pos⟩ b]
  show _ = Cert.Spec.mlp (XP9 V c) (W19 V c) (B19 V c) (W29 V c) (B29 V c) a b
  unfold Cert.Spec.mlp
  refine congrArg (· + _) (Finset.sum_congr rfl fun k _ => ?_)
  rw [iblk9_3_apply V c t k b, iblk9_2_apply V c t ⟨0, Nat.one_pos⟩ k]
  refine congrArg (fun s => max (s + _) _ * _) (Finset.sum_congr rfl fun l _ => ?_)
  rw [iblk9_0_apply V c t a l, iblk9_1_apply V c t l k]

/-- THE ARRAY after the region: every entry is the two-layer map's entry. -/
theorem final9 (c : Dev nD) (q : Fin 256) (j : Fin 64) :
    (dat9 (F := Ideal) V c).arrAt 5 cfg9.N (ix2 q j) = Cert.Spec.mlp (XP9 V c) (W19 V c) (B19 V c) (W29 V c) (B29 V c) q j := by
  have hmem : ix2 q j ∈ ((cfg9.win 5).blk t9_0).view.set := by
    have e : ix2 q j = ((cfg9.win 5).blk t9_0).view.emb (ix2 q j) := (emb9_5 t9_0 q j).symm
    rw [e]; exact View.emb_mem_set _ _
  exact (dat9 V c).arrAt_apply_of_mem 5 (G9 V c) (fun t _ => flushed9_eq V c t) cfg9.N t9_0 (ix2 q j) t9_0.isLt (flush9_5 _) hmem

end Cert.KernelIdeal.Hand

end
-- ==== Proof.KI.HostRows.lean ====
/-
  The host operations between the kernels, read at an index, over arbitrary operand arrays.

  The edge list is one [2, E] array of 32-bit words: row 0 holds the sources, row 1 the targets. The host
  program cuts a row out and flattens it; stood up as an [E, 1] column of row numbers, read at edge `e`, that
  is the word `a (k, e)`. A scatter-add at the target column sums, into row `r`, over the edges whose target
  word is exactly `r`; a gather at the wrapped source column reads the row the wrapped word names, clamped
  into range. The degree is such a sum of ones (plus one for the node itself), the message sum such a sum of
  gathered rows, both started from zero.
-/
import proofs.«115763_j74259984548099_2_alg».proof.Proof.Gen.KernelIdeal.Regions
import proofs.«115763_j74259984548099_2_alg».proof.Proof.Spec
import proofs.«115763_j74259984548099_2_alg».proof.Proof.LibRows
import proofs.«115763_j74259984548099_2_alg».proof.Proof.LibKeepdims
import Idealize.ShloMosaic.Lib.StableHlo.Run
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.KernelIdeal.Hand

open Idealize.ShloMosaic Idealize.ShloMosaic.ValueIdx
open Cert.KernelIdeal Cert.KernelIdeal.Gen

/-- A vector `[n]` stood up as a column `[n, 1]` reads, at `(e, u)`, the vector at `e`. -/
theorem hF_column_apply {α : Type} {n : ℕ} (v : (⟨1, ![n]⟩ : Shape).Idx → α)
    (h : (⟨1, ![n]⟩ : Shape).BroadcastsInDim ⟨2, ![n, 1]⟩ ![0]) (e : Fin n) (u : Fin 1) :
    broadcastInDim ⟨2, ![n, 1]⟩ ![0] h v (ix2 e u) = v (ix1 e) := by
  refine broadcastInDim_apply _ h v (ix2 e u) (ix1 e) fun a => ?_
  match a with
  | ⟨0, _⟩ =>
    show e.val = if n = 1 then 0 else e.val
    split
    · have := e.isLt; omega
    · rfl

/-- Row `k` of the `[2, E]` edge array, cut out and flattened, reads at edge `e` the word `a (k, e)`. -/
theorem hF_edgeRow_apply (o : ℕ) (a : S2x640000.Idx → BitVec 32) (hs : S2x640000.Slices ![o, 0] S1x640000)
    (k : Fin 2) (hk : k.val = o) (e : Fin 640000) :
    shapeCast S640000 (extractStridedSlice S1x640000 ![o, 0] a hs) shapeCasts_S1x640000_S640000 (ix1 e) = a (ix2 k e) := by
  rw [shapeCast_1a_a_apply]
  exact slice2_axis0_apply o a hs (0 : Fin 1) e k (by simp [hk])

/-- The edges a scatter at the column `idx` sends to row `d` are the edges whose word is `d`. -/
theorem hF_edgesInto_eq_into {N E : ℕ} (idx : IVec ⟨2, ![E, 1]⟩ 32) (w : Fin E → BitVec 32)
    (hw : ∀ e, idx (ix2 e (0 : Fin 1)) = w e) (d : Fin N) :
    Cert.Lib.Rows.edgesInto idx d = Cert.Spec.into w d := by
  unfold Cert.Lib.Rows.edgesInto Cert.Spec.into
  exact Finset.filter_congr fun e _ => by rw [hw e]

/-- The host's reciprocal square root at an index. -/
theorem hF_hostRsqrt_apply {s : Shape} {φ : FTy} (a : FVec Ideal s φ) (i : s.Idx) :
    Host.rsqrt a i = Ideal.rsqrt (a i) := rfl

/-- The host's accumulating scatter at the ideal instance is the exact sum. -/
theorem hF_hostScatterAdd_eq {s si u : Shape} {φ : FTy} {w : ℕ} (d : ScatterDims s si u) (x : FVec Ideal s φ)
    (idx : IVec si w) (upd : FVec Ideal u φ) : Host.scatterAdd d x idx upd = Ideal.hostScatterAdd d x idx upd := rfl

/-- The program's dimension-number records are the row-number scatters and gather of `Cert.Lib.Rows`. -/
theorem hF_scatterDeg_rec : scatter_S100000_S640000x1_S640000_n_0_0_1
    = Cert.Lib.Rows.scatterEltsDims 100000 640000 Facts₀.scatter_S100000_S640000x1_S640000_n_0_0_1_wf := rfl
theorem hF_scatterRows_rec : scatter_S100000x128_S640000x1_S640000x128_1_0_0_1
    = Cert.Lib.Rows.scatterRowsDims 100000 640000 128 Facts₀.scatter_S100000x128_S640000x1_S640000x128_1_0_0_1_wf := rfl
theorem hF_gatherRows_rec : gather_S100000x128_S640000x1_S640000x128_1_0_n_n_0_1_1128
    = Cert.Lib.Rows.gatherRowsDims 100000 640000 128 Facts₀.gather_S100000x128_S640000x1_S640000x128_1_0_n_n_0_1_1128_wf := rfl
theorem hF_scatterCount_rec : scatter_S256_S100000x1_S100000_n_0_0_1
    = Cert.Lib.Rows.scatterEltsDims 256 100000 Facts₀.scatter_S256_S100000x1_S100000_n_0_0_1_wf := rfl
theorem hF_scatterPool_rec : scatter_S256x128_S100000x1_S100000x128_1_0_0_1
    = Cert.Lib.Rows.scatterRowsDims 256 100000 128 Facts₀.scatter_S256x128_S100000x1_S100000x128_1_0_0_1_wf := rfl

/-- A float constant spread over a shape reads the constant everywhere. -/
theorem hF_splat_apply {T : Shape} {φ : FTy} (h : S_.BroadcastsInDim T ![]) (b : BitVec φ.bits) (j : T.Idx) :
    broadcastInDim T ![] h (constant (F := Ideal) S_ φ b) j = Ideal.ofBits φ b := by
  rw [broadcastInDim_scalar_apply, constant_apply]

/-- An integer constant spread over a shape reads the constant everywhere. -/
theorem hF_splatI_apply {T : Shape} {w : ℕ} (h : S_.BroadcastsInDim T ![]) (b : BitVec w) (j : T.Idx) :
    broadcastInDim T ![] h (constantI S_ w b) j = b := by
  rw [broadcastInDim_scalar_apply, constantI_apply]

/-- Integer comparison and addition of vectors, at an index. -/
theorem hF_cmpi_apply {s : Shape} {w : ℕ} (p : CmpIPredicate) (a b : IVec s w) (i : s.Idx) :
    cmpi p a b i = IntOp.cmpi p (a i) (b i) := rfl
theorem hF_addi_apply {s : Shape} {w : ℕ} (a b : IVec s w) (i : s.Idx) : addi a b i = IntOp.addi (a i) (b i) := rfl
/-- Ones scattered at the target words from zero: the number of edges into row `r`, as a sum. -/
theorem hF_scatterOnes_apply (v3 : S640000.Idx → BitVec 32) (r : Fin 100000) :
    Host.scatterAdd (F := Ideal) scatter_S100000_S640000x1_S640000_n_0_0_1
        (broadcastInDim S100000 ![] bcast_S_S100000 (constant (F := Ideal) S_ .f32 0x00000000#32))
        (broadcastInDim S640000x1 ![0] bcast_S640000_S640000x1_0 v3)
        (broadcastInDim S640000 ![] bcast_S_S640000 (constant (F := Ideal) S_ .f32 0x3F800000#32)) (ix1 r)
    = Cert.Spec.zero + ∑ _e ∈ Cert.Spec.into (fun e => v3 (ix1 e)) r, Cert.Spec.one := by
  rw [hF_hostScatterAdd_eq, hF_scatterDeg_rec, Cert.Lib.Rows.scatterAddElts_apply, hF_splat_apply,
    hF_edgesInto_eq_into _ (fun e => v3 (ix1 e)) (fun e => hF_column_apply v3 _ e 0)]
  exact congrArg (fun t : EReal => Cert.Spec.zero + t) (Finset.sum_congr rfl fun e _ => hF_splat_apply _ _ (ix1 e))

/-- The degree normaliser: ones scattered at the target words from zero, plus one, under the reciprocal
    square root, stood up as a column. -/
theorem hF_degree_apply (v3 : S640000.Idx → BitVec 32) (r : Fin 100000) (u : Fin 1) :
    shapeCast S100000x1 (Host.rsqrt (F := Ideal) (addf
      (Host.scatterAdd (F := Ideal) scatter_S100000_S640000x1_S640000_n_0_0_1
        (broadcastInDim S100000 ![] bcast_S_S100000 (constant (F := Ideal) S_ .f32 0x00000000#32))
        (broadcastInDim S640000x1 ![0] bcast_S640000_S640000x1_0 v3)
        (broadcastInDim S640000 ![] bcast_S_S640000 (constant (F := Ideal) S_ .f32 0x3F800000#32)))
      (broadcastInDim S100000 ![] bcast_S_S100000 (constant (F := Ideal) S_ .f32 0x3F800000#32))))
      shapeCasts_S100000_S100000x1 (ix2 r u)
    = Cert.Spec.disK (fun e => v3 (ix1 e)) r := by
  rw [Cert.LibKeepdims.shapeCast_a_a1_apply, hF_hostRsqrt_apply, addf_apply, hF_scatterOnes_apply, hF_splat_apply]
  rfl

/-- A row of the table gathered at the wrapped word of `v1`: the row that word names, clamped into range. -/
theorem hF_gatherWrapped_apply (v1 : S640000.Idx → BitVec 32) (x : S100000x128.Idx → EReal) (e : Fin 640000) (j : Fin 128) :
    Host.gather gather_S100000x128_S640000x1_S640000x128_1_0_n_n_0_1_1128 x
        (broadcastInDim S640000x1 ![0] bcast_S640000_S640000x1_0
          (select (cmpi .slt v1 (broadcastInDim S640000 ![] bcast_S_S640000 (constantI S_ 32 0#32)))
            (addi v1 (broadcastInDim S640000 ![] bcast_S_S640000 (constantI S_ 32 100000#32))) v1)) (ix2 e j)
    = x (ix2 (Cert.Spec.rowG 100000 (by decide) 100000#32 (v1 (ix1 e))) j) := by
  rw [hF_gatherRows_rec, Cert.Lib.Rows.gatherRows_apply (by decide : 0 < 100000), hF_column_apply, select_apply,
    hF_cmpi_apply, hF_addi_apply, hF_splatI_apply, hF_splatI_apply]
  rfl

/-- The message sum: rows of the table `x` gathered at the wrapped source words, scattered at the target
    words from zero. -/
theorem hF_edgeSum_apply (v1 v3 : S640000.Idx → BitVec 32) (x : S100000x128.Idx → EReal) (r : Fin 100000) (j : Fin 128) :
    Host.scatterAdd (F := Ideal) scatter_S100000x128_S640000x1_S640000x128_1_0_0_1
      (broadcastInDim S100000x128 ![] bcast_S_S100000x128 (constant (F := Ideal) S_ .f32 0x00000000#32))
      (broadcastInDim S640000x1 ![0] bcast_S640000_S640000x1_0 v3)
      (Host.gather gather_S100000x128_S640000x1_S640000x128_1_0_n_n_0_1_1128 x
        (broadcastInDim S640000x1 ![0] bcast_S640000_S640000x1_0
          (select (cmpi .slt v1 (broadcastInDim S640000 ![] bcast_S_S640000 (constantI S_ 32 0#32)))
            (addi v1 (broadcastInDim S640000 ![] bcast_S_S640000 (constantI S_ 32 100000#32))) v1))) (ix2 r j)
    = Cert.Spec.edgeSum (by decide) 100000#32 (fun e => v1 (ix1 e)) (fun e => v3 (ix1 e)) (fun r j => x (ix2 r j)) r j := by
  rw [hF_hostScatterAdd_eq, hF_scatterRows_rec, Cert.Lib.Rows.scatterAddRows_apply, hF_splat_apply,
    hF_edgesInto_eq_into _ (fun e => v3 (ix1 e)) (fun e => hF_column_apply v3 _ e 0)]
  exact congrArg (fun t : EReal => Cert.Spec.zero + t)
    (Finset.sum_congr rfl fun e _ => hF_gatherWrapped_apply v1 x e j)

end Cert.KernelIdeal.Hand

end
-- ==== Proof.KI.HostEdges.lean ====
/-
  The edge words the host stretches read.

  The first host stretch cuts the two rows out of the [2, E] edge list and flattens them; every later
  stretch reads those two flat vectors, and every region that scales by the degree reads the column the first
  stretch leaves. None of the three is written again.
-/
import proofs.«115763_j74259984548099_2_alg».proof.Proof.KI.HostRows

set_option maxRecDepth 4096

noncomputable section

namespace Cert.KernelIdeal.Hand

open Idealize.ShloMosaic Idealize.ShloMosaic.ValueIdx Idealize.ShloMosaic.TcCoe
open Cert.KernelIdeal Cert.KernelIdeal.Gen

variable (m : (ℓ : Loc nD τ sig) → Buf (Elt Ideal) ℓ) (outs : Gen.Outs (F := Ideal)) (c : Dev nD)

/-- The edge list as launched: row 0 the source words, row 1 the target words. -/
abbrev hF_edgeWords : S2x640000.Idx → BitVec 32 := m ((c : Thread nD τ).loc main_arg1)
abbrev hF_src (e : Fin 640000) : BitVec 32 := hF_edgeWords m c (ix2 0 e)
abbrev hF_dst (e : Fin 640000) : BitVec 32 := hF_edgeWords m c (ix2 1 e)

/-- The first host stretch flattens row 0 of the edge list into `main_v1` and row 1 into `main_v3`. -/
theorem hF_V1_v1 : (Gen.V1 m c main_v1 : S640000.Idx → BitVec 32)
    = shapeCast S640000 (extractStridedSlice S1x640000 ![0, 0] (hF_edgeWords m c) slices_S2x640000_S1x640000_0_0)
        shapeCasts_S1x640000_S640000 := by
  dsimp only [Gen.V1]; after_results; rfl

theorem hF_V1_v3 : (Gen.V1 m c main_v3 : S640000.Idx → BitVec 32)
    = shapeCast S640000 (extractStridedSlice S1x640000 ![1, 0] (hF_edgeWords m c) slices_S2x640000_S1x640000_1_0)
        shapeCasts_S1x640000_S640000 := by
  dsimp only [Gen.V1]; after_results; rfl

theorem hF_V1_v1_apply (e : Fin 640000) : Gen.V1 m c main_v1 (ix1 e) = hF_src m c e := by
  rw [hF_V1_v1]; exact hF_edgeRow_apply 0 _ _ 0 rfl e

theorem hF_V1_v3_apply (e : Fin 640000) : Gen.V1 m c main_v3 (ix1 e) = hF_dst m c e := by
  rw [hF_V1_v3]; exact hF_edgeRow_apply 1 _ _ 1 rfl e

theorem hF_V1_v1_fun : (fun e : Fin 640000 => Gen.V1 m c main_v1 (ix1 e)) = hF_src m c :=
  funext (hF_V1_v1_apply m c)

theorem hF_V1_v3_fun : (fun e : Fin 640000 => Gen.V1 m c main_v3 (ix1 e)) = hF_dst m c :=
  funext (hF_V1_v3_apply m c)

/-! No later item writes the flattened edge words or the degree column. -/

theorem hF_V2_v1 : Gen.V2 m outs c main_v1 = Gen.V1 m c main_v1 := (Gen.V2_of m outs c main_v1 (by decide))
theorem hF_V2_v3 : Gen.V2 m outs c main_v3 = Gen.V1 m c main_v3 := (Gen.V2_of m outs c main_v3 (by decide))
theorem hF_V7_v1 : Gen.V7 m outs c main_v1 = Gen.V1 m c main_v1 := (Gen.V7_of m outs c main_v1 (by decide)).trans <| (Gen.V6_of m outs c main_v1 (by decide)).trans <| (Gen.V5_of m outs c main_v1 (by decide)).trans <| (Gen.V4_of m outs c main_v1 (by decide)).trans <| (Gen.V3_of m outs c main_v1 (by decide)).trans <| (Gen.V2_of m outs c main_v1 (by decide))
theorem hF_V7_v3 : Gen.V7 m outs c main_v3 = Gen.V1 m c main_v3 := (Gen.V7_of m outs c main_v3 (by decide)).trans <| (Gen.V6_of m outs c main_v3 (by decide)).trans <| (Gen.V5_of m outs c main_v3 (by decide)).trans <| (Gen.V4_of m outs c main_v3 (by decide)).trans <| (Gen.V3_of m outs c main_v3 (by decide)).trans <| (Gen.V2_of m outs c main_v3 (by decide))
theorem hF_V12_v1 : Gen.V12 m outs c main_v1 = Gen.V1 m c main_v1 := (Gen.V12_of m outs c main_v1 (by decide)).trans <| (Gen.V11_of m outs c main_v1 (by decide)).trans <| (Gen.V10_of m outs c main_v1 (by decide)).trans <| (Gen.V9_of m outs c main_v1 (by decide)).trans <| (Gen.V8_of m outs c main_v1 (by decide)).trans <| (Gen.V7_of m outs c main_v1 (by decide)).trans <| (Gen.V6_of m outs c main_v1 (by decide)).trans <| (Gen.V5_of m outs c main_v1 (by decide)).trans <| (Gen.V4_of m outs c main_v1 (by decide)).trans <| (Gen.V3_of m outs c main_v1 (by decide)).trans <| (Gen.V2_of m outs c main_v1 (by decide))
theorem hF_V12_v3 : Gen.V12 m outs c main_v3 = Gen.V1 m c main_v3 := (Gen.V12_of m outs c main_v3 (by decide)).trans <| (Gen.V11_of m outs c main_v3 (by decide)).trans <| (Gen.V10_of m outs c main_v3 (by decide)).trans <| (Gen.V9_of m outs c main_v3 (by decide)).trans <| (Gen.V8_of m outs c main_v3 (by decide)).trans <| (Gen.V7_of m outs c main_v3 (by decide)).trans <| (Gen.V6_of m outs c main_v3 (by decide)).trans <| (Gen.V5_of m outs c main_v3 (by decide)).trans <| (Gen.V4_of m outs c main_v3 (by decide)).trans <| (Gen.V3_of m outs c main_v3 (by decide)).trans <| (Gen.V2_of m outs c main_v3 (by decide))

theorem hF_V3_v11 : Gen.V3 m outs c main_v11 = Gen.V1 m c main_v11 := (Gen.V3_of m outs c main_v11 (by decide)).trans <| (Gen.V2_of m outs c main_v11 (by decide))
theorem hF_V6_v11 : Gen.V6 m outs c main_v11 = Gen.V1 m c main_v11 := (Gen.V6_of m outs c main_v11 (by decide)).trans <| (Gen.V5_of m outs c main_v11 (by decide)).trans <| (Gen.V4_of m outs c main_v11 (by decide)).trans <| (Gen.V3_of m outs c main_v11 (by decide)).trans <| (Gen.V2_of m outs c main_v11 (by decide))
theorem hF_V8_v11 : Gen.V8 m outs c main_v11 = Gen.V1 m c main_v11 := (Gen.V8_of m outs c main_v11 (by decide)).trans <| (Gen.V7_of m outs c main_v11 (by decide)).trans <| (Gen.V6_of m outs c main_v11 (by decide)).trans <| (Gen.V5_of m outs c main_v11 (by decide)).trans <| (Gen.V4_of m outs c main_v11 (by decide)).trans <| (Gen.V3_of m outs c main_v11 (by decide)).trans <| (Gen.V2_of m outs c main_v11 (by decide))
theorem hF_V11_v11 : Gen.V11 m outs c main_v11 = Gen.V1 m c main_v11 := (Gen.V11_of m outs c main_v11 (by decide)).trans <| (Gen.V10_of m outs c main_v11 (by decide)).trans <| (Gen.V9_of m outs c main_v11 (by decide)).trans <| (Gen.V8_of m outs c main_v11 (by decide)).trans <| (Gen.V7_of m outs c main_v11 (by decide)).trans <| (Gen.V6_of m outs c main_v11 (by decide)).trans <| (Gen.V5_of m outs c main_v11 (by decide)).trans <| (Gen.V4_of m outs c main_v11 (by decide)).trans <| (Gen.V3_of m outs c main_v11 (by decide)).trans <| (Gen.V2_of m outs c main_v11 (by decide))
theorem hF_V13_v11 : Gen.V13 m outs c main_v11 = Gen.V1 m c main_v11 := (Gen.V13_of m outs c main_v11 (by decide)).trans <| (Gen.V12_of m outs c main_v11 (by decide)).trans <| (Gen.V11_of m outs c main_v11 (by decide)).trans <| (Gen.V10_of m outs c main_v11 (by decide)).trans <| (Gen.V9_of m outs c main_v11 (by decide)).trans <| (Gen.V8_of m outs c main_v11 (by decide)).trans <| (Gen.V7_of m outs c main_v11 (by decide)).trans <| (Gen.V6_of m outs c main_v11 (by decide)).trans <| (Gen.V5_of m outs c main_v11 (by decide)).trans <| (Gen.V4_of m outs c main_v11 (by decide)).trans <| (Gen.V3_of m outs c main_v11 (by decide)).trans <| (Gen.V2_of m outs c main_v11 (by decide))

end Cert.KernelIdeal.Hand

end
-- ==== Proof.KI.HostDegree.lean ====
/-
  The degree column the first host stretch computes, read at a row.
-/
import proofs.«115763_j74259984548099_2_alg».proof.Proof.KI.HostEdges

set_option maxRecDepth 4096

noncomputable section

namespace Cert.KernelIdeal.Hand

open Idealize.ShloMosaic Idealize.ShloMosaic.ValueIdx Idealize.ShloMosaic.TcCoe
open Cert.KernelIdeal Cert.KernelIdeal.Gen

variable (m : (ℓ : Loc nD τ sig) → Buf (Elt Ideal) ℓ) (outs : Gen.Outs (F := Ideal)) (c : Dev nD)

/-- What the first host stretch leaves in `main_v11`: ones scattered at the target words from zero, plus
    one, under the reciprocal square root, as a column. -/
theorem hF_V1_v11 : (Gen.V1 m c main_v11 : S100000x1.Idx → EReal)
    = shapeCast S100000x1 (Host.rsqrt (F := Ideal) (addf
        (Host.scatterAdd (F := Ideal) scatter_S100000_S640000x1_S640000_n_0_0_1
          (broadcastInDim S100000 ![] bcast_S_S100000 (constant (F := Ideal) S_ .f32 0x00000000#32))
          (broadcastInDim S640000x1 ![0] bcast_S640000_S640000x1_0
            (shapeCast S640000 (extractStridedSlice S1x640000 ![1, 0] (hF_edgeWords m c) slices_S2x640000_S1x640000_1_0)
              shapeCasts_S1x640000_S640000))
          (broadcastInDim S640000 ![] bcast_S_S640000 (constant (F := Ideal) S_ .f32 0x3F800000#32)))
        (broadcastInDim S100000 ![] bcast_S_S100000 (constant (F := Ideal) S_ .f32 0x3F800000#32))))
      shapeCasts_S100000_S100000x1 := by
  dsimp only [Gen.V1]; after_results; rfl

/-- (H0) The degree column at row `r`: the reciprocal square root of the in-degree plus one. -/
theorem hF_V1_dis (r : Fin 100000) (u : Fin 1) :
    Gen.V1 m c main_v11 (ix2 r u) = Cert.Spec.disK (hF_dst m c) r := by
  rw [hF_V1_v11, hF_degree_apply]
  exact congrArg (fun d : Fin 640000 → BitVec 32 => Cert.Spec.disK d r)
    (funext fun e => hF_edgeRow_apply 1 _ _ 1 rfl e)

/-- The arrays region 0 reads directly are as launched. -/
theorem hF_V1_arg0 : Gen.V1 m c main_arg0 = m ((c : Thread nD τ).loc main_arg0) :=
  (Gen.V1_of m c main_arg0 (by decide)).trans rfl
theorem hF_V1_arg3 : Gen.V1 m c main_arg3 = m ((c : Thread nD τ).loc main_arg3) :=
  (Gen.V1_of m c main_arg3 (by decide)).trans rfl

end Cert.KernelIdeal.Hand

end
-- ==== Proof.KI.HostMsg1.lean ====
/-
  The host stretch before the first aggregation kernel, read at an index: the message sum over the edges
  into a node, and the bias row.
-/
import proofs.«115763_j74259984548099_2_alg».proof.Proof.KI.HostEdges

set_option maxRecDepth 4096

noncomputable section

namespace Cert.KernelIdeal.Hand

open Idealize.ShloMosaic Idealize.ShloMosaic.ValueIdx Idealize.ShloMosaic.TcCoe
open Cert.KernelIdeal Cert.KernelIdeal.Gen

variable (m : (ℓ : Loc nD τ sig) → Buf (Elt Ideal) ℓ) (outs : Gen.Outs (F := Ideal)) (c : Dev nD)

/-- What the stretch leaves in `main_v22`: rows of `main_v12` gathered at the wrapped source words and scattered at
    the target words, from zero. -/
theorem hF_V3_v22 : (Gen.V3 m outs c main_v22 : S100000x128.Idx → EReal)
    = Host.scatterAdd (F := Ideal) scatter_S100000x128_S640000x1_S640000x128_1_0_0_1
        (broadcastInDim S100000x128 ![] bcast_S_S100000x128 (constant (F := Ideal) S_ .f32 0x00000000#32))
        (broadcastInDim S640000x1 ![0] bcast_S640000_S640000x1_0 (Gen.V2 m outs c main_v3 : S640000.Idx → BitVec 32))
        (Host.gather gather_S100000x128_S640000x1_S640000x128_1_0_n_n_0_1_1128
          (Gen.V2 m outs c main_v12 : S100000x128.Idx → EReal)
          (broadcastInDim S640000x1 ![0] bcast_S640000_S640000x1_0
            (select (cmpi .slt (Gen.V2 m outs c main_v1 : S640000.Idx → BitVec 32)
                (broadcastInDim S640000 ![] bcast_S_S640000 (constantI S_ 32 0#32)))
              (addi (Gen.V2 m outs c main_v1 : S640000.Idx → BitVec 32)
                (broadcastInDim S640000 ![] bcast_S_S640000 (constantI S_ 32 100000#32)))
              (Gen.V2 m outs c main_v1 : S640000.Idx → BitVec 32)))) := by
  dsimp only [Gen.V3]; after_results_simp

/-- The table the stretch gathers from is what the region before it left. -/
theorem hF_V2_v12 : Gen.V2 m outs c main_v12 = outs 2 main_v12 c := by
  dsimp only [Gen.V2]; exact Function.update_self ..

/-- (H1) The message sum at row `r`, column `j`: the rows of the scaled dense map at the sources of the
    edges into `r`, summed from zero. -/
theorem hF_V3_msg (r : Fin 100000) (j : Fin 128) :
    Gen.V3 m outs c main_v22 (ix2 r j)
      = Cert.Spec.edgeSum (by decide) 100000#32 (hF_src m c) (hF_dst m c)
          (fun r j => outs 2 main_v12 c (ix2 r j)) r j := by
  rw [hF_V3_v22, hF_edgeSum_apply, hF_V2_v1, hF_V2_v3, hF_V2_v12,
    hF_V1_v1_fun, hF_V1_v3_fun]

/-- The bias vector stood up as a row. -/
theorem hF_V3_v23 : (Gen.V3 m outs c main_v23 : S1x128.Idx → EReal)
    = shapeCast S1x128 (Gen.V2 m outs c main_arg4 : S128.Idx → EReal) shapeCasts_S128_S1x128 := by
  dsimp only [Gen.V3]; after_results; rfl

theorem hF_V2_arg4 : Gen.V2 m outs c main_arg4 = m ((c : Thread nD τ).loc main_arg4) :=
  (Gen.V2_of m outs c main_arg4 (by decide)).trans <| (Gen.V1_of m c main_arg4 (by decide)).trans rfl

theorem hF_V3_bias (u : Fin 1) (j : Fin 128) :
    Gen.V3 m outs c main_v23 (ix2 u j) = (m ((c : Thread nD τ).loc main_arg4) : S128.Idx → EReal) (ix1 j) := by
  rw [hF_V3_v23, shapeCast_a_1a_apply, hF_V2_arg4]

/-- The stretch leaves the table as the region before it left it. -/
theorem hF_V3_v12 : Gen.V3 m outs c main_v12 = outs 2 main_v12 c :=
  (Gen.V3_of m outs c main_v12 (by decide)).trans (hF_V2_v12 m outs c)

end Cert.KernelIdeal.Hand

end
-- ==== Proof.KI.HostMsg2.lean ====
/-
  The host stretch before the second aggregation kernel, read at an index: the message sum over the edges
  into a node, and the bias row.
-/
import proofs.«115763_j74259984548099_2_alg».proof.Proof.KI.HostEdges

set_option maxRecDepth 4096

noncomputable section

namespace Cert.KernelIdeal.Hand

open Idealize.ShloMosaic Idealize.ShloMosaic.ValueIdx Idealize.ShloMosaic.TcCoe
open Cert.KernelIdeal Cert.KernelIdeal.Gen

variable (m : (ℓ : Loc nD τ sig) → Buf (Elt Ideal) ℓ) (outs : Gen.Outs (F := Ideal)) (c : Dev nD)

/-- What the stretch leaves in `main_v46`: rows of `main_v36` gathered at the wrapped source words and scattered at
    the target words, from zero. -/
theorem hF_V8_v46 : (Gen.V8 m outs c main_v46 : S100000x128.Idx → EReal)
    = Host.scatterAdd (F := Ideal) scatter_S100000x128_S640000x1_S640000x128_1_0_0_1
        (broadcastInDim S100000x128 ![] bcast_S_S100000x128 (constant (F := Ideal) S_ .f32 0x00000000#32))
        (broadcastInDim S640000x1 ![0] bcast_S640000_S640000x1_0 (Gen.V7 m outs c main_v3 : S640000.Idx → BitVec 32))
        (Host.gather gather_S100000x128_S640000x1_S640000x128_1_0_n_n_0_1_1128
          (Gen.V7 m outs c main_v36 : S100000x128.Idx → EReal)
          (broadcastInDim S640000x1 ![0] bcast_S640000_S640000x1_0
            (select (cmpi .slt (Gen.V7 m outs c main_v1 : S640000.Idx → BitVec 32)
                (broadcastInDim S640000 ![] bcast_S_S640000 (constantI S_ 32 0#32)))
              (addi (Gen.V7 m outs c main_v1 : S640000.Idx → BitVec 32)
                (broadcastInDim S640000 ![] bcast_S_S640000 (constantI S_ 32 100000#32)))
              (Gen.V7 m outs c main_v1 : S640000.Idx → BitVec 32)))) := by
  dsimp only [Gen.V8]; after_results_simp

/-- The table the stretch gathers from is what the region before it left. -/
theorem hF_V7_v36 : Gen.V7 m outs c main_v36 = outs 7 main_v36 c := by
  dsimp only [Gen.V7]; exact Function.update_self ..

/-- (H4) The message sum at row `r`, column `j`: the rows of the scaled dense map at the sources of the
    edges into `r`, summed from zero. -/
theorem hF_V8_msg (r : Fin 100000) (j : Fin 128) :
    Gen.V8 m outs c main_v46 (ix2 r j)
      = Cert.Spec.edgeSum (by decide) 100000#32 (hF_src m c) (hF_dst m c)
          (fun r j => outs 7 main_v36 c (ix2 r j)) r j := by
  rw [hF_V8_v46, hF_edgeSum_apply, hF_V7_v1, hF_V7_v3, hF_V7_v36,
    hF_V1_v1_fun, hF_V1_v3_fun]

/-- The bias vector stood up as a row. -/
theorem hF_V8_v47 : (Gen.V8 m outs c main_v47 : S1x128.Idx → EReal)
    = shapeCast S1x128 (Gen.V7 m outs c main_arg6 : S128.Idx → EReal) shapeCasts_S128_S1x128 := by
  dsimp only [Gen.V8]; after_results; rfl

theorem hF_V7_arg6 : Gen.V7 m outs c main_arg6 = m ((c : Thread nD τ).loc main_arg6) :=
  (Gen.V7_of m outs c main_arg6 (by decide)).trans <| (Gen.V6_of m outs c main_arg6 (by decide)).trans <| (Gen.V5_of m outs c main_arg6 (by decide)).trans <| (Gen.V4_of m outs c main_arg6 (by decide)).trans <| (Gen.V3_of m outs c main_arg6 (by decide)).trans <| (Gen.V2_of m outs c main_arg6 (by decide)).trans <| (Gen.V1_of m c main_arg6 (by decide)).trans rfl

theorem hF_V8_bias (u : Fin 1) (j : Fin 128) :
    Gen.V8 m outs c main_v47 (ix2 u j) = (m ((c : Thread nD τ).loc main_arg6) : S128.Idx → EReal) (ix1 j) := by
  rw [hF_V8_v47, shapeCast_a_1a_apply, hF_V7_arg6]

/-- The stretch leaves the table as the region before it left it. -/
theorem hF_V8_v36 : Gen.V8 m outs c main_v36 = outs 7 main_v36 c :=
  (Gen.V8_of m outs c main_v36 (by decide)).trans (hF_V7_v36 m outs c)

end Cert.KernelIdeal.Hand

end
-- ==== Proof.KI.HostMsg3.lean ====
/-
  The host stretch before the third aggregation kernel, read at an index: the message sum over the edges
  into a node, and the bias row.
-/
import proofs.«115763_j74259984548099_2_alg».proof.Proof.KI.HostEdges

set_option maxRecDepth 4096

noncomputable section

namespace Cert.KernelIdeal.Hand

open Idealize.ShloMosaic Idealize.ShloMosaic.ValueIdx Idealize.ShloMosaic.TcCoe
open Cert.KernelIdeal Cert.KernelIdeal.Gen

variable (m : (ℓ : Loc nD τ sig) → Buf (Elt Ideal) ℓ) (outs : Gen.Outs (F := Ideal)) (c : Dev nD)

/-- What the stretch leaves in `main_v70`: rows of `main_v60` gathered at the wrapped source words and scattered at
    the target words, from zero. -/
theorem hF_V13_v70 : (Gen.V13 m outs c main_v70 : S100000x128.Idx → EReal)
    = Host.scatterAdd (F := Ideal) scatter_S100000x128_S640000x1_S640000x128_1_0_0_1
        (broadcastInDim S100000x128 ![] bcast_S_S100000x128 (constant (F := Ideal) S_ .f32 0x00000000#32))
        (broadcastInDim S640000x1 ![0] bcast_S640000_S640000x1_0 (Gen.V12 m outs c main_v3 : S640000.Idx → BitVec 32))
        (Host.gather gather_S100000x128_S640000x1_S640000x128_1_0_n_n_0_1_1128
          (Gen.V12 m outs c main_v60 : S100000x128.Idx → EReal)
          (broadcastInDim S640000x1 ![0] bcast_S640000_S640000x1_0
            (select (cmpi .slt (Gen.V12 m outs c main_v1 : S640000.Idx → BitVec 32)
                (broadcastInDim S640000 ![] bcast_S_S640000 (constantI S_ 32 0#32)))
              (addi (Gen.V12 m outs c main_v1 : S640000.Idx → BitVec 32)
                (broadcastInDim S640000 ![] bcast_S_S640000 (constantI S_ 32 100000#32)))
              (Gen.V12 m outs c main_v1 : S640000.Idx → BitVec 32)))) := by
  dsimp only [Gen.V13]; after_results_simp

/-- The table the stretch gathers from is what the region before it left. -/
theorem hF_V12_v60 : Gen.V12 m outs c main_v60 = outs 12 main_v60 c := by
  dsimp only [Gen.V12]; exact Function.update_self ..

/-- (H7) The message sum at row `r`, column `j`: the rows of the scaled dense map at the sources of the
    edges into `r`, summed from zero. -/
theorem hF_V13_msg (r : Fin 100000) (j : Fin 128) :
    Gen.V13 m outs c main_v70 (ix2 r j)
      = Cert.Spec.edgeSum (by decide) 100000#32 (hF_src m c) (hF_dst m c)
          (fun r j => outs 12 main_v60 c (ix2 r j)) r j := by
  rw [hF_V13_v70, hF_edgeSum_apply, hF_V12_v1, hF_V12_v3, hF_V12_v60,
    hF_V1_v1_fun, hF_V1_v3_fun]

/-- The bias vector stood up as a row. -/
theorem hF_V13_v71 : (Gen.V13 m outs c main_v71 : S1x128.Idx → EReal)
    = shapeCast S1x128 (Gen.V12 m outs c main_arg8 : S128.Idx → EReal) shapeCasts_S128_S1x128 := by
  dsimp only [Gen.V13]; after_results; rfl

theorem hF_V12_arg8 : Gen.V12 m outs c main_arg8 = m ((c : Thread nD τ).loc main_arg8) :=
  (Gen.V12_of m outs c main_arg8 (by decide)).trans <| (Gen.V11_of m outs c main_arg8 (by decide)).trans <| (Gen.V10_of m outs c main_arg8 (by decide)).trans <| (Gen.V9_of m outs c main_arg8 (by decide)).trans <| (Gen.V8_of m outs c main_arg8 (by decide)).trans <| (Gen.V7_of m outs c main_arg8 (by decide)).trans <| (Gen.V6_of m outs c main_arg8 (by decide)).trans <| (Gen.V5_of m outs c main_arg8 (by decide)).trans <| (Gen.V4_of m outs c main_arg8 (by decide)).trans <| (Gen.V3_of m outs c main_arg8 (by decide)).trans <| (Gen.V2_of m outs c main_arg8 (by decide)).trans <| (Gen.V1_of m c main_arg8 (by decide)).trans rfl

theorem hF_V13_bias (u : Fin 1) (j : Fin 128) :
    Gen.V13 m outs c main_v71 (ix2 u j) = (m ((c : Thread nD τ).loc main_arg8) : S128.Idx → EReal) (ix1 j) := by
  rw [hF_V13_v71, shapeCast_a_1a_apply, hF_V12_arg8]

/-- The stretch leaves the table as the region before it left it. -/
theorem hF_V13_v60 : Gen.V13 m outs c main_v60 = outs 12 main_v60 c :=
  (Gen.V13_of m outs c main_v60 (by decide)).trans (hF_V12_v60 m outs c)

end Cert.KernelIdeal.Hand

end
-- ==== Proof.KI.HostStats.lean ====
/-
  The statistics rows between a sums kernel and the normalising kernel that follows it, read at an index on the
  extended reals. The sums kernel leaves a row of column sums S and a row of column sums of squares Q; the host
  divides each by the number of rows (the word 0x47C35000, 100000), takes the mean S/n and the one-pass variance
  max (Q/n - (S/n)·(S/n)) 0, and lays the scale and shift vectors [128] out as rows [1,128]. Every statement is over
  arbitrary launch contents and arbitrary contents left by the kernels.
-/
import proofs.«115763_j74259984548099_2_alg».proof.Proof.Gen.KernelIdeal.Regions
import proofs.«115763_j74259984548099_2_alg».proof.Proof.Spec
import proofs.«115763_j74259984548099_2_alg».proof.Proof.LibRows
import proofs.«115763_j74259984548099_2_alg».proof.Proof.LibKeepdims
import proofs.«115763_j74259984548099_2_alg».proof.Proof.LibBiasRows
import Idealize.ShloMosaic.Lib.StableHlo.Run
import Idealize.ShloMosaic.Lib.ValueIdx
import Idealize.ShloMosaic.Lib.Pipeline.Value
import Idealize.ShloMosaic.Lib.ValueLayout
import Idealize.ShloMosaic.Lib.IdealHost

noncomputable section

namespace Cert.KernelIdeal.Hand

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ) (outs : Gen.Outs (F := Ideal)) (c : Dev nD)

/-! ## The operations at an index -/

/-- A float constant spread over a shape reads the constant everywhere. -/
theorem hD_splat_apply {T : Shape} {φ : FTy} (h : S_.BroadcastsInDim T ![]) (b : BitVec φ.bits) (j : T.Idx) :
    broadcastInDim T ![] h (constant (F := Ideal) S_ φ b) j = Ideal.ofBits φ b := by
  rw [broadcastInDim_scalar_apply, constant_apply]

/-- The host's division at an index. -/
theorem hD_hostDivf_apply {s : Shape} {φ : FTy} (a b : FVec Ideal s φ) (i : s.Idx) :
    Host.divf a b i = Ideal.div (a i) (b i) := rfl

/-- The mean row: the column sums over the number of rows. -/
theorem hD_meanRow_apply (S : S1x128.Idx → EReal) (j : Fin 128) :
    Host.divf (F := Ideal) S (broadcastInDim S1x128 ![] bcast_S_S1x128 (constant (F := Ideal) S_ .f32 0x47C35000#32)) (ix2 0 j)
      = Ideal.div (S (ix2 0 j)) Cert.Spec.nf := by
  rw [hD_hostDivf_apply, hD_splat_apply]

/-- The variance row: the mean of squares less the square of the mean, not below zero. -/
theorem hD_varRow_apply (S Q : S1x128.Idx → EReal) (j : Fin 128) :
    maximumf (subf (Host.divf (F := Ideal) Q (broadcastInDim S1x128 ![] bcast_S_S1x128 (constant (F := Ideal) S_ .f32 0x47C35000#32)))
        (mulf (Host.divf (F := Ideal) S (broadcastInDim S1x128 ![] bcast_S_S1x128 (constant (F := Ideal) S_ .f32 0x47C35000#32)))
          (Host.divf (F := Ideal) S (broadcastInDim S1x128 ![] bcast_S_S1x128 (constant (F := Ideal) S_ .f32 0x47C35000#32)))))
      (broadcastInDim S1x128 ![] bcast_S_S1x128 (constant (F := Ideal) S_ .f32 0x00000000#32)) (ix2 0 j)
      = max (Ideal.div (Q (ix2 0 j)) Cert.Spec.nf - Ideal.div (S (ix2 0 j)) Cert.Spec.nf * Ideal.div (S (ix2 0 j)) Cert.Spec.nf) Cert.Spec.zero := by
  rw [maximumf_apply, subf_apply, mulf_apply, hD_meanRow_apply, hD_meanRow_apply, hD_splat_apply]

/-- A vector [128] laid out as a row [1,128] reads, at column `j`, the vector at `j`. -/
theorem hD_rowOfVector_apply (v : S128.Idx → EReal) (j : Fin 128) :
    shapeCast S1x128 v shapeCasts_S128_S1x128 (ix2 0 j) = v (ix1 j) :=
  Cert.LibBiasRows.row_of_vector v shapeCasts_S128_S1x128 j

/-! ## After region 1: the stretch between the sums kernel and the normalising kernel -/

/-- What the sums kernel left is what the stretch starts from. -/
theorem hD_V4_agg : Gen.V4 m outs c main_v24_0 = outs 4 main_v24_0 c := by
  dsimp only [Gen.V4]
  rw [Function.update_of_ne (StableHlo.devRef_ne_of_ne (by decide)), Function.update_of_ne (StableHlo.devRef_ne_of_ne (by decide)), Function.update_self]
theorem hD_V4_sum : Gen.V4 m outs c main_v24_1 = outs 4 main_v24_1 c := by
  dsimp only [Gen.V4]
  rw [Function.update_of_ne (StableHlo.devRef_ne_of_ne (by decide)), Function.update_self]
theorem hD_V4_sumsq : Gen.V4 m outs c main_v24_2 = outs 4 main_v24_2 c := by
  dsimp only [Gen.V4]
  rw [Function.update_self]

/-- The scale and shift vectors are still as launched. -/
theorem hD_V4_arg9 : Gen.V4 m outs c main_arg9 = m ((c : Thread nD τ).loc main_arg9) :=
  (Gen.V4_of m outs c main_arg9 (by decide)).trans <| (Gen.V3_of m outs c main_arg9 (by decide)).trans <| (Gen.V2_of m outs c main_arg9 (by decide)).trans <| (Gen.V1_of m c main_arg9 (by decide)).trans rfl
theorem hD_V4_arg10 : Gen.V4 m outs c main_arg10 = m ((c : Thread nD τ).loc main_arg10) :=
  (Gen.V4_of m outs c main_arg10 (by decide)).trans <| (Gen.V3_of m outs c main_arg10 (by decide)).trans <| (Gen.V2_of m outs c main_arg10 (by decide)).trans <| (Gen.V1_of m c main_arg10 (by decide)).trans rfl

/-- The mean row at column `j`. -/
theorem hD_V5_mean (j : Fin 128) :
    (Gen.V5 m outs c main_v26 : S1x128.Idx → EReal) (ix2 0 j)
      = Ideal.div ((outs 4 main_v24_1 c : S1x128.Idx → EReal) (ix2 0 j)) Cert.Spec.nf := by
  have e : (Gen.V5 m outs c main_v26 : S1x128.Idx → EReal)
      = Host.divf (F := Ideal) (outs 4 main_v24_1 c : S1x128.Idx → EReal) (broadcastInDim S1x128 ![] bcast_S_S1x128 (constant (F := Ideal) S_ .f32 0x47C35000#32)) := by
    dsimp only [Gen.V5]; after_results; rw [hD_V4_sum]
  rw [e, hD_meanRow_apply]

/-- The variance row at column `j`. -/
theorem hD_V5_var (j : Fin 128) :
    (Gen.V5 m outs c main_v32 : S1x128.Idx → EReal) (ix2 0 j)
      = max (Ideal.div ((outs 4 main_v24_2 c : S1x128.Idx → EReal) (ix2 0 j)) Cert.Spec.nf
          - Ideal.div ((outs 4 main_v24_1 c : S1x128.Idx → EReal) (ix2 0 j)) Cert.Spec.nf
            * Ideal.div ((outs 4 main_v24_1 c : S1x128.Idx → EReal) (ix2 0 j)) Cert.Spec.nf) Cert.Spec.zero := by
  have e : (Gen.V5 m outs c main_v32 : S1x128.Idx → EReal)
      = maximumf (subf (Host.divf (F := Ideal) (outs 4 main_v24_2 c : S1x128.Idx → EReal) (broadcastInDim S1x128 ![] bcast_S_S1x128 (constant (F := Ideal) S_ .f32 0x47C35000#32)))
          (mulf (Host.divf (F := Ideal) (outs 4 main_v24_1 c : S1x128.Idx → EReal) (broadcastInDim S1x128 ![] bcast_S_S1x128 (constant (F := Ideal) S_ .f32 0x47C35000#32)))
            (Host.divf (F := Ideal) (outs 4 main_v24_1 c : S1x128.Idx → EReal) (broadcastInDim S1x128 ![] bcast_S_S1x128 (constant (F := Ideal) S_ .f32 0x47C35000#32)))))
        (broadcastInDim S1x128 ![] bcast_S_S1x128 (constant (F := Ideal) S_ .f32 0x00000000#32)) := by
    dsimp only [Gen.V5]; after_results; rw [hD_V4_sum, hD_V4_sumsq]
  rw [e, hD_varRow_apply]

/-- The scale row at column `j` is the scale vector at `j`. -/
theorem hD_V5_scale (j : Fin 128) :
    (Gen.V5 m outs c main_v33 : S1x128.Idx → EReal) (ix2 0 j) = (m ((c : Thread nD τ).loc main_arg9) : S128.Idx → EReal) (ix1 j) := by
  have e : (Gen.V5 m outs c main_v33 : S1x128.Idx → EReal)
      = shapeCast S1x128 (m ((c : Thread nD τ).loc main_arg9) : S128.Idx → EReal) shapeCasts_S128_S1x128 := by
    dsimp only [Gen.V5]; after_results; rw [hD_V4_arg9]; rfl
  rw [e, hD_rowOfVector_apply]

/-- The shift row at column `j` is the shift vector at `j`. -/
theorem hD_V5_shift (j : Fin 128) :
    (Gen.V5 m outs c main_v34 : S1x128.Idx → EReal) (ix2 0 j) = (m ((c : Thread nD τ).loc main_arg10) : S128.Idx → EReal) (ix1 j) := by
  have e : (Gen.V5 m outs c main_v34 : S1x128.Idx → EReal)
      = shapeCast S1x128 (m ((c : Thread nD τ).loc main_arg10) : S128.Idx → EReal) shapeCasts_S128_S1x128 := by
    dsimp only [Gen.V5]; after_results; rw [hD_V4_arg10]; rfl
  rw [e, hD_rowOfVector_apply]

/-- The stretch does not touch the aggregated features the sums kernel left. -/
theorem hD_V5_agg : Gen.V5 m outs c main_v24_0 = outs 4 main_v24_0 c :=
  (Gen.V5_of m outs c main_v24_0 (by decide)).trans (hD_V4_agg m outs c)

/-! ## After region 4: the stretch between the sums kernel and the normalising kernel -/

/-- What the sums kernel left is what the stretch starts from. -/
theorem hD_V9_agg : Gen.V9 m outs c main_v48_0 = outs 9 main_v48_0 c := by
  dsimp only [Gen.V9]
  rw [Function.update_of_ne (StableHlo.devRef_ne_of_ne (by decide)), Function.update_of_ne (StableHlo.devRef_ne_of_ne (by decide)), Function.update_self]
theorem hD_V9_sum : Gen.V9 m outs c main_v48_1 = outs 9 main_v48_1 c := by
  dsimp only [Gen.V9]
  rw [Function.update_of_ne (StableHlo.devRef_ne_of_ne (by decide)), Function.update_self]
theorem hD_V9_sumsq : Gen.V9 m outs c main_v48_2 = outs 9 main_v48_2 c := by
  dsimp only [Gen.V9]
  rw [Function.update_self]

/-- The scale and shift vectors are still as launched. -/
theorem hD_V9_arg11 : Gen.V9 m outs c main_arg11 = m ((c : Thread nD τ).loc main_arg11) :=
  (Gen.V9_of m outs c main_arg11 (by decide)).trans <| (Gen.V8_of m outs c main_arg11 (by decide)).trans <| (Gen.V7_of m outs c main_arg11 (by decide)).trans <| (Gen.V6_of m outs c main_arg11 (by decide)).trans <| (Gen.V5_of m outs c main_arg11 (by decide)).trans <| (Gen.V4_of m outs c main_arg11 (by decide)).trans <| (Gen.V3_of m outs c main_arg11 (by decide)).trans <| (Gen.V2_of m outs c main_arg11 (by decide)).trans <| (Gen.V1_of m c main_arg11 (by decide)).trans rfl
theorem hD_V9_arg12 : Gen.V9 m outs c main_arg12 = m ((c : Thread nD τ).loc main_arg12) :=
  (Gen.V9_of m outs c main_arg12 (by decide)).trans <| (Gen.V8_of m outs c main_arg12 (by decide)).trans <| (Gen.V7_of m outs c main_arg12 (by decide)).trans <| (Gen.V6_of m outs c main_arg12 (by decide)).trans <| (Gen.V5_of m outs c main_arg12 (by decide)).trans <| (Gen.V4_of m outs c main_arg12 (by decide)).trans <| (Gen.V3_of m outs c main_arg12 (by decide)).trans <| (Gen.V2_of m outs c main_arg12 (by decide)).trans <| (Gen.V1_of m c main_arg12 (by decide)).trans rfl

/-- The mean row at column `j`. -/
theorem hD_V10_mean (j : Fin 128) :
    (Gen.V10 m outs c main_v50 : S1x128.Idx → EReal) (ix2 0 j)
      = Ideal.div ((outs 9 main_v48_1 c : S1x128.Idx → EReal) (ix2 0 j)) Cert.Spec.nf := by
  have e : (Gen.V10 m outs c main_v50 : S1x128.Idx → EReal)
      = Host.divf (F := Ideal) (outs 9 main_v48_1 c : S1x128.Idx → EReal) (broadcastInDim S1x128 ![] bcast_S_S1x128 (constant (F := Ideal) S_ .f32 0x47C35000#32)) := by
    dsimp only [Gen.V10]; after_results; rw [hD_V9_sum]
  rw [e, hD_meanRow_apply]

/-- The variance row at column `j`. -/
theorem hD_V10_var (j : Fin 128) :
    (Gen.V10 m outs c main_v56 : S1x128.Idx → EReal) (ix2 0 j)
      = max (Ideal.div ((outs 9 main_v48_2 c : S1x128.Idx → EReal) (ix2 0 j)) Cert.Spec.nf
          - Ideal.div ((outs 9 main_v48_1 c : S1x128.Idx → EReal) (ix2 0 j)) Cert.Spec.nf
            * Ideal.div ((outs 9 main_v48_1 c : S1x128.Idx → EReal) (ix2 0 j)) Cert.Spec.nf) Cert.Spec.zero := by
  have e : (Gen.V10 m outs c main_v56 : S1x128.Idx → EReal)
      = maximumf (subf (Host.divf (F := Ideal) (outs 9 main_v48_2 c : S1x128.Idx → EReal) (broadcastInDim S1x128 ![] bcast_S_S1x128 (constant (F := Ideal) S_ .f32 0x47C35000#32)))
          (mulf (Host.divf (F := Ideal) (outs 9 main_v48_1 c : S1x128.Idx → EReal) (broadcastInDim S1x128 ![] bcast_S_S1x128 (constant (F := Ideal) S_ .f32 0x47C35000#32)))
            (Host.divf (F := Ideal) (outs 9 main_v48_1 c : S1x128.Idx → EReal) (broadcastInDim S1x128 ![] bcast_S_S1x128 (constant (F := Ideal) S_ .f32 0x47C35000#32)))))
        (broadcastInDim S1x128 ![] bcast_S_S1x128 (constant (F := Ideal) S_ .f32 0x00000000#32)) := by
    dsimp only [Gen.V10]; after_results; rw [hD_V9_sum, hD_V9_sumsq]
  rw [e, hD_varRow_apply]

/-- The scale row at column `j` is the scale vector at `j`. -/
theorem hD_V10_scale (j : Fin 128) :
    (Gen.V10 m outs c main_v57 : S1x128.Idx → EReal) (ix2 0 j) = (m ((c : Thread nD τ).loc main_arg11) : S128.Idx → EReal) (ix1 j) := by
  have e : (Gen.V10 m outs c main_v57 : S1x128.Idx → EReal)
      = shapeCast S1x128 (m ((c : Thread nD τ).loc main_arg11) : S128.Idx → EReal) shapeCasts_S128_S1x128 := by
    dsimp only [Gen.V10]; after_results; rw [hD_V9_arg11]; rfl
  rw [e, hD_rowOfVector_apply]

/-- The shift row at column `j` is the shift vector at `j`. -/
theorem hD_V10_shift (j : Fin 128) :
    (Gen.V10 m outs c main_v58 : S1x128.Idx → EReal) (ix2 0 j) = (m ((c : Thread nD τ).loc main_arg12) : S128.Idx → EReal) (ix1 j) := by
  have e : (Gen.V10 m outs c main_v58 : S1x128.Idx → EReal)
      = shapeCast S1x128 (m ((c : Thread nD τ).loc main_arg12) : S128.Idx → EReal) shapeCasts_S128_S1x128 := by
    dsimp only [Gen.V10]; after_results; rw [hD_V9_arg12]; rfl
  rw [e, hD_rowOfVector_apply]

/-- The stretch does not touch the aggregated features the sums kernel left. -/
theorem hD_V10_agg : Gen.V10 m outs c main_v48_0 = outs 9 main_v48_0 c :=
  (Gen.V10_of m outs c main_v48_0 (by decide)).trans (hD_V9_agg m outs c)

/-! ## After region 7: the stretch between the sums kernel and the normalising kernel -/

/-- What the sums kernel left is what the stretch starts from. -/
theorem hD_V14_agg : Gen.V14 m outs c main_v72_0 = outs 14 main_v72_0 c := by
  dsimp only [Gen.V14]
  rw [Function.update_of_ne (StableHlo.devRef_ne_of_ne (by decide)), Function.update_of_ne (StableHlo.devRef_ne_of_ne (by decide)), Function.update_self]
theorem hD_V14_sum : Gen.V14 m outs c main_v72_1 = outs 14 main_v72_1 c := by
  dsimp only [Gen.V14]
  rw [Function.update_of_ne (StableHlo.devRef_ne_of_ne (by decide)), Function.update_self]
theorem hD_V14_sumsq : Gen.V14 m outs c main_v72_2 = outs 14 main_v72_2 c := by
  dsimp only [Gen.V14]
  rw [Function.update_self]

/-- The scale and shift vectors are still as launched. -/
theorem hD_V14_arg13 : Gen.V14 m outs c main_arg13 = m ((c : Thread nD τ).loc main_arg13) :=
  (Gen.V14_of m outs c main_arg13 (by decide)).trans <| (Gen.V13_of m outs c main_arg13 (by decide)).trans <| (Gen.V12_of m outs c main_arg13 (by decide)).trans <| (Gen.V11_of m outs c main_arg13 (by decide)).trans <| (Gen.V10_of m outs c main_arg13 (by decide)).trans <| (Gen.V9_of m outs c main_arg13 (by decide)).trans <| (Gen.V8_of m outs c main_arg13 (by decide)).trans <| (Gen.V7_of m outs c main_arg13 (by decide)).trans <| (Gen.V6_of m outs c main_arg13 (by decide)).trans <| (Gen.V5_of m outs c main_arg13 (by decide)).trans <| (Gen.V4_of m outs c main_arg13 (by decide)).trans <| (Gen.V3_of m outs c main_arg13 (by decide)).trans <| (Gen.V2_of m outs c main_arg13 (by decide)).trans <| (Gen.V1_of m c main_arg13 (by decide)).trans rfl
theorem hD_V14_arg14 : Gen.V14 m outs c main_arg14 = m ((c : Thread nD τ).loc main_arg14) :=
  (Gen.V14_of m outs c main_arg14 (by decide)).trans <| (Gen.V13_of m outs c main_arg14 (by decide)).trans <| (Gen.V12_of m outs c main_arg14 (by decide)).trans <| (Gen.V11_of m outs c main_arg14 (by decide)).trans <| (Gen.V10_of m outs c main_arg14 (by decide)).trans <| (Gen.V9_of m outs c main_arg14 (by decide)).trans <| (Gen.V8_of m outs c main_arg14 (by decide)).trans <| (Gen.V7_of m outs c main_arg14 (by decide)).trans <| (Gen.V6_of m outs c main_arg14 (by decide)).trans <| (Gen.V5_of m outs c main_arg14 (by decide)).trans <| (Gen.V4_of m outs c main_arg14 (by decide)).trans <| (Gen.V3_of m outs c main_arg14 (by decide)).trans <| (Gen.V2_of m outs c main_arg14 (by decide)).trans <| (Gen.V1_of m c main_arg14 (by decide)).trans rfl

/-- The mean row at column `j`. -/
theorem hD_V15_mean (j : Fin 128) :
    (Gen.V15 m outs c main_v74 : S1x128.Idx → EReal) (ix2 0 j)
      = Ideal.div ((outs 14 main_v72_1 c : S1x128.Idx → EReal) (ix2 0 j)) Cert.Spec.nf := by
  have e : (Gen.V15 m outs c main_v74 : S1x128.Idx → EReal)
      = Host.divf (F := Ideal) (outs 14 main_v72_1 c : S1x128.Idx → EReal) (broadcastInDim S1x128 ![] bcast_S_S1x128 (constant (F := Ideal) S_ .f32 0x47C35000#32)) := by
    dsimp only [Gen.V15]; after_results; rw [hD_V14_sum]
  rw [e, hD_meanRow_apply]

/-- The variance row at column `j`. -/
theorem hD_V15_var (j : Fin 128) :
    (Gen.V15 m outs c main_v80 : S1x128.Idx → EReal) (ix2 0 j)
      = max (Ideal.div ((outs 14 main_v72_2 c : S1x128.Idx → EReal) (ix2 0 j)) Cert.Spec.nf
          - Ideal.div ((outs 14 main_v72_1 c : S1x128.Idx → EReal) (ix2 0 j)) Cert.Spec.nf
            * Ideal.div ((outs 14 main_v72_1 c : S1x128.Idx → EReal) (ix2 0 j)) Cert.Spec.nf) Cert.Spec.zero := by
  have e : (Gen.V15 m outs c main_v80 : S1x128.Idx → EReal)
      = maximumf (subf (Host.divf (F := Ideal) (outs 14 main_v72_2 c : S1x128.Idx → EReal) (broadcastInDim S1x128 ![] bcast_S_S1x128 (constant (F := Ideal) S_ .f32 0x47C35000#32)))
          (mulf (Host.divf (F := Ideal) (outs 14 main_v72_1 c : S1x128.Idx → EReal) (broadcastInDim S1x128 ![] bcast_S_S1x128 (constant (F := Ideal) S_ .f32 0x47C35000#32)))
            (Host.divf (F := Ideal) (outs 14 main_v72_1 c : S1x128.Idx → EReal) (broadcastInDim S1x128 ![] bcast_S_S1x128 (constant (F := Ideal) S_ .f32 0x47C35000#32)))))
        (broadcastInDim S1x128 ![] bcast_S_S1x128 (constant (F := Ideal) S_ .f32 0x00000000#32)) := by
    dsimp only [Gen.V15]; after_results; rw [hD_V14_sum, hD_V14_sumsq]
  rw [e, hD_varRow_apply]

/-- The scale row at column `j` is the scale vector at `j`. -/
theorem hD_V15_scale (j : Fin 128) :
    (Gen.V15 m outs c main_v81 : S1x128.Idx → EReal) (ix2 0 j) = (m ((c : Thread nD τ).loc main_arg13) : S128.Idx → EReal) (ix1 j) := by
  have e : (Gen.V15 m outs c main_v81 : S1x128.Idx → EReal)
      = shapeCast S1x128 (m ((c : Thread nD τ).loc main_arg13) : S128.Idx → EReal) shapeCasts_S128_S1x128 := by
    dsimp only [Gen.V15]; after_results; rw [hD_V14_arg13]; rfl
  rw [e, hD_rowOfVector_apply]

/-- The shift row at column `j` is the shift vector at `j`. -/
theorem hD_V15_shift (j : Fin 128) :
    (Gen.V15 m outs c main_v82 : S1x128.Idx → EReal) (ix2 0 j) = (m ((c : Thread nD τ).loc main_arg14) : S128.Idx → EReal) (ix1 j) := by
  have e : (Gen.V15 m outs c main_v82 : S1x128.Idx → EReal)
      = shapeCast S1x128 (m ((c : Thread nD τ).loc main_arg14) : S128.Idx → EReal) shapeCasts_S128_S1x128 := by
    dsimp only [Gen.V15]; after_results; rw [hD_V14_arg14]; rfl
  rw [e, hD_rowOfVector_apply]

/-- The stretch does not touch the aggregated features the sums kernel left. -/
theorem hD_V15_agg : Gen.V15 m outs c main_v72_0 = outs 14 main_v72_0 c :=
  (Gen.V15_of m outs c main_v72_0 (by decide)).trans (hD_V14_agg m outs c)

end Cert.KernelIdeal.Hand
-- ==== Proof.KI.HostPool.lean ====
/-
  The pooling stretch after the last normalising kernel, read at an index on the extended reals. Each node carries a
  graph number; the host counts the nodes of graph q (ones scattered at the graph numbers, from zero), sums their
  feature rows (rows scattered at the graph numbers, from zero), divides the sum by the count kept at least one, and
  writes the pooled [256,128] block twice side by side into [256,256]. The two bias vectors are laid out as rows.
  Every statement is over arbitrary launch contents and arbitrary contents left by the kernels.
-/
import proofs.«115763_j74259984548099_2_alg».proof.Proof.KI.HostStats
import proofs.«115763_j74259984548099_2_alg».proof.Proof.KI.HostRows

noncomputable section

namespace Cert.KernelIdeal.Hand

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ) (outs : Gen.Outs (F := Ideal)) (c : Dev nD)

/-! ## The operations at an index -/

/-- The number of nodes of graph `q`: ones scattered at the graph numbers, from zero. -/
theorem hD_poolCount_apply (batch : S100000.Idx → BitVec 32) (q : Fin 256) :
    Host.scatterAdd (F := Ideal) scatter_S256_S100000x1_S100000_n_0_0_1
        (broadcastInDim S256 ![] bcast_S_S256 (constant (F := Ideal) S_ .f32 0x00000000#32))
        (broadcastInDim S100000x1 ![0] bcast_S100000_S100000x1_0 batch)
        (broadcastInDim S100000 ![] bcast_S_S100000 (constant (F := Ideal) S_ .f32 0x3F800000#32)) (ix1 q)
      = Cert.Spec.zero + ∑ _r ∈ Cert.Spec.into (fun r => batch (ix1 r)) q, Cert.Spec.one := by
  rw [hF_hostScatterAdd_eq, hF_scatterCount_rec, Cert.Lib.Rows.scatterAddElts_apply, hD_splat_apply,
    hF_edgesInto_eq_into _ (fun r => batch (ix1 r)) (fun r => hF_column_apply batch _ r 0)]
  exact congrArg (fun t : EReal => Cert.Spec.zero + t) (Finset.sum_congr rfl fun r _ => hD_splat_apply _ _ (ix1 r))

/-- The sum of the feature rows of graph `q`, at column `j`: rows scattered at the graph numbers, from zero. -/
theorem hD_poolSum_apply (batch : S100000.Idx → BitVec 32) (x : S100000x128.Idx → EReal) (q : Fin 256) (j : Fin 128) :
    Host.scatterAdd (F := Ideal) scatter_S256x128_S100000x1_S100000x128_1_0_0_1
        (broadcastInDim S256x128 ![] bcast_S_S256x128 (constant (F := Ideal) S_ .f32 0x00000000#32))
        (broadcastInDim S100000x1 ![0] bcast_S100000_S100000x1_0 batch) x (ix2 q j)
      = Cert.Spec.zero + ∑ r ∈ Cert.Spec.into (fun r => batch (ix1 r)) q, x (ix2 r j) := by
  rw [hF_hostScatterAdd_eq, hF_scatterPool_rec, Cert.Lib.Rows.scatterAddRows_apply, hD_splat_apply,
    hF_edgesInto_eq_into _ (fun r => batch (ix1 r)) (fun r => hF_column_apply batch _ r 0)]

/-- A vector [256] stood up as a column and spread over 128 columns reads, at (q, j), the vector at q. -/
theorem hD_spreadRows_apply (v : S256.Idx → EReal) (q : Fin 256) (j : Fin 128) :
    broadcastInDim S256x128 ![0, 1] bcast_S256x1_S256x128_0_1 (broadcastInDim S256x1 ![0] bcast_S256_S256x1_0 v) (ix2 q j)
      = v (ix1 q) := by
  refine (broadcastInDim_apply ![0, 1] bcast_S256x1_S256x128_0_1 _ (ix2 q j) (ix2 q (0 : Fin 1)) fun a => ?_).trans
    (hF_column_apply v _ q 0)
  match a with
  | ⟨0, _⟩ => rfl
  | ⟨1, _⟩ => rfl

/-- The pooled block as the host computes it, from the graph numbers and the feature array. -/
def hD_pooledTerm (batch : S100000.Idx → BitVec 32) (x : S100000x128.Idx → EReal) : S256x128.Idx → EReal :=
  Host.divf (F := Ideal)
    (Host.scatterAdd (F := Ideal) scatter_S256x128_S100000x1_S100000x128_1_0_0_1
      (broadcastInDim S256x128 ![] bcast_S_S256x128 (constant (F := Ideal) S_ .f32 0x00000000#32))
      (broadcastInDim S100000x1 ![0] bcast_S100000_S100000x1_0 batch) x)
    (broadcastInDim S256x128 ![0, 1] bcast_S256x1_S256x128_0_1
      (broadcastInDim S256x1 ![0] bcast_S256_S256x1_0
        (maximumf
          (Host.scatterAdd (F := Ideal) scatter_S256_S100000x1_S100000_n_0_0_1
            (broadcastInDim S256 ![] bcast_S_S256 (constant (F := Ideal) S_ .f32 0x00000000#32))
            (broadcastInDim S100000x1 ![0] bcast_S100000_S100000x1_0 batch)
            (broadcastInDim S100000 ![] bcast_S_S100000 (constant (F := Ideal) S_ .f32 0x3F800000#32)))
          (broadcastInDim S256 ![] bcast_S_S256 (constant (F := Ideal) S_ .f32 0x3F800000#32)))))

/-- At (q, j) it is the mean of the feature rows of graph `q` at column `j`, the count kept at least one. -/
theorem hD_pooledTerm_apply (batch : S100000.Idx → BitVec 32) (x : S100000x128.Idx → EReal) (q : Fin 256) (j : Fin 128) :
    hD_pooledTerm batch x (ix2 q j)
      = Cert.Spec.pooled (fun r => batch (ix1 r)) (fun r j => x (ix2 r j)) q j := by
  unfold hD_pooledTerm
  rw [hD_hostDivf_apply, hD_poolSum_apply, hD_spreadRows_apply, maximumf_apply, hD_poolCount_apply, hD_splat_apply]
  rfl

/-- A [256,128] block written twice side by side reads, at (q, l), the block at (q, l) or (q, l - 128). -/
theorem hD_concatDoubled_apply (v : S256x128.Idx → EReal) (q : Fin 256) (l : Fin (128 + 128)) :
    concatenate S256x256 1 [⟨S256x128, v⟩, ⟨S256x128, v⟩] concatenates_S256x128_S256x128_S256x256_d1 (ix2 q l)
      = Cert.Spec.doubled (fun q j => v (ix2 q j)) q l := by
  unfold Cert.Spec.doubled
  induction l using Fin.addCases with
  | left i =>
    rw [Fin.addCases_left]
    exact concatenate_pair_apply_left (1 : Fin 2) v v _ (ix2 q (Fin.castAdd 128 i)) rfl (ix2 q i)
      (fun b => by match b with | ⟨0, _⟩ => rfl | ⟨1, _⟩ => rfl)
  | right i =>
    rw [Fin.addCases_right]
    exact concatenate_pair_apply_right (1 : Fin 2) v v _ (ix2 q (Fin.natAdd 128 i)) rfl rfl (ix2 q i)
      (fun b hb => by match b with | ⟨0, _⟩ => rfl | ⟨1, _⟩ => exact absurd rfl hb)
      (by show i.val + 128 = 128 + i.val; omega)

/-! ## After region 8: what the last kernel reads -/

/-- What the last normalising kernel left is what the stretch starts from. -/
theorem hD_V16_feat : Gen.V16 m outs c main_v83 = outs 16 main_v83 c := by
  dsimp only [Gen.V16]
  rw [Function.update_self]

/-- The graph numbers, the two weight matrices and the two bias vectors are still as launched. -/
theorem hD_V16_arg2 : Gen.V16 m outs c main_arg2 = m ((c : Thread nD τ).loc main_arg2) :=
  (Gen.V16_of m outs c main_arg2 (by decide)).trans <| (Gen.V15_of m outs c main_arg2 (by decide)).trans <| (Gen.V14_of m outs c main_arg2 (by decide)).trans <| (Gen.V13_of m outs c main_arg2 (by decide)).trans <| (Gen.V12_of m outs c main_arg2 (by decide)).trans <| (Gen.V11_of m outs c main_arg2 (by decide)).trans <| (Gen.V10_of m outs c main_arg2 (by decide)).trans <| (Gen.V9_of m outs c main_arg2 (by decide)).trans <| (Gen.V8_of m outs c main_arg2 (by decide)).trans <| (Gen.V7_of m outs c main_arg2 (by decide)).trans <| (Gen.V6_of m outs c main_arg2 (by decide)).trans <| (Gen.V5_of m outs c main_arg2 (by decide)).trans <| (Gen.V4_of m outs c main_arg2 (by decide)).trans <| (Gen.V3_of m outs c main_arg2 (by decide)).trans <| (Gen.V2_of m outs c main_arg2 (by decide)).trans <| (Gen.V1_of m c main_arg2 (by decide)).trans rfl
theorem hD_V16_arg16 : Gen.V16 m outs c main_arg16 = m ((c : Thread nD τ).loc main_arg16) :=
  (Gen.V16_of m outs c main_arg16 (by decide)).trans <| (Gen.V15_of m outs c main_arg16 (by decide)).trans <| (Gen.V14_of m outs c main_arg16 (by decide)).trans <| (Gen.V13_of m outs c main_arg16 (by decide)).trans <| (Gen.V12_of m outs c main_arg16 (by decide)).trans <| (Gen.V11_of m outs c main_arg16 (by decide)).trans <| (Gen.V10_of m outs c main_arg16 (by decide)).trans <| (Gen.V9_of m outs c main_arg16 (by decide)).trans <| (Gen.V8_of m outs c main_arg16 (by decide)).trans <| (Gen.V7_of m outs c main_arg16 (by decide)).trans <| (Gen.V6_of m outs c main_arg16 (by decide)).trans <| (Gen.V5_of m outs c main_arg16 (by decide)).trans <| (Gen.V4_of m outs c main_arg16 (by decide)).trans <| (Gen.V3_of m outs c main_arg16 (by decide)).trans <| (Gen.V2_of m outs c main_arg16 (by decide)).trans <| (Gen.V1_of m c main_arg16 (by decide)).trans rfl
theorem hD_V16_arg18 : Gen.V16 m outs c main_arg18 = m ((c : Thread nD τ).loc main_arg18) :=
  (Gen.V16_of m outs c main_arg18 (by decide)).trans <| (Gen.V15_of m outs c main_arg18 (by decide)).trans <| (Gen.V14_of m outs c main_arg18 (by decide)).trans <| (Gen.V13_of m outs c main_arg18 (by decide)).trans <| (Gen.V12_of m outs c main_arg18 (by decide)).trans <| (Gen.V11_of m outs c main_arg18 (by decide)).trans <| (Gen.V10_of m outs c main_arg18 (by decide)).trans <| (Gen.V9_of m outs c main_arg18 (by decide)).trans <| (Gen.V8_of m outs c main_arg18 (by decide)).trans <| (Gen.V7_of m outs c main_arg18 (by decide)).trans <| (Gen.V6_of m outs c main_arg18 (by decide)).trans <| (Gen.V5_of m outs c main_arg18 (by decide)).trans <| (Gen.V4_of m outs c main_arg18 (by decide)).trans <| (Gen.V3_of m outs c main_arg18 (by decide)).trans <| (Gen.V2_of m outs c main_arg18 (by decide)).trans <| (Gen.V1_of m c main_arg18 (by decide)).trans rfl
theorem hD_V17_arg15 : Gen.V17 m outs c main_arg15 = m ((c : Thread nD τ).loc main_arg15) :=
  (Gen.V17_of m outs c main_arg15 (by decide)).trans <| (Gen.V16_of m outs c main_arg15 (by decide)).trans <| (Gen.V15_of m outs c main_arg15 (by decide)).trans <| (Gen.V14_of m outs c main_arg15 (by decide)).trans <| (Gen.V13_of m outs c main_arg15 (by decide)).trans <| (Gen.V12_of m outs c main_arg15 (by decide)).trans <| (Gen.V11_of m outs c main_arg15 (by decide)).trans <| (Gen.V10_of m outs c main_arg15 (by decide)).trans <| (Gen.V9_of m outs c main_arg15 (by decide)).trans <| (Gen.V8_of m outs c main_arg15 (by decide)).trans <| (Gen.V7_of m outs c main_arg15 (by decide)).trans <| (Gen.V6_of m outs c main_arg15 (by decide)).trans <| (Gen.V5_of m outs c main_arg15 (by decide)).trans <| (Gen.V4_of m outs c main_arg15 (by decide)).trans <| (Gen.V3_of m outs c main_arg15 (by decide)).trans <| (Gen.V2_of m outs c main_arg15 (by decide)).trans <| (Gen.V1_of m c main_arg15 (by decide)).trans rfl
theorem hD_V17_arg17 : Gen.V17 m outs c main_arg17 = m ((c : Thread nD τ).loc main_arg17) :=
  (Gen.V17_of m outs c main_arg17 (by decide)).trans <| (Gen.V16_of m outs c main_arg17 (by decide)).trans <| (Gen.V15_of m outs c main_arg17 (by decide)).trans <| (Gen.V14_of m outs c main_arg17 (by decide)).trans <| (Gen.V13_of m outs c main_arg17 (by decide)).trans <| (Gen.V12_of m outs c main_arg17 (by decide)).trans <| (Gen.V11_of m outs c main_arg17 (by decide)).trans <| (Gen.V10_of m outs c main_arg17 (by decide)).trans <| (Gen.V9_of m outs c main_arg17 (by decide)).trans <| (Gen.V8_of m outs c main_arg17 (by decide)).trans <| (Gen.V7_of m outs c main_arg17 (by decide)).trans <| (Gen.V6_of m outs c main_arg17 (by decide)).trans <| (Gen.V5_of m outs c main_arg17 (by decide)).trans <| (Gen.V4_of m outs c main_arg17 (by decide)).trans <| (Gen.V3_of m outs c main_arg17 (by decide)).trans <| (Gen.V2_of m outs c main_arg17 (by decide)).trans <| (Gen.V1_of m c main_arg17 (by decide)).trans rfl

/-- The pooled features written twice: entry (q, l) is the doubled mean pooling of the specification, of the graph
    numbers as launched and the features the last normalising kernel left. -/
theorem hD_V17_pool (q : Fin 256) (l : Fin 256) :
    (Gen.V17 m outs c main_v96 : S256x256.Idx → EReal) (ix2 q l)
      = Cert.Spec.doubled (Cert.Spec.pooled (fun r => (m ((c : Thread nD τ).loc main_arg2) : S100000.Idx → BitVec 32) (ix1 r))
          (fun r j => (outs 16 main_v83 c : S100000x128.Idx → EReal) (ix2 r j))) q (l : Fin (128 + 128)) := by
  have e : (Gen.V17 m outs c main_v96 : S256x256.Idx → EReal)
      = concatenate S256x256 1
          [⟨S256x128, hD_pooledTerm (m ((c : Thread nD τ).loc main_arg2) : S100000.Idx → BitVec 32) (outs 16 main_v83 c : S100000x128.Idx → EReal)⟩,
           ⟨S256x128, hD_pooledTerm (m ((c : Thread nD τ).loc main_arg2) : S100000.Idx → BitVec 32) (outs 16 main_v83 c : S100000x128.Idx → EReal)⟩]
          concatenates_S256x128_S256x128_S256x256_d1 := by
    dsimp only [Gen.V17]; after_results; rw [hD_V16_feat, hD_V16_arg2]; rfl
  rw [e]
  refine (hD_concatDoubled_apply _ q l).trans ?_
  exact congrArg (fun f : Cert.Spec.Mat 256 128 => Cert.Spec.doubled f q l)
    (funext fun q => funext fun j => hD_pooledTerm_apply _ _ q j)

/-- The first bias row at column `k` is the first bias vector at `k`. -/
theorem hD_V17_bias1 (k : Fin 128) :
    (Gen.V17 m outs c main_v97 : S1x128.Idx → EReal) (ix2 0 k) = (m ((c : Thread nD τ).loc main_arg16) : S128.Idx → EReal) (ix1 k) := by
  have e : (Gen.V17 m outs c main_v97 : S1x128.Idx → EReal)
      = shapeCast S1x128 (m ((c : Thread nD τ).loc main_arg16) : S128.Idx → EReal) shapeCasts_S128_S1x128 := by
    dsimp only [Gen.V17]; after_results; rw [hD_V16_arg16]; rfl
  rw [e, hD_rowOfVector_apply]

/-- The second bias row at column `j` is the second bias vector at `j`. -/
theorem hD_V17_bias2 (j : Fin 64) :
    (Gen.V17 m outs c main_v98 : S1x64.Idx → EReal) (ix2 0 j) = (m ((c : Thread nD τ).loc main_arg18) : S64.Idx → EReal) (ix1 j) := by
  have e : (Gen.V17 m outs c main_v98 : S1x64.Idx → EReal)
      = shapeCast S1x64 (m ((c : Thread nD τ).loc main_arg18) : S64.Idx → EReal) shapeCasts_S64_S1x64 := by
    dsimp only [Gen.V17]; after_results; rw [hD_V16_arg18]; rfl
  rw [e]
  exact Cert.LibBiasRows.row_of_vector _ shapeCasts_S64_S1x64 j

end Cert.KernelIdeal.Hand
-- ==== Proof.KI.Assemble.lean ====
/-
  The network of the specification put together from its parts.

  A layer is given by nine tables: the degree factors, the scaled dense rows, the edge sums, the combined rows, their
  column totals and totals of squares, the mean and variance rows, and the normalised rectified rows. If each table is,
  entry by entry, the specification's function of the earlier ones, the last table is the layer of the specification.
  The tail (pooling, doubling, two dense layers) is put together the same way.
-/
import Mathlib
import Idealize.ShloMosaic.PureOps.Ideal
import proofs.«115763_j74259984548099_2_alg».proof.Proof.Spec

noncomputable section

namespace Cert.Assemble

open Idealize.ShloMosaic Cert.Spec

/-- Nine tables that are, entry by entry, the specification's functions of one another make up a layer. -/
theorem layerK_of_parts {N E d h : ℕ} (hN : 0 < N) (c : BitVec 32) (src dst : Fin E → BitVec 32)
    (x : Mat N d) (w : Mat d h) (b g beta : Fin h → EReal)
    (DIS : Fin N → EReal) (HS MSG AGG OUT : Mat N h) (SUM SQ MEAN VAR : Fin h → EReal)
    (hDIS : ∀ r, DIS r = disK dst r)
    (hHS : ∀ r j, HS r j = hsK x w DIS r j)
    (hMSG : ∀ r j, MSG r j = edgeSum hN c src dst HS r j)
    (hAGG : ∀ r j, AGG r j = combine MSG HS DIS b r j)
    (hSUM : ∀ j, SUM j = ∑ r : Fin N, AGG r j)
    (hSQ : ∀ j, SQ j = ∑ r : Fin N, AGG r j * AGG r j)
    (hMEAN : ∀ j, MEAN j = Ideal.div (SUM j) nf)
    (hVAR : ∀ j, VAR j = max (Ideal.div (SQ j) nf - MEAN j * MEAN j) zero)
    (hOUT : ∀ r j, OUT r j = bnRelu AGG MEAN VAR g beta r j) :
    OUT = layerK hN c src dst x w b g beta := by
  obtain rfl : DIS = disK dst := funext hDIS
  obtain rfl : HS = hsK x w (disK dst) := funext fun r => funext fun j => hHS r j
  obtain rfl : MSG = edgeSum hN c src dst (hsK x w (disK dst)) := funext fun r => funext fun j => hMSG r j
  obtain rfl : AGG = aggK hN c src dst (disK dst) (hsK x w (disK dst)) b := funext fun r => funext fun j => hAGG r j
  obtain rfl : SUM = fun j => ∑ r : Fin N, aggK hN c src dst (disK dst) (hsK x w (disK dst)) b r j := funext hSUM
  obtain rfl : SQ = fun j => ∑ r : Fin N, aggK hN c src dst (disK dst) (hsK x w (disK dst)) b r j
      * aggK hN c src dst (disK dst) (hsK x w (disK dst)) b r j := funext hSQ
  obtain rfl : MEAN = meanK (aggK hN c src dst (disK dst) (hsK x w (disK dst)) b) := funext hMEAN
  obtain rfl : VAR = varK (aggK hN c src dst (disK dst) (hsK x w (disK dst)) b) := funext hVAR
  exact funext fun r => funext fun j => hOUT r j

/-- The tail put together: the pooled and doubled table, then the two dense layers. -/
theorem tail_of_parts {N G h a o : ℕ} (batch : Fin N → BitVec 32) (L : Mat N h) (cast : Mat G (h + h) → Mat G a)
    (ew1 : Mat a h) (eb1 : Fin h → EReal) (ew2 : Mat h o) (eb2 : Fin o → EReal)
    (XP : Mat G a) (OUT : Mat G o)
    (hXP : ∀ q l, XP q l = cast (doubled (pooled batch L)) q l)
    (hOUT : ∀ q j, OUT q j = mlp XP ew1 eb1 ew2 eb2 q j) :
    OUT = mlp (cast (doubled (pooled batch L))) ew1 eb1 ew2 eb2 := by
  obtain rfl : XP = cast (doubled (pooled batch L)) := funext fun q => funext fun l => hXP q l
  exact funext fun q => funext fun j => hOUT q j

/-! ## Tables that agree entry by entry give the same values -/

theorem hsK_congr {n d h : ℕ} {X X' : Mat n d} {W W' : Mat d h} {D D' : Fin n → EReal}
    (hX : ∀ r k, X r k = X' r k) (hW : ∀ k j, W k j = W' k j) (hD : ∀ r, D r = D' r) (r : Fin n) (j : Fin h) :
    hsK X W D r j = hsK X' W' D' r j := by
  obtain rfl : X = X' := funext fun r => funext fun k => hX r k
  obtain rfl : W = W' := funext fun k => funext fun j => hW k j
  obtain rfl : D = D' := funext hD
  rfl

theorem combine_congr {n h : ℕ} {M M' H H' : Mat n h} {D D' : Fin n → EReal} {B B' : Fin h → EReal}
    (hM : ∀ r j, M r j = M' r j) (hH : ∀ r j, H r j = H' r j) (hD : ∀ r, D r = D' r) (hB : ∀ j, B j = B' j)
    (r : Fin n) (j : Fin h) : combine M H D B r j = combine M' H' D' B' r j := by
  obtain rfl : M = M' := funext fun r => funext fun j => hM r j
  obtain rfl : H = H' := funext fun r => funext fun j => hH r j
  obtain rfl : D = D' := funext hD
  obtain rfl : B = B' := funext hB
  rfl

theorem bnRelu_congr {n h : ℕ} {A A' : Mat n h} {mean mean' var var' g g' beta beta' : Fin h → EReal}
    (hA : ∀ r j, A r j = A' r j) (hm : ∀ j, mean j = mean' j) (hv : ∀ j, var j = var' j) (hg : ∀ j, g j = g' j)
    (hb : ∀ j, beta j = beta' j) (r : Fin n) (j : Fin h) :
    bnRelu A mean var g beta r j = bnRelu A' mean' var' g' beta' r j := by
  obtain rfl : A = A' := funext fun r => funext fun j => hA r j
  obtain rfl : mean = mean' := funext hm
  obtain rfl : var = var' := funext hv
  obtain rfl : g = g' := funext hg
  obtain rfl : beta = beta' := funext hb
  rfl

theorem mlp_congr {G a h o : ℕ} {X X' : Mat G a} {W1 W1' : Mat a h} {B1 B1' : Fin h → EReal} {W2 W2' : Mat h o}
    {B2 B2' : Fin o → EReal} (hX : ∀ q l, X q l = X' q l) (hW1 : ∀ l k, W1 l k = W1' l k) (hB1 : ∀ k, B1 k = B1' k)
    (hW2 : ∀ k j, W2 k j = W2' k j) (hB2 : ∀ j, B2 j = B2' j) (q : Fin G) (j : Fin o) :
    mlp X W1 B1 W2 B2 q j = mlp X' W1' B1' W2' B2' q j := by
  obtain rfl : X = X' := funext fun q => funext fun l => hX q l
  obtain rfl : W1 = W1' := funext fun l => funext fun k => hW1 l k
  obtain rfl : B1 = B1' := funext hB1
  obtain rfl : W2 = W2' := funext fun k => funext fun j => hW2 k j
  obtain rfl : B2 = B2' := funext hB2
  rfl

end Cert.Assemble

end
-- ==== Proof.KI.Value.lean ====
/-
  The kernel program's output buffer as the network of the specification.

  The buffers between the items of the program are followed from the launch to the end: each region's output array is
  the specification's function of the arrays the region finds; each host stretch's results are the specification's
  functions of the buffers it reads; every other buffer passes through unchanged. Put together, layer by layer, the
  last buffer is the network of the argument arrays.
-/
import proofs.«115763_j74259984548099_2_alg».proof.Proof.KI.Chain
import proofs.«115763_j74259984548099_2_alg».proof.Proof.KI.V0
import proofs.«115763_j74259984548099_2_alg».proof.Proof.KI.V1
import proofs.«115763_j74259984548099_2_alg».proof.Proof.KI.V2
import proofs.«115763_j74259984548099_2_alg».proof.Proof.KI.V3
import proofs.«115763_j74259984548099_2_alg».proof.Proof.KI.V4
import proofs.«115763_j74259984548099_2_alg».proof.Proof.KI.V5
import proofs.«115763_j74259984548099_2_alg».proof.Proof.KI.V6
import proofs.«115763_j74259984548099_2_alg».proof.Proof.KI.V7
import proofs.«115763_j74259984548099_2_alg».proof.Proof.KI.V8
import proofs.«115763_j74259984548099_2_alg».proof.Proof.KI.V9
import proofs.«115763_j74259984548099_2_alg».proof.Proof.KI.HostEdges
import proofs.«115763_j74259984548099_2_alg».proof.Proof.KI.HostDegree
import proofs.«115763_j74259984548099_2_alg».proof.Proof.KI.HostMsg1
import proofs.«115763_j74259984548099_2_alg».proof.Proof.KI.HostMsg2
import proofs.«115763_j74259984548099_2_alg».proof.Proof.KI.HostMsg3
import proofs.«115763_j74259984548099_2_alg».proof.Proof.KI.HostStats
import proofs.«115763_j74259984548099_2_alg».proof.Proof.KI.HostPool
import proofs.«115763_j74259984548099_2_alg».proof.Proof.KI.Assemble
import proofs.«115763_j74259984548099_2_alg».proof.Proof.Spec
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-! ## What an item leaves unchanged -/

theorem St1_of (r : Ref sig .tc) (h : r ∉ (hostOps0_W : List (Ref sig .tc))) : St1 m c r = St0 m c r :=
  StableHlo.after_of_writes_sub hostOps0 _ hostOps0_writes h
theorem St2_of (r : Ref sig .tc) (h : r ∉ ([main_v12] : List (Ref sig .tc))) : St2 m c r = St1 m c r := by
  unfold St2
  exact Function.update_of_ne (ne_ref (List.ne_of_not_mem_cons h)) _ _
theorem St3_of (r : Ref sig .tc) (h : r ∉ (hostOps1_W : List (Ref sig .tc))) : St3 m c r = St2 m c r :=
  StableHlo.after_of_writes_sub hostOps1 _ hostOps1_writes h
theorem St4_of (r : Ref sig .tc) (h : r ∉ ([main_v24_0, main_v24_1, main_v24_2] : List (Ref sig .tc))) : St4 m c r = St3 m c r := by
  unfold St4
  rw [Function.update_of_ne (ne_ref (List.ne_of_not_mem_cons (List.not_mem_of_not_mem_cons (List.not_mem_of_not_mem_cons h)))),
    Function.update_of_ne (ne_ref (List.ne_of_not_mem_cons (List.not_mem_of_not_mem_cons h))),
    Function.update_of_ne (ne_ref (List.ne_of_not_mem_cons h))]
theorem St5_of (r : Ref sig .tc) (h : r ∉ (hostOps2_W : List (Ref sig .tc))) : St5 m c r = St4 m c r :=
  StableHlo.after_of_writes_sub hostOps2 _ hostOps2_writes h
theorem St6_of (r : Ref sig .tc) (h : r ∉ ([main_v35] : List (Ref sig .tc))) : St6 m c r = St5 m c r := by
  unfold St6
  exact Function.update_of_ne (ne_ref (List.ne_of_not_mem_cons h)) _ _
theorem St7_of (r : Ref sig .tc) (h : r ∉ ([main_v36] : List (Ref sig .tc))) : St7 m c r = St6 m c r := by
  unfold St7
  exact Function.update_of_ne (ne_ref (List.ne_of_not_mem_cons h)) _ _
theorem St8_of (r : Ref sig .tc) (h : r ∉ (hostOps4_W : List (Ref sig .tc))) : St8 m c r = St7 m c r :=
  StableHlo.after_of_writes_sub hostOps4 _ hostOps4_writes h
theorem St9_of (r : Ref sig .tc) (h : r ∉ ([main_v48_0, main_v48_1, main_v48_2] : List (Ref sig .tc))) : St9 m c r = St8 m c r := by
  unfold St9
  rw [Function.update_of_ne (ne_ref (List.ne_of_not_mem_cons (List.not_mem_of_not_mem_cons (List.not_mem_of_not_mem_cons h)))),
    Function.update_of_ne (ne_ref (List.ne_of_not_mem_cons (List.not_mem_of_not_mem_cons h))),
    Function.update_of_ne (ne_ref (List.ne_of_not_mem_cons h))]
theorem St10_of (r : Ref sig .tc) (h : r ∉ (hostOps5_W : List (Ref sig .tc))) : St10 m c r = St9 m c r :=
  StableHlo.after_of_writes_sub hostOps5 _ hostOps5_writes h
theorem St11_of (r : Ref sig .tc) (h : r ∉ ([main_v59] : List (Ref sig .tc))) : St11 m c r = St10 m c r := by
  unfold St11
  exact Function.update_of_ne (ne_ref (List.ne_of_not_mem_cons h)) _ _
theorem St12_of (r : Ref sig .tc) (h : r ∉ ([main_v60] : List (Ref sig .tc))) : St12 m c r = St11 m c r := by
  unfold St12
  exact Function.update_of_ne (ne_ref (List.ne_of_not_mem_cons h)) _ _
theorem St13_of (r : Ref sig .tc) (h : r ∉ (hostOps7_W : List (Ref sig .tc))) : St13 m c r = St12 m c r :=
  StableHlo.after_of_writes_sub hostOps7 _ hostOps7_writes h
theorem St14_of (r : Ref sig .tc) (h : r ∉ ([main_v72_0, main_v72_1, main_v72_2] : List (Ref sig .tc))) : St14 m c r = St13 m c r := by
  unfold St14
  rw [Function.update_of_ne (ne_ref (List.ne_of_not_mem_cons (List.not_mem_of_not_mem_cons (List.not_mem_of_not_mem_cons h)))),
    Function.update_of_ne (ne_ref (List.ne_of_not_mem_cons (List.not_mem_of_not_mem_cons h))),
    Function.update_of_ne (ne_ref (List.ne_of_not_mem_cons h))]
theorem St15_of (r : Ref sig .tc) (h : r ∉ (hostOps8_W : List (Ref sig .tc))) : St15 m c r = St14 m c r :=
  StableHlo.after_of_writes_sub hostOps8 _ hostOps8_writes h
theorem St16_of (r : Ref sig .tc) (h : r ∉ ([main_v83] : List (Ref sig .tc))) : St16 m c r = St15 m c r := by
  unfold St16
  exact Function.update_of_ne (ne_ref (List.ne_of_not_mem_cons h)) _ _
theorem St17_of (r : Ref sig .tc) (h : r ∉ (hostOps9_W : List (Ref sig .tc))) : St17 m c r = St16 m c r :=
  StableHlo.after_of_writes_sub hostOps9 _ hostOps9_writes h
theorem St18_of (r : Ref sig .tc) (h : r ∉ ([main_v99] : List (Ref sig .tc))) : St18 m c r = St17 m c r := by
  unfold St18
  exact Function.update_of_ne (ne_ref (List.ne_of_not_mem_cons h)) _ _

/-- The graph number of node `r`. -/
abbrev batchW : Fin 100000 → BitVec 32 := fun r => m ((c : Thread nD τ).loc main_arg2) (ix1 r)

/-! ## The parts: what the host stretches and the combining regions leave, entry by entry -/

/-- Everything the host stretches leave in the buffers the regions read, and what the three combining regions leave,
    each as the specification's function of the buffers it was computed from. -/
structure Parts : Prop where
  /-- the degree factor column -/
  dis : ∀ (r : Fin 100000), (St1 m c main_v11 : S100000x1.Idx → EReal) (ix2 r (0 : Fin 1)) = Cert.Spec.disK (hF_dst m c) r
  /-- layer A: the edge sums of the scaled rows, from zero -/
  msgA : ∀ (r : Fin 100000) (j : Fin 128), (St3 m c main_v22 : S100000x128.Idx → EReal) (ix2 r j)
      = Cert.Spec.edgeSum (by decide) 100000#32 (hF_src m c) (hF_dst m c) (fun r j => (St2 m c main_v12 : S100000x128.Idx → EReal) (ix2 r j)) r j
  /-- layer A: the bias as a row -/
  biasA : ∀ (j : Fin 128), (St3 m c main_v23 : S1x128.Idx → EReal) (ix2 (0 : Fin 1) j) = (m ((c : Thread nD τ).loc main_arg4) : S128.Idx → EReal) (ix1 j)
  /-- layer A: the combined rows the second region leaves -/
  aggA : ∀ (r : Fin 100000) (j : Fin 128), (St4 m c main_v24_0 : S100000x128.Idx → EReal) (ix2 r j)
      = Cert.Spec.combine (fun r j => (St3 m c main_v22 : S100000x128.Idx → EReal) (ix2 r j)) (fun r j => (St3 m c main_v12 : S100000x128.Idx → EReal) (ix2 r j))
          (fun r => (St3 m c main_v11 : S100000x1.Idx → EReal) (ix2 r (0 : Fin 1))) (fun j => (St3 m c main_v23 : S1x128.Idx → EReal) (ix2 (0 : Fin 1) j)) r j
  /-- layer A: their column totals -/
  sumA : ∀ (j : Fin 128), (St4 m c main_v24_1 : S1x128.Idx → EReal) (ix2 (0 : Fin 1) j)
      = ∑ r : Fin 100000, Cert.Spec.combine (fun r j => (St3 m c main_v22 : S100000x128.Idx → EReal) (ix2 r j)) (fun r j => (St3 m c main_v12 : S100000x128.Idx → EReal) (ix2 r j))
          (fun r => (St3 m c main_v11 : S100000x1.Idx → EReal) (ix2 r (0 : Fin 1))) (fun j => (St3 m c main_v23 : S1x128.Idx → EReal) (ix2 (0 : Fin 1) j)) r j
  /-- layer A: the column totals of their squares -/
  sqA : ∀ (j : Fin 128), (St4 m c main_v24_2 : S1x128.Idx → EReal) (ix2 (0 : Fin 1) j)
      = ∑ r : Fin 100000, Cert.Spec.combine (fun r j => (St3 m c main_v22 : S100000x128.Idx → EReal) (ix2 r j)) (fun r j => (St3 m c main_v12 : S100000x128.Idx → EReal) (ix2 r j))
          (fun r => (St3 m c main_v11 : S100000x1.Idx → EReal) (ix2 r (0 : Fin 1))) (fun j => (St3 m c main_v23 : S1x128.Idx → EReal) (ix2 (0 : Fin 1) j)) r j
        * Cert.Spec.combine (fun r j => (St3 m c main_v22 : S100000x128.Idx → EReal) (ix2 r j)) (fun r j => (St3 m c main_v12 : S100000x128.Idx → EReal) (ix2 r j))
          (fun r => (St3 m c main_v11 : S100000x1.Idx → EReal) (ix2 r (0 : Fin 1))) (fun j => (St3 m c main_v23 : S1x128.Idx → EReal) (ix2 (0 : Fin 1) j)) r j
  /-- layer A: the mean row -/
  meanA : ∀ (j : Fin 128), (St5 m c main_v26 : S1x128.Idx → EReal) (ix2 (0 : Fin 1) j) = Ideal.div ((St4 m c main_v24_1 : S1x128.Idx → EReal) (ix2 (0 : Fin 1) j)) Cert.Spec.nf
  /-- layer A: the variance row, one pass, clamped at zero -/
  varA : ∀ (j : Fin 128), (St5 m c main_v32 : S1x128.Idx → EReal) (ix2 (0 : Fin 1) j)
      = max (Ideal.div ((St4 m c main_v24_2 : S1x128.Idx → EReal) (ix2 (0 : Fin 1) j)) Cert.Spec.nf
          - Ideal.div ((St4 m c main_v24_1 : S1x128.Idx → EReal) (ix2 (0 : Fin 1) j)) Cert.Spec.nf * Ideal.div ((St4 m c main_v24_1 : S1x128.Idx → EReal) (ix2 (0 : Fin 1) j)) Cert.Spec.nf) Cert.Spec.zero
  /-- layer A: the scale and shift as rows -/
  gA : ∀ (j : Fin 128), (St5 m c main_v33 : S1x128.Idx → EReal) (ix2 (0 : Fin 1) j) = (m ((c : Thread nD τ).loc main_arg9) : S128.Idx → EReal) (ix1 j)
  beA : ∀ (j : Fin 128), (St5 m c main_v34 : S1x128.Idx → EReal) (ix2 (0 : Fin 1) j) = (m ((c : Thread nD τ).loc main_arg10) : S128.Idx → EReal) (ix1 j)
  /-- layer B: the edge sums of the scaled rows, from zero -/
  msgB : ∀ (r : Fin 100000) (j : Fin 128), (St8 m c main_v46 : S100000x128.Idx → EReal) (ix2 r j)
      = Cert.Spec.edgeSum (by decide) 100000#32 (hF_src m c) (hF_dst m c) (fun r j => (St7 m c main_v36 : S100000x128.Idx → EReal) (ix2 r j)) r j
  /-- layer B: the bias as a row -/
  biasB : ∀ (j : Fin 128), (St8 m c main_v47 : S1x128.Idx → EReal) (ix2 (0 : Fin 1) j) = (m ((c : Thread nD τ).loc main_arg6) : S128.Idx → EReal) (ix1 j)
  /-- layer B: the combined rows the second region leaves -/
  aggB : ∀ (r : Fin 100000) (j : Fin 128), (St9 m c main_v48_0 : S100000x128.Idx → EReal) (ix2 r j)
      = Cert.Spec.combine (fun r j => (St8 m c main_v46 : S100000x128.Idx → EReal) (ix2 r j)) (fun r j => (St8 m c main_v36 : S100000x128.Idx → EReal) (ix2 r j))
          (fun r => (St8 m c main_v11 : S100000x1.Idx → EReal) (ix2 r (0 : Fin 1))) (fun j => (St8 m c main_v47 : S1x128.Idx → EReal) (ix2 (0 : Fin 1) j)) r j
  /-- layer B: their column totals -/
  sumB : ∀ (j : Fin 128), (St9 m c main_v48_1 : S1x128.Idx → EReal) (ix2 (0 : Fin 1) j)
      = ∑ r : Fin 100000, Cert.Spec.combine (fun r j => (St8 m c main_v46 : S100000x128.Idx → EReal) (ix2 r j)) (fun r j => (St8 m c main_v36 : S100000x128.Idx → EReal) (ix2 r j))
          (fun r => (St8 m c main_v11 : S100000x1.Idx → EReal) (ix2 r (0 : Fin 1))) (fun j => (St8 m c main_v47 : S1x128.Idx → EReal) (ix2 (0 : Fin 1) j)) r j
  /-- layer B: the column totals of their squares -/
  sqB : ∀ (j : Fin 128), (St9 m c main_v48_2 : S1x128.Idx → EReal) (ix2 (0 : Fin 1) j)
      = ∑ r : Fin 100000, Cert.Spec.combine (fun r j => (St8 m c main_v46 : S100000x128.Idx → EReal) (ix2 r j)) (fun r j => (St8 m c main_v36 : S100000x128.Idx → EReal) (ix2 r j))
          (fun r => (St8 m c main_v11 : S100000x1.Idx → EReal) (ix2 r (0 : Fin 1))) (fun j => (St8 m c main_v47 : S1x128.Idx → EReal) (ix2 (0 : Fin 1) j)) r j
        * Cert.Spec.combine (fun r j => (St8 m c main_v46 : S100000x128.Idx → EReal) (ix2 r j)) (fun r j => (St8 m c main_v36 : S100000x128.Idx → EReal) (ix2 r j))
          (fun r => (St8 m c main_v11 : S100000x1.Idx → EReal) (ix2 r (0 : Fin 1))) (fun j => (St8 m c main_v47 : S1x128.Idx → EReal) (ix2 (0 : Fin 1) j)) r j
  /-- layer B: the mean row -/
  meanB : ∀ (j : Fin 128), (St10 m c main_v50 : S1x128.Idx → EReal) (ix2 (0 : Fin 1) j) = Ideal.div ((St9 m c main_v48_1 : S1x128.Idx → EReal) (ix2 (0 : Fin 1) j)) Cert.Spec.nf
  /-- layer B: the variance row, one pass, clamped at zero -/
  varB : ∀ (j : Fin 128), (St10 m c main_v56 : S1x128.Idx → EReal) (ix2 (0 : Fin 1) j)
      = max (Ideal.div ((St9 m c main_v48_2 : S1x128.Idx → EReal) (ix2 (0 : Fin 1) j)) Cert.Spec.nf
          - Ideal.div ((St9 m c main_v48_1 : S1x128.Idx → EReal) (ix2 (0 : Fin 1) j)) Cert.Spec.nf * Ideal.div ((St9 m c main_v48_1 : S1x128.Idx → EReal) (ix2 (0 : Fin 1) j)) Cert.Spec.nf) Cert.Spec.zero
  /-- layer B: the scale and shift as rows -/
  gB : ∀ (j : Fin 128), (St10 m c main_v57 : S1x128.Idx → EReal) (ix2 (0 : Fin 1) j) = (m ((c : Thread nD τ).loc main_arg11) : S128.Idx → EReal) (ix1 j)
  beB : ∀ (j : Fin 128), (St10 m c main_v58 : S1x128.Idx → EReal) (ix2 (0 : Fin 1) j) = (m ((c : Thread nD τ).loc main_arg12) : S128.Idx → EReal) (ix1 j)
  /-- layer C: the edge sums of the scaled rows, from zero -/
  msgC : ∀ (r : Fin 100000) (j : Fin 128), (St13 m c main_v70 : S100000x128.Idx → EReal) (ix2 r j)
      = Cert.Spec.edgeSum (by decide) 100000#32 (hF_src m c) (hF_dst m c) (fun r j => (St12 m c main_v60 : S100000x128.Idx → EReal) (ix2 r j)) r j
  /-- layer C: the bias as a row -/
  biasC : ∀ (j : Fin 128), (St13 m c main_v71 : S1x128.Idx → EReal) (ix2 (0 : Fin 1) j) = (m ((c : Thread nD τ).loc main_arg8) : S128.Idx → EReal) (ix1 j)
  /-- layer C: the combined rows the second region leaves -/
  aggC : ∀ (r : Fin 100000) (j : Fin 128), (St14 m c main_v72_0 : S100000x128.Idx → EReal) (ix2 r j)
      = Cert.Spec.combine (fun r j => (St13 m c main_v70 : S100000x128.Idx → EReal) (ix2 r j)) (fun r j => (St13 m c main_v60 : S100000x128.Idx → EReal) (ix2 r j))
          (fun r => (St13 m c main_v11 : S100000x1.Idx → EReal) (ix2 r (0 : Fin 1))) (fun j => (St13 m c main_v71 : S1x128.Idx → EReal) (ix2 (0 : Fin 1) j)) r j
  /-- layer C: their column totals -/
  sumC : ∀ (j : Fin 128), (St14 m c main_v72_1 : S1x128.Idx → EReal) (ix2 (0 : Fin 1) j)
      = ∑ r : Fin 100000, Cert.Spec.combine (fun r j => (St13 m c main_v70 : S100000x128.Idx → EReal) (ix2 r j)) (fun r j => (St13 m c main_v60 : S100000x128.Idx → EReal) (ix2 r j))
          (fun r => (St13 m c main_v11 : S100000x1.Idx → EReal) (ix2 r (0 : Fin 1))) (fun j => (St13 m c main_v71 : S1x128.Idx → EReal) (ix2 (0 : Fin 1) j)) r j
  /-- layer C: the column totals of their squares -/
  sqC : ∀ (j : Fin 128), (St14 m c main_v72_2 : S1x128.Idx → EReal) (ix2 (0 : Fin 1) j)
      = ∑ r : Fin 100000, Cert.Spec.combine (fun r j => (St13 m c main_v70 : S100000x128.Idx → EReal) (ix2 r j)) (fun r j => (St13 m c main_v60 : S100000x128.Idx → EReal) (ix2 r j))
          (fun r => (St13 m c main_v11 : S100000x1.Idx → EReal) (ix2 r (0 : Fin 1))) (fun j => (St13 m c main_v71 : S1x128.Idx → EReal) (ix2 (0 : Fin 1) j)) r j
        * Cert.Spec.combine (fun r j => (St13 m c main_v70 : S100000x128.Idx → EReal) (ix2 r j)) (fun r j => (St13 m c main_v60 : S100000x128.Idx → EReal) (ix2 r j))
          (fun r => (St13 m c main_v11 : S100000x1.Idx → EReal) (ix2 r (0 : Fin 1))) (fun j => (St13 m c main_v71 : S1x128.Idx → EReal) (ix2 (0 : Fin 1) j)) r j
  /-- layer C: the mean row -/
  meanC : ∀ (j : Fin 128), (St15 m c main_v74 : S1x128.Idx → EReal) (ix2 (0 : Fin 1) j) = Ideal.div ((St14 m c main_v72_1 : S1x128.Idx → EReal) (ix2 (0 : Fin 1) j)) Cert.Spec.nf
  /-- layer C: the variance row, one pass, clamped at zero -/
  varC : ∀ (j : Fin 128), (St15 m c main_v80 : S1x128.Idx → EReal) (ix2 (0 : Fin 1) j)
      = max (Ideal.div ((St14 m c main_v72_2 : S1x128.Idx → EReal) (ix2 (0 : Fin 1) j)) Cert.Spec.nf
          - Ideal.div ((St14 m c main_v72_1 : S1x128.Idx → EReal) (ix2 (0 : Fin 1) j)) Cert.Spec.nf * Ideal.div ((St14 m c main_v72_1 : S1x128.Idx → EReal) (ix2 (0 : Fin 1) j)) Cert.Spec.nf) Cert.Spec.zero
  /-- layer C: the scale and shift as rows -/
  gC : ∀ (j : Fin 128), (St15 m c main_v81 : S1x128.Idx → EReal) (ix2 (0 : Fin 1) j) = (m ((c : Thread nD τ).loc main_arg13) : S128.Idx → EReal) (ix1 j)
  beC : ∀ (j : Fin 128), (St15 m c main_v82 : S1x128.Idx → EReal) (ix2 (0 : Fin 1) j) = (m ((c : Thread nD τ).loc main_arg14) : S128.Idx → EReal) (ix1 j)
  /-- the pooled rows, doubled -/
  xp : ∀ (q : Fin 256) (l : Fin 256), St17 m c main_v96 (ix2 q l)
      = Cert.Spec.doubled (Cert.Spec.pooled (G := 256) (batchW m c) (fun r j => St16 m c main_v83 (ix2 r j))) q l
  /-- the two bias rows of the tail -/
  eb1 : ∀ (k : Fin 128), St17 m c main_v97 (ix2 (0 : Fin 1) k) = m ((c : Thread nD τ).loc main_arg16) (ix1 k)
  eb2 : ∀ (j : Fin 64), St17 m c main_v98 (ix2 (0 : Fin 1) j) = m ((c : Thread nD τ).loc main_arg18) (ix1 j)

/-! ## The regions, read at the buffers between the items -/

/-- Layer A, first region: the scaled dense rows, from the buffers as the region finds them. -/
theorem linA (r : Fin 100000) (j : Fin 128) :
    (St2 m c main_v12 : S100000x128.Idx → EReal) (ix2 r j) = Cert.Spec.hsK (fun r k => (St1 m c main_arg0 : S100000x20.Idx → EReal) (ix2 r k)) (fun k j => (St1 m c main_arg3 : S20x128.Idx → EReal) (ix2 k j))
      (fun r => (St1 m c main_v11 : S100000x1.Idx → EReal) (ix2 r (0 : Fin 1))) r j := by
  have h : St2 m c main_v12 = (dat0 (atTc (St1 m)) c).arrAt 3 cfg0.N := by
    unfold St2; rw [Function.update_self]
  rw [h]
  exact final0 (atTc (St1 m)) c r j

/-- Layer A, third region: the normalised, scaled, shifted and rectified rows, from the buffers as the region finds them. -/
theorem bnA (r : Fin 100000) (j : Fin 128) :
    (St6 m c main_v35 : S100000x128.Idx → EReal) (ix2 r j) = Cert.Spec.bnRelu (fun r j => (St5 m c main_v24_0 : S100000x128.Idx → EReal) (ix2 r j)) (fun j => (St5 m c main_v26 : S1x128.Idx → EReal) (ix2 (0 : Fin 1) j))
      (fun j => (St5 m c main_v32 : S1x128.Idx → EReal) (ix2 (0 : Fin 1) j)) (fun j => (St5 m c main_v33 : S1x128.Idx → EReal) (ix2 (0 : Fin 1) j)) (fun j => (St5 m c main_v34 : S1x128.Idx → EReal) (ix2 (0 : Fin 1) j)) r j := by
  have h : St6 m c main_v35 = (dat2 (atTc (St5 m)) c).arrAt 5 cfg2.N := by
    unfold St6; rw [Function.update_self]
  rw [h]
  exact final2 (atTc (St5 m)) c r j

/-- Layer B, first region: the scaled dense rows, from the buffers as the region finds them. -/
theorem linB (r : Fin 100000) (j : Fin 128) :
    (St7 m c main_v36 : S100000x128.Idx → EReal) (ix2 r j) = Cert.Spec.hsK (fun r k => (St6 m c main_v35 : S100000x128.Idx → EReal) (ix2 r k)) (fun k j => (St6 m c main_arg5 : S128x128.Idx → EReal) (ix2 k j))
      (fun r => (St6 m c main_v11 : S100000x1.Idx → EReal) (ix2 r (0 : Fin 1))) r j := by
  have h : St7 m c main_v36 = (dat3 (atTc (St6 m)) c).arrAt 3 cfg3.N := by
    unfold St7; rw [Function.update_self]
  rw [h]
  exact final3 (atTc (St6 m)) c r j

/-- Layer B, third region: the normalised, scaled, shifted and rectified rows, from the buffers as the region finds them. -/
theorem bnB (r : Fin 100000) (j : Fin 128) :
    (St11 m c main_v59 : S100000x128.Idx → EReal) (ix2 r j) = Cert.Spec.bnRelu (fun r j => (St10 m c main_v48_0 : S100000x128.Idx → EReal) (ix2 r j)) (fun j => (St10 m c main_v50 : S1x128.Idx → EReal) (ix2 (0 : Fin 1) j))
      (fun j => (St10 m c main_v56 : S1x128.Idx → EReal) (ix2 (0 : Fin 1) j)) (fun j => (St10 m c main_v57 : S1x128.Idx → EReal) (ix2 (0 : Fin 1) j)) (fun j => (St10 m c main_v58 : S1x128.Idx → EReal) (ix2 (0 : Fin 1) j)) r j := by
  have h : St11 m c main_v59 = (dat5 (atTc (St10 m)) c).arrAt 5 cfg5.N := by
    unfold St11; rw [Function.update_self]
  rw [h]
  exact final5 (atTc (St10 m)) c r j

/-- Layer C, first region: the scaled dense rows, from the buffers as the region finds them. -/
theorem linC (r : Fin 100000) (j : Fin 128) :
    (St12 m c main_v60 : S100000x128.Idx → EReal) (ix2 r j) = Cert.Spec.hsK (fun r k => (St11 m c main_v59 : S100000x128.Idx → EReal) (ix2 r k)) (fun k j => (St11 m c main_arg7 : S128x128.Idx → EReal) (ix2 k j))
      (fun r => (St11 m c main_v11 : S100000x1.Idx → EReal) (ix2 r (0 : Fin 1))) r j := by
  have h : St12 m c main_v60 = (dat6 (atTc (St11 m)) c).arrAt 3 cfg6.N := by
    unfold St12; rw [Function.update_self]
  rw [h]
  exact final6 (atTc (St11 m)) c r j

/-- Layer C, third region: the normalised, scaled, shifted and rectified rows, from the buffers as the region finds them. -/
theorem bnC (r : Fin 100000) (j : Fin 128) :
    (St16 m c main_v83 : S100000x128.Idx → EReal) (ix2 r j) = Cert.Spec.bnRelu (fun r j => (St15 m c main_v72_0 : S100000x128.Idx → EReal) (ix2 r j)) (fun j => (St15 m c main_v74 : S1x128.Idx → EReal) (ix2 (0 : Fin 1) j))
      (fun j => (St15 m c main_v80 : S1x128.Idx → EReal) (ix2 (0 : Fin 1) j)) (fun j => (St15 m c main_v81 : S1x128.Idx → EReal) (ix2 (0 : Fin 1) j)) (fun j => (St15 m c main_v82 : S1x128.Idx → EReal) (ix2 (0 : Fin 1) j)) r j := by
  have h : St16 m c main_v83 = (dat8 (atTc (St15 m)) c).arrAt 5 cfg8.N := by
    unfold St16; rw [Function.update_self]
  rw [h]
  exact final8 (atTc (St15 m)) c r j

/-- The last region: the two dense layers, from the buffers as the region finds them. -/
theorem mlpT (q : Fin 256) (j : Fin 64) :
    St18 m c main_v99 (ix2 q j) = Cert.Spec.mlp (fun q l => St17 m c main_v96 (ix2 q l)) (fun l k => St17 m c main_arg15 (ix2 l k))
      (fun k => St17 m c main_v97 (ix2 (0 : Fin 1) k)) (fun k j => St17 m c main_arg17 (ix2 k j))
      (fun j => St17 m c main_v98 (ix2 (0 : Fin 1) j)) q j := by
  have h : St18 m c main_v99 = (dat9 (atTc (St17 m)) c).arrAt 5 cfg9.N := by
    unfold St18; rw [Function.update_self]
  rw [h]
  exact final9 (atTc (St17 m)) c q j

/-! ## The layers -/

/-- Layer A: the rows the third region leaves are the specification's layer of the rows the first region finds. -/
theorem layerA (P : Parts m c) :
    (fun r j => (St6 m c main_v35 : S100000x128.Idx → EReal) (ix2 r j)) = Cert.Spec.layerK (N := 100000) (E := 640000) (by decide) 100000#32 (hF_src m c) (hF_dst m c)
      (fun r k => (m ((c : Thread nD τ).loc main_arg0) : S100000x20.Idx → EReal) (ix2 r k)) (fun k j => (m ((c : Thread nD τ).loc main_arg3) : S20x128.Idx → EReal) (ix2 k j)) (fun j => (m ((c : Thread nD τ).loc main_arg4) : S128.Idx → EReal) (ix1 j))
      (fun j => (m ((c : Thread nD τ).loc main_arg9) : S128.Idx → EReal) (ix1 j)) (fun j => (m ((c : Thread nD τ).loc main_arg10) : S128.Idx → EReal) (ix1 j)) := by
  have v11_3 : St3 m c main_v11 = St1 m c main_v11 := ((St3_of m c main_v11 (by decide)).trans (St2_of m c main_v11 (by decide)))
  have x_1 : St1 m c main_arg0 = m ((c : Thread nD τ).loc main_arg0) := (St1_of m c main_arg0 (by decide))
  have w_1 : St1 m c main_arg3 = m ((c : Thread nD τ).loc main_arg3) := (St1_of m c main_arg3 (by decide))
  have hs_3 : St3 m c main_v12 = St2 m c main_v12 := (St3_of m c main_v12 (by decide))
  have agg_5 : St5 m c main_v24_0 = St4 m c main_v24_0 := (St5_of m c main_v24_0 (by decide))
  refine Cert.Assemble.layerK_of_parts (by decide) 100000#32 (hF_src m c) (hF_dst m c) _ _ _ _ _
    (fun r => (St1 m c main_v11 : S100000x1.Idx → EReal) (ix2 r (0 : Fin 1)))
    (fun r j => (St2 m c main_v12 : S100000x128.Idx → EReal) (ix2 r j))
    (fun r j => (St3 m c main_v22 : S100000x128.Idx → EReal) (ix2 r j))
    (fun r j => (St4 m c main_v24_0 : S100000x128.Idx → EReal) (ix2 r j))
    _
    (fun j => (St4 m c main_v24_1 : S1x128.Idx → EReal) (ix2 (0 : Fin 1) j))
    (fun j => (St4 m c main_v24_2 : S1x128.Idx → EReal) (ix2 (0 : Fin 1) j))
    (fun j => (St5 m c main_v26 : S1x128.Idx → EReal) (ix2 (0 : Fin 1) j))
    (fun j => (St5 m c main_v32 : S1x128.Idx → EReal) (ix2 (0 : Fin 1) j))
    (fun r => P.dis r) ?_ (fun r j => P.msgA r j) ?_ (fun j => Eq.trans (α := EReal) (P.sumA j) (Finset.sum_congr rfl fun r _ => (P.aggA r j).symm))
    (fun j => Eq.trans (α := EReal) (P.sqA j) (Finset.sum_congr rfl fun r _ =>
      congrArg₂ (fun a b : EReal => a * b) (P.aggA r j).symm (P.aggA r j).symm))
    (fun j => P.meanA j) ?_ ?_
  · intro r j
    exact (linA m c r j).trans (Cert.Assemble.hsK_congr (fun r k => by rw [x_1]) (fun k j => by rw [w_1]) (fun r => rfl) r j)
  · intro r j
    exact (P.aggA r j).trans (Cert.Assemble.combine_congr (fun r j => rfl) (fun r j => by rw [hs_3]) (fun r => by rw [v11_3])
      (fun j => P.biasA j) r j)
  · intro j
    beta_reduce
    rw [P.meanA j]
    exact P.varA j
  · intro r j
    exact (bnA m c r j).trans (Cert.Assemble.bnRelu_congr (fun r j => by rw [agg_5]) (fun j => rfl) (fun j => rfl)
      (fun j => P.gA j) (fun j => P.beA j) r j)

/-- Layer B: the rows the third region leaves are the specification's layer of the rows the first region finds. -/
theorem layerB (P : Parts m c) (X : Cert.Spec.Mat 100000 128) (hX : (fun r k => (St6 m c main_v35 : S100000x128.Idx → EReal) (ix2 r k)) = X) :
    (fun r j => (St11 m c main_v59 : S100000x128.Idx → EReal) (ix2 r j)) = Cert.Spec.layerK (N := 100000) (E := 640000) (by decide) 100000#32 (hF_src m c) (hF_dst m c)
      X (fun k j => (m ((c : Thread nD τ).loc main_arg5) : S128x128.Idx → EReal) (ix2 k j)) (fun j => (m ((c : Thread nD τ).loc main_arg6) : S128.Idx → EReal) (ix1 j))
      (fun j => (m ((c : Thread nD τ).loc main_arg11) : S128.Idx → EReal) (ix1 j)) (fun j => (m ((c : Thread nD τ).loc main_arg12) : S128.Idx → EReal) (ix1 j)) := by
  have v11_6 : St6 m c main_v11 = St1 m c main_v11 := ((St6_of m c main_v11 (by decide)).trans ((St5_of m c main_v11 (by decide)).trans ((St4_of m c main_v11 (by decide)).trans ((St3_of m c main_v11 (by decide)).trans (St2_of m c main_v11 (by decide))))))
  have v11_8 : St8 m c main_v11 = St1 m c main_v11 := ((St8_of m c main_v11 (by decide)).trans ((St7_of m c main_v11 (by decide)).trans ((St6_of m c main_v11 (by decide)).trans ((St5_of m c main_v11 (by decide)).trans ((St4_of m c main_v11 (by decide)).trans ((St3_of m c main_v11 (by decide)).trans (St2_of m c main_v11 (by decide))))))))
  have w_6 : St6 m c main_arg5 = m ((c : Thread nD τ).loc main_arg5) := ((St6_of m c main_arg5 (by decide)).trans ((St5_of m c main_arg5 (by decide)).trans ((St4_of m c main_arg5 (by decide)).trans ((St3_of m c main_arg5 (by decide)).trans ((St2_of m c main_arg5 (by decide)).trans (St1_of m c main_arg5 (by decide)))))))
  have hs_8 : St8 m c main_v36 = St7 m c main_v36 := (St8_of m c main_v36 (by decide))
  have agg_10 : St10 m c main_v48_0 = St9 m c main_v48_0 := (St10_of m c main_v48_0 (by decide))
  refine Cert.Assemble.layerK_of_parts (by decide) 100000#32 (hF_src m c) (hF_dst m c) _ _ _ _ _
    (fun r => (St1 m c main_v11 : S100000x1.Idx → EReal) (ix2 r (0 : Fin 1)))
    (fun r j => (St7 m c main_v36 : S100000x128.Idx → EReal) (ix2 r j))
    (fun r j => (St8 m c main_v46 : S100000x128.Idx → EReal) (ix2 r j))
    (fun r j => (St9 m c main_v48_0 : S100000x128.Idx → EReal) (ix2 r j))
    _
    (fun j => (St9 m c main_v48_1 : S1x128.Idx → EReal) (ix2 (0 : Fin 1) j))
    (fun j => (St9 m c main_v48_2 : S1x128.Idx → EReal) (ix2 (0 : Fin 1) j))
    (fun j => (St10 m c main_v50 : S1x128.Idx → EReal) (ix2 (0 : Fin 1) j))
    (fun j => (St10 m c main_v56 : S1x128.Idx → EReal) (ix2 (0 : Fin 1) j))
    (fun r => P.dis r) ?_ (fun r j => P.msgB r j) ?_ (fun j => Eq.trans (α := EReal) (P.sumB j) (Finset.sum_congr rfl fun r _ => (P.aggB r j).symm))
    (fun j => Eq.trans (α := EReal) (P.sqB j) (Finset.sum_congr rfl fun r _ =>
      congrArg₂ (fun a b : EReal => a * b) (P.aggB r j).symm (P.aggB r j).symm))
    (fun j => P.meanB j) ?_ ?_
  · intro r j
    exact (linB m c r j).trans (Cert.Assemble.hsK_congr (fun r k => congrFun (congrFun hX r) k) (fun k j => by rw [w_6]) (fun r => by rw [v11_6]) r j)
  · intro r j
    exact (P.aggB r j).trans (Cert.Assemble.combine_congr (fun r j => rfl) (fun r j => by rw [hs_8]) (fun r => by rw [v11_8])
      (fun j => P.biasB j) r j)
  · intro j
    beta_reduce
    rw [P.meanB j]
    exact P.varB j
  · intro r j
    exact (bnB m c r j).trans (Cert.Assemble.bnRelu_congr (fun r j => by rw [agg_10]) (fun j => rfl) (fun j => rfl)
      (fun j => P.gB j) (fun j => P.beB j) r j)

/-- Layer C: the rows the third region leaves are the specification's layer of the rows the first region finds. -/
theorem layerC (P : Parts m c) (X : Cert.Spec.Mat 100000 128) (hX : (fun r k => (St11 m c main_v59 : S100000x128.Idx → EReal) (ix2 r k)) = X) :
    (fun r j => (St16 m c main_v83 : S100000x128.Idx → EReal) (ix2 r j)) = Cert.Spec.layerK (N := 100000) (E := 640000) (by decide) 100000#32 (hF_src m c) (hF_dst m c)
      X (fun k j => (m ((c : Thread nD τ).loc main_arg7) : S128x128.Idx → EReal) (ix2 k j)) (fun j => (m ((c : Thread nD τ).loc main_arg8) : S128.Idx → EReal) (ix1 j))
      (fun j => (m ((c : Thread nD τ).loc main_arg13) : S128.Idx → EReal) (ix1 j)) (fun j => (m ((c : Thread nD τ).loc main_arg14) : S128.Idx → EReal) (ix1 j)) := by
  have v11_11 : St11 m c main_v11 = St1 m c main_v11 := ((St11_of m c main_v11 (by decide)).trans ((St10_of m c main_v11 (by decide)).trans ((St9_of m c main_v11 (by decide)).trans ((St8_of m c main_v11 (by decide)).trans ((St7_of m c main_v11 (by decide)).trans ((St6_of m c main_v11 (by decide)).trans ((St5_of m c main_v11 (by decide)).trans ((St4_of m c main_v11 (by decide)).trans ((St3_of m c main_v11 (by decide)).trans (St2_of m c main_v11 (by decide)))))))))))
  have v11_13 : St13 m c main_v11 = St1 m c main_v11 := ((St13_of m c main_v11 (by decide)).trans ((St12_of m c main_v11 (by decide)).trans ((St11_of m c main_v11 (by decide)).trans ((St10_of m c main_v11 (by decide)).trans ((St9_of m c main_v11 (by decide)).trans ((St8_of m c main_v11 (by decide)).trans ((St7_of m c main_v11 (by decide)).trans ((St6_of m c main_v11 (by decide)).trans ((St5_of m c main_v11 (by decide)).trans ((St4_of m c main_v11 (by decide)).trans ((St3_of m c main_v11 (by decide)).trans (St2_of m c main_v11 (by decide)))))))))))))
  have w_11 : St11 m c main_arg7 = m ((c : Thread nD τ).loc main_arg7) := ((St11_of m c main_arg7 (by decide)).trans ((St10_of m c main_arg7 (by decide)).trans ((St9_of m c main_arg7 (by decide)).trans ((St8_of m c main_arg7 (by decide)).trans ((St7_of m c main_arg7 (by decide)).trans ((St6_of m c main_arg7 (by decide)).trans ((St5_of m c main_arg7 (by decide)).trans ((St4_of m c main_arg7 (by decide)).trans ((St3_of m c main_arg7 (by decide)).trans ((St2_of m c main_arg7 (by decide)).trans (St1_of m c main_arg7 (by decide))))))))))))
  have hs_13 : St13 m c main_v60 = St12 m c main_v60 := (St13_of m c main_v60 (by decide))
  have agg_15 : St15 m c main_v72_0 = St14 m c main_v72_0 := (St15_of m c main_v72_0 (by decide))
  refine Cert.Assemble.layerK_of_parts (by decide) 100000#32 (hF_src m c) (hF_dst m c) _ _ _ _ _
    (fun r => (St1 m c main_v11 : S100000x1.Idx → EReal) (ix2 r (0 : Fin 1)))
    (fun r j => (St12 m c main_v60 : S100000x128.Idx → EReal) (ix2 r j))
    (fun r j => (St13 m c main_v70 : S100000x128.Idx → EReal) (ix2 r j))
    (fun r j => (St14 m c main_v72_0 : S100000x128.Idx → EReal) (ix2 r j))
    _
    (fun j => (St14 m c main_v72_1 : S1x128.Idx → EReal) (ix2 (0 : Fin 1) j))
    (fun j => (St14 m c main_v72_2 : S1x128.Idx → EReal) (ix2 (0 : Fin 1) j))
    (fun j => (St15 m c main_v74 : S1x128.Idx → EReal) (ix2 (0 : Fin 1) j))
    (fun j => (St15 m c main_v80 : S1x128.Idx → EReal) (ix2 (0 : Fin 1) j))
    (fun r => P.dis r) ?_ (fun r j => P.msgC r j) ?_ (fun j => Eq.trans (α := EReal) (P.sumC j) (Finset.sum_congr rfl fun r _ => (P.aggC r j).symm))
    (fun j => Eq.trans (α := EReal) (P.sqC j) (Finset.sum_congr rfl fun r _ =>
      congrArg₂ (fun a b : EReal => a * b) (P.aggC r j).symm (P.aggC r j).symm))
    (fun j => P.meanC j) ?_ ?_
  · intro r j
    exact (linC m c r j).trans (Cert.Assemble.hsK_congr (fun r k => congrFun (congrFun hX r) k) (fun k j => by rw [w_11]) (fun r => by rw [v11_11]) r j)
  · intro r j
    exact (P.aggC r j).trans (Cert.Assemble.combine_congr (fun r j => rfl) (fun r j => by rw [hs_13]) (fun r => by rw [v11_13])
      (fun j => P.biasC j) r j)
  · intro j
    beta_reduce
    rw [P.meanC j]
    exact P.varC j
  · intro r j
    exact (bnC m c r j).trans (Cert.Assemble.bnRelu_congr (fun r j => by rw [agg_15]) (fun j => rfl) (fun j => rfl)
      (fun j => P.gC j) (fun j => P.beC j) r j)

/-! ## The whole program, from the parts -/

/-- The output buffer after the last region is the specification's network of the argument arrays. -/
theorem kerTerm_apply_of_parts (P : Parts m c) (q : Fin 256) (j : Fin 64) :
    St18 m c main_v99 (ix2 q j) = Cert.Spec.netK (N := 100000) (E := 640000) (G := 256) (by decide) 100000#32
      (hF_src m c) (hF_dst m c) (batchW m c) (fun r k => m ((c : Thread nD τ).loc main_arg0) (ix2 r k))
      (fun k j => m ((c : Thread nD τ).loc main_arg3) (ix2 k j)) (fun j => m ((c : Thread nD τ).loc main_arg4) (ix1 j)) (fun j => m ((c : Thread nD τ).loc main_arg9) (ix1 j)) (fun j => m ((c : Thread nD τ).loc main_arg10) (ix1 j))
      (fun k j => m ((c : Thread nD τ).loc main_arg5) (ix2 k j)) (fun j => m ((c : Thread nD τ).loc main_arg6) (ix1 j)) (fun j => m ((c : Thread nD τ).loc main_arg11) (ix1 j)) (fun j => m ((c : Thread nD τ).loc main_arg12) (ix1 j))
      (fun k j => m ((c : Thread nD τ).loc main_arg7) (ix2 k j)) (fun j => m ((c : Thread nD τ).loc main_arg8) (ix1 j)) (fun j => m ((c : Thread nD τ).loc main_arg13) (ix1 j)) (fun j => m ((c : Thread nD τ).loc main_arg14) (ix1 j))
      (fun M => M) (fun l k => m ((c : Thread nD τ).loc main_arg15) (ix2 l k)) (fun k => m ((c : Thread nD τ).loc main_arg16) (ix1 k))
      (fun k j => m ((c : Thread nD τ).loc main_arg17) (ix2 k j)) (fun j => m ((c : Thread nD τ).loc main_arg18) (ix1 j)) q j := by
  have LA := layerA m c P
  have LB := layerB m c P _ LA
  have LC := layerC m c P _ LB
  have w15 : St17 m c main_arg15 = m ((c : Thread nD τ).loc main_arg15) := ((St17_of m c main_arg15 (by decide)).trans ((St16_of m c main_arg15 (by decide)).trans ((St15_of m c main_arg15 (by decide)).trans ((St14_of m c main_arg15 (by decide)).trans ((St13_of m c main_arg15 (by decide)).trans ((St12_of m c main_arg15 (by decide)).trans ((St11_of m c main_arg15 (by decide)).trans ((St10_of m c main_arg15 (by decide)).trans ((St9_of m c main_arg15 (by decide)).trans ((St8_of m c main_arg15 (by decide)).trans ((St7_of m c main_arg15 (by decide)).trans ((St6_of m c main_arg15 (by decide)).trans ((St5_of m c main_arg15 (by decide)).trans ((St4_of m c main_arg15 (by decide)).trans ((St3_of m c main_arg15 (by decide)).trans ((St2_of m c main_arg15 (by decide)).trans (St1_of m c main_arg15 (by decide))))))))))))))))))
  have w17 : St17 m c main_arg17 = m ((c : Thread nD τ).loc main_arg17) := ((St17_of m c main_arg17 (by decide)).trans ((St16_of m c main_arg17 (by decide)).trans ((St15_of m c main_arg17 (by decide)).trans ((St14_of m c main_arg17 (by decide)).trans ((St13_of m c main_arg17 (by decide)).trans ((St12_of m c main_arg17 (by decide)).trans ((St11_of m c main_arg17 (by decide)).trans ((St10_of m c main_arg17 (by decide)).trans ((St9_of m c main_arg17 (by decide)).trans ((St8_of m c main_arg17 (by decide)).trans ((St7_of m c main_arg17 (by decide)).trans ((St6_of m c main_arg17 (by decide)).trans ((St5_of m c main_arg17 (by decide)).trans ((St4_of m c main_arg17 (by decide)).trans ((St3_of m c main_arg17 (by decide)).trans ((St2_of m c main_arg17 (by decide)).trans (St1_of m c main_arg17 (by decide))))))))))))))))))
  unfold Cert.Spec.netK
  refine (mlpT m c q j).trans (Cert.Assemble.mlp_congr (fun q l => ?_) (fun l k => by rw [w15]) (fun k => P.eb1 k)
    (fun k j => by rw [w17]) (fun j => P.eb2 j) q j)
  exact (P.xp q l).trans (congrArg (fun L => Cert.Spec.doubled (Cert.Spec.pooled (G := 256) (batchW m c) L) q l) LC)

/-! ## The parts, from the host stretches and the regions -/

/-! ### Layer A -/

theorem St4_agg : St4 m c main_v24_0 = (dat1 (atTc (St3 m)) c).arrAt 4 cfg1.N := by
  unfold St4
  rw [Function.update_of_ne (ne_ref (by decide : main_v24_0 ≠ main_v24_2)), Function.update_of_ne (ne_ref (by decide : main_v24_0 ≠ main_v24_1)),
    Function.update_self]
theorem St4_sum : St4 m c main_v24_1 = (dat1 (atTc (St3 m)) c).arrAt 5 cfg1.N := by
  unfold St4
  rw [Function.update_of_ne (ne_ref (by decide : main_v24_1 ≠ main_v24_2)), Function.update_self]
theorem St4_sq : St4 m c main_v24_2 = (dat1 (atTc (St3 m)) c).arrAt 6 cfg1.N := by
  unfold St4
  rw [Function.update_self]

theorem p_msgA (r : Fin 100000) (j : Fin 128) : (St3 m c main_v22 : S100000x128.Idx → EReal) (ix2 r j)
    = Cert.Spec.edgeSum (by decide) 100000#32 (hF_src m c) (hF_dst m c) (fun r j => (St2 m c main_v12 : S100000x128.Idx → EReal) (ix2 r j)) r j := by
  have h := hF_V3_msg m (outs m) c r j
  rw [V3_eq] at h
  exact h
theorem p_biasA (j : Fin 128) : (St3 m c main_v23 : S1x128.Idx → EReal) (ix2 (0 : Fin 1) j) = (m ((c : Thread nD τ).loc main_arg4) : S128.Idx → EReal) (ix1 j) := by
  have h := hF_V3_bias m (outs m) c 0 j
  rw [V3_eq] at h
  exact h
theorem p_aggA (r : Fin 100000) (j : Fin 128) : (St4 m c main_v24_0 : S100000x128.Idx → EReal) (ix2 r j)
    = Cert.Spec.combine (fun r j => (St3 m c main_v22 : S100000x128.Idx → EReal) (ix2 r j)) (fun r j => (St3 m c main_v12 : S100000x128.Idx → EReal) (ix2 r j))
        (fun r => (St3 m c main_v11 : S100000x1.Idx → EReal) (ix2 r (0 : Fin 1))) (fun j => (St3 m c main_v23 : S1x128.Idx → EReal) (ix2 (0 : Fin 1) j)) r j := by
  rw [St4_agg]
  exact final1_agg (atTc (St3 m)) c (St3 m c main_v22) (St3 m c main_v12) (St3 m c main_v11) (St3 m c main_v23) (A_eq1 (atTc (St3 m)) c 0) (A_eq1 (atTc (St3 m)) c 1) (A_eq1 (atTc (St3 m)) c 2) (A_eq1 (atTc (St3 m)) c 3) r j
theorem p_sumA (j : Fin 128) : (St4 m c main_v24_1 : S1x128.Idx → EReal) (ix2 (0 : Fin 1) j)
    = ∑ r : Fin 100000, Cert.Spec.combine (fun r j => (St3 m c main_v22 : S100000x128.Idx → EReal) (ix2 r j)) (fun r j => (St3 m c main_v12 : S100000x128.Idx → EReal) (ix2 r j))
          (fun r => (St3 m c main_v11 : S100000x1.Idx → EReal) (ix2 r (0 : Fin 1))) (fun j => (St3 m c main_v23 : S1x128.Idx → EReal) (ix2 (0 : Fin 1) j)) r j := by
  rw [St4_sum]
  exact final1_sum (atTc (St3 m)) c (St3 m c main_v22) (St3 m c main_v12) (St3 m c main_v11) (St3 m c main_v23) (A_eq1 (atTc (St3 m)) c 0) (A_eq1 (atTc (St3 m)) c 1) (A_eq1 (atTc (St3 m)) c 2) (A_eq1 (atTc (St3 m)) c 3) j
theorem p_sqA (j : Fin 128) : (St4 m c main_v24_2 : S1x128.Idx → EReal) (ix2 (0 : Fin 1) j)
    = ∑ r : Fin 100000, Cert.Spec.combine (fun r j => (St3 m c main_v22 : S100000x128.Idx → EReal) (ix2 r j)) (fun r j => (St3 m c main_v12 : S100000x128.Idx → EReal) (ix2 r j))
          (fun r => (St3 m c main_v11 : S100000x1.Idx → EReal) (ix2 r (0 : Fin 1))) (fun j => (St3 m c main_v23 : S1x128.Idx → EReal) (ix2 (0 : Fin 1) j)) r j
        * Cert.Spec.combine (fun r j => (St3 m c main_v22 : S100000x128.Idx → EReal) (ix2 r j)) (fun r j => (St3 m c main_v12 : S100000x128.Idx → EReal) (ix2 r j))
          (fun r => (St3 m c main_v11 : S100000x1.Idx → EReal) (ix2 r (0 : Fin 1))) (fun j => (St3 m c main_v23 : S1x128.Idx → EReal) (ix2 (0 : Fin 1) j)) r j := by
  rw [St4_sq]
  exact final1_sumsq (atTc (St3 m)) c (St3 m c main_v22) (St3 m c main_v12) (St3 m c main_v11) (St3 m c main_v23) (A_eq1 (atTc (St3 m)) c 0) (A_eq1 (atTc (St3 m)) c 1) (A_eq1 (atTc (St3 m)) c 2) (A_eq1 (atTc (St3 m)) c 3) j
theorem p_meanA (j : Fin 128) : (St5 m c main_v26 : S1x128.Idx → EReal) (ix2 (0 : Fin 1) j) = Ideal.div ((St4 m c main_v24_1 : S1x128.Idx → EReal) (ix2 (0 : Fin 1) j)) Cert.Spec.nf := by
  have h := hD_V5_mean m (outs m) c j
  rw [V5_eq] at h
  exact h
theorem p_varA (j : Fin 128) : (St5 m c main_v32 : S1x128.Idx → EReal) (ix2 (0 : Fin 1) j)
    = max (Ideal.div ((St4 m c main_v24_2 : S1x128.Idx → EReal) (ix2 (0 : Fin 1) j)) Cert.Spec.nf
        - Ideal.div ((St4 m c main_v24_1 : S1x128.Idx → EReal) (ix2 (0 : Fin 1) j)) Cert.Spec.nf * Ideal.div ((St4 m c main_v24_1 : S1x128.Idx → EReal) (ix2 (0 : Fin 1) j)) Cert.Spec.nf) Cert.Spec.zero := by
  have h := hD_V5_var m (outs m) c j
  rw [V5_eq] at h
  exact h
theorem p_gA (j : Fin 128) : (St5 m c main_v33 : S1x128.Idx → EReal) (ix2 (0 : Fin 1) j) = (m ((c : Thread nD τ).loc main_arg9) : S128.Idx → EReal) (ix1 j) := by
  have h := hD_V5_scale m (outs m) c j
  rw [V5_eq] at h
  exact h
theorem p_beA (j : Fin 128) : (St5 m c main_v34 : S1x128.Idx → EReal) (ix2 (0 : Fin 1) j) = (m ((c : Thread nD τ).loc main_arg10) : S128.Idx → EReal) (ix1 j) := by
  have h := hD_V5_shift m (outs m) c j
  rw [V5_eq] at h
  exact h

/-! ### Layer B -/

theorem St9_agg : St9 m c main_v48_0 = (dat4 (atTc (St8 m)) c).arrAt 4 cfg4.N := by
  unfold St9
  rw [Function.update_of_ne (ne_ref (by decide : main_v48_0 ≠ main_v48_2)), Function.update_of_ne (ne_ref (by decide : main_v48_0 ≠ main_v48_1)),
    Function.update_self]
theorem St9_sum : St9 m c main_v48_1 = (dat4 (atTc (St8 m)) c).arrAt 5 cfg4.N := by
  unfold St9
  rw [Function.update_of_ne (ne_ref (by decide : main_v48_1 ≠ main_v48_2)), Function.update_self]
theorem St9_sq : St9 m c main_v48_2 = (dat4 (atTc (St8 m)) c).arrAt 6 cfg4.N := by
  unfold St9
  rw [Function.update_self]

theorem p_msgB (r : Fin 100000) (j : Fin 128) : (St8 m c main_v46 : S100000x128.Idx → EReal) (ix2 r j)
    = Cert.Spec.edgeSum (by decide) 100000#32 (hF_src m c) (hF_dst m c) (fun r j => (St7 m c main_v36 : S100000x128.Idx → EReal) (ix2 r j)) r j := by
  have h := hF_V8_msg m (outs m) c r j
  rw [V8_eq] at h
  exact h
theorem p_biasB (j : Fin 128) : (St8 m c main_v47 : S1x128.Idx → EReal) (ix2 (0 : Fin 1) j) = (m ((c : Thread nD τ).loc main_arg6) : S128.Idx → EReal) (ix1 j) := by
  have h := hF_V8_bias m (outs m) c 0 j
  rw [V8_eq] at h
  exact h
theorem p_aggB (r : Fin 100000) (j : Fin 128) : (St9 m c main_v48_0 : S100000x128.Idx → EReal) (ix2 r j)
    = Cert.Spec.combine (fun r j => (St8 m c main_v46 : S100000x128.Idx → EReal) (ix2 r j)) (fun r j => (St8 m c main_v36 : S100000x128.Idx → EReal) (ix2 r j))
        (fun r => (St8 m c main_v11 : S100000x1.Idx → EReal) (ix2 r (0 : Fin 1))) (fun j => (St8 m c main_v47 : S1x128.Idx → EReal) (ix2 (0 : Fin 1) j)) r j := by
  rw [St9_agg]
  exact final4_agg (atTc (St8 m)) c (St8 m c main_v46) (St8 m c main_v36) (St8 m c main_v11) (St8 m c main_v47) (A_eq4 (atTc (St8 m)) c 0) (A_eq4 (atTc (St8 m)) c 1) (A_eq4 (atTc (St8 m)) c 2) (A_eq4 (atTc (St8 m)) c 3) r j
theorem p_sumB (j : Fin 128) : (St9 m c main_v48_1 : S1x128.Idx → EReal) (ix2 (0 : Fin 1) j)
    = ∑ r : Fin 100000, Cert.Spec.combine (fun r j => (St8 m c main_v46 : S100000x128.Idx → EReal) (ix2 r j)) (fun r j => (St8 m c main_v36 : S100000x128.Idx → EReal) (ix2 r j))
          (fun r => (St8 m c main_v11 : S100000x1.Idx → EReal) (ix2 r (0 : Fin 1))) (fun j => (St8 m c main_v47 : S1x128.Idx → EReal) (ix2 (0 : Fin 1) j)) r j := by
  rw [St9_sum]
  exact final4_sum (atTc (St8 m)) c (St8 m c main_v46) (St8 m c main_v36) (St8 m c main_v11) (St8 m c main_v47) (A_eq4 (atTc (St8 m)) c 0) (A_eq4 (atTc (St8 m)) c 1) (A_eq4 (atTc (St8 m)) c 2) (A_eq4 (atTc (St8 m)) c 3) j
theorem p_sqB (j : Fin 128) : (St9 m c main_v48_2 : S1x128.Idx → EReal) (ix2 (0 : Fin 1) j)
    = ∑ r : Fin 100000, Cert.Spec.combine (fun r j => (St8 m c main_v46 : S100000x128.Idx → EReal) (ix2 r j)) (fun r j => (St8 m c main_v36 : S100000x128.Idx → EReal) (ix2 r j))
          (fun r => (St8 m c main_v11 : S100000x1.Idx → EReal) (ix2 r (0 : Fin 1))) (fun j => (St8 m c main_v47 : S1x128.Idx → EReal) (ix2 (0 : Fin 1) j)) r j
        * Cert.Spec.combine (fun r j => (St8 m c main_v46 : S100000x128.Idx → EReal) (ix2 r j)) (fun r j => (St8 m c main_v36 : S100000x128.Idx → EReal) (ix2 r j))
          (fun r => (St8 m c main_v11 : S100000x1.Idx → EReal) (ix2 r (0 : Fin 1))) (fun j => (St8 m c main_v47 : S1x128.Idx → EReal) (ix2 (0 : Fin 1) j)) r j := by
  rw [St9_sq]
  exact final4_sumsq (atTc (St8 m)) c (St8 m c main_v46) (St8 m c main_v36) (St8 m c main_v11) (St8 m c main_v47) (A_eq4 (atTc (St8 m)) c 0) (A_eq4 (atTc (St8 m)) c 1) (A_eq4 (atTc (St8 m)) c 2) (A_eq4 (atTc (St8 m)) c 3) j
theorem p_meanB (j : Fin 128) : (St10 m c main_v50 : S1x128.Idx → EReal) (ix2 (0 : Fin 1) j) = Ideal.div ((St9 m c main_v48_1 : S1x128.Idx → EReal) (ix2 (0 : Fin 1) j)) Cert.Spec.nf := by
  have h := hD_V10_mean m (outs m) c j
  rw [V10_eq] at h
  exact h
theorem p_varB (j : Fin 128) : (St10 m c main_v56 : S1x128.Idx → EReal) (ix2 (0 : Fin 1) j)
    = max (Ideal.div ((St9 m c main_v48_2 : S1x128.Idx → EReal) (ix2 (0 : Fin 1) j)) Cert.Spec.nf
        - Ideal.div ((St9 m c main_v48_1 : S1x128.Idx → EReal) (ix2 (0 : Fin 1) j)) Cert.Spec.nf * Ideal.div ((St9 m c main_v48_1 : S1x128.Idx → EReal) (ix2 (0 : Fin 1) j)) Cert.Spec.nf) Cert.Spec.zero := by
  have h := hD_V10_var m (outs m) c j
  rw [V10_eq] at h
  exact h
theorem p_gB (j : Fin 128) : (St10 m c main_v57 : S1x128.Idx → EReal) (ix2 (0 : Fin 1) j) = (m ((c : Thread nD τ).loc main_arg11) : S128.Idx → EReal) (ix1 j) := by
  have h := hD_V10_scale m (outs m) c j
  rw [V10_eq] at h
  exact h
theorem p_beB (j : Fin 128) : (St10 m c main_v58 : S1x128.Idx → EReal) (ix2 (0 : Fin 1) j) = (m ((c : Thread nD τ).loc main_arg12) : S128.Idx → EReal) (ix1 j) := by
  have h := hD_V10_shift m (outs m) c j
  rw [V10_eq] at h
  exact h

/-! ### Layer C -/

theorem St14_agg : St14 m c main_v72_0 = (dat7 (atTc (St13 m)) c).arrAt 4 cfg7.N := by
  unfold St14
  rw [Function.update_of_ne (ne_ref (by decide : main_v72_0 ≠ main_v72_2)), Function.update_of_ne (ne_ref (by decide : main_v72_0 ≠ main_v72_1)),
    Function.update_self]
theorem St14_sum : St14 m c main_v72_1 = (dat7 (atTc (St13 m)) c).arrAt 5 cfg7.N := by
  unfold St14
  rw [Function.update_of_ne (ne_ref (by decide : main_v72_1 ≠ main_v72_2)), Function.update_self]
theorem St14_sq : St14 m c main_v72_2 = (dat7 (atTc (St13 m)) c).arrAt 6 cfg7.N := by
  unfold St14
  rw [Function.update_self]

theorem p_msgC (r : Fin 100000) (j : Fin 128) : (St13 m c main_v70 : S100000x128.Idx → EReal) (ix2 r j)
    = Cert.Spec.edgeSum (by decide) 100000#32 (hF_src m c) (hF_dst m c) (fun r j => (St12 m c main_v60 : S100000x128.Idx → EReal) (ix2 r j)) r j := by
  have h := hF_V13_msg m (outs m) c r j
  rw [V13_eq] at h
  exact h
theorem p_biasC (j : Fin 128) : (St13 m c main_v71 : S1x128.Idx → EReal) (ix2 (0 : Fin 1) j) = (m ((c : Thread nD τ).loc main_arg8) : S128.Idx → EReal) (ix1 j) := by
  have h := hF_V13_bias m (outs m) c 0 j
  rw [V13_eq] at h
  exact h
theorem p_aggC (r : Fin 100000) (j : Fin 128) : (St14 m c main_v72_0 : S100000x128.Idx → EReal) (ix2 r j)
    = Cert.Spec.combine (fun r j => (St13 m c main_v70 : S100000x128.Idx → EReal) (ix2 r j)) (fun r j => (St13 m c main_v60 : S100000x128.Idx → EReal) (ix2 r j))
        (fun r => (St13 m c main_v11 : S100000x1.Idx → EReal) (ix2 r (0 : Fin 1))) (fun j => (St13 m c main_v71 : S1x128.Idx → EReal) (ix2 (0 : Fin 1) j)) r j := by
  rw [St14_agg]
  exact final7_agg (atTc (St13 m)) c (St13 m c main_v70) (St13 m c main_v60) (St13 m c main_v11) (St13 m c main_v71) (A_eq7 (atTc (St13 m)) c 0) (A_eq7 (atTc (St13 m)) c 1) (A_eq7 (atTc (St13 m)) c 2) (A_eq7 (atTc (St13 m)) c 3) r j
theorem p_sumC (j : Fin 128) : (St14 m c main_v72_1 : S1x128.Idx → EReal) (ix2 (0 : Fin 1) j)
    = ∑ r : Fin 100000, Cert.Spec.combine (fun r j => (St13 m c main_v70 : S100000x128.Idx → EReal) (ix2 r j)) (fun r j => (St13 m c main_v60 : S100000x128.Idx → EReal) (ix2 r j))
          (fun r => (St13 m c main_v11 : S100000x1.Idx → EReal) (ix2 r (0 : Fin 1))) (fun j => (St13 m c main_v71 : S1x128.Idx → EReal) (ix2 (0 : Fin 1) j)) r j := by
  rw [St14_sum]
  exact final7_sum (atTc (St13 m)) c (St13 m c main_v70) (St13 m c main_v60) (St13 m c main_v11) (St13 m c main_v71) (A_eq7 (atTc (St13 m)) c 0) (A_eq7 (atTc (St13 m)) c 1) (A_eq7 (atTc (St13 m)) c 2) (A_eq7 (atTc (St13 m)) c 3) j
theorem p_sqC (j : Fin 128) : (St14 m c main_v72_2 : S1x128.Idx → EReal) (ix2 (0 : Fin 1) j)
    = ∑ r : Fin 100000, Cert.Spec.combine (fun r j => (St13 m c main_v70 : S100000x128.Idx → EReal) (ix2 r j)) (fun r j => (St13 m c main_v60 : S100000x128.Idx → EReal) (ix2 r j))
          (fun r => (St13 m c main_v11 : S100000x1.Idx → EReal) (ix2 r (0 : Fin 1))) (fun j => (St13 m c main_v71 : S1x128.Idx → EReal) (ix2 (0 : Fin 1) j)) r j
        * Cert.Spec.combine (fun r j => (St13 m c main_v70 : S100000x128.Idx → EReal) (ix2 r j)) (fun r j => (St13 m c main_v60 : S100000x128.Idx → EReal) (ix2 r j))
          (fun r => (St13 m c main_v11 : S100000x1.Idx → EReal) (ix2 r (0 : Fin 1))) (fun j => (St13 m c main_v71 : S1x128.Idx → EReal) (ix2 (0 : Fin 1) j)) r j := by
  rw [St14_sq]
  exact final7_sumsq (atTc (St13 m)) c (St13 m c main_v70) (St13 m c main_v60) (St13 m c main_v11) (St13 m c main_v71) (A_eq7 (atTc (St13 m)) c 0) (A_eq7 (atTc (St13 m)) c 1) (A_eq7 (atTc (St13 m)) c 2) (A_eq7 (atTc (St13 m)) c 3) j
theorem p_meanC (j : Fin 128) : (St15 m c main_v74 : S1x128.Idx → EReal) (ix2 (0 : Fin 1) j) = Ideal.div ((St14 m c main_v72_1 : S1x128.Idx → EReal) (ix2 (0 : Fin 1) j)) Cert.Spec.nf := by
  have h := hD_V15_mean m (outs m) c j
  rw [V15_eq] at h
  exact h
theorem p_varC (j : Fin 128) : (St15 m c main_v80 : S1x128.Idx → EReal) (ix2 (0 : Fin 1) j)
    = max (Ideal.div ((St14 m c main_v72_2 : S1x128.Idx → EReal) (ix2 (0 : Fin 1) j)) Cert.Spec.nf
        - Ideal.div ((St14 m c main_v72_1 : S1x128.Idx → EReal) (ix2 (0 : Fin 1) j)) Cert.Spec.nf * Ideal.div ((St14 m c main_v72_1 : S1x128.Idx → EReal) (ix2 (0 : Fin 1) j)) Cert.Spec.nf) Cert.Spec.zero := by
  have h := hD_V15_var m (outs m) c j
  rw [V15_eq] at h
  exact h
theorem p_gC (j : Fin 128) : (St15 m c main_v81 : S1x128.Idx → EReal) (ix2 (0 : Fin 1) j) = (m ((c : Thread nD τ).loc main_arg13) : S128.Idx → EReal) (ix1 j) := by
  have h := hD_V15_scale m (outs m) c j
  rw [V15_eq] at h
  exact h
theorem p_beC (j : Fin 128) : (St15 m c main_v82 : S1x128.Idx → EReal) (ix2 (0 : Fin 1) j) = (m ((c : Thread nD τ).loc main_arg14) : S128.Idx → EReal) (ix1 j) := by
  have h := hD_V15_shift m (outs m) c j
  rw [V15_eq] at h
  exact h

/-! ### The degree column and the tail -/

theorem p_dis (r : Fin 100000) : (St1 m c main_v11 : S100000x1.Idx → EReal) (ix2 r (0 : Fin 1)) = Cert.Spec.disK (hF_dst m c) r :=
  hF_V1_dis m c r 0
theorem p_xp (q : Fin 256) (l : Fin 256) : St17 m c main_v96 (ix2 q l)
    = Cert.Spec.doubled (Cert.Spec.pooled (G := 256) (batchW m c) (fun r j => St16 m c main_v83 (ix2 r j))) q l := by
  have h := hD_V17_pool m (outs m) c q l
  rw [V17_eq] at h
  exact h
theorem p_eb1 (k : Fin 128) : St17 m c main_v97 (ix2 (0 : Fin 1) k) = m ((c : Thread nD τ).loc main_arg16) (ix1 k) := by
  have h := hD_V17_bias1 m (outs m) c k
  rw [V17_eq] at h
  exact h
theorem p_eb2 (j : Fin 64) : St17 m c main_v98 (ix2 (0 : Fin 1) j) = m ((c : Thread nD τ).loc main_arg18) (ix1 j) := by
  have h := hD_V17_bias2 m (outs m) c j
  rw [V17_eq] at h
  exact h

/-- All the parts hold. -/
theorem parts : Parts m c where
  dis := p_dis m c
  msgA := p_msgA m c
  biasA := p_biasA m c
  aggA := p_aggA m c
  sumA := p_sumA m c
  sqA := p_sqA m c
  meanA := p_meanA m c
  varA := p_varA m c
  gA := p_gA m c
  beA := p_beA m c
  msgB := p_msgB m c
  biasB := p_biasB m c
  aggB := p_aggB m c
  sumB := p_sumB m c
  sqB := p_sqB m c
  meanB := p_meanB m c
  varB := p_varB m c
  gB := p_gB m c
  beB := p_beB m c
  msgC := p_msgC m c
  biasC := p_biasC m c
  aggC := p_aggC m c
  sumC := p_sumC m c
  sqC := p_sqC m c
  meanC := p_meanC m c
  varC := p_varC m c
  gC := p_gC m c
  beC := p_beC m c
  xp := p_xp m c
  eb1 := p_eb1 m c
  eb2 := p_eb2 m c

/-! ## The whole program -/

/-- THE VALUE of the program: entry (q, j) of the output buffer after the last region is the specification's network
    of the argument arrays as launched. -/
theorem kerTerm_apply (q : Fin 256) (j : Fin 64) :
    St18 m c main_v99 (ix2 q j) = Cert.Spec.netK (N := 100000) (E := 640000) (G := 256) (by decide) 100000#32
      (fun e => m ((c.tc : Thread nD τ).loc main_arg1) (ix2 0 e)) (fun e => m ((c.tc : Thread nD τ).loc main_arg1) (ix2 1 e)) (fun r => m ((c.tc : Thread nD τ).loc main_arg2) (ix1 r)) (fun r k => m ((c.tc : Thread nD τ).loc main_arg0) (ix2 r k))
      (fun k j => m ((c.tc : Thread nD τ).loc main_arg3) (ix2 k j)) (fun j => m ((c.tc : Thread nD τ).loc main_arg4) (ix1 j)) (fun j => m ((c.tc : Thread nD τ).loc main_arg9) (ix1 j)) (fun j => m ((c.tc : Thread nD τ).loc main_arg10) (ix1 j))
      (fun k j => m ((c.tc : Thread nD τ).loc main_arg5) (ix2 k j)) (fun j => m ((c.tc : Thread nD τ).loc main_arg6) (ix1 j)) (fun j => m ((c.tc : Thread nD τ).loc main_arg11) (ix1 j)) (fun j => m ((c.tc : Thread nD τ).loc main_arg12) (ix1 j))
      (fun k j => m ((c.tc : Thread nD τ).loc main_arg7) (ix2 k j)) (fun j => m ((c.tc : Thread nD τ).loc main_arg8) (ix1 j)) (fun j => m ((c.tc : Thread nD τ).loc main_arg13) (ix1 j)) (fun j => m ((c.tc : Thread nD τ).loc main_arg14) (ix1 j))
      (fun M => M) (fun l k => m ((c.tc : Thread nD τ).loc main_arg15) (ix2 l k)) (fun k => m ((c.tc : Thread nD τ).loc main_arg16) (ix1 k))
      (fun k j => m ((c.tc : Thread nD τ).loc main_arg17) (ix2 k j)) (fun j => m ((c.tc : Thread nD τ).loc main_arg18) (ix1 j)) q j :=
  kerTerm_apply_of_parts m c (parts m c) q j

end Cert.KernelIdeal.Hand

end
-- ==== Proof.Ref.Ops.lean ====
/-
  The reference program's @main as a straight line: its host operations in order, each outlined function's
  operations written at its call over that call's buffers, cut into consecutive stretches `W0 … W9` (a stretch
  ends where a printed window of @main ends, where a layer's aggregate is complete, and where a layer's output is).
  `main_eq`: @main is the sequence of the concatenated list.
-/
import proofs.«115763_j74259984548099_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1 … 62 of 341. -/
abbrev W0 : List (HloOp τ sig (Elt F)) :=
  [ unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000,
    binary main_arg0 main_arg3 main_v4 ((fun l r => Host.dotGeneral dot_S100000x20_S20x128_S100000x128_1_0_0_1_n_n none l r) : (⟨S100000x20, .f32⟩ : BufTy).Contents (Elt F) → (⟨S20x128, .f32⟩ : BufTy).Contents (Elt F) → (⟨S100000x128, .f32⟩ : BufTy).Contents (Elt F)),
    nullary main_v5 (iotaInDim S100000 32 0),
    binary main_v1 main_v5 main_v6 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    binary main_v3 main_v5 main_v7 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    nullary main_cst (constant S_ .f32 0x3F800000#32),
    unary main_cst main_v8 (broadcastInDim S740000 ![] bcast_S_S740000 : (⟨S_, .f32⟩ : BufTy).Contents (Elt F) → (⟨S740000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S740000x1 ![0] bcast_S740000_S740000x1_0 : (⟨S740000, .i32⟩ : BufTy).Contents (Elt F) → (⟨S740000x1, .i32⟩ : BufTy).Contents (Elt F)),
    ternary main_v9 main_v10 main_v8 main_v11 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (.of main_cst_2 : TRef sig ⟨S_, .f32⟩) main_call0.v0 id,
    TRef.unary main_call0.v0 main_call0.v1 (broadcastInDim S100000 ![] bcast_S_S100000),
    TRef.ternary (.of main_v13 : TRef sig ⟨S100000, .i1⟩) (.of main_v14 : TRef sig ⟨S100000, .f32⟩) main_call0.v1 main_call0.v2 select,
    nullary main_c (constantI S_ 32 0#32),
    unary main_c main_v16 (broadcastInDim S740000 ![] bcast_S_S740000 : (⟨S_, .i32⟩ : BufTy).Contents (Elt F) → (⟨S740000, .i32⟩ : BufTy).Contents (Elt F)),
    binary main_v6 main_v16 main_v17 (cmpi .slt : (⟨S740000, .i32⟩ : BufTy).Contents (Elt F) → (⟨S740000, .i32⟩ : BufTy).Contents (Elt F) → (⟨S740000, .i1⟩ : BufTy).Contents (Elt F)),
    nullary main_c_3 (constantI S_ 32 100000#32),
    unary main_c_3 main_v18 (broadcastInDim S740000 ![] bcast_S_S740000 : (⟨S_, .i32⟩ : BufTy).Contents (Elt F) → (⟨S740000, .i32⟩ : BufTy).Contents (Elt F)),
    binary main_v6 main_v18 main_v19 (addi : (⟨S740000, .i32⟩ : BufTy).Contents (Elt F) → (⟨S740000, .i32⟩ : BufTy).Contents (Elt F) → (⟨S740000, .i32⟩ : BufTy).Contents (Elt F)),
    ternary main_v17 main_v19 main_v6 main_v20 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v20 main_v21 (broadcastInDim S740000x1 ![0] bcast_S740000_S740000x1_0 : (⟨S740000, .i32⟩ : BufTy).Contents (Elt F) → (⟨S740000x1, .i32⟩ : BufTy).Contents (Elt F)),
    binary main_v15 main_v21 main_v22 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    nullary main_c_4 (constantI S_ 32 0#32),
    unary main_c_4 main_v23 (broadcastInDim S740000 ![] bcast_S_S740000 : (⟨S_, .i32⟩ : BufTy).Contents (Elt F) → (⟨S740000, .i32⟩ : BufTy).Contents (Elt F)),
    binary main_v7 main_v23 main_v24 (cmpi .slt : (⟨S740000, .i32⟩ : BufTy).Contents (Elt F) → (⟨S740000, .i32⟩ : BufTy).Contents (Elt F) → (⟨S740000, .i1⟩ : BufTy).Contents (Elt F)),
    nullary main_c_5 (constantI S_ 32 100000#32),
    unary main_c_5 main_v25 (broadcastInDim S740000 ![] bcast_S_S740000 : (⟨S_, .i32⟩ : BufTy).Contents (Elt F) → (⟨S740000, .i32⟩ : BufTy).Contents (Elt F)),
    binary main_v7 main_v25 main_v26 (addi : (⟨S740000, .i32⟩ : BufTy).Contents (Elt F) → (⟨S740000, .i32⟩ : BufTy).Contents (Elt F) → (⟨S740000, .i32⟩ : BufTy).Contents (Elt F)),
    ternary main_v24 main_v26 main_v7 main_v27 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v27 main_v28 (broadcastInDim S740000x1 ![0] bcast_S740000_S740000x1_0 : (⟨S740000, .i32⟩ : BufTy).Contents (Elt F) → (⟨S740000x1, .i32⟩ : BufTy).Contents (Elt F)),
    binary main_v15 main_v28 main_v29 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v22 main_v29 main_v30 (mulf : (⟨S740000, .f32⟩ : BufTy).Contents (Elt F) → (⟨S740000, .f32⟩ : BufTy).Contents (Elt F) → (⟨S740000, .f32⟩ : BufTy).Contents (Elt F)),
    nullary main_c_6 (constantI S_ 32 0#32),
    unary main_c_6 main_v31 (broadcastInDim S740000 ![] bcast_S_S740000 : (⟨S_, .i32⟩ : BufTy).Contents (Elt F) → (⟨S740000, .i32⟩ : BufTy).Contents (Elt F)),
    binary main_v6 main_v31 main_v32 (cmpi .slt : (⟨S740000, .i32⟩ : BufTy).Contents (Elt F) → (⟨S740000, .i32⟩ : BufTy).Contents (Elt F) → (⟨S740000, .i1⟩ : BufTy).Contents (Elt F)),
    nullary main_c_7 (constantI S_ 32 100000#32),
    unary main_c_7 main_v33 (broadcastInDim S740000 ![] bcast_S_S740000 : (⟨S_, .i32⟩ : BufTy).Contents (Elt F) → (⟨S740000, .i32⟩ : BufTy).Contents (Elt F)),
    binary main_v6 main_v33 main_v34 (addi : (⟨S740000, .i32⟩ : BufTy).Contents (Elt F) → (⟨S740000, .i32⟩ : BufTy).Contents (Elt F) → (⟨S740000, .i32⟩ : BufTy).Contents (Elt F)),
    ternary main_v32 main_v34 main_v6 main_v35 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v35 main_v36 (broadcastInDim S740000x1 ![0] bcast_S740000_S740000x1_0 : (⟨S740000, .i32⟩ : BufTy).Contents (Elt F) → (⟨S740000x1, .i32⟩ : BufTy).Contents (Elt F)),
    binary main_v4 main_v36 main_v37 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v30 main_v38 (broadcastInDim S740000x1 ![0] bcast_S740000_S740000x1_0 : (⟨S740000, .f32⟩ : BufTy).Contents (Elt F) → (⟨S740000x1, .f32⟩ : BufTy).Contents (Elt F)),
    unary main_v38 main_v39 (broadcastInDim S740000x128 ![0, 1] bcast_S740000x1_S740000x128_0_1 : (⟨S740000x1, .f32⟩ : BufTy).Contents (Elt F) → (⟨S740000x128, .f32⟩ : BufTy).Contents (Elt F)),
    binary main_v37 main_v39 main_v40 (mulf : (⟨S740000x128, .f32⟩ : BufTy).Contents (Elt F) → (⟨S740000x128, .f32⟩ : BufTy).Contents (Elt F) → (⟨S740000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v7 main_v42 (broadcastInDim S740000x1 ![0] bcast_S740000_S740000x1_0 : (⟨S740000, .i32⟩ : BufTy).Contents (Elt F) → (⟨S740000x1, .i32⟩ : BufTy).Contents (Elt F)),
    ternary main_v41 main_v42 main_v40 main_v43 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    unary main_arg4 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    nullary main_cst_9 (constant S_ .f32 0x00000000#32),
    binary main_v46 main_cst_9 main_v47 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) ]

/-- Operations 63 … 107 of 341. -/
abbrev W1 : List (HloOp τ sig (Elt F)) :=
  [ nullary main_cst_10 (constant S_ .f32 0x47C35000#32),
    unary main_cst_10 main_v48 (broadcastInDim S128 ![] bcast_S_S128 : (⟨S_, .f32⟩ : BufTy).Contents (Elt F) → (⟨S128, .f32⟩ : BufTy).Contents (Elt F)),
    binary main_v47 main_v48 main_v49 (Host.divf : (⟨S128, .f32⟩ : BufTy).Contents (Elt F) → (⟨S128, .f32⟩ : BufTy).Contents (Elt F) → (⟨S128, .f32⟩ : BufTy).Contents (Elt F)),
    nullary main_c_11 (constantI S_ 32 0#32),
    TRef.nullary main_call1.cst (constant S_ .f32 0x00000000#32),
    TRef.binary (.of main_v46 : TRef sig ⟨S100000x128, .f32⟩) main_call1.cst main_call1.v0 (fun x v => Host.reduceAdd x v reducesTo_S100000x128_S128_d0 h_S_),
    TRef.unary main_call1.v0 main_call1.v1 (broadcastInDim S1x128 ![1] bcast_S128_S1x128_1),
    TRef.nullary main_call1.cst_0 (constant S_ .f32 0x47C35000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S100000x128 ![0, 1] bcast_S1x128_S100000x128_0_1),
    TRef.binary (.of main_v46 : TRef sig ⟨S100000x128, .f32⟩) main_call1.v4 main_call1.v5 subf,
    TRef.binary main_call1.v5 main_call1.v5 main_call1.v6 mulf,
    TRef.unary (.of main_c_11 : TRef sig ⟨S_, .i32⟩) main_call1.v7 (sitofp .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary (.of main_call1_cst_4 : TRef sig ⟨S_, .f32⟩) main_call1_call0.v0 id,
    TRef.unary main_call1_call0.v0 main_call1_call0.v1 (broadcastInDim S128 ![] bcast_S_S128),
    TRef.ternary (.of main_call1_v12 : TRef sig ⟨S_, .i1⟩) (.of main_call1_v11 : TRef sig ⟨S128, .f32⟩) main_call1_call0.v1 main_call1_call0.v2 (fun p a b => select (broadcastInDim S128 ![] bcast_S_S128 p) a b),
    unary main_v49 main_v51 (broadcastInDim S1x128 ![1] bcast_S128_S1x128_1 : (⟨S128, .f32⟩ : BufTy).Contents (Elt F) → (⟨S1x128, .f32⟩ : BufTy).Contents (Elt F)),
    unary main_v51 main_v52 (broadcastInDim S100000x128 ![0, 1] bcast_S1x128_S100000x128_0_1 : (⟨S1x128, .f32⟩ : BufTy).Contents (Elt F) → (⟨S100000x128, .f32⟩ : BufTy).Contents (Elt F)),
    binary main_v46 main_v52 main_v53 (subf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x3727C5AC#32),
    unary main_cst_12 main_v54 (broadcastInDim S128 ![] bcast_S_S128 : (⟨S_, .f32⟩ : BufTy).Contents (Elt F) → (⟨S128, .f32⟩ : BufTy).Contents (Elt F)),
    binary main_v50 main_v54 main_v55 (addf : (⟨S128, .f32⟩ : BufTy).Contents (Elt F) → (⟨S128, .f32⟩ : BufTy).Contents (Elt F) → (⟨S128, .f32⟩ : BufTy).Contents (Elt F)),
    unary main_v55 main_v56 (Host.rsqrt : (⟨S128, .f32⟩ : BufTy).Contents (Elt F) → (⟨S128, .f32⟩ : BufTy).Contents (Elt F)),
    unary main_v56 main_v57 (broadcastInDim S1x128 ![1] bcast_S128_S1x128_1 : (⟨S128, .f32⟩ : BufTy).Contents (Elt F) → (⟨S1x128, .f32⟩ : BufTy).Contents (Elt F)),
    unary main_v57 main_v58 (broadcastInDim S100000x128 ![0, 1] bcast_S1x128_S100000x128_0_1 : (⟨S1x128, .f32⟩ : BufTy).Contents (Elt F) → (⟨S100000x128, .f32⟩ : BufTy).Contents (Elt F)),
    binary main_v53 main_v58 main_v59 (mulf : (⟨S100000x128, .f32⟩ : BufTy).Contents (Elt F) → (⟨S100000x128, .f32⟩ : BufTy).Contents (Elt F) → (⟨S100000x128, .f32⟩ : BufTy).Contents (Elt F)),
    unary main_arg9 main_v60 (broadcastInDim S1x128 ![1] bcast_S128_S1x128_1 : (⟨S128, .f32⟩ : BufTy).Contents (Elt F) → (⟨S1x128, .f32⟩ : BufTy).Contents (Elt F)),
    unary main_v60 main_v61 (broadcastInDim S100000x128 ![0, 1] bcast_S1x128_S100000x128_0_1 : (⟨S1x128, .f32⟩ : BufTy).Contents (Elt F) → (⟨S100000x128, .f32⟩ : BufTy).Contents (Elt F)),
    binary main_v59 main_v61 main_v62 (mulf : (⟨S100000x128, .f32⟩ : BufTy).Contents (Elt F) → (⟨S100000x128, .f32⟩ : BufTy).Contents (Elt F) → (⟨S100000x128, .f32⟩ : BufTy).Contents (Elt F)),
    unary main_arg10 main_v63 (broadcastInDim S1x128 ![1] bcast_S128_S1x128_1 : (⟨S128, .f32⟩ : BufTy).Contents (Elt F) → (⟨S1x128, .f32⟩ : BufTy).Contents (Elt F)),
    unary main_v63 main_v64 (broadcastInDim S100000x128 ![0, 1] bcast_S1x128_S100000x128_0_1 : (⟨S1x128, .f32⟩ : BufTy).Contents (Elt F) → (⟨S100000x128, .f32⟩ : BufTy).Contents (Elt F)),
    binary main_v62 main_v64 main_v65 (addf : (⟨S100000x128, .f32⟩ : BufTy).Contents (Elt F) → (⟨S100000x128, .f32⟩ : BufTy).Contents (Elt F) → (⟨S100000x128, .f32⟩ : BufTy).Contents (Elt F)),
    TRef.nullary main_call2.cst (constant S_ .f32 0x00000000#32),
    TRef.unary main_call2.cst main_call2.v0 (broadcastInDim S100000x128 ![] bcast_S_S100000x128),
    TRef.binary (.of main_v65 : TRef sig ⟨S100000x128, .f32⟩) main_call2.v0 main_call2.v1 maximumf ]

/-- Operations 108 … 147 of 341. -/
abbrev W2 : List (HloOp τ sig (Elt F)) :=
  [ binary main_v66 main_arg5 main_v67 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v68 (iotaInDim S100000 32 0),
    binary main_v1 main_v68 main_v69 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    binary main_v3 main_v68 main_v70 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    nullary main_cst_13 (constant S_ .f32 0x3F800000#32),
    unary main_cst_13 main_v71 (broadcastInDim S740000 ![] bcast_S_S740000 : (⟨S_, .f32⟩ : BufTy).Contents (Elt F) → (⟨S740000, .f32⟩ : BufTy).Contents (Elt F)),
    nullary main_cst_14 (constant S_ .f32 0x00000000#32),
    unary main_cst_14 main_v72 (broadcastInDim S100000 ![] bcast_S_S100000 : (⟨S_, .f32⟩ : BufTy).Contents (Elt F) → (⟨S100000, .f32⟩ : BufTy).Contents (Elt F)),
    unary main_v70 main_v73 (broadcastInDim S740000x1 ![0] bcast_S740000_S740000x1_0 : (⟨S740000, .i32⟩ : BufTy).Contents (Elt F) → (⟨S740000x1, .i32⟩ : BufTy).Contents (Elt F)),
    ternary main_v72 main_v73 main_v71 main_v74 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)),
    nullary main_cst_15 (constant S_ .f32 0x00000000#32),
    unary main_cst_15 main_v75 (broadcastInDim S100000 ![] bcast_S_S100000 : (⟨S_, .f32⟩ : BufTy).Contents (Elt F) → (⟨S100000, .f32⟩ : BufTy).Contents (Elt F)),
    binary main_v74 main_v75 main_v76 (cmpf .ogt : (⟨S100000, .f32⟩ : BufTy).Contents (Elt F) → (⟨S100000, .f32⟩ : BufTy).Contents (Elt F) → (⟨S100000, .i1⟩ : BufTy).Contents (Elt F)),
    unary main_v74 main_v77 (Host.rsqrt : (⟨S100000, .f32⟩ : BufTy).Contents (Elt F) → (⟨S100000, .f32⟩ : BufTy).Contents (Elt F)),
    nullary main_cst_16 (constant S_ .f32 0x00000000#32),
    TRef.unary (.of main_cst_16 : TRef sig ⟨S_, .f32⟩) main_call3.v0 id,
    TRef.unary main_call3.v0 main_call3.v1 (broadcastInDim S100000 ![] bcast_S_S100000),
    TRef.ternary (.of main_v76 : TRef sig ⟨S100000, .i1⟩) (.of main_v77 : TRef sig ⟨S100000, .f32⟩) main_call3.v1 main_call3.v2 select,
    nullary main_c_17 (constantI S_ 32 0#32),
    unary main_c_17 main_v79 (broadcastInDim S740000 ![] bcast_S_S740000 : (⟨S_, .i32⟩ : BufTy).Contents (Elt F) → (⟨S740000, .i32⟩ : BufTy).Contents (Elt F)),
    binary main_v69 main_v79 main_v80 (cmpi .slt : (⟨S740000, .i32⟩ : BufTy).Contents (Elt F) → (⟨S740000, .i32⟩ : BufTy).Contents (Elt F) → (⟨S740000, .i1⟩ : BufTy).Contents (Elt F)),
    nullary main_c_18 (constantI S_ 32 100000#32),
    unary main_c_18 main_v81 (broadcastInDim S740000 ![] bcast_S_S740000 : (⟨S_, .i32⟩ : BufTy).Contents (Elt F) → (⟨S740000, .i32⟩ : BufTy).Contents (Elt F)),
    binary main_v69 main_v81 main_v82 (addi : (⟨S740000, .i32⟩ : BufTy).Contents (Elt F) → (⟨S740000, .i32⟩ : BufTy).Contents (Elt F) → (⟨S740000, .i32⟩ : BufTy).Contents (Elt F)),
    ternary main_v80 main_v82 main_v69 main_v83 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v83 main_v84 (broadcastInDim S740000x1 ![0] bcast_S740000_S740000x1_0 : (⟨S740000, .i32⟩ : BufTy).Contents (Elt F) → (⟨S740000x1, .i32⟩ : BufTy).Contents (Elt F)),
    binary main_v78 main_v84 main_v85 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    nullary main_c_19 (constantI S_ 32 0#32),
    unary main_c_19 main_v86 (broadcastInDim S740000 ![] bcast_S_S740000 : (⟨S_, .i32⟩ : BufTy).Contents (Elt F) → (⟨S740000, .i32⟩ : BufTy).Contents (Elt F)),
    binary main_v70 main_v86 main_v87 (cmpi .slt : (⟨S740000, .i32⟩ : BufTy).Contents (Elt F) → (⟨S740000, .i32⟩ : BufTy).Contents (Elt F) → (⟨S740000, .i1⟩ : BufTy).Contents (Elt F)),
    nullary main_c_20 (constantI S_ 32 100000#32),
    unary main_c_20 main_v88 (broadcastInDim S740000 ![] bcast_S_S740000 : (⟨S_, .i32⟩ : BufTy).Contents (Elt F) → (⟨S740000, .i32⟩ : BufTy).Contents (Elt F)),
    binary main_v70 main_v88 main_v89 (addi : (⟨S740000, .i32⟩ : BufTy).Contents (Elt F) → (⟨S740000, .i32⟩ : BufTy).Contents (Elt F) → (⟨S740000, .i32⟩ : BufTy).Contents (Elt F)),
    ternary main_v87 main_v89 main_v70 main_v90 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v90 main_v91 (broadcastInDim S740000x1 ![0] bcast_S740000_S740000x1_0 : (⟨S740000, .i32⟩ : BufTy).Contents (Elt F) → (⟨S740000x1, .i32⟩ : BufTy).Contents (Elt F)),
    binary main_v78 main_v91 main_v92 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v85 main_v92 main_v93 (mulf : (⟨S740000, .f32⟩ : BufTy).Contents (Elt F) → (⟨S740000, .f32⟩ : BufTy).Contents (Elt F) → (⟨S740000, .f32⟩ : BufTy).Contents (Elt F)),
    nullary main_c_21 (constantI S_ 32 0#32),
    unary main_c_21 main_v94 (broadcastInDim S740000 ![] bcast_S_S740000 : (⟨S_, .i32⟩ : BufTy).Contents (Elt F) → (⟨S740000, .i32⟩ : BufTy).Contents (Elt F)),
    binary main_v69 main_v94 main_v95 (cmpi .slt : (⟨S740000, .i32⟩ : BufTy).Contents (Elt F) → (⟨S740000, .i32⟩ : BufTy).Contents (Elt F) → (⟨S740000, .i1⟩ : BufTy).Contents (Elt F)) ]

/-- Operations 148 … 163 of 341. -/
abbrev W3 : List (HloOp τ sig (Elt F)) :=
  [ nullary main_c_22 (constantI S_ 32 100000#32),
    unary main_c_22 main_v96 (broadcastInDim S740000 ![] bcast_S_S740000 : (⟨S_, .i32⟩ : BufTy).Contents (Elt F) → (⟨S740000, .i32⟩ : BufTy).Contents (Elt F)),
    binary main_v69 main_v96 main_v97 (addi : (⟨S740000, .i32⟩ : BufTy).Contents (Elt F) → (⟨S740000, .i32⟩ : BufTy).Contents (Elt F) → (⟨S740000, .i32⟩ : BufTy).Contents (Elt F)),
    ternary main_v95 main_v97 main_v69 main_v98 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v98 main_v99 (broadcastInDim S740000x1 ![0] bcast_S740000_S740000x1_0 : (⟨S740000, .i32⟩ : BufTy).Contents (Elt F) → (⟨S740000x1, .i32⟩ : BufTy).Contents (Elt F)),
    binary main_v67 main_v99 main_v100 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v93 main_v101 (broadcastInDim S740000x1 ![0] bcast_S740000_S740000x1_0 : (⟨S740000, .f32⟩ : BufTy).Contents (Elt F) → (⟨S740000x1, .f32⟩ : BufTy).Contents (Elt F)),
    unary main_v101 main_v102 (broadcastInDim S740000x128 ![0, 1] bcast_S740000x1_S740000x128_0_1 : (⟨S740000x1, .f32⟩ : BufTy).Contents (Elt F) → (⟨S740000x128, .f32⟩ : BufTy).Contents (Elt F)),
    binary main_v100 main_v102 main_v103 (mulf : (⟨S740000x128, .f32⟩ : BufTy).Contents (Elt F) → (⟨S740000x128, .f32⟩ : BufTy).Contents (Elt F) → (⟨S740000x128, .f32⟩ : BufTy).Contents (Elt F)),
    nullary main_cst_23 (constant S_ .f32 0x00000000#32),
    unary main_cst_23 main_v104 (broadcastInDim S100000x128 ![] bcast_S_S100000x128 : (⟨S_, .f32⟩ : BufTy).Contents (Elt F) → (⟨S100000x128, .f32⟩ : BufTy).Contents (Elt F)),
    unary main_v70 main_v105 (broadcastInDim S740000x1 ![0] bcast_S740000_S740000x1_0 : (⟨S740000, .i32⟩ : BufTy).Contents (Elt F) → (⟨S740000x1, .i32⟩ : BufTy).Contents (Elt F)),
    ternary main_v104 main_v105 main_v103 main_v106 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    unary main_arg6 main_v107 (broadcastInDim S1x128 ![1] bcast_S128_S1x128_1 : (⟨S128, .f32⟩ : BufTy).Contents (Elt F) → (⟨S1x128, .f32⟩ : BufTy).Contents (Elt F)),
    unary main_v107 main_v108 (broadcastInDim S100000x128 ![0, 1] bcast_S1x128_S100000x128_0_1 : (⟨S1x128, .f32⟩ : BufTy).Contents (Elt F) → (⟨S100000x128, .f32⟩ : BufTy).Contents (Elt F)),
    binary main_v106 main_v108 main_v109 (addf : (⟨S100000x128, .f32⟩ : BufTy).Contents (Elt F) → (⟨S100000x128, .f32⟩ : BufTy).Contents (Elt F) → (⟨S100000x128, .f32⟩ : BufTy).Contents (Elt F)) ]

/-- Operations 164 … 210 of 341. -/
abbrev W4 : List (HloOp τ sig (Elt F)) :=
  [ nullary main_cst_24 (constant S_ .f32 0x00000000#32),
    binary main_v109 main_cst_24 main_v110 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_25 (constant S_ .f32 0x47C35000#32),
    unary main_cst_25 main_v111 (broadcastInDim S128 ![] bcast_S_S128 : (⟨S_, .f32⟩ : BufTy).Contents (Elt F) → (⟨S128, .f32⟩ : BufTy).Contents (Elt F)),
    binary main_v110 main_v111 main_v112 (Host.divf : (⟨S128, .f32⟩ : BufTy).Contents (Elt F) → (⟨S128, .f32⟩ : BufTy).Contents (Elt F) → (⟨S128, .f32⟩ : BufTy).Contents (Elt F)),
    nullary main_c_26 (constantI S_ 32 0#32),
    TRef.nullary main_call4.cst (constant S_ .f32 0x00000000#32),
    TRef.binary (.of main_v109 : TRef sig ⟨S100000x128, .f32⟩) main_call4.cst main_call4.v0 (fun x v => Host.reduceAdd x v reducesTo_S100000x128_S128_d0 h_S_),
    TRef.unary main_call4.v0 main_call4.v1 (broadcastInDim S1x128 ![1] bcast_S128_S1x128_1),
    TRef.nullary main_call4.cst_0 (constant S_ .f32 0x47C35000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S100000x128 ![0, 1] bcast_S1x128_S100000x128_0_1),
    TRef.binary (.of main_v109 : TRef sig ⟨S100000x128, .f32⟩) main_call4.v4 main_call4.v5 subf,
    TRef.binary main_call4.v5 main_call4.v5 main_call4.v6 mulf,
    TRef.unary (.of main_c_26 : TRef sig ⟨S_, .i32⟩) main_call4.v7 (sitofp .f32),
    TRef.nullary main_call4.cst_1 (constant S_ .f32 0x47C35000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S100000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary (.of main_call4_cst_4 : TRef sig ⟨S_, .f32⟩) main_call4_call0.v0 id,
    TRef.unary main_call4_call0.v0 main_call4_call0.v1 (broadcastInDim S128 ![] bcast_S_S128),
    TRef.ternary (.of main_call4_v12 : TRef sig ⟨S_, .i1⟩) (.of main_call4_v11 : TRef sig ⟨S128, .f32⟩) main_call4_call0.v1 main_call4_call0.v2 (fun p a b => select (broadcastInDim S128 ![] bcast_S_S128 p) a b),
    unary main_v112 main_v114 (broadcastInDim S1x128 ![1] bcast_S128_S1x128_1 : (⟨S128, .f32⟩ : BufTy).Contents (Elt F) → (⟨S1x128, .f32⟩ : BufTy).Contents (Elt F)),
    unary main_v114 main_v115 (broadcastInDim S100000x128 ![0, 1] bcast_S1x128_S100000x128_0_1 : (⟨S1x128, .f32⟩ : BufTy).Contents (Elt F) → (⟨S100000x128, .f32⟩ : BufTy).Contents (Elt F)),
    binary main_v109 main_v115 main_v116 (subf : (⟨S100000x128, .f32⟩ : BufTy).Contents (Elt F) → (⟨S100000x128, .f32⟩ : BufTy).Contents (Elt F) → (⟨S100000x128, .f32⟩ : BufTy).Contents (Elt F)),
    nullary main_cst_27 (constant S_ .f32 0x3727C5AC#32),
    unary main_cst_27 main_v117 (broadcastInDim S128 ![] bcast_S_S128 : (⟨S_, .f32⟩ : BufTy).Contents (Elt F) → (⟨S128, .f32⟩ : BufTy).Contents (Elt F)),
    binary main_v113 main_v117 main_v118 (addf : (⟨S128, .f32⟩ : BufTy).Contents (Elt F) → (⟨S128, .f32⟩ : BufTy).Contents (Elt F) → (⟨S128, .f32⟩ : BufTy).Contents (Elt F)),
    unary main_v118 main_v119 (Host.rsqrt : (⟨S128, .f32⟩ : BufTy).Contents (Elt F) → (⟨S128, .f32⟩ : BufTy).Contents (Elt F)),
    unary main_v119 main_v120 (broadcastInDim S1x128 ![1] bcast_S128_S1x128_1 : (⟨S128, .f32⟩ : BufTy).Contents (Elt F) → (⟨S1x128, .f32⟩ : BufTy).Contents (Elt F)),
    unary main_v120 main_v121 (broadcastInDim S100000x128 ![0, 1] bcast_S1x128_S100000x128_0_1 : (⟨S1x128, .f32⟩ : BufTy).Contents (Elt F) → (⟨S100000x128, .f32⟩ : BufTy).Contents (Elt F)),
    binary main_v116 main_v121 main_v122 (mulf : (⟨S100000x128, .f32⟩ : BufTy).Contents (Elt F) → (⟨S100000x128, .f32⟩ : BufTy).Contents (Elt F) → (⟨S100000x128, .f32⟩ : BufTy).Contents (Elt F)),
    unary main_arg11 main_v123 (broadcastInDim S1x128 ![1] bcast_S128_S1x128_1 : (⟨S128, .f32⟩ : BufTy).Contents (Elt F) → (⟨S1x128, .f32⟩ : BufTy).Contents (Elt F)),
    unary main_v123 main_v124 (broadcastInDim S100000x128 ![0, 1] bcast_S1x128_S100000x128_0_1 : (⟨S1x128, .f32⟩ : BufTy).Contents (Elt F) → (⟨S100000x128, .f32⟩ : BufTy).Contents (Elt F)),
    binary main_v122 main_v124 main_v125 (mulf : (⟨S100000x128, .f32⟩ : BufTy).Contents (Elt F) → (⟨S100000x128, .f32⟩ : BufTy).Contents (Elt F) → (⟨S100000x128, .f32⟩ : BufTy).Contents (Elt F)),
    unary main_arg12 main_v126 (broadcastInDim S1x128 ![1] bcast_S128_S1x128_1 : (⟨S128, .f32⟩ : BufTy).Contents (Elt F) → (⟨S1x128, .f32⟩ : BufTy).Contents (Elt F)),
    unary main_v126 main_v127 (broadcastInDim S100000x128 ![0, 1] bcast_S1x128_S100000x128_0_1 : (⟨S1x128, .f32⟩ : BufTy).Contents (Elt F) → (⟨S100000x128, .f32⟩ : BufTy).Contents (Elt F)),
    binary main_v125 main_v127 main_v128 (addf : (⟨S100000x128, .f32⟩ : BufTy).Contents (Elt F) → (⟨S100000x128, .f32⟩ : BufTy).Contents (Elt F) → (⟨S100000x128, .f32⟩ : BufTy).Contents (Elt F)),
    TRef.nullary main_call5.cst (constant S_ .f32 0x00000000#32),
    TRef.unary main_call5.cst main_call5.v0 (broadcastInDim S100000x128 ![] bcast_S_S100000x128),
    TRef.binary (.of main_v128 : TRef sig ⟨S100000x128, .f32⟩) main_call5.v0 main_call5.v1 maximumf ]

/-- Operations 211 … 232 of 341. -/
abbrev W5 : List (HloOp τ sig (Elt F)) :=
  [ binary main_v129 main_arg7 main_v130 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v131 (iotaInDim S100000 32 0),
    binary main_v1 main_v131 main_v132 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    binary main_v3 main_v131 main_v133 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    nullary main_cst_28 (constant S_ .f32 0x3F800000#32),
    unary main_cst_28 main_v134 (broadcastInDim S740000 ![] bcast_S_S740000 : (⟨S_, .f32⟩ : BufTy).Contents (Elt F) → (⟨S740000, .f32⟩ : BufTy).Contents (Elt F)),
    nullary main_cst_29 (constant S_ .f32 0x00000000#32),
    unary main_cst_29 main_v135 (broadcastInDim S100000 ![] bcast_S_S100000 : (⟨S_, .f32⟩ : BufTy).Contents (Elt F) → (⟨S100000, .f32⟩ : BufTy).Contents (Elt F)),
    unary main_v133 main_v136 (broadcastInDim S740000x1 ![0] bcast_S740000_S740000x1_0 : (⟨S740000, .i32⟩ : BufTy).Contents (Elt F) → (⟨S740000x1, .i32⟩ : BufTy).Contents (Elt F)),
    ternary main_v135 main_v136 main_v134 main_v137 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)),
    nullary main_cst_30 (constant S_ .f32 0x00000000#32),
    unary main_cst_30 main_v138 (broadcastInDim S100000 ![] bcast_S_S100000 : (⟨S_, .f32⟩ : BufTy).Contents (Elt F) → (⟨S100000, .f32⟩ : BufTy).Contents (Elt F)),
    binary main_v137 main_v138 main_v139 (cmpf .ogt : (⟨S100000, .f32⟩ : BufTy).Contents (Elt F) → (⟨S100000, .f32⟩ : BufTy).Contents (Elt F) → (⟨S100000, .i1⟩ : BufTy).Contents (Elt F)),
    unary main_v137 main_v140 (Host.rsqrt : (⟨S100000, .f32⟩ : BufTy).Contents (Elt F) → (⟨S100000, .f32⟩ : BufTy).Contents (Elt F)),
    nullary main_cst_31 (constant S_ .f32 0x00000000#32),
    TRef.unary (.of main_cst_31 : TRef sig ⟨S_, .f32⟩) main_call6.v0 id,
    TRef.unary main_call6.v0 main_call6.v1 (broadcastInDim S100000 ![] bcast_S_S100000),
    TRef.ternary (.of main_v139 : TRef sig ⟨S100000, .i1⟩) (.of main_v140 : TRef sig ⟨S100000, .f32⟩) main_call6.v1 main_call6.v2 select,
    nullary main_c_32 (constantI S_ 32 0#32),
    unary main_c_32 main_v142 (broadcastInDim S740000 ![] bcast_S_S740000 : (⟨S_, .i32⟩ : BufTy).Contents (Elt F) → (⟨S740000, .i32⟩ : BufTy).Contents (Elt F)),
    binary main_v132 main_v142 main_v143 (cmpi .slt : (⟨S740000, .i32⟩ : BufTy).Contents (Elt F) → (⟨S740000, .i32⟩ : BufTy).Contents (Elt F) → (⟨S740000, .i1⟩ : BufTy).Contents (Elt F)),
    nullary main_c_33 (constantI S_ 32 100000#32) ]

/-- Operations 233 … 266 of 341. -/
abbrev W6 : List (HloOp τ sig (Elt F)) :=
  [ unary main_c_33 main_v144 (broadcastInDim S740000 ![] bcast_S_S740000 : (⟨S_, .i32⟩ : BufTy).Contents (Elt F) → (⟨S740000, .i32⟩ : BufTy).Contents (Elt F)),
    binary main_v132 main_v144 main_v145 (addi : (⟨S740000, .i32⟩ : BufTy).Contents (Elt F) → (⟨S740000, .i32⟩ : BufTy).Contents (Elt F) → (⟨S740000, .i32⟩ : BufTy).Contents (Elt F)),
    ternary main_v143 main_v145 main_v132 main_v146 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v146 main_v147 (broadcastInDim S740000x1 ![0] bcast_S740000_S740000x1_0 : (⟨S740000, .i32⟩ : BufTy).Contents (Elt F) → (⟨S740000x1, .i32⟩ : BufTy).Contents (Elt F)),
    binary main_v141 main_v147 main_v148 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    nullary main_c_34 (constantI S_ 32 0#32),
    unary main_c_34 main_v149 (broadcastInDim S740000 ![] bcast_S_S740000 : (⟨S_, .i32⟩ : BufTy).Contents (Elt F) → (⟨S740000, .i32⟩ : BufTy).Contents (Elt F)),
    binary main_v133 main_v149 main_v150 (cmpi .slt : (⟨S740000, .i32⟩ : BufTy).Contents (Elt F) → (⟨S740000, .i32⟩ : BufTy).Contents (Elt F) → (⟨S740000, .i1⟩ : BufTy).Contents (Elt F)),
    nullary main_c_35 (constantI S_ 32 100000#32),
    unary main_c_35 main_v151 (broadcastInDim S740000 ![] bcast_S_S740000 : (⟨S_, .i32⟩ : BufTy).Contents (Elt F) → (⟨S740000, .i32⟩ : BufTy).Contents (Elt F)),
    binary main_v133 main_v151 main_v152 (addi : (⟨S740000, .i32⟩ : BufTy).Contents (Elt F) → (⟨S740000, .i32⟩ : BufTy).Contents (Elt F) → (⟨S740000, .i32⟩ : BufTy).Contents (Elt F)),
    ternary main_v150 main_v152 main_v133 main_v153 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v153 main_v154 (broadcastInDim S740000x1 ![0] bcast_S740000_S740000x1_0 : (⟨S740000, .i32⟩ : BufTy).Contents (Elt F) → (⟨S740000x1, .i32⟩ : BufTy).Contents (Elt F)),
    binary main_v141 main_v154 main_v155 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v148 main_v155 main_v156 (mulf : (⟨S740000, .f32⟩ : BufTy).Contents (Elt F) → (⟨S740000, .f32⟩ : BufTy).Contents (Elt F) → (⟨S740000, .f32⟩ : BufTy).Contents (Elt F)),
    nullary main_c_36 (constantI S_ 32 0#32),
    unary main_c_36 main_v157 (broadcastInDim S740000 ![] bcast_S_S740000 : (⟨S_, .i32⟩ : BufTy).Contents (Elt F) → (⟨S740000, .i32⟩ : BufTy).Contents (Elt F)),
    binary main_v132 main_v157 main_v158 (cmpi .slt : (⟨S740000, .i32⟩ : BufTy).Contents (Elt F) → (⟨S740000, .i32⟩ : BufTy).Contents (Elt F) → (⟨S740000, .i1⟩ : BufTy).Contents (Elt F)),
    nullary main_c_37 (constantI S_ 32 100000#32),
    unary main_c_37 main_v159 (broadcastInDim S740000 ![] bcast_S_S740000 : (⟨S_, .i32⟩ : BufTy).Contents (Elt F) → (⟨S740000, .i32⟩ : BufTy).Contents (Elt F)),
    binary main_v132 main_v159 main_v160 (addi : (⟨S740000, .i32⟩ : BufTy).Contents (Elt F) → (⟨S740000, .i32⟩ : BufTy).Contents (Elt F) → (⟨S740000, .i32⟩ : BufTy).Contents (Elt F)),
    ternary main_v158 main_v160 main_v132 main_v161 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v161 main_v162 (broadcastInDim S740000x1 ![0] bcast_S740000_S740000x1_0 : (⟨S740000, .i32⟩ : BufTy).Contents (Elt F) → (⟨S740000x1, .i32⟩ : BufTy).Contents (Elt F)),
    binary main_v130 main_v162 main_v163 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v156 main_v164 (broadcastInDim S740000x1 ![0] bcast_S740000_S740000x1_0 : (⟨S740000, .f32⟩ : BufTy).Contents (Elt F) → (⟨S740000x1, .f32⟩ : BufTy).Contents (Elt F)),
    unary main_v164 main_v165 (broadcastInDim S740000x128 ![0, 1] bcast_S740000x1_S740000x128_0_1 : (⟨S740000x1, .f32⟩ : BufTy).Contents (Elt F) → (⟨S740000x128, .f32⟩ : BufTy).Contents (Elt F)),
    binary main_v163 main_v165 main_v166 (mulf : (⟨S740000x128, .f32⟩ : BufTy).Contents (Elt F) → (⟨S740000x128, .f32⟩ : BufTy).Contents (Elt F) → (⟨S740000x128, .f32⟩ : BufTy).Contents (Elt F)),
    nullary main_cst_38 (constant S_ .f32 0x00000000#32),
    unary main_cst_38 main_v167 (broadcastInDim S100000x128 ![] bcast_S_S100000x128 : (⟨S_, .f32⟩ : BufTy).Contents (Elt F) → (⟨S100000x128, .f32⟩ : BufTy).Contents (Elt F)),
    unary main_v133 main_v168 (broadcastInDim S740000x1 ![0] bcast_S740000_S740000x1_0 : (⟨S740000, .i32⟩ : BufTy).Contents (Elt F) → (⟨S740000x1, .i32⟩ : BufTy).Contents (Elt F)),
    ternary main_v167 main_v168 main_v166 main_v169 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    unary main_arg8 main_v170 (broadcastInDim S1x128 ![1] bcast_S128_S1x128_1 : (⟨S128, .f32⟩ : BufTy).Contents (Elt F) → (⟨S1x128, .f32⟩ : BufTy).Contents (Elt F)),
    unary main_v170 main_v171 (broadcastInDim S100000x128 ![0, 1] bcast_S1x128_S100000x128_0_1 : (⟨S1x128, .f32⟩ : BufTy).Contents (Elt F) → (⟨S100000x128, .f32⟩ : BufTy).Contents (Elt F)),
    binary main_v169 main_v171 main_v172 (addf : (⟨S100000x128, .f32⟩ : BufTy).Contents (Elt F) → (⟨S100000x128, .f32⟩ : BufTy).Contents (Elt F) → (⟨S100000x128, .f32⟩ : BufTy).Contents (Elt F)) ]

/-- Operations 267 … 313 of 341. -/
abbrev W7 : List (HloOp τ sig (Elt F)) :=
  [ nullary main_cst_39 (constant S_ .f32 0x00000000#32),
    binary main_v172 main_cst_39 main_v173 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_40 (constant S_ .f32 0x47C35000#32),
    unary main_cst_40 main_v174 (broadcastInDim S128 ![] bcast_S_S128 : (⟨S_, .f32⟩ : BufTy).Contents (Elt F) → (⟨S128, .f32⟩ : BufTy).Contents (Elt F)),
    binary main_v173 main_v174 main_v175 (Host.divf : (⟨S128, .f32⟩ : BufTy).Contents (Elt F) → (⟨S128, .f32⟩ : BufTy).Contents (Elt F) → (⟨S128, .f32⟩ : BufTy).Contents (Elt F)),
    nullary main_c_41 (constantI S_ 32 0#32),
    TRef.nullary main_call7.cst (constant S_ .f32 0x00000000#32),
    TRef.binary (.of main_v172 : TRef sig ⟨S100000x128, .f32⟩) main_call7.cst main_call7.v0 (fun x v => Host.reduceAdd x v reducesTo_S100000x128_S128_d0 h_S_),
    TRef.unary main_call7.v0 main_call7.v1 (broadcastInDim S1x128 ![1] bcast_S128_S1x128_1),
    TRef.nullary main_call7.cst_0 (constant S_ .f32 0x47C35000#32),
    TRef.unary main_call7.cst_0 main_call7.v2 (broadcastInDim S1x128 ![] bcast_S_S1x128),
    TRef.binary main_call7.v1 main_call7.v2 main_call7.v3 Host.divf,
    TRef.unary main_call7.v3 main_call7.v4 (broadcastInDim S100000x128 ![0, 1] bcast_S1x128_S100000x128_0_1),
    TRef.binary (.of main_v172 : TRef sig ⟨S100000x128, .f32⟩) main_call7.v4 main_call7.v5 subf,
    TRef.binary main_call7.v5 main_call7.v5 main_call7.v6 mulf,
    TRef.unary (.of main_c_41 : TRef sig ⟨S_, .i32⟩) main_call7.v7 (sitofp .f32),
    TRef.nullary main_call7.cst_1 (constant S_ .f32 0x47C35000#32),
    TRef.binary main_call7.cst_1 main_call7.v7 main_call7.v8 subf,
    TRef.nullary main_call7.cst_2 (constant S_ .f32 0x00000000#32),
    TRef.binary main_call7.v6 main_call7.cst_2 main_call7.v9 (fun x v => Host.reduceAdd x v reducesTo_S100000x128_S128_d0 h_S_),
    TRef.unary main_call7.v8 main_call7.v10 (broadcastInDim S128 ![] bcast_S_S128),
    TRef.binary main_call7.v9 main_call7.v10 main_call7.v11 Host.divf,
    TRef.nullary main_call7.cst_3 (constant S_ .f32 0x00000000#32),
    TRef.binary main_call7.v8 main_call7.cst_3 main_call7.v12 (cmpf .ogt),
    TRef.nullary main_call7.cst_4 (constant S_ .f32 0x7FC00000#32),
    TRef.unary (.of main_call7_cst_4 : TRef sig ⟨S_, .f32⟩) main_call7_call0.v0 id,
    TRef.unary main_call7_call0.v0 main_call7_call0.v1 (broadcastInDim S128 ![] bcast_S_S128),
    TRef.ternary (.of main_call7_v12 : TRef sig ⟨S_, .i1⟩) (.of main_call7_v11 : TRef sig ⟨S128, .f32⟩) main_call7_call0.v1 main_call7_call0.v2 (fun p a b => select (broadcastInDim S128 ![] bcast_S_S128 p) a b),
    unary main_v175 main_v177 (broadcastInDim S1x128 ![1] bcast_S128_S1x128_1 : (⟨S128, .f32⟩ : BufTy).Contents (Elt F) → (⟨S1x128, .f32⟩ : BufTy).Contents (Elt F)),
    unary main_v177 main_v178 (broadcastInDim S100000x128 ![0, 1] bcast_S1x128_S100000x128_0_1 : (⟨S1x128, .f32⟩ : BufTy).Contents (Elt F) → (⟨S100000x128, .f32⟩ : BufTy).Contents (Elt F)),
    binary main_v172 main_v178 main_v179 (subf : (⟨S100000x128, .f32⟩ : BufTy).Contents (Elt F) → (⟨S100000x128, .f32⟩ : BufTy).Contents (Elt F) → (⟨S100000x128, .f32⟩ : BufTy).Contents (Elt F)),
    nullary main_cst_42 (constant S_ .f32 0x3727C5AC#32),
    unary main_cst_42 main_v180 (broadcastInDim S128 ![] bcast_S_S128 : (⟨S_, .f32⟩ : BufTy).Contents (Elt F) → (⟨S128, .f32⟩ : BufTy).Contents (Elt F)),
    binary main_v176 main_v180 main_v181 (addf : (⟨S128, .f32⟩ : BufTy).Contents (Elt F) → (⟨S128, .f32⟩ : BufTy).Contents (Elt F) → (⟨S128, .f32⟩ : BufTy).Contents (Elt F)),
    unary main_v181 main_v182 (Host.rsqrt : (⟨S128, .f32⟩ : BufTy).Contents (Elt F) → (⟨S128, .f32⟩ : BufTy).Contents (Elt F)),
    unary main_v182 main_v183 (broadcastInDim S1x128 ![1] bcast_S128_S1x128_1 : (⟨S128, .f32⟩ : BufTy).Contents (Elt F) → (⟨S1x128, .f32⟩ : BufTy).Contents (Elt F)),
    unary main_v183 main_v184 (broadcastInDim S100000x128 ![0, 1] bcast_S1x128_S100000x128_0_1 : (⟨S1x128, .f32⟩ : BufTy).Contents (Elt F) → (⟨S100000x128, .f32⟩ : BufTy).Contents (Elt F)),
    binary main_v179 main_v184 main_v185 (mulf : (⟨S100000x128, .f32⟩ : BufTy).Contents (Elt F) → (⟨S100000x128, .f32⟩ : BufTy).Contents (Elt F) → (⟨S100000x128, .f32⟩ : BufTy).Contents (Elt F)),
    unary main_arg13 main_v186 (broadcastInDim S1x128 ![1] bcast_S128_S1x128_1 : (⟨S128, .f32⟩ : BufTy).Contents (Elt F) → (⟨S1x128, .f32⟩ : BufTy).Contents (Elt F)),
    unary main_v186 main_v187 (broadcastInDim S100000x128 ![0, 1] bcast_S1x128_S100000x128_0_1 : (⟨S1x128, .f32⟩ : BufTy).Contents (Elt F) → (⟨S100000x128, .f32⟩ : BufTy).Contents (Elt F)),
    binary main_v185 main_v187 main_v188 (mulf : (⟨S100000x128, .f32⟩ : BufTy).Contents (Elt F) → (⟨S100000x128, .f32⟩ : BufTy).Contents (Elt F) → (⟨S100000x128, .f32⟩ : BufTy).Contents (Elt F)),
    unary main_arg14 main_v189 (broadcastInDim S1x128 ![1] bcast_S128_S1x128_1 : (⟨S128, .f32⟩ : BufTy).Contents (Elt F) → (⟨S1x128, .f32⟩ : BufTy).Contents (Elt F)),
    unary main_v189 main_v190 (broadcastInDim S100000x128 ![0, 1] bcast_S1x128_S100000x128_0_1 : (⟨S1x128, .f32⟩ : BufTy).Contents (Elt F) → (⟨S100000x128, .f32⟩ : BufTy).Contents (Elt F)),
    binary main_v188 main_v190 main_v191 (addf : (⟨S100000x128, .f32⟩ : BufTy).Contents (Elt F) → (⟨S100000x128, .f32⟩ : BufTy).Contents (Elt F) → (⟨S100000x128, .f32⟩ : BufTy).Contents (Elt F)),
    TRef.nullary main_call8.cst (constant S_ .f32 0x00000000#32),
    TRef.unary main_call8.cst main_call8.v0 (broadcastInDim S100000x128 ![] bcast_S_S100000x128),
    TRef.binary (.of main_v191 : TRef sig ⟨S100000x128, .f32⟩) main_call8.v0 main_call8.v1 maximumf ]

/-- Operations 314 … 315 of 341. -/
abbrev W8 : List (HloOp τ sig (Elt F)) :=
  [ nullary main_cst_43 (constant S_ .f32 0x3F800000#32),
    unary main_cst_43 main_v193 (broadcastInDim S100000 ![] bcast_S_S100000 : (⟨S_, .f32⟩ : BufTy).Contents (Elt F) → (⟨S100000, .f32⟩ : BufTy).Contents (Elt F)) ]

/-- Operations 316 … 341 of 341. -/
abbrev W9 : List (HloOp τ sig (Elt F)) :=
  [ nullary main_cst_44 (constant S_ .f32 0x00000000#32),
    unary main_cst_44 main_v194 (broadcastInDim S256 ![] bcast_S_S256 : (⟨S_, .f32⟩ : BufTy).Contents (Elt F) → (⟨S256, .f32⟩ : BufTy).Contents (Elt F)),
    unary main_arg2 main_v195 (broadcastInDim S100000x1 ![0] bcast_S100000_S100000x1_0 : (⟨S100000, .i32⟩ : BufTy).Contents (Elt F) → (⟨S100000x1, .i32⟩ : BufTy).Contents (Elt F)),
    ternary main_v194 main_v195 main_v193 main_v196 ((fun x i u => Host.scatterAdd scatter_S256_S100000x1_S100000_n_0_0_1 x i u) : (⟨S256, .f32⟩ : BufTy).Contents (Elt F) → (⟨S100000x1, .i32⟩ : BufTy).Contents (Elt F) → (⟨S100000, .f32⟩ : BufTy).Contents (Elt F) → (⟨S256, .f32⟩ : BufTy).Contents (Elt F)),
    nullary main_cst_45 (constant S_ .f32 0x00000000#32),
    unary main_cst_45 main_v197 (broadcastInDim S256x128 ![] bcast_S_S256x128 : (⟨S_, .f32⟩ : BufTy).Contents (Elt F) → (⟨S256x128, .f32⟩ : BufTy).Contents (Elt F)),
    unary main_arg2 main_v198 (broadcastInDim S100000x1 ![0] bcast_S100000_S100000x1_0 : (⟨S100000, .i32⟩ : BufTy).Contents (Elt F) → (⟨S100000x1, .i32⟩ : BufTy).Contents (Elt F)),
    ternary main_v197 main_v198 main_v192 main_v199 ((fun x i u => Host.scatterAdd scatter_S256x128_S100000x1_S100000x128_1_0_0_1 x i u) : (⟨S256x128, .f32⟩ : BufTy).Contents (Elt F) → (⟨S100000x1, .i32⟩ : BufTy).Contents (Elt F) → (⟨S100000x128, .f32⟩ : BufTy).Contents (Elt F) → (⟨S256x128, .f32⟩ : BufTy).Contents (Elt F)),
    nullary main_cst_46 (constant S_ .f32 0x3F800000#32),
    unary main_cst_46 main_v200 (broadcastInDim S256 ![] bcast_S_S256 : (⟨S_, .f32⟩ : BufTy).Contents (Elt F) → (⟨S256, .f32⟩ : BufTy).Contents (Elt F)),
    binary main_v196 main_v200 main_v201 (maximumf : (⟨S256, .f32⟩ : BufTy).Contents (Elt F) → (⟨S256, .f32⟩ : BufTy).Contents (Elt F) → (⟨S256, .f32⟩ : BufTy).Contents (Elt F)),
    unary main_v201 main_v202 (broadcastInDim S256x1 ![0] bcast_S256_S256x1_0 : (⟨S256, .f32⟩ : BufTy).Contents (Elt F) → (⟨S256x1, .f32⟩ : BufTy).Contents (Elt F)),
    unary main_v202 main_v203 (broadcastInDim S256x128 ![0, 1] bcast_S256x1_S256x128_0_1 : (⟨S256x1, .f32⟩ : BufTy).Contents (Elt F) → (⟨S256x128, .f32⟩ : BufTy).Contents (Elt F)),
    binary main_v199 main_v203 main_v204 (Host.divf : (⟨S256x128, .f32⟩ : BufTy).Contents (Elt F) → (⟨S256x128, .f32⟩ : BufTy).Contents (Elt F) → (⟨S256x128, .f32⟩ : BufTy).Contents (Elt F)),
    binary main_v204 main_v204 main_v205 ((fun a b => concatenate S256x256 1 [⟨S256x128, a⟩, ⟨S256x128, b⟩] concatenates_S256x128_S256x128_S256x256_d1) : (⟨S256x128, .f32⟩ : BufTy).Contents (Elt F) → (⟨S256x128, .f32⟩ : BufTy).Contents (Elt F) → (⟨S256x256, .f32⟩ : BufTy).Contents (Elt F)),
    binary main_v205 main_arg15 main_v206 ((fun l r => Host.dotGeneral dot_S256x256_S256x128_S256x128_1_0_0_1_n_n none l r) : (⟨S256x256, .f32⟩ : BufTy).Contents (Elt F) → (⟨S256x128, .f32⟩ : BufTy).Contents (Elt F) → (⟨S256x128, .f32⟩ : BufTy).Contents (Elt F)),
    unary main_arg16 main_v207 (broadcastInDim S1x128 ![1] bcast_S128_S1x128_1 : (⟨S128, .f32⟩ : BufTy).Contents (Elt F) → (⟨S1x128, .f32⟩ : BufTy).Contents (Elt F)),
    unary main_v207 main_v208 (broadcastInDim S256x128 ![0, 1] bcast_S1x128_S256x128_0_1 : (⟨S1x128, .f32⟩ : BufTy).Contents (Elt F) → (⟨S256x128, .f32⟩ : BufTy).Contents (Elt F)),
    binary main_v206 main_v208 main_v209 (addf : (⟨S256x128, .f32⟩ : BufTy).Contents (Elt F) → (⟨S256x128, .f32⟩ : BufTy).Contents (Elt F) → (⟨S256x128, .f32⟩ : BufTy).Contents (Elt F)),
    TRef.nullary main_call9.cst (constant S_ .f32 0x00000000#32),
    TRef.unary main_call9.cst main_call9.v0 (broadcastInDim S256x128 ![] bcast_S_S256x128),
    TRef.binary (.of main_v209 : TRef sig ⟨S256x128, .f32⟩) main_call9.v0 main_call9.v1 maximumf,
    binary main_v210 main_arg17 main_v211 ((fun l r => Host.dotGeneral dot_S256x128_S128x64_S256x64_1_0_0_1_n_n none l r) : (⟨S256x128, .f32⟩ : BufTy).Contents (Elt F) → (⟨S128x64, .f32⟩ : BufTy).Contents (Elt F) → (⟨S256x64, .f32⟩ : BufTy).Contents (Elt F)),
    unary main_arg18 main_v212 (broadcastInDim S1x64 ![1] bcast_S64_S1x64_1 : (⟨S64, .f32⟩ : BufTy).Contents (Elt F) → (⟨S1x64, .f32⟩ : BufTy).Contents (Elt F)),
    unary main_v212 main_v213 (broadcastInDim S256x64 ![0, 1] bcast_S1x64_S256x64_0_1 : (⟨S1x64, .f32⟩ : BufTy).Contents (Elt F) → (⟨S256x64, .f32⟩ : BufTy).Contents (Elt F)),
    binary main_v211 main_v213 main_v214 (addf : (⟨S256x64, .f32⟩ : BufTy).Contents (Elt F) → (⟨S256x64, .f32⟩ : BufTy).Contents (Elt F) → (⟨S256x64, .f32⟩ : BufTy).Contents (Elt F)) ]

/-- @main's 341 operations, in order. -/
abbrev ops : List (HloOp τ sig (Elt F)) := W0 ++ W1 ++ W2 ++ W3 ++ W4 ++ W5 ++ W6 ++ W7 ++ W8 ++ W9

set_option maxRecDepth 8192 in
set_option maxHeartbeats 4000000 in
/-- The printed window 0 of @main is its stretch of the line: the called functions' bodies unfolded at their calls,
    sequencing reassociated. -/
theorem part0_eq (c : Dev nD) : main_part0 (F := F) c = seq (W0) := by
  simp only [main_part0, fn_where.body, fn_where_0.body, fn_var.body, fn_relu.body, fn_relu_1.body, List.cons_append, List.nil_append, seq, bind_assoc, pure_bind]
  rfl

set_option maxRecDepth 8192 in
set_option maxHeartbeats 4000000 in
/-- The printed window 1 of @main is its stretch of the line: the called functions' bodies unfolded at their calls,
    sequencing reassociated. -/
theorem part1_eq (c : Dev nD) : main_part1 (F := F) c = seq (W1 ++ W2) := by
  simp only [main_part1, fn_where.body, fn_where_0.body, fn_var.body, fn_relu.body, fn_relu_1.body, List.cons_append, List.nil_append, seq, bind_assoc, pure_bind]
  rfl

set_option maxRecDepth 8192 in
set_option maxHeartbeats 4000000 in
/-- The printed window 2 of @main is its stretch of the line: the called functions' bodies unfolded at their calls,
    sequencing reassociated. -/
theorem part2_eq (c : Dev nD) : main_part2 (F := F) c = seq (W3 ++ W4 ++ W5) := by
  simp only [main_part2, fn_where.body, fn_where_0.body, fn_var.body, fn_relu.body, fn_relu_1.body, List.cons_append, List.nil_append, seq, bind_assoc, pure_bind]
  rfl

set_option maxRecDepth 8192 in
set_option maxHeartbeats 4000000 in
/-- The printed window 3 of @main is its stretch of the line: the called functions' bodies unfolded at their calls,
    sequencing reassociated. -/
theorem part3_eq (c : Dev nD) : main_part3 (F := F) c = seq (W6 ++ W7 ++ W8) := by
  simp only [main_part3, fn_where.body, fn_where_0.body, fn_var.body, fn_relu.body, fn_relu_1.body, List.cons_append, List.nil_append, seq, bind_assoc, pure_bind]
  rfl

set_option maxRecDepth 8192 in
set_option maxHeartbeats 4000000 in
/-- The printed window 4 of @main is its stretch of the line: the called functions' bodies unfolded at their calls,
    sequencing reassociated. -/
theorem part4_eq (c : Dev nD) : main_part4 (F := F) c = seq (W9) := by
  simp only [main_part4, fn_where.body, fn_where_0.body, fn_var.body, fn_relu.body, fn_relu_1.body, List.cons_append, List.nil_append, seq, bind_assoc, pure_bind]

/-- @main is the whole line. -/
theorem main_eq (c : Dev nD) : main (F := F) c = seq ops := by
  have e : (ops : List (HloOp τ sig (Elt F))) = W0 ++ ((W1 ++ W2) ++ ((W3 ++ W4 ++ W5) ++ ((W6 ++ W7 ++ W8) ++ W9))) := by
    simp only [ops, List.append_assoc]
  rw [e, seq_append W0, seq_append (W1 ++ W2), seq_append (W3 ++ W4 ++ W5), seq_append (W6 ++ W7 ++ W8),
    ← part0_eq c, ← part1_eq c, ← part2_eq c, ← part3_eq c, ← part4_eq c]
  rfl

end Cert.ReferenceIdeal.Hand

end
-- ==== Proof.Ref.Basic.lean ====
/-
  Two facts about a line of host operations: running two lines one after the other folds their results in turn, and a
  line whose operations each write one buffer, all numbered inside an interval, leaves every buffer numbered outside it
  as it was.
-/
import Idealize.ShloMosaic.Lib.StableHlo.Run

noncomputable section

namespace Cert.ReferenceIdeal.Hand

open Idealize.ShloMosaic Idealize.ShloMosaic.StableHlo

variable {τ : Topo} {sig : RefSig} {Val : EltTy → Type}

/-- The contents after two lines in turn. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- An operation writes exactly the buffer of a reference numbered in `[lo, hi)`. -/
def WritesIn (lo hi : Nat) (op : HloOp τ sig Val) : Prop :=
  ∃ y : Ref sig .tc, op.writes = {Proc.devRef .tc y} ∧ lo ≤ y.idx.val ∧ y.idx.val < hi

/-- A buffer numbered outside the interval a line writes in keeps its contents. -/
theorem after_outside {lo hi : Nat} {ops : List (HloOp τ sig Val)} (h : ops.Forall (WritesIn lo hi))
    (r : Ref sig .tc) (hr : r.idx.val < lo ∨ hi ≤ r.idx.val) (V : Valuation τ sig Val) :
    after ops V (Proc.devRef .tc r) = V (Proc.devRef .tc r) := by
  refine after_of_forall_not_mem ops V fun op hop hb => ?_
  obtain ⟨y, hw, h1, h2⟩ := (List.forall_iff_forall_mem.mp h) op hop
  rw [hw, Finset.mem_singleton] at hb
  have e : r = y := Proc.devRef_injective _ hb
  subst e
  omega

/-- A property of every operation of two lines holds of every operation of their concatenation. -/
theorem forall_append {p : HloOp τ sig Val → Prop} {l₁ l₂ : List (HloOp τ sig Val)} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- The interval may be widened. -/
theorem WritesIn.mono {lo hi lo' hi' : Nat} (h1 : lo' ≤ lo) (h2 : hi ≤ hi') {op : HloOp τ sig Val} (h : WritesIn lo hi op) :
    WritesIn lo' hi' op := by
  obtain ⟨y, hw, a, b⟩ := h
  exact ⟨y, hw, by omega, by omega⟩

end Cert.ReferenceIdeal.Hand

end
-- ==== Proof.Ref.Stretch.lean ====
/-
  The same 341 operations cut where the layers' stages end: for each of the three layers the stretch up to the per-edge
  normalisation, the stretch up to the aggregate, the stretch up to the layer's output; then the pooling head. Each
  stretch writes the buffers numbered in one interval, one buffer per operation; every operation touches TensorCore
  buffers only and determines its result.
-/
import proofs.«115763_j74259984548099_2_alg».proof.Proof.Gen.ReferenceIdeal
import Idealize.ShloMosaic.Lib.StableHlo.Run
import proofs.«115763_j74259984548099_2_alg».proof.Proof.Ref.Basic

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev S0 : List (HloOp τ sig (Elt F)) :=
  [ unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000,
    binary main_arg0 main_arg3 main_v4 ((fun l r => Host.dotGeneral dot_S100000x20_S20x128_S100000x128_1_0_0_1_n_n none l r) : (⟨S100000x20, .f32⟩ : BufTy).Contents (Elt F) → (⟨S20x128, .f32⟩ : BufTy).Contents (Elt F) → (⟨S100000x128, .f32⟩ : BufTy).Contents (Elt F)),
    nullary main_v5 (iotaInDim S100000 32 0),
    binary main_v1 main_v5 main_v6 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    binary main_v3 main_v5 main_v7 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    nullary main_cst (constant S_ .f32 0x3F800000#32),
    unary main_cst main_v8 (broadcastInDim S740000 ![] bcast_S_S740000 : (⟨S_, .f32⟩ : BufTy).Contents (Elt F) → (⟨S740000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S740000x1 ![0] bcast_S740000_S740000x1_0 : (⟨S740000, .i32⟩ : BufTy).Contents (Elt F) → (⟨S740000x1, .i32⟩ : BufTy).Contents (Elt F)),
    ternary main_v9 main_v10 main_v8 main_v11 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (.of main_cst_2 : TRef sig ⟨S_, .f32⟩) main_call0.v0 id,
    TRef.unary main_call0.v0 main_call0.v1 (broadcastInDim S100000 ![] bcast_S_S100000),
    TRef.ternary (.of main_v13 : TRef sig ⟨S100000, .i1⟩) (.of main_v14 : TRef sig ⟨S100000, .f32⟩) main_call0.v1 main_call0.v2 select,
    nullary main_c (constantI S_ 32 0#32),
    unary main_c main_v16 (broadcastInDim S740000 ![] bcast_S_S740000 : (⟨S_, .i32⟩ : BufTy).Contents (Elt F) → (⟨S740000, .i32⟩ : BufTy).Contents (Elt F)),
    binary main_v6 main_v16 main_v17 (cmpi .slt : (⟨S740000, .i32⟩ : BufTy).Contents (Elt F) → (⟨S740000, .i32⟩ : BufTy).Contents (Elt F) → (⟨S740000, .i1⟩ : BufTy).Contents (Elt F)),
    nullary main_c_3 (constantI S_ 32 100000#32),
    unary main_c_3 main_v18 (broadcastInDim S740000 ![] bcast_S_S740000 : (⟨S_, .i32⟩ : BufTy).Contents (Elt F) → (⟨S740000, .i32⟩ : BufTy).Contents (Elt F)),
    binary main_v6 main_v18 main_v19 (addi : (⟨S740000, .i32⟩ : BufTy).Contents (Elt F) → (⟨S740000, .i32⟩ : BufTy).Contents (Elt F) → (⟨S740000, .i32⟩ : BufTy).Contents (Elt F)),
    ternary main_v17 main_v19 main_v6 main_v20 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v20 main_v21 (broadcastInDim S740000x1 ![0] bcast_S740000_S740000x1_0 : (⟨S740000, .i32⟩ : BufTy).Contents (Elt F) → (⟨S740000x1, .i32⟩ : BufTy).Contents (Elt F)),
    binary main_v15 main_v21 main_v22 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    nullary main_c_4 (constantI S_ 32 0#32),
    unary main_c_4 main_v23 (broadcastInDim S740000 ![] bcast_S_S740000 : (⟨S_, .i32⟩ : BufTy).Contents (Elt F) → (⟨S740000, .i32⟩ : BufTy).Contents (Elt F)),
    binary main_v7 main_v23 main_v24 (cmpi .slt : (⟨S740000, .i32⟩ : BufTy).Contents (Elt F) → (⟨S740000, .i32⟩ : BufTy).Contents (Elt F) → (⟨S740000, .i1⟩ : BufTy).Contents (Elt F)),
    nullary main_c_5 (constantI S_ 32 100000#32),
    unary main_c_5 main_v25 (broadcastInDim S740000 ![] bcast_S_S740000 : (⟨S_, .i32⟩ : BufTy).Contents (Elt F) → (⟨S740000, .i32⟩ : BufTy).Contents (Elt F)),
    binary main_v7 main_v25 main_v26 (addi : (⟨S740000, .i32⟩ : BufTy).Contents (Elt F) → (⟨S740000, .i32⟩ : BufTy).Contents (Elt F) → (⟨S740000, .i32⟩ : BufTy).Contents (Elt F)),
    ternary main_v24 main_v26 main_v7 main_v27 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v27 main_v28 (broadcastInDim S740000x1 ![0] bcast_S740000_S740000x1_0 : (⟨S740000, .i32⟩ : BufTy).Contents (Elt F) → (⟨S740000x1, .i32⟩ : BufTy).Contents (Elt F)),
    binary main_v15 main_v28 main_v29 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v22 main_v29 main_v30 (mulf : (⟨S740000, .f32⟩ : BufTy).Contents (Elt F) → (⟨S740000, .f32⟩ : BufTy).Contents (Elt F) → (⟨S740000, .f32⟩ : BufTy).Contents (Elt F)) ]

theorem S0_writes : (S0 : List (HloOp τ sig (Elt F))).Forall (WritesIn 19 60) :=
  ⟨⟨main_v0, rfl, by decide, by decide⟩,
   ⟨main_v1, rfl, by decide, by decide⟩,
   ⟨main_v2, rfl, by decide, by decide⟩,
   ⟨main_v3, rfl, by decide, by decide⟩,
   ⟨main_v4, rfl, by decide, by decide⟩,
   ⟨main_v5, rfl, by decide, by decide⟩,
   ⟨main_v6, rfl, by decide, by decide⟩,
   ⟨main_v7, rfl, by decide, by decide⟩,
   ⟨main_cst, rfl, by decide, by decide⟩,
   ⟨main_v8, rfl, by decide, by decide⟩,
   ⟨main_cst_0, rfl, by decide, by decide⟩,
   ⟨main_v9, rfl, by decide, by decide⟩,
   ⟨main_v10, rfl, by decide, by decide⟩,
   ⟨main_v11, rfl, by decide, by decide⟩,
   ⟨main_cst_1, rfl, by decide, by decide⟩,
   ⟨main_v12, rfl, by decide, by decide⟩,
   ⟨main_v13, rfl, by decide, by decide⟩,
   ⟨main_v14, rfl, by decide, by decide⟩,
   ⟨main_cst_2, rfl, by decide, by decide⟩,
   ⟨main_call0_v0, rfl, by decide, by decide⟩,
   ⟨main_call0_v1, rfl, by decide, by decide⟩,
   ⟨main_v15, rfl, by decide, by decide⟩,
   ⟨main_c, rfl, by decide, by decide⟩,
   ⟨main_v16, rfl, by decide, by decide⟩,
   ⟨main_v17, rfl, by decide, by decide⟩,
   ⟨main_c_3, rfl, by decide, by decide⟩,
   ⟨main_v18, rfl, by decide, by decide⟩,
   ⟨main_v19, rfl, by decide, by decide⟩,
   ⟨main_v20, rfl, by decide, by decide⟩,
   ⟨main_v21, rfl, by decide, by decide⟩,
   ⟨main_v22, rfl, by decide, by decide⟩,
   ⟨main_c_4, rfl, by decide, by decide⟩,
   ⟨main_v23, rfl, by decide, by decide⟩,
   ⟨main_v24, rfl, by decide, by decide⟩,
   ⟨main_c_5, rfl, by decide, by decide⟩,
   ⟨main_v25, rfl, by decide, by decide⟩,
   ⟨main_v26, rfl, by decide, by decide⟩,
   ⟨main_v27, rfl, by decide, by decide⟩,
   ⟨main_v28, rfl, by decide, by decide⟩,
   ⟨main_v29, rfl, by decide, by decide⟩,
   ⟨main_v30, rfl, by decide, by decide⟩⟩

/-- A buffer numbered outside `[19, 60)` is as it was after this stretch. -/
theorem S0_keep (r : Ref sig .tc) (hr : r.idx.val < 19 ∨ 60 ≤ r.idx.val) (V : Valuation τ sig (Elt F)) :
    after S0 V (Proc.devRef .tc r) = V (Proc.devRef .tc r) :=
  after_outside S0_writes r hr V

theorem S0_sub : (S0 : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem S0_fresh : (S0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev S1 : List (HloOp τ sig (Elt F)) :=
  [ nullary main_c_6 (constantI S_ 32 0#32),
    unary main_c_6 main_v31 (broadcastInDim S740000 ![] bcast_S_S740000 : (⟨S_, .i32⟩ : BufTy).Contents (Elt F) → (⟨S740000, .i32⟩ : BufTy).Contents (Elt F)),
    binary main_v6 main_v31 main_v32 (cmpi .slt : (⟨S740000, .i32⟩ : BufTy).Contents (Elt F) → (⟨S740000, .i32⟩ : BufTy).Contents (Elt F) → (⟨S740000, .i1⟩ : BufTy).Contents (Elt F)),
    nullary main_c_7 (constantI S_ 32 100000#32),
    unary main_c_7 main_v33 (broadcastInDim S740000 ![] bcast_S_S740000 : (⟨S_, .i32⟩ : BufTy).Contents (Elt F) → (⟨S740000, .i32⟩ : BufTy).Contents (Elt F)),
    binary main_v6 main_v33 main_v34 (addi : (⟨S740000, .i32⟩ : BufTy).Contents (Elt F) → (⟨S740000, .i32⟩ : BufTy).Contents (Elt F) → (⟨S740000, .i32⟩ : BufTy).Contents (Elt F)),
    ternary main_v32 main_v34 main_v6 main_v35 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v35 main_v36 (broadcastInDim S740000x1 ![0] bcast_S740000_S740000x1_0 : (⟨S740000, .i32⟩ : BufTy).Contents (Elt F) → (⟨S740000x1, .i32⟩ : BufTy).Contents (Elt F)),
    binary main_v4 main_v36 main_v37 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v30 main_v38 (broadcastInDim S740000x1 ![0] bcast_S740000_S740000x1_0 : (⟨S740000, .f32⟩ : BufTy).Contents (Elt F) → (⟨S740000x1, .f32⟩ : BufTy).Contents (Elt F)),
    unary main_v38 main_v39 (broadcastInDim S740000x128 ![0, 1] bcast_S740000x1_S740000x128_0_1 : (⟨S740000x1, .f32⟩ : BufTy).Contents (Elt F) → (⟨S740000x128, .f32⟩ : BufTy).Contents (Elt F)),
    binary main_v37 main_v39 main_v40 (mulf : (⟨S740000x128, .f32⟩ : BufTy).Contents (Elt F) → (⟨S740000x128, .f32⟩ : BufTy).Contents (Elt F) → (⟨S740000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v7 main_v42 (broadcastInDim S740000x1 ![0] bcast_S740000_S740000x1_0 : (⟨S740000, .i32⟩ : BufTy).Contents (Elt F) → (⟨S740000x1, .i32⟩ : BufTy).Contents (Elt F)),
    ternary main_v41 main_v42 main_v40 main_v43 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    unary main_arg4 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)) ]

theorem S1_writes : (S1 : List (HloOp τ sig (Elt F))).Forall (WritesIn 60 79) :=
  ⟨⟨main_c_6, rfl, by decide, by decide⟩,
   ⟨main_v31, rfl, by decide, by decide⟩,
   ⟨main_v32, rfl, by decide, by decide⟩,
   ⟨main_c_7, rfl, by decide, by decide⟩,
   ⟨main_v33, rfl, by decide, by decide⟩,
   ⟨main_v34, rfl, by decide, by decide⟩,
   ⟨main_v35, rfl, by decide, by decide⟩,
   ⟨main_v36, rfl, by decide, by decide⟩,
   ⟨main_v37, rfl, by decide, by decide⟩,
   ⟨main_v38, rfl, by decide, by decide⟩,
   ⟨main_v39, rfl, by decide, by decide⟩,
   ⟨main_v40, rfl, by decide, by decide⟩,
   ⟨main_cst_8, rfl, by decide, by decide⟩,
   ⟨main_v41, rfl, by decide, by decide⟩,
   ⟨main_v42, rfl, by decide, by decide⟩,
   ⟨main_v43, rfl, by decide, by decide⟩,
   ⟨main_v44, rfl, by decide, by decide⟩,
   ⟨main_v45, rfl, by decide, by decide⟩,
   ⟨main_v46, rfl, by decide, by decide⟩⟩

/-- A buffer numbered outside `[60, 79)` is as it was after this stretch. -/
theorem S1_keep (r : Ref sig .tc) (hr : r.idx.val < 60 ∨ 79 ≤ r.idx.val) (V : Valuation τ sig (Elt F)) :
    after S1 V (Proc.devRef .tc r) = V (Proc.devRef .tc r) :=
  after_outside S1_writes r hr V

theorem S1_sub : (S1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

theorem S1_fresh : (S1 : List (HloOp τ sig (Elt F))).Forall fun op => op.fresh = ∅ :=
  ⟨rfl, rfl, rfl, rfl, rfl, rfl, rfl, rfl, rfl, rfl, rfl, rfl, rfl, rfl, rfl, rfl, rfl, rfl, rfl⟩

abbrev S2 : List (HloOp τ sig (Elt F)) :=
  [ nullary main_cst_9 (constant S_ .f32 0x00000000#32),
    binary main_v46 main_cst_9 main_v47 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_10 (constant S_ .f32 0x47C35000#32),
    unary main_cst_10 main_v48 (broadcastInDim S128 ![] bcast_S_S128 : (⟨S_, .f32⟩ : BufTy).Contents (Elt F) → (⟨S128, .f32⟩ : BufTy).Contents (Elt F)),
    binary main_v47 main_v48 main_v49 (Host.divf : (⟨S128, .f32⟩ : BufTy).Contents (Elt F) → (⟨S128, .f32⟩ : BufTy).Contents (Elt F) → (⟨S128, .f32⟩ : BufTy).Contents (Elt F)),
    nullary main_c_11 (constantI S_ 32 0#32),
    TRef.nullary main_call1.cst (constant S_ .f32 0x00000000#32),
    TRef.binary (.of main_v46 : TRef sig ⟨S100000x128, .f32⟩) main_call1.cst main_call1.v0 (fun x v => Host.reduceAdd x v reducesTo_S100000x128_S128_d0 h_S_),
    TRef.unary main_call1.v0 main_call1.v1 (broadcastInDim S1x128 ![1] bcast_S128_S1x128_1),
    TRef.nullary main_call1.cst_0 (constant S_ .f32 0x47C35000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S100000x128 ![0, 1] bcast_S1x128_S100000x128_0_1),
    TRef.binary (.of main_v46 : TRef sig ⟨S100000x128, .f32⟩) main_call1.v4 main_call1.v5 subf,
    TRef.binary main_call1.v5 main_call1.v5 main_call1.v6 mulf,
    TRef.unary (.of main_c_11 : TRef sig ⟨S_, .i32⟩) main_call1.v7 (sitofp .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary (.of main_call1_cst_4 : TRef sig ⟨S_, .f32⟩) main_call1_call0.v0 id,
    TRef.unary main_call1_call0.v0 main_call1_call0.v1 (broadcastInDim S128 ![] bcast_S_S128),
    TRef.ternary (.of main_call1_v12 : TRef sig ⟨S_, .i1⟩) (.of main_call1_v11 : TRef sig ⟨S128, .f32⟩) main_call1_call0.v1 main_call1_call0.v2 (fun p a b => select (broadcastInDim S128 ![] bcast_S_S128 p) a b),
    unary main_v49 main_v51 (broadcastInDim S1x128 ![1] bcast_S128_S1x128_1 : (⟨S128, .f32⟩ : BufTy).Contents (Elt F) → (⟨S1x128, .f32⟩ : BufTy).Contents (Elt F)),
    unary main_v51 main_v52 (broadcastInDim S100000x128 ![0, 1] bcast_S1x128_S100000x128_0_1 : (⟨S1x128, .f32⟩ : BufTy).Contents (Elt F) → (⟨S100000x128, .f32⟩ : BufTy).Contents (Elt F)),
    binary main_v46 main_v52 main_v53 (subf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x3727C5AC#32),
    unary main_cst_12 main_v54 (broadcastInDim S128 ![] bcast_S_S128 : (⟨S_, .f32⟩ : BufTy).Contents (Elt F) → (⟨S128, .f32⟩ : BufTy).Contents (Elt F)),
    binary main_v50 main_v54 main_v55 (addf : (⟨S128, .f32⟩ : BufTy).Contents (Elt F) → (⟨S128, .f32⟩ : BufTy).Contents (Elt F) → (⟨S128, .f32⟩ : BufTy).Contents (Elt F)),
    unary main_v55 main_v56 (Host.rsqrt : (⟨S128, .f32⟩ : BufTy).Contents (Elt F) → (⟨S128, .f32⟩ : BufTy).Contents (Elt F)),
    unary main_v56 main_v57 (broadcastInDim S1x128 ![1] bcast_S128_S1x128_1 : (⟨S128, .f32⟩ : BufTy).Contents (Elt F) → (⟨S1x128, .f32⟩ : BufTy).Contents (Elt F)),
    unary main_v57 main_v58 (broadcastInDim S100000x128 ![0, 1] bcast_S1x128_S100000x128_0_1 : (⟨S1x128, .f32⟩ : BufTy).Contents (Elt F) → (⟨S100000x128, .f32⟩ : BufTy).Contents (Elt F)),
    binary main_v53 main_v58 main_v59 (mulf : (⟨S100000x128, .f32⟩ : BufTy).Contents (Elt F) → (⟨S100000x128, .f32⟩ : BufTy).Contents (Elt F) → (⟨S100000x128, .f32⟩ : BufTy).Contents (Elt F)),
    unary main_arg9 main_v60 (broadcastInDim S1x128 ![1] bcast_S128_S1x128_1 : (⟨S128, .f32⟩ : BufTy).Contents (Elt F) → (⟨S1x128, .f32⟩ : BufTy).Contents (Elt F)),
    unary main_v60 main_v61 (broadcastInDim S100000x128 ![0, 1] bcast_S1x128_S100000x128_0_1 : (⟨S1x128, .f32⟩ : BufTy).Contents (Elt F) → (⟨S100000x128, .f32⟩ : BufTy).Contents (Elt F)),
    binary main_v59 main_v61 main_v62 (mulf : (⟨S100000x128, .f32⟩ : BufTy).Contents (Elt F) → (⟨S100000x128, .f32⟩ : BufTy).Contents (Elt F) → (⟨S100000x128, .f32⟩ : BufTy).Contents (Elt F)),
    unary main_arg10 main_v63 (broadcastInDim S1x128 ![1] bcast_S128_S1x128_1 : (⟨S128, .f32⟩ : BufTy).Contents (Elt F) → (⟨S1x128, .f32⟩ : BufTy).Contents (Elt F)),
    unary main_v63 main_v64 (broadcastInDim S100000x128 ![0, 1] bcast_S1x128_S100000x128_0_1 : (⟨S1x128, .f32⟩ : BufTy).Contents (Elt F) → (⟨S100000x128, .f32⟩ : BufTy).Contents (Elt F)),
    binary main_v62 main_v64 main_v65 (addf : (⟨S100000x128, .f32⟩ : BufTy).Contents (Elt F) → (⟨S100000x128, .f32⟩ : BufTy).Contents (Elt F) → (⟨S100000x128, .f32⟩ : BufTy).Contents (Elt F)),
    TRef.nullary main_call2.cst (constant S_ .f32 0x00000000#32),
    TRef.unary main_call2.cst main_call2.v0 (broadcastInDim S100000x128 ![] bcast_S_S100000x128),
    TRef.binary (.of main_v65 : TRef sig ⟨S100000x128, .f32⟩) main_call2.v0 main_call2.v1 maximumf ]

theorem S2_writes : (S2 : List (HloOp τ sig (Elt F))).Forall (WritesIn 79 126) :=
  ⟨⟨main_cst_9, rfl, by decide, by decide⟩,
   ⟨main_v47, rfl, by decide, by decide⟩,
   ⟨main_cst_10, rfl, by decide, by decide⟩,
   ⟨main_v48, rfl, by decide, by decide⟩,
   ⟨main_v49, rfl, by decide, by decide⟩,
   ⟨main_c_11, rfl, by decide, by decide⟩,
   ⟨main_call1_cst, rfl, by decide, by decide⟩,
   ⟨main_call1_v0, rfl, by decide, by decide⟩,
   ⟨main_call1_v1, rfl, by decide, by decide⟩,
   ⟨main_call1_cst_0, rfl, by decide, by decide⟩,
   ⟨main_call1_v2, rfl, by decide, by decide⟩,
   ⟨main_call1_v3, rfl, by decide, by decide⟩,
   ⟨main_call1_v4, rfl, by decide, by decide⟩,
   ⟨main_call1_v5, rfl, by decide, by decide⟩,
   ⟨main_call1_v6, rfl, by decide, by decide⟩,
   ⟨main_call1_v7, rfl, by decide, by decide⟩,
   ⟨main_call1_cst_1, rfl, by decide, by decide⟩,
   ⟨main_call1_v8, rfl, by decide, by decide⟩,
   ⟨main_call1_cst_2, rfl, by decide, by decide⟩,
   ⟨main_call1_v9, rfl, by decide, by decide⟩,
   ⟨main_call1_v10, rfl, by decide, by decide⟩,
   ⟨main_call1_v11, rfl, by decide, by decide⟩,
   ⟨main_call1_cst_3, rfl, by decide, by decide⟩,
   ⟨main_call1_v12, rfl, by decide, by decide⟩,
   ⟨main_call1_cst_4, rfl, by decide, by decide⟩,
   ⟨main_call1_call0_v0, rfl, by decide, by decide⟩,
   ⟨main_call1_call0_v1, rfl, by decide, by decide⟩,
   ⟨main_v50, rfl, by decide, by decide⟩,
   ⟨main_v51, rfl, by decide, by decide⟩,
   ⟨main_v52, rfl, by decide, by decide⟩,
   ⟨main_v53, rfl, by decide, by decide⟩,
   ⟨main_cst_12, rfl, by decide, by decide⟩,
   ⟨main_v54, rfl, by decide, by decide⟩,
   ⟨main_v55, rfl, by decide, by decide⟩,
   ⟨main_v56, rfl, by decide, by decide⟩,
   ⟨main_v57, rfl, by decide, by decide⟩,
   ⟨main_v58, rfl, by decide, by decide⟩,
   ⟨main_v59, rfl, by decide, by decide⟩,
   ⟨main_v60, rfl, by decide, by decide⟩,
   ⟨main_v61, rfl, by decide, by decide⟩,
   ⟨main_v62, rfl, by decide, by decide⟩,
   ⟨main_v63, rfl, by decide, by decide⟩,
   ⟨main_v64, rfl, by decide, by decide⟩,
   ⟨main_v65, rfl, by decide, by decide⟩,
   ⟨main_call2_cst, rfl, by decide, by decide⟩,
   ⟨main_call2_v0, rfl, by decide, by decide⟩,
   ⟨main_v66, rfl, by decide, by decide⟩⟩

/-- A buffer numbered outside `[79, 126)` is as it was after this stretch. -/
theorem S2_keep (r : Ref sig .tc) (hr : r.idx.val < 79 ∨ 126 ≤ r.idx.val) (V : Valuation τ sig (Elt F)) :
    after S2 V (Proc.devRef .tc r) = V (Proc.devRef .tc r) :=
  after_outside S2_writes r hr V

theorem S2_sub : (S2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem S2_fresh : (S2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev S3 : List (HloOp τ sig (Elt F)) :=
  [ binary main_v66 main_arg5 main_v67 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v68 (iotaInDim S100000 32 0),
    binary main_v1 main_v68 main_v69 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    binary main_v3 main_v68 main_v70 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    nullary main_cst_13 (constant S_ .f32 0x3F800000#32),
    unary main_cst_13 main_v71 (broadcastInDim S740000 ![] bcast_S_S740000 : (⟨S_, .f32⟩ : BufTy).Contents (Elt F) → (⟨S740000, .f32⟩ : BufTy).Contents (Elt F)),
    nullary main_cst_14 (constant S_ .f32 0x00000000#32),
    unary main_cst_14 main_v72 (broadcastInDim S100000 ![] bcast_S_S100000 : (⟨S_, .f32⟩ : BufTy).Contents (Elt F) → (⟨S100000, .f32⟩ : BufTy).Contents (Elt F)),
    unary main_v70 main_v73 (broadcastInDim S740000x1 ![0] bcast_S740000_S740000x1_0 : (⟨S740000, .i32⟩ : BufTy).Contents (Elt F) → (⟨S740000x1, .i32⟩ : BufTy).Contents (Elt F)),
    ternary main_v72 main_v73 main_v71 main_v74 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)),
    nullary main_cst_15 (constant S_ .f32 0x00000000#32),
    unary main_cst_15 main_v75 (broadcastInDim S100000 ![] bcast_S_S100000 : (⟨S_, .f32⟩ : BufTy).Contents (Elt F) → (⟨S100000, .f32⟩ : BufTy).Contents (Elt F)),
    binary main_v74 main_v75 main_v76 (cmpf .ogt : (⟨S100000, .f32⟩ : BufTy).Contents (Elt F) → (⟨S100000, .f32⟩ : BufTy).Contents (Elt F) → (⟨S100000, .i1⟩ : BufTy).Contents (Elt F)),
    unary main_v74 main_v77 (Host.rsqrt : (⟨S100000, .f32⟩ : BufTy).Contents (Elt F) → (⟨S100000, .f32⟩ : BufTy).Contents (Elt F)),
    nullary main_cst_16 (constant S_ .f32 0x00000000#32),
    TRef.unary (.of main_cst_16 : TRef sig ⟨S_, .f32⟩) main_call3.v0 id,
    TRef.unary main_call3.v0 main_call3.v1 (broadcastInDim S100000 ![] bcast_S_S100000),
    TRef.ternary (.of main_v76 : TRef sig ⟨S100000, .i1⟩) (.of main_v77 : TRef sig ⟨S100000, .f32⟩) main_call3.v1 main_call3.v2 select,
    nullary main_c_17 (constantI S_ 32 0#32),
    unary main_c_17 main_v79 (broadcastInDim S740000 ![] bcast_S_S740000 : (⟨S_, .i32⟩ : BufTy).Contents (Elt F) → (⟨S740000, .i32⟩ : BufTy).Contents (Elt F)),
    binary main_v69 main_v79 main_v80 (cmpi .slt : (⟨S740000, .i32⟩ : BufTy).Contents (Elt F) → (⟨S740000, .i32⟩ : BufTy).Contents (Elt F) → (⟨S740000, .i1⟩ : BufTy).Contents (Elt F)),
    nullary main_c_18 (constantI S_ 32 100000#32),
    unary main_c_18 main_v81 (broadcastInDim S740000 ![] bcast_S_S740000 : (⟨S_, .i32⟩ : BufTy).Contents (Elt F) → (⟨S740000, .i32⟩ : BufTy).Contents (Elt F)),
    binary main_v69 main_v81 main_v82 (addi : (⟨S740000, .i32⟩ : BufTy).Contents (Elt F) → (⟨S740000, .i32⟩ : BufTy).Contents (Elt F) → (⟨S740000, .i32⟩ : BufTy).Contents (Elt F)),
    ternary main_v80 main_v82 main_v69 main_v83 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v83 main_v84 (broadcastInDim S740000x1 ![0] bcast_S740000_S740000x1_0 : (⟨S740000, .i32⟩ : BufTy).Contents (Elt F) → (⟨S740000x1, .i32⟩ : BufTy).Contents (Elt F)),
    binary main_v78 main_v84 main_v85 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    nullary main_c_19 (constantI S_ 32 0#32),
    unary main_c_19 main_v86 (broadcastInDim S740000 ![] bcast_S_S740000 : (⟨S_, .i32⟩ : BufTy).Contents (Elt F) → (⟨S740000, .i32⟩ : BufTy).Contents (Elt F)),
    binary main_v70 main_v86 main_v87 (cmpi .slt : (⟨S740000, .i32⟩ : BufTy).Contents (Elt F) → (⟨S740000, .i32⟩ : BufTy).Contents (Elt F) → (⟨S740000, .i1⟩ : BufTy).Contents (Elt F)),
    nullary main_c_20 (constantI S_ 32 100000#32),
    unary main_c_20 main_v88 (broadcastInDim S740000 ![] bcast_S_S740000 : (⟨S_, .i32⟩ : BufTy).Contents (Elt F) → (⟨S740000, .i32⟩ : BufTy).Contents (Elt F)),
    binary main_v70 main_v88 main_v89 (addi : (⟨S740000, .i32⟩ : BufTy).Contents (Elt F) → (⟨S740000, .i32⟩ : BufTy).Contents (Elt F) → (⟨S740000, .i32⟩ : BufTy).Contents (Elt F)),
    ternary main_v87 main_v89 main_v70 main_v90 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v90 main_v91 (broadcastInDim S740000x1 ![0] bcast_S740000_S740000x1_0 : (⟨S740000, .i32⟩ : BufTy).Contents (Elt F) → (⟨S740000x1, .i32⟩ : BufTy).Contents (Elt F)),
    binary main_v78 main_v91 main_v92 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v85 main_v92 main_v93 (mulf : (⟨S740000, .f32⟩ : BufTy).Contents (Elt F) → (⟨S740000, .f32⟩ : BufTy).Contents (Elt F) → (⟨S740000, .f32⟩ : BufTy).Contents (Elt F)) ]

theorem S3_writes : (S3 : List (HloOp τ sig (Elt F))).Forall (WritesIn 126 163) :=
  ⟨⟨main_v67, rfl, by decide, by decide⟩,
   ⟨main_v68, rfl, by decide, by decide⟩,
   ⟨main_v69, rfl, by decide, by decide⟩,
   ⟨main_v70, rfl, by decide, by decide⟩,
   ⟨main_cst_13, rfl, by decide, by decide⟩,
   ⟨main_v71, rfl, by decide, by decide⟩,
   ⟨main_cst_14, rfl, by decide, by decide⟩,
   ⟨main_v72, rfl, by decide, by decide⟩,
   ⟨main_v73, rfl, by decide, by decide⟩,
   ⟨main_v74, rfl, by decide, by decide⟩,
   ⟨main_cst_15, rfl, by decide, by decide⟩,
   ⟨main_v75, rfl, by decide, by decide⟩,
   ⟨main_v76, rfl, by decide, by decide⟩,
   ⟨main_v77, rfl, by decide, by decide⟩,
   ⟨main_cst_16, rfl, by decide, by decide⟩,
   ⟨main_call3_v0, rfl, by decide, by decide⟩,
   ⟨main_call3_v1, rfl, by decide, by decide⟩,
   ⟨main_v78, rfl, by decide, by decide⟩,
   ⟨main_c_17, rfl, by decide, by decide⟩,
   ⟨main_v79, rfl, by decide, by decide⟩,
   ⟨main_v80, rfl, by decide, by decide⟩,
   ⟨main_c_18, rfl, by decide, by decide⟩,
   ⟨main_v81, rfl, by decide, by decide⟩,
   ⟨main_v82, rfl, by decide, by decide⟩,
   ⟨main_v83, rfl, by decide, by decide⟩,
   ⟨main_v84, rfl, by decide, by decide⟩,
   ⟨main_v85, rfl, by decide, by decide⟩,
   ⟨main_c_19, rfl, by decide, by decide⟩,
   ⟨main_v86, rfl, by decide, by decide⟩,
   ⟨main_v87, rfl, by decide, by decide⟩,
   ⟨main_c_20, rfl, by decide, by decide⟩,
   ⟨main_v88, rfl, by decide, by decide⟩,
   ⟨main_v89, rfl, by decide, by decide⟩,
   ⟨main_v90, rfl, by decide, by decide⟩,
   ⟨main_v91, rfl, by decide, by decide⟩,
   ⟨main_v92, rfl, by decide, by decide⟩,
   ⟨main_v93, rfl, by decide, by decide⟩⟩

/-- A buffer numbered outside `[126, 163)` is as it was after this stretch. -/
theorem S3_keep (r : Ref sig .tc) (hr : r.idx.val < 126 ∨ 163 ≤ r.idx.val) (V : Valuation τ sig (Elt F)) :
    after S3 V (Proc.devRef .tc r) = V (Proc.devRef .tc r) :=
  after_outside S3_writes r hr V

theorem S3_sub : (S3 : List (HloOp τ sig (Elt F))).Forall fun op => op.bufs ⊆ tcRefs τ sig :=
  ⟨binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem S3_fresh : (S3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev S4 : List (HloOp τ sig (Elt F)) :=
  [ nullary main_c_21 (constantI S_ 32 0#32),
    unary main_c_21 main_v94 (broadcastInDim S740000 ![] bcast_S_S740000 : (⟨S_, .i32⟩ : BufTy).Contents (Elt F) → (⟨S740000, .i32⟩ : BufTy).Contents (Elt F)),
    binary main_v69 main_v94 main_v95 (cmpi .slt : (⟨S740000, .i32⟩ : BufTy).Contents (Elt F) → (⟨S740000, .i32⟩ : BufTy).Contents (Elt F) → (⟨S740000, .i1⟩ : BufTy).Contents (Elt F)),
    nullary main_c_22 (constantI S_ 32 100000#32),
    unary main_c_22 main_v96 (broadcastInDim S740000 ![] bcast_S_S740000 : (⟨S_, .i32⟩ : BufTy).Contents (Elt F) → (⟨S740000, .i32⟩ : BufTy).Contents (Elt F)),
    binary main_v69 main_v96 main_v97 (addi : (⟨S740000, .i32⟩ : BufTy).Contents (Elt F) → (⟨S740000, .i32⟩ : BufTy).Contents (Elt F) → (⟨S740000, .i32⟩ : BufTy).Contents (Elt F)),
    ternary main_v95 main_v97 main_v69 main_v98 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v98 main_v99 (broadcastInDim S740000x1 ![0] bcast_S740000_S740000x1_0 : (⟨S740000, .i32⟩ : BufTy).Contents (Elt F) → (⟨S740000x1, .i32⟩ : BufTy).Contents (Elt F)),
    binary main_v67 main_v99 main_v100 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v93 main_v101 (broadcastInDim S740000x1 ![0] bcast_S740000_S740000x1_0 : (⟨S740000, .f32⟩ : BufTy).Contents (Elt F) → (⟨S740000x1, .f32⟩ : BufTy).Contents (Elt F)),
    unary main_v101 main_v102 (broadcastInDim S740000x128 ![0, 1] bcast_S740000x1_S740000x128_0_1 : (⟨S740000x1, .f32⟩ : BufTy).Contents (Elt F) → (⟨S740000x128, .f32⟩ : BufTy).Contents (Elt F)),
    binary main_v100 main_v102 main_v103 (mulf : (⟨S740000x128, .f32⟩ : BufTy).Contents (Elt F) → (⟨S740000x128, .f32⟩ : BufTy).Contents (Elt F) → (⟨S740000x128, .f32⟩ : BufTy).Contents (Elt F)),
    nullary main_cst_23 (constant S_ .f32 0x00000000#32),
    unary main_cst_23 main_v104 (broadcastInDim S100000x128 ![] bcast_S_S100000x128 : (⟨S_, .f32⟩ : BufTy).Contents (Elt F) → (⟨S100000x128, .f32⟩ : BufTy).Contents (Elt F)),
    unary main_v70 main_v105 (broadcastInDim S740000x1 ![0] bcast_S740000_S740000x1_0 : (⟨S740000, .i32⟩ : BufTy).Contents (Elt F) → (⟨S740000x1, .i32⟩ : BufTy).Contents (Elt F)),
    ternary main_v104 main_v105 main_v103 main_v106 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    unary main_arg6 main_v107 (broadcastInDim S1x128 ![1] bcast_S128_S1x128_1 : (⟨S128, .f32⟩ : BufTy).Contents (Elt F) → (⟨S1x128, .f32⟩ : BufTy).Contents (Elt F)),
    unary main_v107 main_v108 (broadcastInDim S100000x128 ![0, 1] bcast_S1x128_S100000x128_0_1 : (⟨S1x128, .f32⟩ : BufTy).Contents (Elt F) → (⟨S100000x128, .f32⟩ : BufTy).Contents (Elt F)),
    binary main_v106 main_v108 main_v109 (addf : (⟨S100000x128, .f32⟩ : BufTy).Contents (Elt F) → (⟨S100000x128, .f32⟩ : BufTy).Contents (Elt F) → (⟨S100000x128, .f32⟩ : BufTy).Contents (Elt F)) ]

theorem S4_writes : (S4 : List (HloOp τ sig (Elt F))).Forall (WritesIn 163 182) :=
  ⟨⟨main_c_21, rfl, by decide, by decide⟩,
   ⟨main_v94, rfl, by decide, by decide⟩,
   ⟨main_v95, rfl, by decide, by decide⟩,
   ⟨main_c_22, rfl, by decide, by decide⟩,
   ⟨main_v96, rfl, by decide, by decide⟩,
   ⟨main_v97, rfl, by decide, by decide⟩,
   ⟨main_v98, rfl, by decide, by decide⟩,
   ⟨main_v99, rfl, by decide, by decide⟩,
   ⟨main_v100, rfl, by decide, by decide⟩,
   ⟨main_v101, rfl, by decide, by decide⟩,
   ⟨main_v102, rfl, by decide, by decide⟩,
   ⟨main_v103, rfl, by decide, by decide⟩,
   ⟨main_cst_23, rfl, by decide, by decide⟩,
   ⟨main_v104, rfl, by decide, by decide⟩,
   ⟨main_v105, rfl, by decide, by decide⟩,
   ⟨main_v106, rfl, by decide, by decide⟩,
   ⟨main_v107, rfl, by decide, by decide⟩,
   ⟨main_v108, rfl, by decide, by decide⟩,
   ⟨main_v109, rfl, by decide, by decide⟩⟩

/-- A buffer numbered outside `[163, 182)` is as it was after this stretch. -/
theorem S4_keep (r : Ref sig .tc) (hr : r.idx.val < 163 ∨ 182 ≤ r.idx.val) (V : Valuation τ sig (Elt F)) :
    after S4 V (Proc.devRef .tc r) = V (Proc.devRef .tc r) :=
  after_outside S4_writes r hr V

theorem S4_sub : (S4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

theorem S4_fresh : (S4 : List (HloOp τ sig (Elt F))).Forall fun op => op.fresh = ∅ :=
  ⟨rfl, rfl, rfl, rfl, rfl, rfl, rfl, rfl, rfl, rfl, rfl, rfl, rfl, rfl, rfl, rfl, rfl, rfl, rfl⟩

abbrev S5 : List (HloOp τ sig (Elt F)) :=
  [ nullary main_cst_24 (constant S_ .f32 0x00000000#32),
    binary main_v109 main_cst_24 main_v110 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_25 (constant S_ .f32 0x47C35000#32),
    unary main_cst_25 main_v111 (broadcastInDim S128 ![] bcast_S_S128 : (⟨S_, .f32⟩ : BufTy).Contents (Elt F) → (⟨S128, .f32⟩ : BufTy).Contents (Elt F)),
    binary main_v110 main_v111 main_v112 (Host.divf : (⟨S128, .f32⟩ : BufTy).Contents (Elt F) → (⟨S128, .f32⟩ : BufTy).Contents (Elt F) → (⟨S128, .f32⟩ : BufTy).Contents (Elt F)),
    nullary main_c_26 (constantI S_ 32 0#32),
    TRef.nullary main_call4.cst (constant S_ .f32 0x00000000#32),
    TRef.binary (.of main_v109 : TRef sig ⟨S100000x128, .f32⟩) main_call4.cst main_call4.v0 (fun x v => Host.reduceAdd x v reducesTo_S100000x128_S128_d0 h_S_),
    TRef.unary main_call4.v0 main_call4.v1 (broadcastInDim S1x128 ![1] bcast_S128_S1x128_1),
    TRef.nullary main_call4.cst_0 (constant S_ .f32 0x47C35000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S100000x128 ![0, 1] bcast_S1x128_S100000x128_0_1),
    TRef.binary (.of main_v109 : TRef sig ⟨S100000x128, .f32⟩) main_call4.v4 main_call4.v5 subf,
    TRef.binary main_call4.v5 main_call4.v5 main_call4.v6 mulf,
    TRef.unary (.of main_c_26 : TRef sig ⟨S_, .i32⟩) main_call4.v7 (sitofp .f32),
    TRef.nullary main_call4.cst_1 (constant S_ .f32 0x47C35000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S100000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary (.of main_call4_cst_4 : TRef sig ⟨S_, .f32⟩) main_call4_call0.v0 id,
    TRef.unary main_call4_call0.v0 main_call4_call0.v1 (broadcastInDim S128 ![] bcast_S_S128),
    TRef.ternary (.of main_call4_v12 : TRef sig ⟨S_, .i1⟩) (.of main_call4_v11 : TRef sig ⟨S128, .f32⟩) main_call4_call0.v1 main_call4_call0.v2 (fun p a b => select (broadcastInDim S128 ![] bcast_S_S128 p) a b),
    unary main_v112 main_v114 (broadcastInDim S1x128 ![1] bcast_S128_S1x128_1 : (⟨S128, .f32⟩ : BufTy).Contents (Elt F) → (⟨S1x128, .f32⟩ : BufTy).Contents (Elt F)),
    unary main_v114 main_v115 (broadcastInDim S100000x128 ![0, 1] bcast_S1x128_S100000x128_0_1 : (⟨S1x128, .f32⟩ : BufTy).Contents (Elt F) → (⟨S100000x128, .f32⟩ : BufTy).Contents (Elt F)),
    binary main_v109 main_v115 main_v116 (subf : (⟨S100000x128, .f32⟩ : BufTy).Contents (Elt F) → (⟨S100000x128, .f32⟩ : BufTy).Contents (Elt F) → (⟨S100000x128, .f32⟩ : BufTy).Contents (Elt F)),
    nullary main_cst_27 (constant S_ .f32 0x3727C5AC#32),
    unary main_cst_27 main_v117 (broadcastInDim S128 ![] bcast_S_S128 : (⟨S_, .f32⟩ : BufTy).Contents (Elt F) → (⟨S128, .f32⟩ : BufTy).Contents (Elt F)),
    binary main_v113 main_v117 main_v118 (addf : (⟨S128, .f32⟩ : BufTy).Contents (Elt F) → (⟨S128, .f32⟩ : BufTy).Contents (Elt F) → (⟨S128, .f32⟩ : BufTy).Contents (Elt F)),
    unary main_v118 main_v119 (Host.rsqrt : (⟨S128, .f32⟩ : BufTy).Contents (Elt F) → (⟨S128, .f32⟩ : BufTy).Contents (Elt F)),
    unary main_v119 main_v120 (broadcastInDim S1x128 ![1] bcast_S128_S1x128_1 : (⟨S128, .f32⟩ : BufTy).Contents (Elt F) → (⟨S1x128, .f32⟩ : BufTy).Contents (Elt F)),
    unary main_v120 main_v121 (broadcastInDim S100000x128 ![0, 1] bcast_S1x128_S100000x128_0_1 : (⟨S1x128, .f32⟩ : BufTy).Contents (Elt F) → (⟨S100000x128, .f32⟩ : BufTy).Contents (Elt F)),
    binary main_v116 main_v121 main_v122 (mulf : (⟨S100000x128, .f32⟩ : BufTy).Contents (Elt F) → (⟨S100000x128, .f32⟩ : BufTy).Contents (Elt F) → (⟨S100000x128, .f32⟩ : BufTy).Contents (Elt F)),
    unary main_arg11 main_v123 (broadcastInDim S1x128 ![1] bcast_S128_S1x128_1 : (⟨S128, .f32⟩ : BufTy).Contents (Elt F) → (⟨S1x128, .f32⟩ : BufTy).Contents (Elt F)),
    unary main_v123 main_v124 (broadcastInDim S100000x128 ![0, 1] bcast_S1x128_S100000x128_0_1 : (⟨S1x128, .f32⟩ : BufTy).Contents (Elt F) → (⟨S100000x128, .f32⟩ : BufTy).Contents (Elt F)),
    binary main_v122 main_v124 main_v125 (mulf : (⟨S100000x128, .f32⟩ : BufTy).Contents (Elt F) → (⟨S100000x128, .f32⟩ : BufTy).Contents (Elt F) → (⟨S100000x128, .f32⟩ : BufTy).Contents (Elt F)),
    unary main_arg12 main_v126 (broadcastInDim S1x128 ![1] bcast_S128_S1x128_1 : (⟨S128, .f32⟩ : BufTy).Contents (Elt F) → (⟨S1x128, .f32⟩ : BufTy).Contents (Elt F)),
    unary main_v126 main_v127 (broadcastInDim S100000x128 ![0, 1] bcast_S1x128_S100000x128_0_1 : (⟨S1x128, .f32⟩ : BufTy).Contents (Elt F) → (⟨S100000x128, .f32⟩ : BufTy).Contents (Elt F)),
    binary main_v125 main_v127 main_v128 (addf : (⟨S100000x128, .f32⟩ : BufTy).Contents (Elt F) → (⟨S100000x128, .f32⟩ : BufTy).Contents (Elt F) → (⟨S100000x128, .f32⟩ : BufTy).Contents (Elt F)),
    TRef.nullary main_call5.cst (constant S_ .f32 0x00000000#32),
    TRef.unary main_call5.cst main_call5.v0 (broadcastInDim S100000x128 ![] bcast_S_S100000x128),
    TRef.binary (.of main_v128 : TRef sig ⟨S100000x128, .f32⟩) main_call5.v0 main_call5.v1 maximumf ]

theorem S5_writes : (S5 : List (HloOp τ sig (Elt F))).Forall (WritesIn 182 229) :=
  ⟨⟨main_cst_24, rfl, by decide, by decide⟩,
   ⟨main_v110, rfl, by decide, by decide⟩,
   ⟨main_cst_25, rfl, by decide, by decide⟩,
   ⟨main_v111, rfl, by decide, by decide⟩,
   ⟨main_v112, rfl, by decide, by decide⟩,
   ⟨main_c_26, rfl, by decide, by decide⟩,
   ⟨main_call4_cst, rfl, by decide, by decide⟩,
   ⟨main_call4_v0, rfl, by decide, by decide⟩,
   ⟨main_call4_v1, rfl, by decide, by decide⟩,
   ⟨main_call4_cst_0, rfl, by decide, by decide⟩,
   ⟨main_call4_v2, rfl, by decide, by decide⟩,
   ⟨main_call4_v3, rfl, by decide, by decide⟩,
   ⟨main_call4_v4, rfl, by decide, by decide⟩,
   ⟨main_call4_v5, rfl, by decide, by decide⟩,
   ⟨main_call4_v6, rfl, by decide, by decide⟩,
   ⟨main_call4_v7, rfl, by decide, by decide⟩,
   ⟨main_call4_cst_1, rfl, by decide, by decide⟩,
   ⟨main_call4_v8, rfl, by decide, by decide⟩,
   ⟨main_call4_cst_2, rfl, by decide, by decide⟩,
   ⟨main_call4_v9, rfl, by decide, by decide⟩,
   ⟨main_call4_v10, rfl, by decide, by decide⟩,
   ⟨main_call4_v11, rfl, by decide, by decide⟩,
   ⟨main_call4_cst_3, rfl, by decide, by decide⟩,
   ⟨main_call4_v12, rfl, by decide, by decide⟩,
   ⟨main_call4_cst_4, rfl, by decide, by decide⟩,
   ⟨main_call4_call0_v0, rfl, by decide, by decide⟩,
   ⟨main_call4_call0_v1, rfl, by decide, by decide⟩,
   ⟨main_v113, rfl, by decide, by decide⟩,
   ⟨main_v114, rfl, by decide, by decide⟩,
   ⟨main_v115, rfl, by decide, by decide⟩,
   ⟨main_v116, rfl, by decide, by decide⟩,
   ⟨main_cst_27, rfl, by decide, by decide⟩,
   ⟨main_v117, rfl, by decide, by decide⟩,
   ⟨main_v118, rfl, by decide, by decide⟩,
   ⟨main_v119, rfl, by decide, by decide⟩,
   ⟨main_v120, rfl, by decide, by decide⟩,
   ⟨main_v121, rfl, by decide, by decide⟩,
   ⟨main_v122, rfl, by decide, by decide⟩,
   ⟨main_v123, rfl, by decide, by decide⟩,
   ⟨main_v124, rfl, by decide, by decide⟩,
   ⟨main_v125, rfl, by decide, by decide⟩,
   ⟨main_v126, rfl, by decide, by decide⟩,
   ⟨main_v127, rfl, by decide, by decide⟩,
   ⟨main_v128, rfl, by decide, by decide⟩,
   ⟨main_call5_cst, rfl, by decide, by decide⟩,
   ⟨main_call5_v0, rfl, by decide, by decide⟩,
   ⟨main_v129, rfl, by decide, by decide⟩⟩

/-- A buffer numbered outside `[182, 229)` is as it was after this stretch. -/
theorem S5_keep (r : Ref sig .tc) (hr : r.idx.val < 182 ∨ 229 ≤ r.idx.val) (V : Valuation τ sig (Elt F)) :
    after S5 V (Proc.devRef .tc r) = V (Proc.devRef .tc r) :=
  after_outside S5_writes r hr V

theorem S5_sub : (S5 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem S5_fresh : (S5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev S6 : List (HloOp τ sig (Elt F)) :=
  [ binary main_v129 main_arg7 main_v130 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v131 (iotaInDim S100000 32 0),
    binary main_v1 main_v131 main_v132 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    binary main_v3 main_v131 main_v133 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    nullary main_cst_28 (constant S_ .f32 0x3F800000#32),
    unary main_cst_28 main_v134 (broadcastInDim S740000 ![] bcast_S_S740000 : (⟨S_, .f32⟩ : BufTy).Contents (Elt F) → (⟨S740000, .f32⟩ : BufTy).Contents (Elt F)),
    nullary main_cst_29 (constant S_ .f32 0x00000000#32),
    unary main_cst_29 main_v135 (broadcastInDim S100000 ![] bcast_S_S100000 : (⟨S_, .f32⟩ : BufTy).Contents (Elt F) → (⟨S100000, .f32⟩ : BufTy).Contents (Elt F)),
    unary main_v133 main_v136 (broadcastInDim S740000x1 ![0] bcast_S740000_S740000x1_0 : (⟨S740000, .i32⟩ : BufTy).Contents (Elt F) → (⟨S740000x1, .i32⟩ : BufTy).Contents (Elt F)),
    ternary main_v135 main_v136 main_v134 main_v137 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)),
    nullary main_cst_30 (constant S_ .f32 0x00000000#32),
    unary main_cst_30 main_v138 (broadcastInDim S100000 ![] bcast_S_S100000 : (⟨S_, .f32⟩ : BufTy).Contents (Elt F) → (⟨S100000, .f32⟩ : BufTy).Contents (Elt F)),
    binary main_v137 main_v138 main_v139 (cmpf .ogt : (⟨S100000, .f32⟩ : BufTy).Contents (Elt F) → (⟨S100000, .f32⟩ : BufTy).Contents (Elt F) → (⟨S100000, .i1⟩ : BufTy).Contents (Elt F)),
    unary main_v137 main_v140 (Host.rsqrt : (⟨S100000, .f32⟩ : BufTy).Contents (Elt F) → (⟨S100000, .f32⟩ : BufTy).Contents (Elt F)),
    nullary main_cst_31 (constant S_ .f32 0x00000000#32),
    TRef.unary (.of main_cst_31 : TRef sig ⟨S_, .f32⟩) main_call6.v0 id,
    TRef.unary main_call6.v0 main_call6.v1 (broadcastInDim S100000 ![] bcast_S_S100000),
    TRef.ternary (.of main_v139 : TRef sig ⟨S100000, .i1⟩) (.of main_v140 : TRef sig ⟨S100000, .f32⟩) main_call6.v1 main_call6.v2 select,
    nullary main_c_32 (constantI S_ 32 0#32),
    unary main_c_32 main_v142 (broadcastInDim S740000 ![] bcast_S_S740000 : (⟨S_, .i32⟩ : BufTy).Contents (Elt F) → (⟨S740000, .i32⟩ : BufTy).Contents (Elt F)),
    binary main_v132 main_v142 main_v143 (cmpi .slt : (⟨S740000, .i32⟩ : BufTy).Contents (Elt F) → (⟨S740000, .i32⟩ : BufTy).Contents (Elt F) → (⟨S740000, .i1⟩ : BufTy).Contents (Elt F)),
    nullary main_c_33 (constantI S_ 32 100000#32),
    unary main_c_33 main_v144 (broadcastInDim S740000 ![] bcast_S_S740000 : (⟨S_, .i32⟩ : BufTy).Contents (Elt F) → (⟨S740000, .i32⟩ : BufTy).Contents (Elt F)),
    binary main_v132 main_v144 main_v145 (addi : (⟨S740000, .i32⟩ : BufTy).Contents (Elt F) → (⟨S740000, .i32⟩ : BufTy).Contents (Elt F) → (⟨S740000, .i32⟩ : BufTy).Contents (Elt F)),
    ternary main_v143 main_v145 main_v132 main_v146 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v146 main_v147 (broadcastInDim S740000x1 ![0] bcast_S740000_S740000x1_0 : (⟨S740000, .i32⟩ : BufTy).Contents (Elt F) → (⟨S740000x1, .i32⟩ : BufTy).Contents (Elt F)),
    binary main_v141 main_v147 main_v148 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    nullary main_c_34 (constantI S_ 32 0#32),
    unary main_c_34 main_v149 (broadcastInDim S740000 ![] bcast_S_S740000 : (⟨S_, .i32⟩ : BufTy).Contents (Elt F) → (⟨S740000, .i32⟩ : BufTy).Contents (Elt F)),
    binary main_v133 main_v149 main_v150 (cmpi .slt : (⟨S740000, .i32⟩ : BufTy).Contents (Elt F) → (⟨S740000, .i32⟩ : BufTy).Contents (Elt F) → (⟨S740000, .i1⟩ : BufTy).Contents (Elt F)),
    nullary main_c_35 (constantI S_ 32 100000#32),
    unary main_c_35 main_v151 (broadcastInDim S740000 ![] bcast_S_S740000 : (⟨S_, .i32⟩ : BufTy).Contents (Elt F) → (⟨S740000, .i32⟩ : BufTy).Contents (Elt F)),
    binary main_v133 main_v151 main_v152 (addi : (⟨S740000, .i32⟩ : BufTy).Contents (Elt F) → (⟨S740000, .i32⟩ : BufTy).Contents (Elt F) → (⟨S740000, .i32⟩ : BufTy).Contents (Elt F)),
    ternary main_v150 main_v152 main_v133 main_v153 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v153 main_v154 (broadcastInDim S740000x1 ![0] bcast_S740000_S740000x1_0 : (⟨S740000, .i32⟩ : BufTy).Contents (Elt F) → (⟨S740000x1, .i32⟩ : BufTy).Contents (Elt F)),
    binary main_v141 main_v154 main_v155 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v148 main_v155 main_v156 (mulf : (⟨S740000, .f32⟩ : BufTy).Contents (Elt F) → (⟨S740000, .f32⟩ : BufTy).Contents (Elt F) → (⟨S740000, .f32⟩ : BufTy).Contents (Elt F)) ]

theorem S6_writes : (S6 : List (HloOp τ sig (Elt F))).Forall (WritesIn 229 266) :=
  ⟨⟨main_v130, rfl, by decide, by decide⟩,
   ⟨main_v131, rfl, by decide, by decide⟩,
   ⟨main_v132, rfl, by decide, by decide⟩,
   ⟨main_v133, rfl, by decide, by decide⟩,
   ⟨main_cst_28, rfl, by decide, by decide⟩,
   ⟨main_v134, rfl, by decide, by decide⟩,
   ⟨main_cst_29, rfl, by decide, by decide⟩,
   ⟨main_v135, rfl, by decide, by decide⟩,
   ⟨main_v136, rfl, by decide, by decide⟩,
   ⟨main_v137, rfl, by decide, by decide⟩,
   ⟨main_cst_30, rfl, by decide, by decide⟩,
   ⟨main_v138, rfl, by decide, by decide⟩,
   ⟨main_v139, rfl, by decide, by decide⟩,
   ⟨main_v140, rfl, by decide, by decide⟩,
   ⟨main_cst_31, rfl, by decide, by decide⟩,
   ⟨main_call6_v0, rfl, by decide, by decide⟩,
   ⟨main_call6_v1, rfl, by decide, by decide⟩,
   ⟨main_v141, rfl, by decide, by decide⟩,
   ⟨main_c_32, rfl, by decide, by decide⟩,
   ⟨main_v142, rfl, by decide, by decide⟩,
   ⟨main_v143, rfl, by decide, by decide⟩,
   ⟨main_c_33, rfl, by decide, by decide⟩,
   ⟨main_v144, rfl, by decide, by decide⟩,
   ⟨main_v145, rfl, by decide, by decide⟩,
   ⟨main_v146, rfl, by decide, by decide⟩,
   ⟨main_v147, rfl, by decide, by decide⟩,
   ⟨main_v148, rfl, by decide, by decide⟩,
   ⟨main_c_34, rfl, by decide, by decide⟩,
   ⟨main_v149, rfl, by decide, by decide⟩,
   ⟨main_v150, rfl, by decide, by decide⟩,
   ⟨main_c_35, rfl, by decide, by decide⟩,
   ⟨main_v151, rfl, by decide, by decide⟩,
   ⟨main_v152, rfl, by decide, by decide⟩,
   ⟨main_v153, rfl, by decide, by decide⟩,
   ⟨main_v154, rfl, by decide, by decide⟩,
   ⟨main_v155, rfl, by decide, by decide⟩,
   ⟨main_v156, rfl, by decide, by decide⟩⟩

/-- A buffer numbered outside `[229, 266)` is as it was after this stretch. -/
theorem S6_keep (r : Ref sig .tc) (hr : r.idx.val < 229 ∨ 266 ≤ r.idx.val) (V : Valuation τ sig (Elt F)) :
    after S6 V (Proc.devRef .tc r) = V (Proc.devRef .tc r) :=
  after_outside S6_writes r hr V

theorem S6_sub : (S6 : List (HloOp τ sig (Elt F))).Forall fun op => op.bufs ⊆ tcRefs τ sig :=
  ⟨binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem S6_fresh : (S6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev S7 : List (HloOp τ sig (Elt F)) :=
  [ nullary main_c_36 (constantI S_ 32 0#32),
    unary main_c_36 main_v157 (broadcastInDim S740000 ![] bcast_S_S740000 : (⟨S_, .i32⟩ : BufTy).Contents (Elt F) → (⟨S740000, .i32⟩ : BufTy).Contents (Elt F)),
    binary main_v132 main_v157 main_v158 (cmpi .slt : (⟨S740000, .i32⟩ : BufTy).Contents (Elt F) → (⟨S740000, .i32⟩ : BufTy).Contents (Elt F) → (⟨S740000, .i1⟩ : BufTy).Contents (Elt F)),
    nullary main_c_37 (constantI S_ 32 100000#32),
    unary main_c_37 main_v159 (broadcastInDim S740000 ![] bcast_S_S740000 : (⟨S_, .i32⟩ : BufTy).Contents (Elt F) → (⟨S740000, .i32⟩ : BufTy).Contents (Elt F)),
    binary main_v132 main_v159 main_v160 (addi : (⟨S740000, .i32⟩ : BufTy).Contents (Elt F) → (⟨S740000, .i32⟩ : BufTy).Contents (Elt F) → (⟨S740000, .i32⟩ : BufTy).Contents (Elt F)),
    ternary main_v158 main_v160 main_v132 main_v161 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v161 main_v162 (broadcastInDim S740000x1 ![0] bcast_S740000_S740000x1_0 : (⟨S740000, .i32⟩ : BufTy).Contents (Elt F) → (⟨S740000x1, .i32⟩ : BufTy).Contents (Elt F)),
    binary main_v130 main_v162 main_v163 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v156 main_v164 (broadcastInDim S740000x1 ![0] bcast_S740000_S740000x1_0 : (⟨S740000, .f32⟩ : BufTy).Contents (Elt F) → (⟨S740000x1, .f32⟩ : BufTy).Contents (Elt F)),
    unary main_v164 main_v165 (broadcastInDim S740000x128 ![0, 1] bcast_S740000x1_S740000x128_0_1 : (⟨S740000x1, .f32⟩ : BufTy).Contents (Elt F) → (⟨S740000x128, .f32⟩ : BufTy).Contents (Elt F)),
    binary main_v163 main_v165 main_v166 (mulf : (⟨S740000x128, .f32⟩ : BufTy).Contents (Elt F) → (⟨S740000x128, .f32⟩ : BufTy).Contents (Elt F) → (⟨S740000x128, .f32⟩ : BufTy).Contents (Elt F)),
    nullary main_cst_38 (constant S_ .f32 0x00000000#32),
    unary main_cst_38 main_v167 (broadcastInDim S100000x128 ![] bcast_S_S100000x128 : (⟨S_, .f32⟩ : BufTy).Contents (Elt F) → (⟨S100000x128, .f32⟩ : BufTy).Contents (Elt F)),
    unary main_v133 main_v168 (broadcastInDim S740000x1 ![0] bcast_S740000_S740000x1_0 : (⟨S740000, .i32⟩ : BufTy).Contents (Elt F) → (⟨S740000x1, .i32⟩ : BufTy).Contents (Elt F)),
    ternary main_v167 main_v168 main_v166 main_v169 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    unary main_arg8 main_v170 (broadcastInDim S1x128 ![1] bcast_S128_S1x128_1 : (⟨S128, .f32⟩ : BufTy).Contents (Elt F) → (⟨S1x128, .f32⟩ : BufTy).Contents (Elt F)),
    unary main_v170 main_v171 (broadcastInDim S100000x128 ![0, 1] bcast_S1x128_S100000x128_0_1 : (⟨S1x128, .f32⟩ : BufTy).Contents (Elt F) → (⟨S100000x128, .f32⟩ : BufTy).Contents (Elt F)),
    binary main_v169 main_v171 main_v172 (addf : (⟨S100000x128, .f32⟩ : BufTy).Contents (Elt F) → (⟨S100000x128, .f32⟩ : BufTy).Contents (Elt F) → (⟨S100000x128, .f32⟩ : BufTy).Contents (Elt F)) ]

theorem S7_writes : (S7 : List (HloOp τ sig (Elt F))).Forall (WritesIn 266 285) :=
  ⟨⟨main_c_36, rfl, by decide, by decide⟩,
   ⟨main_v157, rfl, by decide, by decide⟩,
   ⟨main_v158, rfl, by decide, by decide⟩,
   ⟨main_c_37, rfl, by decide, by decide⟩,
   ⟨main_v159, rfl, by decide, by decide⟩,
   ⟨main_v160, rfl, by decide, by decide⟩,
   ⟨main_v161, rfl, by decide, by decide⟩,
   ⟨main_v162, rfl, by decide, by decide⟩,
   ⟨main_v163, rfl, by decide, by decide⟩,
   ⟨main_v164, rfl, by decide, by decide⟩,
   ⟨main_v165, rfl, by decide, by decide⟩,
   ⟨main_v166, rfl, by decide, by decide⟩,
   ⟨main_cst_38, rfl, by decide, by decide⟩,
   ⟨main_v167, rfl, by decide, by decide⟩,
   ⟨main_v168, rfl, by decide, by decide⟩,
   ⟨main_v169, rfl, by decide, by decide⟩,
   ⟨main_v170, rfl, by decide, by decide⟩,
   ⟨main_v171, rfl, by decide, by decide⟩,
   ⟨main_v172, rfl, by decide, by decide⟩⟩

/-- A buffer numbered outside `[266, 285)` is as it was after this stretch. -/
theorem S7_keep (r : Ref sig .tc) (hr : r.idx.val < 266 ∨ 285 ≤ r.idx.val) (V : Valuation τ sig (Elt F)) :
    after S7 V (Proc.devRef .tc r) = V (Proc.devRef .tc r) :=
  after_outside S7_writes r hr V

theorem S7_sub : (S7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

theorem S7_fresh : (S7 : List (HloOp τ sig (Elt F))).Forall fun op => op.fresh = ∅ :=
  ⟨rfl, rfl, rfl, rfl, rfl, rfl, rfl, rfl, rfl, rfl, rfl, rfl, rfl, rfl, rfl, rfl, rfl, rfl, rfl⟩

abbrev S8 : List (HloOp τ sig (Elt F)) :=
  [ nullary main_cst_39 (constant S_ .f32 0x00000000#32),
    binary main_v172 main_cst_39 main_v173 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_40 (constant S_ .f32 0x47C35000#32),
    unary main_cst_40 main_v174 (broadcastInDim S128 ![] bcast_S_S128 : (⟨S_, .f32⟩ : BufTy).Contents (Elt F) → (⟨S128, .f32⟩ : BufTy).Contents (Elt F)),
    binary main_v173 main_v174 main_v175 (Host.divf : (⟨S128, .f32⟩ : BufTy).Contents (Elt F) → (⟨S128, .f32⟩ : BufTy).Contents (Elt F) → (⟨S128, .f32⟩ : BufTy).Contents (Elt F)),
    nullary main_c_41 (constantI S_ 32 0#32),
    TRef.nullary main_call7.cst (constant S_ .f32 0x00000000#32),
    TRef.binary (.of main_v172 : TRef sig ⟨S100000x128, .f32⟩) main_call7.cst main_call7.v0 (fun x v => Host.reduceAdd x v reducesTo_S100000x128_S128_d0 h_S_),
    TRef.unary main_call7.v0 main_call7.v1 (broadcastInDim S1x128 ![1] bcast_S128_S1x128_1),
    TRef.nullary main_call7.cst_0 (constant S_ .f32 0x47C35000#32),
    TRef.unary main_call7.cst_0 main_call7.v2 (broadcastInDim S1x128 ![] bcast_S_S1x128),
    TRef.binary main_call7.v1 main_call7.v2 main_call7.v3 Host.divf,
    TRef.unary main_call7.v3 main_call7.v4 (broadcastInDim S100000x128 ![0, 1] bcast_S1x128_S100000x128_0_1),
    TRef.binary (.of main_v172 : TRef sig ⟨S100000x128, .f32⟩) main_call7.v4 main_call7.v5 subf,
    TRef.binary main_call7.v5 main_call7.v5 main_call7.v6 mulf,
    TRef.unary (.of main_c_41 : TRef sig ⟨S_, .i32⟩) main_call7.v7 (sitofp .f32),
    TRef.nullary main_call7.cst_1 (constant S_ .f32 0x47C35000#32),
    TRef.binary main_call7.cst_1 main_call7.v7 main_call7.v8 subf,
    TRef.nullary main_call7.cst_2 (constant S_ .f32 0x00000000#32),
    TRef.binary main_call7.v6 main_call7.cst_2 main_call7.v9 (fun x v => Host.reduceAdd x v reducesTo_S100000x128_S128_d0 h_S_),
    TRef.unary main_call7.v8 main_call7.v10 (broadcastInDim S128 ![] bcast_S_S128),
    TRef.binary main_call7.v9 main_call7.v10 main_call7.v11 Host.divf,
    TRef.nullary main_call7.cst_3 (constant S_ .f32 0x00000000#32),
    TRef.binary main_call7.v8 main_call7.cst_3 main_call7.v12 (cmpf .ogt),
    TRef.nullary main_call7.cst_4 (constant S_ .f32 0x7FC00000#32),
    TRef.unary (.of main_call7_cst_4 : TRef sig ⟨S_, .f32⟩) main_call7_call0.v0 id,
    TRef.unary main_call7_call0.v0 main_call7_call0.v1 (broadcastInDim S128 ![] bcast_S_S128),
    TRef.ternary (.of main_call7_v12 : TRef sig ⟨S_, .i1⟩) (.of main_call7_v11 : TRef sig ⟨S128, .f32⟩) main_call7_call0.v1 main_call7_call0.v2 (fun p a b => select (broadcastInDim S128 ![] bcast_S_S128 p) a b),
    unary main_v175 main_v177 (broadcastInDim S1x128 ![1] bcast_S128_S1x128_1 : (⟨S128, .f32⟩ : BufTy).Contents (Elt F) → (⟨S1x128, .f32⟩ : BufTy).Contents (Elt F)),
    unary main_v177 main_v178 (broadcastInDim S100000x128 ![0, 1] bcast_S1x128_S100000x128_0_1 : (⟨S1x128, .f32⟩ : BufTy).Contents (Elt F) → (⟨S100000x128, .f32⟩ : BufTy).Contents (Elt F)),
    binary main_v172 main_v178 main_v179 (subf : (⟨S100000x128, .f32⟩ : BufTy).Contents (Elt F) → (⟨S100000x128, .f32⟩ : BufTy).Contents (Elt F) → (⟨S100000x128, .f32⟩ : BufTy).Contents (Elt F)),
    nullary main_cst_42 (constant S_ .f32 0x3727C5AC#32),
    unary main_cst_42 main_v180 (broadcastInDim S128 ![] bcast_S_S128 : (⟨S_, .f32⟩ : BufTy).Contents (Elt F) → (⟨S128, .f32⟩ : BufTy).Contents (Elt F)),
    binary main_v176 main_v180 main_v181 (addf : (⟨S128, .f32⟩ : BufTy).Contents (Elt F) → (⟨S128, .f32⟩ : BufTy).Contents (Elt F) → (⟨S128, .f32⟩ : BufTy).Contents (Elt F)),
    unary main_v181 main_v182 (Host.rsqrt : (⟨S128, .f32⟩ : BufTy).Contents (Elt F) → (⟨S128, .f32⟩ : BufTy).Contents (Elt F)),
    unary main_v182 main_v183 (broadcastInDim S1x128 ![1] bcast_S128_S1x128_1 : (⟨S128, .f32⟩ : BufTy).Contents (Elt F) → (⟨S1x128, .f32⟩ : BufTy).Contents (Elt F)),
    unary main_v183 main_v184 (broadcastInDim S100000x128 ![0, 1] bcast_S1x128_S100000x128_0_1 : (⟨S1x128, .f32⟩ : BufTy).Contents (Elt F) → (⟨S100000x128, .f32⟩ : BufTy).Contents (Elt F)),
    binary main_v179 main_v184 main_v185 (mulf : (⟨S100000x128, .f32⟩ : BufTy).Contents (Elt F) → (⟨S100000x128, .f32⟩ : BufTy).Contents (Elt F) → (⟨S100000x128, .f32⟩ : BufTy).Contents (Elt F)),
    unary main_arg13 main_v186 (broadcastInDim S1x128 ![1] bcast_S128_S1x128_1 : (⟨S128, .f32⟩ : BufTy).Contents (Elt F) → (⟨S1x128, .f32⟩ : BufTy).Contents (Elt F)),
    unary main_v186 main_v187 (broadcastInDim S100000x128 ![0, 1] bcast_S1x128_S100000x128_0_1 : (⟨S1x128, .f32⟩ : BufTy).Contents (Elt F) → (⟨S100000x128, .f32⟩ : BufTy).Contents (Elt F)),
    binary main_v185 main_v187 main_v188 (mulf : (⟨S100000x128, .f32⟩ : BufTy).Contents (Elt F) → (⟨S100000x128, .f32⟩ : BufTy).Contents (Elt F) → (⟨S100000x128, .f32⟩ : BufTy).Contents (Elt F)),
    unary main_arg14 main_v189 (broadcastInDim S1x128 ![1] bcast_S128_S1x128_1 : (⟨S128, .f32⟩ : BufTy).Contents (Elt F) → (⟨S1x128, .f32⟩ : BufTy).Contents (Elt F)),
    unary main_v189 main_v190 (broadcastInDim S100000x128 ![0, 1] bcast_S1x128_S100000x128_0_1 : (⟨S1x128, .f32⟩ : BufTy).Contents (Elt F) → (⟨S100000x128, .f32⟩ : BufTy).Contents (Elt F)),
    binary main_v188 main_v190 main_v191 (addf : (⟨S100000x128, .f32⟩ : BufTy).Contents (Elt F) → (⟨S100000x128, .f32⟩ : BufTy).Contents (Elt F) → (⟨S100000x128, .f32⟩ : BufTy).Contents (Elt F)),
    TRef.nullary main_call8.cst (constant S_ .f32 0x00000000#32),
    TRef.unary main_call8.cst main_call8.v0 (broadcastInDim S100000x128 ![] bcast_S_S100000x128),
    TRef.binary (.of main_v191 : TRef sig ⟨S100000x128, .f32⟩) main_call8.v0 main_call8.v1 maximumf ]

theorem S8_writes : (S8 : List (HloOp τ sig (Elt F))).Forall (WritesIn 285 332) :=
  ⟨⟨main_cst_39, rfl, by decide, by decide⟩,
   ⟨main_v173, rfl, by decide, by decide⟩,
   ⟨main_cst_40, rfl, by decide, by decide⟩,
   ⟨main_v174, rfl, by decide, by decide⟩,
   ⟨main_v175, rfl, by decide, by decide⟩,
   ⟨main_c_41, rfl, by decide, by decide⟩,
   ⟨main_call7_cst, rfl, by decide, by decide⟩,
   ⟨main_call7_v0, rfl, by decide, by decide⟩,
   ⟨main_call7_v1, rfl, by decide, by decide⟩,
   ⟨main_call7_cst_0, rfl, by decide, by decide⟩,
   ⟨main_call7_v2, rfl, by decide, by decide⟩,
   ⟨main_call7_v3, rfl, by decide, by decide⟩,
   ⟨main_call7_v4, rfl, by decide, by decide⟩,
   ⟨main_call7_v5, rfl, by decide, by decide⟩,
   ⟨main_call7_v6, rfl, by decide, by decide⟩,
   ⟨main_call7_v7, rfl, by decide, by decide⟩,
   ⟨main_call7_cst_1, rfl, by decide, by decide⟩,
   ⟨main_call7_v8, rfl, by decide, by decide⟩,
   ⟨main_call7_cst_2, rfl, by decide, by decide⟩,
   ⟨main_call7_v9, rfl, by decide, by decide⟩,
   ⟨main_call7_v10, rfl, by decide, by decide⟩,
   ⟨main_call7_v11, rfl, by decide, by decide⟩,
   ⟨main_call7_cst_3, rfl, by decide, by decide⟩,
   ⟨main_call7_v12, rfl, by decide, by decide⟩,
   ⟨main_call7_cst_4, rfl, by decide, by decide⟩,
   ⟨main_call7_call0_v0, rfl, by decide, by decide⟩,
   ⟨main_call7_call0_v1, rfl, by decide, by decide⟩,
   ⟨main_v176, rfl, by decide, by decide⟩,
   ⟨main_v177, rfl, by decide, by decide⟩,
   ⟨main_v178, rfl, by decide, by decide⟩,
   ⟨main_v179, rfl, by decide, by decide⟩,
   ⟨main_cst_42, rfl, by decide, by decide⟩,
   ⟨main_v180, rfl, by decide, by decide⟩,
   ⟨main_v181, rfl, by decide, by decide⟩,
   ⟨main_v182, rfl, by decide, by decide⟩,
   ⟨main_v183, rfl, by decide, by decide⟩,
   ⟨main_v184, rfl, by decide, by decide⟩,
   ⟨main_v185, rfl, by decide, by decide⟩,
   ⟨main_v186, rfl, by decide, by decide⟩,
   ⟨main_v187, rfl, by decide, by decide⟩,
   ⟨main_v188, rfl, by decide, by decide⟩,
   ⟨main_v189, rfl, by decide, by decide⟩,
   ⟨main_v190, rfl, by decide, by decide⟩,
   ⟨main_v191, rfl, by decide, by decide⟩,
   ⟨main_call8_cst, rfl, by decide, by decide⟩,
   ⟨main_call8_v0, rfl, by decide, by decide⟩,
   ⟨main_v192, rfl, by decide, by decide⟩⟩

/-- A buffer numbered outside `[285, 332)` is as it was after this stretch. -/
theorem S8_keep (r : Ref sig .tc) (hr : r.idx.val < 285 ∨ 332 ≤ r.idx.val) (V : Valuation τ sig (Elt F)) :
    after S8 V (Proc.devRef .tc r) = V (Proc.devRef .tc r) :=
  after_outside S8_writes r hr V

theorem S8_sub : (S8 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem S8_fresh : (S8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev S9 : List (HloOp τ sig (Elt F)) :=
  [ nullary main_cst_43 (constant S_ .f32 0x3F800000#32),
    unary main_cst_43 main_v193 (broadcastInDim S100000 ![] bcast_S_S100000 : (⟨S_, .f32⟩ : BufTy).Contents (Elt F) → (⟨S100000, .f32⟩ : BufTy).Contents (Elt F)),
    nullary main_cst_44 (constant S_ .f32 0x00000000#32),
    unary main_cst_44 main_v194 (broadcastInDim S256 ![] bcast_S_S256 : (⟨S_, .f32⟩ : BufTy).Contents (Elt F) → (⟨S256, .f32⟩ : BufTy).Contents (Elt F)),
    unary main_arg2 main_v195 (broadcastInDim S100000x1 ![0] bcast_S100000_S100000x1_0 : (⟨S100000, .i32⟩ : BufTy).Contents (Elt F) → (⟨S100000x1, .i32⟩ : BufTy).Contents (Elt F)),
    ternary main_v194 main_v195 main_v193 main_v196 ((fun x i u => Host.scatterAdd scatter_S256_S100000x1_S100000_n_0_0_1 x i u) : (⟨S256, .f32⟩ : BufTy).Contents (Elt F) → (⟨S100000x1, .i32⟩ : BufTy).Contents (Elt F) → (⟨S100000, .f32⟩ : BufTy).Contents (Elt F) → (⟨S256, .f32⟩ : BufTy).Contents (Elt F)),
    nullary main_cst_45 (constant S_ .f32 0x00000000#32),
    unary main_cst_45 main_v197 (broadcastInDim S256x128 ![] bcast_S_S256x128 : (⟨S_, .f32⟩ : BufTy).Contents (Elt F) → (⟨S256x128, .f32⟩ : BufTy).Contents (Elt F)),
    unary main_arg2 main_v198 (broadcastInDim S100000x1 ![0] bcast_S100000_S100000x1_0 : (⟨S100000, .i32⟩ : BufTy).Contents (Elt F) → (⟨S100000x1, .i32⟩ : BufTy).Contents (Elt F)),
    ternary main_v197 main_v198 main_v192 main_v199 ((fun x i u => Host.scatterAdd scatter_S256x128_S100000x1_S100000x128_1_0_0_1 x i u) : (⟨S256x128, .f32⟩ : BufTy).Contents (Elt F) → (⟨S100000x1, .i32⟩ : BufTy).Contents (Elt F) → (⟨S100000x128, .f32⟩ : BufTy).Contents (Elt F) → (⟨S256x128, .f32⟩ : BufTy).Contents (Elt F)),
    nullary main_cst_46 (constant S_ .f32 0x3F800000#32),
    unary main_cst_46 main_v200 (broadcastInDim S256 ![] bcast_S_S256 : (⟨S_, .f32⟩ : BufTy).Contents (Elt F) → (⟨S256, .f32⟩ : BufTy).Contents (Elt F)),
    binary main_v196 main_v200 main_v201 (maximumf : (⟨S256, .f32⟩ : BufTy).Contents (Elt F) → (⟨S256, .f32⟩ : BufTy).Contents (Elt F) → (⟨S256, .f32⟩ : BufTy).Contents (Elt F)),
    unary main_v201 main_v202 (broadcastInDim S256x1 ![0] bcast_S256_S256x1_0 : (⟨S256, .f32⟩ : BufTy).Contents (Elt F) → (⟨S256x1, .f32⟩ : BufTy).Contents (Elt F)),
    unary main_v202 main_v203 (broadcastInDim S256x128 ![0, 1] bcast_S256x1_S256x128_0_1 : (⟨S256x1, .f32⟩ : BufTy).Contents (Elt F) → (⟨S256x128, .f32⟩ : BufTy).Contents (Elt F)),
    binary main_v199 main_v203 main_v204 (Host.divf : (⟨S256x128, .f32⟩ : BufTy).Contents (Elt F) → (⟨S256x128, .f32⟩ : BufTy).Contents (Elt F) → (⟨S256x128, .f32⟩ : BufTy).Contents (Elt F)),
    binary main_v204 main_v204 main_v205 ((fun a b => concatenate S256x256 1 [⟨S256x128, a⟩, ⟨S256x128, b⟩] concatenates_S256x128_S256x128_S256x256_d1) : (⟨S256x128, .f32⟩ : BufTy).Contents (Elt F) → (⟨S256x128, .f32⟩ : BufTy).Contents (Elt F) → (⟨S256x256, .f32⟩ : BufTy).Contents (Elt F)),
    binary main_v205 main_arg15 main_v206 ((fun l r => Host.dotGeneral dot_S256x256_S256x128_S256x128_1_0_0_1_n_n none l r) : (⟨S256x256, .f32⟩ : BufTy).Contents (Elt F) → (⟨S256x128, .f32⟩ : BufTy).Contents (Elt F) → (⟨S256x128, .f32⟩ : BufTy).Contents (Elt F)),
    unary main_arg16 main_v207 (broadcastInDim S1x128 ![1] bcast_S128_S1x128_1 : (⟨S128, .f32⟩ : BufTy).Contents (Elt F) → (⟨S1x128, .f32⟩ : BufTy).Contents (Elt F)),
    unary main_v207 main_v208 (broadcastInDim S256x128 ![0, 1] bcast_S1x128_S256x128_0_1 : (⟨S1x128, .f32⟩ : BufTy).Contents (Elt F) → (⟨S256x128, .f32⟩ : BufTy).Contents (Elt F)),
    binary main_v206 main_v208 main_v209 (addf : (⟨S256x128, .f32⟩ : BufTy).Contents (Elt F) → (⟨S256x128, .f32⟩ : BufTy).Contents (Elt F) → (⟨S256x128, .f32⟩ : BufTy).Contents (Elt F)),
    TRef.nullary main_call9.cst (constant S_ .f32 0x00000000#32),
    TRef.unary main_call9.cst main_call9.v0 (broadcastInDim S256x128 ![] bcast_S_S256x128),
    TRef.binary (.of main_v209 : TRef sig ⟨S256x128, .f32⟩) main_call9.v0 main_call9.v1 maximumf,
    binary main_v210 main_arg17 main_v211 ((fun l r => Host.dotGeneral dot_S256x128_S128x64_S256x64_1_0_0_1_n_n none l r) : (⟨S256x128, .f32⟩ : BufTy).Contents (Elt F) → (⟨S128x64, .f32⟩ : BufTy).Contents (Elt F) → (⟨S256x64, .f32⟩ : BufTy).Contents (Elt F)),
    unary main_arg18 main_v212 (broadcastInDim S1x64 ![1] bcast_S64_S1x64_1 : (⟨S64, .f32⟩ : BufTy).Contents (Elt F) → (⟨S1x64, .f32⟩ : BufTy).Contents (Elt F)),
    unary main_v212 main_v213 (broadcastInDim S256x64 ![0, 1] bcast_S1x64_S256x64_0_1 : (⟨S1x64, .f32⟩ : BufTy).Contents (Elt F) → (⟨S256x64, .f32⟩ : BufTy).Contents (Elt F)),
    binary main_v211 main_v213 main_v214 (addf : (⟨S256x64, .f32⟩ : BufTy).Contents (Elt F) → (⟨S256x64, .f32⟩ : BufTy).Contents (Elt F) → (⟨S256x64, .f32⟩ : BufTy).Contents (Elt F)) ]

theorem S9_writes : (S9 : List (HloOp τ sig (Elt F))).Forall (WritesIn 332 360) :=
  ⟨⟨main_cst_43, rfl, by decide, by decide⟩,
   ⟨main_v193, rfl, by decide, by decide⟩,
   ⟨main_cst_44, rfl, by decide, by decide⟩,
   ⟨main_v194, rfl, by decide, by decide⟩,
   ⟨main_v195, rfl, by decide, by decide⟩,
   ⟨main_v196, rfl, by decide, by decide⟩,
   ⟨main_cst_45, rfl, by decide, by decide⟩,
   ⟨main_v197, rfl, by decide, by decide⟩,
   ⟨main_v198, rfl, by decide, by decide⟩,
   ⟨main_v199, rfl, by decide, by decide⟩,
   ⟨main_cst_46, rfl, by decide, by decide⟩,
   ⟨main_v200, rfl, by decide, by decide⟩,
   ⟨main_v201, rfl, by decide, by decide⟩,
   ⟨main_v202, rfl, by decide, by decide⟩,
   ⟨main_v203, rfl, by decide, by decide⟩,
   ⟨main_v204, rfl, by decide, by decide⟩,
   ⟨main_v205, rfl, by decide, by decide⟩,
   ⟨main_v206, rfl, by decide, by decide⟩,
   ⟨main_v207, rfl, by decide, by decide⟩,
   ⟨main_v208, rfl, by decide, by decide⟩,
   ⟨main_v209, rfl, by decide, by decide⟩,
   ⟨main_call9_cst, rfl, by decide, by decide⟩,
   ⟨main_call9_v0, rfl, by decide, by decide⟩,
   ⟨main_v210, rfl, by decide, by decide⟩,
   ⟨main_v211, rfl, by decide, by decide⟩,
   ⟨main_v212, rfl, by decide, by decide⟩,
   ⟨main_v213, rfl, by decide, by decide⟩,
   ⟨main_v214, rfl, by decide, by decide⟩⟩

/-- A buffer numbered outside `[332, 360)` is as it was after this stretch. -/
theorem S9_keep (r : Ref sig .tc) (hr : r.idx.val < 332 ∨ 360 ≤ r.idx.val) (V : Valuation τ sig (Elt F)) :
    after S9 V (Proc.devRef .tc r) = V (Proc.devRef .tc r) :=
  after_outside S9_writes r hr V

theorem S9_sub : (S9 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem S9_fresh : (S9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.Hand

end
-- ==== Proof.Ref.Terms.lean ====
/-
  The reference program's values as pure functions: one definition per stage of a graph-convolution layer
  (the concatenated endpoint lists, the degree, its inverse square root, the per-edge normalisation, the scaled
  rows, the edge sum, the column mean and variance, the normalised and rectified output) and of the pooling head,
  each the composition of the program's operations between two stages; then the layer, the three layers' outputs
  and the whole network as functions of @main's nineteen arguments.
-/
import proofs.«115763_j74259984548099_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The edge list's first row (the sources), as a vector. -/
def row0T (p0 : (⟨S2x640000, .i32⟩ : BufTy).Contents (Elt F)) :
    (⟨S640000, .i32⟩ : BufTy).Contents (Elt F) :=
  (shapeCast S640000 (((extractStridedSlice S1x640000 ![0, 0] · slices_S2x640000_S1x640000_0_0) : (⟨S2x640000, .i32⟩ : BufTy).Contents (Elt F) → (⟨S1x640000, .i32⟩ : BufTy).Contents (Elt F)) p0 : (⟨S1x640000, .i32⟩ : BufTy).Contents (Elt F)) shapeCasts_S1x640000_S640000 : (⟨S640000, .i32⟩ : BufTy).Contents (Elt F))

/-- The edge list's second row (the targets), as a vector. -/
def row1T (p0 : (⟨S2x640000, .i32⟩ : BufTy).Contents (Elt F)) :
    (⟨S640000, .i32⟩ : BufTy).Contents (Elt F) :=
  (shapeCast S640000 (((extractStridedSlice S1x640000 ![1, 0] · slices_S2x640000_S1x640000_1_0) : (⟨S2x640000, .i32⟩ : BufTy).Contents (Elt F) → (⟨S1x640000, .i32⟩ : BufTy).Contents (Elt F)) p0 : (⟨S1x640000, .i32⟩ : BufTy).Contents (Elt F)) shapeCasts_S1x640000_S640000 : (⟨S640000, .i32⟩ : BufTy).Contents (Elt F))

/-- The first layer's dense map `x · w`. -/
def dense0T (p0 : (⟨S100000x20, .f32⟩ : BufTy).Contents (Elt F)) (p1 : (⟨S20x128, .f32⟩ : BufTy).Contents (Elt F)) :
    (⟨S100000x128, .f32⟩ : BufTy).Contents (Elt F) :=
  (((fun l r => Host.dotGeneral dot_S100000x20_S20x128_S100000x128_1_0_0_1_n_n none l r) : (⟨S100000x20, .f32⟩ : BufTy).Contents (Elt F) → (⟨S20x128, .f32⟩ : BufTy).Contents (Elt F) → (⟨S100000x128, .f32⟩ : BufTy).Contents (Elt F)) p0 p1 : (⟨S100000x128, .f32⟩ : BufTy).Contents (Elt F))

/-- An endpoint list followed by `0, 1, …, N-1`: every node's self-loop appended. -/
def catT (p0 : (⟨S640000, .i32⟩ : BufTy).Contents (Elt F)) :
    (⟨S740000, .i32⟩ : BufTy).Contents (Elt F) :=
  (((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)) p0 ((iotaInDim S100000 32 0) : (⟨S100000, .i32⟩ : BufTy).Contents (Elt F)) : (⟨S740000, .i32⟩ : BufTy).Contents (Elt F))

/-- Ones summed into the rows the target list names, from zero: the in-degree with the self-loop. -/
def degT (p0 : (⟨S740000, .i32⟩ : BufTy).Contents (Elt F)) :
    (⟨S100000, .f32⟩ : BufTy).Contents (Elt F) :=
  (((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) ((constant S_ .f32 0x00000000#32) : (⟨S_, .f32⟩ : BufTy).Contents (Elt F)) : (⟨S100000, .f32⟩ : BufTy).Contents (Elt F)) ((broadcastInDim S740000x1 ![0] bcast_S740000_S740000x1_0 : (⟨S740000, .i32⟩ : BufTy).Contents (Elt F) → (⟨S740000x1, .i32⟩ : BufTy).Contents (Elt F)) p0 : (⟨S740000x1, .i32⟩ : BufTy).Contents (Elt F)) ((broadcastInDim S740000 ![] bcast_S_S740000 : (⟨S_, .f32⟩ : BufTy).Contents (Elt F) → (⟨S740000, .f32⟩ : BufTy).Contents (Elt F)) ((constant S_ .f32 0x3F800000#32) : (⟨S_, .f32⟩ : BufTy).Contents (Elt F)) : (⟨S740000, .f32⟩ : BufTy).Contents (Elt F)) : (⟨S100000, .f32⟩ : BufTy).Contents (Elt F))

/-- `deg^(-1/2)` where the degree is positive, zero elsewhere. -/
def disT (p0 : (⟨S100000, .f32⟩ : BufTy).Contents (Elt F)) :
    (⟨S100000, .f32⟩ : BufTy).Contents (Elt F) :=
  (select ((cmpf .ogt : (⟨S100000, .f32⟩ : BufTy).Contents (Elt F) → (⟨S100000, .f32⟩ : BufTy).Contents (Elt F) → (⟨S100000, .i1⟩ : BufTy).Contents (Elt F)) p0 ((broadcastInDim S100000 ![] bcast_S_S100000 : (⟨S_, .f32⟩ : BufTy).Contents (Elt F) → (⟨S100000, .f32⟩ : BufTy).Contents (Elt F)) ((constant S_ .f32 0x00000000#32) : (⟨S_, .f32⟩ : BufTy).Contents (Elt F)) : (⟨S100000, .f32⟩ : BufTy).Contents (Elt F)) : (⟨S100000, .i1⟩ : BufTy).Contents (Elt F)) ((Host.rsqrt : (⟨S100000, .f32⟩ : BufTy).Contents (Elt F) → (⟨S100000, .f32⟩ : BufTy).Contents (Elt F)) p0 : (⟨S100000, .f32⟩ : BufTy).Contents (Elt F)) ((broadcastInDim S100000 ![] bcast_S_S100000) (id ((constant S_ .f32 0x00000000#32) : (⟨S_, .f32⟩ : BufTy).Contents (Elt F)) : (⟨S_, .f32⟩ : BufTy).Contents (Elt F)) : (⟨S100000, .f32⟩ : BufTy).Contents (Elt F)) : (⟨S100000, .f32⟩ : BufTy).Contents (Elt F))

/-- Row numbers with a negative one wrapped around once (`v < 0 ↦ v + N`). -/
def wrapT (p0 : (⟨S740000, .i32⟩ : BufTy).Contents (Elt F)) :
    (⟨S740000, .i32⟩ : BufTy).Contents (Elt F) :=
  ((select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)) ((cmpi .slt : (⟨S740000, .i32⟩ : BufTy).Contents (Elt F) → (⟨S740000, .i32⟩ : BufTy).Contents (Elt F) → (⟨S740000, .i1⟩ : BufTy).Contents (Elt F)) p0 ((broadcastInDim S740000 ![] bcast_S_S740000 : (⟨S_, .i32⟩ : BufTy).Contents (Elt F) → (⟨S740000, .i32⟩ : BufTy).Contents (Elt F)) ((constantI S_ 32 0#32) : (⟨S_, .i32⟩ : BufTy).Contents (Elt F)) : (⟨S740000, .i32⟩ : BufTy).Contents (Elt F)) : (⟨S740000, .i1⟩ : BufTy).Contents (Elt F)) ((addi : (⟨S740000, .i32⟩ : BufTy).Contents (Elt F) → (⟨S740000, .i32⟩ : BufTy).Contents (Elt F) → (⟨S740000, .i32⟩ : BufTy).Contents (Elt F)) p0 ((broadcastInDim S740000 ![] bcast_S_S740000 : (⟨S_, .i32⟩ : BufTy).Contents (Elt F) → (⟨S740000, .i32⟩ : BufTy).Contents (Elt F)) ((constantI S_ 32 100000#32) : (⟨S_, .i32⟩ : BufTy).Contents (Elt F)) : (⟨S740000, .i32⟩ : BufTy).Contents (Elt F)) : (⟨S740000, .i32⟩ : BufTy).Contents (Elt F)) p0 : (⟨S740000, .i32⟩ : BufTy).Contents (Elt F))

/-- Per edge, the product of the two endpoints' `deg^(-1/2)`. -/
def normT (p0 : (⟨S740000, .i32⟩ : BufTy).Contents (Elt F)) (p1 : (⟨S740000, .i32⟩ : BufTy).Contents (Elt F)) (p2 : (⟨S100000, .f32⟩ : BufTy).Contents (Elt F)) :
    (⟨S740000, .f32⟩ : BufTy).Contents (Elt F) :=
  ((mulf : (⟨S740000, .f32⟩ : BufTy).Contents (Elt F) → (⟨S740000, .f32⟩ : BufTy).Contents (Elt F) → (⟨S740000, .f32⟩ : BufTy).Contents (Elt F)) (((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)) p2 ((broadcastInDim S740000x1 ![0] bcast_S740000_S740000x1_0 : (⟨S740000, .i32⟩ : BufTy).Contents (Elt F) → (⟨S740000x1, .i32⟩ : BufTy).Contents (Elt F)) (wrapT p0) : (⟨S740000x1, .i32⟩ : BufTy).Contents (Elt F)) : (⟨S740000, .f32⟩ : BufTy).Contents (Elt F)) (((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)) p2 ((broadcastInDim S740000x1 ![0] bcast_S740000_S740000x1_0 : (⟨S740000, .i32⟩ : BufTy).Contents (Elt F) → (⟨S740000x1, .i32⟩ : BufTy).Contents (Elt F)) (wrapT p1) : (⟨S740000x1, .i32⟩ : BufTy).Contents (Elt F)) : (⟨S740000, .f32⟩ : BufTy).Contents (Elt F)) : (⟨S740000, .f32⟩ : BufTy).Contents (Elt F))

/-- Per edge, the source's row scaled by the edge's normalisation. -/
def msgT (p0 : (⟨S740000, .i32⟩ : BufTy).Contents (Elt F)) (p1 : (⟨S100000x128, .f32⟩ : BufTy).Contents (Elt F)) (p2 : (⟨S740000, .f32⟩ : BufTy).Contents (Elt F)) :
    (⟨S740000x128, .f32⟩ : BufTy).Contents (Elt F) :=
  ((mulf : (⟨S740000x128, .f32⟩ : BufTy).Contents (Elt F) → (⟨S740000x128, .f32⟩ : BufTy).Contents (Elt F) → (⟨S740000x128, .f32⟩ : BufTy).Contents (Elt F)) (((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)) p1 ((broadcastInDim S740000x1 ![0] bcast_S740000_S740000x1_0 : (⟨S740000, .i32⟩ : BufTy).Contents (Elt F) → (⟨S740000x1, .i32⟩ : BufTy).Contents (Elt F)) (wrapT p0) : (⟨S740000x1, .i32⟩ : BufTy).Contents (Elt F)) : (⟨S740000x128, .f32⟩ : BufTy).Contents (Elt F)) ((broadcastInDim S740000x128 ![0, 1] bcast_S740000x1_S740000x128_0_1 : (⟨S740000x1, .f32⟩ : BufTy).Contents (Elt F) → (⟨S740000x128, .f32⟩ : BufTy).Contents (Elt F)) ((broadcastInDim S740000x1 ![0] bcast_S740000_S740000x1_0 : (⟨S740000, .f32⟩ : BufTy).Contents (Elt F) → (⟨S740000x1, .f32⟩ : BufTy).Contents (Elt F)) p2 : (⟨S740000x1, .f32⟩ : BufTy).Contents (Elt F)) : (⟨S740000x128, .f32⟩ : BufTy).Contents (Elt F)) : (⟨S740000x128, .f32⟩ : BufTy).Contents (Elt F))

/-- The edges' rows summed into their targets, from zero, plus the bias row. -/
def aggT (p0 : (⟨S740000, .i32⟩ : BufTy).Contents (Elt F)) (p1 : (⟨S740000x128, .f32⟩ : BufTy).Contents (Elt F)) (p2 : (⟨S128, .f32⟩ : BufTy).Contents (Elt F)) :
    (⟨S100000x128, .f32⟩ : BufTy).Contents (Elt F) :=
  ((addf : (⟨S100000x128, .f32⟩ : BufTy).Contents (Elt F) → (⟨S100000x128, .f32⟩ : BufTy).Contents (Elt F) → (⟨S100000x128, .f32⟩ : BufTy).Contents (Elt F)) (((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) ((constant S_ .f32 0x00000000#32) : (⟨S_, .f32⟩ : BufTy).Contents (Elt F)) : (⟨S100000x128, .f32⟩ : BufTy).Contents (Elt F)) ((broadcastInDim S740000x1 ![0] bcast_S740000_S740000x1_0 : (⟨S740000, .i32⟩ : BufTy).Contents (Elt F) → (⟨S740000x1, .i32⟩ : BufTy).Contents (Elt F)) p0 : (⟨S740000x1, .i32⟩ : BufTy).Contents (Elt F)) p1 : (⟨S100000x128, .f32⟩ : BufTy).Contents (Elt F)) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) p2 : (⟨S1x128, .f32⟩ : BufTy).Contents (Elt F)) : (⟨S100000x128, .f32⟩ : BufTy).Contents (Elt F)) : (⟨S100000x128, .f32⟩ : BufTy).Contents (Elt F))

/-- The column sums over the node axis, from zero. -/
def colSumT (p0 : (⟨S100000x128, .f32⟩ : BufTy).Contents (Elt F)) :
    (⟨S128, .f32⟩ : BufTy).Contents (Elt F) :=
  (((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) p0 ((constant S_ .f32 0x00000000#32) : (⟨S_, .f32⟩ : BufTy).Contents (Elt F)) : (⟨S128, .f32⟩ : BufTy).Contents (Elt F))

/-- The column means. -/
def meanT (p0 : (⟨S128, .f32⟩ : BufTy).Contents (Elt F)) :
    (⟨S128, .f32⟩ : BufTy).Contents (Elt F) :=
  ((Host.divf : (⟨S128, .f32⟩ : BufTy).Contents (Elt F) → (⟨S128, .f32⟩ : BufTy).Contents (Elt F) → (⟨S128, .f32⟩ : BufTy).Contents (Elt F)) p0 ((broadcastInDim S128 ![] bcast_S_S128 : (⟨S_, .f32⟩ : BufTy).Contents (Elt F) → (⟨S128, .f32⟩ : BufTy).Contents (Elt F)) ((constant S_ .f32 0x47C35000#32) : (⟨S_, .f32⟩ : BufTy).Contents (Elt F)) : (⟨S128, .f32⟩ : BufTy).Contents (Elt F)) : (⟨S128, .f32⟩ : BufTy).Contents (Elt F))

/-- The two-pass column variance: the mean of the squared deviations (over `N - 0`; the guard on that count keeps the quotient). -/
def varT (p0 : (⟨S100000x128, .f32⟩ : BufTy).Contents (Elt F)) :
    (⟨S128, .f32⟩ : BufTy).Contents (Elt F) :=
  ((fun p a b => select (broadcastInDim S128 ![] bcast_S_S128 p) a b) ((cmpf .ogt) (subf ((constant S_ .f32 0x47C35000#32) : (⟨S_, .f32⟩ : BufTy).Contents (Elt F)) ((sitofp .f32) ((constantI S_ 32 0#32) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) (Host.divf ((fun x v => Host.reduceAdd x v reducesTo_S100000x128_S128_d0 h_S_) (mulf (subf p0 ((broadcastInDim S100000x128 ![0, 1] bcast_S1x128_S100000x128_0_1) (Host.divf ((broadcastInDim S1x128 ![1] bcast_S128_S1x128_1) ((fun x v => Host.reduceAdd x v reducesTo_S100000x128_S128_d0 h_S_) p0 ((constant S_ .f32 0x00000000#32) : (⟨S_, .f32⟩ : BufTy).Contents (Elt F)) : (⟨S128, .f32⟩ : BufTy).Contents (Elt F)) : (⟨S1x128, .f32⟩ : BufTy).Contents (Elt F)) ((broadcastInDim S1x128 ![] bcast_S_S1x128) ((constant S_ .f32 0x47C35000#32) : (⟨S_, .f32⟩ : BufTy).Contents (Elt F)) : (⟨S1x128, .f32⟩ : BufTy).Contents (Elt F)) : (⟨S1x128, .f32⟩ : BufTy).Contents (Elt F)) : (⟨S100000x128, .f32⟩ : BufTy).Contents (Elt F)) : (⟨S100000x128, .f32⟩ : BufTy).Contents (Elt F)) (subf p0 ((broadcastInDim S100000x128 ![0, 1] bcast_S1x128_S100000x128_0_1) (Host.divf ((broadcastInDim S1x128 ![1] bcast_S128_S1x128_1) ((fun x v => Host.reduceAdd x v reducesTo_S100000x128_S128_d0 h_S_) p0 ((constant S_ .f32 0x00000000#32) : (⟨S_, .f32⟩ : BufTy).Contents (Elt F)) : (⟨S128, .f32⟩ : BufTy).Contents (Elt F)) : (⟨S1x128, .f32⟩ : BufTy).Contents (Elt F)) ((broadcastInDim S1x128 ![] bcast_S_S1x128) ((constant S_ .f32 0x47C35000#32) : (⟨S_, .f32⟩ : BufTy).Contents (Elt F)) : (⟨S1x128, .f32⟩ : BufTy).Contents (Elt F)) : (⟨S1x128, .f32⟩ : BufTy).Contents (Elt F)) : (⟨S100000x128, .f32⟩ : BufTy).Contents (Elt F)) : (⟨S100000x128, .f32⟩ : BufTy).Contents (Elt F)) : (⟨S100000x128, .f32⟩ : BufTy).Contents (Elt F)) ((constant S_ .f32 0x00000000#32) : (⟨S_, .f32⟩ : BufTy).Contents (Elt F)) : (⟨S128, .f32⟩ : BufTy).Contents (Elt F)) ((broadcastInDim S128 ![] bcast_S_S128) (subf ((constant S_ .f32 0x47C35000#32) : (⟨S_, .f32⟩ : BufTy).Contents (Elt F)) ((sitofp .f32) ((constantI S_ 32 0#32) : (⟨S_, .i32⟩ : BufTy).Contents (Elt F)) : (⟨S_, .f32⟩ : BufTy).Contents (Elt F)) : (⟨S_, .f32⟩ : BufTy).Contents (Elt F)) : (⟨S128, .f32⟩ : BufTy).Contents (Elt F)) : (⟨S128, .f32⟩ : BufTy).Contents (Elt F)) ((broadcastInDim S128 ![] bcast_S_S128) (id ((constant S_ .f32 0x7FC00000#32) : (⟨S_, .f32⟩ : BufTy).Contents (Elt F)) : (⟨S_, .f32⟩ : BufTy).Contents (Elt F)) : (⟨S128, .f32⟩ : BufTy).Contents (Elt F)) : (⟨S128, .f32⟩ : BufTy).Contents (Elt F))

/-- Normalise by the column mean and variance, scale, shift, rectify. -/
def bnReluT (p0 : (⟨S100000x128, .f32⟩ : BufTy).Contents (Elt F)) (p1 : (⟨S128, .f32⟩ : BufTy).Contents (Elt F)) (p2 : (⟨S128, .f32⟩ : BufTy).Contents (Elt F)) (p3 : (⟨S128, .f32⟩ : BufTy).Contents (Elt F)) (p4 : (⟨S128, .f32⟩ : BufTy).Contents (Elt F)) :
    (⟨S100000x128, .f32⟩ : BufTy).Contents (Elt F) :=
  (maximumf ((addf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((subf : (⟨S100000x128, .f32⟩ : BufTy).Contents (Elt F) → (⟨S100000x128, .f32⟩ : BufTy).Contents (Elt F) → (⟨S100000x128, .f32⟩ : BufTy).Contents (Elt F)) p0 ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) p1 : (⟨S1x128, .f32⟩ : BufTy).Contents (Elt F)) : (⟨S100000x128, .f32⟩ : BufTy).Contents (Elt F)) : (⟨S100000x128, .f32⟩ : BufTy).Contents (Elt F)) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) p2 ((broadcastInDim S128 ![] bcast_S_S128 : (⟨S_, .f32⟩ : BufTy).Contents (Elt F) → (⟨S128, .f32⟩ : BufTy).Contents (Elt F)) ((constant S_ .f32 0x3727C5AC#32) : (⟨S_, .f32⟩ : BufTy).Contents (Elt F)) : (⟨S128, .f32⟩ : BufTy).Contents (Elt F)) : (⟨S128, .f32⟩ : BufTy).Contents (Elt F)) : (⟨S128, .f32⟩ : BufTy).Contents (Elt F)) : (⟨S1x128, .f32⟩ : BufTy).Contents (Elt F)) : (⟨S100000x128, .f32⟩ : BufTy).Contents (Elt F)) : (⟨S100000x128, .f32⟩ : BufTy).Contents (Elt F)) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) p3 : (⟨S1x128, .f32⟩ : BufTy).Contents (Elt F)) : (⟨S100000x128, .f32⟩ : BufTy).Contents (Elt F)) : (⟨S100000x128, .f32⟩ : BufTy).Contents (Elt F)) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) p4 : (⟨S1x128, .f32⟩ : BufTy).Contents (Elt F)) : (⟨S100000x128, .f32⟩ : BufTy).Contents (Elt F)) : (⟨S100000x128, .f32⟩ : BufTy).Contents (Elt F)) ((broadcastInDim S100000x128 ![] bcast_S_S100000x128) ((constant S_ .f32 0x00000000#32) : (⟨S_, .f32⟩ : BufTy).Contents (Elt F)) : (⟨S100000x128, .f32⟩ : BufTy).Contents (Elt F)) : (⟨S100000x128, .f32⟩ : BufTy).Contents (Elt F))

/-- A later layer's dense map `h · w`. -/
def denseT (p0 : (⟨S100000x128, .f32⟩ : BufTy).Contents (Elt F)) (p1 : (⟨S128x128, .f32⟩ : BufTy).Contents (Elt F)) :
    (⟨S100000x128, .f32⟩ : BufTy).Contents (Elt F) :=
  (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) p0 p1 : (⟨S100000x128, .f32⟩ : BufTy).Contents (Elt F))

/-- Ones summed into the graph numbers, from zero: each graph's node count. -/
def cntT (p0 : (⟨S100000, .i32⟩ : BufTy).Contents (Elt F)) :
    (⟨S256, .f32⟩ : BufTy).Contents (Elt F) :=
  (((fun x i u => Host.scatterAdd scatter_S256_S100000x1_S100000_n_0_0_1 x i u) : (⟨S256, .f32⟩ : BufTy).Contents (Elt F) → (⟨S100000x1, .i32⟩ : BufTy).Contents (Elt F) → (⟨S100000, .f32⟩ : BufTy).Contents (Elt F) → (⟨S256, .f32⟩ : BufTy).Contents (Elt F)) ((broadcastInDim S256 ![] bcast_S_S256 : (⟨S_, .f32⟩ : BufTy).Contents (Elt F) → (⟨S256, .f32⟩ : BufTy).Contents (Elt F)) ((constant S_ .f32 0x00000000#32) : (⟨S_, .f32⟩ : BufTy).Contents (Elt F)) : (⟨S256, .f32⟩ : BufTy).Contents (Elt F)) ((broadcastInDim S100000x1 ![0] bcast_S100000_S100000x1_0 : (⟨S100000, .i32⟩ : BufTy).Contents (Elt F) → (⟨S100000x1, .i32⟩ : BufTy).Contents (Elt F)) p0 : (⟨S100000x1, .i32⟩ : BufTy).Contents (Elt F)) ((broadcastInDim S100000 ![] bcast_S_S100000 : (⟨S_, .f32⟩ : BufTy).Contents (Elt F) → (⟨S100000, .f32⟩ : BufTy).Contents (Elt F)) ((constant S_ .f32 0x3F800000#32) : (⟨S_, .f32⟩ : BufTy).Contents (Elt F)) : (⟨S100000, .f32⟩ : BufTy).Contents (Elt F)) : (⟨S256, .f32⟩ : BufTy).Contents (Elt F))

/-- The rows summed into their graph numbers, from zero. -/
def sumsT (p0 : (⟨S100000, .i32⟩ : BufTy).Contents (Elt F)) (p1 : (⟨S100000x128, .f32⟩ : BufTy).Contents (Elt F)) :
    (⟨S256x128, .f32⟩ : BufTy).Contents (Elt F) :=
  (((fun x i u => Host.scatterAdd scatter_S256x128_S100000x1_S100000x128_1_0_0_1 x i u) : (⟨S256x128, .f32⟩ : BufTy).Contents (Elt F) → (⟨S100000x1, .i32⟩ : BufTy).Contents (Elt F) → (⟨S100000x128, .f32⟩ : BufTy).Contents (Elt F) → (⟨S256x128, .f32⟩ : BufTy).Contents (Elt F)) ((broadcastInDim S256x128 ![] bcast_S_S256x128 : (⟨S_, .f32⟩ : BufTy).Contents (Elt F) → (⟨S256x128, .f32⟩ : BufTy).Contents (Elt F)) ((constant S_ .f32 0x00000000#32) : (⟨S_, .f32⟩ : BufTy).Contents (Elt F)) : (⟨S256x128, .f32⟩ : BufTy).Contents (Elt F)) ((broadcastInDim S100000x1 ![0] bcast_S100000_S100000x1_0 : (⟨S100000, .i32⟩ : BufTy).Contents (Elt F) → (⟨S100000x1, .i32⟩ : BufTy).Contents (Elt F)) p0 : (⟨S100000x1, .i32⟩ : BufTy).Contents (Elt F)) p1 : (⟨S256x128, .f32⟩ : BufTy).Contents (Elt F))

/-- The graph sums over the counts (a count below one read as one). -/
def poolT (p0 : (⟨S256, .f32⟩ : BufTy).Contents (Elt F)) (p1 : (⟨S256x128, .f32⟩ : BufTy).Contents (Elt F)) :
    (⟨S256x128, .f32⟩ : BufTy).Contents (Elt F) :=
  ((Host.divf : (⟨S256x128, .f32⟩ : BufTy).Contents (Elt F) → (⟨S256x128, .f32⟩ : BufTy).Contents (Elt F) → (⟨S256x128, .f32⟩ : BufTy).Contents (Elt F)) p1 ((broadcastInDim S256x128 ![0, 1] bcast_S256x1_S256x128_0_1 : (⟨S256x1, .f32⟩ : BufTy).Contents (Elt F) → (⟨S256x128, .f32⟩ : BufTy).Contents (Elt F)) ((broadcastInDim S256x1 ![0] bcast_S256_S256x1_0 : (⟨S256, .f32⟩ : BufTy).Contents (Elt F) → (⟨S256x1, .f32⟩ : BufTy).Contents (Elt F)) ((maximumf : (⟨S256, .f32⟩ : BufTy).Contents (Elt F) → (⟨S256, .f32⟩ : BufTy).Contents (Elt F) → (⟨S256, .f32⟩ : BufTy).Contents (Elt F)) p0 ((broadcastInDim S256 ![] bcast_S_S256 : (⟨S_, .f32⟩ : BufTy).Contents (Elt F) → (⟨S256, .f32⟩ : BufTy).Contents (Elt F)) ((constant S_ .f32 0x3F800000#32) : (⟨S_, .f32⟩ : BufTy).Contents (Elt F)) : (⟨S256, .f32⟩ : BufTy).Contents (Elt F)) : (⟨S256, .f32⟩ : BufTy).Contents (Elt F)) : (⟨S256x1, .f32⟩ : BufTy).Contents (Elt F)) : (⟨S256x128, .f32⟩ : BufTy).Contents (Elt F)) : (⟨S256x128, .f32⟩ : BufTy).Contents (Elt F))

/-- The pooled row written twice, side by side. -/
def dblT (p0 : (⟨S256x128, .f32⟩ : BufTy).Contents (Elt F)) :
    (⟨S256x256, .f32⟩ : BufTy).Contents (Elt F) :=
  (((fun a b => concatenate S256x256 1 [⟨S256x128, a⟩, ⟨S256x128, b⟩] concatenates_S256x128_S256x128_S256x256_d1) : (⟨S256x128, .f32⟩ : BufTy).Contents (Elt F) → (⟨S256x128, .f32⟩ : BufTy).Contents (Elt F) → (⟨S256x256, .f32⟩ : BufTy).Contents (Elt F)) p0 p0 : (⟨S256x256, .f32⟩ : BufTy).Contents (Elt F))

/-- The first dense layer of the head, rectified. -/
def hidT (p0 : (⟨S256x256, .f32⟩ : BufTy).Contents (Elt F)) (p1 : (⟨S256x128, .f32⟩ : BufTy).Contents (Elt F)) (p2 : (⟨S128, .f32⟩ : BufTy).Contents (Elt F)) :
    (⟨S256x128, .f32⟩ : BufTy).Contents (Elt F) :=
  (maximumf ((addf : (⟨S256x128, .f32⟩ : BufTy).Contents (Elt F) → (⟨S256x128, .f32⟩ : BufTy).Contents (Elt F) → (⟨S256x128, .f32⟩ : BufTy).Contents (Elt F)) (((fun l r => Host.dotGeneral dot_S256x256_S256x128_S256x128_1_0_0_1_n_n none l r) : (⟨S256x256, .f32⟩ : BufTy).Contents (Elt F) → (⟨S256x128, .f32⟩ : BufTy).Contents (Elt F) → (⟨S256x128, .f32⟩ : BufTy).Contents (Elt F)) p0 p1 : (⟨S256x128, .f32⟩ : BufTy).Contents (Elt F)) ((broadcastInDim S256x128 ![0, 1] bcast_S1x128_S256x128_0_1 : (⟨S1x128, .f32⟩ : BufTy).Contents (Elt F) → (⟨S256x128, .f32⟩ : BufTy).Contents (Elt F)) ((broadcastInDim S1x128 ![1] bcast_S128_S1x128_1 : (⟨S128, .f32⟩ : BufTy).Contents (Elt F) → (⟨S1x128, .f32⟩ : BufTy).Contents (Elt F)) p2 : (⟨S1x128, .f32⟩ : BufTy).Contents (Elt F)) : (⟨S256x128, .f32⟩ : BufTy).Contents (Elt F)) : (⟨S256x128, .f32⟩ : BufTy).Contents (Elt F)) ((broadcastInDim S256x128 ![] bcast_S_S256x128) ((constant S_ .f32 0x00000000#32) : (⟨S_, .f32⟩ : BufTy).Contents (Elt F)) : (⟨S256x128, .f32⟩ : BufTy).Contents (Elt F)) : (⟨S256x128, .f32⟩ : BufTy).Contents (Elt F))

/-- The second dense layer of the head. -/
def outT (p0 : (⟨S256x128, .f32⟩ : BufTy).Contents (Elt F)) (p1 : (⟨S128x64, .f32⟩ : BufTy).Contents (Elt F)) (p2 : (⟨S64, .f32⟩ : BufTy).Contents (Elt F)) :
    (⟨S256x64, .f32⟩ : BufTy).Contents (Elt F) :=
  ((addf : (⟨S256x64, .f32⟩ : BufTy).Contents (Elt F) → (⟨S256x64, .f32⟩ : BufTy).Contents (Elt F) → (⟨S256x64, .f32⟩ : BufTy).Contents (Elt F)) (((fun l r => Host.dotGeneral dot_S256x128_S128x64_S256x64_1_0_0_1_n_n none l r) : (⟨S256x128, .f32⟩ : BufTy).Contents (Elt F) → (⟨S128x64, .f32⟩ : BufTy).Contents (Elt F) → (⟨S256x64, .f32⟩ : BufTy).Contents (Elt F)) p0 p1 : (⟨S256x64, .f32⟩ : BufTy).Contents (Elt F)) ((broadcastInDim S256x64 ![0, 1] bcast_S1x64_S256x64_0_1 : (⟨S1x64, .f32⟩ : BufTy).Contents (Elt F) → (⟨S256x64, .f32⟩ : BufTy).Contents (Elt F)) ((broadcastInDim S1x64 ![1] bcast_S64_S1x64_1 : (⟨S64, .f32⟩ : BufTy).Contents (Elt F) → (⟨S1x64, .f32⟩ : BufTy).Contents (Elt F)) p2 : (⟨S1x64, .f32⟩ : BufTy).Contents (Elt F)) : (⟨S256x64, .f32⟩ : BufTy).Contents (Elt F)) : (⟨S256x64, .f32⟩ : BufTy).Contents (Elt F))

/-- The per-edge normalisation from the two endpoint lists. -/
def normL (src dst : (⟨S640000, .i32⟩ : BufTy).Contents (Elt F)) : (⟨S740000, .f32⟩ : BufTy).Contents (Elt F) :=
  normT (catT src) (catT dst) (disT (degT (catT dst)))

/-- A layer's aggregate from the endpoint lists, the dense map's output and the bias. -/
def aggL (src dst : (⟨S640000, .i32⟩ : BufTy).Contents (Elt F)) (hl : (⟨S100000x128, .f32⟩ : BufTy).Contents (Elt F)) (b : (⟨S128, .f32⟩ : BufTy).Contents (Elt F)) : (⟨S100000x128, .f32⟩ : BufTy).Contents (Elt F) :=
  aggT (catT dst) (msgT (catT src) hl (normL src dst)) b

/-- One layer: the aggregate, normalised over the node axis, scaled, shifted and rectified. -/
def layerT (src dst : (⟨S640000, .i32⟩ : BufTy).Contents (Elt F)) (hl : (⟨S100000x128, .f32⟩ : BufTy).Contents (Elt F)) (b g beta : (⟨S128, .f32⟩ : BufTy).Contents (Elt F)) : (⟨S100000x128, .f32⟩ : BufTy).Contents (Elt F) :=
  bnReluT (aggL src dst hl b) (meanT (colSumT (aggL src dst hl b))) (varT (aggL src dst hl b)) g beta

/-- The first layer's output. -/
def h1T (a0 : (⟨S100000x20, .f32⟩ : BufTy).Contents (Elt F)) (a1 : (⟨S2x640000, .i32⟩ : BufTy).Contents (Elt F)) (a3 : (⟨S20x128, .f32⟩ : BufTy).Contents (Elt F)) (a4 : (⟨S128, .f32⟩ : BufTy).Contents (Elt F)) (a9 : (⟨S128, .f32⟩ : BufTy).Contents (Elt F)) (a10 : (⟨S128, .f32⟩ : BufTy).Contents (Elt F)) : (⟨S100000x128, .f32⟩ : BufTy).Contents (Elt F) :=
  layerT (row0T a1) (row1T a1) (dense0T a0 a3) a4 a9 a10

/-- The second layer's output. -/
def h2T (a0 : (⟨S100000x20, .f32⟩ : BufTy).Contents (Elt F)) (a1 : (⟨S2x640000, .i32⟩ : BufTy).Contents (Elt F)) (a3 : (⟨S20x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a9 : (⟨S128, .f32⟩ : BufTy).Contents (Elt F)) (a10 : (⟨S128, .f32⟩ : BufTy).Contents (Elt F)) (a11 : (⟨S128, .f32⟩ : BufTy).Contents (Elt F)) (a12 : (⟨S128, .f32⟩ : BufTy).Contents (Elt F)) : (⟨S100000x128, .f32⟩ : BufTy).Contents (Elt F) :=
  layerT (row0T a1) (row1T a1) (denseT (h1T a0 a1 a3 a4 a9 a10) a5) a6 a11 a12

/-- The third layer's output. -/
def h3T (a0 : (⟨S100000x20, .f32⟩ : BufTy).Contents (Elt F)) (a1 : (⟨S2x640000, .i32⟩ : BufTy).Contents (Elt F)) (a3 : (⟨S20x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128x128, .f32⟩ : BufTy).Contents (Elt F)) (a8 : (⟨S128, .f32⟩ : BufTy).Contents (Elt F)) (a9 : (⟨S128, .f32⟩ : BufTy).Contents (Elt F)) (a10 : (⟨S128, .f32⟩ : BufTy).Contents (Elt F)) (a11 : (⟨S128, .f32⟩ : BufTy).Contents (Elt F)) (a12 : (⟨S128, .f32⟩ : BufTy).Contents (Elt F)) (a13 : (⟨S128, .f32⟩ : BufTy).Contents (Elt F)) (a14 : (⟨S128, .f32⟩ : BufTy).Contents (Elt F)) : (⟨S100000x128, .f32⟩ : BufTy).Contents (Elt F) :=
  layerT (row0T a1) (row1T a1) (denseT (h2T a0 a1 a3 a4 a5 a6 a9 a10 a11 a12) a7) a8 a13 a14

/-- The head: mean pooling by graph number, the pooled row doubled, two dense layers. -/
def tailT (h : (⟨S100000x128, .f32⟩ : BufTy).Contents (Elt F)) (a2 : (⟨S100000, .i32⟩ : BufTy).Contents (Elt F)) (a15 : (⟨S256x128, .f32⟩ : BufTy).Contents (Elt F)) (a16 : (⟨S128, .f32⟩ : BufTy).Contents (Elt F)) (a17 : (⟨S128x64, .f32⟩ : BufTy).Contents (Elt F)) (a18 : (⟨S64, .f32⟩ : BufTy).Contents (Elt F)) : (⟨S256x64, .f32⟩ : BufTy).Contents (Elt F) :=
  outT (hidT (dblT (poolT (cntT a2) (sumsT a2 h))) a15 a16) a17 a18

/-- @main's result as a function of its nineteen arguments. -/
def refTerm (a0 : (⟨S100000x20, .f32⟩ : BufTy).Contents (Elt F)) (a1 : (⟨S2x640000, .i32⟩ : BufTy).Contents (Elt F)) (a2 : (⟨S100000, .i32⟩ : BufTy).Contents (Elt F)) (a3 : (⟨S20x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128x128, .f32⟩ : BufTy).Contents (Elt F)) (a8 : (⟨S128, .f32⟩ : BufTy).Contents (Elt F)) (a9 : (⟨S128, .f32⟩ : BufTy).Contents (Elt F)) (a10 : (⟨S128, .f32⟩ : BufTy).Contents (Elt F)) (a11 : (⟨S128, .f32⟩ : BufTy).Contents (Elt F)) (a12 : (⟨S128, .f32⟩ : BufTy).Contents (Elt F)) (a13 : (⟨S128, .f32⟩ : BufTy).Contents (Elt F)) (a14 : (⟨S128, .f32⟩ : BufTy).Contents (Elt F)) (a15 : (⟨S256x128, .f32⟩ : BufTy).Contents (Elt F)) (a16 : (⟨S128, .f32⟩ : BufTy).Contents (Elt F)) (a17 : (⟨S128x64, .f32⟩ : BufTy).Contents (Elt F)) (a18 : (⟨S64, .f32⟩ : BufTy).Contents (Elt F)) : (⟨S256x64, .f32⟩ : BufTy).Contents (Elt F) :=
  tailT (h3T a0 a1 a3 a4 a5 a6 a7 a8 a9 a10 a11 a12 a13 a14) a2 a15 a16 a17 a18

end Cert.ReferenceIdeal.Hand

end
-- ==== Proof.Ref.Win1.lean ====
/-
  The first layer's stretches read back: after each, the buffer of every stage a later stretch reads holds that stage's
  function of the contents the stretch started from.
-/
import proofs.«115763_j74259984548099_2_alg».proof.Proof.Ref.Stretch
import proofs.«115763_j74259984548099_2_alg».proof.Proof.Ref.Terms

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem S0_v6 (V : Valuation τ sig (Elt F)) :
    after S0 V (main_v6 : DevRef τ sig) = catT (row0T (V (main_arg1 : DevRef τ sig))) := by
  after_results_simp
  rfl

set_option maxRecDepth 8192 in
set_option maxHeartbeats 4000000 in
theorem S0_v4 (V : Valuation τ sig (Elt F)) :
    after S0 V (main_v4 : DevRef τ sig) = dense0T (V (main_arg0 : DevRef τ sig)) (V (main_arg3 : DevRef τ sig)) := by
  after_results_simp
  rfl

set_option maxRecDepth 8192 in
set_option maxHeartbeats 4000000 in
theorem S0_v30 (V : Valuation τ sig (Elt F)) :
    after S0 V (main_v30 : DevRef τ sig) = normT (catT (row0T (V (main_arg1 : DevRef τ sig)))) (catT (row1T (V (main_arg1 : DevRef τ sig)))) (disT (degT (catT (row1T (V (main_arg1 : DevRef τ sig)))))) := by
  after_results_simp
  rfl

set_option maxRecDepth 8192 in
set_option maxHeartbeats 4000000 in
theorem S0_v7 (V : Valuation τ sig (Elt F)) :
    after S0 V (main_v7 : DevRef τ sig) = catT (row1T (V (main_arg1 : DevRef τ sig))) := by
  after_results_simp
  rfl

set_option maxRecDepth 8192 in
set_option maxHeartbeats 4000000 in
theorem S0_v1 (V : Valuation τ sig (Elt F)) :
    after S0 V (main_v1 : DevRef τ sig) = row0T (V (main_arg1 : DevRef τ sig)) := by
  after_results_simp
  rfl

set_option maxRecDepth 8192 in
set_option maxHeartbeats 4000000 in
theorem S0_v3 (V : Valuation τ sig (Elt F)) :
    after S0 V (main_v3 : DevRef τ sig) = row1T (V (main_arg1 : DevRef τ sig)) := by
  after_results_simp
  rfl

set_option maxRecDepth 8192 in
set_option maxHeartbeats 4000000 in
theorem S1_v46 (V : Valuation τ sig (Elt F)) :
    after S1 V (main_v46 : DevRef τ sig) = aggT (V (main_v7 : DevRef τ sig)) (msgT (V (main_v6 : DevRef τ sig)) (V (main_v4 : DevRef τ sig)) (V (main_v30 : DevRef τ sig))) (V (main_arg4 : DevRef τ sig)) := by
  after_results_simp
  rfl

set_option maxRecDepth 8192 in
set_option maxHeartbeats 4000000 in
theorem S2_v66 (V : Valuation τ sig (Elt F)) :
    after S2 V (main_v66 : DevRef τ sig) = bnReluT (V (main_v46 : DevRef τ sig)) (meanT (colSumT (V (main_v46 : DevRef τ sig)))) (varT (V (main_v46 : DevRef τ sig))) (V (main_arg9 : DevRef τ sig)) (V (main_arg10 : DevRef τ sig)) := by
  after_results_simp
  rfl

end Cert.ReferenceIdeal.Hand

end
-- ==== Proof.Ref.Win2.lean ====
/-
  The second layer's stretches read back: after each, the buffer of every stage a later stretch reads holds that stage's
  function of the contents the stretch started from.
-/
import proofs.«115763_j74259984548099_2_alg».proof.Proof.Ref.Stretch
import proofs.«115763_j74259984548099_2_alg».proof.Proof.Ref.Terms

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem S3_v69 (V : Valuation τ sig (Elt F)) :
    after S3 V (main_v69 : DevRef τ sig) = catT (V (main_v1 : DevRef τ sig)) := by
  after_results_simp
  rfl

set_option maxRecDepth 8192 in
set_option maxHeartbeats 4000000 in
theorem S3_v67 (V : Valuation τ sig (Elt F)) :
    after S3 V (main_v67 : DevRef τ sig) = denseT (V (main_v66 : DevRef τ sig)) (V (main_arg5 : DevRef τ sig)) := by
  after_results_simp
  rfl

set_option maxRecDepth 8192 in
set_option maxHeartbeats 4000000 in
theorem S3_v93 (V : Valuation τ sig (Elt F)) :
    after S3 V (main_v93 : DevRef τ sig) = normT (catT (V (main_v1 : DevRef τ sig))) (catT (V (main_v3 : DevRef τ sig))) (disT (degT (catT (V (main_v3 : DevRef τ sig))))) := by
  after_results_simp
  rfl

set_option maxRecDepth 8192 in
set_option maxHeartbeats 4000000 in
theorem S3_v70 (V : Valuation τ sig (Elt F)) :
    after S3 V (main_v70 : DevRef τ sig) = catT (V (main_v3 : DevRef τ sig)) := by
  after_results_simp
  rfl

set_option maxRecDepth 8192 in
set_option maxHeartbeats 4000000 in
theorem S4_v109 (V : Valuation τ sig (Elt F)) :
    after S4 V (main_v109 : DevRef τ sig) = aggT (V (main_v70 : DevRef τ sig)) (msgT (V (main_v69 : DevRef τ sig)) (V (main_v67 : DevRef τ sig)) (V (main_v93 : DevRef τ sig))) (V (main_arg6 : DevRef τ sig)) := by
  after_results_simp
  rfl

set_option maxRecDepth 8192 in
set_option maxHeartbeats 4000000 in
theorem S5_v129 (V : Valuation τ sig (Elt F)) :
    after S5 V (main_v129 : DevRef τ sig) = bnReluT (V (main_v109 : DevRef τ sig)) (meanT (colSumT (V (main_v109 : DevRef τ sig)))) (varT (V (main_v109 : DevRef τ sig))) (V (main_arg11 : DevRef τ sig)) (V (main_arg12 : DevRef τ sig)) := by
  after_results_simp
  rfl

end Cert.ReferenceIdeal.Hand

end
-- ==== Proof.Ref.Win3.lean ====
/-
  The third layer's stretches read back: after each, the buffer of every stage a later stretch reads holds that stage's
  function of the contents the stretch started from.
-/
import proofs.«115763_j74259984548099_2_alg».proof.Proof.Ref.Stretch
import proofs.«115763_j74259984548099_2_alg».proof.Proof.Ref.Terms

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem S6_v132 (V : Valuation τ sig (Elt F)) :
    after S6 V (main_v132 : DevRef τ sig) = catT (V (main_v1 : DevRef τ sig)) := by
  after_results_simp
  rfl

set_option maxRecDepth 8192 in
set_option maxHeartbeats 4000000 in
theorem S6_v130 (V : Valuation τ sig (Elt F)) :
    after S6 V (main_v130 : DevRef τ sig) = denseT (V (main_v129 : DevRef τ sig)) (V (main_arg7 : DevRef τ sig)) := by
  after_results_simp
  rfl

set_option maxRecDepth 8192 in
set_option maxHeartbeats 4000000 in
theorem S6_v156 (V : Valuation τ sig (Elt F)) :
    after S6 V (main_v156 : DevRef τ sig) = normT (catT (V (main_v1 : DevRef τ sig))) (catT (V (main_v3 : DevRef τ sig))) (disT (degT (catT (V (main_v3 : DevRef τ sig))))) := by
  after_results_simp
  rfl

set_option maxRecDepth 8192 in
set_option maxHeartbeats 4000000 in
theorem S6_v133 (V : Valuation τ sig (Elt F)) :
    after S6 V (main_v133 : DevRef τ sig) = catT (V (main_v3 : DevRef τ sig)) := by
  after_results_simp
  rfl

set_option maxRecDepth 8192 in
set_option maxHeartbeats 4000000 in
theorem S7_v172 (V : Valuation τ sig (Elt F)) :
    after S7 V (main_v172 : DevRef τ sig) = aggT (V (main_v133 : DevRef τ sig)) (msgT (V (main_v132 : DevRef τ sig)) (V (main_v130 : DevRef τ sig)) (V (main_v156 : DevRef τ sig))) (V (main_arg8 : DevRef τ sig)) := by
  after_results_simp
  rfl

set_option maxRecDepth 8192 in
set_option maxHeartbeats 4000000 in
theorem S8_v192 (V : Valuation τ sig (Elt F)) :
    after S8 V (main_v192 : DevRef τ sig) = bnReluT (V (main_v172 : DevRef τ sig)) (meanT (colSumT (V (main_v172 : DevRef τ sig)))) (varT (V (main_v172 : DevRef τ sig))) (V (main_arg13 : DevRef τ sig)) (V (main_arg14 : DevRef τ sig)) := by
  after_results_simp
  rfl

end Cert.ReferenceIdeal.Hand

end
-- ==== Proof.Ref.WinT.lean ====
/-
  The pooling head's stretch read back: after it the result buffer holds the head's function of the third layer's
  output and the head's arguments.
-/
import proofs.«115763_j74259984548099_2_alg».proof.Proof.Ref.Stretch
import proofs.«115763_j74259984548099_2_alg».proof.Proof.Ref.Terms

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem S9_v214 (V : Valuation τ sig (Elt F)) :
    after S9 V (main_v214 : DevRef τ sig) = outT (hidT (dblT (poolT (cntT (V (main_arg2 : DevRef τ sig))) (sumsT (V (main_arg2 : DevRef τ sig)) (V (main_v192 : DevRef τ sig))))) (V (main_arg15 : DevRef τ sig)) (V (main_arg16 : DevRef τ sig))) (V (main_arg17 : DevRef τ sig)) (V (main_arg18 : DevRef τ sig)) := by
  after_results_simp
  rfl

end Cert.ReferenceIdeal.Hand

end
-- ==== Proof.Ref.Run.lean ====
/-
  The reference program's run: @main is the line of its 341 operations, the line run from any memory leaves in each
  buffer the fold of the operations' results, and that fold at the result buffer is `refTerm` of the nineteen arguments
  (stretch by stretch, each live stage at its function of the arguments), the arguments' buffers as they were.
-/
import proofs.«115763_j74259984548099_2_alg».proof.Proof.Ref.Ops
import proofs.«115763_j74259984548099_2_alg».proof.Proof.Ref.Win1
import proofs.«115763_j74259984548099_2_alg».proof.Proof.Ref.Win2
import proofs.«115763_j74259984548099_2_alg».proof.Proof.Ref.Win3
import proofs.«115763_j74259984548099_2_alg».proof.Proof.Ref.WinT

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The two cuts of the line are one list. -/
theorem ops_eq : (ops : List (HloOp τ sig (Elt F))) = S0 ++ S1 ++ S2 ++ S3 ++ S4 ++ S5 ++ S6 ++ S7 ++ S8 ++ S9 := rfl

theorem after_ops (V : Valuation τ sig (Elt F)) : after ops V = (after S9 (after S8 (after S7 (after S6 (after S5 (after S4 (after S3 (after S2 (after S1 (after S0 V)))))))))) := by
  rw [ops_eq]; simp only [after_append]

theorem at1_arg (r : Ref sig .tc) (hr : r.idx.val < 19) (V : Valuation τ sig (Elt F)) :
    (after S0 V) (Proc.devRef .tc r) = V (Proc.devRef .tc r) := by
  rw [S0_keep r (Or.inl (by omega))]

theorem at2_arg (r : Ref sig .tc) (hr : r.idx.val < 19) (V : Valuation τ sig (Elt F)) :
    (after S1 (after S0 V)) (Proc.devRef .tc r) = V (Proc.devRef .tc r) := by
  rw [S1_keep r (Or.inl (by omega)), at1_arg r hr]

theorem at3_arg (r : Ref sig .tc) (hr : r.idx.val < 19) (V : Valuation τ sig (Elt F)) :
    (after S2 (after S1 (after S0 V))) (Proc.devRef .tc r) = V (Proc.devRef .tc r) := by
  rw [S2_keep r (Or.inl (by omega)), at2_arg r hr]

theorem at4_arg (r : Ref sig .tc) (hr : r.idx.val < 19) (V : Valuation τ sig (Elt F)) :
    (after S3 (after S2 (after S1 (after S0 V)))) (Proc.devRef .tc r) = V (Proc.devRef .tc r) := by
  rw [S3_keep r (Or.inl (by omega)), at3_arg r hr]

theorem at5_arg (r : Ref sig .tc) (hr : r.idx.val < 19) (V : Valuation τ sig (Elt F)) :
    (after S4 (after S3 (after S2 (after S1 (after S0 V))))) (Proc.devRef .tc r) = V (Proc.devRef .tc r) := by
  rw [S4_keep r (Or.inl (by omega)), at4_arg r hr]

theorem at6_arg (r : Ref sig .tc) (hr : r.idx.val < 19) (V : Valuation τ sig (Elt F)) :
    (after S5 (after S4 (after S3 (after S2 (after S1 (after S0 V)))))) (Proc.devRef .tc r) = V (Proc.devRef .tc r) := by
  rw [S5_keep r (Or.inl (by omega)), at5_arg r hr]

theorem at7_arg (r : Ref sig .tc) (hr : r.idx.val < 19) (V : Valuation τ sig (Elt F)) :
    (after S6 (after S5 (after S4 (after S3 (after S2 (after S1 (after S0 V))))))) (Proc.devRef .tc r) = V (Proc.devRef .tc r) := by
  rw [S6_keep r (Or.inl (by omega)), at6_arg r hr]

theorem at8_arg (r : Ref sig .tc) (hr : r.idx.val < 19) (V : Valuation τ sig (Elt F)) :
    (after S7 (after S6 (after S5 (after S4 (after S3 (after S2 (after S1 (after S0 V)))))))) (Proc.devRef .tc r) = V (Proc.devRef .tc r) := by
  rw [S7_keep r (Or.inl (by omega)), at7_arg r hr]

theorem at9_arg (r : Ref sig .tc) (hr : r.idx.val < 19) (V : Valuation τ sig (Elt F)) :
    (after S8 (after S7 (after S6 (after S5 (after S4 (after S3 (after S2 (after S1 (after S0 V))))))))) (Proc.devRef .tc r) = V (Proc.devRef .tc r) := by
  rw [S8_keep r (Or.inl (by omega)), at8_arg r hr]

theorem at10_arg (r : Ref sig .tc) (hr : r.idx.val < 19) (V : Valuation τ sig (Elt F)) :
    (after S9 (after S8 (after S7 (after S6 (after S5 (after S4 (after S3 (after S2 (after S1 (after S0 V)))))))))) (Proc.devRef .tc r) = V (Proc.devRef .tc r) := by
  rw [S9_keep r (Or.inl (by omega)), at9_arg r hr]

theorem at1_v6 (V : Valuation τ sig (Elt F)) :
    (after S0 V) (main_v6 : DevRef τ sig) = catT (row0T (V (main_arg1 : DevRef τ sig))) := by
  rw [S0_v6]

theorem at1_v4 (V : Valuation τ sig (Elt F)) :
    (after S0 V) (main_v4 : DevRef τ sig) = dense0T (V (main_arg0 : DevRef τ sig)) (V (main_arg3 : DevRef τ sig)) := by
  rw [S0_v4]

theorem at1_v30 (V : Valuation τ sig (Elt F)) :
    (after S0 V) (main_v30 : DevRef τ sig) = normL (row0T (V (main_arg1 : DevRef τ sig))) (row1T (V (main_arg1 : DevRef τ sig))) := by
  rw [S0_v30]
  rfl

theorem at1_v7 (V : Valuation τ sig (Elt F)) :
    (after S0 V) (main_v7 : DevRef τ sig) = catT (row1T (V (main_arg1 : DevRef τ sig))) := by
  rw [S0_v7]

theorem at1_v1 (V : Valuation τ sig (Elt F)) :
    (after S0 V) (main_v1 : DevRef τ sig) = row0T (V (main_arg1 : DevRef τ sig)) := by
  rw [S0_v1]

theorem at1_v3 (V : Valuation τ sig (Elt F)) :
    (after S0 V) (main_v3 : DevRef τ sig) = row1T (V (main_arg1 : DevRef τ sig)) := by
  rw [S0_v3]

theorem at2_v46 (V : Valuation τ sig (Elt F)) :
    (after S1 (after S0 V)) (main_v46 : DevRef τ sig) = aggL (row0T (V (main_arg1 : DevRef τ sig))) (row1T (V (main_arg1 : DevRef τ sig))) (dense0T (V (main_arg0 : DevRef τ sig)) (V (main_arg3 : DevRef τ sig))) (V (main_arg4 : DevRef τ sig)) := by
  rw [S1_v46, at1_v7, at1_v6, at1_v4, at1_v30, at1_arg main_arg4 (by decide)]
  rfl

theorem at2_v1 (V : Valuation τ sig (Elt F)) :
    (after S1 (after S0 V)) (main_v1 : DevRef τ sig) = row0T (V (main_arg1 : DevRef τ sig)) := by
  rw [S1_keep main_v1 (by decide), at1_v1]

theorem at2_v3 (V : Valuation τ sig (Elt F)) :
    (after S1 (after S0 V)) (main_v3 : DevRef τ sig) = row1T (V (main_arg1 : DevRef τ sig)) := by
  rw [S1_keep main_v3 (by decide), at1_v3]

theorem at3_v66 (V : Valuation τ sig (Elt F)) :
    (after S2 (after S1 (after S0 V))) (main_v66 : DevRef τ sig) = h1T (V (main_arg0 : DevRef τ sig)) (V (main_arg1 : DevRef τ sig)) (V (main_arg3 : DevRef τ sig)) (V (main_arg4 : DevRef τ sig)) (V (main_arg9 : DevRef τ sig)) (V (main_arg10 : DevRef τ sig)) := by
  rw [S2_v66, at2_v46, at2_arg main_arg9 (by decide), at2_arg main_arg10 (by decide)]
  rfl

theorem at3_v1 (V : Valuation τ sig (Elt F)) :
    (after S2 (after S1 (after S0 V))) (main_v1 : DevRef τ sig) = row0T (V (main_arg1 : DevRef τ sig)) := by
  rw [S2_keep main_v1 (by decide), at2_v1]

theorem at3_v3 (V : Valuation τ sig (Elt F)) :
    (after S2 (after S1 (after S0 V))) (main_v3 : DevRef τ sig) = row1T (V (main_arg1 : DevRef τ sig)) := by
  rw [S2_keep main_v3 (by decide), at2_v3]

theorem at4_v69 (V : Valuation τ sig (Elt F)) :
    (after S3 (after S2 (after S1 (after S0 V)))) (main_v69 : DevRef τ sig) = catT (row0T (V (main_arg1 : DevRef τ sig))) := by
  rw [S3_v69, at3_v1]

theorem at4_v67 (V : Valuation τ sig (Elt F)) :
    (after S3 (after S2 (after S1 (after S0 V)))) (main_v67 : DevRef τ sig) = denseT (h1T (V (main_arg0 : DevRef τ sig)) (V (main_arg1 : DevRef τ sig)) (V (main_arg3 : DevRef τ sig)) (V (main_arg4 : DevRef τ sig)) (V (main_arg9 : DevRef τ sig)) (V (main_arg10 : DevRef τ sig))) (V (main_arg5 : DevRef τ sig)) := by
  rw [S3_v67, at3_v66, at3_arg main_arg5 (by decide)]

theorem at4_v93 (V : Valuation τ sig (Elt F)) :
    (after S3 (after S2 (after S1 (after S0 V)))) (main_v93 : DevRef τ sig) = normL (row0T (V (main_arg1 : DevRef τ sig))) (row1T (V (main_arg1 : DevRef τ sig))) := by
  rw [S3_v93, at3_v1, at3_v3]
  rfl

theorem at4_v70 (V : Valuation τ sig (Elt F)) :
    (after S3 (after S2 (after S1 (after S0 V)))) (main_v70 : DevRef τ sig) = catT (row1T (V (main_arg1 : DevRef τ sig))) := by
  rw [S3_v70, at3_v3]

theorem at4_v1 (V : Valuation τ sig (Elt F)) :
    (after S3 (after S2 (after S1 (after S0 V)))) (main_v1 : DevRef τ sig) = row0T (V (main_arg1 : DevRef τ sig)) := by
  rw [S3_keep main_v1 (by decide), at3_v1]

theorem at4_v3 (V : Valuation τ sig (Elt F)) :
    (after S3 (after S2 (after S1 (after S0 V)))) (main_v3 : DevRef τ sig) = row1T (V (main_arg1 : DevRef τ sig)) := by
  rw [S3_keep main_v3 (by decide), at3_v3]

theorem at5_v109 (V : Valuation τ sig (Elt F)) :
    (after S4 (after S3 (after S2 (after S1 (after S0 V))))) (main_v109 : DevRef τ sig) = aggL (row0T (V (main_arg1 : DevRef τ sig))) (row1T (V (main_arg1 : DevRef τ sig))) (denseT (h1T (V (main_arg0 : DevRef τ sig)) (V (main_arg1 : DevRef τ sig)) (V (main_arg3 : DevRef τ sig)) (V (main_arg4 : DevRef τ sig)) (V (main_arg9 : DevRef τ sig)) (V (main_arg10 : DevRef τ sig))) (V (main_arg5 : DevRef τ sig))) (V (main_arg6 : DevRef τ sig)) := by
  rw [S4_v109, at4_v70, at4_v69, at4_v67, at4_v93, at4_arg main_arg6 (by decide)]
  rfl

theorem at5_v1 (V : Valuation τ sig (Elt F)) :
    (after S4 (after S3 (after S2 (after S1 (after S0 V))))) (main_v1 : DevRef τ sig) = row0T (V (main_arg1 : DevRef τ sig)) := by
  rw [S4_keep main_v1 (by decide), at4_v1]

theorem at5_v3 (V : Valuation τ sig (Elt F)) :
    (after S4 (after S3 (after S2 (after S1 (after S0 V))))) (main_v3 : DevRef τ sig) = row1T (V (main_arg1 : DevRef τ sig)) := by
  rw [S4_keep main_v3 (by decide), at4_v3]

theorem at6_v129 (V : Valuation τ sig (Elt F)) :
    (after S5 (after S4 (after S3 (after S2 (after S1 (after S0 V)))))) (main_v129 : DevRef τ sig) = h2T (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg9 : DevRef τ sig)) (V (main_arg10 : DevRef τ sig)) (V (main_arg11 : DevRef τ sig)) (V (main_arg12 : DevRef τ sig)) := by
  rw [S5_v129, at5_v109, at5_arg main_arg11 (by decide), at5_arg main_arg12 (by decide)]
  rfl

theorem at6_v1 (V : Valuation τ sig (Elt F)) :
    (after S5 (after S4 (after S3 (after S2 (after S1 (after S0 V)))))) (main_v1 : DevRef τ sig) = row0T (V (main_arg1 : DevRef τ sig)) := by
  rw [S5_keep main_v1 (by decide), at5_v1]

theorem at6_v3 (V : Valuation τ sig (Elt F)) :
    (after S5 (after S4 (after S3 (after S2 (after S1 (after S0 V)))))) (main_v3 : DevRef τ sig) = row1T (V (main_arg1 : DevRef τ sig)) := by
  rw [S5_keep main_v3 (by decide), at5_v3]

theorem at7_v132 (V : Valuation τ sig (Elt F)) :
    (after S6 (after S5 (after S4 (after S3 (after S2 (after S1 (after S0 V))))))) (main_v132 : DevRef τ sig) = catT (row0T (V (main_arg1 : DevRef τ sig))) := by
  rw [S6_v132, at6_v1]

theorem at7_v130 (V : Valuation τ sig (Elt F)) :
    (after S6 (after S5 (after S4 (after S3 (after S2 (after S1 (after S0 V))))))) (main_v130 : DevRef τ sig) = denseT (h2T (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg9 : DevRef τ sig)) (V (main_arg10 : DevRef τ sig)) (V (main_arg11 : DevRef τ sig)) (V (main_arg12 : DevRef τ sig))) (V (main_arg7 : DevRef τ sig)) := by
  rw [S6_v130, at6_v129, at6_arg main_arg7 (by decide)]

theorem at7_v156 (V : Valuation τ sig (Elt F)) :
    (after S6 (after S5 (after S4 (after S3 (after S2 (after S1 (after S0 V))))))) (main_v156 : DevRef τ sig) = normL (row0T (V (main_arg1 : DevRef τ sig))) (row1T (V (main_arg1 : DevRef τ sig))) := by
  rw [S6_v156, at6_v1, at6_v3]
  rfl

theorem at7_v133 (V : Valuation τ sig (Elt F)) :
    (after S6 (after S5 (after S4 (after S3 (after S2 (after S1 (after S0 V))))))) (main_v133 : DevRef τ sig) = catT (row1T (V (main_arg1 : DevRef τ sig))) := by
  rw [S6_v133, at6_v3]

theorem at8_v172 (V : Valuation τ sig (Elt F)) :
    (after S7 (after S6 (after S5 (after S4 (after S3 (after S2 (after S1 (after S0 V)))))))) (main_v172 : DevRef τ sig) = aggL (row0T (V (main_arg1 : DevRef τ sig))) (row1T (V (main_arg1 : DevRef τ sig))) (denseT (h2T (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg9 : DevRef τ sig)) (V (main_arg10 : DevRef τ sig)) (V (main_arg11 : DevRef τ sig)) (V (main_arg12 : DevRef τ sig))) (V (main_arg7 : DevRef τ sig))) (V (main_arg8 : DevRef τ sig)) := by
  rw [S7_v172, at7_v133, at7_v132, at7_v130, at7_v156, at7_arg main_arg8 (by decide)]
  rfl

theorem at9_v192 (V : Valuation τ sig (Elt F)) :
    (after S8 (after S7 (after S6 (after S5 (after S4 (after S3 (after S2 (after S1 (after S0 V))))))))) (main_v192 : DevRef τ sig) = h3T (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  rw [S8_v192, at8_v172, at8_arg main_arg13 (by decide), at8_arg main_arg14 (by decide)]
  rfl

theorem at10_v214 (V : Valuation τ sig (Elt F)) :
    (after S9 (after S8 (after S7 (after S6 (after S5 (after S4 (after S3 (after S2 (after S1 (after S0 V)))))))))) (main_v214 : DevRef τ sig) = refTerm (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) := by
  rw [S9_v214, at9_arg main_arg2 (by decide), at9_v192, at9_arg main_arg15 (by decide), at9_arg main_arg16 (by decide), at9_arg main_arg17 (by decide), at9_arg main_arg18 (by decide)]
  rfl

theorem ops_sub : (ops : List (HloOp τ sig (Elt F))).Forall fun op => op.bufs ⊆ tcRefs τ sig := by
  rw [ops_eq]
  exact forall_append (forall_append (forall_append (forall_append (forall_append (forall_append (forall_append (forall_append (forall_append (S0_sub) S1_sub) S2_sub) S3_sub) S4_sub) S5_sub) S6_sub) S7_sub) S8_sub) S9_sub

theorem ops_fresh : ∀ op ∈ (ops : List (HloOp τ sig (Elt F))), op.fresh = ∅ := by
  rw [ops_eq]
  exact List.forall_iff_forall_mem.mp (forall_append (forall_append (forall_append (forall_append (forall_append (forall_append (forall_append (forall_append (forall_append (S0_fresh) S1_fresh) S2_fresh) S3_fresh) S4_fresh) S5_fresh) S6_fresh) S7_fresh) S8_fresh) S9_fresh)

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates with the result buffer at `refTerm` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v214) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v214).trans (by rw [after_ops]; exact at10_v214 _),
      (h c main_arg0).trans (by rw [after_ops]; exact at10_arg main_arg0 (by decide) _),
      (h c main_arg1).trans (by rw [after_ops]; exact at10_arg main_arg1 (by decide) _),
      (h c main_arg2).trans (by rw [after_ops]; exact at10_arg main_arg2 (by decide) _),
      (h c main_arg3).trans (by rw [after_ops]; exact at10_arg main_arg3 (by decide) _),
      (h c main_arg4).trans (by rw [after_ops]; exact at10_arg main_arg4 (by decide) _),
      (h c main_arg5).trans (by rw [after_ops]; exact at10_arg main_arg5 (by decide) _),
      (h c main_arg6).trans (by rw [after_ops]; exact at10_arg main_arg6 (by decide) _),
      (h c main_arg7).trans (by rw [after_ops]; exact at10_arg main_arg7 (by decide) _),
      (h c main_arg8).trans (by rw [after_ops]; exact at10_arg main_arg8 (by decide) _),
      (h c main_arg9).trans (by rw [after_ops]; exact at10_arg main_arg9 (by decide) _),
      (h c main_arg10).trans (by rw [after_ops]; exact at10_arg main_arg10 (by decide) _),
      (h c main_arg11).trans (by rw [after_ops]; exact at10_arg main_arg11 (by decide) _),
      (h c main_arg12).trans (by rw [after_ops]; exact at10_arg main_arg12 (by decide) _),
      (h c main_arg13).trans (by rw [after_ops]; exact at10_arg main_arg13 (by decide) _),
      (h c main_arg14).trans (by rw [after_ops]; exact at10_arg main_arg14 (by decide) _),
      (h c main_arg15).trans (by rw [after_ops]; exact at10_arg main_arg15 (by decide) _),
      (h c main_arg16).trans (by rw [after_ops]; exact at10_arg main_arg16 (by decide) _),
      (h c main_arg17).trans (by rw [after_ops]; exact at10_arg main_arg17 (by decide) _),
      (h c main_arg18).trans (by rw [after_ops]; exact at10_arg main_arg18 (by decide) _)⟩)
    (run_seq scopedRefs_eq scopedSems_eq defs main (fun _ => ops) main_eq (fun _ => ops_sub) m ρ (fun _ => ops_fresh))

end Cert.ReferenceIdeal.Hand

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.Ref.ReadBasic.lean ====
/-
  Shared by the index-by-index readings of the reference's stages: the array types at the extended reals, and the four
  broadcasts the program uses (a vector to a column, a column across a matrix, a vector to a row, a row down a matrix)
  read at an index.
-/
import proofs.«115763_j74259984548099_2_alg».proof.Proof.Ref.Terms
import proofs.«115763_j74259984548099_2_alg».proof.Proof.Spec
import proofs.«115763_j74259984548099_2_alg».proof.Proof.LibRows
import proofs.«115763_j74259984548099_2_alg».proof.Proof.LibBatchNorm
import proofs.«115763_j74259984548099_2_alg».proof.Proof.LibDense
import Idealize.ShloMosaic.Lib.IdealHost
import Idealize.ShloMosaic.Lib.Pipeline.Value
import Idealize.ShloMosaic.Lib.ValueLayout

noncomputable section

namespace Cert.ReferenceIdeal.Hand

open Cert.ReferenceIdeal Cert.ReferenceIdeal.Gen Idealize.ShloMosaic Idealize.ShloMosaic.ValueIdx Cert.Lib.Rows

/-- Integer and float arrays of a shape, at the extended reals. -/
abbrev IC (s : Shape) : Type := (⟨s, .i32⟩ : BufTy).Contents (Elt Ideal)
abbrev FC (s : Shape) : Type := (⟨s, .f32⟩ : BufTy).Contents (Elt Ideal)

variable {α : Type}

/-! ## Broadcasts of a vector to a column or a row, and of a column or a row to a matrix, at an index -/

theorem bcast_vec_col {n : ℕ} (hn : n ≠ 1) (h : (⟨1, ![n]⟩ : Shape).BroadcastsInDim ⟨2, ![n, 1]⟩ ![0])
    (x : (⟨1, ![n]⟩ : Shape).Idx → α) (e : Fin n) (u : Fin 1) :
    broadcastInDim ⟨2, ![n, 1]⟩ ![0] h x (ix2 e u) = x (ix1 e) :=
  broadcastInDim_apply ![0] h x (ix2 e u) (ix1 e) (fun a => by
    match a with
    | ⟨0, _⟩ => exact (if_neg hn).symm)

theorem bcast_col_mat {n c : ℕ} (hn : n ≠ 1) (h : (⟨2, ![n, 1]⟩ : Shape).BroadcastsInDim ⟨2, ![n, c]⟩ ![0, 1])
    (x : (⟨2, ![n, 1]⟩ : Shape).Idx → α) (e : Fin n) (k : Fin c) :
    broadcastInDim ⟨2, ![n, c]⟩ ![0, 1] h x (ix2 e k) = x (ix2 e (0 : Fin 1)) :=
  broadcastInDim_apply ![0, 1] h x (ix2 e k) (ix2 e (0 : Fin 1)) (fun a => by
    match a with
    | ⟨0, _⟩ => exact (if_neg hn).symm
    | ⟨1, _⟩ => exact (if_pos rfl).symm)

theorem bcast_vec_row {c : ℕ} (hc : c ≠ 1) (h : (⟨1, ![c]⟩ : Shape).BroadcastsInDim ⟨2, ![1, c]⟩ ![1])
    (x : (⟨1, ![c]⟩ : Shape).Idx → α) (u : Fin 1) (k : Fin c) :
    broadcastInDim ⟨2, ![1, c]⟩ ![1] h x (ix2 u k) = x (ix1 k) :=
  broadcastInDim_apply ![1] h x (ix2 u k) (ix1 k) (fun a => by
    match a with
    | ⟨0, _⟩ => exact (if_neg hc).symm)

theorem bcast_row_mat {n c : ℕ} (hc : c ≠ 1) (h : (⟨2, ![1, c]⟩ : Shape).BroadcastsInDim ⟨2, ![n, c]⟩ ![0, 1])
    (x : (⟨2, ![1, c]⟩ : Shape).Idx → α) (r : Fin n) (k : Fin c) :
    broadcastInDim ⟨2, ![n, c]⟩ ![0, 1] h x (ix2 r k) = x (ix2 (0 : Fin 1) k) :=
  broadcastInDim_apply ![0, 1] h x (ix2 r k) (ix2 (0 : Fin 1) k) (fun a => by
    match a with
    | ⟨0, _⟩ => exact (if_pos rfl).symm
    | ⟨1, _⟩ => exact (if_neg hc).symm)

/-- A vector laid along the rows of a matrix: at (r, k) it is the vector at k. -/
theorem bias_apply {n c : ℕ} (hc : c ≠ 1) (h1 : (⟨1, ![c]⟩ : Shape).BroadcastsInDim ⟨2, ![1, c]⟩ ![1])
    (h2 : (⟨2, ![1, c]⟩ : Shape).BroadcastsInDim ⟨2, ![n, c]⟩ ![0, 1]) (x : (⟨1, ![c]⟩ : Shape).Idx → α) (r : Fin n) (k : Fin c) :
    broadcastInDim ⟨2, ![n, c]⟩ ![0, 1] h2 (broadcastInDim ⟨2, ![1, c]⟩ ![1] h1 x) (ix2 r k) = x (ix1 k) :=
  (bcast_row_mat hc h2 _ r k).trans (bcast_vec_row hc h1 x 0 k)

end Cert.ReferenceIdeal.Hand

end
-- ==== Proof.Ref.ReadLayer.lean ====
/-
  One graph-convolution layer of the reference, read index by index on the extended reals: the endpoint lists (the edge
  list's rows followed by every node's own number), the wrapped row numbers, the degree as a sum of ones over the edges
  into a node, its inverse square root where positive, the per-edge normalisation, the scaled source rows, their sum
  into the targets plus the bias, the column mean and the two-pass column variance (the guard on the count `N - 0` is
  true), the normalisation with scale, shift and rectifier; then the layer as the specification's `layerR`.
-/
import proofs.«115763_j74259984548099_2_alg».proof.Proof.Ref.ReadBasic

noncomputable section

namespace Cert.ReferenceIdeal.Hand

open Cert.ReferenceIdeal Cert.ReferenceIdeal.Gen Idealize.ShloMosaic Idealize.ShloMosaic.ValueIdx Cert.Lib.Rows

variable {α : Type}

/-! ## The endpoint lists -/

theorem row0T_apply (a1 : IC S2x640000) (e : Fin 640000) : row0T a1 (ix1 e) = a1 (ix2 (0 : Fin 2) e) := by
  unfold row0T
  refine (shapeCast_1a_a_apply _ _ e).trans ?_
  exact slice2_axis0_apply 0 a1 _ (0 : Fin 1) e (0 : Fin 2) rfl

theorem row1T_apply (a1 : IC S2x640000) (e : Fin 640000) : row1T a1 (ix1 e) = a1 (ix2 (1 : Fin 2) e) := by
  unfold row1T
  refine (shapeCast_1a_a_apply _ _ e).trans ?_
  exact slice2_axis0_apply 1 a1 _ (0 : Fin 1) e (1 : Fin 2) rfl

theorem catT_apply_lt (v : IC S640000) (e : Fin 740000) (h : e.val < 640000) : catT v (ix1 e) = v (ix1 ⟨e.val, h⟩) := by
  unfold catT
  exact concatenate_pair_apply_left (0 : Fin S740000.rank) v _ _ (ix1 e) rfl (ix1 ⟨e.val, h⟩) (fun b => by
    match b with
    | ⟨0, _⟩ => rfl)

theorem catT_apply_ge (v : IC S640000) (r : Fin 100000) :
    catT v (ix1 (⟨640000 + r.val, by omega⟩ : Fin 740000)) = BitVec.ofNat 32 r.val := by
  unfold catT
  refine (concatenate_pair_apply_right (s₂ := S100000) (0 : Fin S740000.rank) v (iotaInDim S100000 32 0) _ (ix1 (⟨640000 + r.val, by omega⟩ : Fin 740000)) rfl rfl (ix1 r)
    (fun b hb => ?_) ?_).trans ?_
  · match b with
    | ⟨0, _⟩ => exact absurd rfl hb
  · show r.val + 640000 = 640000 + r.val
    omega
  · rfl

/-- The sources followed by every node's own number. -/
def srcCat (a1 : IC S2x640000) : Fin 740000 → BitVec 32 := fun e => catT (row0T a1) (ix1 e)
/-- The targets followed by every node's own number. -/
def dstCat (a1 : IC S2x640000) : Fin 740000 → BitVec 32 := fun e => catT (row1T a1) (ix1 e)

theorem srcCat_lt (a1 : IC S2x640000) (e : Fin 740000) (h : e.val < 640000) :
    srcCat a1 e = a1 (ix2 (0 : Fin 2) (⟨e.val, h⟩ : Fin 640000)) :=
  (catT_apply_lt _ e h).trans (row0T_apply a1 _)
theorem srcCat_ge (a1 : IC S2x640000) (r : Fin 100000) :
    srcCat a1 (⟨640000 + r.val, by omega⟩ : Fin 740000) = BitVec.ofNat 32 r.val := catT_apply_ge _ r
theorem dstCat_lt (a1 : IC S2x640000) (e : Fin 740000) (h : e.val < 640000) :
    dstCat a1 e = a1 (ix2 (1 : Fin 2) (⟨e.val, h⟩ : Fin 640000)) :=
  (catT_apply_lt _ e h).trans (row1T_apply a1 _)
theorem dstCat_ge (a1 : IC S2x640000) (r : Fin 100000) :
    dstCat a1 (⟨640000 + r.val, by omega⟩ : Fin 740000) = BitVec.ofNat 32 r.val := catT_apply_ge _ r

/-! ## Row numbers, degrees, normalisation -/

theorem wrapT_apply (x : IC S740000) (e : Fin 740000) : wrapT x (ix1 e) = Cert.Spec.wrapI 100000#32 (x (ix1 e)) := rfl

/-- The edges a column of row numbers sends to a row are those whose word is that row. -/
theorem edgesInto_col {n m : ℕ} (hm : m ≠ 1) (h : (⟨1, ![m]⟩ : Shape).BroadcastsInDim ⟨2, ![m, 1]⟩ ![0])
    (d : (⟨1, ![m]⟩ : Shape).Idx → BitVec 32) (r : Fin n) :
    edgesInto (broadcastInDim ⟨2, ![m, 1]⟩ ![0] h d) r = Cert.Spec.into (fun e => d (ix1 e)) r := by
  unfold edgesInto Cert.Spec.into
  refine Finset.filter_congr fun e _ => ?_
  rw [bcast_vec_col hm h d e 0]

/-- The host's accumulating scatter at the extended reals is the exact sum. -/
theorem scatterAdd_ideal {s si u : Shape} {w : ℕ} (D : ScatterDims s si u) (x : FVec Ideal s .f32) (idx : IVec si w) (upd : FVec Ideal u .f32) :
    Host.scatterAdd D x idx upd = Ideal.hostScatterAdd D x idx upd := rfl

theorem degT_apply (d : IC S740000) (r : Fin 100000) : degT d (ix1 r) = Cert.Spec.degR (fun e => d (ix1 e)) r := by
  unfold degT Cert.Spec.degR
  beta_reduce
  rw [scatterAdd_ideal]
  rw [show (scatter_S100000_S740000x1_S740000_n_0_0_1 : ScatterDims S100000 S740000x1 S740000)
    = scatterEltsDims 100000 740000 scatter_S100000_S740000x1_S740000_n_0_0_1_wf from rfl]
  rw [scatterAddElts_apply, edgesInto_col (by decide) bcast_S740000_S740000x1_0 d r]
  exact congrArg₂ (· + ·) rfl (Finset.sum_congr rfl fun e _ => rfl)

/-- A select on a strict comparison of extended reals is the conditional. -/
theorem select_ogt (x y a b : EReal) : Scalar.select (Ideal.cmp .ogt x y) a b = if x > y then a else b := by
  unfold Scalar.select Ideal.cmp
  by_cases h : y < x
  · simp [h]
  · simp [h]

theorem disT_apply (deg : FC S100000) (r : Fin 100000) :
    disT deg (ix1 r) = if deg (ix1 r) > Cert.Spec.zero then Ideal.rsqrt (deg (ix1 r)) else Cert.Spec.zero := by
  unfold disT
  exact select_ogt (deg (ix1 r)) Cert.Spec.zero (Ideal.rsqrt (deg (ix1 r))) Cert.Spec.zero

theorem normT_apply (s d : IC S740000) (dis : FC S100000) (e : Fin 740000) :
    normT s d dis (ix1 e)
      = dis (ix1 (Cert.Spec.rowG 100000 (by decide) 100000#32 (s (ix1 e)))) * dis (ix1 (Cert.Spec.rowG 100000 (by decide) 100000#32 (d (ix1 e)))) := by
  unfold normT Cert.Spec.rowG
  beta_reduce
  rw [mulf_apply]
  rw [show (gather_S100000_S740000x1_S740000_n_0_n_n_0_1_1 : GatherDims S100000 S740000x1 S740000)
    = gatherEltsDims 100000 740000 gather_S100000_S740000x1_S740000_n_0_n_n_0_1_1_wf from rfl]
  rw [gatherElts_apply (by decide : 0 < 100000), gatherElts_apply (by decide : 0 < 100000)]
  rw [bcast_vec_col (by decide) bcast_S740000_S740000x1_0, bcast_vec_col (by decide) bcast_S740000_S740000x1_0]
  rfl

theorem msgT_apply (s : IC S740000) (hl : FC S100000x128) (norm : FC S740000) (e : Fin 740000) (j : Fin 128) :
    msgT s hl norm (ix2 e j) = hl (ix2 (Cert.Spec.rowG 100000 (by decide) 100000#32 (s (ix1 e))) j) * norm (ix1 e) := by
  unfold msgT Cert.Spec.rowG
  beta_reduce
  rw [mulf_apply]
  rw [show (gather_S100000x128_S740000x1_S740000x128_1_0_n_n_0_1_1128 : GatherDims S100000x128 S740000x1 S740000x128)
    = gatherRowsDims 100000 740000 128 gather_S100000x128_S740000x1_S740000x128_1_0_n_n_0_1_1128_wf from rfl]
  rw [gatherRows_apply (by decide : 0 < 100000), bcast_vec_col (by decide) bcast_S740000_S740000x1_0]
  rw [bcast_col_mat (by decide) bcast_S740000x1_S740000x128_0_1, bcast_vec_col (by decide) bcast_S740000_S740000x1_0]
  rfl

theorem aggT_apply (d : IC S740000) (msg : FC S740000x128) (b : FC S128) (r : Fin 100000) (j : Fin 128) :
    aggT d msg b (ix2 r j) = (Cert.Spec.zero + ∑ e ∈ Cert.Spec.into (fun e => d (ix1 e)) r, msg (ix2 e j)) + b (ix1 j) := by
  unfold aggT
  beta_reduce
  rw [addf_apply, bias_apply (by decide) bcast_S128_S1x128_1 bcast_S1x128_S100000x128_0_1, scatterAdd_ideal]
  rw [show (scatter_S100000x128_S740000x1_S740000x128_1_0_0_1 : ScatterDims S100000x128 S740000x1 S740000x128)
    = scatterRowsDims 100000 740000 128 scatter_S100000x128_S740000x1_S740000x128_1_0_0_1_wf from rfl]
  rw [scatterAddRows_apply, edgesInto_col (by decide) bcast_S740000_S740000x1_0 d r]
  rfl

/-! ## Column statistics and the normalisation -/

/-- The host's sum over the node axis, from the zero word, at column j. -/
theorem reduceCol_apply (x : FC S100000x128) (j : Fin 128) :
    Host.reduceAdd x (constant (F := Ideal) S_ .f32 0x00000000#32) reducesTo_S100000x128_S128_d0 h_S_ (ix1 j)
      = Cert.Spec.zero + ∑ r : Fin 100000, x (ix2 r j) := by
  rw [hostReduceAdd_apply]
  refine (Ideal.hostReduceAdd_single reducesTo_S100000x128_S128_d0 (by decide : S100000x128.Reduces [0] S128) x _ (ix1 j)).trans ?_
  refine congrArg₂ (· + ·) rfl (Finset.sum_congr rfl fun r _ => congrArg x (funext fun a => Fin.ext ?_))
  match a with
  | ⟨0, _⟩ => rfl
  | ⟨1, _⟩ => rfl

theorem colSumT_apply (agg : FC S100000x128) (j : Fin 128) :
    colSumT agg (ix1 j) = Cert.Spec.zero + ∑ r : Fin 100000, agg (ix2 r j) := by
  unfold colSumT
  beta_reduce
  exact reduceCol_apply agg j

theorem meanT_apply (cs : FC S128) (j : Fin 128) : meanT cs (ix1 j) = Ideal.div (cs (ix1 j)) Cert.Spec.nf := rfl

theorem guard_pos : Cert.Spec.nf - (((0 : ℤ) : ℝ) : EReal) > Cert.Spec.zero := by
  show Ideal.ofBits .f32 0x00000000#32 < Ideal.ofBits .f32 0x47C35000#32 - (((0 : ℤ) : ℝ) : EReal)
  rw [Cert.LibBatchNorm.ofBits_100000, Cert.LibBatchNorm.ofBits_zero, Int.cast_zero, EReal.coe_zero, sub_zero]
  exact_mod_cast (by norm_num : (0 : ℝ) < 100000)

theorem varT_apply (agg : FC S100000x128) (j : Fin 128) :
    varT agg (ix1 j) = Cert.Spec.varR (fun r k => agg (ix2 r k)) j := by
  unfold varT Cert.Spec.varR Cert.Spec.meanR
  beta_reduce
  rw [select_apply]
  refine (select_ogt (Cert.Spec.nf - (((0 : ℤ) : ℝ) : EReal)) Cert.Spec.zero _ _).trans ?_
  rw [if_pos guard_pos, hostDivf_apply, reduceCol_apply]
  refine congrArg₂ Ideal.div (congrArg₂ (· + ·) rfl (Finset.sum_congr rfl fun r _ => ?_)) rfl
  rw [mulf_apply, subf_apply, bcast_row_mat (by decide) bcast_S1x128_S100000x128_0_1, hostDivf_apply,
    bcast_vec_row (by decide) bcast_S128_S1x128_1, reduceCol_apply]
  rfl

theorem bnReluT_apply (agg : FC S100000x128) (mean var g beta : FC S128) (r : Fin 100000) (j : Fin 128) :
    bnReluT agg mean var g beta (ix2 r j)
      = max ((agg (ix2 r j) - mean (ix1 j)) * Ideal.rsqrt (var (ix1 j) + Cert.Spec.eps) * g (ix1 j) + beta (ix1 j)) Cert.Spec.zero := by
  unfold bnReluT
  beta_reduce
  rw [maximumf_apply, addf_apply, mulf_apply, mulf_apply, subf_apply]
  rw [bias_apply (by decide) bcast_S128_S1x128_1 bcast_S1x128_S100000x128_0_1,
    bias_apply (by decide) bcast_S128_S1x128_1 bcast_S1x128_S100000x128_0_1,
    bias_apply (by decide) bcast_S128_S1x128_1 bcast_S1x128_S100000x128_0_1,
    bias_apply (by decide) bcast_S128_S1x128_1 bcast_S1x128_S100000x128_0_1]
  rfl

/-! ## The dense maps and the layer -/

theorem dense0T_apply (a0 : FC S100000x20) (a3 : FC S20x128) (r : Fin 100000) (j : Fin 128) :
    dense0T a0 a3 (ix2 r j) = Cert.Spec.dense (fun r k => a0 (ix2 r k)) (fun k j => a3 (ix2 k j)) r j := by
  unfold dense0T Cert.Spec.dense
  beta_reduce
  rw [show (dot_S100000x20_S20x128_S100000x128_1_0_0_1_n_n : DotDims S100000x20 S20x128 S100000x128) = DotDims.plain 100000 20 128 from rfl]
  exact Cert.LibDense.dotGeneral_plain .single a0 a3 (ix2 r j)

theorem denseT_apply (h : FC S100000x128) (w : FC S128x128) (r : Fin 100000) (j : Fin 128) :
    denseT h w (ix2 r j) = Cert.Spec.dense (fun r k => h (ix2 r k)) (fun k j => w (ix2 k j)) r j := by
  unfold denseT Cert.Spec.dense
  beta_reduce
  rw [show (dot_S100000x128_S128x128_S100000x128_1_0_0_1_n_n : DotDims S100000x128 S128x128 S100000x128) = DotDims.plain 100000 128 128 from rfl]
  exact Cert.LibDense.dotGeneral_plain .single h w (ix2 r j)

/-- The inverse square root of the degree, as the specification writes it. -/
theorem dis_apply (d : IC S740000) (x : Fin 100000) :
    disT (degT d) (ix1 x) = Cert.Spec.disR (fun e => d (ix1 e)) x := by
  unfold Cert.Spec.disR
  rw [disT_apply, degT_apply]

theorem aggL_apply (src dst : IC S640000) (hl : FC S100000x128) (b : FC S128) (r : Fin 100000) (j : Fin 128) :
    aggL src dst hl b (ix2 r j)
      = Cert.Spec.aggR (N := 100000) (E := 740000) (by decide) 100000#32 (fun e => catT src (ix1 e)) (fun e => catT dst (ix1 e))
          (Cert.Spec.disR (fun e => catT dst (ix1 e))) (fun r k => hl (ix2 r k)) (fun j => b (ix1 j)) r j := by
  unfold aggL normL Cert.Spec.aggR
  rw [aggT_apply]
  refine congrArg₂ (· + ·) (congrArg₂ (· + ·) rfl (Finset.sum_congr rfl fun e _ => ?_)) rfl
  rw [msgT_apply, normT_apply, dis_apply, dis_apply]

theorem layerT_apply (src dst : IC S640000) (hl : FC S100000x128) (b g beta : FC S128) (r : Fin 100000) (j : Fin 128) :
    layerT src dst hl b g beta (ix2 r j)
      = Cert.Spec.bnRelu (fun r k => aggL src dst hl b (ix2 r k)) (Cert.Spec.meanR fun r k => aggL src dst hl b (ix2 r k))
          (Cert.Spec.varR fun r k => aggL src dst hl b (ix2 r k)) (fun j => g (ix1 j)) (fun j => beta (ix1 j)) r j := by
  unfold layerT
  rw [bnReluT_apply, meanT_apply, colSumT_apply, varT_apply]
  unfold Cert.Spec.bnRelu Cert.Spec.meanR
  rfl

/-- A layer whose dense map's output is the specification's dense map of `x` and `w` is the specification's layer. -/
theorem layerT_eq_layerR {d : ℕ} (src dst : IC S640000) (x : Cert.Spec.Mat 100000 d) (w : Cert.Spec.Mat d 128) (hl : FC S100000x128)
    (hhl : ∀ r k, hl (ix2 r k) = Cert.Spec.dense x w r k) (b g beta : FC S128) (r : Fin 100000) (j : Fin 128) :
    layerT src dst hl b g beta (ix2 r j)
      = Cert.Spec.layerR (N := 100000) (E := 740000) (by decide) 100000#32 (fun e => catT src (ix1 e)) (fun e => catT dst (ix1 e))
          x w (fun j => b (ix1 j)) (fun j => g (ix1 j)) (fun j => beta (ix1 j)) r j := by
  have hA : (fun r k => aggL src dst hl b (ix2 r k))
      = Cert.Spec.aggR (N := 100000) (E := 740000) (by decide) 100000#32 (fun e => catT src (ix1 e)) (fun e => catT dst (ix1 e))
          (Cert.Spec.disR (fun e => catT dst (ix1 e))) (Cert.Spec.dense x w) (fun j => b (ix1 j)) := by
    funext r k
    rw [aggL_apply, show (fun r k => hl (ix2 r k)) = Cert.Spec.dense x w from funext fun r => funext fun k => hhl r k]
  rw [layerT_apply, hA]
  rfl

end Cert.ReferenceIdeal.Hand

end
-- ==== Proof.Ref.ReadNet.lean ====
/-
  The three layers' outputs and the whole network read index by index: each layer's output is the specification's
  layer applied to the previous one (the dense map's output being the specification's dense map), and the result is the
  specification's network once the pooling head is its `mlp` of the doubled pooled rows.
-/
import proofs.«115763_j74259984548099_2_alg».proof.Proof.Ref.ReadLayer

noncomputable section

namespace Cert.ReferenceIdeal.Hand

open Cert.ReferenceIdeal Cert.ReferenceIdeal.Gen Idealize.ShloMosaic Idealize.ShloMosaic.ValueIdx Cert.Lib.Rows

/-! ## The three layers and the network -/

theorem h1T_apply (a0 : FC S100000x20) (a1 : IC S2x640000) (a3 : FC S20x128) (a4 a9 a10 : FC S128) (r : Fin 100000) (j : Fin 128) :
    h1T a0 a1 a3 a4 a9 a10 (ix2 r j)
      = Cert.Spec.layerR (N := 100000) (E := 740000) (by decide) 100000#32 (srcCat a1) (dstCat a1)
          (fun r k => a0 (ix2 r k)) (fun k j => a3 (ix2 k j)) (fun j => a4 (ix1 j)) (fun j => a9 (ix1 j)) (fun j => a10 (ix1 j)) r j := by
  unfold h1T
  exact layerT_eq_layerR (row0T a1) (row1T a1) _ _ (dense0T a0 a3) (dense0T_apply a0 a3) a4 a9 a10 r j

theorem h2T_apply (a0 : FC S100000x20) (a1 : IC S2x640000) (a3 : FC S20x128) (a4 : FC S128) (a5 : FC S128x128) (a6 a9 a10 a11 a12 : FC S128)
    (r : Fin 100000) (j : Fin 128) :
    h2T a0 a1 a3 a4 a5 a6 a9 a10 a11 a12 (ix2 r j)
      = Cert.Spec.layerR (N := 100000) (E := 740000) (by decide) 100000#32 (srcCat a1) (dstCat a1)
          (Cert.Spec.layerR (N := 100000) (E := 740000) (by decide) 100000#32 (srcCat a1) (dstCat a1)
            (fun r k => a0 (ix2 r k)) (fun k j => a3 (ix2 k j)) (fun j => a4 (ix1 j)) (fun j => a9 (ix1 j)) (fun j => a10 (ix1 j)))
          (fun k j => a5 (ix2 k j)) (fun j => a6 (ix1 j)) (fun j => a11 (ix1 j)) (fun j => a12 (ix1 j)) r j := by
  unfold h2T
  refine layerT_eq_layerR (row0T a1) (row1T a1) _ _ (denseT (h1T a0 a1 a3 a4 a9 a10) a5) (fun r k => ?_) a6 a11 a12 r j
  rw [denseT_apply]
  exact congrArg (fun M => Cert.Spec.dense M (fun k j => a5 (ix2 k j)) r k)
    (funext fun r => funext fun k => h1T_apply a0 a1 a3 a4 a9 a10 r k)

theorem h3T_apply (a0 : FC S100000x20) (a1 : IC S2x640000) (a3 : FC S20x128) (a4 : FC S128) (a5 : FC S128x128) (a6 : FC S128)
    (a7 : FC S128x128) (a8 a9 a10 a11 a12 a13 a14 : FC S128) (r : Fin 100000) (j : Fin 128) :
    h3T a0 a1 a3 a4 a5 a6 a7 a8 a9 a10 a11 a12 a13 a14 (ix2 r j)
      = Cert.Spec.layerR (N := 100000) (E := 740000) (by decide) 100000#32 (srcCat a1) (dstCat a1)
          (Cert.Spec.layerR (N := 100000) (E := 740000) (by decide) 100000#32 (srcCat a1) (dstCat a1)
            (Cert.Spec.layerR (N := 100000) (E := 740000) (by decide) 100000#32 (srcCat a1) (dstCat a1)
              (fun r k => a0 (ix2 r k)) (fun k j => a3 (ix2 k j)) (fun j => a4 (ix1 j)) (fun j => a9 (ix1 j)) (fun j => a10 (ix1 j)))
            (fun k j => a5 (ix2 k j)) (fun j => a6 (ix1 j)) (fun j => a11 (ix1 j)) (fun j => a12 (ix1 j)))
          (fun k j => a7 (ix2 k j)) (fun j => a8 (ix1 j)) (fun j => a13 (ix1 j)) (fun j => a14 (ix1 j)) r j := by
  unfold h3T
  refine layerT_eq_layerR (row0T a1) (row1T a1) _ _ (denseT (h2T a0 a1 a3 a4 a5 a6 a9 a10 a11 a12) a7) (fun r k => ?_) a8 a13 a14 r j
  rw [denseT_apply]
  exact congrArg (fun M => Cert.Spec.dense M (fun k j => a7 (ix2 k j)) r k)
    (funext fun r => funext fun k => h2T_apply a0 a1 a3 a4 a5 a6 a9 a10 a11 a12 r k)

/-- The whole network, given the pooling head's reading: @main's result at (q, j) is the specification's network of the
    nineteen arguments read index by index. -/
theorem refTerm_apply_of_tail (htail : ∀ (h : FC S100000x128) (a2 : IC S100000) (a15 : FC S256x128) (a16 : FC S128) (a17 : FC S128x64) (a18 : FC S64) (q : Fin 256) (j : Fin 64),
      tailT h a2 a15 a16 a17 a18 (ix2 q j)
        = Cert.Spec.mlp (G := 256) (a := 256) (h := 128) (o := 64)
            ((fun M => M : Cert.Spec.Mat 256 (128 + 128) → Cert.Spec.Mat 256 256)
              (Cert.Spec.doubled (Cert.Spec.pooled (N := 100000) (G := 256) (fun r => a2 (ix1 r)) (fun r k => h (ix2 r k)))))
            (fun l k => a15 (ix2 l k)) (fun k => a16 (ix1 k)) (fun k j => a17 (ix2 k j)) (fun j => a18 (ix1 j)) q j)
    (a0 : FC S100000x20) (a1 : IC S2x640000) (a2 : IC S100000) (a3 : FC S20x128) (a4 : FC S128) (a5 : FC S128x128) (a6 : FC S128)
    (a7 : FC S128x128) (a8 a9 a10 a11 a12 a13 a14 : FC S128) (a15 : FC S256x128) (a16 : FC S128) (a17 : FC S128x64) (a18 : FC S64) (q : Fin 256) (j : Fin 64) :
    refTerm a0 a1 a2 a3 a4 a5 a6 a7 a8 a9 a10 a11 a12 a13 a14 a15 a16 a17 a18 (ix2 q j)
      = Cert.Spec.netR (N := 100000) (E' := 740000) (G := 256) (a := 256) (by decide) 100000#32 (srcCat a1) (dstCat a1) (fun r => a2 (ix1 r))
          (fun r k => a0 (ix2 r k)) (fun k j => a3 (ix2 k j)) (fun j => a4 (ix1 j)) (fun j => a9 (ix1 j)) (fun j => a10 (ix1 j))
          (fun k j => a5 (ix2 k j)) (fun j => a6 (ix1 j)) (fun j => a11 (ix1 j)) (fun j => a12 (ix1 j))
          (fun k j => a7 (ix2 k j)) (fun j => a8 (ix1 j)) (fun j => a13 (ix1 j)) (fun j => a14 (ix1 j))
          (fun M => M) (fun l k => a15 (ix2 l k)) (fun k => a16 (ix1 k)) (fun k j => a17 (ix2 k j)) (fun j => a18 (ix1 j)) q j := by
  unfold refTerm Cert.Spec.netR
  rw [htail]
  rw [show (fun r k => h3T a0 a1 a3 a4 a5 a6 a7 a8 a9 a10 a11 a12 a13 a14 (ix2 r k)) = _ from
    funext fun r => funext fun k => h3T_apply a0 a1 a3 a4 a5 a6 a7 a8 a9 a10 a11 a12 a13 a14 r k]

end Cert.ReferenceIdeal.Hand

end
-- ==== Proof.Ref.ReadTail.lean ====
/-
  The reference's pooling head read index by index at the extended reals: each graph's node count and row sums as finite
  sums over the nodes whose graph number is the graph, the mean row, the mean row written twice side by side, and the
  two dense layers with their bias rows (the first rectified); composed, the head's entry (q, j) is the two-layer map of
  the doubled pooled rows.
-/
import proofs.«115763_j74259984548099_2_alg».proof.Proof.Ref.ReadBasic

noncomputable section

namespace Cert.ReferenceIdeal.Hand

open Cert.ReferenceIdeal Cert.ReferenceIdeal.Gen Idealize.ShloMosaic Idealize.ShloMosaic.ValueIdx Cert.Lib.Rows

/-- The targets of a segment sum: the row numbers laid as a column name the same edges as the row numbers themselves. -/
theorem edges_col {m N : ℕ} (hm : m ≠ 1) (hb : (⟨1, ![m]⟩ : Shape).BroadcastsInDim ⟨2, ![m, 1]⟩ ![0])
    (d : IVec ⟨1, ![m]⟩ 32) (r : Fin N) :
    edgesInto (broadcastInDim ⟨2, ![m, 1]⟩ ![0] hb d) r = Cert.Spec.into (fun e => d (ix1 e)) r := by
  unfold edgesInto Cert.Spec.into
  refine Finset.filter_congr fun e _ => ?_
  rw [bcast_vec_col hm hb d e 0]

/-- The number of nodes of graph `q`: ones summed into the graph numbers, from zero. -/
theorem cntT_apply (a2 : IC S100000) (q : Fin 256) :
    cntT a2 (ix1 q) = Cert.Spec.zero + ∑ _r ∈ Cert.Spec.into (fun r => a2 (ix1 r)) q, Cert.Spec.one := by
  show Host.scatterAdd scatter_S256_S100000x1_S100000_n_0_0_1 _ _ _ (ix1 q) = _
  rw [show (scatter_S256_S100000x1_S100000_n_0_0_1 : ScatterDims S256 S100000x1 S100000)
      = scatterEltsDims 256 100000 scatter_S256_S100000x1_S100000_n_0_0_1_wf from rfl]
  unfold Host.scatterAdd
  rw [Ideal.hostScatterAdd_def, scatterAddElts_apply]
  refine congrArg₂ (· + ·) (broadcastInDim_scalar_apply _ _ _) ?_
  rw [edges_col (by decide) bcast_S100000_S100000x1_0 a2 q]
  exact Finset.sum_congr rfl fun e _ => broadcastInDim_scalar_apply _ _ _

/-- The rows of graph `q` summed, column `k`: the rows summed into their graph numbers, from zero. -/
theorem sumsT_apply (a2 : IC S100000) (h : FC S100000x128) (q : Fin 256) (k : Fin 128) :
    sumsT a2 h (ix2 q k) = Cert.Spec.zero + ∑ r ∈ Cert.Spec.into (fun r => a2 (ix1 r)) q, h (ix2 r k) := by
  show Host.scatterAdd scatter_S256x128_S100000x1_S100000x128_1_0_0_1 _ _ _ (ix2 q k) = _
  rw [show (scatter_S256x128_S100000x1_S100000x128_1_0_0_1 : ScatterDims S256x128 S100000x1 S100000x128)
      = scatterRowsDims 256 100000 128 scatter_S256x128_S100000x1_S100000x128_1_0_0_1_wf from rfl]
  unfold Host.scatterAdd
  rw [Ideal.hostScatterAdd_def, scatterAddRows_apply]
  refine congrArg₂ (· + ·) (broadcastInDim_scalar_apply _ _ _) ?_
  rw [edges_col (by decide) bcast_S100000_S100000x1_0 a2 q]

/-- The graph's mean row: the sum over the count, a count below one read as one. -/
theorem poolT_apply (cnt : FC S256) (sums : FC S256x128) (q : Fin 256) (k : Fin 128) :
    poolT cnt sums (ix2 q k) = Ideal.div (sums (ix2 q k)) (max (cnt (ix1 q)) Cert.Spec.one) := by
  show Ideal.div (sums (ix2 q k)) _ = _
  refine congrArg (Ideal.div _) ?_
  refine (bcast_col_mat (by decide) bcast_S256x1_S256x128_0_1 _ q k).trans ?_
  refine (bcast_vec_col (by decide) bcast_S256_S256x1_0 _ q 0).trans ?_
  exact congrArg (max _) (broadcastInDim_scalar_apply _ _ _)

/-- A choice between two halves at a position in the first half. -/
theorem addCases_lt {m n : ℕ} {β : Type} (L : Fin m → β) (R : Fin n → β) (l : Fin (m + n)) (hl : l.val < m) :
    Fin.addCases (motive := fun _ => β) L R l = L ⟨l.val, hl⟩ := by
  obtain ⟨v, hv⟩ := l
  exact Fin.addCases_left (motive := fun _ => β) (left := L) (right := R) ⟨v, hl⟩

/-- A choice between two halves at a position in the second half. -/
theorem addCases_ge {m n : ℕ} {β : Type} (L : Fin m → β) (R : Fin n → β) (l : Fin (m + n)) (hl : m ≤ l.val) :
    Fin.addCases (motive := fun _ => β) L R l = R ⟨l.val - m, by have := l.isLt; omega⟩ := by
  obtain ⟨v, hv⟩ := l
  have hl' : m ≤ v := hl
  have hvm : v - m < n := by omega
  show Fin.addCases (motive := fun _ => β) L R ⟨v, hv⟩ = R ⟨v - m, hvm⟩
  have e : (⟨v, hv⟩ : Fin (m + n)) = Fin.natAdd m ⟨v - m, hvm⟩ := Fin.ext (by show v = m + (v - m); omega)
  rw [e, Fin.addCases_right]

/-- The pooled row written twice: position `l` of the doubled row reads the pooled row at `l` or at `l - 128`. -/
theorem dblT_apply (p : FC S256x128) (q : Fin 256) (l : Fin 256) :
    dblT p (ix2 q l) = Cert.Spec.doubled (fun q a => p (ix2 q a)) q l := by
  unfold Cert.Spec.doubled
  by_cases hl : l.val < 128
  · rw [addCases_lt _ _ _ hl]
    exact concatenate_pair_apply_left (t := S256x256) (s₁ := S256x128) (s₂ := S256x128) 1 p p
      concatenates_S256x128_S256x128_S256x256_d1 (ix2 q l) rfl (ix2 q ⟨l.val, hl⟩)
      (fun b => by match b with | ⟨0, _⟩ => rfl | ⟨1, _⟩ => rfl)
  · have hl' : 128 ≤ l.val := by omega
    rw [addCases_ge _ _ _ hl']
    exact concatenate_pair_apply_right (t := S256x256) (s₁ := S256x128) (s₂ := S256x128) 1 p p
      concatenates_S256x128_S256x128_S256x256_d1 (ix2 q l) rfl rfl (ix2 q ⟨l.val - 128, by have := l.isLt; omega⟩)
      (fun b hb => by match b with | ⟨0, _⟩ => rfl | ⟨1, _⟩ => exact absurd rfl hb)
      (by show (l.val - 128) + 128 = l.val; omega)

/-- The first dense layer of the head with its bias and the rectifier, at an entry. -/
theorem hidT_apply (x : FC S256x256) (a15 : FC S256x128) (a16 : FC S128) (q : Fin 256) (k : Fin 128) :
    hidT x a15 a16 (ix2 q k) = max ((∑ l : Fin 256, x (ix2 q l) * a15 (ix2 l k)) + a16 (ix1 k)) Cert.Spec.zero := by
  refine (maximumf_apply (s := S256x128) (φ := .f32) _ _ (ix2 q k)).trans ?_
  refine congrArg₂ max ?_ (broadcastInDim_scalar_apply _ _ _)
  refine (addf_apply (s := S256x128) (φ := .f32) _ _ (ix2 q k)).trans ?_
  refine congrArg₂ (· + ·) ?_ (bias_apply (by decide) bcast_S128_S1x128_1 bcast_S1x128_S256x128_0_1 a16 q k)
  exact Cert.LibDense.dotGeneral_plain _ x a15 (ix2 q k)

/-- The second dense layer of the head with its bias, at an entry. -/
theorem outT_apply (x : FC S256x128) (a17 : FC S128x64) (a18 : FC S64) (q : Fin 256) (j : Fin 64) :
    outT x a17 a18 (ix2 q j) = (∑ k : Fin 128, x (ix2 q k) * a17 (ix2 k j)) + a18 (ix1 j) := by
  refine (addf_apply (s := S256x64) (φ := .f32) _ _ (ix2 q j)).trans ?_
  refine congrArg₂ (· + ·) ?_ (bias_apply (by decide) bcast_S64_S1x64_1 bcast_S1x64_S256x64_0_1 a18 q j)
  exact Cert.LibDense.dotGeneral_plain _ x a17 (ix2 q j)

/-- THE HEAD at an entry: mean pooling by graph number, the pooled row doubled, two dense layers. -/
theorem tailT_apply (h : FC S100000x128) (a2 : IC S100000) (a15 : FC S256x128) (a16 : FC S128) (a17 : FC S128x64) (a18 : FC S64)
    (q : Fin 256) (j : Fin 64) :
    tailT h a2 a15 a16 a17 a18 (ix2 q j)
      = Cert.Spec.mlp (G := 256) (a := 256) (h := 128) (o := 64)
          ((fun M => M : Cert.Spec.Mat 256 (128 + 128) → Cert.Spec.Mat 256 256)
            (Cert.Spec.doubled (Cert.Spec.pooled (N := 100000) (G := 256) (fun r => a2 (ix1 r)) (fun r k => h (ix2 r k)))))
          (fun l k => a15 (ix2 l k)) (fun k => a16 (ix1 k)) (fun k j => a17 (ix2 k j)) (fun j => a18 (ix1 j)) q j := by
  unfold tailT Cert.Spec.mlp
  refine (outT_apply _ a17 a18 q j).trans ?_
  beta_reduce
  refine congrArg₂ (· + ·) ?_ rfl
  refine Finset.sum_congr rfl fun k _ => ?_
  refine congrArg₂ (· * ·) ?_ rfl
  refine (hidT_apply _ a15 a16 q k).trans ?_
  refine congrArg₂ max ?_ rfl
  refine congrArg₂ (· + ·) ?_ rfl
  refine Finset.sum_congr rfl fun l _ => ?_
  refine congrArg₂ (· * ·) ?_ rfl
  refine (dblT_apply _ q l).trans ?_
  refine congrArg (fun X : Cert.Spec.Mat 256 128 => Cert.Spec.doubled X q l) (funext fun q' => funext fun a => ?_)
  refine (poolT_apply _ _ q' a).trans ?_
  unfold Cert.Spec.pooled
  rw [cntT_apply, sumsT_apply]

end Cert.ReferenceIdeal.Hand

end
-- ==== Proof.Ref.Read.lean ====
/-
  The reference's result read index by index: @main's result buffer holds, at graph q and output column j, the
  specification's network `netR` of the nineteen arguments (three layers over the edge list with self-loops appended,
  mean pooling by graph number, the pooled row doubled, two dense layers).
-/
import proofs.«115763_j74259984548099_2_alg».proof.Proof.Ref.ReadNet
import proofs.«115763_j74259984548099_2_alg».proof.Proof.Ref.ReadTail

noncomputable section

namespace Cert.ReferenceIdeal.Hand

open Cert.ReferenceIdeal Cert.ReferenceIdeal.Gen Idealize.ShloMosaic Idealize.ShloMosaic.ValueIdx Cert.Lib.Rows

/-- @main's result at (q, j) is the specification's network of the nineteen arguments read index by index. -/
theorem refTerm_apply (a0 : FC S100000x20) (a1 : IC S2x640000) (a2 : IC S100000) (a3 : FC S20x128) (a4 : FC S128) (a5 : FC S128x128) (a6 : FC S128)
    (a7 : FC S128x128) (a8 a9 a10 a11 a12 a13 a14 : FC S128) (a15 : FC S256x128) (a16 : FC S128) (a17 : FC S128x64) (a18 : FC S64) (q : Fin 256) (j : Fin 64) :
    refTerm a0 a1 a2 a3 a4 a5 a6 a7 a8 a9 a10 a11 a12 a13 a14 a15 a16 a17 a18 (ix2 q j)
      = Cert.Spec.netR (N := 100000) (E' := 740000) (G := 256) (a := 256) (by decide) 100000#32 (srcCat a1) (dstCat a1) (fun r => a2 (ix1 r))
          (fun r k => a0 (ix2 r k)) (fun k j => a3 (ix2 k j)) (fun j => a4 (ix1 j)) (fun j => a9 (ix1 j)) (fun j => a10 (ix1 j))
          (fun k j => a5 (ix2 k j)) (fun j => a6 (ix1 j)) (fun j => a11 (ix1 j)) (fun j => a12 (ix1 j))
          (fun k j => a7 (ix2 k j)) (fun j => a8 (ix1 j)) (fun j => a13 (ix1 j)) (fun j => a14 (ix1 j))
          (fun M => M) (fun l k => a15 (ix2 l k)) (fun k => a16 (ix1 k)) (fun k j => a17 (ix2 k j)) (fun j => a18 (ix1 j)) q j :=
  refTerm_apply_of_tail tailT_apply a0 a1 a2 a3 a4 a5 a6 a7 a8 a9 a10 a11 a12 a13 a14 a15 a16 a17 a18 q j

end Cert.ReferenceIdeal.Hand

end
-- ==== Proof.AlgBasic.lean ====
/-
  Shared facts for comparing the two graph-convolution networks on the extended reals.

  * The four binary32 words of the computation: 0, 1, 100000 (the number of rows) and a positive real eps.
  * A 32-bit word whose signed reading is a row `d` of the table is read back as `d` by the gather.
  * The iota word of a row `r' < 2^31` reads back, signed, as `r'`.
  * An edge list extended by one self-loop per node: the edges into a row are the given edges into it
    and its own self-loop, so every sum over them is the sum over the given edges plus one more term.
-/
import Mathlib
import Idealize.ShloMosaic.PureOps.Ideal
import proofs.«115763_j74259984548099_2_alg».proof.Proof.Spec
import proofs.«115763_j74259984548099_2_alg».proof.Proof.LibRows
import proofs.«115763_j74259984548099_2_alg».proof.Proof.LibBatchNorm

noncomputable section

namespace Cert.Alg

open Idealize.ShloMosaic Cert.Spec

/-- An extended real that is a real number (the predicate of the batch-norm library). -/
abbrev IsReal (x : EReal) : Prop := Cert.LibBatchNorm.IsReal x

/-! ## The words -/

theorem zero_eq : Cert.Spec.zero = 0 := Cert.LibBatchNorm.ofBits_zero
theorem one_eq : Cert.Spec.one = 1 := Cert.LibBatchNorm.ofBits_one
theorem nf_eq : Cert.Spec.nf = ((100000 : ℝ) : EReal) := Cert.LibBatchNorm.ofBits_100000
theorem eps_pos : ∃ e : ℝ, 0 < e ∧ Cert.Spec.eps = (e : EReal) := Cert.LibBatchNorm.ofBits_eps_pos

/-! ## Row numbers -/

/-- The word of a natural number below 2^31 reads back, signed, as that number. -/
theorem toInt_ofNat_of_lt (n : ℕ) (h : n < 2 ^ 31) : (BitVec.ofNat 32 n).toInt = (n : Int) := by
  rw [BitVec.toInt_eq_toNat_cond, BitVec.toNat_ofNat]
  have h1 : n % 2 ^ 32 = n := Nat.mod_eq_of_lt (by omega)
  rw [h1]
  split <;> omega

/-- A word whose signed reading is the row `d` gathers row `d`: the wrap of negative numbers does nothing
    and the clamp does nothing. -/
theorem rowG_of_toInt {N : ℕ} (hN : 0 < N) (c v : BitVec 32) (d : Fin N) (h : v.toInt = (d.val : Int)) :
    rowG N hN c v = d := by
  unfold rowG wrapI
  rw [Cert.Lib.Rows.wrap_of_toInt v c d.val h]
  exact Cert.Lib.Rows.rowOf_of_toInt hN v d h

/-- The iota word of a row gathers that row. -/
theorem rowG_ofNat {N : ℕ} (hN : 0 < N) (hN31 : N < 2 ^ 31) (c : BitVec 32) (d : Fin N) :
    rowG N hN c (BitVec.ofNat 32 d.val) = d :=
  rowG_of_toInt hN c _ d (toInt_ofNat_of_lt d.val (lt_trans d.isLt hN31))

/-- An edge into row `d` gathers row `d` at its target word. -/
theorem rowG_of_mem_into {N E : ℕ} (hN : 0 < N) (c : BitVec 32) (idx : Fin E → BitVec 32) (d : Fin N) (e : Fin E)
    (he : e ∈ into idx d) : rowG N hN c (idx e) = d :=
  rowG_of_toInt hN c _ d (Finset.mem_filter.mp he).2

/-! ## Edges with one self-loop per node appended -/

/-- A sum over the edges into row `r` of the extended list: the given edges into `r`, then the self-loop of `r`. -/
theorem sum_into_append {N E : ℕ} {M : Type*} [AddCommMonoid M] (hN31 : N < 2 ^ 31)
    (dst : Fin E → BitVec 32) (t : Fin (E + N) → BitVec 32)
    (ht1 : ∀ e : Fin E, t (Fin.castAdd N e) = dst e) (ht2 : ∀ r : Fin N, t (Fin.natAdd E r) = BitVec.ofNat 32 r.val)
    (r : Fin N) (f : Fin (E + N) → M) :
    ∑ e ∈ into t r, f e = (∑ e ∈ into dst r, f (Fin.castAdd N e)) + f (Fin.natAdd E r) := by
  unfold into
  rw [Finset.sum_filter, Fin.sum_univ_add, Finset.sum_filter]
  congr 1
  · refine Finset.sum_congr rfl fun e _ => ?_
    rw [ht1]
  · have key : ∀ r' : Fin N, ((t (Fin.natAdd E r')).toInt = (r.val : Int)) ↔ r' = r := by
      intro r'
      rw [ht2, toInt_ofNat_of_lt r'.val (lt_trans r'.isLt hN31)]
      constructor
      · intro h; exact Fin.ext (by exact_mod_cast h)
      · rintro rfl; rfl
    simp only [key]
    rw [Finset.sum_ite_eq' Finset.univ r]
    simp

end Cert.Alg

end
-- ==== Proof.AlgDeg.lean ====
/-
  The degrees and the normalising factors of the two networks agree.

  With one self-loop per node appended, the in-degree counted over the extended edge list is the in-degree over the
  given edges plus one: a natural number plus one, hence a real number that is at least 1. So the guard
  `deg > 0` always holds, both sides take the reciprocal square root of the same positive real, and the factor
  is a positive real.
-/
import Mathlib
import Idealize.ShloMosaic.PureOps.Ideal
import proofs.«115763_j74259984548099_2_alg».proof.Proof.Spec
import proofs.«115763_j74259984548099_2_alg».proof.Proof.LibBatchNorm
import proofs.«115763_j74259984548099_2_alg».proof.Proof.AlgBasic

noncomputable section

namespace Cert.Alg

open Idealize.ShloMosaic Cert.Spec

/-- The degree with the node itself counted is a real number and is positive. -/
theorem degK_real_pos {N E : ℕ} (dst : Fin E → BitVec 32) (r : Fin N) :
    IsReal (degK dst r) ∧ 0 < degK dst r := by
  unfold degK
  rw [zero_eq, one_eq]
  refine ⟨(Cert.LibBatchNorm.IsReal.zero.add (Cert.LibBatchNorm.IsReal.sum _ _ fun _ _ => Cert.LibBatchNorm.IsReal.one)).add
    Cert.LibBatchNorm.IsReal.one, ?_⟩
  have h0 : (0 : EReal) ≤ 0 + ∑ _e ∈ into dst r, (1 : EReal) := by
    rw [zero_add]
    exact Finset.sum_nonneg fun _ _ => zero_le_one
  exact lt_of_lt_of_le zero_lt_one (le_add_of_nonneg_left h0)

/-- The degree over the extended edge list is the degree over the given edges plus one. -/
theorem degR_eq_degK {N E : ℕ} (hN31 : N < 2 ^ 31) (dst : Fin E → BitVec 32) (t : Fin (E + N) → BitVec 32)
    (ht1 : ∀ e : Fin E, t (Fin.castAdd N e) = dst e) (ht2 : ∀ r : Fin N, t (Fin.natAdd E r) = BitVec.ofNat 32 r.val)
    (r : Fin N) : degR t r = degK dst r := by
  unfold degR degK
  rw [sum_into_append hN31 dst t ht1 ht2 r (fun _ => Cert.Spec.one), add_assoc]

/-- The normalising factors agree: the guard holds, and both are the reciprocal square root of the same degree. -/
theorem disR_eq_disK {N E : ℕ} (hN31 : N < 2 ^ 31) (dst : Fin E → BitVec 32) (t : Fin (E + N) → BitVec 32)
    (ht1 : ∀ e : Fin E, t (Fin.castAdd N e) = dst e) (ht2 : ∀ r : Fin N, t (Fin.natAdd E r) = BitVec.ofNat 32 r.val) :
    (disR t : Fin N → EReal) = disK dst := by
  funext r
  unfold disR disK
  rw [degR_eq_degK hN31 dst t ht1 ht2 r]
  have hpos : degK dst r > Cert.Spec.zero := by
    rw [zero_eq]; exact (degK_real_pos dst r).2
  rw [if_pos hpos]

/-- The normalising factor is a positive real number. -/
theorem disK_pos_real {N E : ℕ} (dst : Fin E → BitVec 32) (r : Fin N) :
    ∃ c : ℝ, 0 < c ∧ disK dst r = (c : EReal) := by
  obtain ⟨hr, hp⟩ := degK_real_pos dst r
  obtain ⟨⟨c, hc⟩, hcp⟩ := Cert.LibBatchNorm.IsReal.rsqrt_of_pos hr hp
  refine ⟨c, ?_, hc⟩
  rw [hc] at hcp
  exact_mod_cast hcp

theorem disK_real {N E : ℕ} (dst : Fin E → BitVec 32) (r : Fin N) : IsReal (disK dst r) := by
  obtain ⟨c, _, hc⟩ := disK_pos_real dst r
  exact ⟨c, hc⟩

end Cert.Alg

end
-- ==== Proof.LibScaledSums.lean ====
/-
  Scaled sums on the extended reals, and the f32 words of this computation as extended reals.

  On EReal the product does not distribute over the sum in general (⊤ + ⊥ = ⊥ breaks it), but a NONNEGATIVE REAL
  constant does distribute: c · (a + b) = c · a + c · b for every a, b (Mathlib's `EReal.left_distrib_of_nonneg_of_ne_top`).
  By induction on the index set the same holds for every finite sum, with no finiteness asked of the terms.
-/
import Mathlib
import Idealize.ShloMosaic.PureOps.Ideal

noncomputable section

namespace ScaledSums

open Idealize.ShloMosaic

/-- A nonnegative real constant distributes over the sum of two extended reals, whatever they are. -/
theorem coe_mul_add_of_nonneg {c : ℝ} (hc : 0 ≤ c) (a b : EReal) :
    (c : EReal) * (a + b) = (c : EReal) * a + (c : EReal) * b :=
  EReal.left_distrib_of_nonneg_of_ne_top (EReal.coe_nonneg.mpr hc) (EReal.coe_ne_top c) a b

/-- A nonnegative real constant distributes over a finite sum of extended reals: c · Σ_{k∈s} f k = Σ_{k∈s} c · f k. -/
theorem coe_mul_sum_of_nonneg {ι : Type*} {c : ℝ} (hc : 0 ≤ c) (s : Finset ι) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha, coe_mul_add_of_nonneg hc, ih]

/-- The same over a whole finite index type: c · Σ_k f k = Σ_k c · f k. -/
theorem coe_mul_sum_univ_of_nonneg {ι : Type*} [Fintype ι] {c : ℝ} (hc : 0 ≤ c) (f : ι → EReal) :
    (c : EReal) * ∑ k, f k = ∑ k, (c : EReal) * f k :=
  coe_mul_sum_of_nonneg hc Finset.univ f

/-- The constant on the right: (Σ_{k∈s} f k) · c = Σ_{k∈s} f k · c. -/
theorem sum_mul_coe_of_nonneg {ι : Type*} {c : ℝ} (hc : 0 ≤ c) (s : Finset ι) (f : ι → EReal) :
    (∑ k ∈ s, f k) * (c : EReal) = ∑ k ∈ s, f k * (c : EReal) := by
  rw [mul_comm, coe_mul_sum_of_nonneg hc]
  exact Finset.sum_congr rfl fun k _ => mul_comm _ _

/-- The constant on the right, over a whole finite index type. -/
theorem sum_univ_mul_coe_of_nonneg {ι : Type*} [Fintype ι] {c : ℝ} (hc : 0 ≤ c) (f : ι → EReal) :
    (∑ k, f k) * (c : EReal) = ∑ k, f k * (c : EReal) :=
  sum_mul_coe_of_nonneg hc Finset.univ f

/-! ## The f32 words as extended reals -/

/-- The word 0x00000000 denotes 0. -/
theorem ofBits_f32_zero : Ideal.ofBits .f32 0x00000000#32 = 0 := by
  simp [Ideal.ofBits, Ideal.ieee]

/-- The word 0x3F800000 denotes 1. -/
theorem ofBits_f32_one : Ideal.ofBits .f32 0x3F800000#32 = ((1 : ℝ) : EReal) := by
  simp [Ideal.ofBits, Ideal.ieee, -EReal.coe_mul]; norm_num

/-- The word 0x40000000 denotes 2. -/
theorem ofBits_f32_two : Ideal.ofBits .f32 0x40000000#32 = ((2 : ℝ) : EReal) := by
  simp [Ideal.ofBits, Ideal.ieee, -EReal.coe_mul]; norm_num

/-- The word 0x45000000 denotes 2048 = 2¹¹. -/
theorem ofBits_f32_2048 : Ideal.ofBits .f32 0x45000000#32 = ((2048 : ℝ) : EReal) := by
  simp [Ideal.ofBits, Ideal.ieee, -EReal.coe_mul]; norm_num

/-- The word 0x49000000 denotes 524288 = 2¹⁹. -/
theorem ofBits_f32_524288 : Ideal.ofBits .f32 0x49000000#32 = ((524288 : ℝ) : EReal) := by
  simp [Ideal.ofBits, Ideal.ieee, -EReal.coe_mul]; norm_num

/-- The word 0x36800000 denotes 2⁻¹⁸ = 1/262144. -/
theorem ofBits_f32_inv_262144 : Ideal.ofBits .f32 0x36800000#32 = ((1 / 262144 : ℝ) : EReal) := by
  simp [Ideal.ofBits, Ideal.ieee, -EReal.coe_mul]; norm_num

end ScaledSums

end
-- ==== Proof.AlgAgg.lean ====
/-
  The aggregated rows of the two networks agree, and are real numbers when the inputs are.

  One side sums, over the edges into row `r` of the extended list, the source row times `dis(src) · dis(dst)`; the edges
  into `r` are the given edges into `r` (whose target reads back as `r`) and the self-loop of `r` (both ends read back as
  `r`). The other side scales every row by `dis` first, sums over the given edges, adds the node's own scaled row, and
  scales by `dis r` again. Since `dis r` is a nonnegative real constant it distributes over the sum on the extended
  reals whatever the terms are, and the products agree by commutativity and associativity.
-/
import Mathlib
import Idealize.ShloMosaic.PureOps.Ideal
import proofs.«115763_j74259984548099_2_alg».proof.Proof.Spec
import proofs.«115763_j74259984548099_2_alg».proof.Proof.LibBatchNorm
import proofs.«115763_j74259984548099_2_alg».proof.Proof.LibScaledSums
import proofs.«115763_j74259984548099_2_alg».proof.Proof.AlgBasic
import proofs.«115763_j74259984548099_2_alg».proof.Proof.AlgDeg

noncomputable section

namespace Cert.Alg

open Idealize.ShloMosaic Cert.Spec

/-- The arithmetic core: a nonnegative real factor `d` taken inside each term or outside the whole sum. -/
theorem scale_in_out {ι : Type*} {d : ℝ} (hd : 0 ≤ d) (S : Finset ι) (A B : ι → EReal) (x b : EReal) :
    ((0 : EReal) + ((∑ e ∈ S, A e * (B e * (d : EReal))) + x * ((d : EReal) * (d : EReal)))) + b
      = (d : EReal) * (((0 : EReal) + ∑ e ∈ S, A e * B e) + x * (d : EReal)) + b := by
  rw [zero_add, zero_add, ScaledSums.coe_mul_add_of_nonneg hd, ScaledSums.coe_mul_sum_of_nonneg hd]
  congr 1
  congr 1
  · refine Finset.sum_congr rfl fun e _ => ?_
    rw [mul_comm (d : EReal) (A e * B e), mul_assoc]
  · rw [mul_comm (d : EReal) (x * (d : EReal)), mul_assoc]

/-- The aggregated rows agree, for any table `hl` of rows and any bias. -/
theorem aggR_eq_aggK {N E h : ℕ} (hN : 0 < N) (hN31 : N < 2 ^ 31) (c : BitVec 32)
    (src dst : Fin E → BitVec 32) (s t : Fin (E + N) → BitVec 32)
    (hs1 : ∀ e : Fin E, s (Fin.castAdd N e) = src e) (hs2 : ∀ r : Fin N, s (Fin.natAdd E r) = BitVec.ofNat 32 r.val)
    (ht1 : ∀ e : Fin E, t (Fin.castAdd N e) = dst e) (ht2 : ∀ r : Fin N, t (Fin.natAdd E r) = BitVec.ofNat 32 r.val)
    (hl : Mat N h) (b : Fin h → EReal) :
    aggR hN c s t (disR t) hl b = aggK hN c src dst (disK dst) (fun r j => hl r j * disK dst r) b := by
  funext r j
  rw [disR_eq_disK hN31 dst t ht1 ht2]
  unfold aggR aggK combine edgeSum
  rw [sum_into_append hN31 dst t ht1 ht2 r]
  simp only [hs1, hs2, ht1, ht2, rowG_ofNat hN hN31]
  rw [Finset.sum_congr rfl (fun e he => by rw [rowG_of_mem_into hN c dst r e he])]
  obtain ⟨d, hd0, hd⟩ := disK_pos_real dst r
  rw [zero_eq, hd]
  exact scale_in_out hd0.le (into dst r) (fun e => hl (rowG N hN c (src e)) j) (fun e => disK dst (rowG N hN c (src e))) (hl r j) (b j)

/-- A dense map of real tables is real. -/
theorem dense_real {n d h : ℕ} (x : Mat n d) (w : Mat d h) (hx : ∀ r k, IsReal (x r k)) (hw : ∀ k j, IsReal (w k j))
    (r : Fin n) (j : Fin h) : IsReal (dense x w r j) := by
  unfold dense
  exact Cert.LibBatchNorm.IsReal.sum _ _ fun k _ => (hx r k).mul (hw k j)

/-- The aggregated rows are real when the table and the bias are. -/
theorem aggK_real {N E h : ℕ} (hN : 0 < N) (c : BitVec 32) (src dst : Fin E → BitVec 32)
    (hl : Mat N h) (b : Fin h → EReal) (hhl : ∀ r j, IsReal (hl r j)) (hb : ∀ j, IsReal (b j)) (r : Fin N) (j : Fin h) :
    IsReal (aggK hN c src dst (disK dst) (fun r j => hl r j * disK dst r) b r j) := by
  unfold aggK combine edgeSum
  rw [zero_eq]
  refine ((disK_real dst r).mul (((Cert.LibBatchNorm.IsReal.zero).add
    (Cert.LibBatchNorm.IsReal.sum _ _ fun e _ => ?_)).add ((hhl r j).mul (disK_real dst r)))).add (hb j)
  exact (hhl _ j).mul (disK_real dst _)

end Cert.Alg

end
-- ==== Proof.AlgNorm.lean ====
/-
  The column statistics of the two networks agree on a table of real numbers with 100000 rows.

  One side takes the mean as `S / n` and the variance in one pass, `max (Q / n − mean²) 0`; the other takes the mean from
  a zero start and the variance in two passes, `(∑ (x − mean)²) / (n − 0)`. For real entries these are the same real
  numbers (the batch-norm library's law), the variance is nonnegative, and the normalised, scaled, shifted and
  rectified entries are real.
-/
import Mathlib
import Idealize.ShloMosaic.PureOps.Ideal
import proofs.«115763_j74259984548099_2_alg».proof.Proof.Spec
import proofs.«115763_j74259984548099_2_alg».proof.Proof.LibBatchNorm
import proofs.«115763_j74259984548099_2_alg».proof.Proof.AlgBasic

noncomputable section

namespace Cert.Alg

open Idealize.ShloMosaic Cert.Spec

/-- Column by column: the two means agree, the two variances agree, both are real and the variance is nonnegative. -/
theorem stats_col {n h : ℕ} (hn : n = 100000) (a : Mat n h) (ha : ∀ r j, IsReal (a r j)) (j : Fin h) :
    meanR a j = meanK a j ∧ varR a j = varK a j ∧ IsReal (meanK a j) ∧ IsReal (varK a j) ∧ 0 ≤ varK a j := by
  have hcard : (100000 : ℝ) = (Fintype.card (Fin n) : ℝ) := by
    rw [Fintype.card_fin, hn]; norm_num
  obtain ⟨h1, h2, h3, h4, h5⟩ := Cert.LibBatchNorm.stats_eq (fun r => a r j) (fun r => ha r j) (100000 : ℝ) hcard
    (by norm_num) (∑ r : Fin n, a r j) (∑ r : Fin n, a r j * a r j) (zero_add _).symm (zero_add _).symm
  have hmK : meanK a j = Cert.LibBatchNorm.meanK ((100000 : ℝ) : EReal) (∑ r : Fin n, a r j) := by
    unfold meanK Cert.LibBatchNorm.meanK
    rw [nf_eq]
  have hmR : meanR a j = Cert.LibBatchNorm.meanR (fun r => a r j) ((100000 : ℝ) : EReal) := by
    unfold meanR Cert.LibBatchNorm.meanR
    rw [nf_eq, zero_eq]
  have hvK : varK a j = Cert.LibBatchNorm.varK ((100000 : ℝ) : EReal) (∑ r : Fin n, a r j) (∑ r : Fin n, a r j * a r j) := by
    unfold varK Cert.LibBatchNorm.varK
    rw [hmK, nf_eq, zero_eq]
  have hvR : varR a j = Cert.LibBatchNorm.varR (fun r => a r j) ((100000 : ℝ) : EReal) := by
    unfold varR Cert.LibBatchNorm.varR
    rw [hmR, nf_eq, zero_eq]
    simp only [Int.cast_zero, EReal.coe_zero, sub_zero]
  rw [hmK, hmR, hvK, hvR, h1, h2]
  exact ⟨rfl, rfl, h3, h4, h5⟩

/-- The two means and the two variances agree as functions of the column. -/
theorem stats_eq {n h : ℕ} (hn : n = 100000) (a : Mat n h) (ha : ∀ r j, IsReal (a r j)) :
    meanR a = meanK a ∧ varR a = varK a :=
  ⟨funext fun j => (stats_col hn a ha j).1, funext fun j => (stats_col hn a ha j).2.1⟩

/-- Normalised, scaled, shifted and rectified real entries are real. -/
theorem bnRelu_real {n h : ℕ} (a : Mat n h) (mean var g beta : Fin h → EReal) (ha : ∀ r j, IsReal (a r j))
    (hm : ∀ j, IsReal (mean j)) (hv : ∀ j, IsReal (var j)) (hv0 : ∀ j, 0 ≤ var j)
    (hg : ∀ j, IsReal (g j)) (hbeta : ∀ j, IsReal (beta j)) (r : Fin n) (j : Fin h) :
    IsReal (bnRelu a mean var g beta r j) := by
  unfold bnRelu
  obtain ⟨e, he, heq⟩ := eps_pos
  rw [heq, zero_eq]
  exact (((((ha r j).sub (hm j)).mul (Cert.LibBatchNorm.invstd_real (hv j) (hv0 j) he)).mul (hg j)).add (hbeta j)).max
    Cert.LibBatchNorm.IsReal.zero

end Cert.Alg

end
-- ==== Proof.AlgLayer.lean ====
/-
  One layer, then the whole network: the two sides agree when every float entry is a real number.

  A layer: the aggregated rows agree (and are real), so the column statistics agree, so the normalised and rectified
  rows agree, and they are real again. Three layers follow one after the other; the tail (pooling, doubling, two
  dense layers) is the same function on both sides.
-/
import Mathlib
import Idealize.ShloMosaic.PureOps.Ideal
import proofs.«115763_j74259984548099_2_alg».proof.Proof.Spec
import proofs.«115763_j74259984548099_2_alg».proof.Proof.LibBatchNorm
import proofs.«115763_j74259984548099_2_alg».proof.Proof.AlgBasic
import proofs.«115763_j74259984548099_2_alg».proof.Proof.AlgDeg
import proofs.«115763_j74259984548099_2_alg».proof.Proof.AlgAgg
import proofs.«115763_j74259984548099_2_alg».proof.Proof.AlgNorm

noncomputable section

namespace Cert.Alg

open Idealize.ShloMosaic Cert.Spec

/-- One layer of the two networks agrees on real inputs, and its output is real. -/
theorem layer_eq {N E d h : ℕ} (hN : 0 < N) (hN31 : N < 2 ^ 31) (hNf : N = 100000)
    (src dst : Fin E → BitVec 32) (s t : Fin (E + N) → BitVec 32)
    (hs1 : ∀ e : Fin E, s (Fin.castAdd N e) = src e) (hs2 : ∀ r : Fin N, s (Fin.natAdd E r) = BitVec.ofNat 32 r.val)
    (ht1 : ∀ e : Fin E, t (Fin.castAdd N e) = dst e) (ht2 : ∀ r : Fin N, t (Fin.natAdd E r) = BitVec.ofNat 32 r.val)
    (x : Mat N d) (w : Mat d h) (b g beta : Fin h → EReal)
    (hx : ∀ r k, IsReal (x r k)) (hw : ∀ k j, IsReal (w k j)) (hb : ∀ j, IsReal (b j))
    (hg : ∀ j, IsReal (g j)) (hbeta : ∀ j, IsReal (beta j)) :
    layerR hN (BitVec.ofNat 32 N) s t x w b g beta = layerK hN (BitVec.ofNat 32 N) src dst x w b g beta
      ∧ ∀ r j, IsReal (layerK hN (BitVec.ofNat 32 N) src dst x w b g beta r j) := by
  have hagg : aggR hN (BitVec.ofNat 32 N) s t (disR t) (dense x w) b
      = aggK hN (BitVec.ofNat 32 N) src dst (disK dst) (hsK x w (disK dst)) b :=
    aggR_eq_aggK hN hN31 (BitVec.ofNat 32 N) src dst s t hs1 hs2 ht1 ht2 (dense x w) b
  have hreal : ∀ r j, IsReal (aggK hN (BitVec.ofNat 32 N) src dst (disK dst) (hsK x w (disK dst)) b r j) :=
    aggK_real hN (BitVec.ofNat 32 N) src dst (dense x w) b (dense_real x w hx hw) hb
  obtain ⟨hm, hv⟩ := stats_eq hNf _ hreal
  constructor
  · show bnRelu (aggR hN (BitVec.ofNat 32 N) s t (disR t) (dense x w) b)
        (meanR (aggR hN (BitVec.ofNat 32 N) s t (disR t) (dense x w) b))
        (varR (aggR hN (BitVec.ofNat 32 N) s t (disR t) (dense x w) b)) g beta
      = bnRelu (aggK hN (BitVec.ofNat 32 N) src dst (disK dst) (hsK x w (disK dst)) b)
        (meanK (aggK hN (BitVec.ofNat 32 N) src dst (disK dst) (hsK x w (disK dst)) b))
        (varK (aggK hN (BitVec.ofNat 32 N) src dst (disK dst) (hsK x w (disK dst)) b)) g beta
    rw [hagg, hm, hv]
  · intro r j
    show IsReal (bnRelu (aggK hN (BitVec.ofNat 32 N) src dst (disK dst) (hsK x w (disK dst)) b)
        (meanK (aggK hN (BitVec.ofNat 32 N) src dst (disK dst) (hsK x w (disK dst)) b))
        (varK (aggK hN (BitVec.ofNat 32 N) src dst (disK dst) (hsK x w (disK dst)) b)) g beta r j)
    exact bnRelu_real _ _ _ g beta hreal (fun j => (stats_col hNf _ hreal j).2.2.1)
      (fun j => (stats_col hNf _ hreal j).2.2.2.1) (fun j => (stats_col hNf _ hreal j).2.2.2.2) hg hbeta r j

/-- The two whole networks agree when the node features and the three layers' parameters are real. -/
theorem net_eq {N E G d h a o : ℕ} (hN : 0 < N) (hN31 : N < 2 ^ 31) (hNf : N = 100000)
    (src dst : Fin E → BitVec 32) (s t : Fin (E + N) → BitVec 32)
    (hs1 : ∀ e : Fin E, s (Fin.castAdd N e) = src e) (hs2 : ∀ r : Fin N, s (Fin.natAdd E r) = BitVec.ofNat 32 r.val)
    (ht1 : ∀ e : Fin E, t (Fin.castAdd N e) = dst e) (ht2 : ∀ r : Fin N, t (Fin.natAdd E r) = BitVec.ofNat 32 r.val)
    (batch : Fin N → BitVec 32) (x : Mat N d)
    (w0 : Mat d h) (b0 g0 be0 : Fin h → EReal) (w1 : Mat h h) (b1 g1 be1 : Fin h → EReal)
    (w2 : Mat h h) (b2 g2 be2 : Fin h → EReal) (cast : Mat G (h + h) → Mat G a)
    (ew1 : Mat a h) (eb1 : Fin h → EReal) (ew2 : Mat h o) (eb2 : Fin o → EReal)
    (hx : ∀ r k, IsReal (x r k))
    (hw0 : ∀ k j, IsReal (w0 k j)) (hb0 : ∀ j, IsReal (b0 j)) (hg0 : ∀ j, IsReal (g0 j)) (hbe0 : ∀ j, IsReal (be0 j))
    (hw1 : ∀ k j, IsReal (w1 k j)) (hb1 : ∀ j, IsReal (b1 j)) (hg1 : ∀ j, IsReal (g1 j)) (hbe1 : ∀ j, IsReal (be1 j))
    (hw2 : ∀ k j, IsReal (w2 k j)) (hb2 : ∀ j, IsReal (b2 j)) (hg2 : ∀ j, IsReal (g2 j)) (hbe2 : ∀ j, IsReal (be2 j)) :
    netR hN (BitVec.ofNat 32 N) s t batch x w0 b0 g0 be0 w1 b1 g1 be1 w2 b2 g2 be2 cast ew1 eb1 ew2 eb2
      = netK hN (BitVec.ofNat 32 N) src dst batch x w0 b0 g0 be0 w1 b1 g1 be1 w2 b2 g2 be2 cast ew1 eb1 ew2 eb2 := by
  obtain ⟨e0, r0⟩ := layer_eq hN hN31 hNf src dst s t hs1 hs2 ht1 ht2 x w0 b0 g0 be0 hx hw0 hb0 hg0 hbe0
  obtain ⟨e1, r1⟩ := layer_eq hN hN31 hNf src dst s t hs1 hs2 ht1 ht2 _ w1 b1 g1 be1 r0 hw1 hb1 hg1 hbe1
  obtain ⟨e2, _⟩ := layer_eq hN hN31 hNf src dst s t hs1 hs2 ht1 ht2 _ w2 b2 g2 be2 r1 hw2 hb2 hg2 hbe2
  unfold netR netK
  rw [e0, e1, e2]

end Cert.Alg

end
-- ==== Proof.PreReal.lean ====
import proofs.«115763_j74259984548099_2_alg».proof.Pre_finite_inputs
import Idealize.ShloMosaic.PureOps.Ideal
import Idealize.ShloMosaic.Lib.ReduceAll
import Idealize.ShloMosaic.Lib.ValueIdx
import proofs.«115763_j74259984548099_2_alg».proof.Proof.LibBatchNorm

/-!
  From the finiteness precondition to "every float input entry is a real number".

  The precondition is the conjunction, over the seventeen float arguments `a`, of `all (|a| < +∞)`.
  At the ideal instance an entry is an extended real `x`, `|x|` is `max x (-x)`, and the pattern
  `0x7F800000` denotes `⊤`; `max x (-x) < ⊤` excludes `x = ⊤` and `x = ⊥`, so `x` is (the coercion of)
  a real number.
-/

noncomputable section

namespace Cert.PreReal

open Idealize.ShloMosaic Idealize.ShloMosaic.ValueIdx
open Cert.Pre_finite_inputs
open Cert.LibBatchNorm (IsReal)

/-- The scalar shape has one index. -/
instance : Subsingleton S_.Idx := ⟨fun a b => funext fun d => d.elim0⟩

/-- An extended real whose absolute value `max x (-x)` compares below `+∞` is a real number. -/
theorem isReal_of_abs_lt (x : EReal)
    (h : FloatOps.cmpf (F := Ideal) (φ := .f32) .olt (FloatOps.hostAbsf (F := Ideal) (φ := .f32) x)
      (FloatOps.ofBits (F := Ideal) .f32 0x7F800000#32) = 1#1) : IsReal x := by
  have htop : Ideal.ofBits .f32 0x7F800000#32 = ⊤ := by simp [Ideal.ofBits, Ideal.ieee]
  change BitVec.ofBool (decide (max x (-x) < Ideal.ofBits .f32 0x7F800000#32)) = 1#1 at h
  rw [htop] at h
  induction x using EReal.rec with
  | bot => simp at h
  | coe r => exact ⟨r, rfl⟩
  | top => simp at h

/-- One argument's conjunct: `all (|a| < +∞)`, a reduction by `and` over every axis that came out 1,
    says every entry of `a` is a real number. -/
theorem real_of_all {s : Shape} {axes : List (Fin s.rank)} (a : FVec Ideal s .f32)
    (hb : S_.BroadcastsInDim s (![] : Fin 0 → Fin s.rank)) (hred : s.ReducesTo axes S_) (hS : 0 < S_.numel)
    (h : Host.reduce IntOp.andi
        (cmpf .olt (Host.absf a) (broadcastInDim s ![] hb (constant (F := Ideal) S_ .f32 0x7F800000#32)))
        (constantI S_ 1 1#1) hred hS ix0 = 1#1) : ∀ i, IsReal (a i) := by
  intro i
  exact isReal_of_abs_lt (a i) (Host.reduce_andi_all _ _ hred hS ix0 h i)

/-- The precondition, read back: every entry of each of the seventeen float arguments is a real number. -/
theorem real_of_pre [Facts] (a0 : FVec Ideal S100000x20 .f32) (a1 : IVec S2x640000 32) (a2 : IVec S100000 32) (a3 : FVec Ideal S20x128 .f32) (a4 : FVec Ideal S128 .f32) (a5 : FVec Ideal S128x128 .f32) (a6 : FVec Ideal S128 .f32) (a7 : FVec Ideal S128x128 .f32) (a8 : FVec Ideal S128 .f32) (a9 : FVec Ideal S128 .f32) (a10 : FVec Ideal S128 .f32) (a11 : FVec Ideal S128 .f32) (a12 : FVec Ideal S128 .f32) (a13 : FVec Ideal S128 .f32) (a14 : FVec Ideal S128 .f32) (a15 : FVec Ideal S256x128 .f32) (a16 : FVec Ideal S128 .f32) (a17 : FVec Ideal S128x64 .f32) (a18 : FVec Ideal S64 .f32)
    (h : Cert.Pre_finite_inputs.fn (F := Ideal) a0 a1 a2 a3 a4 a5 a6 a7 a8 a9 a10 a11 a12 a13 a14 a15 a16 a17 a18 = (fun _ => 1#1)) :
    (∀ i, IsReal (a0 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) ∧ (∀ i, IsReal (a15 i)) ∧ (∀ i, IsReal (a16 i)) ∧ (∀ i, IsReal (a17 i)) ∧ (∀ i, IsReal (a18 i)) := by
  have h0 := congrFun h ix0
  dsimp only [fn, fn_part1, fn_part2, fn_part3, fn_part4] at h0
  simp only [Idealize.ShloMosaic.andi, IntOp.andi_eq_one, and_assoc] at h0
  obtain ⟨e0, e3, e4, e5, e6, e7, e8, e9, e10, e11, e12, e13, e14, e15, e16, e17, e18⟩ := h0
  exact ⟨real_of_all a0 _ _ _ e0,
    real_of_all a3 _ _ _ e3,
    real_of_all a4 _ _ _ e4,
    real_of_all a5 _ _ _ e5,
    real_of_all a6 _ _ _ e6,
    real_of_all a7 _ _ _ e7,
    real_of_all a8 _ _ _ e8,
    real_of_all a9 _ _ _ e9,
    real_of_all a10 _ _ _ e10,
    real_of_all a11 _ _ _ e11,
    real_of_all a12 _ _ _ e12,
    real_of_all a13 _ _ _ e13,
    real_of_all a14 _ _ _ e14,
    real_of_all a15 _ _ _ e15,
    real_of_all a16 _ _ _ e16,
    real_of_all a17 _ _ _ e17,
    real_of_all a18 _ _ _ e18⟩

end Cert.PreReal
-- ==== Proof.lean ====
/-
  The proof of the certificate's claim.

  Both programs compute, at every output index, one function of the argument arrays on the extended reals: three
  graph-convolution layers (a dense map, the symmetric degree normalisation, the sum over the edges into a node,
  a bias row, a batch normalisation over the node axis, a rectifier), mean pooling by graph number, the pooled row
  doubled, and two dense layers.  The kernel program scales every row by deg^(-1/2) before and after the edge sum and adds
  the node's own row by hand, and takes the variance in one pass; the reference carries a self-loop edge per node,
  multiplies each edge's row by the two endpoint factors, and takes the variance in two passes.  For real entries the two
  agree: the scale is a positive real and distributes over the edge sum, and E[x²] − E[x]² = E[(x − E[x])²] ≥ 0.
  The precondition says every float input is finite, which is what makes every intermediate entry a real number.

  The frames: each of the ten kernel regions runs its body at every grid point from the buffer contents the items before it
  leave, and writes only its own output arrays; the host stretches between them write no argument.  The reference is a host
  program; its run names every intermediate stage.
-/
import proofs.«115763_j74259984548099_2_alg».proof.Defs
import proofs.«115763_j74259984548099_2_alg».proof.Proof.Gen.Kernel
import proofs.«115763_j74259984548099_2_alg».proof.Proof.Gen.KernelIdeal
import proofs.«115763_j74259984548099_2_alg».proof.Proof.Gen.ReferenceIdeal
import proofs.«115763_j74259984548099_2_alg».proof.Proof.Gen.Pre_finite_inputs
import proofs.«115763_j74259984548099_2_alg».proof.Proof.K.Frame
import proofs.«115763_j74259984548099_2_alg».proof.Proof.KI.Run
import proofs.«115763_j74259984548099_2_alg».proof.Proof.KI.Value
import proofs.«115763_j74259984548099_2_alg».proof.Proof.Ref.Run
import proofs.«115763_j74259984548099_2_alg».proof.Proof.Ref.Read
import proofs.«115763_j74259984548099_2_alg».proof.Proof.AlgLayer
import proofs.«115763_j74259984548099_2_alg».proof.Proof.PreReal
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k [Cert.Kernel.Facts] [Cert.Pre_finite_inputs.Facts] : Cert.frame_Kernel :=
  fun m ρ _ => Cert.Kernel.Hand.frame (F := Bits) m ρ

theorem frame_ki [Cert.KernelIdeal.Facts] [Cert.Pre_finite_inputs.Facts] : Cert.frame_KernelIdeal :=
  fun m ρ _ => Cert.KernelIdeal.Hand.frame (F := Ideal) m ρ

/-- The reference's frame is its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Hand.run (F := Ideal) m ρ)

theorem preserves : Cert.preserves_Kernel_KernelIdeal := trivial

open Cert.KernelIdeal in
/-- At every output index both runs end at one function of the argument arrays: the kernel program's result is the
    scale-before-and-after network, the reference's the self-loop network, and they agree because every float entry is real. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Hand.St18 m c Cert.KernelIdeal.main_v99, Cert.KernelIdeal.Hand.run (F := Ideal) m ρ, ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5, e6, e7, e8, e9, e10, e11, e12, e13, e14, e15, e16, e17, e18⟩ := hagree c
  rw [e0, e1, e2, e3, e4, e5, e6, e7, e8, e9, e10, e11, e12, e13, e14, e15, e16, e17, e18]
  obtain ⟨r0, r3, r4, r5, r6, r7, r8, r9, r10, r11, r12, r13, r14, r15, r16, r17, r18⟩ := Cert.PreReal.real_of_pre _ _ _ _ _ _ _ _ _ _ _ _ _ _ _ _ _ _ _ (hpre c)
  funext i
  obtain ⟨q, j, rfl⟩ : ∃ (q : Fin 256) (j : Fin 64), i = ix2 q j := ⟨i 0, i 1, eq_ix2 i⟩
  rw [Cert.ReferenceIdeal.Hand.refTerm_apply]
  refine Eq.trans ?_ (Cert.KernelIdeal.Hand.kerTerm_apply m c q j).symm
  exact congrFun (congrFun (Cert.Alg.net_eq (N := 100000) (E := 640000) (by decide) (by decide) rfl _ _ _ _
    (fun e => Cert.ReferenceIdeal.Hand.srcCat_lt _ _ e.isLt) (fun r => Cert.ReferenceIdeal.Hand.srcCat_ge _ r)
    (fun e => Cert.ReferenceIdeal.Hand.dstCat_lt _ _ e.isLt) (fun r => Cert.ReferenceIdeal.Hand.dstCat_ge _ r)
    _ _ _ _ _ _ _ _ _ _ _ _ _ _ _ _ _ _ _
    (fun r k => r0 _) (fun k j => r3 _) (fun j => r4 _) (fun j => r9 _) (fun j => r10 _)
    (fun k j => r5 _) (fun j => r6 _) (fun j => r11 _) (fun j => r12 _)
    (fun k j => r7 _) (fun j => r8 _) (fun j => r13 _) (fun j => r14 _)) q) j

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
